-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v242)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v242) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v263) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x64x256x256 : Shape := ⟨4, ![2, 64, 256, 256]⟩
abbrev S2x65536x2 : Shape := ⟨3, ![2, 65536, 2]⟩
abbrev S2x65536x1 : Shape := ⟨3, ![2, 65536, 1]⟩
abbrev S833x256 : Shape := ⟨2, ![833, 256]⟩
abbrev S256 : Shape := ⟨1, ![256]⟩
abbrev S256x256 : Shape := ⟨2, ![256, 256]⟩
abbrev S256x3 : Shape := ⟨2, ![256, 3]⟩
abbrev S3 : Shape := ⟨1, ![3]⟩
abbrev S_ : Shape := ⟨0, ![]⟩

class Facts : Prop where
  bcast_S_S2x64x256x256 : S_.BroadcastsInDim S2x64x256x256 (![] : Fin 0 → Fin S2x64x256x256.rank)
  reducesTo_S2x64x256x256_S_d0_1_2_3 : S2x64x256x256.ReducesTo [0, 1, 2, 3] S_
  h_S_ : 0 < S_.numel
  bcast_S_S2x65536x2 : S_.BroadcastsInDim S2x65536x2 (![] : Fin 0 → Fin S2x65536x2.rank)
  reducesTo_S2x65536x2_S_d0_1_2 : S2x65536x2.ReducesTo [0, 1, 2] S_
  bcast_S_S2x65536x1 : S_.BroadcastsInDim S2x65536x1 (![] : Fin 0 → Fin S2x65536x1.rank)
  reducesTo_S2x65536x1_S_d0_1_2 : S2x65536x1.ReducesTo [0, 1, 2] S_
  bcast_S_S833x256 : S_.BroadcastsInDim S833x256 (![] : Fin 0 → Fin S833x256.rank)
  reducesTo_S833x256_S_d0_1 : S833x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x3 : S_.BroadcastsInDim S256x3 (![] : Fin 0 → Fin S256x3.rank)
  reducesTo_S256x3_S_d0_1 : S256x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg11 : FVec F S256x3 .f32) (main_arg12 : FVec F S3 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x3 .f32 := Host.absf main_arg11
  let main_cst_20 : FVec F S_ .f32 := constant S_ .f32 0x7F800000#32
  let main_v55 : FVec F S256x3 .f32 := broadcastInDim S256x3 ![] bcast_S_S256x3 main_cst_20
  let main_v56 : IVec S256x3 1 := cmpf .olt main_v54 main_v55
  let main_c_21 : IVec S_ 1 := constantI S_ 1 1#1
  let main_v57 : IVec S_ 1 := (fun x v => Host.reduce IntOp.andi x v reducesTo_S256x3_S_d0_1 h_S_) main_v56 main_c_21
  let main_v58 : IVec S_ 1 := andi main_v53 main_v57
  let main_v59 : FVec F S3 .f32 := Host.absf main_arg12
  let main_cst_22 : FVec F S_ .f32 := constant S_ .f32 0x7F800000#32
  let main_v60 : FVec F S3 .f32 := broadcastInDim S3 ![] bcast_S_S3 main_cst_22
  let main_v61 : IVec S3 1 := cmpf .olt main_v59 main_v60
  let main_c_23 : IVec S_ 1 := constantI S_ 1 1#1
  let main_v62 : IVec S_ 1 := (fun x v => Host.reduce IntOp.andi x v reducesTo_S3_S_d0 h_S_) main_v61 main_c_23
  let main_v63 : IVec S_ 1 := andi main_v58 main_v62
  main_v63

def fn_part2 {F : FTy → Type} [FloatOps F] (main_arg7 : FVec F S256x256 .f32) (main_arg8 : FVec F S256 .f32) (main_arg9 : FVec F S256x256 .f32) (main_arg10 : FVec F S256 .f32) (main_arg11 : FVec F S256x3 .f32) (main_arg12 : FVec F S3 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x3 .f32) (main_arg12 : FVec F S3 .f32) (main_v13 : IVec S_ 1) (main_v16 : IVec S833x256 1) : IVec S_ 1 :=
  let main_c_5 : IVec S_ 1 := constantI S_ 1 1#1
  let main_v17 : IVec S_ 1 := (fun x v => Host.reduce IntOp.andi x v reducesTo_S833x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S2x64x256x256 .f32) (main_arg1 : FVec F S2x65536x2 .f32) (main_arg2 : FVec F S2x65536x1 .f32) (main_arg3 : FVec F S833x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x3 .f32) (main_arg12 : FVec F S3 .f32) : IVec S_ 1 :=
  let main_v0 : FVec F S2x64x256x256 .f32 := Host.absf main_arg0
  let main_cst : FVec F S_ .f32 := constant S_ .f32 0x7F800000#32
  let main_v1 : FVec F S2x64x256x256 .f32 := broadcastInDim S2x64x256x256 ![] bcast_S_S2x64x256x256 main_cst
  let main_v2 : IVec S2x64x256x256 1 := cmpf .olt main_v0 main_v1
  let main_c : IVec S_ 1 := constantI S_ 1 1#1
  let main_v3 : IVec S_ 1 := (fun x v => Host.reduce IntOp.andi x v reducesTo_S2x64x256x256_S_d0_1_2_3 h_S_) main_v2 main_c
  let main_v4 : FVec F S2x65536x2 .f32 := Host.absf main_arg1
  let main_cst_0 : FVec F S_ .f32 := constant S_ .f32 0x7F800000#32
  let main_v5 : FVec F S2x65536x2 .f32 := broadcastInDim S2x65536x2 ![] bcast_S_S2x65536x2 main_cst_0
  let main_v6 : IVec S2x65536x2 1 := cmpf .olt main_v4 main_v5
  let main_c_1 : IVec S_ 1 := constantI S_ 1 1#1
  let main_v7 : IVec S_ 1 := (fun x v => Host.reduce IntOp.andi x v reducesTo_S2x65536x2_S_d0_1_2 h_S_) main_v6 main_c_1
  let main_v8 : IVec S_ 1 := andi main_v3 main_v7
  let main_v9 : FVec F S2x65536x1 .f32 := Host.absf main_arg2
  let main_cst_2 : FVec F S_ .f32 := constant S_ .f32 0x7F800000#32
  let main_v10 : FVec F S2x65536x1 .f32 := broadcastInDim S2x65536x1 ![] bcast_S_S2x65536x1 main_cst_2
  let main_v11 : IVec S2x65536x1 1 := cmpf .olt main_v9 main_v10
  let main_c_3 : IVec S_ 1 := constantI S_ 1 1#1
  let main_v12 : IVec S_ 1 := (fun x v => Host.reduce IntOp.andi x v reducesTo_S2x65536x1_S_d0_1_2 h_S_) main_v11 main_c_3
  let main_v13 : IVec S_ 1 := andi main_v8 main_v12
  let main_v14 : FVec F S833x256 .f32 := Host.absf main_arg3
  let main_cst_4 : FVec F S_ .f32 := constant S_ .f32 0x7F800000#32
  let main_v15 : FVec F S833x256 .f32 := broadcastInDim S833x256 ![] bcast_S_S833x256 main_cst_4
  let main_v16 : IVec S833x256 1 := cmpf .olt main_v14 main_v15
  fn_part1 (F := F) main_arg4 main_arg5 main_arg6 main_arg7 main_arg8 main_arg9 main_arg10 main_arg11 main_arg12 main_v13 main_v16
-- ==== Kernel.lean ====
abbrev S2x64x256x256 : Shape := ⟨4, ![2, 64, 256, 256]⟩
abbrev S2x65536x2 : Shape := ⟨3, ![2, 65536, 2]⟩
abbrev S2x65536x1 : Shape := ⟨3, ![2, 65536, 1]⟩
abbrev S833x256 : Shape := ⟨2, ![833, 256]⟩
abbrev S256 : Shape := ⟨1, ![256]⟩
abbrev S256x256 : Shape := ⟨2, ![256, 256]⟩
abbrev S256x3 : Shape := ⟨2, ![256, 3]⟩
abbrev S3 : Shape := ⟨1, ![3]⟩
abbrev S1x1x1 : Shape := ⟨3, ![1, 1, 1]⟩
abbrev S_ : Shape := ⟨0, ![]⟩
abbrev S2x64x65536 : Shape := ⟨3, ![2, 64, 65536]⟩
abbrev S2x65536 : Shape := ⟨2, ![2, 65536]⟩
abbrev S2x1x65536 : Shape := ⟨3, ![2, 1, 65536]⟩
abbrev S1 : Shape := ⟨1, ![1]⟩
abbrev S2x65536x64 : Shape := ⟨3, ![2, 65536, 64]⟩
abbrev S2x65536x256 : Shape := ⟨3, ![2, 65536, 256]⟩
abbrev S2x64x258x258 : Shape := ⟨4, ![2, 64, 258, 258]⟩
abbrev S2x64x1x256x256 : Shape := ⟨5, ![2, 64, 1, 256, 256]⟩
abbrev S2x64x9x256x256 : Shape := ⟨5, ![2, 64, 9, 256, 256]⟩
abbrev S2x576x65536 : Shape := ⟨3, ![2, 576, 65536]⟩
abbrev S2x65536x576 : Shape := ⟨3, ![2, 65536, 576]⟩
abbrev S2x65536x833 : Shape := ⟨3, ![2, 65536, 833]⟩
abbrev S131072x833 : Shape := ⟨2, ![131072, 833]⟩
abbrev S1x256 : Shape := ⟨2, ![1, 256]⟩
abbrev S1x3 : Shape := ⟨2, ![1, 3]⟩
abbrev S131072x3 : Shape := ⟨2, ![131072, 3]⟩
abbrev S2048x833 : Shape := ⟨2, ![2048, 833]⟩
abbrev S2048x3 : Shape := ⟨2, ![2048, 3]⟩
abbrev S2048x256 : Shape := ⟨2, ![2048, 256]⟩
abbrev S2x65536x3 : Shape := ⟨3, ![2, 65536, 3]⟩

abbrev nBuf : Space → Nat
  | .hbm => 490
  | .vmem => 14
  | .smem => 0
  | _ => 0

abbrev hbmTy0_0 (i : Nat) : BufTy := match i % 128 with
  | 0 => ⟨S2x64x256x256, .f32⟩
  | 1 => ⟨S2x65536x2, .f32⟩
  | 2 => ⟨S2x65536x1, .f32⟩
  | 3 => ⟨S833x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x3, .f32⟩
  | 12 => ⟨S3, .f32⟩
  | 13 => ⟨S1x1x1, .f32⟩
  | 14 => ⟨S_, .f32⟩
  | 15 => ⟨S2x64x65536, .f32⟩
  | 16 => ⟨S2x65536x1, .f32⟩
  | 17 => ⟨S2x65536, .f32⟩
  | 18 => ⟨S_, .f32⟩
  | 19 => ⟨S_, .f32⟩
  | 20 => ⟨S_, .f32⟩
  | 21 => ⟨S_, .f32⟩
  | 22 => ⟨S2x65536, .f32⟩
  | 23 => ⟨S2x65536, .f32⟩
  | 24 => ⟨S_, .f32⟩
  | 25 => ⟨S2x65536, .f32⟩
  | 26 => ⟨S2x65536, .f32⟩
  | 27 => ⟨S2x65536x1, .f32⟩
  | 28 => ⟨S2x65536, .f32⟩
  | 29 => ⟨S_, .f32⟩
  | 30 => ⟨S_, .f32⟩
  | 31 => ⟨S_, .f32⟩
  | 32 => ⟨S_, .f32⟩
  | 33 => ⟨S2x65536, .f32⟩
  | 34 => ⟨S2x65536, .f32⟩
  | 35 => ⟨S_, .f32⟩
  | 36 => ⟨S2x65536, .f32⟩
  | 37 => ⟨S2x65536, .f32⟩
  | 38 => ⟨S2x65536x1, .f32⟩
  | 39 => ⟨S2x65536x1, .f32⟩
  | 40 => ⟨S2x65536x2, .f32⟩
  | 41 => ⟨S_, .f32⟩
  | 42 => ⟨S_, .f32⟩
  | 43 => ⟨S_, .f32⟩
  | 44 => ⟨S2x65536x2, .f32⟩
  | 45 => ⟨S2x65536x2, .f32⟩
  | 46 => ⟨S_, .f32⟩
  | 47 => ⟨S2x65536x2, .f32⟩
  | 48 => ⟨S2x65536x2, .f32⟩
  | 49 => ⟨S2x65536x1, .f32⟩
  | 50 => ⟨S2x65536, .f32⟩
  | 51 => ⟨S_, .f32⟩
  | 52 => ⟨S2x65536, .f32⟩
  | 53 => ⟨S2x65536, .f32⟩
  | 54 => ⟨S_, .f32⟩
  | 55 => ⟨S2x65536, .f32⟩
  | 56 => ⟨S2x65536, .f32⟩
  | 57 => ⟨S_, .f32⟩
  | 58 => ⟨S2x65536, .f32⟩
  | 59 => ⟨S2x65536, .f32⟩
  | 60 => ⟨S_, .f32⟩
  | 61 => ⟨S2x65536, .f32⟩
  | 62 => ⟨S2x65536, .f32⟩
  | 63 => ⟨S2x65536, .f32⟩
  | 64 => ⟨S_, .i32⟩
  | 65 => ⟨S_, .i32⟩
  | 66 => ⟨S_, .f32⟩
  | 67 => ⟨S2x65536, .f32⟩
  | 68 => ⟨S2x65536, .f32⟩
  | 69 => ⟨S_, .f32⟩
  | 70 => ⟨S2x65536, .f32⟩
  | 71 => ⟨S2x65536, .f32⟩
  | 72 => ⟨S2x65536, .i32⟩
  | 73 => ⟨S2x65536x1, .f32⟩
  | 74 => ⟨S2x65536, .f32⟩
  | 75 => ⟨S_, .f32⟩
  | 76 => ⟨S2x65536, .f32⟩
  | 77 => ⟨S2x65536, .f32⟩
  | 78 => ⟨S_, .f32⟩
  | 79 => ⟨S2x65536, .f32⟩
  | 80 => ⟨S2x65536, .f32⟩
  | 81 => ⟨S_, .f32⟩
  | 82 => ⟨S2x65536, .f32⟩
  | 83 => ⟨S2x65536, .f32⟩
  | 84 => ⟨S_, .f32⟩
  | 85 => ⟨S2x65536, .f32⟩
  | 86 => ⟨S2x65536, .f32⟩
  | 87 => ⟨S2x65536, .f32⟩
  | 88 => ⟨S_, .i32⟩
  | 89 => ⟨S_, .i32⟩
  | 90 => ⟨S_, .f32⟩
  | 91 => ⟨S2x65536, .f32⟩
  | 92 => ⟨S2x65536, .f32⟩
  | 93 => ⟨S_, .f32⟩
  | 94 => ⟨S2x65536, .f32⟩
  | 95 => ⟨S2x65536, .f32⟩
  | 96 => ⟨S2x65536, .i32⟩
  | 97 => ⟨S_, .i32⟩
  | 98 => ⟨S2x65536, .i32⟩
  | 99 => ⟨S2x65536, .i32⟩
  | 100 => ⟨S2x65536, .i32⟩
  | 101 => ⟨S2x1x65536, .i32⟩
  | 102 => ⟨S_, .i32⟩
  | 103 => ⟨S2x1x65536, .i32⟩
  | 104 => ⟨S2x1x65536, .i1⟩
  | 105 => ⟨S_, .i32⟩
  | 106 => ⟨S2x1x65536, .i32⟩
  | 107 => ⟨S2x1x65536, .i32⟩
  | 108 => ⟨S2x1x65536, .i32⟩
  | 109 => ⟨S2x65536x1, .i32⟩
  | 110 => ⟨S1, .i32⟩
  | 111 => ⟨S_, .i32⟩
  | 112 => ⟨S2x65536x1, .i32⟩
  | 113 => ⟨S2x65536x1, .i1⟩
  | 114 => ⟨S1x1x1, .i32⟩
  | 115 => ⟨S2x65536x1, .i32⟩
  | 116 => ⟨S2x65536x1, .i1⟩
  | 117 => ⟨S2x65536x1, .i1⟩
  | 118 => ⟨S_, .i1⟩
  | 119 => ⟨S2x65536, .i1⟩
  | 120 => ⟨S2x64x65536, .f32⟩
  | 121 => ⟨S2x64x65536, .i1⟩
  | 122 => ⟨S_, .f32⟩
  | 123 => ⟨S2x64x65536, .f32⟩
  | 124 => ⟨S2x64x65536, .f32⟩
  | 125 => ⟨S2x65536x64, .f32⟩
  | 126 => ⟨S2x65536x1, .f32⟩
  | 127 => ⟨S2x65536, .f32⟩
  | _ => ⟨S2x64x256x256, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S2x65536, .f32⟩
  | 5 => ⟨S2x65536, .f32⟩
  | 6 => ⟨S_, .f32⟩
  | 7 => ⟨S2x65536, .f32⟩
  | 8 => ⟨S2x65536, .f32⟩
  | 9 => ⟨S2x65536x1, .f32⟩
  | 10 => ⟨S2x65536, .f32⟩
  | 11 => ⟨S_, .f32⟩
  | 12 => ⟨S_, .f32⟩
  | 13 => ⟨S_, .f32⟩
  | 14 => ⟨S_, .f32⟩
  | 15 => ⟨S2x65536, .f32⟩
  | 16 => ⟨S2x65536, .f32⟩
  | 17 => ⟨S_, .f32⟩
  | 18 => ⟨S2x65536, .f32⟩
  | 19 => ⟨S2x65536, .f32⟩
  | 20 => ⟨S2x65536x1, .f32⟩
  | 21 => ⟨S2x65536x1, .f32⟩
  | 22 => ⟨S2x65536x2, .f32⟩
  | 23 => ⟨S_, .f32⟩
  | 24 => ⟨S_, .f32⟩
  | 25 => ⟨S_, .f32⟩
  | 26 => ⟨S2x65536x2, .f32⟩
  | 27 => ⟨S2x65536x2, .f32⟩
  | 28 => ⟨S_, .f32⟩
  | 29 => ⟨S2x65536x2, .f32⟩
  | 30 => ⟨S2x65536x2, .f32⟩
  | 31 => ⟨S2x65536x1, .f32⟩
  | 32 => ⟨S2x65536, .f32⟩
  | 33 => ⟨S_, .f32⟩
  | 34 => ⟨S2x65536, .f32⟩
  | 35 => ⟨S2x65536, .f32⟩
  | 36 => ⟨S_, .f32⟩
  | 37 => ⟨S2x65536, .f32⟩
  | 38 => ⟨S2x65536, .f32⟩
  | 39 => ⟨S_, .f32⟩
  | 40 => ⟨S2x65536, .f32⟩
  | 41 => ⟨S2x65536, .f32⟩
  | 42 => ⟨S_, .f32⟩
  | 43 => ⟨S2x65536, .f32⟩
  | 44 => ⟨S2x65536, .f32⟩
  | 45 => ⟨S2x65536, .f32⟩
  | 46 => ⟨S_, .i32⟩
  | 47 => ⟨S_, .i32⟩
  | 48 => ⟨S_, .f32⟩
  | 49 => ⟨S2x65536, .f32⟩
  | 50 => ⟨S2x65536, .f32⟩
  | 51 => ⟨S_, .f32⟩
  | 52 => ⟨S2x65536, .f32⟩
  | 53 => ⟨S2x65536, .f32⟩
  | 54 => ⟨S2x65536, .i32⟩
  | 55 => ⟨S2x65536x1, .f32⟩
  | 56 => ⟨S2x65536, .f32⟩
  | 57 => ⟨S_, .f32⟩
  | 58 => ⟨S2x65536, .f32⟩
  | 59 => ⟨S2x65536, .f32⟩
  | 60 => ⟨S_, .f32⟩
  | 61 => ⟨S2x65536, .f32⟩
  | 62 => ⟨S2x65536, .f32⟩
  | 63 => ⟨S_, .f32⟩
  | 64 => ⟨S2x65536, .f32⟩
  | 65 => ⟨S2x65536, .f32⟩
  | 66 => ⟨S_, .f32⟩
  | 67 => ⟨S2x65536, .f32⟩
  | 68 => ⟨S2x65536, .f32⟩
  | 69 => ⟨S2x65536, .f32⟩
  | 70 => ⟨S_, .i32⟩
  | 71 => ⟨S_, .i32⟩
  | 72 => ⟨S_, .f32⟩
  | 73 => ⟨S2x65536, .f32⟩
  | 74 => ⟨S2x65536, .f32⟩
  | 75 => ⟨S_, .f32⟩
  | 76 => ⟨S2x65536, .f32⟩
  | 77 => ⟨S2x65536, .f32⟩
  | 78 => ⟨S2x65536, .i32⟩
  | 79 => ⟨S_, .i32⟩
  | 80 => ⟨S2x65536, .i32⟩
  | 81 => ⟨S2x65536, .i32⟩
  | 82 => ⟨S2x65536, .i32⟩
  | 83 => ⟨S2x1x65536, .i32⟩
  | 84 => ⟨S_, .i32⟩
  | 85 => ⟨S2x1x65536, .i32⟩
  | 86 => ⟨S2x1x65536, .i1⟩
  | 87 => ⟨S_, .i32⟩
  | 88 => ⟨S2x1x65536, .i32⟩
  | 89 => ⟨S2x1x65536, .i32⟩
  | 90 => ⟨S2x1x65536, .i32⟩
  | 91 => ⟨S2x65536x1, .i32⟩
  | 92 => ⟨S1, .i32⟩
  | 93 => ⟨S_, .i32⟩
  | 94 => ⟨S2x65536x1, .i32⟩
  | 95 => ⟨S2x65536x1, .i1⟩
  | 96 => ⟨S1x1x1, .i32⟩
  | 97 => ⟨S2x65536x1, .i32⟩
  | 98 => ⟨S2x65536x1, .i1⟩
  | 99 => ⟨S2x65536x1, .i1⟩
  | 100 => ⟨S_, .i1⟩
  | 101 => ⟨S2x65536, .i1⟩
  | 102 => ⟨S2x64x65536, .f32⟩
  | 103 => ⟨S2x64x65536, .i1⟩
  | 104 => ⟨S_, .f32⟩
  | 105 => ⟨S2x64x65536, .f32⟩
  | 106 => ⟨S2x64x65536, .f32⟩
  | 107 => ⟨S2x65536x64, .f32⟩
  | 108 => ⟨S2x65536x1, .f32⟩
  | 109 => ⟨S2x65536, .f32⟩
  | 110 => ⟨S_, .f32⟩
  | 111 => ⟨S_, .f32⟩
  | 112 => ⟨S_, .f32⟩
  | 113 => ⟨S_, .f32⟩
  | 114 => ⟨S2x65536, .f32⟩
  | 115 => ⟨S2x65536, .f32⟩
  | 116 => ⟨S_, .f32⟩
  | 117 => ⟨S2x65536, .f32⟩
  | 118 => ⟨S2x65536, .f32⟩
  | 119 => ⟨S2x65536x1, .f32⟩
  | 120 => ⟨S2x65536, .f32⟩
  | 121 => ⟨S_, .f32⟩
  | 122 => ⟨S_, .f32⟩
  | 123 => ⟨S_, .f32⟩
  | 124 => ⟨S_, .f32⟩
  | 125 => ⟨S2x65536, .f32⟩
  | 126 => ⟨S2x65536, .f32⟩
  | 127 => ⟨S_, .f32⟩
  | _ => ⟨S2x64x256x256, .f32⟩

abbrev hbmTy0_2 (i : Nat) : BufTy := match i % 128 with
  | 0 => ⟨S2x65536, .f32⟩
  | 1 => ⟨S2x65536, .f32⟩
  | 2 => ⟨S2x65536x1, .f32⟩
  | 3 => ⟨S2x65536x1, .f32⟩
  | 4 => ⟨S2x65536x2, .f32⟩
  | 5 => ⟨S_, .f32⟩
  | 6 => ⟨S_, .f32⟩
  | 7 => ⟨S_, .f32⟩
  | 8 => ⟨S2x65536x2, .f32⟩
  | 9 => ⟨S2x65536x2, .f32⟩
  | 10 => ⟨S_, .f32⟩
  | 11 => ⟨S2x65536x2, .f32⟩
  | 12 => ⟨S2x65536x2, .f32⟩
  | 13 => ⟨S2x65536x1, .f32⟩
  | 14 => ⟨S2x65536, .f32⟩
  | 15 => ⟨S_, .f32⟩
  | 16 => ⟨S2x65536, .f32⟩
  | 17 => ⟨S2x65536, .f32⟩
  | 18 => ⟨S_, .f32⟩
  | 19 => ⟨S2x65536, .f32⟩
  | 20 => ⟨S2x65536, .f32⟩
  | 21 => ⟨S_, .f32⟩
  | 22 => ⟨S2x65536, .f32⟩
  | 23 => ⟨S2x65536, .f32⟩
  | 24 => ⟨S_, .f32⟩
  | 25 => ⟨S2x65536, .f32⟩
  | 26 => ⟨S2x65536, .f32⟩
  | 27 => ⟨S2x65536, .f32⟩
  | 28 => ⟨S_, .i32⟩
  | 29 => ⟨S_, .i32⟩
  | 30 => ⟨S_, .f32⟩
  | 31 => ⟨S2x65536, .f32⟩
  | 32 => ⟨S2x65536, .f32⟩
  | 33 => ⟨S_, .f32⟩
  | 34 => ⟨S2x65536, .f32⟩
  | 35 => ⟨S2x65536, .f32⟩
  | 36 => ⟨S2x65536, .i32⟩
  | 37 => ⟨S2x65536x1, .f32⟩
  | 38 => ⟨S2x65536, .f32⟩
  | 39 => ⟨S_, .f32⟩
  | 40 => ⟨S2x65536, .f32⟩
  | 41 => ⟨S2x65536, .f32⟩
  | 42 => ⟨S_, .f32⟩
  | 43 => ⟨S2x65536, .f32⟩
  | 44 => ⟨S2x65536, .f32⟩
  | 45 => ⟨S_, .f32⟩
  | 46 => ⟨S2x65536, .f32⟩
  | 47 => ⟨S2x65536, .f32⟩
  | 48 => ⟨S_, .f32⟩
  | 49 => ⟨S2x65536, .f32⟩
  | 50 => ⟨S2x65536, .f32⟩
  | 51 => ⟨S2x65536, .f32⟩
  | 52 => ⟨S_, .i32⟩
  | 53 => ⟨S_, .i32⟩
  | 54 => ⟨S_, .f32⟩
  | 55 => ⟨S2x65536, .f32⟩
  | 56 => ⟨S2x65536, .f32⟩
  | 57 => ⟨S_, .f32⟩
  | 58 => ⟨S2x65536, .f32⟩
  | 59 => ⟨S2x65536, .f32⟩
  | 60 => ⟨S2x65536, .i32⟩
  | 61 => ⟨S_, .i32⟩
  | 62 => ⟨S2x65536, .i32⟩
  | 63 => ⟨S2x65536, .i32⟩
  | 64 => ⟨S2x65536, .i32⟩
  | 65 => ⟨S2x1x65536, .i32⟩
  | 66 => ⟨S_, .i32⟩
  | 67 => ⟨S2x1x65536, .i32⟩
  | 68 => ⟨S2x1x65536, .i1⟩
  | 69 => ⟨S_, .i32⟩
  | 70 => ⟨S2x1x65536, .i32⟩
  | 71 => ⟨S2x1x65536, .i32⟩
  | 72 => ⟨S2x1x65536, .i32⟩
  | 73 => ⟨S2x65536x1, .i32⟩
  | 74 => ⟨S1, .i32⟩
  | 75 => ⟨S_, .i32⟩
  | 76 => ⟨S2x65536x1, .i32⟩
  | 77 => ⟨S2x65536x1, .i1⟩
  | 78 => ⟨S1x1x1, .i32⟩
  | 79 => ⟨S2x65536x1, .i32⟩
  | 80 => ⟨S2x65536x1, .i1⟩
  | 81 => ⟨S2x65536x1, .i1⟩
  | 82 => ⟨S_, .i1⟩
  | 83 => ⟨S2x65536, .i1⟩
  | 84 => ⟨S2x64x65536, .f32⟩
  | 85 => ⟨S2x64x65536, .i1⟩
  | 86 => ⟨S_, .f32⟩
  | 87 => ⟨S2x64x65536, .f32⟩
  | 88 => ⟨S2x64x65536, .f32⟩
  | 89 => ⟨S2x65536x64, .f32⟩
  | 90 => ⟨S2x65536x1, .f32⟩
  | 91 => ⟨S2x65536, .f32⟩
  | 92 => ⟨S_, .f32⟩
  | 93 => ⟨S_, .f32⟩
  | 94 => ⟨S_, .f32⟩
  | 95 => ⟨S_, .f32⟩
  | 96 => ⟨S2x65536, .f32⟩
  | 97 => ⟨S2x65536, .f32⟩
  | 98 => ⟨S_, .f32⟩
  | 99 => ⟨S2x65536, .f32⟩
  | 100 => ⟨S2x65536, .f32⟩
  | 101 => ⟨S2x65536x1, .f32⟩
  | 102 => ⟨S2x65536, .f32⟩
  | 103 => ⟨S_, .f32⟩
  | 104 => ⟨S_, .f32⟩
  | 105 => ⟨S_, .f32⟩
  | 106 => ⟨S_, .f32⟩
  | 107 => ⟨S2x65536, .f32⟩
  | 108 => ⟨S2x65536, .f32⟩
  | 109 => ⟨S_, .f32⟩
  | 110 => ⟨S2x65536, .f32⟩
  | 111 => ⟨S2x65536, .f32⟩
  | 112 => ⟨S2x65536x1, .f32⟩
  | 113 => ⟨S2x65536x1, .f32⟩
  | 114 => ⟨S2x65536x2, .f32⟩
  | 115 => ⟨S_, .f32⟩
  | 116 => ⟨S_, .f32⟩
  | 117 => ⟨S_, .f32⟩
  | 118 => ⟨S2x65536x2, .f32⟩
  | 119 => ⟨S2x65536x2, .f32⟩
  | 120 => ⟨S_, .f32⟩
  | 121 => ⟨S2x65536x2, .f32⟩
  | 122 => ⟨S2x65536x2, .f32⟩
  | 123 => ⟨S2x65536x1, .f32⟩
  | 124 => ⟨S2x65536, .f32⟩
  | 125 => ⟨S_, .f32⟩
  | 126 => ⟨S2x65536, .f32⟩
  | 127 => ⟨S2x65536, .f32⟩
  | _ => ⟨S2x64x256x256, .f32⟩

abbrev hbmTy0_3 (i : Nat) : BufTy := match i % 128 with
  | 0 => ⟨S_, .f32⟩
  | 1 => ⟨S2x65536, .f32⟩
  | 2 => ⟨S2x65536, .f32⟩
  | 3 => ⟨S_, .f32⟩
  | 4 => ⟨S2x65536, .f32⟩
  | 5 => ⟨S2x65536, .f32⟩
  | 6 => ⟨S_, .f32⟩
  | 7 => ⟨S2x65536, .f32⟩
  | 8 => ⟨S2x65536, .f32⟩
  | 9 => ⟨S2x65536, .f32⟩
  | 10 => ⟨S_, .i32⟩
  | 11 => ⟨S_, .i32⟩
  | 12 => ⟨S_, .f32⟩
  | 13 => ⟨S2x65536, .f32⟩
  | 14 => ⟨S2x65536, .f32⟩
  | 15 => ⟨S_, .f32⟩
  | 16 => ⟨S2x65536, .f32⟩
  | 17 => ⟨S2x65536, .f32⟩
  | 18 => ⟨S2x65536, .i32⟩
  | 19 => ⟨S2x65536x1, .f32⟩
  | 20 => ⟨S2x65536, .f32⟩
  | 21 => ⟨S_, .f32⟩
  | 22 => ⟨S2x65536, .f32⟩
  | 23 => ⟨S2x65536, .f32⟩
  | 24 => ⟨S_, .f32⟩
  | 25 => ⟨S2x65536, .f32⟩
  | 26 => ⟨S2x65536, .f32⟩
  | 27 => ⟨S_, .f32⟩
  | 28 => ⟨S2x65536, .f32⟩
  | 29 => ⟨S2x65536, .f32⟩
  | 30 => ⟨S_, .f32⟩
  | 31 => ⟨S2x65536, .f32⟩
  | 32 => ⟨S2x65536, .f32⟩
  | 33 => ⟨S2x65536, .f32⟩
  | 34 => ⟨S_, .i32⟩
  | 35 => ⟨S_, .i32⟩
  | 36 => ⟨S_, .f32⟩
  | 37 => ⟨S2x65536, .f32⟩
  | 38 => ⟨S2x65536, .f32⟩
  | 39 => ⟨S_, .f32⟩
  | 40 => ⟨S2x65536, .f32⟩
  | 41 => ⟨S2x65536, .f32⟩
  | 42 => ⟨S2x65536, .i32⟩
  | 43 => ⟨S_, .i32⟩
  | 44 => ⟨S2x65536, .i32⟩
  | 45 => ⟨S2x65536, .i32⟩
  | 46 => ⟨S2x65536, .i32⟩
  | 47 => ⟨S2x1x65536, .i32⟩
  | 48 => ⟨S_, .i32⟩
  | 49 => ⟨S2x1x65536, .i32⟩
  | 50 => ⟨S2x1x65536, .i1⟩
  | 51 => ⟨S_, .i32⟩
  | 52 => ⟨S2x1x65536, .i32⟩
  | 53 => ⟨S2x1x65536, .i32⟩
  | 54 => ⟨S2x1x65536, .i32⟩
  | 55 => ⟨S2x65536x1, .i32⟩
  | 56 => ⟨S1, .i32⟩
  | 57 => ⟨S_, .i32⟩
  | 58 => ⟨S2x65536x1, .i32⟩
  | 59 => ⟨S2x65536x1, .i1⟩
  | 60 => ⟨S1x1x1, .i32⟩
  | 61 => ⟨S2x65536x1, .i32⟩
  | 62 => ⟨S2x65536x1, .i1⟩
  | 63 => ⟨S2x65536x1, .i1⟩
  | 64 => ⟨S_, .i1⟩
  | 65 => ⟨S2x65536, .i1⟩
  | 66 => ⟨S2x64x65536, .f32⟩
  | 67 => ⟨S2x64x65536, .i1⟩
  | 68 => ⟨S_, .f32⟩
  | 69 => ⟨S2x64x65536, .f32⟩
  | 70 => ⟨S2x64x65536, .f32⟩
  | 71 => ⟨S2x65536x64, .f32⟩
  | 72 => ⟨S2x65536x256, .f32⟩
  | 73 => ⟨S_, .i32⟩
  | 74 => ⟨S_, .f32⟩
  | 75 => ⟨S2x64x258x258, .f32⟩
  | 76 => ⟨S2x64x256x256, .f32⟩
  | 77 => ⟨S2x64x256x256, .f32⟩
  | 78 => ⟨S2x64x256x256, .f32⟩
  | 79 => ⟨S2x64x256x256, .f32⟩
  | 80 => ⟨S2x64x256x256, .f32⟩
  | 81 => ⟨S2x64x256x256, .f32⟩
  | 82 => ⟨S2x64x256x256, .f32⟩
  | 83 => ⟨S2x64x256x256, .f32⟩
  | 84 => ⟨S2x64x256x256, .f32⟩
  | 85 => ⟨S2x64x1x256x256, .f32⟩
  | 86 => ⟨S2x64x1x256x256, .f32⟩
  | 87 => ⟨S2x64x1x256x256, .f32⟩
  | 88 => ⟨S2x64x1x256x256, .f32⟩
  | 89 => ⟨S2x64x1x256x256, .f32⟩
  | 90 => ⟨S2x64x1x256x256, .f32⟩
  | 91 => ⟨S2x64x1x256x256, .f32⟩
  | 92 => ⟨S2x64x1x256x256, .f32⟩
  | 93 => ⟨S2x64x1x256x256, .f32⟩
  | 94 => ⟨S2x64x9x256x256, .f32⟩
  | 95 => ⟨S2x576x65536, .f32⟩
  | 96 => ⟨S2x65536x576, .f32⟩
  | 97 => ⟨S2x65536x833, .f32⟩
  | 98 => ⟨S131072x833, .f32⟩
  | 99 => ⟨S1x256, .f32⟩
  | 100 => ⟨S1x256, .f32⟩
  | 101 => ⟨S1x256, .f32⟩
  | 102 => ⟨S1x256, .f32⟩
  | 103 => ⟨S1x3, .f32⟩
  | 104 => ⟨S131072x3, .f32⟩
  | 105 => ⟨S2x65536x3, .f32⟩
  | _ => ⟨S2x64x256x256, .f32⟩

abbrev hbmTy (i : Nat) : BufTy := match i / 128 with
  | 0 => hbmTy0_0 i
  | 1 => hbmTy0_1 i
  | 2 => hbmTy0_2 i
  | 3 => hbmTy0_3 i
  | _ => ⟨S2x64x256x256, .f32⟩

abbrev bufTy : (tb : Table) → Fin (tcTables nBuf tb) → BufTy
  | .hbm, ⟨i, _⟩ => hbmTy i
  | .local _ .vmem, ⟨0, _⟩ => ⟨S2048x833, .f32⟩
  | .local _ .vmem, ⟨1, _⟩ => ⟨S2048x833, .f32⟩
  | .local _ .vmem, ⟨2, _⟩ => ⟨S833x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S256x3, .f32⟩
  | .local _ .vmem, ⟨11, _⟩ => ⟨S1x3, .f32⟩
  | .local _ .vmem, ⟨12, _⟩ => ⟨S2048x3, .f32⟩
  | .local _ .vmem, ⟨13, _⟩ => ⟨S2048x3, .f32⟩
  | _, _ => ⟨S2x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_cst_6 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_7 : Ref sig .tc := ⟨.hbm, 51, rfl⟩
abbrev main_v25 : Ref sig .tc := ⟨.hbm, 52, rfl⟩
abbrev main_v26 : Ref sig .tc := ⟨.hbm, 53, rfl⟩
abbrev main_cst_8 : Ref sig .tc := ⟨.hbm, 54, rfl⟩
abbrev main_v27 : Ref sig .tc := ⟨.hbm, 55, rfl⟩
abbrev main_v28 : Ref sig .tc := ⟨.hbm, 56, rfl⟩
abbrev main_cst_9 : Ref sig .tc := ⟨.hbm, 57, rfl⟩
abbrev main_v29 : Ref sig .tc := ⟨.hbm, 58, rfl⟩
abbrev main_v30 : Ref sig .tc := ⟨.hbm, 59, rfl⟩
abbrev main_cst_10 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_c : Ref sig .tc := ⟨.hbm, 64, rfl⟩
abbrev main_c_11 : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_12 : Ref sig .tc := ⟨.hbm, 75, rfl⟩
abbrev main_v38 : Ref sig .tc := ⟨.hbm, 76, rfl⟩
abbrev main_v39 : Ref sig .tc := ⟨.hbm, 77, rfl⟩
abbrev main_cst_13 : Ref sig .tc := ⟨.hbm, 78, rfl⟩
abbrev main_v40 : Ref sig .tc := ⟨.hbm, 79, rfl⟩
abbrev main_v41 : Ref sig .tc := ⟨.hbm, 80, rfl⟩
abbrev main_cst_14 : Ref sig .tc := ⟨.hbm, 81, rfl⟩
abbrev main_v42 : Ref sig .tc := ⟨.hbm, 82, rfl⟩
abbrev main_v43 : Ref sig .tc := ⟨.hbm, 83, rfl⟩
abbrev main_cst_15 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_c_16 : Ref sig .tc := ⟨.hbm, 88, rfl⟩
abbrev main_c_17 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_call4_v3 : Ref sig .tc := ⟨.hbm, 93, rfl⟩
abbrev main_call4_v4 : Ref sig .tc := ⟨.hbm, 94, rfl⟩
abbrev main_v47 : Ref sig .tc := ⟨.hbm, 95, rfl⟩
abbrev main_v48 : Ref sig .tc := ⟨.hbm, 96, rfl⟩
abbrev main_c_18 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_call5_c : Ref sig .tc := ⟨.hbm, 102, rfl⟩
abbrev main_call5_v0 : Ref sig .tc := ⟨.hbm, 103, rfl⟩
abbrev main_call5_v1 : Ref sig .tc := ⟨.hbm, 104, rfl⟩
abbrev main_call5_c_0 : Ref sig .tc := ⟨.hbm, 105, rfl⟩
abbrev main_call5_v2 : Ref sig .tc := ⟨.hbm, 106, rfl⟩
abbrev main_call5_v3 : Ref sig .tc := ⟨.hbm, 107, rfl⟩
abbrev main_call5_v4 : Ref sig .tc := ⟨.hbm, 108, rfl⟩
abbrev main_call5_v5 : Ref sig .tc := ⟨.hbm, 109, rfl⟩
abbrev main_call5_c_1 : Ref sig .tc := ⟨.hbm, 110, rfl⟩
abbrev main_call5_c_2 : Ref sig .tc := ⟨.hbm, 111, rfl⟩
abbrev main_call5_v6 : Ref sig .tc := ⟨.hbm, 112, rfl⟩
abbrev main_call5_v7 : Ref sig .tc := ⟨.hbm, 113, rfl⟩
abbrev main_call5_v8 : Ref sig .tc := ⟨.hbm, 114, rfl⟩
abbrev main_call5_v9 : Ref sig .tc := ⟨.hbm, 115, rfl⟩
abbrev main_call5_v10 : Ref sig .tc := ⟨.hbm, 116, rfl⟩
abbrev main_call5_v11 : Ref sig .tc := ⟨.hbm, 117, rfl⟩
abbrev main_call5_c_3 : Ref sig .tc := ⟨.hbm, 118, rfl⟩
abbrev main_call5_v12 : Ref sig .tc := ⟨.hbm, 119, rfl⟩
abbrev main_call5_v13 : Ref sig .tc := ⟨.hbm, 120, rfl⟩
abbrev main_call5_v14 : Ref sig .tc := ⟨.hbm, 121, rfl⟩
abbrev main_call5_cst : Ref sig .tc := ⟨.hbm, 122, rfl⟩
abbrev main_call5_v15 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_cst_19 : Ref sig .tc := ⟨.hbm, 128, rfl⟩
abbrev main_v57 : Ref sig .tc := ⟨.hbm, 129, rfl⟩
abbrev main_cst_20 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_cst_21 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_cst_22 : Ref sig .tc := ⟨.hbm, 139, rfl⟩
abbrev main_v65 : Ref sig .tc := ⟨.hbm, 140, rfl⟩
abbrev main_cst_23 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_cst_24 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_cst_25 : Ref sig .tc := ⟨.hbm, 151, rfl⟩
abbrev main_cst_26 : Ref sig .tc := ⟨.hbm, 152, rfl⟩
abbrev main_call6_v0 : Ref sig .tc := ⟨.hbm, 153, rfl⟩
abbrev main_call6_v1 : Ref sig .tc := ⟨.hbm, 154, rfl⟩
abbrev main_call6_v2 : Ref sig .tc := ⟨.hbm, 155, rfl⟩
abbrev main_call6_v3 : Ref sig .tc := ⟨.hbm, 156, rfl⟩
abbrev main_call6_v4 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_cst_27 : Ref sig .tc := ⟨.hbm, 161, rfl⟩
abbrev main_v77 : Ref sig .tc := ⟨.hbm, 162, rfl⟩
abbrev main_v78 : Ref sig .tc := ⟨.hbm, 163, rfl⟩
abbrev main_cst_28 : Ref sig .tc := ⟨.hbm, 164, rfl⟩
abbrev main_v79 : Ref sig .tc := ⟨.hbm, 165, rfl⟩
abbrev main_v80 : Ref sig .tc := ⟨.hbm, 166, rfl⟩
abbrev main_cst_29 : Ref sig .tc := ⟨.hbm, 167, rfl⟩
abbrev main_v81 : Ref sig .tc := ⟨.hbm, 168, rfl⟩
abbrev main_v82 : Ref sig .tc := ⟨.hbm, 169, rfl⟩
abbrev main_cst_30 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_c_31 : Ref sig .tc := ⟨.hbm, 174, rfl⟩
abbrev main_c_32 : Ref sig .tc := ⟨.hbm, 175, rfl⟩
abbrev main_call8_v0 : Ref sig .tc := ⟨.hbm, 176, rfl⟩
abbrev main_call8_v1 : Ref sig .tc := ⟨.hbm, 177, rfl⟩
abbrev main_call8_v2 : Ref sig .tc := ⟨.hbm, 178, rfl⟩
abbrev main_call8_v3 : Ref sig .tc := ⟨.hbm, 179, rfl⟩
abbrev main_call8_v4 : Ref sig .tc := ⟨.hbm, 180, rfl⟩
abbrev main_v86 : Ref sig .tc := ⟨.hbm, 181, rfl⟩
abbrev main_v87 : Ref sig .tc := ⟨.hbm, 182, rfl⟩
abbrev main_v88 : Ref sig .tc := ⟨.hbm, 183, rfl⟩
abbrev main_v89 : Ref sig .tc := ⟨.hbm, 184, rfl⟩
abbrev main_cst_33 : Ref sig .tc := ⟨.hbm, 185, rfl⟩
abbrev main_v90 : Ref sig .tc := ⟨.hbm, 186, rfl⟩
abbrev main_v91 : Ref sig .tc := ⟨.hbm, 187, rfl⟩
abbrev main_cst_34 : Ref sig .tc := ⟨.hbm, 188, rfl⟩
abbrev main_v92 : Ref sig .tc := ⟨.hbm, 189, rfl⟩
abbrev main_v93 : Ref sig .tc := ⟨.hbm, 190, rfl⟩
abbrev main_cst_35 : Ref sig .tc := ⟨.hbm, 191, rfl⟩
abbrev main_v94 : Ref sig .tc := ⟨.hbm, 192, rfl⟩
abbrev main_v95 : Ref sig .tc := ⟨.hbm, 193, rfl⟩
abbrev main_cst_36 : Ref sig .tc := ⟨.hbm, 194, rfl⟩
abbrev main_v96 : Ref sig .tc := ⟨.hbm, 195, rfl⟩
abbrev main_v97 : Ref sig .tc := ⟨.hbm, 196, rfl⟩
abbrev main_v98 : Ref sig .tc := ⟨.hbm, 197, rfl⟩
abbrev main_c_37 : Ref sig .tc := ⟨.hbm, 198, rfl⟩
abbrev main_c_38 : Ref sig .tc := ⟨.hbm, 199, rfl⟩
abbrev main_call10_v0 : Ref sig .tc := ⟨.hbm, 200, rfl⟩
abbrev main_call10_v1 : Ref sig .tc := ⟨.hbm, 201, rfl⟩
abbrev main_call10_v2 : Ref sig .tc := ⟨.hbm, 202, rfl⟩
abbrev main_call10_v3 : Ref sig .tc := ⟨.hbm, 203, rfl⟩
abbrev main_call10_v4 : Ref sig .tc := ⟨.hbm, 204, rfl⟩
abbrev main_v99 : Ref sig .tc := ⟨.hbm, 205, rfl⟩
abbrev main_v100 : Ref sig .tc := ⟨.hbm, 206, rfl⟩
abbrev main_c_39 : Ref sig .tc := ⟨.hbm, 207, rfl⟩
abbrev main_v101 : Ref sig .tc := ⟨.hbm, 208, rfl⟩
abbrev main_v102 : Ref sig .tc := ⟨.hbm, 209, rfl⟩
abbrev main_v103 : Ref sig .tc := ⟨.hbm, 210, rfl⟩
abbrev main_v104 : Ref sig .tc := ⟨.hbm, 211, rfl⟩
abbrev main_call11_c : Ref sig .tc := ⟨.hbm, 212, rfl⟩
abbrev main_call11_v0 : Ref sig .tc := ⟨.hbm, 213, rfl⟩
abbrev main_call11_v1 : Ref sig .tc := ⟨.hbm, 214, rfl⟩
abbrev main_call11_c_0 : Ref sig .tc := ⟨.hbm, 215, rfl⟩
abbrev main_call11_v2 : Ref sig .tc := ⟨.hbm, 216, rfl⟩
abbrev main_call11_v3 : Ref sig .tc := ⟨.hbm, 217, rfl⟩
abbrev main_call11_v4 : Ref sig .tc := ⟨.hbm, 218, rfl⟩
abbrev main_call11_v5 : Ref sig .tc := ⟨.hbm, 219, rfl⟩
abbrev main_call11_c_1 : Ref sig .tc := ⟨.hbm, 220, rfl⟩
abbrev main_call11_c_2 : Ref sig .tc := ⟨.hbm, 221, rfl⟩
abbrev main_call11_v6 : Ref sig .tc := ⟨.hbm, 222, rfl⟩
abbrev main_call11_v7 : Ref sig .tc := ⟨.hbm, 223, rfl⟩
abbrev main_call11_v8 : Ref sig .tc := ⟨.hbm, 224, rfl⟩
abbrev main_call11_v9 : Ref sig .tc := ⟨.hbm, 225, rfl⟩
abbrev main_call11_v10 : Ref sig .tc := ⟨.hbm, 226, rfl⟩
abbrev main_call11_v11 : Ref sig .tc := ⟨.hbm, 227, rfl⟩
abbrev main_call11_c_3 : Ref sig .tc := ⟨.hbm, 228, rfl⟩
abbrev main_call11_v12 : Ref sig .tc := ⟨.hbm, 229, rfl⟩
abbrev main_call11_v13 : Ref sig .tc := ⟨.hbm, 230, rfl⟩
abbrev main_call11_v14 : Ref sig .tc := ⟨.hbm, 231, rfl⟩
abbrev main_call11_cst : Ref sig .tc := ⟨.hbm, 232, rfl⟩
abbrev main_call11_v15 : Ref sig .tc := ⟨.hbm, 233, rfl⟩
abbrev main_v105 : Ref sig .tc := ⟨.hbm, 234, rfl⟩
abbrev main_v106 : Ref sig .tc := ⟨.hbm, 235, rfl⟩
abbrev main_v107 : Ref sig .tc := ⟨.hbm, 236, rfl⟩
abbrev main_v108 : Ref sig .tc := ⟨.hbm, 237, rfl⟩
abbrev main_cst_40 : Ref sig .tc := ⟨.hbm, 238, rfl⟩
abbrev main_v109 : Ref sig .tc := ⟨.hbm, 239, rfl⟩
abbrev main_cst_41 : Ref sig .tc := ⟨.hbm, 240, rfl⟩
abbrev main_v110 : Ref sig .tc := ⟨.hbm, 241, rfl⟩
abbrev main_v111 : Ref sig .tc := ⟨.hbm, 242, rfl⟩
abbrev main_v112 : Ref sig .tc := ⟨.hbm, 243, rfl⟩
abbrev main_cst_42 : Ref sig .tc := ⟨.hbm, 244, rfl⟩
abbrev main_v113 : Ref sig .tc := ⟨.hbm, 245, rfl⟩
abbrev main_v114 : Ref sig .tc := ⟨.hbm, 246, rfl⟩
abbrev main_v115 : Ref sig .tc := ⟨.hbm, 247, rfl⟩
abbrev main_v116 : Ref sig .tc := ⟨.hbm, 248, rfl⟩
abbrev main_cst_43 : Ref sig .tc := ⟨.hbm, 249, rfl⟩
abbrev main_v117 : Ref sig .tc := ⟨.hbm, 250, rfl⟩
abbrev main_cst_44 : Ref sig .tc := ⟨.hbm, 251, rfl⟩
abbrev main_v118 : Ref sig .tc := ⟨.hbm, 252, rfl⟩
abbrev main_v119 : Ref sig .tc := ⟨.hbm, 253, rfl⟩
abbrev main_v120 : Ref sig .tc := ⟨.hbm, 254, rfl⟩
abbrev main_cst_45 : Ref sig .tc := ⟨.hbm, 255, rfl⟩
abbrev main_v121 : Ref sig .tc := ⟨.hbm, 256, rfl⟩
abbrev main_v122 : Ref sig .tc := ⟨.hbm, 257, rfl⟩
abbrev main_v123 : Ref sig .tc := ⟨.hbm, 258, rfl⟩
abbrev main_v124 : Ref sig .tc := ⟨.hbm, 259, rfl⟩
abbrev main_v125 : Ref sig .tc := ⟨.hbm, 260, rfl⟩
abbrev main_cst_46 : Ref sig .tc := ⟨.hbm, 261, rfl⟩
abbrev main_cst_47 : Ref sig .tc := ⟨.hbm, 262, rfl⟩
abbrev main_call12_v0 : Ref sig .tc := ⟨.hbm, 263, rfl⟩
abbrev main_call12_v1 : Ref sig .tc := ⟨.hbm, 264, rfl⟩
abbrev main_call12_v2 : Ref sig .tc := ⟨.hbm, 265, rfl⟩
abbrev main_call12_v3 : Ref sig .tc := ⟨.hbm, 266, rfl⟩
abbrev main_call12_v4 : Ref sig .tc := ⟨.hbm, 267, rfl⟩
abbrev main_v126 : Ref sig .tc := ⟨.hbm, 268, rfl⟩
abbrev main_v127 : Ref sig .tc := ⟨.hbm, 269, rfl⟩
abbrev main_v128 : Ref sig .tc := ⟨.hbm, 270, rfl⟩
abbrev main_cst_48 : Ref sig .tc := ⟨.hbm, 271, rfl⟩
abbrev main_v129 : Ref sig .tc := ⟨.hbm, 272, rfl⟩
abbrev main_v130 : Ref sig .tc := ⟨.hbm, 273, rfl⟩
abbrev main_cst_49 : Ref sig .tc := ⟨.hbm, 274, rfl⟩
abbrev main_v131 : Ref sig .tc := ⟨.hbm, 275, rfl⟩
abbrev main_v132 : Ref sig .tc := ⟨.hbm, 276, rfl⟩
abbrev main_cst_50 : Ref sig .tc := ⟨.hbm, 277, rfl⟩
abbrev main_v133 : Ref sig .tc := ⟨.hbm, 278, rfl⟩
abbrev main_v134 : Ref sig .tc := ⟨.hbm, 279, rfl⟩
abbrev main_cst_51 : Ref sig .tc := ⟨.hbm, 280, rfl⟩
abbrev main_v135 : Ref sig .tc := ⟨.hbm, 281, rfl⟩
abbrev main_v136 : Ref sig .tc := ⟨.hbm, 282, rfl⟩
abbrev main_v137 : Ref sig .tc := ⟨.hbm, 283, rfl⟩
abbrev main_c_52 : Ref sig .tc := ⟨.hbm, 284, rfl⟩
abbrev main_c_53 : Ref sig .tc := ⟨.hbm, 285, rfl⟩
abbrev main_call14_v0 : Ref sig .tc := ⟨.hbm, 286, rfl⟩
abbrev main_call14_v1 : Ref sig .tc := ⟨.hbm, 287, rfl⟩
abbrev main_call14_v2 : Ref sig .tc := ⟨.hbm, 288, rfl⟩
abbrev main_call14_v3 : Ref sig .tc := ⟨.hbm, 289, rfl⟩
abbrev main_call14_v4 : Ref sig .tc := ⟨.hbm, 290, rfl⟩
abbrev main_v138 : Ref sig .tc := ⟨.hbm, 291, rfl⟩
abbrev main_v139 : Ref sig .tc := ⟨.hbm, 292, rfl⟩
abbrev main_v140 : Ref sig .tc := ⟨.hbm, 293, rfl⟩
abbrev main_v141 : Ref sig .tc := ⟨.hbm, 294, rfl⟩
abbrev main_cst_54 : Ref sig .tc := ⟨.hbm, 295, rfl⟩
abbrev main_v142 : Ref sig .tc := ⟨.hbm, 296, rfl⟩
abbrev main_v143 : Ref sig .tc := ⟨.hbm, 297, rfl⟩
abbrev main_cst_55 : Ref sig .tc := ⟨.hbm, 298, rfl⟩
abbrev main_v144 : Ref sig .tc := ⟨.hbm, 299, rfl⟩
abbrev main_v145 : Ref sig .tc := ⟨.hbm, 300, rfl⟩
abbrev main_cst_56 : Ref sig .tc := ⟨.hbm, 301, rfl⟩
abbrev main_v146 : Ref sig .tc := ⟨.hbm, 302, rfl⟩
abbrev main_v147 : Ref sig .tc := ⟨.hbm, 303, rfl⟩
abbrev main_cst_57 : Ref sig .tc := ⟨.hbm, 304, rfl⟩
abbrev main_v148 : Ref sig .tc := ⟨.hbm, 305, rfl⟩
abbrev main_v149 : Ref sig .tc := ⟨.hbm, 306, rfl⟩
abbrev main_v150 : Ref sig .tc := ⟨.hbm, 307, rfl⟩
abbrev main_c_58 : Ref sig .tc := ⟨.hbm, 308, rfl⟩
abbrev main_c_59 : Ref sig .tc := ⟨.hbm, 309, rfl⟩
abbrev main_call16_v0 : Ref sig .tc := ⟨.hbm, 310, rfl⟩
abbrev main_call16_v1 : Ref sig .tc := ⟨.hbm, 311, rfl⟩
abbrev main_call16_v2 : Ref sig .tc := ⟨.hbm, 312, rfl⟩
abbrev main_call16_v3 : Ref sig .tc := ⟨.hbm, 313, rfl⟩
abbrev main_call16_v4 : Ref sig .tc := ⟨.hbm, 314, rfl⟩
abbrev main_v151 : Ref sig .tc := ⟨.hbm, 315, rfl⟩
abbrev main_v152 : Ref sig .tc := ⟨.hbm, 316, rfl⟩
abbrev main_c_60 : Ref sig .tc := ⟨.hbm, 317, rfl⟩
abbrev main_v153 : Ref sig .tc := ⟨.hbm, 318, rfl⟩
abbrev main_v154 : Ref sig .tc := ⟨.hbm, 319, rfl⟩
abbrev main_v155 : Ref sig .tc := ⟨.hbm, 320, rfl⟩
abbrev main_v156 : Ref sig .tc := ⟨.hbm, 321, rfl⟩
abbrev main_call17_c : Ref sig .tc := ⟨.hbm, 322, rfl⟩
abbrev main_call17_v0 : Ref sig .tc := ⟨.hbm, 323, rfl⟩
abbrev main_call17_v1 : Ref sig .tc := ⟨.hbm, 324, rfl⟩
abbrev main_call17_c_0 : Ref sig .tc := ⟨.hbm, 325, rfl⟩
abbrev main_call17_v2 : Ref sig .tc := ⟨.hbm, 326, rfl⟩
abbrev main_call17_v3 : Ref sig .tc := ⟨.hbm, 327, rfl⟩
abbrev main_call17_v4 : Ref sig .tc := ⟨.hbm, 328, rfl⟩
abbrev main_call17_v5 : Ref sig .tc := ⟨.hbm, 329, rfl⟩
abbrev main_call17_c_1 : Ref sig .tc := ⟨.hbm, 330, rfl⟩
abbrev main_call17_c_2 : Ref sig .tc := ⟨.hbm, 331, rfl⟩
abbrev main_call17_v6 : Ref sig .tc := ⟨.hbm, 332, rfl⟩
abbrev main_call17_v7 : Ref sig .tc := ⟨.hbm, 333, rfl⟩
abbrev main_call17_v8 : Ref sig .tc := ⟨.hbm, 334, rfl⟩
abbrev main_call17_v9 : Ref sig .tc := ⟨.hbm, 335, rfl⟩
abbrev main_call17_v10 : Ref sig .tc := ⟨.hbm, 336, rfl⟩
abbrev main_call17_v11 : Ref sig .tc := ⟨.hbm, 337, rfl⟩
abbrev main_call17_c_3 : Ref sig .tc := ⟨.hbm, 338, rfl⟩
abbrev main_call17_v12 : Ref sig .tc := ⟨.hbm, 339, rfl⟩
abbrev main_call17_v13 : Ref sig .tc := ⟨.hbm, 340, rfl⟩
abbrev main_call17_v14 : Ref sig .tc := ⟨.hbm, 341, rfl⟩
abbrev main_call17_cst : Ref sig .tc := ⟨.hbm, 342, rfl⟩
abbrev main_call17_v15 : Ref sig .tc := ⟨.hbm, 343, rfl⟩
abbrev main_v157 : Ref sig .tc := ⟨.hbm, 344, rfl⟩
abbrev main_v158 : Ref sig .tc := ⟨.hbm, 345, rfl⟩
abbrev main_v159 : Ref sig .tc := ⟨.hbm, 346, rfl⟩
abbrev main_v160 : Ref sig .tc := ⟨.hbm, 347, rfl⟩
abbrev main_cst_61 : Ref sig .tc := ⟨.hbm, 348, rfl⟩
abbrev main_v161 : Ref sig .tc := ⟨.hbm, 349, rfl⟩
abbrev main_cst_62 : Ref sig .tc := ⟨.hbm, 350, rfl⟩
abbrev main_v162 : Ref sig .tc := ⟨.hbm, 351, rfl⟩
abbrev main_v163 : Ref sig .tc := ⟨.hbm, 352, rfl⟩
abbrev main_v164 : Ref sig .tc := ⟨.hbm, 353, rfl⟩
abbrev main_cst_63 : Ref sig .tc := ⟨.hbm, 354, rfl⟩
abbrev main_v165 : Ref sig .tc := ⟨.hbm, 355, rfl⟩
abbrev main_v166 : Ref sig .tc := ⟨.hbm, 356, rfl⟩
abbrev main_v167 : Ref sig .tc := ⟨.hbm, 357, rfl⟩
abbrev main_v168 : Ref sig .tc := ⟨.hbm, 358, rfl⟩
abbrev main_cst_64 : Ref sig .tc := ⟨.hbm, 359, rfl⟩
abbrev main_v169 : Ref sig .tc := ⟨.hbm, 360, rfl⟩
abbrev main_cst_65 : Ref sig .tc := ⟨.hbm, 361, rfl⟩
abbrev main_v170 : Ref sig .tc := ⟨.hbm, 362, rfl⟩
abbrev main_v171 : Ref sig .tc := ⟨.hbm, 363, rfl⟩
abbrev main_v172 : Ref sig .tc := ⟨.hbm, 364, rfl⟩
abbrev main_cst_66 : Ref sig .tc := ⟨.hbm, 365, rfl⟩
abbrev main_v173 : Ref sig .tc := ⟨.hbm, 366, rfl⟩
abbrev main_v174 : Ref sig .tc := ⟨.hbm, 367, rfl⟩
abbrev main_v175 : Ref sig .tc := ⟨.hbm, 368, rfl⟩
abbrev main_v176 : Ref sig .tc := ⟨.hbm, 369, rfl⟩
abbrev main_v177 : Ref sig .tc := ⟨.hbm, 370, rfl⟩
abbrev main_cst_67 : Ref sig .tc := ⟨.hbm, 371, rfl⟩
abbrev main_cst_68 : Ref sig .tc := ⟨.hbm, 372, rfl⟩
abbrev main_call18_v0 : Ref sig .tc := ⟨.hbm, 373, rfl⟩
abbrev main_call18_v1 : Ref sig .tc := ⟨.hbm, 374, rfl⟩
abbrev main_call18_v2 : Ref sig .tc := ⟨.hbm, 375, rfl⟩
abbrev main_call18_v3 : Ref sig .tc := ⟨.hbm, 376, rfl⟩
abbrev main_call18_v4 : Ref sig .tc := ⟨.hbm, 377, rfl⟩
abbrev main_v178 : Ref sig .tc := ⟨.hbm, 378, rfl⟩
abbrev main_v179 : Ref sig .tc := ⟨.hbm, 379, rfl⟩
abbrev main_v180 : Ref sig .tc := ⟨.hbm, 380, rfl⟩
abbrev main_cst_69 : Ref sig .tc := ⟨.hbm, 381, rfl⟩
abbrev main_v181 : Ref sig .tc := ⟨.hbm, 382, rfl⟩
abbrev main_v182 : Ref sig .tc := ⟨.hbm, 383, rfl⟩
abbrev main_cst_70 : Ref sig .tc := ⟨.hbm, 384, rfl⟩
abbrev main_v183 : Ref sig .tc := ⟨.hbm, 385, rfl⟩
abbrev main_v184 : Ref sig .tc := ⟨.hbm, 386, rfl⟩
abbrev main_cst_71 : Ref sig .tc := ⟨.hbm, 387, rfl⟩
abbrev main_v185 : Ref sig .tc := ⟨.hbm, 388, rfl⟩
abbrev main_v186 : Ref sig .tc := ⟨.hbm, 389, rfl⟩
abbrev main_cst_72 : Ref sig .tc := ⟨.hbm, 390, rfl⟩
abbrev main_v187 : Ref sig .tc := ⟨.hbm, 391, rfl⟩
abbrev main_v188 : Ref sig .tc := ⟨.hbm, 392, rfl⟩
abbrev main_v189 : Ref sig .tc := ⟨.hbm, 393, rfl⟩
abbrev main_c_73 : Ref sig .tc := ⟨.hbm, 394, rfl⟩
abbrev main_c_74 : Ref sig .tc := ⟨.hbm, 395, rfl⟩
abbrev main_call20_v0 : Ref sig .tc := ⟨.hbm, 396, rfl⟩
abbrev main_call20_v1 : Ref sig .tc := ⟨.hbm, 397, rfl⟩
abbrev main_call20_v2 : Ref sig .tc := ⟨.hbm, 398, rfl⟩
abbrev main_call20_v3 : Ref sig .tc := ⟨.hbm, 399, rfl⟩
abbrev main_call20_v4 : Ref sig .tc := ⟨.hbm, 400, rfl⟩
abbrev main_v190 : Ref sig .tc := ⟨.hbm, 401, rfl⟩
abbrev main_v191 : Ref sig .tc := ⟨.hbm, 402, rfl⟩
abbrev main_v192 : Ref sig .tc := ⟨.hbm, 403, rfl⟩
abbrev main_v193 : Ref sig .tc := ⟨.hbm, 404, rfl⟩
abbrev main_cst_75 : Ref sig .tc := ⟨.hbm, 405, rfl⟩
abbrev main_v194 : Ref sig .tc := ⟨.hbm, 406, rfl⟩
abbrev main_v195 : Ref sig .tc := ⟨.hbm, 407, rfl⟩
abbrev main_cst_76 : Ref sig .tc := ⟨.hbm, 408, rfl⟩
abbrev main_v196 : Ref sig .tc := ⟨.hbm, 409, rfl⟩
abbrev main_v197 : Ref sig .tc := ⟨.hbm, 410, rfl⟩
abbrev main_cst_77 : Ref sig .tc := ⟨.hbm, 411, rfl⟩
abbrev main_v198 : Ref sig .tc := ⟨.hbm, 412, rfl⟩
abbrev main_v199 : Ref sig .tc := ⟨.hbm, 413, rfl⟩
abbrev main_cst_78 : Ref sig .tc := ⟨.hbm, 414, rfl⟩
abbrev main_v200 : Ref sig .tc := ⟨.hbm, 415, rfl⟩
abbrev main_v201 : Ref sig .tc := ⟨.hbm, 416, rfl⟩
abbrev main_v202 : Ref sig .tc := ⟨.hbm, 417, rfl⟩
abbrev main_c_79 : Ref sig .tc := ⟨.hbm, 418, rfl⟩
abbrev main_c_80 : Ref sig .tc := ⟨.hbm, 419, rfl⟩
abbrev main_call22_v0 : Ref sig .tc := ⟨.hbm, 420, rfl⟩
abbrev main_call22_v1 : Ref sig .tc := ⟨.hbm, 421, rfl⟩
abbrev main_call22_v2 : Ref sig .tc := ⟨.hbm, 422, rfl⟩
abbrev main_call22_v3 : Ref sig .tc := ⟨.hbm, 423, rfl⟩
abbrev main_call22_v4 : Ref sig .tc := ⟨.hbm, 424, rfl⟩
abbrev main_v203 : Ref sig .tc := ⟨.hbm, 425, rfl⟩
abbrev main_v204 : Ref sig .tc := ⟨.hbm, 426, rfl⟩
abbrev main_c_81 : Ref sig .tc := ⟨.hbm, 427, rfl⟩
abbrev main_v205 : Ref sig .tc := ⟨.hbm, 428, rfl⟩
abbrev main_v206 : Ref sig .tc := ⟨.hbm, 429, rfl⟩
abbrev main_v207 : Ref sig .tc := ⟨.hbm, 430, rfl⟩
abbrev main_v208 : Ref sig .tc := ⟨.hbm, 431, rfl⟩
abbrev main_call23_c : Ref sig .tc := ⟨.hbm, 432, rfl⟩
abbrev main_call23_v0 : Ref sig .tc := ⟨.hbm, 433, rfl⟩
abbrev main_call23_v1 : Ref sig .tc := ⟨.hbm, 434, rfl⟩
abbrev main_call23_c_0 : Ref sig .tc := ⟨.hbm, 435, rfl⟩
abbrev main_call23_v2 : Ref sig .tc := ⟨.hbm, 436, rfl⟩
abbrev main_call23_v3 : Ref sig .tc := ⟨.hbm, 437, rfl⟩
abbrev main_call23_v4 : Ref sig .tc := ⟨.hbm, 438, rfl⟩
abbrev main_call23_v5 : Ref sig .tc := ⟨.hbm, 439, rfl⟩
abbrev main_call23_c_1 : Ref sig .tc := ⟨.hbm, 440, rfl⟩
abbrev main_call23_c_2 : Ref sig .tc := ⟨.hbm, 441, rfl⟩
abbrev main_call23_v6 : Ref sig .tc := ⟨.hbm, 442, rfl⟩
abbrev main_call23_v7 : Ref sig .tc := ⟨.hbm, 443, rfl⟩
abbrev main_call23_v8 : Ref sig .tc := ⟨.hbm, 444, rfl⟩
abbrev main_call23_v9 : Ref sig .tc := ⟨.hbm, 445, rfl⟩
abbrev main_call23_v10 : Ref sig .tc := ⟨.hbm, 446, rfl⟩
abbrev main_call23_v11 : Ref sig .tc := ⟨.hbm, 447, rfl⟩
abbrev main_call23_c_3 : Ref sig .tc := ⟨.hbm, 448, rfl⟩
abbrev main_call23_v12 : Ref sig .tc := ⟨.hbm, 449, rfl⟩
abbrev main_call23_v13 : Ref sig .tc := ⟨.hbm, 450, rfl⟩
abbrev main_call23_v14 : Ref sig .tc := ⟨.hbm, 451, rfl⟩
abbrev main_call23_cst : Ref sig .tc := ⟨.hbm, 452, rfl⟩
abbrev main_call23_v15 : Ref sig .tc := ⟨.hbm, 453, rfl⟩
abbrev main_v209 : Ref sig .tc := ⟨.hbm, 454, rfl⟩
abbrev main_v210 : Ref sig .tc := ⟨.hbm, 455, rfl⟩
abbrev main_v211 : Ref sig .tc := ⟨.hbm, 456, rfl⟩
abbrev main_c_82 : Ref sig .tc := ⟨.hbm, 457, rfl⟩
abbrev main_call24_v0 : Ref sig .tc := ⟨.hbm, 458, rfl⟩
abbrev main_v212 : Ref sig .tc := ⟨.hbm, 459, rfl⟩
abbrev main_v213 : Ref sig .tc := ⟨.hbm, 460, rfl⟩
abbrev main_v214 : Ref sig .tc := ⟨.hbm, 461, rfl⟩
abbrev main_v215 : Ref sig .tc := ⟨.hbm, 462, rfl⟩
abbrev main_v216 : Ref sig .tc := ⟨.hbm, 463, rfl⟩
abbrev main_v217 : Ref sig .tc := ⟨.hbm, 464, rfl⟩
abbrev main_v218 : Ref sig .tc := ⟨.hbm, 465, rfl⟩
abbrev main_v219 : Ref sig .tc := ⟨.hbm, 466, rfl⟩
abbrev main_v220 : Ref sig .tc := ⟨.hbm, 467, rfl⟩
abbrev main_v221 : Ref sig .tc := ⟨.hbm, 468, rfl⟩
abbrev main_v222 : Ref sig .tc := ⟨.hbm, 469, rfl⟩
abbrev main_v223 : Ref sig .tc := ⟨.hbm, 470, rfl⟩
abbrev main_v224 : Ref sig .tc := ⟨.hbm, 471, rfl⟩
abbrev main_v225 : Ref sig .tc := ⟨.hbm, 472, rfl⟩
abbrev main_v226 : Ref sig .tc := ⟨.hbm, 473, rfl⟩
abbrev main_v227 : Ref sig .tc := ⟨.hbm, 474, rfl⟩
abbrev main_v228 : Ref sig .tc := ⟨.hbm, 475, rfl⟩
abbrev main_v229 : Ref sig .tc := ⟨.hbm, 476, rfl⟩
abbrev main_v230 : Ref sig .tc := ⟨.hbm, 477, rfl⟩
abbrev main_v231 : Ref sig .tc := ⟨.hbm, 478, rfl⟩
abbrev main_v232 : Ref sig .tc := ⟨.hbm, 479, rfl⟩
abbrev main_v233 : Ref sig .tc := ⟨.hbm, 480, rfl⟩
abbrev main_v234 : Ref sig .tc := ⟨.hbm, 481, rfl⟩
abbrev main_v235 : Ref sig .tc := ⟨.hbm, 482, rfl⟩
abbrev main_v236 : Ref sig .tc := ⟨.hbm, 483, rfl⟩
abbrev main_v237 : Ref sig .tc := ⟨.hbm, 484, rfl⟩
abbrev main_v238 : Ref sig .tc := ⟨.hbm, 485, rfl⟩
abbrev main_v239 : Ref sig .tc := ⟨.hbm, 486, rfl⟩
abbrev main_v240 : Ref sig .tc := ⟨.hbm, 487, rfl⟩
abbrev main_v241 : Ref sig .tc := ⟨.hbm, 488, rfl⟩
abbrev main_v242 : Ref sig .tc := ⟨.hbm, 489, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x833 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S833x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x65536x1_S1x1x1_0_0_0 : S2x65536x1.Slices ![0, 0, 0] S1x1x1
  shapeCasts_S1x1x1_S_ : S1x1x1.ShapeCasts S_
  shapeCasts_S2x64x256x256_S2x64x65536 : S2x64x256x256.ShapeCasts S2x64x65536
  slices_S2x65536x2_S2x65536x1_0_0_0 : S2x65536x2.Slices ![0, 0, 0] S2x65536x1
  shapeCasts_S2x65536x1_S2x65536 : S2x65536x1.ShapeCasts S2x65536
  bcast_S_S2x65536 : S_.BroadcastsInDim S2x65536 (![] : Fin 0 → Fin S2x65536.rank)
  slices_S2x65536x2_S2x65536x1_0_0_1 : S2x65536x2.Slices ![0, 0, 1] S2x65536x1
  bcast_S2x65536_S2x65536x1_0_1 : S2x65536.BroadcastsInDim S2x65536x1 (![0, 1] : Fin 2 → Fin S2x65536x1.rank)
  concatenates_S2x65536x1_S2x65536x1_S2x65536x2_d2 : Shape.Concatenates [S2x65536x1, S2x65536x1] S2x65536x2 2
  bcast_S_S2x65536x2 : S_.BroadcastsInDim S2x65536x2 (![] : Fin 0 → Fin S2x65536x2.rank)
  bcast_S2x65536_S2x1x65536_0_2 : S2x65536.BroadcastsInDim S2x1x65536 (![0, 2] : Fin 2 → Fin S2x1x65536.rank)
  bcast_S_S2x1x65536 : S_.BroadcastsInDim S2x1x65536 (![] : Fin 0 → Fin S2x1x65536.rank)
  shapeCasts_S2x1x65536_S2x65536x1 : S2x1x65536.ShapeCasts S2x65536x1
  bcast_S_S2x65536x1 : S_.BroadcastsInDim S2x65536x1 (![] : Fin 0 → Fin S2x65536x1.rank)
  bcast_S1_S1x1x1_2 : S1.BroadcastsInDim S1x1x1 (![2] : Fin 1 → Fin S1x1x1.rank)
  bcast_S1x1x1_S2x65536x1_0_1_2 : S1x1x1.BroadcastsInDim S2x65536x1 (![0, 1, 2] : Fin 3 → Fin S2x65536x1.rank)
  reducesTo_S2x65536x1_S2x65536_d2 : S2x65536x1.ReducesTo [2] S2x65536
  h_S_ : 0 < S_.numel
  bcast_S2x65536_S2x64x65536_0_2 : S2x65536.BroadcastsInDim S2x64x65536 (![0, 2] : Fin 2 → Fin S2x64x65536.rank)
  bcast_S_S2x64x65536 : S_.BroadcastsInDim S2x64x65536 (![] : Fin 0 → Fin S2x64x65536.rank)
  transposes_S2x64x65536_S2x65536x64_0_2_1 : S2x64x65536.Transposes [0, 2, 1] S2x65536x64
  concatenates_S2x65536x64_S2x65536x64_S2x65536x64_S2x65536x64_S2x65536x256_d2 : Shape.Concatenates [S2x65536x64, S2x65536x64, S2x65536x64, S2x65536x64] S2x65536x256 2
  pads_S2x64x256x256_S2x64x258x258_000_000_110_110 : S2x64x256x256.Pads (![0, 0, 1, 1] : Fin 4 → Nat) ![0, 0, 1, 1] ![0, 0, 0, 0] S2x64x258x258
  slices_S2x64x258x258_S2x64x256x256_0_0_0_0 : S2x64x258x258.Slices ![0, 0, 0, 0] S2x64x256x256
  slices_S2x64x258x258_S2x64x256x256_0_0_0_1 : S2x64x258x258.Slices ![0, 0, 0, 1] S2x64x256x256
  slices_S2x64x258x258_S2x64x256x256_0_0_0_2 : S2x64x258x258.Slices ![0, 0, 0, 2] S2x64x256x256
  slices_S2x64x258x258_S2x64x256x256_0_0_1_0 : S2x64x258x258.Slices ![0, 0, 1, 0] S2x64x256x256
  slices_S2x64x258x258_S2x64x256x256_0_0_1_1 : S2x64x258x258.Slices ![0, 0, 1, 1] S2x64x256x256
  slices_S2x64x258x258_S2x64x256x256_0_0_1_2 : S2x64x258x258.Slices ![0, 0, 1, 2] S2x64x256x256
  slices_S2x64x258x258_S2x64x256x256_0_0_2_0 : S2x64x258x258.Slices ![0, 0, 2, 0] S2x64x256x256
  slices_S2x64x258x258_S2x64x256x256_0_0_2_1 : S2x64x258x258.Slices ![0, 0, 2, 1] S2x64x256x256
  slices_S2x64x258x258_S2x64x256x256_0_0_2_2 : S2x64x258x258.Slices ![0, 0, 2, 2] S2x64x256x256
  bcast_S2x64x256x256_S2x64x1x256x256_0_1_3_4 : S2x64x256x256.BroadcastsInDim S2x64x1x256x256 (![0, 1, 3, 4] : Fin 4 → Fin S2x64x1x256x256.rank)
  concatenates_S2x64x1x256x256_S2x64x1x256x256_S2x64x1x256x256_S2x64x1x256x256_S2x64x1x256x256_S2x64x1x256x256_S2x64x1x256x256_S2x64x1x256x256_S2x64x1x256x256_S2x64x9x256x256_d2 : Shape.Concatenates [S2x64x1x256x256, S2x64x1x256x256, S2x64x1x256x256, S2x64x1x256x256, S2x64x1x256x256, S2x64x1x256x256, S2x64x1x256x256, S2x64x1x256x256, S2x64x1x256x256] S2x64x9x256x256 2
  shapeCasts_S2x64x9x256x256_S2x576x65536 : S2x64x9x256x256.ShapeCasts S2x576x65536
  transposes_S2x576x65536_S2x65536x576_0_2_1 : S2x576x65536.Transposes [0, 2, 1] S2x65536x576
  concatenates_S2x65536x256_S2x65536x576_S2x65536x1_S2x65536x833_d2 : Shape.Concatenates [S2x65536x256, S2x65536x576, S2x65536x1] S2x65536x833 2
  shapeCasts_S2x65536x833_S131072x833 : S2x65536x833.ShapeCasts S131072x833
  shapeCasts_S256_S1x256 : S256.ShapeCasts S1x256
  shapeCasts_S3_S1x3 : S3.ShapeCasts S1x3
  inb_S2048x833_S2048x833_0_0 : ∀ a, (![0, 0] : Fin 2 → Nat) a + S2048x833.size a ≤ S2048x833.size a
  h_S2048x833 : 0 < S2048x833.numel
  shapeCasts_S2048x833_S2048x833 : S2048x833.ShapeCasts S2048x833
  bitsLt_bf16_f32 : FTy.bits .bf16 < FTy.bits .f32
  inb_S833x256_S833x256_0_0 : ∀ a, (![0, 0] : Fin 2 → Nat) a + S833x256.size a ≤ S833x256.size a
  h_S833x256 : 0 < S833x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  inb_S256x3_S256x3_0_0 : ∀ a, (![0, 0] : Fin 2 → Nat) a + S256x3.size a ≤ S256x3.size a
  h_S256x3 : 0 < S256x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2048x3 : S1x3.Broadcasts S2048x3
  inb_S2048x3_S2048x3_0_0 : ∀ a, (![0, 0] : Fin 2 → Nat) a + S2048x3.size a ≤ S2048x3.size a
  h_S2048x3 : 0 < S2048x3.numel
  shapeCasts_S131072x3_S2x65536x3 : S131072x3.ShapeCasts S2x65536x3
  gather_S2x64x65536_S2x65536x1_S2x64x65536_1_2_0_0_2_2_1641_wf : GatherDims.WF S2x64x65536 S2x65536x1 S2x64x65536 [1] [2] [0] [2] [0] 2 ![1, 64, 1]
  dot_S2048x833_S833x256_S2048x256_1_0_0_1_n_n_wf : DotDims.WF S2048x833 S833x256 S2048x256 [1] [0] [0] [1] [] []
  dot_S2048x256_S256x256_S2048x256_1_0_0_1_n_n_wf : DotDims.WF S2048x256 S256x256 S2048x256 [1] [0] [0] [1] [] []
  dot_S2048x256_S256x3_S2048x3_1_0_0_1_n_n_wf : DotDims.WF S2048x256 S256x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x833.size a ≤ S131072x833.size a
  hwx0_0 : ∀ i : grid0.Coords, EltTy.bits .f32 = 32 ∨ (Rect.block (s := S131072x833) S2048x833.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S833x256.size a ≤ S833x256.size a
  hwx0_1 : ∀ i : grid0.Coords, EltTy.bits .f32 = 32 ∨ (Rect.block (s := S833x256) S833x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x3.size a ≤ S256x3.size a
  hwx0_9 : ∀ i : grid0.Coords, EltTy.bits .f32 = 32 ∨ (Rect.block (s := S256x3) S256x3.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x3.size a ≤ S1x3.size a
  hwx0_10 : ∀ i : grid0.Coords, EltTy.bits .f32 = 32 ∨ (Rect.block (s := S1x3) S1x3.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x3.size a ≤ S131072x3.size a
  hwx0_11 : ∀ i : grid0.Coords, EltTy.bits .f32 = 32 ∨ (Rect.block (s := S131072x3) S2048x3.size (cc0_transform_11 i) (hinb0_11 i)).WholeWords (EltTy.packing .f32)

variable [Facts₀]

def gather_S2x64x65536_S2x65536x1_S2x64x65536_1_2_0_0_2_2_1641 : GatherDims S2x64x65536 S2x65536x1 S2x64x65536 where
  offsetDims := [1]
  collapsedSliceDims := [2]
  operandBatchingDims := [0]
  startIndicesBatchingDims := [0]
  startIndexMap := [2]
  indexVectorDim := 2
  sliceSizes := ![1, 64, 1]
  wf := gather_S2x64x65536_S2x65536x1_S2x64x65536_1_2_0_0_2_2_1641_wf
def dot_S2048x833_S833x256_S2048x256_1_0_0_1_n_n : DotDims S2048x833 S833x256 S2048x256 where
  lhsContracting := [1]
  rhsContracting := [0]
  lhsNonContracting := [0]
  rhsNonContracting := [1]
  lhsBatch := []
  rhsBatch := []
  wf := dot_S2048x833_S833x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x3_S2048x3_1_0_0_1_n_n : DotDims S2048x256 S256x3 S2048x3 where
  lhsContracting := [1]
  rhsContracting := [0]
  lhsNonContracting := [0]
  rhsNonContracting := [1]
  lhsBatch := []
  rhsBatch := []
  wf := dot_S2048x256_S256x3_S2048x3_1_0_0_1_n_n_wf

abbrev win0_0 : Pipeline.Window sig grid0 :=
  Pipeline.Window.ofSpec (Memref.whole main_v235) S2048x833.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S833x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v236) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v237) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v238) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v239) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S256x3.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v240) S1x3.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v241) S2048x3.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S2x64x256x256 : Shape := ⟨4, ![2, 64, 256, 256]⟩
abbrev S2x65536x2 : Shape := ⟨3, ![2, 65536, 2]⟩
abbrev S2x65536x1 : Shape := ⟨3, ![2, 65536, 1]⟩
abbrev S833x256 : Shape := ⟨2, ![833, 256]⟩
abbrev S256 : Shape := ⟨1, ![256]⟩
abbrev S256x256 : Shape := ⟨2, ![256, 256]⟩
abbrev S256x3 : Shape := ⟨2, ![256, 3]⟩
abbrev S3 : Shape := ⟨1, ![3]⟩
abbrev S1x1x1 : Shape := ⟨3, ![1, 1, 1]⟩
abbrev S_ : Shape := ⟨0, ![]⟩
abbrev S2x65536 : Shape := ⟨2, ![2, 65536]⟩
abbrev S2x64x65536 : Shape := ⟨3, ![2, 64, 65536]⟩
abbrev S2x1x65536 : Shape := ⟨3, ![2, 1, 65536]⟩
abbrev S1 : Shape := ⟨1, ![1]⟩
abbrev S2x65536x64 : Shape := ⟨3, ![2, 65536, 64]⟩
abbrev S2x65536x256 : Shape := ⟨3, ![2, 65536, 256]⟩
abbrev S2x64x258x258 : Shape := ⟨4, ![2, 64, 258, 258]⟩
abbrev S2x64x1x256x256 : Shape := ⟨5, ![2, 64, 1, 256, 256]⟩
abbrev S2x64x9x256x256 : Shape := ⟨5, ![2, 64, 9, 256, 256]⟩
abbrev S2x576x65536 : Shape := ⟨3, ![2, 576, 65536]⟩
abbrev S2x65536x576 : Shape := ⟨3, ![2, 65536, 576]⟩
abbrev S2x65536x833 : Shape := ⟨3, ![2, 65536, 833]⟩
abbrev S131072x833 : Shape := ⟨2, ![131072, 833]⟩
abbrev S131072x256 : Shape := ⟨2, ![131072, 256]⟩
abbrev S1x256 : Shape := ⟨2, ![1, 256]⟩
abbrev S131072x3 : Shape := ⟨2, ![131072, 3]⟩
abbrev S1x3 : Shape := ⟨2, ![1, 3]⟩
abbrev S2x65536x3 : Shape := ⟨3, ![2, 65536, 3]⟩

abbrev nBuf : Space → Nat
  | .hbm => 519
  | .vmem => 0
  | .smem => 0
  | _ => 0

abbrev hbmTy0_0 (i : Nat) : BufTy := match i % 128 with
  | 0 => ⟨S2x64x256x256, .f32⟩
  | 1 => ⟨S2x65536x2, .f32⟩
  | 2 => ⟨S2x65536x1, .f32⟩
  | 3 => ⟨S833x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x3, .f32⟩
  | 12 => ⟨S3, .f32⟩
  | 13 => ⟨S1x1x1, .f32⟩
  | 14 => ⟨S_, .f32⟩
  | 15 => ⟨S2x65536x1, .f32⟩
  | 16 => ⟨S2x65536, .f32⟩
  | 17 => ⟨S_, .f32⟩
  | 18 => ⟨S_, .f32⟩
  | 19 => ⟨S_, .f32⟩
  | 20 => ⟨S_, .f32⟩
  | 21 => ⟨S2x65536, .f32⟩
  | 22 => ⟨S2x65536, .f32⟩
  | 23 => ⟨S_, .f32⟩
  | 24 => ⟨S2x65536, .f32⟩
  | 25 => ⟨S2x65536, .f32⟩
  | 26 => ⟨S2x65536x1, .f32⟩
  | 27 => ⟨S2x65536, .f32⟩
  | 28 => ⟨S_, .f32⟩
  | 29 => ⟨S_, .f32⟩
  | 30 => ⟨S_, .f32⟩
  | 31 => ⟨S_, .f32⟩
  | 32 => ⟨S2x65536, .f32⟩
  | 33 => ⟨S2x65536, .f32⟩
  | 34 => ⟨S_, .f32⟩
  | 35 => ⟨S2x65536, .f32⟩
  | 36 => ⟨S2x65536, .f32⟩
  | 37 => ⟨S2x65536x1, .f32⟩
  | 38 => ⟨S2x65536x1, .f32⟩
  | 39 => ⟨S2x65536x2, .f32⟩
  | 40 => ⟨S_, .f32⟩
  | 41 => ⟨S_, .f32⟩
  | 42 => ⟨S_, .f32⟩
  | 43 => ⟨S2x65536x2, .f32⟩
  | 44 => ⟨S2x65536x2, .f32⟩
  | 45 => ⟨S_, .f32⟩
  | 46 => ⟨S2x65536x2, .f32⟩
  | 47 => ⟨S2x65536x2, .f32⟩
  | 48 => ⟨S2x65536x1, .f32⟩
  | 49 => ⟨S2x65536, .f32⟩
  | 50 => ⟨S_, .f32⟩
  | 51 => ⟨S2x65536, .f32⟩
  | 52 => ⟨S2x65536, .f32⟩
  | 53 => ⟨S_, .f32⟩
  | 54 => ⟨S2x65536, .f32⟩
  | 55 => ⟨S2x65536, .f32⟩
  | 56 => ⟨S_, .f32⟩
  | 57 => ⟨S2x65536, .f32⟩
  | 58 => ⟨S2x65536, .f32⟩
  | 59 => ⟨S_, .f32⟩
  | 60 => ⟨S2x65536, .f32⟩
  | 61 => ⟨S2x65536, .f32⟩
  | 62 => ⟨S2x65536, .f32⟩
  | 63 => ⟨S_, .i32⟩
  | 64 => ⟨S_, .i32⟩
  | 65 => ⟨S_, .f32⟩
  | 66 => ⟨S2x65536, .f32⟩
  | 67 => ⟨S2x65536, .f32⟩
  | 68 => ⟨S_, .f32⟩
  | 69 => ⟨S2x65536, .f32⟩
  | 70 => ⟨S2x65536, .f32⟩
  | 71 => ⟨S2x65536, .i32⟩
  | 72 => ⟨S2x65536x1, .f32⟩
  | 73 => ⟨S2x65536, .f32⟩
  | 74 => ⟨S_, .f32⟩
  | 75 => ⟨S2x65536, .f32⟩
  | 76 => ⟨S2x65536, .f32⟩
  | 77 => ⟨S_, .f32⟩
  | 78 => ⟨S2x65536, .f32⟩
  | 79 => ⟨S2x65536, .f32⟩
  | 80 => ⟨S_, .f32⟩
  | 81 => ⟨S2x65536, .f32⟩
  | 82 => ⟨S2x65536, .f32⟩
  | 83 => ⟨S_, .f32⟩
  | 84 => ⟨S2x65536, .f32⟩
  | 85 => ⟨S2x65536, .f32⟩
  | 86 => ⟨S2x65536, .f32⟩
  | 87 => ⟨S_, .i32⟩
  | 88 => ⟨S_, .i32⟩
  | 89 => ⟨S_, .f32⟩
  | 90 => ⟨S2x65536, .f32⟩
  | 91 => ⟨S2x65536, .f32⟩
  | 92 => ⟨S_, .f32⟩
  | 93 => ⟨S2x65536, .f32⟩
  | 94 => ⟨S2x65536, .f32⟩
  | 95 => ⟨S2x65536, .i32⟩
  | 96 => ⟨S_, .i32⟩
  | 97 => ⟨S2x65536, .i32⟩
  | 98 => ⟨S2x65536, .i32⟩
  | 99 => ⟨S2x65536, .i32⟩
  | 100 => ⟨S2x64x65536, .f32⟩
  | 101 => ⟨S2x1x65536, .i32⟩
  | 102 => ⟨S_, .i32⟩
  | 103 => ⟨S2x1x65536, .i32⟩
  | 104 => ⟨S2x1x65536, .i1⟩
  | 105 => ⟨S_, .i32⟩
  | 106 => ⟨S2x1x65536, .i32⟩
  | 107 => ⟨S2x1x65536, .i32⟩
  | 108 => ⟨S2x1x65536, .i32⟩
  | 109 => ⟨S2x65536x1, .i32⟩
  | 110 => ⟨S1, .i32⟩
  | 111 => ⟨S_, .i32⟩
  | 112 => ⟨S2x65536x1, .i32⟩
  | 113 => ⟨S2x65536x1, .i1⟩
  | 114 => ⟨S1x1x1, .i32⟩
  | 115 => ⟨S2x65536x1, .i32⟩
  | 116 => ⟨S2x65536x1, .i1⟩
  | 117 => ⟨S2x65536x1, .i1⟩
  | 118 => ⟨S_, .i1⟩
  | 119 => ⟨S2x65536, .i1⟩
  | 120 => ⟨S2x64x65536, .f32⟩
  | 121 => ⟨S2x64x65536, .i1⟩
  | 122 => ⟨S_, .f32⟩
  | 123 => ⟨S2x64x65536, .f32⟩
  | 124 => ⟨S2x64x65536, .f32⟩
  | 125 => ⟨S2x65536x64, .f32⟩
  | 126 => ⟨S2x65536x1, .f32⟩
  | 127 => ⟨S2x65536, .f32⟩
  | _ => ⟨S2x64x256x256, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S2x65536, .f32⟩
  | 5 => ⟨S2x65536, .f32⟩
  | 6 => ⟨S_, .f32⟩
  | 7 => ⟨S2x65536, .f32⟩
  | 8 => ⟨S2x65536, .f32⟩
  | 9 => ⟨S2x65536x1, .f32⟩
  | 10 => ⟨S2x65536, .f32⟩
  | 11 => ⟨S_, .f32⟩
  | 12 => ⟨S_, .f32⟩
  | 13 => ⟨S_, .f32⟩
  | 14 => ⟨S_, .f32⟩
  | 15 => ⟨S2x65536, .f32⟩
  | 16 => ⟨S2x65536, .f32⟩
  | 17 => ⟨S_, .f32⟩
  | 18 => ⟨S2x65536, .f32⟩
  | 19 => ⟨S2x65536, .f32⟩
  | 20 => ⟨S2x65536x1, .f32⟩
  | 21 => ⟨S2x65536x1, .f32⟩
  | 22 => ⟨S2x65536x2, .f32⟩
  | 23 => ⟨S_, .f32⟩
  | 24 => ⟨S_, .f32⟩
  | 25 => ⟨S_, .f32⟩
  | 26 => ⟨S2x65536x2, .f32⟩
  | 27 => ⟨S2x65536x2, .f32⟩
  | 28 => ⟨S_, .f32⟩
  | 29 => ⟨S2x65536x2, .f32⟩
  | 30 => ⟨S2x65536x2, .f32⟩
  | 31 => ⟨S2x65536x1, .f32⟩
  | 32 => ⟨S2x65536, .f32⟩
  | 33 => ⟨S_, .f32⟩
  | 34 => ⟨S2x65536, .f32⟩
  | 35 => ⟨S2x65536, .f32⟩
  | 36 => ⟨S_, .f32⟩
  | 37 => ⟨S2x65536, .f32⟩
  | 38 => ⟨S2x65536, .f32⟩
  | 39 => ⟨S_, .f32⟩
  | 40 => ⟨S2x65536, .f32⟩
  | 41 => ⟨S2x65536, .f32⟩
  | 42 => ⟨S_, .f32⟩
  | 43 => ⟨S2x65536, .f32⟩
  | 44 => ⟨S2x65536, .f32⟩
  | 45 => ⟨S2x65536, .f32⟩
  | 46 => ⟨S_, .i32⟩
  | 47 => ⟨S_, .i32⟩
  | 48 => ⟨S_, .f32⟩
  | 49 => ⟨S2x65536, .f32⟩
  | 50 => ⟨S2x65536, .f32⟩
  | 51 => ⟨S_, .f32⟩
  | 52 => ⟨S2x65536, .f32⟩
  | 53 => ⟨S2x65536, .f32⟩
  | 54 => ⟨S2x65536, .i32⟩
  | 55 => ⟨S2x65536x1, .f32⟩
  | 56 => ⟨S2x65536, .f32⟩
  | 57 => ⟨S_, .f32⟩
  | 58 => ⟨S2x65536, .f32⟩
  | 59 => ⟨S2x65536, .f32⟩
  | 60 => ⟨S_, .f32⟩
  | 61 => ⟨S2x65536, .f32⟩
  | 62 => ⟨S2x65536, .f32⟩
  | 63 => ⟨S_, .f32⟩
  | 64 => ⟨S2x65536, .f32⟩
  | 65 => ⟨S2x65536, .f32⟩
  | 66 => ⟨S_, .f32⟩
  | 67 => ⟨S2x65536, .f32⟩
  | 68 => ⟨S2x65536, .f32⟩
  | 69 => ⟨S2x65536, .f32⟩
  | 70 => ⟨S_, .i32⟩
  | 71 => ⟨S_, .i32⟩
  | 72 => ⟨S_, .f32⟩
  | 73 => ⟨S2x65536, .f32⟩
  | 74 => ⟨S2x65536, .f32⟩
  | 75 => ⟨S_, .f32⟩
  | 76 => ⟨S2x65536, .f32⟩
  | 77 => ⟨S2x65536, .f32⟩
  | 78 => ⟨S2x65536, .i32⟩
  | 79 => ⟨S_, .i32⟩
  | 80 => ⟨S2x65536, .i32⟩
  | 81 => ⟨S2x65536, .i32⟩
  | 82 => ⟨S2x65536, .i32⟩
  | 83 => ⟨S2x64x65536, .f32⟩
  | 84 => ⟨S2x1x65536, .i32⟩
  | 85 => ⟨S_, .i32⟩
  | 86 => ⟨S2x1x65536, .i32⟩
  | 87 => ⟨S2x1x65536, .i1⟩
  | 88 => ⟨S_, .i32⟩
  | 89 => ⟨S2x1x65536, .i32⟩
  | 90 => ⟨S2x1x65536, .i32⟩
  | 91 => ⟨S2x1x65536, .i32⟩
  | 92 => ⟨S2x65536x1, .i32⟩
  | 93 => ⟨S1, .i32⟩
  | 94 => ⟨S_, .i32⟩
  | 95 => ⟨S2x65536x1, .i32⟩
  | 96 => ⟨S2x65536x1, .i1⟩
  | 97 => ⟨S1x1x1, .i32⟩
  | 98 => ⟨S2x65536x1, .i32⟩
  | 99 => ⟨S2x65536x1, .i1⟩
  | 100 => ⟨S2x65536x1, .i1⟩
  | 101 => ⟨S_, .i1⟩
  | 102 => ⟨S2x65536, .i1⟩
  | 103 => ⟨S2x64x65536, .f32⟩
  | 104 => ⟨S2x64x65536, .i1⟩
  | 105 => ⟨S_, .f32⟩
  | 106 => ⟨S2x64x65536, .f32⟩
  | 107 => ⟨S2x64x65536, .f32⟩
  | 108 => ⟨S2x65536x64, .f32⟩
  | 109 => ⟨S2x65536x1, .f32⟩
  | 110 => ⟨S2x65536, .f32⟩
  | 111 => ⟨S_, .f32⟩
  | 112 => ⟨S_, .f32⟩
  | 113 => ⟨S_, .f32⟩
  | 114 => ⟨S_, .f32⟩
  | 115 => ⟨S2x65536, .f32⟩
  | 116 => ⟨S2x65536, .f32⟩
  | 117 => ⟨S_, .f32⟩
  | 118 => ⟨S2x65536, .f32⟩
  | 119 => ⟨S2x65536, .f32⟩
  | 120 => ⟨S2x65536x1, .f32⟩
  | 121 => ⟨S2x65536, .f32⟩
  | 122 => ⟨S_, .f32⟩
  | 123 => ⟨S_, .f32⟩
  | 124 => ⟨S_, .f32⟩
  | 125 => ⟨S_, .f32⟩
  | 126 => ⟨S2x65536, .f32⟩
  | 127 => ⟨S2x65536, .f32⟩
  | _ => ⟨S2x64x256x256, .f32⟩

abbrev hbmTy0_2 (i : Nat) : BufTy := match i % 128 with
  | 0 => ⟨S_, .f32⟩
  | 1 => ⟨S2x65536, .f32⟩
  | 2 => ⟨S2x65536, .f32⟩
  | 3 => ⟨S2x65536x1, .f32⟩
  | 4 => ⟨S2x65536x1, .f32⟩
  | 5 => ⟨S2x65536x2, .f32⟩
  | 6 => ⟨S_, .f32⟩
  | 7 => ⟨S_, .f32⟩
  | 8 => ⟨S_, .f32⟩
  | 9 => ⟨S2x65536x2, .f32⟩
  | 10 => ⟨S2x65536x2, .f32⟩
  | 11 => ⟨S_, .f32⟩
  | 12 => ⟨S2x65536x2, .f32⟩
  | 13 => ⟨S2x65536x2, .f32⟩
  | 14 => ⟨S2x65536x1, .f32⟩
  | 15 => ⟨S2x65536, .f32⟩
  | 16 => ⟨S_, .f32⟩
  | 17 => ⟨S2x65536, .f32⟩
  | 18 => ⟨S2x65536, .f32⟩
  | 19 => ⟨S_, .f32⟩
  | 20 => ⟨S2x65536, .f32⟩
  | 21 => ⟨S2x65536, .f32⟩
  | 22 => ⟨S_, .f32⟩
  | 23 => ⟨S2x65536, .f32⟩
  | 24 => ⟨S2x65536, .f32⟩
  | 25 => ⟨S_, .f32⟩
  | 26 => ⟨S2x65536, .f32⟩
  | 27 => ⟨S2x65536, .f32⟩
  | 28 => ⟨S2x65536, .f32⟩
  | 29 => ⟨S_, .i32⟩
  | 30 => ⟨S_, .i32⟩
  | 31 => ⟨S_, .f32⟩
  | 32 => ⟨S2x65536, .f32⟩
  | 33 => ⟨S2x65536, .f32⟩
  | 34 => ⟨S_, .f32⟩
  | 35 => ⟨S2x65536, .f32⟩
  | 36 => ⟨S2x65536, .f32⟩
  | 37 => ⟨S2x65536, .i32⟩
  | 38 => ⟨S2x65536x1, .f32⟩
  | 39 => ⟨S2x65536, .f32⟩
  | 40 => ⟨S_, .f32⟩
  | 41 => ⟨S2x65536, .f32⟩
  | 42 => ⟨S2x65536, .f32⟩
  | 43 => ⟨S_, .f32⟩
  | 44 => ⟨S2x65536, .f32⟩
  | 45 => ⟨S2x65536, .f32⟩
  | 46 => ⟨S_, .f32⟩
  | 47 => ⟨S2x65536, .f32⟩
  | 48 => ⟨S2x65536, .f32⟩
  | 49 => ⟨S_, .f32⟩
  | 50 => ⟨S2x65536, .f32⟩
  | 51 => ⟨S2x65536, .f32⟩
  | 52 => ⟨S2x65536, .f32⟩
  | 53 => ⟨S_, .i32⟩
  | 54 => ⟨S_, .i32⟩
  | 55 => ⟨S_, .f32⟩
  | 56 => ⟨S2x65536, .f32⟩
  | 57 => ⟨S2x65536, .f32⟩
  | 58 => ⟨S_, .f32⟩
  | 59 => ⟨S2x65536, .f32⟩
  | 60 => ⟨S2x65536, .f32⟩
  | 61 => ⟨S2x65536, .i32⟩
  | 62 => ⟨S_, .i32⟩
  | 63 => ⟨S2x65536, .i32⟩
  | 64 => ⟨S2x65536, .i32⟩
  | 65 => ⟨S2x65536, .i32⟩
  | 66 => ⟨S2x64x65536, .f32⟩
  | 67 => ⟨S2x1x65536, .i32⟩
  | 68 => ⟨S_, .i32⟩
  | 69 => ⟨S2x1x65536, .i32⟩
  | 70 => ⟨S2x1x65536, .i1⟩
  | 71 => ⟨S_, .i32⟩
  | 72 => ⟨S2x1x65536, .i32⟩
  | 73 => ⟨S2x1x65536, .i32⟩
  | 74 => ⟨S2x1x65536, .i32⟩
  | 75 => ⟨S2x65536x1, .i32⟩
  | 76 => ⟨S1, .i32⟩
  | 77 => ⟨S_, .i32⟩
  | 78 => ⟨S2x65536x1, .i32⟩
  | 79 => ⟨S2x65536x1, .i1⟩
  | 80 => ⟨S1x1x1, .i32⟩
  | 81 => ⟨S2x65536x1, .i32⟩
  | 82 => ⟨S2x65536x1, .i1⟩
  | 83 => ⟨S2x65536x1, .i1⟩
  | 84 => ⟨S_, .i1⟩
  | 85 => ⟨S2x65536, .i1⟩
  | 86 => ⟨S2x64x65536, .f32⟩
  | 87 => ⟨S2x64x65536, .i1⟩
  | 88 => ⟨S_, .f32⟩
  | 89 => ⟨S2x64x65536, .f32⟩
  | 90 => ⟨S2x64x65536, .f32⟩
  | 91 => ⟨S2x65536x64, .f32⟩
  | 92 => ⟨S2x65536x1, .f32⟩
  | 93 => ⟨S2x65536, .f32⟩
  | 94 => ⟨S_, .f32⟩
  | 95 => ⟨S_, .f32⟩
  | 96 => ⟨S_, .f32⟩
  | 97 => ⟨S_, .f32⟩
  | 98 => ⟨S2x65536, .f32⟩
  | 99 => ⟨S2x65536, .f32⟩
  | 100 => ⟨S_, .f32⟩
  | 101 => ⟨S2x65536, .f32⟩
  | 102 => ⟨S2x65536, .f32⟩
  | 103 => ⟨S2x65536x1, .f32⟩
  | 104 => ⟨S2x65536, .f32⟩
  | 105 => ⟨S_, .f32⟩
  | 106 => ⟨S_, .f32⟩
  | 107 => ⟨S_, .f32⟩
  | 108 => ⟨S_, .f32⟩
  | 109 => ⟨S2x65536, .f32⟩
  | 110 => ⟨S2x65536, .f32⟩
  | 111 => ⟨S_, .f32⟩
  | 112 => ⟨S2x65536, .f32⟩
  | 113 => ⟨S2x65536, .f32⟩
  | 114 => ⟨S2x65536x1, .f32⟩
  | 115 => ⟨S2x65536x1, .f32⟩
  | 116 => ⟨S2x65536x2, .f32⟩
  | 117 => ⟨S_, .f32⟩
  | 118 => ⟨S_, .f32⟩
  | 119 => ⟨S_, .f32⟩
  | 120 => ⟨S2x65536x2, .f32⟩
  | 121 => ⟨S2x65536x2, .f32⟩
  | 122 => ⟨S_, .f32⟩
  | 123 => ⟨S2x65536x2, .f32⟩
  | 124 => ⟨S2x65536x2, .f32⟩
  | 125 => ⟨S2x65536x1, .f32⟩
  | 126 => ⟨S2x65536, .f32⟩
  | 127 => ⟨S_, .f32⟩
  | _ => ⟨S2x64x256x256, .f32⟩

abbrev hbmTy0_3 (i : Nat) : BufTy := match i % 128 with
  | 0 => ⟨S2x65536, .f32⟩
  | 1 => ⟨S2x65536, .f32⟩
  | 2 => ⟨S_, .f32⟩
  | 3 => ⟨S2x65536, .f32⟩
  | 4 => ⟨S2x65536, .f32⟩
  | 5 => ⟨S_, .f32⟩
  | 6 => ⟨S2x65536, .f32⟩
  | 7 => ⟨S2x65536, .f32⟩
  | 8 => ⟨S_, .f32⟩
  | 9 => ⟨S2x65536, .f32⟩
  | 10 => ⟨S2x65536, .f32⟩
  | 11 => ⟨S2x65536, .f32⟩
  | 12 => ⟨S_, .i32⟩
  | 13 => ⟨S_, .i32⟩
  | 14 => ⟨S_, .f32⟩
  | 15 => ⟨S2x65536, .f32⟩
  | 16 => ⟨S2x65536, .f32⟩
  | 17 => ⟨S_, .f32⟩
  | 18 => ⟨S2x65536, .f32⟩
  | 19 => ⟨S2x65536, .f32⟩
  | 20 => ⟨S2x65536, .i32⟩
  | 21 => ⟨S2x65536x1, .f32⟩
  | 22 => ⟨S2x65536, .f32⟩
  | 23 => ⟨S_, .f32⟩
  | 24 => ⟨S2x65536, .f32⟩
  | 25 => ⟨S2x65536, .f32⟩
  | 26 => ⟨S_, .f32⟩
  | 27 => ⟨S2x65536, .f32⟩
  | 28 => ⟨S2x65536, .f32⟩
  | 29 => ⟨S_, .f32⟩
  | 30 => ⟨S2x65536, .f32⟩
  | 31 => ⟨S2x65536, .f32⟩
  | 32 => ⟨S_, .f32⟩
  | 33 => ⟨S2x65536, .f32⟩
  | 34 => ⟨S2x65536, .f32⟩
  | 35 => ⟨S2x65536, .f32⟩
  | 36 => ⟨S_, .i32⟩
  | 37 => ⟨S_, .i32⟩
  | 38 => ⟨S_, .f32⟩
  | 39 => ⟨S2x65536, .f32⟩
  | 40 => ⟨S2x65536, .f32⟩
  | 41 => ⟨S_, .f32⟩
  | 42 => ⟨S2x65536, .f32⟩
  | 43 => ⟨S2x65536, .f32⟩
  | 44 => ⟨S2x65536, .i32⟩
  | 45 => ⟨S_, .i32⟩
  | 46 => ⟨S2x65536, .i32⟩
  | 47 => ⟨S2x65536, .i32⟩
  | 48 => ⟨S2x65536, .i32⟩
  | 49 => ⟨S2x64x65536, .f32⟩
  | 50 => ⟨S2x1x65536, .i32⟩
  | 51 => ⟨S_, .i32⟩
  | 52 => ⟨S2x1x65536, .i32⟩
  | 53 => ⟨S2x1x65536, .i1⟩
  | 54 => ⟨S_, .i32⟩
  | 55 => ⟨S2x1x65536, .i32⟩
  | 56 => ⟨S2x1x65536, .i32⟩
  | 57 => ⟨S2x1x65536, .i32⟩
  | 58 => ⟨S2x65536x1, .i32⟩
  | 59 => ⟨S1, .i32⟩
  | 60 => ⟨S_, .i32⟩
  | 61 => ⟨S2x65536x1, .i32⟩
  | 62 => ⟨S2x65536x1, .i1⟩
  | 63 => ⟨S1x1x1, .i32⟩
  | 64 => ⟨S2x65536x1, .i32⟩
  | 65 => ⟨S2x65536x1, .i1⟩
  | 66 => ⟨S2x65536x1, .i1⟩
  | 67 => ⟨S_, .i1⟩
  | 68 => ⟨S2x65536, .i1⟩
  | 69 => ⟨S2x64x65536, .f32⟩
  | 70 => ⟨S2x64x65536, .i1⟩
  | 71 => ⟨S_, .f32⟩
  | 72 => ⟨S2x64x65536, .f32⟩
  | 73 => ⟨S2x64x65536, .f32⟩
  | 74 => ⟨S2x65536x64, .f32⟩
  | 75 => ⟨S2x65536x256, .f32⟩
  | 76 => ⟨S_, .i32⟩
  | 77 => ⟨S_, .f32⟩
  | 78 => ⟨S2x64x258x258, .f32⟩
  | 79 => ⟨S2x64x256x256, .f32⟩
  | 80 => ⟨S2x64x256x256, .f32⟩
  | 81 => ⟨S2x64x256x256, .f32⟩
  | 82 => ⟨S2x64x256x256, .f32⟩
  | 83 => ⟨S2x64x256x256, .f32⟩
  | 84 => ⟨S2x64x256x256, .f32⟩
  | 85 => ⟨S2x64x256x256, .f32⟩
  | 86 => ⟨S2x64x256x256, .f32⟩
  | 87 => ⟨S2x64x256x256, .f32⟩
  | 88 => ⟨S2x64x1x256x256, .f32⟩
  | 89 => ⟨S2x64x1x256x256, .f32⟩
  | 90 => ⟨S2x64x1x256x256, .f32⟩
  | 91 => ⟨S2x64x1x256x256, .f32⟩
  | 92 => ⟨S2x64x1x256x256, .f32⟩
  | 93 => ⟨S2x64x1x256x256, .f32⟩
  | 94 => ⟨S2x64x1x256x256, .f32⟩
  | 95 => ⟨S2x64x1x256x256, .f32⟩
  | 96 => ⟨S2x64x1x256x256, .f32⟩
  | 97 => ⟨S2x64x9x256x256, .f32⟩
  | 98 => ⟨S2x576x65536, .f32⟩
  | 99 => ⟨S2x65536x576, .f32⟩
  | 100 => ⟨S2x65536x833, .f32⟩
  | 101 => ⟨S131072x833, .f32⟩
  | 102 => ⟨S131072x256, .f32⟩
  | 103 => ⟨S1x256, .f32⟩
  | 104 => ⟨S131072x256, .f32⟩
  | 105 => ⟨S131072x256, .f32⟩
  | 106 => ⟨S_, .f32⟩
  | 107 => ⟨S131072x256, .f32⟩
  | 108 => ⟨S131072x256, .f32⟩
  | 109 => ⟨S131072x256, .f32⟩
  | 110 => ⟨S1x256, .f32⟩
  | 111 => ⟨S131072x256, .f32⟩
  | 112 => ⟨S131072x256, .f32⟩
  | 113 => ⟨S_, .f32⟩
  | 114 => ⟨S131072x256, .f32⟩
  | 115 => ⟨S131072x256, .f32⟩
  | 116 => ⟨S131072x256, .f32⟩
  | 117 => ⟨S1x256, .f32⟩
  | 118 => ⟨S131072x256, .f32⟩
  | 119 => ⟨S131072x256, .f32⟩
  | 120 => ⟨S_, .f32⟩
  | 121 => ⟨S131072x256, .f32⟩
  | 122 => ⟨S131072x256, .f32⟩
  | 123 => ⟨S131072x256, .f32⟩
  | 124 => ⟨S1x256, .f32⟩
  | 125 => ⟨S131072x256, .f32⟩
  | 126 => ⟨S131072x256, .f32⟩
  | 127 => ⟨S_, .f32⟩
  | _ => ⟨S2x64x256x256, .f32⟩

abbrev hbmTy0_4 (i : Nat) : BufTy := match i % 128 with
  | 0 => ⟨S131072x256, .f32⟩
  | 1 => ⟨S131072x256, .f32⟩
  | 2 => ⟨S131072x3, .f32⟩
  | 3 => ⟨S1x3, .f32⟩
  | 4 => ⟨S131072x3, .f32⟩
  | 5 => ⟨S131072x3, .f32⟩
  | 6 => ⟨S2x65536x3, .f32⟩
  | _ => ⟨S2x64x256x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x64x256x256, .f32⟩

abbrev bufTy : (tb : Table) → Fin (tcTables nBuf tb) → BufTy
  | .hbm, ⟨i, _⟩ => hbmTy i
  | _, _ => ⟨S2x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_5 : Ref sig .tc := ⟨.hbm, 40, rfl⟩
abbrev main_cst_6 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_7 : Ref sig .tc := ⟨.hbm, 50, rfl⟩
abbrev main_v24 : Ref sig .tc := ⟨.hbm, 51, rfl⟩
abbrev main_v25 : Ref sig .tc := ⟨.hbm, 52, rfl⟩
abbrev main_cst_8 : Ref sig .tc := ⟨.hbm, 53, rfl⟩
abbrev main_v26 : Ref sig .tc := ⟨.hbm, 54, rfl⟩
abbrev main_v27 : Ref sig .tc := ⟨.hbm, 55, rfl⟩
abbrev main_cst_9 : Ref sig .tc := ⟨.hbm, 56, rfl⟩
abbrev main_v28 : Ref sig .tc := ⟨.hbm, 57, rfl⟩
abbrev main_v29 : Ref sig .tc := ⟨.hbm, 58, rfl⟩
abbrev main_cst_10 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c : Ref sig .tc := ⟨.hbm, 63, rfl⟩
abbrev main_c_11 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_12 : Ref sig .tc := ⟨.hbm, 74, rfl⟩
abbrev main_v37 : Ref sig .tc := ⟨.hbm, 75, rfl⟩
abbrev main_v38 : Ref sig .tc := ⟨.hbm, 76, rfl⟩
abbrev main_cst_13 : Ref sig .tc := ⟨.hbm, 77, rfl⟩
abbrev main_v39 : Ref sig .tc := ⟨.hbm, 78, rfl⟩
abbrev main_v40 : Ref sig .tc := ⟨.hbm, 79, rfl⟩
abbrev main_cst_14 : Ref sig .tc := ⟨.hbm, 80, rfl⟩
abbrev main_v41 : Ref sig .tc := ⟨.hbm, 81, rfl⟩
abbrev main_v42 : Ref sig .tc := ⟨.hbm, 82, rfl⟩
abbrev main_cst_15 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_c_16 : Ref sig .tc := ⟨.hbm, 87, rfl⟩
abbrev main_c_17 : Ref sig .tc := ⟨.hbm, 88, rfl⟩
abbrev main_call4_v0 : Ref sig .tc := ⟨.hbm, 89, rfl⟩
abbrev main_call4_v1 : Ref sig .tc := ⟨.hbm, 90, rfl⟩
abbrev main_call4_v2 : Ref sig .tc := ⟨.hbm, 91, rfl⟩
abbrev main_call4_v3 : Ref sig .tc := ⟨.hbm, 92, rfl⟩
abbrev main_call4_v4 : Ref sig .tc := ⟨.hbm, 93, rfl⟩
abbrev main_v46 : Ref sig .tc := ⟨.hbm, 94, rfl⟩
abbrev main_v47 : Ref sig .tc := ⟨.hbm, 95, rfl⟩
abbrev main_c_18 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_call5_c : Ref sig .tc := ⟨.hbm, 102, rfl⟩
abbrev main_call5_v0 : Ref sig .tc := ⟨.hbm, 103, rfl⟩
abbrev main_call5_v1 : Ref sig .tc := ⟨.hbm, 104, rfl⟩
abbrev main_call5_c_0 : Ref sig .tc := ⟨.hbm, 105, rfl⟩
abbrev main_call5_v2 : Ref sig .tc := ⟨.hbm, 106, rfl⟩
abbrev main_call5_v3 : Ref sig .tc := ⟨.hbm, 107, rfl⟩
abbrev main_call5_v4 : Ref sig .tc := ⟨.hbm, 108, rfl⟩
abbrev main_call5_v5 : Ref sig .tc := ⟨.hbm, 109, rfl⟩
abbrev main_call5_c_1 : Ref sig .tc := ⟨.hbm, 110, rfl⟩
abbrev main_call5_c_2 : Ref sig .tc := ⟨.hbm, 111, rfl⟩
abbrev main_call5_v6 : Ref sig .tc := ⟨.hbm, 112, rfl⟩
abbrev main_call5_v7 : Ref sig .tc := ⟨.hbm, 113, rfl⟩
abbrev main_call5_v8 : Ref sig .tc := ⟨.hbm, 114, rfl⟩
abbrev main_call5_v9 : Ref sig .tc := ⟨.hbm, 115, rfl⟩
abbrev main_call5_v10 : Ref sig .tc := ⟨.hbm, 116, rfl⟩
abbrev main_call5_v11 : Ref sig .tc := ⟨.hbm, 117, rfl⟩
abbrev main_call5_c_3 : Ref sig .tc := ⟨.hbm, 118, rfl⟩
abbrev main_call5_v12 : Ref sig .tc := ⟨.hbm, 119, rfl⟩
abbrev main_call5_v13 : Ref sig .tc := ⟨.hbm, 120, rfl⟩
abbrev main_call5_v14 : Ref sig .tc := ⟨.hbm, 121, rfl⟩
abbrev main_call5_cst : Ref sig .tc := ⟨.hbm, 122, rfl⟩
abbrev main_call5_v15 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_cst_19 : Ref sig .tc := ⟨.hbm, 128, rfl⟩
abbrev main_v57 : Ref sig .tc := ⟨.hbm, 129, rfl⟩
abbrev main_cst_20 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_cst_21 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_cst_22 : Ref sig .tc := ⟨.hbm, 139, rfl⟩
abbrev main_v65 : Ref sig .tc := ⟨.hbm, 140, rfl⟩
abbrev main_cst_23 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_cst_24 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_cst_25 : Ref sig .tc := ⟨.hbm, 151, rfl⟩
abbrev main_cst_26 : Ref sig .tc := ⟨.hbm, 152, rfl⟩
abbrev main_call6_v0 : Ref sig .tc := ⟨.hbm, 153, rfl⟩
abbrev main_call6_v1 : Ref sig .tc := ⟨.hbm, 154, rfl⟩
abbrev main_call6_v2 : Ref sig .tc := ⟨.hbm, 155, rfl⟩
abbrev main_call6_v3 : Ref sig .tc := ⟨.hbm, 156, rfl⟩
abbrev main_call6_v4 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_cst_27 : Ref sig .tc := ⟨.hbm, 161, rfl⟩
abbrev main_v77 : Ref sig .tc := ⟨.hbm, 162, rfl⟩
abbrev main_v78 : Ref sig .tc := ⟨.hbm, 163, rfl⟩
abbrev main_cst_28 : Ref sig .tc := ⟨.hbm, 164, rfl⟩
abbrev main_v79 : Ref sig .tc := ⟨.hbm, 165, rfl⟩
abbrev main_v80 : Ref sig .tc := ⟨.hbm, 166, rfl⟩
abbrev main_cst_29 : Ref sig .tc := ⟨.hbm, 167, rfl⟩
abbrev main_v81 : Ref sig .tc := ⟨.hbm, 168, rfl⟩
abbrev main_v82 : Ref sig .tc := ⟨.hbm, 169, rfl⟩
abbrev main_cst_30 : Ref sig .tc := ⟨.hbm, 170, rfl⟩
abbrev main_v83 : Ref sig .tc := ⟨.hbm, 171, rfl⟩
abbrev main_v84 : Ref sig .tc := ⟨.hbm, 172, rfl⟩
abbrev main_v85 : Ref sig .tc := ⟨.hbm, 173, rfl⟩
abbrev main_c_31 : Ref sig .tc := ⟨.hbm, 174, rfl⟩
abbrev main_c_32 : Ref sig .tc := ⟨.hbm, 175, rfl⟩
abbrev main_call8_v0 : Ref sig .tc := ⟨.hbm, 176, rfl⟩
abbrev main_call8_v1 : Ref sig .tc := ⟨.hbm, 177, rfl⟩
abbrev main_call8_v2 : Ref sig .tc := ⟨.hbm, 178, rfl⟩
abbrev main_call8_v3 : Ref sig .tc := ⟨.hbm, 179, rfl⟩
abbrev main_call8_v4 : Ref sig .tc := ⟨.hbm, 180, rfl⟩
abbrev main_v86 : Ref sig .tc := ⟨.hbm, 181, rfl⟩
abbrev main_v87 : Ref sig .tc := ⟨.hbm, 182, rfl⟩
abbrev main_v88 : Ref sig .tc := ⟨.hbm, 183, rfl⟩
abbrev main_v89 : Ref sig .tc := ⟨.hbm, 184, rfl⟩
abbrev main_cst_33 : Ref sig .tc := ⟨.hbm, 185, rfl⟩
abbrev main_v90 : Ref sig .tc := ⟨.hbm, 186, rfl⟩
abbrev main_v91 : Ref sig .tc := ⟨.hbm, 187, rfl⟩
abbrev main_cst_34 : Ref sig .tc := ⟨.hbm, 188, rfl⟩
abbrev main_v92 : Ref sig .tc := ⟨.hbm, 189, rfl⟩
abbrev main_v93 : Ref sig .tc := ⟨.hbm, 190, rfl⟩
abbrev main_cst_35 : Ref sig .tc := ⟨.hbm, 191, rfl⟩
abbrev main_v94 : Ref sig .tc := ⟨.hbm, 192, rfl⟩
abbrev main_v95 : Ref sig .tc := ⟨.hbm, 193, rfl⟩
abbrev main_cst_36 : Ref sig .tc := ⟨.hbm, 194, rfl⟩
abbrev main_v96 : Ref sig .tc := ⟨.hbm, 195, rfl⟩
abbrev main_v97 : Ref sig .tc := ⟨.hbm, 196, rfl⟩
abbrev main_v98 : Ref sig .tc := ⟨.hbm, 197, rfl⟩
abbrev main_c_37 : Ref sig .tc := ⟨.hbm, 198, rfl⟩
abbrev main_c_38 : Ref sig .tc := ⟨.hbm, 199, rfl⟩
abbrev main_call10_v0 : Ref sig .tc := ⟨.hbm, 200, rfl⟩
abbrev main_call10_v1 : Ref sig .tc := ⟨.hbm, 201, rfl⟩
abbrev main_call10_v2 : Ref sig .tc := ⟨.hbm, 202, rfl⟩
abbrev main_call10_v3 : Ref sig .tc := ⟨.hbm, 203, rfl⟩
abbrev main_call10_v4 : Ref sig .tc := ⟨.hbm, 204, rfl⟩
abbrev main_v99 : Ref sig .tc := ⟨.hbm, 205, rfl⟩
abbrev main_v100 : Ref sig .tc := ⟨.hbm, 206, rfl⟩
abbrev main_c_39 : Ref sig .tc := ⟨.hbm, 207, rfl⟩
abbrev main_v101 : Ref sig .tc := ⟨.hbm, 208, rfl⟩
abbrev main_v102 : Ref sig .tc := ⟨.hbm, 209, rfl⟩
abbrev main_v103 : Ref sig .tc := ⟨.hbm, 210, rfl⟩
abbrev main_v104 : Ref sig .tc := ⟨.hbm, 211, rfl⟩
abbrev main_v105 : Ref sig .tc := ⟨.hbm, 212, rfl⟩
abbrev main_call11_c : Ref sig .tc := ⟨.hbm, 213, rfl⟩
abbrev main_call11_v0 : Ref sig .tc := ⟨.hbm, 214, rfl⟩
abbrev main_call11_v1 : Ref sig .tc := ⟨.hbm, 215, rfl⟩
abbrev main_call11_c_0 : Ref sig .tc := ⟨.hbm, 216, rfl⟩
abbrev main_call11_v2 : Ref sig .tc := ⟨.hbm, 217, rfl⟩
abbrev main_call11_v3 : Ref sig .tc := ⟨.hbm, 218, rfl⟩
abbrev main_call11_v4 : Ref sig .tc := ⟨.hbm, 219, rfl⟩
abbrev main_call11_v5 : Ref sig .tc := ⟨.hbm, 220, rfl⟩
abbrev main_call11_c_1 : Ref sig .tc := ⟨.hbm, 221, rfl⟩
abbrev main_call11_c_2 : Ref sig .tc := ⟨.hbm, 222, rfl⟩
abbrev main_call11_v6 : Ref sig .tc := ⟨.hbm, 223, rfl⟩
abbrev main_call11_v7 : Ref sig .tc := ⟨.hbm, 224, rfl⟩
abbrev main_call11_v8 : Ref sig .tc := ⟨.hbm, 225, rfl⟩
abbrev main_call11_v9 : Ref sig .tc := ⟨.hbm, 226, rfl⟩
abbrev main_call11_v10 : Ref sig .tc := ⟨.hbm, 227, rfl⟩
abbrev main_call11_v11 : Ref sig .tc := ⟨.hbm, 228, rfl⟩
abbrev main_call11_c_3 : Ref sig .tc := ⟨.hbm, 229, rfl⟩
abbrev main_call11_v12 : Ref sig .tc := ⟨.hbm, 230, rfl⟩
abbrev main_call11_v13 : Ref sig .tc := ⟨.hbm, 231, rfl⟩
abbrev main_call11_v14 : Ref sig .tc := ⟨.hbm, 232, rfl⟩
abbrev main_call11_cst : Ref sig .tc := ⟨.hbm, 233, rfl⟩
abbrev main_call11_v15 : Ref sig .tc := ⟨.hbm, 234, rfl⟩
abbrev main_v106 : Ref sig .tc := ⟨.hbm, 235, rfl⟩
abbrev main_v107 : Ref sig .tc := ⟨.hbm, 236, rfl⟩
abbrev main_v108 : Ref sig .tc := ⟨.hbm, 237, rfl⟩
abbrev main_v109 : Ref sig .tc := ⟨.hbm, 238, rfl⟩
abbrev main_cst_40 : Ref sig .tc := ⟨.hbm, 239, rfl⟩
abbrev main_v110 : Ref sig .tc := ⟨.hbm, 240, rfl⟩
abbrev main_cst_41 : Ref sig .tc := ⟨.hbm, 241, rfl⟩
abbrev main_v111 : Ref sig .tc := ⟨.hbm, 242, rfl⟩
abbrev main_v112 : Ref sig .tc := ⟨.hbm, 243, rfl⟩
abbrev main_v113 : Ref sig .tc := ⟨.hbm, 244, rfl⟩
abbrev main_cst_42 : Ref sig .tc := ⟨.hbm, 245, rfl⟩
abbrev main_v114 : Ref sig .tc := ⟨.hbm, 246, rfl⟩
abbrev main_v115 : Ref sig .tc := ⟨.hbm, 247, rfl⟩
abbrev main_v116 : Ref sig .tc := ⟨.hbm, 248, rfl⟩
abbrev main_v117 : Ref sig .tc := ⟨.hbm, 249, rfl⟩
abbrev main_cst_43 : Ref sig .tc := ⟨.hbm, 250, rfl⟩
abbrev main_v118 : Ref sig .tc := ⟨.hbm, 251, rfl⟩
abbrev main_cst_44 : Ref sig .tc := ⟨.hbm, 252, rfl⟩
abbrev main_v119 : Ref sig .tc := ⟨.hbm, 253, rfl⟩
abbrev main_v120 : Ref sig .tc := ⟨.hbm, 254, rfl⟩
abbrev main_v121 : Ref sig .tc := ⟨.hbm, 255, rfl⟩
abbrev main_cst_45 : Ref sig .tc := ⟨.hbm, 256, rfl⟩
abbrev main_v122 : Ref sig .tc := ⟨.hbm, 257, rfl⟩
abbrev main_v123 : Ref sig .tc := ⟨.hbm, 258, rfl⟩
abbrev main_v124 : Ref sig .tc := ⟨.hbm, 259, rfl⟩
abbrev main_v125 : Ref sig .tc := ⟨.hbm, 260, rfl⟩
abbrev main_v126 : Ref sig .tc := ⟨.hbm, 261, rfl⟩
abbrev main_cst_46 : Ref sig .tc := ⟨.hbm, 262, rfl⟩
abbrev main_cst_47 : Ref sig .tc := ⟨.hbm, 263, rfl⟩
abbrev main_call12_v0 : Ref sig .tc := ⟨.hbm, 264, rfl⟩
abbrev main_call12_v1 : Ref sig .tc := ⟨.hbm, 265, rfl⟩
abbrev main_call12_v2 : Ref sig .tc := ⟨.hbm, 266, rfl⟩
abbrev main_call12_v3 : Ref sig .tc := ⟨.hbm, 267, rfl⟩
abbrev main_call12_v4 : Ref sig .tc := ⟨.hbm, 268, rfl⟩
abbrev main_v127 : Ref sig .tc := ⟨.hbm, 269, rfl⟩
abbrev main_v128 : Ref sig .tc := ⟨.hbm, 270, rfl⟩
abbrev main_v129 : Ref sig .tc := ⟨.hbm, 271, rfl⟩
abbrev main_cst_48 : Ref sig .tc := ⟨.hbm, 272, rfl⟩
abbrev main_v130 : Ref sig .tc := ⟨.hbm, 273, rfl⟩
abbrev main_v131 : Ref sig .tc := ⟨.hbm, 274, rfl⟩
abbrev main_cst_49 : Ref sig .tc := ⟨.hbm, 275, rfl⟩
abbrev main_v132 : Ref sig .tc := ⟨.hbm, 276, rfl⟩
abbrev main_v133 : Ref sig .tc := ⟨.hbm, 277, rfl⟩
abbrev main_cst_50 : Ref sig .tc := ⟨.hbm, 278, rfl⟩
abbrev main_v134 : Ref sig .tc := ⟨.hbm, 279, rfl⟩
abbrev main_v135 : Ref sig .tc := ⟨.hbm, 280, rfl⟩
abbrev main_cst_51 : Ref sig .tc := ⟨.hbm, 281, rfl⟩
abbrev main_v136 : Ref sig .tc := ⟨.hbm, 282, rfl⟩
abbrev main_v137 : Ref sig .tc := ⟨.hbm, 283, rfl⟩
abbrev main_v138 : Ref sig .tc := ⟨.hbm, 284, rfl⟩
abbrev main_c_52 : Ref sig .tc := ⟨.hbm, 285, rfl⟩
abbrev main_c_53 : Ref sig .tc := ⟨.hbm, 286, rfl⟩
abbrev main_call14_v0 : Ref sig .tc := ⟨.hbm, 287, rfl⟩
abbrev main_call14_v1 : Ref sig .tc := ⟨.hbm, 288, rfl⟩
abbrev main_call14_v2 : Ref sig .tc := ⟨.hbm, 289, rfl⟩
abbrev main_call14_v3 : Ref sig .tc := ⟨.hbm, 290, rfl⟩
abbrev main_call14_v4 : Ref sig .tc := ⟨.hbm, 291, rfl⟩
abbrev main_v139 : Ref sig .tc := ⟨.hbm, 292, rfl⟩
abbrev main_v140 : Ref sig .tc := ⟨.hbm, 293, rfl⟩
abbrev main_v141 : Ref sig .tc := ⟨.hbm, 294, rfl⟩
abbrev main_v142 : Ref sig .tc := ⟨.hbm, 295, rfl⟩
abbrev main_cst_54 : Ref sig .tc := ⟨.hbm, 296, rfl⟩
abbrev main_v143 : Ref sig .tc := ⟨.hbm, 297, rfl⟩
abbrev main_v144 : Ref sig .tc := ⟨.hbm, 298, rfl⟩
abbrev main_cst_55 : Ref sig .tc := ⟨.hbm, 299, rfl⟩
abbrev main_v145 : Ref sig .tc := ⟨.hbm, 300, rfl⟩
abbrev main_v146 : Ref sig .tc := ⟨.hbm, 301, rfl⟩
abbrev main_cst_56 : Ref sig .tc := ⟨.hbm, 302, rfl⟩
abbrev main_v147 : Ref sig .tc := ⟨.hbm, 303, rfl⟩
abbrev main_v148 : Ref sig .tc := ⟨.hbm, 304, rfl⟩
abbrev main_cst_57 : Ref sig .tc := ⟨.hbm, 305, rfl⟩
abbrev main_v149 : Ref sig .tc := ⟨.hbm, 306, rfl⟩
abbrev main_v150 : Ref sig .tc := ⟨.hbm, 307, rfl⟩
abbrev main_v151 : Ref sig .tc := ⟨.hbm, 308, rfl⟩
abbrev main_c_58 : Ref sig .tc := ⟨.hbm, 309, rfl⟩
abbrev main_c_59 : Ref sig .tc := ⟨.hbm, 310, rfl⟩
abbrev main_call16_v0 : Ref sig .tc := ⟨.hbm, 311, rfl⟩
abbrev main_call16_v1 : Ref sig .tc := ⟨.hbm, 312, rfl⟩
abbrev main_call16_v2 : Ref sig .tc := ⟨.hbm, 313, rfl⟩
abbrev main_call16_v3 : Ref sig .tc := ⟨.hbm, 314, rfl⟩
abbrev main_call16_v4 : Ref sig .tc := ⟨.hbm, 315, rfl⟩
abbrev main_v152 : Ref sig .tc := ⟨.hbm, 316, rfl⟩
abbrev main_v153 : Ref sig .tc := ⟨.hbm, 317, rfl⟩
abbrev main_c_60 : Ref sig .tc := ⟨.hbm, 318, rfl⟩
abbrev main_v154 : Ref sig .tc := ⟨.hbm, 319, rfl⟩
abbrev main_v155 : Ref sig .tc := ⟨.hbm, 320, rfl⟩
abbrev main_v156 : Ref sig .tc := ⟨.hbm, 321, rfl⟩
abbrev main_v157 : Ref sig .tc := ⟨.hbm, 322, rfl⟩
abbrev main_v158 : Ref sig .tc := ⟨.hbm, 323, rfl⟩
abbrev main_call17_c : Ref sig .tc := ⟨.hbm, 324, rfl⟩
abbrev main_call17_v0 : Ref sig .tc := ⟨.hbm, 325, rfl⟩
abbrev main_call17_v1 : Ref sig .tc := ⟨.hbm, 326, rfl⟩
abbrev main_call17_c_0 : Ref sig .tc := ⟨.hbm, 327, rfl⟩
abbrev main_call17_v2 : Ref sig .tc := ⟨.hbm, 328, rfl⟩
abbrev main_call17_v3 : Ref sig .tc := ⟨.hbm, 329, rfl⟩
abbrev main_call17_v4 : Ref sig .tc := ⟨.hbm, 330, rfl⟩
abbrev main_call17_v5 : Ref sig .tc := ⟨.hbm, 331, rfl⟩
abbrev main_call17_c_1 : Ref sig .tc := ⟨.hbm, 332, rfl⟩
abbrev main_call17_c_2 : Ref sig .tc := ⟨.hbm, 333, rfl⟩
abbrev main_call17_v6 : Ref sig .tc := ⟨.hbm, 334, rfl⟩
abbrev main_call17_v7 : Ref sig .tc := ⟨.hbm, 335, rfl⟩
abbrev main_call17_v8 : Ref sig .tc := ⟨.hbm, 336, rfl⟩
abbrev main_call17_v9 : Ref sig .tc := ⟨.hbm, 337, rfl⟩
abbrev main_call17_v10 : Ref sig .tc := ⟨.hbm, 338, rfl⟩
abbrev main_call17_v11 : Ref sig .tc := ⟨.hbm, 339, rfl⟩
abbrev main_call17_c_3 : Ref sig .tc := ⟨.hbm, 340, rfl⟩
abbrev main_call17_v12 : Ref sig .tc := ⟨.hbm, 341, rfl⟩
abbrev main_call17_v13 : Ref sig .tc := ⟨.hbm, 342, rfl⟩
abbrev main_call17_v14 : Ref sig .tc := ⟨.hbm, 343, rfl⟩
abbrev main_call17_cst : Ref sig .tc := ⟨.hbm, 344, rfl⟩
abbrev main_call17_v15 : Ref sig .tc := ⟨.hbm, 345, rfl⟩
abbrev main_v159 : Ref sig .tc := ⟨.hbm, 346, rfl⟩
abbrev main_v160 : Ref sig .tc := ⟨.hbm, 347, rfl⟩
abbrev main_v161 : Ref sig .tc := ⟨.hbm, 348, rfl⟩
abbrev main_v162 : Ref sig .tc := ⟨.hbm, 349, rfl⟩
abbrev main_cst_61 : Ref sig .tc := ⟨.hbm, 350, rfl⟩
abbrev main_v163 : Ref sig .tc := ⟨.hbm, 351, rfl⟩
abbrev main_cst_62 : Ref sig .tc := ⟨.hbm, 352, rfl⟩
abbrev main_v164 : Ref sig .tc := ⟨.hbm, 353, rfl⟩
abbrev main_v165 : Ref sig .tc := ⟨.hbm, 354, rfl⟩
abbrev main_v166 : Ref sig .tc := ⟨.hbm, 355, rfl⟩
abbrev main_cst_63 : Ref sig .tc := ⟨.hbm, 356, rfl⟩
abbrev main_v167 : Ref sig .tc := ⟨.hbm, 357, rfl⟩
abbrev main_v168 : Ref sig .tc := ⟨.hbm, 358, rfl⟩
abbrev main_v169 : Ref sig .tc := ⟨.hbm, 359, rfl⟩
abbrev main_v170 : Ref sig .tc := ⟨.hbm, 360, rfl⟩
abbrev main_cst_64 : Ref sig .tc := ⟨.hbm, 361, rfl⟩
abbrev main_v171 : Ref sig .tc := ⟨.hbm, 362, rfl⟩
abbrev main_cst_65 : Ref sig .tc := ⟨.hbm, 363, rfl⟩
abbrev main_v172 : Ref sig .tc := ⟨.hbm, 364, rfl⟩
abbrev main_v173 : Ref sig .tc := ⟨.hbm, 365, rfl⟩
abbrev main_v174 : Ref sig .tc := ⟨.hbm, 366, rfl⟩
abbrev main_cst_66 : Ref sig .tc := ⟨.hbm, 367, rfl⟩
abbrev main_v175 : Ref sig .tc := ⟨.hbm, 368, rfl⟩
abbrev main_v176 : Ref sig .tc := ⟨.hbm, 369, rfl⟩
abbrev main_v177 : Ref sig .tc := ⟨.hbm, 370, rfl⟩
abbrev main_v178 : Ref sig .tc := ⟨.hbm, 371, rfl⟩
abbrev main_v179 : Ref sig .tc := ⟨.hbm, 372, rfl⟩
abbrev main_cst_67 : Ref sig .tc := ⟨.hbm, 373, rfl⟩
abbrev main_cst_68 : Ref sig .tc := ⟨.hbm, 374, rfl⟩
abbrev main_call18_v0 : Ref sig .tc := ⟨.hbm, 375, rfl⟩
abbrev main_call18_v1 : Ref sig .tc := ⟨.hbm, 376, rfl⟩
abbrev main_call18_v2 : Ref sig .tc := ⟨.hbm, 377, rfl⟩
abbrev main_call18_v3 : Ref sig .tc := ⟨.hbm, 378, rfl⟩
abbrev main_call18_v4 : Ref sig .tc := ⟨.hbm, 379, rfl⟩
abbrev main_v180 : Ref sig .tc := ⟨.hbm, 380, rfl⟩
abbrev main_v181 : Ref sig .tc := ⟨.hbm, 381, rfl⟩
abbrev main_v182 : Ref sig .tc := ⟨.hbm, 382, rfl⟩
abbrev main_cst_69 : Ref sig .tc := ⟨.hbm, 383, rfl⟩
abbrev main_v183 : Ref sig .tc := ⟨.hbm, 384, rfl⟩
abbrev main_v184 : Ref sig .tc := ⟨.hbm, 385, rfl⟩
abbrev main_cst_70 : Ref sig .tc := ⟨.hbm, 386, rfl⟩
abbrev main_v185 : Ref sig .tc := ⟨.hbm, 387, rfl⟩
abbrev main_v186 : Ref sig .tc := ⟨.hbm, 388, rfl⟩
abbrev main_cst_71 : Ref sig .tc := ⟨.hbm, 389, rfl⟩
abbrev main_v187 : Ref sig .tc := ⟨.hbm, 390, rfl⟩
abbrev main_v188 : Ref sig .tc := ⟨.hbm, 391, rfl⟩
abbrev main_cst_72 : Ref sig .tc := ⟨.hbm, 392, rfl⟩
abbrev main_v189 : Ref sig .tc := ⟨.hbm, 393, rfl⟩
abbrev main_v190 : Ref sig .tc := ⟨.hbm, 394, rfl⟩
abbrev main_v191 : Ref sig .tc := ⟨.hbm, 395, rfl⟩
abbrev main_c_73 : Ref sig .tc := ⟨.hbm, 396, rfl⟩
abbrev main_c_74 : Ref sig .tc := ⟨.hbm, 397, rfl⟩
abbrev main_call20_v0 : Ref sig .tc := ⟨.hbm, 398, rfl⟩
abbrev main_call20_v1 : Ref sig .tc := ⟨.hbm, 399, rfl⟩
abbrev main_call20_v2 : Ref sig .tc := ⟨.hbm, 400, rfl⟩
abbrev main_call20_v3 : Ref sig .tc := ⟨.hbm, 401, rfl⟩
abbrev main_call20_v4 : Ref sig .tc := ⟨.hbm, 402, rfl⟩
abbrev main_v192 : Ref sig .tc := ⟨.hbm, 403, rfl⟩
abbrev main_v193 : Ref sig .tc := ⟨.hbm, 404, rfl⟩
abbrev main_v194 : Ref sig .tc := ⟨.hbm, 405, rfl⟩
abbrev main_v195 : Ref sig .tc := ⟨.hbm, 406, rfl⟩
abbrev main_cst_75 : Ref sig .tc := ⟨.hbm, 407, rfl⟩
abbrev main_v196 : Ref sig .tc := ⟨.hbm, 408, rfl⟩
abbrev main_v197 : Ref sig .tc := ⟨.hbm, 409, rfl⟩
abbrev main_cst_76 : Ref sig .tc := ⟨.hbm, 410, rfl⟩
abbrev main_v198 : Ref sig .tc := ⟨.hbm, 411, rfl⟩
abbrev main_v199 : Ref sig .tc := ⟨.hbm, 412, rfl⟩
abbrev main_cst_77 : Ref sig .tc := ⟨.hbm, 413, rfl⟩
abbrev main_v200 : Ref sig .tc := ⟨.hbm, 414, rfl⟩
abbrev main_v201 : Ref sig .tc := ⟨.hbm, 415, rfl⟩
abbrev main_cst_78 : Ref sig .tc := ⟨.hbm, 416, rfl⟩
abbrev main_v202 : Ref sig .tc := ⟨.hbm, 417, rfl⟩
abbrev main_v203 : Ref sig .tc := ⟨.hbm, 418, rfl⟩
abbrev main_v204 : Ref sig .tc := ⟨.hbm, 419, rfl⟩
abbrev main_c_79 : Ref sig .tc := ⟨.hbm, 420, rfl⟩
abbrev main_c_80 : Ref sig .tc := ⟨.hbm, 421, rfl⟩
abbrev main_call22_v0 : Ref sig .tc := ⟨.hbm, 422, rfl⟩
abbrev main_call22_v1 : Ref sig .tc := ⟨.hbm, 423, rfl⟩
abbrev main_call22_v2 : Ref sig .tc := ⟨.hbm, 424, rfl⟩
abbrev main_call22_v3 : Ref sig .tc := ⟨.hbm, 425, rfl⟩
abbrev main_call22_v4 : Ref sig .tc := ⟨.hbm, 426, rfl⟩
abbrev main_v205 : Ref sig .tc := ⟨.hbm, 427, rfl⟩
abbrev main_v206 : Ref sig .tc := ⟨.hbm, 428, rfl⟩
abbrev main_c_81 : Ref sig .tc := ⟨.hbm, 429, rfl⟩
abbrev main_v207 : Ref sig .tc := ⟨.hbm, 430, rfl⟩
abbrev main_v208 : Ref sig .tc := ⟨.hbm, 431, rfl⟩
abbrev main_v209 : Ref sig .tc := ⟨.hbm, 432, rfl⟩
abbrev main_v210 : Ref sig .tc := ⟨.hbm, 433, rfl⟩
abbrev main_v211 : Ref sig .tc := ⟨.hbm, 434, rfl⟩
abbrev main_call23_c : Ref sig .tc := ⟨.hbm, 435, rfl⟩
abbrev main_call23_v0 : Ref sig .tc := ⟨.hbm, 436, rfl⟩
abbrev main_call23_v1 : Ref sig .tc := ⟨.hbm, 437, rfl⟩
abbrev main_call23_c_0 : Ref sig .tc := ⟨.hbm, 438, rfl⟩
abbrev main_call23_v2 : Ref sig .tc := ⟨.hbm, 439, rfl⟩
abbrev main_call23_v3 : Ref sig .tc := ⟨.hbm, 440, rfl⟩
abbrev main_call23_v4 : Ref sig .tc := ⟨.hbm, 441, rfl⟩
abbrev main_call23_v5 : Ref sig .tc := ⟨.hbm, 442, rfl⟩
abbrev main_call23_c_1 : Ref sig .tc := ⟨.hbm, 443, rfl⟩
abbrev main_call23_c_2 : Ref sig .tc := ⟨.hbm, 444, rfl⟩
abbrev main_call23_v6 : Ref sig .tc := ⟨.hbm, 445, rfl⟩
abbrev main_call23_v7 : Ref sig .tc := ⟨.hbm, 446, rfl⟩
abbrev main_call23_v8 : Ref sig .tc := ⟨.hbm, 447, rfl⟩
abbrev main_call23_v9 : Ref sig .tc := ⟨.hbm, 448, rfl⟩
abbrev main_call23_v10 : Ref sig .tc := ⟨.hbm, 449, rfl⟩
abbrev main_call23_v11 : Ref sig .tc := ⟨.hbm, 450, rfl⟩
abbrev main_call23_c_3 : Ref sig .tc := ⟨.hbm, 451, rfl⟩
abbrev main_call23_v12 : Ref sig .tc := ⟨.hbm, 452, rfl⟩
abbrev main_call23_v13 : Ref sig .tc := ⟨.hbm, 453, rfl⟩
abbrev main_call23_v14 : Ref sig .tc := ⟨.hbm, 454, rfl⟩
abbrev main_call23_cst : Ref sig .tc := ⟨.hbm, 455, rfl⟩
abbrev main_call23_v15 : Ref sig .tc := ⟨.hbm, 456, rfl⟩
abbrev main_v212 : Ref sig .tc := ⟨.hbm, 457, rfl⟩
abbrev main_v213 : Ref sig .tc := ⟨.hbm, 458, rfl⟩
abbrev main_v214 : Ref sig .tc := ⟨.hbm, 459, rfl⟩
abbrev main_c_82 : Ref sig .tc := ⟨.hbm, 460, rfl⟩
abbrev main_call24_v0 : Ref sig .tc := ⟨.hbm, 461, rfl⟩
abbrev main_v215 : Ref sig .tc := ⟨.hbm, 462, rfl⟩
abbrev main_v216 : Ref sig .tc := ⟨.hbm, 463, rfl⟩
abbrev main_v217 : Ref sig .tc := ⟨.hbm, 464, rfl⟩
abbrev main_v218 : Ref sig .tc := ⟨.hbm, 465, rfl⟩
abbrev main_v219 : Ref sig .tc := ⟨.hbm, 466, rfl⟩
abbrev main_v220 : Ref sig .tc := ⟨.hbm, 467, rfl⟩
abbrev main_v221 : Ref sig .tc := ⟨.hbm, 468, rfl⟩
abbrev main_v222 : Ref sig .tc := ⟨.hbm, 469, rfl⟩
abbrev main_v223 : Ref sig .tc := ⟨.hbm, 470, rfl⟩
abbrev main_v224 : Ref sig .tc := ⟨.hbm, 471, rfl⟩
abbrev main_v225 : Ref sig .tc := ⟨.hbm, 472, rfl⟩
abbrev main_v226 : Ref sig .tc := ⟨.hbm, 473, rfl⟩
abbrev main_v227 : Ref sig .tc := ⟨.hbm, 474, rfl⟩
abbrev main_v228 : Ref sig .tc := ⟨.hbm, 475, rfl⟩
abbrev main_v229 : Ref sig .tc := ⟨.hbm, 476, rfl⟩
abbrev main_v230 : Ref sig .tc := ⟨.hbm, 477, rfl⟩
abbrev main_v231 : Ref sig .tc := ⟨.hbm, 478, rfl⟩
abbrev main_v232 : Ref sig .tc := ⟨.hbm, 479, rfl⟩
abbrev main_v233 : Ref sig .tc := ⟨.hbm, 480, rfl⟩
abbrev main_v234 : Ref sig .tc := ⟨.hbm, 481, rfl⟩
abbrev main_v235 : Ref sig .tc := ⟨.hbm, 482, rfl⟩
abbrev main_v236 : Ref sig .tc := ⟨.hbm, 483, rfl⟩
abbrev main_v237 : Ref sig .tc := ⟨.hbm, 484, rfl⟩
abbrev main_v238 : Ref sig .tc := ⟨.hbm, 485, rfl⟩
abbrev main_v239 : Ref sig .tc := ⟨.hbm, 486, rfl⟩
abbrev main_v240 : Ref sig .tc := ⟨.hbm, 487, rfl⟩
abbrev main_v241 : Ref sig .tc := ⟨.hbm, 488, rfl⟩
abbrev main_v242 : Ref sig .tc := ⟨.hbm, 489, rfl⟩
abbrev main_call25_cst : Ref sig .tc := ⟨.hbm, 490, rfl⟩
abbrev main_call25_v0 : Ref sig .tc := ⟨.hbm, 491, rfl⟩
abbrev main_v243 : Ref sig .tc := ⟨.hbm, 492, rfl⟩
abbrev main_v244 : Ref sig .tc := ⟨.hbm, 493, rfl⟩
abbrev main_v245 : Ref sig .tc := ⟨.hbm, 494, rfl⟩
abbrev main_v246 : Ref sig .tc := ⟨.hbm, 495, rfl⟩
abbrev main_v247 : Ref sig .tc := ⟨.hbm, 496, rfl⟩
abbrev main_call26_cst : Ref sig .tc := ⟨.hbm, 497, rfl⟩
abbrev main_call26_v0 : Ref sig .tc := ⟨.hbm, 498, rfl⟩
abbrev main_v248 : Ref sig .tc := ⟨.hbm, 499, rfl⟩
abbrev main_v249 : Ref sig .tc := ⟨.hbm, 500, rfl⟩
abbrev main_v250 : Ref sig .tc := ⟨.hbm, 501, rfl⟩
abbrev main_v251 : Ref sig .tc := ⟨.hbm, 502, rfl⟩
abbrev main_v252 : Ref sig .tc := ⟨.hbm, 503, rfl⟩
abbrev main_call27_cst : Ref sig .tc := ⟨.hbm, 504, rfl⟩
abbrev main_call27_v0 : Ref sig .tc := ⟨.hbm, 505, rfl⟩
abbrev main_v253 : Ref sig .tc := ⟨.hbm, 506, rfl⟩
abbrev main_v254 : Ref sig .tc := ⟨.hbm, 507, rfl⟩
abbrev main_v255 : Ref sig .tc := ⟨.hbm, 508, rfl⟩
abbrev main_v256 : Ref sig .tc := ⟨.hbm, 509, rfl⟩
abbrev main_v257 : Ref sig .tc := ⟨.hbm, 510, rfl⟩
abbrev main_call28_cst : Ref sig .tc := ⟨.hbm, 511, rfl⟩
abbrev main_call28_v0 : Ref sig .tc := ⟨.hbm, 512, rfl⟩
abbrev main_v258 : Ref sig .tc := ⟨.hbm, 513, rfl⟩
abbrev main_v259 : Ref sig .tc := ⟨.hbm, 514, rfl⟩
abbrev main_v260 : Ref sig .tc := ⟨.hbm, 515, rfl⟩
abbrev main_v261 : Ref sig .tc := ⟨.hbm, 516, rfl⟩
abbrev main_v262 : Ref sig .tc := ⟨.hbm, 517, rfl⟩
abbrev main_v263 : Ref sig .tc := ⟨.hbm, 518, rfl⟩

abbrev nD : Nat := 1
abbrev τ : Topo := Topo.v7x

variable {F : FTy → Type} [FloatOps F]

class Facts₀ : Prop where
  slices_S2x65536x1_S1x1x1_0_0_0 : S2x65536x1.Slices ![0, 0, 0] S1x1x1
  shapeCasts_S1x1x1_S_ : S1x1x1.ShapeCasts S_
  slices_S2x65536x2_S2x65536x1_0_0_0 : S2x65536x2.Slices ![0, 0, 0] S2x65536x1
  shapeCasts_S2x65536x1_S2x65536 : S2x65536x1.ShapeCasts S2x65536
  bcast_S_S2x65536 : S_.BroadcastsInDim S2x65536 (![] : Fin 0 → Fin S2x65536.rank)
  slices_S2x65536x2_S2x65536x1_0_0_1 : S2x65536x2.Slices ![0, 0, 1] S2x65536x1
  bcast_S2x65536_S2x65536x1_0_1 : S2x65536.BroadcastsInDim S2x65536x1 (![0, 1] : Fin 2 → Fin S2x65536x1.rank)
  concatenates_S2x65536x1_S2x65536x1_S2x65536x2_d2 : Shape.Concatenates [S2x65536x1, S2x65536x1] S2x65536x2 2
  bcast_S_S2x65536x2 : S_.BroadcastsInDim S2x65536x2 (![] : Fin 0 → Fin S2x65536x2.rank)
  shapeCasts_S2x64x256x256_S2x64x65536 : S2x64x256x256.ShapeCasts S2x64x65536
  bcast_S2x65536_S2x1x65536_0_2 : S2x65536.BroadcastsInDim S2x1x65536 (![0, 2] : Fin 2 → Fin S2x1x65536.rank)
  bcast_S_S2x1x65536 : S_.BroadcastsInDim S2x1x65536 (![] : Fin 0 → Fin S2x1x65536.rank)
  shapeCasts_S2x1x65536_S2x65536x1 : S2x1x65536.ShapeCasts S2x65536x1
  bcast_S_S2x65536x1 : S_.BroadcastsInDim S2x65536x1 (![] : Fin 0 → Fin S2x65536x1.rank)
  bcast_S1_S1x1x1_2 : S1.BroadcastsInDim S1x1x1 (![2] : Fin 1 → Fin S1x1x1.rank)
  bcast_S1x1x1_S2x65536x1_0_1_2 : S1x1x1.BroadcastsInDim S2x65536x1 (![0, 1, 2] : Fin 3 → Fin S2x65536x1.rank)
  reducesTo_S2x65536x1_S2x65536_d2 : S2x65536x1.ReducesTo [2] S2x65536
  h_S_ : 0 < S_.numel
  bcast_S2x65536_S2x64x65536_0_2 : S2x65536.BroadcastsInDim S2x64x65536 (![0, 2] : Fin 2 → Fin S2x64x65536.rank)
  bcast_S_S2x64x65536 : S_.BroadcastsInDim S2x64x65536 (![] : Fin 0 → Fin S2x64x65536.rank)
  transposes_S2x64x65536_S2x65536x64_0_2_1 : S2x64x65536.Transposes [0, 2, 1] S2x65536x64
  concatenates_S2x65536x64_S2x65536x64_S2x65536x64_S2x65536x64_S2x65536x256_d2 : Shape.Concatenates [S2x65536x64, S2x65536x64, S2x65536x64, S2x65536x64] S2x65536x256 2
  pads_S2x64x256x256_S2x64x258x258_000_000_110_110 : S2x64x256x256.Pads (![0, 0, 1, 1] : Fin 4 → Nat) ![0, 0, 1, 1] ![0, 0, 0, 0] S2x64x258x258
  slices_S2x64x258x258_S2x64x256x256_0_0_0_0 : S2x64x258x258.Slices ![0, 0, 0, 0] S2x64x256x256
  slices_S2x64x258x258_S2x64x256x256_0_0_0_1 : S2x64x258x258.Slices ![0, 0, 0, 1] S2x64x256x256
  slices_S2x64x258x258_S2x64x256x256_0_0_0_2 : S2x64x258x258.Slices ![0, 0, 0, 2] S2x64x256x256
  slices_S2x64x258x258_S2x64x256x256_0_0_1_0 : S2x64x258x258.Slices ![0, 0, 1, 0] S2x64x256x256
  slices_S2x64x258x258_S2x64x256x256_0_0_1_1 : S2x64x258x258.Slices ![0, 0, 1, 1] S2x64x256x256
  slices_S2x64x258x258_S2x64x256x256_0_0_1_2 : S2x64x258x258.Slices ![0, 0, 1, 2] S2x64x256x256
  slices_S2x64x258x258_S2x64x256x256_0_0_2_0 : S2x64x258x258.Slices ![0, 0, 2, 0] S2x64x256x256
  slices_S2x64x258x258_S2x64x256x256_0_0_2_1 : S2x64x258x258.Slices ![0, 0, 2, 1] S2x64x256x256
  slices_S2x64x258x258_S2x64x256x256_0_0_2_2 : S2x64x258x258.Slices ![0, 0, 2, 2] S2x64x256x256
  bcast_S2x64x256x256_S2x64x1x256x256_0_1_3_4 : S2x64x256x256.BroadcastsInDim S2x64x1x256x256 (![0, 1, 3, 4] : Fin 4 → Fin S2x64x1x256x256.rank)
  concatenates_S2x64x1x256x256_S2x64x1x256x256_S2x64x1x256x256_S2x64x1x256x256_S2x64x1x256x256_S2x64x1x256x256_S2x64x1x256x256_S2x64x1x256x256_S2x64x1x256x256_S2x64x9x256x256_d2 : Shape.Concatenates [S2x64x1x256x256, S2x64x1x256x256, S2x64x1x256x256, S2x64x1x256x256, S2x64x1x256x256, S2x64x1x256x256, S2x64x1x256x256, S2x64x1x256x256, S2x64x1x256x256] S2x64x9x256x256 2
  shapeCasts_S2x64x9x256x256_S2x576x65536 : S2x64x9x256x256.ShapeCasts S2x576x65536
  transposes_S2x576x65536_S2x65536x576_0_2_1 : S2x576x65536.Transposes [0, 2, 1] S2x65536x576
  concatenates_S2x65536x256_S2x65536x576_S2x65536x1_S2x65536x833_d2 : Shape.Concatenates [S2x65536x256, S2x65536x576, S2x65536x1] S2x65536x833 2
  shapeCasts_S2x65536x833_S131072x833 : S2x65536x833.ShapeCasts S131072x833
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  bcast_S3_S1x3_1 : S3.BroadcastsInDim S1x3 (![1] : Fin 1 → Fin S1x3.rank)
  bcast_S1x3_S131072x3_0_1 : S1x3.BroadcastsInDim S131072x3 (![0, 1] : Fin 2 → Fin S131072x3.rank)
  shapeCasts_S131072x3_S2x65536x3 : S131072x3.ShapeCasts S2x65536x3
  gather_S2x64x65536_S2x65536x1_S2x64x65536_1_2_0_0_2_2_1641_wf : GatherDims.WF S2x64x65536 S2x65536x1 S2x64x65536 [1] [2] [0] [2] [0] 2 ![1, 64, 1]
  dot_S131072x833_S833x256_S131072x256_1_0_0_1_n_n_wf : DotDims.WF S131072x833 S833x256 S131072x256 [1] [0] [0] [1] [] []
  dot_S131072x256_S256x256_S131072x256_1_0_0_1_n_n_wf : DotDims.WF S131072x256 S256x256 S131072x256 [1] [0] [0] [1] [] []
  dot_S131072x256_S256x3_S131072x3_1_0_0_1_n_n_wf : DotDims.WF S131072x256 S256x3 S131072x3 [1] [0] [0] [1] [] []

variable [Facts₀]

def gather_S2x64x65536_S2x65536x1_S2x64x65536_1_2_0_0_2_2_1641 : GatherDims S2x64x65536 S2x65536x1 S2x64x65536 where
  offsetDims := [1]
  collapsedSliceDims := [2]
  operandBatchingDims := [0]
  startIndicesBatchingDims := [0]
  startIndexMap := [2]
  indexVectorDim := 2
  sliceSizes := ![1, 64, 1]
  wf := gather_S2x64x65536_S2x65536x1_S2x64x65536_1_2_0_0_2_2_1641_wf
def dot_S131072x833_S833x256_S131072x256_1_0_0_1_n_n : DotDims S131072x833 S833x256 S131072x256 where
  lhsContracting := [1]
  rhsContracting := [0]
  lhsNonContracting := [0]
  rhsNonContracting := [1]
  lhsBatch := []
  rhsBatch := []
  wf := dot_S131072x833_S833x256_S131072x256_1_0_0_1_n_n_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S131072x256_S256x3_S131072x3_1_0_0_1_n_n : DotDims S131072x256 S256x3 S131072x3 where
  lhsContracting := [1]
  rhsContracting := [0]
  lhsNonContracting := [0]
  rhsNonContracting := [1]
  lhsBatch := []
  rhsBatch := []
  wf := dot_S131072x256_S256x3_S131072x3_1_0_0_1_n_n_wf

class Facts : Prop extends Facts₀ where

variable [Facts]
-- ==== Proof.KEntryBits.lean ====
/-
  What the kernel region finds in memory.

  Before the region the program runs a long straight line of host operations (the nearest-neighbour gathers, the
  3×3 unfolding, the concatenations and reshapes that build the [131072, 833] input of the network, and the reshapes
  of the biases to [1, N]).  `V m c b` is the contents of buffer `b` on core `c` after all of them, starting from
  the launch memory `m`: the fold of those operations over `m`.  It is kept as this fold everywhere; only the lemmas
  that need a particular buffer's contents open it.
-/
import proofs.«145896_j91079076479405_1_alg».proof.Proof.Gen.Kernel.Launch

noncomputable section

namespace Cert.Kernel.Mlp

open Idealize.ShloMosaic Idealize.ShloMosaic.TcCoe Idealize.SL.Sem
open Cert.Kernel Cert.Kernel.Gen

variable {F : FTy → Type} [FloatOps F]

/-- The stretches of host operations before the region, in program order. -/
abbrev pre : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50]

/-- Core `c`'s buffer contents when the region is entered: the host operations before it, folded over the launch memory. -/
abbrev V0 (m : (ℓ : Loc nD τ sig) → Buf (Elt F) ℓ) (c : Dev nD) : Valuation τ sig (Elt F) :=
  StableHlo.after (List.flatten (pre (F := F))) (fun b => m (c, b))

/-- The same read at a TensorCore reference. -/
abbrev V (m : (ℓ : Loc nD τ sig) → Buf (Elt F) ℓ) (c : Dev nD) (b : Ref sig .tc) : Buf (Elt F) ((c : Thread nD τ).loc b) :=
  V0 m c (Proc.devRef .tc b)

end Cert.Kernel.Mlp

end
-- ==== Proof.KArgsBits.lean ====
/-
  The host side of the program around its one kernel region.

  The program is: a straight line of host operations (cut into 51 stretches), the region, one reshape.  None of
  the host operations allocates, each touches TensorCore buffers only, and none of them writes an argument array:
  every operation writes its own result buffer, which is no argument.  So each argument is, when the region is
  entered and again when the program ends, what it was at launch; and the program reduces to "the region, continued
  by the reshape" from the memory the operations before it leave (`V`).
-/
import proofs.«145896_j91079076479405_1_alg».proof.Proof.KEntryBits
import Idealize.ShloMosaic.Lib.Pipeline.FrameBody
import Idealize.ShloMosaic.Lib.Pipeline.FrameSuffix

set_option maxRecDepth 16384

noncomputable section

namespace Cert.Kernel.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## The operations before the region: TensorCore buffers only, nothing allocated -/

theorem pre_sub : (pre (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub⟩

theorem fresh_0 : (hostOps0 : List (HloOp τ sig (Elt F))).Forall fun op => op.fresh = ∅ := by
  simp only [List.Forall]; repeat' constructor
theorem fresh_1 : (hostOps0_1 : List (HloOp τ sig (Elt F))).Forall fun op => op.fresh = ∅ := by
  simp only [List.Forall]; repeat' constructor
theorem fresh_2 : (hostOps0_2 : List (HloOp τ sig (Elt F))).Forall fun op => op.fresh = ∅ := by
  simp only [List.Forall]; repeat' constructor
theorem fresh_3 : (hostOps0_3 : List (HloOp τ sig (Elt F))).Forall fun op => op.fresh = ∅ := by
  simp only [List.Forall]; repeat' constructor
theorem fresh_4 : (hostOps0_4 : List (HloOp τ sig (Elt F))).Forall fun op => op.fresh = ∅ := by
  simp only [List.Forall]; repeat' constructor
theorem fresh_5 : (hostOps0_5 : List (HloOp τ sig (Elt F))).Forall fun op => op.fresh = ∅ := by
  simp only [List.Forall]; repeat' constructor
theorem fresh_6 : (hostOps0_6 : List (HloOp τ sig (Elt F))).Forall fun op => op.fresh = ∅ := by
  simp only [List.Forall]; repeat' constructor
theorem fresh_7 : (hostOps0_7 : List (HloOp τ sig (Elt F))).Forall fun op => op.fresh = ∅ := by
  simp only [List.Forall]; repeat' constructor
theorem fresh_8 : (hostOps0_8 : List (HloOp τ sig (Elt F))).Forall fun op => op.fresh = ∅ := by
  simp only [List.Forall]; repeat' constructor
theorem fresh_9 : (hostOps0_9 : List (HloOp τ sig (Elt F))).Forall fun op => op.fresh = ∅ := by
  simp only [List.Forall]; repeat' constructor
theorem fresh_10 : (hostOps0_10 : List (HloOp τ sig (Elt F))).Forall fun op => op.fresh = ∅ := by
  simp only [List.Forall]; repeat' constructor
theorem fresh_11 : (hostOps0_11 : List (HloOp τ sig (Elt F))).Forall fun op => op.fresh = ∅ := by
  simp only [List.Forall]; repeat' constructor
theorem fresh_12 : (hostOps0_12 : List (HloOp τ sig (Elt F))).Forall fun op => op.fresh = ∅ := by
  simp only [List.Forall]; repeat' constructor
theorem fresh_13 : (hostOps0_13 : List (HloOp τ sig (Elt F))).Forall fun op => op.fresh = ∅ := by
  simp only [List.Forall]; repeat' constructor
theorem fresh_14 : (hostOps0_14 : List (HloOp τ sig (Elt F))).Forall fun op => op.fresh = ∅ := by
  simp only [List.Forall]; repeat' constructor
theorem fresh_15 : (hostOps0_15 : List (HloOp τ sig (Elt F))).Forall fun op => op.fresh = ∅ := by
  simp only [List.Forall]; repeat' constructor
theorem fresh_16 : (hostOps0_16 : List (HloOp τ sig (Elt F))).Forall fun op => op.fresh = ∅ := by
  simp only [List.Forall]; repeat' constructor
theorem fresh_17 : (hostOps0_17 : List (HloOp τ sig (Elt F))).Forall fun op => op.fresh = ∅ := by
  simp only [List.Forall]; repeat' constructor
theorem fresh_18 : (hostOps0_18 : List (HloOp τ sig (Elt F))).Forall fun op => op.fresh = ∅ := by
  simp only [List.Forall]; repeat' constructor
theorem fresh_19 : (hostOps0_19 : List (HloOp τ sig (Elt F))).Forall fun op => op.fresh = ∅ := by
  simp only [List.Forall]; repeat' constructor
theorem fresh_20 : (hostOps0_20 : List (HloOp τ sig (Elt F))).Forall fun op => op.fresh = ∅ := by
  simp only [List.Forall]; repeat' constructor
theorem fresh_21 : (hostOps0_21 : List (HloOp τ sig (Elt F))).Forall fun op => op.fresh = ∅ := by
  simp only [List.Forall]; repeat' constructor
theorem fresh_22 : (hostOps0_22 : List (HloOp τ sig (Elt F))).Forall fun op => op.fresh = ∅ := by
  simp only [List.Forall]; repeat' constructor
theorem fresh_23 : (hostOps0_23 : List (HloOp τ sig (Elt F))).Forall fun op => op.fresh = ∅ := by
  simp only [List.Forall]; repeat' constructor
theorem fresh_24 : (hostOps0_24 : List (HloOp τ sig (Elt F))).Forall fun op => op.fresh = ∅ := by
  simp only [List.Forall]; repeat' constructor
theorem fresh_25 : (hostOps0_25 : List (HloOp τ sig (Elt F))).Forall fun op => op.fresh = ∅ := by
  simp only [List.Forall]; repeat' constructor
theorem fresh_26 : (hostOps0_26 : List (HloOp τ sig (Elt F))).Forall fun op => op.fresh = ∅ := by
  simp only [List.Forall]; repeat' constructor
theorem fresh_27 : (hostOps0_27 : List (HloOp τ sig (Elt F))).Forall fun op => op.fresh = ∅ := by
  simp only [List.Forall]; repeat' constructor
theorem fresh_28 : (hostOps0_28 : List (HloOp τ sig (Elt F))).Forall fun op => op.fresh = ∅ := by
  simp only [List.Forall]; repeat' constructor
theorem fresh_29 : (hostOps0_29 : List (HloOp τ sig (Elt F))).Forall fun op => op.fresh = ∅ := by
  simp only [List.Forall]; repeat' constructor
theorem fresh_30 : (hostOps0_30 : List (HloOp τ sig (Elt F))).Forall fun op => op.fresh = ∅ := by
  simp only [List.Forall]; repeat' constructor
theorem fresh_31 : (hostOps0_31 : List (HloOp τ sig (Elt F))).Forall fun op => op.fresh = ∅ := by
  simp only [List.Forall]; repeat' constructor
theorem fresh_32 : (hostOps0_32 : List (HloOp τ sig (Elt F))).Forall fun op => op.fresh = ∅ := by
  simp only [List.Forall]; repeat' constructor
theorem fresh_33 : (hostOps0_33 : List (HloOp τ sig (Elt F))).Forall fun op => op.fresh = ∅ := by
  simp only [List.Forall]; repeat' constructor
theorem fresh_34 : (hostOps0_34 : List (HloOp τ sig (Elt F))).Forall fun op => op.fresh = ∅ := by
  simp only [List.Forall]; repeat' constructor
theorem fresh_35 : (hostOps0_35 : List (HloOp τ sig (Elt F))).Forall fun op => op.fresh = ∅ := by
  simp only [List.Forall]; repeat' constructor
theorem fresh_36 : (hostOps0_36 : List (HloOp τ sig (Elt F))).Forall fun op => op.fresh = ∅ := by
  simp only [List.Forall]; repeat' constructor
theorem fresh_37 : (hostOps0_37 : List (HloOp τ sig (Elt F))).Forall fun op => op.fresh = ∅ := by
  simp only [List.Forall]; repeat' constructor
theorem fresh_38 : (hostOps0_38 : List (HloOp τ sig (Elt F))).Forall fun op => op.fresh = ∅ := by
  simp only [List.Forall]; repeat' constructor
theorem fresh_39 : (hostOps0_39 : List (HloOp τ sig (Elt F))).Forall fun op => op.fresh = ∅ := by
  simp only [List.Forall]; repeat' constructor
theorem fresh_40 : (hostOps0_40 : List (HloOp τ sig (Elt F))).Forall fun op => op.fresh = ∅ := by
  simp only [List.Forall]; repeat' constructor
theorem fresh_41 : (hostOps0_41 : List (HloOp τ sig (Elt F))).Forall fun op => op.fresh = ∅ := by
  simp only [List.Forall]; repeat' constructor
theorem fresh_42 : (hostOps0_42 : List (HloOp τ sig (Elt F))).Forall fun op => op.fresh = ∅ := by
  simp only [List.Forall]; repeat' constructor
theorem fresh_43 : (hostOps0_43 : List (HloOp τ sig (Elt F))).Forall fun op => op.fresh = ∅ := by
  simp only [List.Forall]; repeat' constructor
theorem fresh_44 : (hostOps0_44 : List (HloOp τ sig (Elt F))).Forall fun op => op.fresh = ∅ := by
  simp only [List.Forall]; repeat' constructor
theorem fresh_45 : (hostOps0_45 : List (HloOp τ sig (Elt F))).Forall fun op => op.fresh = ∅ := by
  simp only [List.Forall]; repeat' constructor
theorem fresh_46 : (hostOps0_46 : List (HloOp τ sig (Elt F))).Forall fun op => op.fresh = ∅ := by
  simp only [List.Forall]; repeat' constructor
theorem fresh_47 : (hostOps0_47 : List (HloOp τ sig (Elt F))).Forall fun op => op.fresh = ∅ := by
  simp only [List.Forall]; repeat' constructor
theorem fresh_48 : (hostOps0_48 : List (HloOp τ sig (Elt F))).Forall fun op => op.fresh = ∅ := by
  simp only [List.Forall]; repeat' constructor
theorem fresh_49 : (hostOps0_49 : List (HloOp τ sig (Elt F))).Forall fun op => op.fresh = ∅ := by
  simp only [List.Forall]; repeat' constructor
theorem fresh_50 : (hostOps0_50 : List (HloOp τ sig (Elt F))).Forall fun op => op.fresh = ∅ := by
  simp only [List.Forall]; repeat' constructor
theorem fresh_tail : (hostOps1 : List (HloOp τ sig (Elt F))).Forall fun op => op.fresh = ∅ := by
  simp only [List.Forall]; repeat' constructor

theorem pre_fresh : (pre (F := F)).Forall fun ops => ops.Forall fun op => op.fresh = ∅ :=
  ⟨fresh_0, fresh_1, fresh_2, fresh_3, fresh_4, fresh_5, fresh_6, fresh_7, fresh_8, fresh_9, fresh_10, fresh_11, fresh_12, fresh_13, fresh_14, fresh_15, fresh_16, fresh_17, fresh_18, fresh_19, fresh_20, fresh_21, fresh_22, fresh_23, fresh_24, fresh_25, fresh_26, fresh_27, fresh_28, fresh_29, fresh_30, fresh_31, fresh_32, fresh_33, fresh_34, fresh_35, fresh_36, fresh_37, fresh_38, fresh_39, fresh_40, fresh_41, fresh_42, fresh_43, fresh_44, fresh_45, fresh_46, fresh_47, fresh_48, fresh_49, fresh_50⟩

/-! ## The program around the region -/

/-- The program is its host prefix, the region, and the reshape: it reduces to the region continued by the reshape,
    from the memory `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1] pre_sub pre_fresh main_chain

/-- The reshape after the region touches unscoped TensorCore buffers only, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp fresh_tail) op hop

/-- and writes none of the region's twelve arrays (it writes the program's result buffer). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ## The arguments are never written

Every host operation before the region writes exactly one buffer, its own result.  The thirteen arguments are the
references of index 0 … 12 and every result has a larger index, so no operation writes an argument: one pass over
the operations, stretch by stretch, instead of one per argument. -/

theorem writes_0 : (hostOps0 : List (HloOp τ sig (Elt F))).Forall fun op => ∃ y : Ref sig .tc, op.writes = {Proc.devRef .tc y} ∧ 13 ≤ y.idx.val :=
  ⟨
    ⟨_, StableHlo.unary_writes .., by decide⟩, ⟨_, StableHlo.reshape_writes .., by decide⟩, ⟨_, StableHlo.reshape_writes .., by decide⟩, ⟨_, StableHlo.unary_writes .., by decide⟩,
    ⟨_, StableHlo.reshape_writes .., by decide⟩, ⟨_, StableHlo.nullary_writes .., by decide⟩, ⟨_, StableHlo.binary_writes .., by decide⟩, ⟨_, StableHlo.nullary_writes .., by decide⟩,
    ⟨_, StableHlo.binary_writes .., by decide⟩, ⟨_, StableHlo.unary_writes .., by decide⟩, ⟨_, StableHlo.binary_writes .., by decide⟩, ⟨_, StableHlo.nullary_writes .., by decide⟩,
    ⟨_, StableHlo.unary_writes .., by decide⟩, ⟨_, StableHlo.binary_writes .., by decide⟩, ⟨_, StableHlo.unary_writes .., by decide⟩, ⟨_, StableHlo.reshape_writes .., by decide⟩,
    ⟨_, StableHlo.nullary_writes .., by decide⟩, ⟨_, StableHlo.binary_writes .., by decide⟩, ⟨_, StableHlo.nullary_writes .., by decide⟩, ⟨_, StableHlo.binary_writes .., by decide⟩,
    ⟨_, StableHlo.unary_writes .., by decide⟩, ⟨_, StableHlo.binary_writes .., by decide⟩, ⟨_, StableHlo.nullary_writes .., by decide⟩, ⟨_, StableHlo.unary_writes .., by decide⟩,
    ⟨_, StableHlo.binary_writes .., by decide⟩, ⟨_, StableHlo.unary_writes .., by decide⟩, ⟨_, StableHlo.unary_writes .., by decide⟩, ⟨_, StableHlo.binary_writes .., by decide⟩,
    ⟨_, StableHlo.nullary_writes .., by decide⟩, ⟨_, StableHlo.nullary_writes .., by decide⟩⟩
theorem writes_1 : (hostOps0_1 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩⟩
theorem writes_2 : (hostOps0_2 : List (HloOp τ sig (Elt F))).Forall fun op => ∃ y : Ref sig .tc, op.writes = {Proc.devRef .tc y} ∧ 13 ≤ y.idx.val :=
  ⟨
    ⟨_, StableHlo.unary_writes .., by decide⟩, ⟨_, StableHlo.reshape_writes .., by decide⟩, ⟨_, StableHlo.nullary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩, ⟨_, StableHlo.nullary_writes .., by decide⟩,
    ⟨_, StableHlo.unary_writes .., by decide⟩, ⟨_, StableHlo.binary_writes .., by decide⟩⟩
theorem writes_3 : (hostOps0_3 : List (HloOp τ sig (Elt F))).Forall fun op => ∃ y : Ref sig .tc, op.writes = {Proc.devRef .tc y} ∧ 13 ≤ y.idx.val :=
  ⟨_, StableHlo.unary_writes .., by decide⟩
theorem writes_4 : (hostOps0_4 : List (HloOp τ sig (Elt F))).Forall fun op => ∃ y : Ref sig .tc, op.writes = {Proc.devRef .tc y} ∧ 13 ≤ y.idx.val :=
  ⟨
    ⟨_, StableHlo.nullary_writes .., by decide⟩, ⟨_, StableHlo.nullary_writes .., by decide⟩⟩
theorem writes_5 : (hostOps0_5 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩⟩
theorem writes_6 : (hostOps0_6 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.reshape_writes .., by decide⟩, ⟨_, StableHlo.nullary_writes .., by decide⟩,
    ⟨_, StableHlo.unary_writes .., by decide⟩, ⟨_, StableHlo.binary_writes .., by decide⟩, ⟨_, StableHlo.nullary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩⟩
theorem writes_7 : (hostOps0_7 : List (HloOp τ sig (Elt F))).Forall fun op => ∃ y : Ref sig .tc, op.writes = {Proc.devRef .tc y} ∧ 13 ≤ y.idx.val :=
  ⟨_, StableHlo.unary_writes .., by decide⟩
theorem writes_8 : (hostOps0_8 : List (HloOp τ sig (Elt F))).Forall fun op => ∃ y : Ref sig .tc, op.writes = {Proc.devRef .tc y} ∧ 13 ≤ y.idx.val :=
  ⟨
    ⟨_, StableHlo.nullary_writes .., by decide⟩, ⟨_, StableHlo.nullary_writes .., by decide⟩⟩
theorem writes_9 : (hostOps0_9 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩⟩
theorem writes_10 : (hostOps0_10 : List (HloOp τ sig (Elt F))).Forall fun op => ∃ y : Ref sig .tc, op.writes = {Proc.devRef .tc y} ∧ 13 ≤ y.idx.val :=
  ⟨
    ⟨_, StableHlo.unary_writes .., by decide⟩, ⟨_, StableHlo.nullary_writes .., by decide⟩, ⟨_, StableHlo.unary_writes .., by decide⟩, ⟨_, StableHlo.binary_writes .., by decide⟩,
    ⟨_, StableHlo.binary_writes .., by decide⟩, ⟨_, StableHlo.unary_writes .., by decide⟩⟩
theorem writes_11 : (hostOps0_11 : List (HloOp τ sig (Elt F))).Forall fun op => ∃ y : Ref sig .tc, op.writes = {Proc.devRef .tc y} ∧ 13 ≤ y.idx.val :=
  ⟨
    ⟨_, StableHlo.nullary_writes .., by decide⟩, ⟨_, StableHlo.unary_writes .., by decide⟩, ⟨_, StableHlo.binary_writes .., by decide⟩, ⟨_, StableHlo.nullary_writes .., by decide⟩,
    ⟨_, StableHlo.unary_writes .., by decide⟩, ⟨_, StableHlo.binary_writes .., by decide⟩, ⟨_, StableHlo.ternary_writes .., by decide⟩, ⟨_, StableHlo.reshape_writes .., by decide⟩,
    ⟨_, StableHlo.nullary_writes .., by decide⟩, ⟨_, StableHlo.nullary_writes .., by decide⟩, ⟨_, StableHlo.unary_writes .., by decide⟩, ⟨_, StableHlo.binary_writes .., by decide⟩,
    ⟨_, StableHlo.unary_writes .., by decide⟩, ⟨_, StableHlo.unary_writes .., by decide⟩, ⟨_, StableHlo.binary_writes .., by decide⟩, ⟨_, StableHlo.binary_writes .., by decide⟩,
    ⟨_, StableHlo.nullary_writes .., by decide⟩, ⟨_, StableHlo.binary_writes .., by decide⟩, ⟨_, StableHlo.binary_writes .., by decide⟩, ⟨_, StableHlo.unary_writes .., by decide⟩,
    ⟨_, StableHlo.nullary_writes .., by decide⟩, ⟨_, StableHlo.unary_writes .., by decide⟩, ⟨_, StableHlo.ternary_writes .., by decide⟩⟩
theorem writes_12 : (hostOps0_12 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.reshape_writes .., by decide⟩, ⟨_, StableHlo.nullary_writes .., by decide⟩,
    ⟨_, StableHlo.binary_writes .., by decide⟩, ⟨_, StableHlo.nullary_writes .., by decide⟩, ⟨_, StableHlo.binary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.unary_writes .., by decide⟩, ⟨_, StableHlo.reshape_writes .., by decide⟩, ⟨_, StableHlo.nullary_writes .., by decide⟩, ⟨_, StableHlo.binary_writes .., by decide⟩,
    ⟨_, StableHlo.nullary_writes .., by decide⟩, ⟨_, StableHlo.binary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩, ⟨_, StableHlo.nullary_writes .., by decide⟩, ⟨_, StableHlo.nullary_writes .., by decide⟩⟩
theorem writes_13 : (hostOps0_13 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩⟩
theorem writes_14 : (hostOps0_14 : List (HloOp τ sig (Elt F))).Forall fun op => ∃ y : Ref sig .tc, op.writes = {Proc.devRef .tc y} ∧ 13 ≤ y.idx.val :=
  ⟨
    ⟨_, StableHlo.unary_writes .., by decide⟩, ⟨_, StableHlo.reshape_writes .., by decide⟩, ⟨_, StableHlo.nullary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩, ⟨_, StableHlo.nullary_writes .., by decide⟩,
    ⟨_, StableHlo.unary_writes .., by decide⟩, ⟨_, StableHlo.binary_writes .., by decide⟩⟩
theorem writes_15 : (hostOps0_15 : List (HloOp τ sig (Elt F))).Forall fun op => ∃ y : Ref sig .tc, op.writes = {Proc.devRef .tc y} ∧ 13 ≤ y.idx.val :=
  ⟨_, StableHlo.unary_writes .., by decide⟩
theorem writes_16 : (hostOps0_16 : List (HloOp τ sig (Elt F))).Forall fun op => ∃ y : Ref sig .tc, op.writes = {Proc.devRef .tc y} ∧ 13 ≤ y.idx.val :=
  ⟨
    ⟨_, StableHlo.nullary_writes .., by decide⟩, ⟨_, StableHlo.nullary_writes .., by decide⟩⟩
theorem writes_17 : (hostOps0_17 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩⟩
theorem writes_18 : (hostOps0_18 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.reshape_writes .., by decide⟩, ⟨_, StableHlo.nullary_writes .., by decide⟩,
    ⟨_, StableHlo.unary_writes .., by decide⟩, ⟨_, StableHlo.binary_writes .., by decide⟩, ⟨_, StableHlo.nullary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩⟩
theorem writes_19 : (hostOps0_19 : List (HloOp τ sig (Elt F))).Forall fun op => ∃ y : Ref sig .tc, op.writes = {Proc.devRef .tc y} ∧ 13 ≤ y.idx.val :=
  ⟨_, StableHlo.unary_writes .., by decide⟩
theorem writes_20 : (hostOps0_20 : List (HloOp τ sig (Elt F))).Forall fun op => ∃ y : Ref sig .tc, op.writes = {Proc.devRef .tc y} ∧ 13 ≤ y.idx.val :=
  ⟨
    ⟨_, StableHlo.nullary_writes .., by decide⟩, ⟨_, StableHlo.nullary_writes .., by decide⟩⟩
theorem writes_21 : (hostOps0_21 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩⟩
theorem writes_22 : (hostOps0_22 : List (HloOp τ sig (Elt F))).Forall fun op => ∃ y : Ref sig .tc, op.writes = {Proc.devRef .tc y} ∧ 13 ≤ y.idx.val :=
  ⟨
    ⟨_, StableHlo.unary_writes .., by decide⟩, ⟨_, StableHlo.nullary_writes .., by decide⟩, ⟨_, StableHlo.unary_writes .., by decide⟩, ⟨_, StableHlo.binary_writes .., by decide⟩,
    ⟨_, StableHlo.binary_writes .., by decide⟩, ⟨_, StableHlo.unary_writes .., by decide⟩⟩
theorem writes_23 : (hostOps0_23 : List (HloOp τ sig (Elt F))).Forall fun op => ∃ y : Ref sig .tc, op.writes = {Proc.devRef .tc y} ∧ 13 ≤ y.idx.val :=
  ⟨
    ⟨_, StableHlo.nullary_writes .., by decide⟩, ⟨_, StableHlo.unary_writes .., by decide⟩, ⟨_, StableHlo.binary_writes .., by decide⟩, ⟨_, StableHlo.nullary_writes .., by decide⟩,
    ⟨_, StableHlo.unary_writes .., by decide⟩, ⟨_, StableHlo.binary_writes .., by decide⟩, ⟨_, StableHlo.ternary_writes .., by decide⟩, ⟨_, StableHlo.reshape_writes .., by decide⟩,
    ⟨_, StableHlo.nullary_writes .., by decide⟩, ⟨_, StableHlo.nullary_writes .., by decide⟩, ⟨_, StableHlo.unary_writes .., by decide⟩, ⟨_, StableHlo.binary_writes .., by decide⟩,
    ⟨_, StableHlo.unary_writes .., by decide⟩, ⟨_, StableHlo.unary_writes .., by decide⟩, ⟨_, StableHlo.binary_writes .., by decide⟩, ⟨_, StableHlo.binary_writes .., by decide⟩,
    ⟨_, StableHlo.nullary_writes .., by decide⟩, ⟨_, StableHlo.binary_writes .., by decide⟩, ⟨_, StableHlo.binary_writes .., by decide⟩, ⟨_, StableHlo.unary_writes .., by decide⟩,
    ⟨_, StableHlo.nullary_writes .., by decide⟩, ⟨_, StableHlo.unary_writes .., by decide⟩, ⟨_, StableHlo.ternary_writes .., by decide⟩⟩
theorem writes_24 : (hostOps0_24 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.reshape_writes .., by decide⟩, ⟨_, StableHlo.nullary_writes .., by decide⟩,
    ⟨_, StableHlo.binary_writes .., by decide⟩, ⟨_, StableHlo.nullary_writes .., by decide⟩, ⟨_, StableHlo.binary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.unary_writes .., by decide⟩, ⟨_, StableHlo.reshape_writes .., by decide⟩, ⟨_, StableHlo.nullary_writes .., by decide⟩, ⟨_, StableHlo.binary_writes .., by decide⟩,
    ⟨_, StableHlo.nullary_writes .., by decide⟩, ⟨_, StableHlo.binary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩, ⟨_, StableHlo.nullary_writes .., by decide⟩, ⟨_, StableHlo.nullary_writes .., by decide⟩⟩
theorem writes_25 : (hostOps0_25 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩⟩
theorem writes_26 : (hostOps0_26 : List (HloOp τ sig (Elt F))).Forall fun op => ∃ y : Ref sig .tc, op.writes = {Proc.devRef .tc y} ∧ 13 ≤ y.idx.val :=
  ⟨
    ⟨_, StableHlo.unary_writes .., by decide⟩, ⟨_, StableHlo.reshape_writes .., by decide⟩, ⟨_, StableHlo.nullary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩, ⟨_, StableHlo.nullary_writes .., by decide⟩,
    ⟨_, StableHlo.unary_writes .., by decide⟩, ⟨_, StableHlo.binary_writes .., by decide⟩⟩
theorem writes_27 : (hostOps0_27 : List (HloOp τ sig (Elt F))).Forall fun op => ∃ y : Ref sig .tc, op.writes = {Proc.devRef .tc y} ∧ 13 ≤ y.idx.val :=
  ⟨_, StableHlo.unary_writes .., by decide⟩
theorem writes_28 : (hostOps0_28 : List (HloOp τ sig (Elt F))).Forall fun op => ∃ y : Ref sig .tc, op.writes = {Proc.devRef .tc y} ∧ 13 ≤ y.idx.val :=
  ⟨
    ⟨_, StableHlo.nullary_writes .., by decide⟩, ⟨_, StableHlo.nullary_writes .., by decide⟩⟩
theorem writes_29 : (hostOps0_29 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩⟩
theorem writes_30 : (hostOps0_30 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.reshape_writes .., by decide⟩, ⟨_, StableHlo.nullary_writes .., by decide⟩,
    ⟨_, StableHlo.unary_writes .., by decide⟩, ⟨_, StableHlo.binary_writes .., by decide⟩, ⟨_, StableHlo.nullary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩⟩
theorem writes_31 : (hostOps0_31 : List (HloOp τ sig (Elt F))).Forall fun op => ∃ y : Ref sig .tc, op.writes = {Proc.devRef .tc y} ∧ 13 ≤ y.idx.val :=
  ⟨_, StableHlo.unary_writes .., by decide⟩
theorem writes_32 : (hostOps0_32 : List (HloOp τ sig (Elt F))).Forall fun op => ∃ y : Ref sig .tc, op.writes = {Proc.devRef .tc y} ∧ 13 ≤ y.idx.val :=
  ⟨
    ⟨_, StableHlo.nullary_writes .., by decide⟩, ⟨_, StableHlo.nullary_writes .., by decide⟩⟩
theorem writes_33 : (hostOps0_33 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩⟩
theorem writes_34 : (hostOps0_34 : List (HloOp τ sig (Elt F))).Forall fun op => ∃ y : Ref sig .tc, op.writes = {Proc.devRef .tc y} ∧ 13 ≤ y.idx.val :=
  ⟨
    ⟨_, StableHlo.unary_writes .., by decide⟩, ⟨_, StableHlo.nullary_writes .., by decide⟩, ⟨_, StableHlo.unary_writes .., by decide⟩, ⟨_, StableHlo.binary_writes .., by decide⟩,
    ⟨_, StableHlo.binary_writes .., by decide⟩, ⟨_, StableHlo.unary_writes .., by decide⟩⟩
theorem writes_35 : (hostOps0_35 : List (HloOp τ sig (Elt F))).Forall fun op => ∃ y : Ref sig .tc, op.writes = {Proc.devRef .tc y} ∧ 13 ≤ y.idx.val :=
  ⟨
    ⟨_, StableHlo.nullary_writes .., by decide⟩, ⟨_, StableHlo.unary_writes .., by decide⟩, ⟨_, StableHlo.binary_writes .., by decide⟩, ⟨_, StableHlo.nullary_writes .., by decide⟩,
    ⟨_, StableHlo.unary_writes .., by decide⟩, ⟨_, StableHlo.binary_writes .., by decide⟩, ⟨_, StableHlo.ternary_writes .., by decide⟩, ⟨_, StableHlo.reshape_writes .., by decide⟩,
    ⟨_, StableHlo.nullary_writes .., by decide⟩, ⟨_, StableHlo.nullary_writes .., by decide⟩, ⟨_, StableHlo.unary_writes .., by decide⟩, ⟨_, StableHlo.binary_writes .., by decide⟩,
    ⟨_, StableHlo.unary_writes .., by decide⟩, ⟨_, StableHlo.unary_writes .., by decide⟩, ⟨_, StableHlo.binary_writes .., by decide⟩, ⟨_, StableHlo.binary_writes .., by decide⟩,
    ⟨_, StableHlo.nullary_writes .., by decide⟩, ⟨_, StableHlo.binary_writes .., by decide⟩, ⟨_, StableHlo.binary_writes .., by decide⟩, ⟨_, StableHlo.unary_writes .., by decide⟩,
    ⟨_, StableHlo.nullary_writes .., by decide⟩, ⟨_, StableHlo.unary_writes .., by decide⟩, ⟨_, StableHlo.ternary_writes .., by decide⟩⟩
theorem writes_36 : (hostOps0_36 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.reshape_writes .., by decide⟩, ⟨_, StableHlo.nullary_writes .., by decide⟩,
    ⟨_, StableHlo.binary_writes .., by decide⟩, ⟨_, StableHlo.nullary_writes .., by decide⟩, ⟨_, StableHlo.binary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.unary_writes .., by decide⟩, ⟨_, StableHlo.reshape_writes .., by decide⟩, ⟨_, StableHlo.nullary_writes .., by decide⟩, ⟨_, StableHlo.binary_writes .., by decide⟩,
    ⟨_, StableHlo.nullary_writes .., by decide⟩, ⟨_, StableHlo.binary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩, ⟨_, StableHlo.nullary_writes .., by decide⟩, ⟨_, StableHlo.nullary_writes .., by decide⟩⟩
theorem writes_37 : (hostOps0_37 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩⟩
theorem writes_38 : (hostOps0_38 : List (HloOp τ sig (Elt F))).Forall fun op => ∃ y : Ref sig .tc, op.writes = {Proc.devRef .tc y} ∧ 13 ≤ y.idx.val :=
  ⟨
    ⟨_, StableHlo.unary_writes .., by decide⟩, ⟨_, StableHlo.reshape_writes .., by decide⟩, ⟨_, StableHlo.nullary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩, ⟨_, StableHlo.nullary_writes .., by decide⟩,
    ⟨_, StableHlo.unary_writes .., by decide⟩, ⟨_, StableHlo.binary_writes .., by decide⟩⟩
theorem writes_39 : (hostOps0_39 : List (HloOp τ sig (Elt F))).Forall fun op => ∃ y : Ref sig .tc, op.writes = {Proc.devRef .tc y} ∧ 13 ≤ y.idx.val :=
  ⟨_, StableHlo.unary_writes .., by decide⟩
theorem writes_40 : (hostOps0_40 : List (HloOp τ sig (Elt F))).Forall fun op => ∃ y : Ref sig .tc, op.writes = {Proc.devRef .tc y} ∧ 13 ≤ y.idx.val :=
  ⟨
    ⟨_, StableHlo.nullary_writes .., by decide⟩, ⟨_, StableHlo.nullary_writes .., by decide⟩⟩
theorem writes_41 : (hostOps0_41 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩⟩
theorem writes_42 : (hostOps0_42 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.reshape_writes .., by decide⟩, ⟨_, StableHlo.nullary_writes .., by decide⟩,
    ⟨_, StableHlo.unary_writes .., by decide⟩, ⟨_, StableHlo.binary_writes .., by decide⟩, ⟨_, StableHlo.nullary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩⟩
theorem writes_43 : (hostOps0_43 : List (HloOp τ sig (Elt F))).Forall fun op => ∃ y : Ref sig .tc, op.writes = {Proc.devRef .tc y} ∧ 13 ≤ y.idx.val :=
  ⟨_, StableHlo.unary_writes .., by decide⟩
theorem writes_44 : (hostOps0_44 : List (HloOp τ sig (Elt F))).Forall fun op => ∃ y : Ref sig .tc, op.writes = {Proc.devRef .tc y} ∧ 13 ≤ y.idx.val :=
  ⟨
    ⟨_, StableHlo.nullary_writes .., by decide⟩, ⟨_, StableHlo.nullary_writes .., by decide⟩⟩
theorem writes_45 : (hostOps0_45 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩⟩
theorem writes_46 : (hostOps0_46 : List (HloOp τ sig (Elt F))).Forall fun op => ∃ y : Ref sig .tc, op.writes = {Proc.devRef .tc y} ∧ 13 ≤ y.idx.val :=
  ⟨
    ⟨_, StableHlo.unary_writes .., by decide⟩, ⟨_, StableHlo.nullary_writes .., by decide⟩, ⟨_, StableHlo.unary_writes .., by decide⟩, ⟨_, StableHlo.binary_writes .., by decide⟩,
    ⟨_, StableHlo.binary_writes .., by decide⟩, ⟨_, StableHlo.unary_writes .., by decide⟩⟩
theorem writes_47 : (hostOps0_47 : List (HloOp τ sig (Elt F))).Forall fun op => ∃ y : Ref sig .tc, op.writes = {Proc.devRef .tc y} ∧ 13 ≤ y.idx.val :=
  ⟨
    ⟨_, StableHlo.nullary_writes .., by decide⟩, ⟨_, StableHlo.unary_writes .., by decide⟩, ⟨_, StableHlo.binary_writes .., by decide⟩, ⟨_, StableHlo.nullary_writes .., by decide⟩,
    ⟨_, StableHlo.unary_writes .., by decide⟩, ⟨_, StableHlo.binary_writes .., by decide⟩, ⟨_, StableHlo.ternary_writes .., by decide⟩, ⟨_, StableHlo.reshape_writes .., by decide⟩,
    ⟨_, StableHlo.nullary_writes .., by decide⟩, ⟨_, StableHlo.nullary_writes .., by decide⟩, ⟨_, StableHlo.unary_writes .., by decide⟩, ⟨_, StableHlo.binary_writes .., by decide⟩,
    ⟨_, StableHlo.unary_writes .., by decide⟩, ⟨_, StableHlo.unary_writes .., by decide⟩, ⟨_, StableHlo.binary_writes .., by decide⟩, ⟨_, StableHlo.binary_writes .., by decide⟩,
    ⟨_, StableHlo.nullary_writes .., by decide⟩, ⟨_, StableHlo.binary_writes .., by decide⟩, ⟨_, StableHlo.binary_writes .., by decide⟩, ⟨_, StableHlo.unary_writes .., by decide⟩,
    ⟨_, StableHlo.nullary_writes .., by decide⟩, ⟨_, StableHlo.unary_writes .., by decide⟩, ⟨_, StableHlo.ternary_writes .., by decide⟩⟩
theorem writes_48 : (hostOps0_48 : List (HloOp τ sig (Elt F))).Forall fun op => ∃ y : Ref sig .tc, op.writes = {Proc.devRef .tc y} ∧ 13 ≤ y.idx.val :=
  ⟨
    ⟨_, StableHlo.unary_writes .., by decide⟩, ⟨_, StableHlo.nary_writes .., by decide⟩, ⟨_, StableHlo.nullary_writes .., by decide⟩⟩
theorem writes_49 : (hostOps0_49 : List (HloOp τ sig (Elt F))).Forall fun op => ∃ y : Ref sig .tc, op.writes = {Proc.devRef .tc y} ∧ 13 ≤ y.idx.val :=
  ⟨
    ⟨_, StableHlo.unary_writes .., by decide⟩, ⟨_, StableHlo.binary_writes .., by decide⟩⟩
theorem writes_50 : (hostOps0_50 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.unary_writes .., by decide⟩, ⟨_, StableHlo.unary_writes .., by decide⟩,
    ⟨_, StableHlo.unary_writes .., by decide⟩, ⟨_, StableHlo.unary_writes .., by decide⟩, ⟨_, StableHlo.unary_writes .., by decide⟩, ⟨_, StableHlo.unary_writes .., by decide⟩,
    ⟨_, StableHlo.unary_writes .., by decide⟩, ⟨_, StableHlo.unary_writes .., by decide⟩, ⟨_, StableHlo.unary_writes .., by decide⟩, ⟨_, StableHlo.unary_writes .., by decide⟩,
    ⟨_, StableHlo.unary_writes .., by decide⟩, ⟨_, StableHlo.unary_writes .., by decide⟩, ⟨_, StableHlo.unary_writes .., by decide⟩, ⟨_, StableHlo.unary_writes .., by decide⟩,
    ⟨_, StableHlo.unary_writes .., by decide⟩, ⟨_, StableHlo.unary_writes .., by decide⟩, ⟨_, StableHlo.nary_writes .., by decide⟩, ⟨_, StableHlo.reshape_writes .., by decide⟩,
    ⟨_, StableHlo.unary_writes .., by decide⟩, ⟨_, StableHlo.nary_writes .., by decide⟩, ⟨_, StableHlo.reshape_writes .., by decide⟩, ⟨_, StableHlo.reshape_writes .., by decide⟩,
    ⟨_, StableHlo.reshape_writes .., by decide⟩, ⟨_, StableHlo.reshape_writes .., by decide⟩, ⟨_, StableHlo.reshape_writes .., by decide⟩, ⟨_, StableHlo.reshape_writes .., by decide⟩⟩

/-- Each operation before the region writes one buffer, its result, of index at least 13. -/
theorem pre_writes : (pre (F := F)).Forall fun ops => ops.Forall fun op => ∃ y : Ref sig .tc, op.writes = {Proc.devRef .tc y} ∧ 13 ≤ y.idx.val :=
  ⟨writes_0, writes_1, writes_2, writes_3, writes_4, writes_5, writes_6, writes_7, writes_8, writes_9, writes_10, writes_11, writes_12, writes_13, writes_14, writes_15, writes_16, writes_17, writes_18, writes_19, writes_20, writes_21, writes_22, writes_23, writes_24, writes_25, writes_26, writes_27, writes_28, writes_29, writes_30, writes_31, writes_32, writes_33, writes_34, writes_35, writes_36, writes_37, writes_38, writes_39, writes_40, writes_41, writes_42, writes_43, writes_44, writes_45, writes_46, writes_47, writes_48, writes_49, writes_50⟩

/-- So a reference of index below 13 is, when the region is entered, what it was at launch. -/
theorem V_of_idx_lt (c : Dev nD) (r : Ref sig .tc) (hr : r.idx.val < 13) : V m c r = m ((c : Thread nD τ).loc r) :=
  StableHlo.after_of_forall_not_mem (b := Proc.devRef .tc r) _ _ fun op hop hb => by
    obtain ⟨ops, hops, hop'⟩ := List.mem_flatten.mp hop
    obtain ⟨y, hy, hge⟩ := List.forall_iff_forall_mem.mp (List.forall_iff_forall_mem.mp (pre_writes (F := F)) ops hops) op hop'
    rw [hy, Finset.mem_singleton] at hb
    obtain rfl : r = y := Proc.devRef_injective _ hb
    omega

/-- No host operation before the region writes argument 0: the region finds it as launched. -/
theorem V_main_arg0 (c : Dev nD) : V m c main_arg0 = m ((c : Thread nD τ).loc main_arg0) :=
  V_of_idx_lt m c main_arg0 (by decide)

/-- No host operation before the region writes argument 1: the region finds it as launched. -/
theorem V_main_arg1 (c : Dev nD) : V m c main_arg1 = m ((c : Thread nD τ).loc main_arg1) :=
  V_of_idx_lt m c main_arg1 (by decide)

/-- No host operation before the region writes argument 2: the region finds it as launched. -/
theorem V_main_arg2 (c : Dev nD) : V m c main_arg2 = m ((c : Thread nD τ).loc main_arg2) :=
  V_of_idx_lt m c main_arg2 (by decide)

/-- No host operation before the region writes argument 3: the region finds it as launched. -/
theorem V_main_arg3 (c : Dev nD) : V m c main_arg3 = m ((c : Thread nD τ).loc main_arg3) :=
  V_of_idx_lt m c main_arg3 (by decide)

/-- No host operation before the region writes argument 4: the region finds it as launched. -/
theorem V_main_arg4 (c : Dev nD) : V m c main_arg4 = m ((c : Thread nD τ).loc main_arg4) :=
  V_of_idx_lt m c main_arg4 (by decide)

/-- No host operation before the region writes argument 5: the region finds it as launched. -/
theorem V_main_arg5 (c : Dev nD) : V m c main_arg5 = m ((c : Thread nD τ).loc main_arg5) :=
  V_of_idx_lt m c main_arg5 (by decide)

/-- No host operation before the region writes argument 6: the region finds it as launched. -/
theorem V_main_arg6 (c : Dev nD) : V m c main_arg6 = m ((c : Thread nD τ).loc main_arg6) :=
  V_of_idx_lt m c main_arg6 (by decide)

/-- No host operation before the region writes argument 7: the region finds it as launched. -/
theorem V_main_arg7 (c : Dev nD) : V m c main_arg7 = m ((c : Thread nD τ).loc main_arg7) :=
  V_of_idx_lt m c main_arg7 (by decide)

/-- No host operation before the region writes argument 8: the region finds it as launched. -/
theorem V_main_arg8 (c : Dev nD) : V m c main_arg8 = m ((c : Thread nD τ).loc main_arg8) :=
  V_of_idx_lt m c main_arg8 (by decide)

/-- No host operation before the region writes argument 9: the region finds it as launched. -/
theorem V_main_arg9 (c : Dev nD) : V m c main_arg9 = m ((c : Thread nD τ).loc main_arg9) :=
  V_of_idx_lt m c main_arg9 (by decide)

/-- No host operation before the region writes argument 10: the region finds it as launched. -/
theorem V_main_arg10 (c : Dev nD) : V m c main_arg10 = m ((c : Thread nD τ).loc main_arg10) :=
  V_of_idx_lt m c main_arg10 (by decide)

/-- No host operation before the region writes argument 11: the region finds it as launched. -/
theorem V_main_arg11 (c : Dev nD) : V m c main_arg11 = m ((c : Thread nD τ).loc main_arg11) :=
  V_of_idx_lt m c main_arg11 (by decide)

/-- No host operation before the region writes argument 12: the region finds it as launched. -/
theorem V_main_arg12 (c : Dev nD) : V m c main_arg12 = m ((c : Thread nD τ).loc main_arg12) :=
  V_of_idx_lt m c main_arg12 (by decide)

/-- Nor does the reshape after the region: argument 0 ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- Nor does the reshape after the region: argument 1 ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- Nor does the reshape after the region: argument 2 ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- Nor does the reshape after the region: argument 4 ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- Nor does the reshape after the region: argument 6 ends as launched. -/
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-- Nor does the reshape after the region: argument 8 ends as launched. -/
theorem W_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c

/-- Nor does the reshape after the region: argument 10 ends as launched. -/
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg10 (by exact (by decide : ∀ w, Pipeline.arrRef spec0 w ≠ main_arg10))]
  exact V_main_arg10 m c

/-- Nor does the reshape after the region: argument 12 ends as launched. -/
theorem W_main_arg12 (dats : (p : Fin 1) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg12 (by exact (by decide : ∀ w, Pipeline.arrRef spec0 w ≠ main_arg12))]
  exact V_main_arg12 m c

end Cert.Kernel.Mlp

end
-- ==== Proof.KBodyBits.lean ====
/-
  The kernel body, run once on whole staging buffers.

  The body reads the block of 2048 input rows and the ten parameter arrays (four 256-wide weight matrices with the
  833 × 256 first one, a 256 × 3 last one, five bias rows) whole, computes the five layers, and writes the 2048 × 3
  result with ONE store that covers its output buffer.  So whatever the output buffer held before, afterwards it
  holds `outBlock`: the stored value, a function of the eleven arrays read and of nothing else (the body also loads
  the output buffer before storing, but the loaded value is not used).  The triple below says exactly that, for any
  float interpretation `F`: the eleven inputs are owned in and out unchanged, the output is owned at anything in and
  at `outBlock` of the inputs out.
-/
import proofs.«145896_j91079076479405_1_alg».proof.Proof.Gen.Kernel.Launch
import proofs.«145896_j91079076479405_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body reads and writes through: each is its whole buffer -/

abbrev rX : Rect S2048x833 := Rect.unit (s := S2048x833) ![0, 0] S2048x833.size inb_S2048x833_S2048x833_0_0
abbrev rW0 : Rect S833x256 := Rect.unit (s := S833x256) ![0, 0] S833x256.size inb_S833x256_S833x256_0_0
abbrev rB : Rect S1x256 := Rect.unit (s := S1x256) ![0, 0] S1x256.size inb_S1x256_S1x256_0_0
abbrev rW : Rect S256x256 := Rect.unit (s := S256x256) ![0, 0] S256x256.size inb_S256x256_S256x256_0_0
abbrev rW4 : Rect S256x3 := Rect.unit (s := S256x3) ![0, 0] S256x3.size inb_S256x3_S256x3_0_0
abbrev rB4 : Rect S1x3 := Rect.unit (s := S1x3) ![0, 0] S1x3.size inb_S1x3_S1x3_0_0
abbrev rO : Rect S2048x3 := Rect.unit (s := S2048x3) ![0, 0] S2048x3.size inb_S2048x3_S2048x3_0_0

/-! ## What the body leaves in the output buffer -/

/-- The output buffer after the body, from the contents of the eleven input buffers: its one store, whose value is
    the last layer (`k0_pay1`) over the first four (`k0_pay2`) of the arrays read. -/
def outBlock (x0 : Vec F S2048x833 .f32) (x1 : Vec F S833x256 .f32) (x2 : Vec F S1x256 .f32) (x3 : Vec F S256x256 .f32) (x4 : Vec F S1x256 .f32) (x5 : Vec F S256x256 .f32) (x6 : Vec F S1x256 .f32) (x7 : Vec F S256x256 .f32) (x8 : Vec F S1x256 .f32) (x9 : Vec F S256x3 .f32) (x10 : Vec F S1x3 .f32) : Vec F S2048x3 .f32 :=
  View.canon [⟨rO, k0_pay1 (k0_pay2 (View.ld x0 rX) (View.ld x1 rW0) (View.ld x2 rB) (View.ld x3 rW) (View.ld x4 rB) (View.ld x5 rW) (View.ld x6 rB) (View.ld x7 rW)) (View.ld x8 rB) (View.ld x9 rW4) (View.ld x10 rB4)⟩]

/-- The one store's rectangle is the whole buffer, so it covers every index. -/
theorem cover_out (p0 : Vec F S2048x3 .f32) (y : S2048x3.Idx) :
    ∃ pc ∈ ([⟨rO, p0⟩] : List (View.Piece (Elt F) S2048x3 .f32)), y ∈ pc.1.set :=
  View.cover_of_tiled [⟨rO, p0⟩] S2048x3.size (by rfl) y

/-! ## The body's triple -/

set_option maxHeartbeats 4000000 in
/-- The body on whole buffers: inputs at `x0 … x10`, output at anything, to the continuation with the inputs as
    they were and the output at `outBlock` of them. -/
theorem sound_kernel (c : Dev nD) (E : Set ℕ) (i : grid0.Coords) (arg1 : Memref sig .tc .vmem S2048x833 .f32) (harg1 : arg1.IsWhole) (arg2 : Memref sig .tc .vmem S833x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x3 .f32) (harg10 : arg10.IsWhole) (arg11 : Memref sig .tc .vmem S1x3 .f32) (harg11 : arg11.IsWhole) (arg12 : Memref sig .tc .vmem S2048x3 .f32) (harg12 : arg12.IsWhole)
    (x0 : Vec F S2048x833 .f32) (x1 : Vec F S833x256 .f32) (x2 : Vec F S1x256 .f32) (x3 : Vec F S256x256 .f32) (x4 : Vec F S1x256 .f32) (x5 : Vec F S256x256 .f32) (x6 : Vec F S1x256 .f32) (x7 : Vec F S256x256 .f32) (x8 : Vec F S1x256 .f32) (x9 : Vec F S256x3 .f32) (x10 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (outBlock x0 x1 x2 x3 x4 x5 x6 x7 x8 x9 x10)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover_out _)

end Cert.Kernel.Mlp

end
-- ==== Proof.KFrameBits.lean ====
/-
  The kernel program runs to the end, and what its arrays hold afterwards.

  The region is a pipeline over 64 grid points.  At point `t` it stages block `t` of the input rows (rows
  2048·t … 2048·t + 2047 of the [131072, 833] array) and, at the first point only, the ten parameter arrays whole;
  runs the body; and writes the 2048 × 3 output block back to rows 2048·t … of the [131072, 3] result array.  The
  proof data says what every staging buffer holds after the body at every point: an input's, its block (the body
  does not write it); the output's, `outBlock` of the eleven input blocks.  With the body's triple this discharges the
  pipeline's obligation at every point, and the library's launch theorem for "host operations, one region, host
  operations" gives the run: every weakly fair execution terminates, the twelve arrays of the region end at what
  the library computes from the proof data (`Dat.arrAt`), and every other buffer at what the reshape after the region
  leaves.  Read at the thirteen arguments this is the frame claim, for any float interpretation `F`.
-/
import proofs.«145896_j91079076479405_1_alg».proof.Proof.KArgsBits
import proofs.«145896_j91079076479405_1_alg».proof.Proof.KBodyBits
import proofs.«145896_j91079076479405_1_alg».proof.Proof.Gen.Kernel.Points

set_option maxRecDepth 16384

noncomputable section

namespace Cert.Kernel.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- On core `c`: the arrays as the region finds them; after the body at point `t` each input buffer at its block and
    the output buffer at `outBlock` of the input blocks; the invariant is the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outBlock (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
/-- What the body leaves in the output buffer at point `t`: `outBlock` of the eleven input blocks there. -/
theorem after_out (c : Dev nD) (t : Fin cfg0.N) : (dats m 0 c).after 11 t = outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-! ## Each input buffer holds its block at every point, fetched there or not -/

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl)
    (fun t => by rw [after_10]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 4000000 in
/-- The body at any point: the input buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The pipeline's obligation at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates; at the end every array
    of the region holds what the library computes from the proof data, and every other unscoped buffer what the
    reshape after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-! ## The frame -/

/-- The frame run read at the arguments: a staged parameter array is an input of the pipeline, so it ends at its
    entry contents, which are its launch contents; an argument no window stages is kept by the region and by the
    reshape after it. -/
theorem args_kept (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
    ⟨((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c),
      ((h c).1 3).trans (((dats m 0 c).arrAt_in 3 rfl _).trans ((A_eq m c 3).trans (V_main_arg5 m c))),
      ((h c).2 main_arg6 (Pipeline.mem_restRefs_of main_arg6 (by decide) (by decide))).trans (W_main_arg6 m (dats m) c),
      ((h c).1 5).trans (((dats m 0 c).arrAt_in 5 rfl _).trans ((A_eq m c 5).trans (V_main_arg7 m c))),
      ((h c).2 main_arg8 (Pipeline.mem_restRefs_of main_arg8 (by decide) (by decide))).trans (W_main_arg8 m (dats m) c),
      ((h c).1 7).trans (((dats m 0 c).arrAt_in 7 rfl _).trans ((A_eq m c 7).trans (V_main_arg9 m c))),
      ((h c).2 main_arg10 (Pipeline.mem_restRefs_of main_arg10 (by decide) (by decide))).trans (W_main_arg10 m (dats m) c),
      ((h c).1 9).trans (((dats m 0 c).arrAt_in 9 rfl _).trans ((A_eq m c 9).trans (V_main_arg11 m c))),
      ((h c).2 main_arg12 (Pipeline.mem_restRefs_of main_arg12 (by decide) (by decide))).trans (W_main_arg12 m (dats m) c)⟩

/-- The frame claim, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => args_kept m r h c) (run_main m ρ)

end Cert.Kernel.Mlp

end
-- ==== Proof.KEntry.lean ====
/-
  What the kernel region finds in memory.

  Before the region the program runs a long straight line of host operations (the nearest-neighbour gathers, the
  3×3 unfolding, the concatenations and reshapes that build the [131072, 833] input of the network, and the reshapes
  of the biases to [1, N]).  `V m c b` is the contents of buffer `b` on core `c` after all of them, starting from
  the launch memory `m`: the fold of those operations over `m`.  It is kept as this fold everywhere; only the lemmas
  that need a particular buffer's contents open it.
-/
import proofs.«145896_j91079076479405_1_alg».proof.Proof.Gen.KernelIdeal.Launch

noncomputable section

namespace Cert.KernelIdeal.Mlp

open Idealize.ShloMosaic Idealize.ShloMosaic.TcCoe Idealize.SL.Sem
open Cert.KernelIdeal Cert.KernelIdeal.Gen

variable {F : FTy → Type} [FloatOps F]

/-- The stretches of host operations before the region, in program order. -/
abbrev pre : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50]

/-- Core `c`'s buffer contents when the region is entered: the host operations before it, folded over the launch memory. -/
abbrev V0 (m : (ℓ : Loc nD τ sig) → Buf (Elt F) ℓ) (c : Dev nD) : Valuation τ sig (Elt F) :=
  StableHlo.after (List.flatten (pre (F := F))) (fun b => m (c, b))

/-- The same read at a TensorCore reference. -/
abbrev V (m : (ℓ : Loc nD τ sig) → Buf (Elt F) ℓ) (c : Dev nD) (b : Ref sig .tc) : Buf (Elt F) ((c : Thread nD τ).loc b) :=
  V0 m c (Proc.devRef .tc b)

end Cert.KernelIdeal.Mlp

end
-- ==== Proof.KArgs.lean ====
/-
  The host side of the program around its one kernel region.

  The program is: a straight line of host operations (cut into 51 stretches), the region, one reshape.  None of
  the host operations allocates, each touches TensorCore buffers only, and none of them writes an argument array:
  every operation writes its own result buffer, which is no argument.  So each argument is, when the region is
  entered and again when the program ends, what it was at launch; and the program reduces to "the region, continued
  by the reshape" from the memory the operations before it leave (`V`).
-/
import proofs.«145896_j91079076479405_1_alg».proof.Proof.KEntry
import Idealize.ShloMosaic.Lib.Pipeline.FrameBody
import Idealize.ShloMosaic.Lib.Pipeline.FrameSuffix

set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## The operations before the region: TensorCore buffers only, nothing allocated -/

theorem pre_sub : (pre (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub⟩

theorem fresh_0 : (hostOps0 : List (HloOp τ sig (Elt F))).Forall fun op => op.fresh = ∅ := by
  simp only [List.Forall]; repeat' constructor
theorem fresh_1 : (hostOps0_1 : List (HloOp τ sig (Elt F))).Forall fun op => op.fresh = ∅ := by
  simp only [List.Forall]; repeat' constructor
theorem fresh_2 : (hostOps0_2 : List (HloOp τ sig (Elt F))).Forall fun op => op.fresh = ∅ := by
  simp only [List.Forall]; repeat' constructor
theorem fresh_3 : (hostOps0_3 : List (HloOp τ sig (Elt F))).Forall fun op => op.fresh = ∅ := by
  simp only [List.Forall]; repeat' constructor
theorem fresh_4 : (hostOps0_4 : List (HloOp τ sig (Elt F))).Forall fun op => op.fresh = ∅ := by
  simp only [List.Forall]; repeat' constructor
theorem fresh_5 : (hostOps0_5 : List (HloOp τ sig (Elt F))).Forall fun op => op.fresh = ∅ := by
  simp only [List.Forall]; repeat' constructor
theorem fresh_6 : (hostOps0_6 : List (HloOp τ sig (Elt F))).Forall fun op => op.fresh = ∅ := by
  simp only [List.Forall]; repeat' constructor
theorem fresh_7 : (hostOps0_7 : List (HloOp τ sig (Elt F))).Forall fun op => op.fresh = ∅ := by
  simp only [List.Forall]; repeat' constructor
theorem fresh_8 : (hostOps0_8 : List (HloOp τ sig (Elt F))).Forall fun op => op.fresh = ∅ := by
  simp only [List.Forall]; repeat' constructor
theorem fresh_9 : (hostOps0_9 : List (HloOp τ sig (Elt F))).Forall fun op => op.fresh = ∅ := by
  simp only [List.Forall]; repeat' constructor
theorem fresh_10 : (hostOps0_10 : List (HloOp τ sig (Elt F))).Forall fun op => op.fresh = ∅ := by
  simp only [List.Forall]; repeat' constructor
theorem fresh_11 : (hostOps0_11 : List (HloOp τ sig (Elt F))).Forall fun op => op.fresh = ∅ := by
  simp only [List.Forall]; repeat' constructor
theorem fresh_12 : (hostOps0_12 : List (HloOp τ sig (Elt F))).Forall fun op => op.fresh = ∅ := by
  simp only [List.Forall]; repeat' constructor
theorem fresh_13 : (hostOps0_13 : List (HloOp τ sig (Elt F))).Forall fun op => op.fresh = ∅ := by
  simp only [List.Forall]; repeat' constructor
theorem fresh_14 : (hostOps0_14 : List (HloOp τ sig (Elt F))).Forall fun op => op.fresh = ∅ := by
  simp only [List.Forall]; repeat' constructor
theorem fresh_15 : (hostOps0_15 : List (HloOp τ sig (Elt F))).Forall fun op => op.fresh = ∅ := by
  simp only [List.Forall]; repeat' constructor
theorem fresh_16 : (hostOps0_16 : List (HloOp τ sig (Elt F))).Forall fun op => op.fresh = ∅ := by
  simp only [List.Forall]; repeat' constructor
theorem fresh_17 : (hostOps0_17 : List (HloOp τ sig (Elt F))).Forall fun op => op.fresh = ∅ := by
  simp only [List.Forall]; repeat' constructor
theorem fresh_18 : (hostOps0_18 : List (HloOp τ sig (Elt F))).Forall fun op => op.fresh = ∅ := by
  simp only [List.Forall]; repeat' constructor
theorem fresh_19 : (hostOps0_19 : List (HloOp τ sig (Elt F))).Forall fun op => op.fresh = ∅ := by
  simp only [List.Forall]; repeat' constructor
theorem fresh_20 : (hostOps0_20 : List (HloOp τ sig (Elt F))).Forall fun op => op.fresh = ∅ := by
  simp only [List.Forall]; repeat' constructor
theorem fresh_21 : (hostOps0_21 : List (HloOp τ sig (Elt F))).Forall fun op => op.fresh = ∅ := by
  simp only [List.Forall]; repeat' constructor
theorem fresh_22 : (hostOps0_22 : List (HloOp τ sig (Elt F))).Forall fun op => op.fresh = ∅ := by
  simp only [List.Forall]; repeat' constructor
theorem fresh_23 : (hostOps0_23 : List (HloOp τ sig (Elt F))).Forall fun op => op.fresh = ∅ := by
  simp only [List.Forall]; repeat' constructor
theorem fresh_24 : (hostOps0_24 : List (HloOp τ sig (Elt F))).Forall fun op => op.fresh = ∅ := by
  simp only [List.Forall]; repeat' constructor
theorem fresh_25 : (hostOps0_25 : List (HloOp τ sig (Elt F))).Forall fun op => op.fresh = ∅ := by
  simp only [List.Forall]; repeat' constructor
theorem fresh_26 : (hostOps0_26 : List (HloOp τ sig (Elt F))).Forall fun op => op.fresh = ∅ := by
  simp only [List.Forall]; repeat' constructor
theorem fresh_27 : (hostOps0_27 : List (HloOp τ sig (Elt F))).Forall fun op => op.fresh = ∅ := by
  simp only [List.Forall]; repeat' constructor
theorem fresh_28 : (hostOps0_28 : List (HloOp τ sig (Elt F))).Forall fun op => op.fresh = ∅ := by
  simp only [List.Forall]; repeat' constructor
theorem fresh_29 : (hostOps0_29 : List (HloOp τ sig (Elt F))).Forall fun op => op.fresh = ∅ := by
  simp only [List.Forall]; repeat' constructor
theorem fresh_30 : (hostOps0_30 : List (HloOp τ sig (Elt F))).Forall fun op => op.fresh = ∅ := by
  simp only [List.Forall]; repeat' constructor
theorem fresh_31 : (hostOps0_31 : List (HloOp τ sig (Elt F))).Forall fun op => op.fresh = ∅ := by
  simp only [List.Forall]; repeat' constructor
theorem fresh_32 : (hostOps0_32 : List (HloOp τ sig (Elt F))).Forall fun op => op.fresh = ∅ := by
  simp only [List.Forall]; repeat' constructor
theorem fresh_33 : (hostOps0_33 : List (HloOp τ sig (Elt F))).Forall fun op => op.fresh = ∅ := by
  simp only [List.Forall]; repeat' constructor
theorem fresh_34 : (hostOps0_34 : List (HloOp τ sig (Elt F))).Forall fun op => op.fresh = ∅ := by
  simp only [List.Forall]; repeat' constructor
theorem fresh_35 : (hostOps0_35 : List (HloOp τ sig (Elt F))).Forall fun op => op.fresh = ∅ := by
  simp only [List.Forall]; repeat' constructor
theorem fresh_36 : (hostOps0_36 : List (HloOp τ sig (Elt F))).Forall fun op => op.fresh = ∅ := by
  simp only [List.Forall]; repeat' constructor
theorem fresh_37 : (hostOps0_37 : List (HloOp τ sig (Elt F))).Forall fun op => op.fresh = ∅ := by
  simp only [List.Forall]; repeat' constructor
theorem fresh_38 : (hostOps0_38 : List (HloOp τ sig (Elt F))).Forall fun op => op.fresh = ∅ := by
  simp only [List.Forall]; repeat' constructor
theorem fresh_39 : (hostOps0_39 : List (HloOp τ sig (Elt F))).Forall fun op => op.fresh = ∅ := by
  simp only [List.Forall]; repeat' constructor
theorem fresh_40 : (hostOps0_40 : List (HloOp τ sig (Elt F))).Forall fun op => op.fresh = ∅ := by
  simp only [List.Forall]; repeat' constructor
theorem fresh_41 : (hostOps0_41 : List (HloOp τ sig (Elt F))).Forall fun op => op.fresh = ∅ := by
  simp only [List.Forall]; repeat' constructor
theorem fresh_42 : (hostOps0_42 : List (HloOp τ sig (Elt F))).Forall fun op => op.fresh = ∅ := by
  simp only [List.Forall]; repeat' constructor
theorem fresh_43 : (hostOps0_43 : List (HloOp τ sig (Elt F))).Forall fun op => op.fresh = ∅ := by
  simp only [List.Forall]; repeat' constructor
theorem fresh_44 : (hostOps0_44 : List (HloOp τ sig (Elt F))).Forall fun op => op.fresh = ∅ := by
  simp only [List.Forall]; repeat' constructor
theorem fresh_45 : (hostOps0_45 : List (HloOp τ sig (Elt F))).Forall fun op => op.fresh = ∅ := by
  simp only [List.Forall]; repeat' constructor
theorem fresh_46 : (hostOps0_46 : List (HloOp τ sig (Elt F))).Forall fun op => op.fresh = ∅ := by
  simp only [List.Forall]; repeat' constructor
theorem fresh_47 : (hostOps0_47 : List (HloOp τ sig (Elt F))).Forall fun op => op.fresh = ∅ := by
  simp only [List.Forall]; repeat' constructor
theorem fresh_48 : (hostOps0_48 : List (HloOp τ sig (Elt F))).Forall fun op => op.fresh = ∅ := by
  simp only [List.Forall]; repeat' constructor
theorem fresh_49 : (hostOps0_49 : List (HloOp τ sig (Elt F))).Forall fun op => op.fresh = ∅ := by
  simp only [List.Forall]; repeat' constructor
theorem fresh_50 : (hostOps0_50 : List (HloOp τ sig (Elt F))).Forall fun op => op.fresh = ∅ := by
  simp only [List.Forall]; repeat' constructor
theorem fresh_tail : (hostOps1 : List (HloOp τ sig (Elt F))).Forall fun op => op.fresh = ∅ := by
  simp only [List.Forall]; repeat' constructor

theorem pre_fresh : (pre (F := F)).Forall fun ops => ops.Forall fun op => op.fresh = ∅ :=
  ⟨fresh_0, fresh_1, fresh_2, fresh_3, fresh_4, fresh_5, fresh_6, fresh_7, fresh_8, fresh_9, fresh_10, fresh_11, fresh_12, fresh_13, fresh_14, fresh_15, fresh_16, fresh_17, fresh_18, fresh_19, fresh_20, fresh_21, fresh_22, fresh_23, fresh_24, fresh_25, fresh_26, fresh_27, fresh_28, fresh_29, fresh_30, fresh_31, fresh_32, fresh_33, fresh_34, fresh_35, fresh_36, fresh_37, fresh_38, fresh_39, fresh_40, fresh_41, fresh_42, fresh_43, fresh_44, fresh_45, fresh_46, fresh_47, fresh_48, fresh_49, fresh_50⟩

/-! ## The program around the region -/

/-- The program is its host prefix, the region, and the reshape: it reduces to the region continued by the reshape,
    from the memory `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1] pre_sub pre_fresh main_chain

/-- The reshape after the region touches unscoped TensorCore buffers only, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp fresh_tail) op hop

/-- and writes none of the region's twelve arrays (it writes the program's result buffer). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ## The arguments are never written

Every host operation before the region writes exactly one buffer, its own result.  The thirteen arguments are the
references of index 0 … 12 and every result has a larger index, so no operation writes an argument: one pass over
the operations, stretch by stretch, instead of one per argument. -/

theorem writes_0 : (hostOps0 : List (HloOp τ sig (Elt F))).Forall fun op => ∃ y : Ref sig .tc, op.writes = {Proc.devRef .tc y} ∧ 13 ≤ y.idx.val :=
  ⟨
    ⟨_, StableHlo.unary_writes .., by decide⟩, ⟨_, StableHlo.reshape_writes .., by decide⟩, ⟨_, StableHlo.reshape_writes .., by decide⟩, ⟨_, StableHlo.unary_writes .., by decide⟩,
    ⟨_, StableHlo.reshape_writes .., by decide⟩, ⟨_, StableHlo.nullary_writes .., by decide⟩, ⟨_, StableHlo.binary_writes .., by decide⟩, ⟨_, StableHlo.nullary_writes .., by decide⟩,
    ⟨_, StableHlo.binary_writes .., by decide⟩, ⟨_, StableHlo.unary_writes .., by decide⟩, ⟨_, StableHlo.binary_writes .., by decide⟩, ⟨_, StableHlo.nullary_writes .., by decide⟩,
    ⟨_, StableHlo.unary_writes .., by decide⟩, ⟨_, StableHlo.binary_writes .., by decide⟩, ⟨_, StableHlo.unary_writes .., by decide⟩, ⟨_, StableHlo.reshape_writes .., by decide⟩,
    ⟨_, StableHlo.nullary_writes .., by decide⟩, ⟨_, StableHlo.binary_writes .., by decide⟩, ⟨_, StableHlo.nullary_writes .., by decide⟩, ⟨_, StableHlo.binary_writes .., by decide⟩,
    ⟨_, StableHlo.unary_writes .., by decide⟩, ⟨_, StableHlo.binary_writes .., by decide⟩, ⟨_, StableHlo.nullary_writes .., by decide⟩, ⟨_, StableHlo.unary_writes .., by decide⟩,
    ⟨_, StableHlo.binary_writes .., by decide⟩, ⟨_, StableHlo.unary_writes .., by decide⟩, ⟨_, StableHlo.unary_writes .., by decide⟩, ⟨_, StableHlo.binary_writes .., by decide⟩,
    ⟨_, StableHlo.nullary_writes .., by decide⟩, ⟨_, StableHlo.nullary_writes .., by decide⟩⟩
theorem writes_1 : (hostOps0_1 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩⟩
theorem writes_2 : (hostOps0_2 : List (HloOp τ sig (Elt F))).Forall fun op => ∃ y : Ref sig .tc, op.writes = {Proc.devRef .tc y} ∧ 13 ≤ y.idx.val :=
  ⟨
    ⟨_, StableHlo.unary_writes .., by decide⟩, ⟨_, StableHlo.reshape_writes .., by decide⟩, ⟨_, StableHlo.nullary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩, ⟨_, StableHlo.nullary_writes .., by decide⟩,
    ⟨_, StableHlo.unary_writes .., by decide⟩, ⟨_, StableHlo.binary_writes .., by decide⟩⟩
theorem writes_3 : (hostOps0_3 : List (HloOp τ sig (Elt F))).Forall fun op => ∃ y : Ref sig .tc, op.writes = {Proc.devRef .tc y} ∧ 13 ≤ y.idx.val :=
  ⟨_, StableHlo.unary_writes .., by decide⟩
theorem writes_4 : (hostOps0_4 : List (HloOp τ sig (Elt F))).Forall fun op => ∃ y : Ref sig .tc, op.writes = {Proc.devRef .tc y} ∧ 13 ≤ y.idx.val :=
  ⟨
    ⟨_, StableHlo.nullary_writes .., by decide⟩, ⟨_, StableHlo.nullary_writes .., by decide⟩⟩
theorem writes_5 : (hostOps0_5 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩⟩
theorem writes_6 : (hostOps0_6 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.reshape_writes .., by decide⟩, ⟨_, StableHlo.nullary_writes .., by decide⟩,
    ⟨_, StableHlo.unary_writes .., by decide⟩, ⟨_, StableHlo.binary_writes .., by decide⟩, ⟨_, StableHlo.nullary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩⟩
theorem writes_7 : (hostOps0_7 : List (HloOp τ sig (Elt F))).Forall fun op => ∃ y : Ref sig .tc, op.writes = {Proc.devRef .tc y} ∧ 13 ≤ y.idx.val :=
  ⟨_, StableHlo.unary_writes .., by decide⟩
theorem writes_8 : (hostOps0_8 : List (HloOp τ sig (Elt F))).Forall fun op => ∃ y : Ref sig .tc, op.writes = {Proc.devRef .tc y} ∧ 13 ≤ y.idx.val :=
  ⟨
    ⟨_, StableHlo.nullary_writes .., by decide⟩, ⟨_, StableHlo.nullary_writes .., by decide⟩⟩
theorem writes_9 : (hostOps0_9 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩⟩
theorem writes_10 : (hostOps0_10 : List (HloOp τ sig (Elt F))).Forall fun op => ∃ y : Ref sig .tc, op.writes = {Proc.devRef .tc y} ∧ 13 ≤ y.idx.val :=
  ⟨
    ⟨_, StableHlo.unary_writes .., by decide⟩, ⟨_, StableHlo.nullary_writes .., by decide⟩, ⟨_, StableHlo.unary_writes .., by decide⟩, ⟨_, StableHlo.binary_writes .., by decide⟩,
    ⟨_, StableHlo.binary_writes .., by decide⟩, ⟨_, StableHlo.unary_writes .., by decide⟩⟩
theorem writes_11 : (hostOps0_11 : List (HloOp τ sig (Elt F))).Forall fun op => ∃ y : Ref sig .tc, op.writes = {Proc.devRef .tc y} ∧ 13 ≤ y.idx.val :=
  ⟨
    ⟨_, StableHlo.nullary_writes .., by decide⟩, ⟨_, StableHlo.unary_writes .., by decide⟩, ⟨_, StableHlo.binary_writes .., by decide⟩, ⟨_, StableHlo.nullary_writes .., by decide⟩,
    ⟨_, StableHlo.unary_writes .., by decide⟩, ⟨_, StableHlo.binary_writes .., by decide⟩, ⟨_, StableHlo.ternary_writes .., by decide⟩, ⟨_, StableHlo.reshape_writes .., by decide⟩,
    ⟨_, StableHlo.nullary_writes .., by decide⟩, ⟨_, StableHlo.nullary_writes .., by decide⟩, ⟨_, StableHlo.unary_writes .., by decide⟩, ⟨_, StableHlo.binary_writes .., by decide⟩,
    ⟨_, StableHlo.unary_writes .., by decide⟩, ⟨_, StableHlo.unary_writes .., by decide⟩, ⟨_, StableHlo.binary_writes .., by decide⟩, ⟨_, StableHlo.binary_writes .., by decide⟩,
    ⟨_, StableHlo.nullary_writes .., by decide⟩, ⟨_, StableHlo.binary_writes .., by decide⟩, ⟨_, StableHlo.binary_writes .., by decide⟩, ⟨_, StableHlo.unary_writes .., by decide⟩,
    ⟨_, StableHlo.nullary_writes .., by decide⟩, ⟨_, StableHlo.unary_writes .., by decide⟩, ⟨_, StableHlo.ternary_writes .., by decide⟩⟩
theorem writes_12 : (hostOps0_12 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.reshape_writes .., by decide⟩, ⟨_, StableHlo.nullary_writes .., by decide⟩,
    ⟨_, StableHlo.binary_writes .., by decide⟩, ⟨_, StableHlo.nullary_writes .., by decide⟩, ⟨_, StableHlo.binary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.unary_writes .., by decide⟩, ⟨_, StableHlo.reshape_writes .., by decide⟩, ⟨_, StableHlo.nullary_writes .., by decide⟩, ⟨_, StableHlo.binary_writes .., by decide⟩,
    ⟨_, StableHlo.nullary_writes .., by decide⟩, ⟨_, StableHlo.binary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩, ⟨_, StableHlo.nullary_writes .., by decide⟩, ⟨_, StableHlo.nullary_writes .., by decide⟩⟩
theorem writes_13 : (hostOps0_13 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩⟩
theorem writes_14 : (hostOps0_14 : List (HloOp τ sig (Elt F))).Forall fun op => ∃ y : Ref sig .tc, op.writes = {Proc.devRef .tc y} ∧ 13 ≤ y.idx.val :=
  ⟨
    ⟨_, StableHlo.unary_writes .., by decide⟩, ⟨_, StableHlo.reshape_writes .., by decide⟩, ⟨_, StableHlo.nullary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩, ⟨_, StableHlo.nullary_writes .., by decide⟩,
    ⟨_, StableHlo.unary_writes .., by decide⟩, ⟨_, StableHlo.binary_writes .., by decide⟩⟩
theorem writes_15 : (hostOps0_15 : List (HloOp τ sig (Elt F))).Forall fun op => ∃ y : Ref sig .tc, op.writes = {Proc.devRef .tc y} ∧ 13 ≤ y.idx.val :=
  ⟨_, StableHlo.unary_writes .., by decide⟩
theorem writes_16 : (hostOps0_16 : List (HloOp τ sig (Elt F))).Forall fun op => ∃ y : Ref sig .tc, op.writes = {Proc.devRef .tc y} ∧ 13 ≤ y.idx.val :=
  ⟨
    ⟨_, StableHlo.nullary_writes .., by decide⟩, ⟨_, StableHlo.nullary_writes .., by decide⟩⟩
theorem writes_17 : (hostOps0_17 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩⟩
theorem writes_18 : (hostOps0_18 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.reshape_writes .., by decide⟩, ⟨_, StableHlo.nullary_writes .., by decide⟩,
    ⟨_, StableHlo.unary_writes .., by decide⟩, ⟨_, StableHlo.binary_writes .., by decide⟩, ⟨_, StableHlo.nullary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩⟩
theorem writes_19 : (hostOps0_19 : List (HloOp τ sig (Elt F))).Forall fun op => ∃ y : Ref sig .tc, op.writes = {Proc.devRef .tc y} ∧ 13 ≤ y.idx.val :=
  ⟨_, StableHlo.unary_writes .., by decide⟩
theorem writes_20 : (hostOps0_20 : List (HloOp τ sig (Elt F))).Forall fun op => ∃ y : Ref sig .tc, op.writes = {Proc.devRef .tc y} ∧ 13 ≤ y.idx.val :=
  ⟨
    ⟨_, StableHlo.nullary_writes .., by decide⟩, ⟨_, StableHlo.nullary_writes .., by decide⟩⟩
theorem writes_21 : (hostOps0_21 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩⟩
theorem writes_22 : (hostOps0_22 : List (HloOp τ sig (Elt F))).Forall fun op => ∃ y : Ref sig .tc, op.writes = {Proc.devRef .tc y} ∧ 13 ≤ y.idx.val :=
  ⟨
    ⟨_, StableHlo.unary_writes .., by decide⟩, ⟨_, StableHlo.nullary_writes .., by decide⟩, ⟨_, StableHlo.unary_writes .., by decide⟩, ⟨_, StableHlo.binary_writes .., by decide⟩,
    ⟨_, StableHlo.binary_writes .., by decide⟩, ⟨_, StableHlo.unary_writes .., by decide⟩⟩
theorem writes_23 : (hostOps0_23 : List (HloOp τ sig (Elt F))).Forall fun op => ∃ y : Ref sig .tc, op.writes = {Proc.devRef .tc y} ∧ 13 ≤ y.idx.val :=
  ⟨
    ⟨_, StableHlo.nullary_writes .., by decide⟩, ⟨_, StableHlo.unary_writes .., by decide⟩, ⟨_, StableHlo.binary_writes .., by decide⟩, ⟨_, StableHlo.nullary_writes .., by decide⟩,
    ⟨_, StableHlo.unary_writes .., by decide⟩, ⟨_, StableHlo.binary_writes .., by decide⟩, ⟨_, StableHlo.ternary_writes .., by decide⟩, ⟨_, StableHlo.reshape_writes .., by decide⟩,
    ⟨_, StableHlo.nullary_writes .., by decide⟩, ⟨_, StableHlo.nullary_writes .., by decide⟩, ⟨_, StableHlo.unary_writes .., by decide⟩, ⟨_, StableHlo.binary_writes .., by decide⟩,
    ⟨_, StableHlo.unary_writes .., by decide⟩, ⟨_, StableHlo.unary_writes .., by decide⟩, ⟨_, StableHlo.binary_writes .., by decide⟩, ⟨_, StableHlo.binary_writes .., by decide⟩,
    ⟨_, StableHlo.nullary_writes .., by decide⟩, ⟨_, StableHlo.binary_writes .., by decide⟩, ⟨_, StableHlo.binary_writes .., by decide⟩, ⟨_, StableHlo.unary_writes .., by decide⟩,
    ⟨_, StableHlo.nullary_writes .., by decide⟩, ⟨_, StableHlo.unary_writes .., by decide⟩, ⟨_, StableHlo.ternary_writes .., by decide⟩⟩
theorem writes_24 : (hostOps0_24 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.reshape_writes .., by decide⟩, ⟨_, StableHlo.nullary_writes .., by decide⟩,
    ⟨_, StableHlo.binary_writes .., by decide⟩, ⟨_, StableHlo.nullary_writes .., by decide⟩, ⟨_, StableHlo.binary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.unary_writes .., by decide⟩, ⟨_, StableHlo.reshape_writes .., by decide⟩, ⟨_, StableHlo.nullary_writes .., by decide⟩, ⟨_, StableHlo.binary_writes .., by decide⟩,
    ⟨_, StableHlo.nullary_writes .., by decide⟩, ⟨_, StableHlo.binary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩, ⟨_, StableHlo.nullary_writes .., by decide⟩, ⟨_, StableHlo.nullary_writes .., by decide⟩⟩
theorem writes_25 : (hostOps0_25 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩⟩
theorem writes_26 : (hostOps0_26 : List (HloOp τ sig (Elt F))).Forall fun op => ∃ y : Ref sig .tc, op.writes = {Proc.devRef .tc y} ∧ 13 ≤ y.idx.val :=
  ⟨
    ⟨_, StableHlo.unary_writes .., by decide⟩, ⟨_, StableHlo.reshape_writes .., by decide⟩, ⟨_, StableHlo.nullary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩, ⟨_, StableHlo.nullary_writes .., by decide⟩,
    ⟨_, StableHlo.unary_writes .., by decide⟩, ⟨_, StableHlo.binary_writes .., by decide⟩⟩
theorem writes_27 : (hostOps0_27 : List (HloOp τ sig (Elt F))).Forall fun op => ∃ y : Ref sig .tc, op.writes = {Proc.devRef .tc y} ∧ 13 ≤ y.idx.val :=
  ⟨_, StableHlo.unary_writes .., by decide⟩
theorem writes_28 : (hostOps0_28 : List (HloOp τ sig (Elt F))).Forall fun op => ∃ y : Ref sig .tc, op.writes = {Proc.devRef .tc y} ∧ 13 ≤ y.idx.val :=
  ⟨
    ⟨_, StableHlo.nullary_writes .., by decide⟩, ⟨_, StableHlo.nullary_writes .., by decide⟩⟩
theorem writes_29 : (hostOps0_29 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩⟩
theorem writes_30 : (hostOps0_30 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.reshape_writes .., by decide⟩, ⟨_, StableHlo.nullary_writes .., by decide⟩,
    ⟨_, StableHlo.unary_writes .., by decide⟩, ⟨_, StableHlo.binary_writes .., by decide⟩, ⟨_, StableHlo.nullary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩⟩
theorem writes_31 : (hostOps0_31 : List (HloOp τ sig (Elt F))).Forall fun op => ∃ y : Ref sig .tc, op.writes = {Proc.devRef .tc y} ∧ 13 ≤ y.idx.val :=
  ⟨_, StableHlo.unary_writes .., by decide⟩
theorem writes_32 : (hostOps0_32 : List (HloOp τ sig (Elt F))).Forall fun op => ∃ y : Ref sig .tc, op.writes = {Proc.devRef .tc y} ∧ 13 ≤ y.idx.val :=
  ⟨
    ⟨_, StableHlo.nullary_writes .., by decide⟩, ⟨_, StableHlo.nullary_writes .., by decide⟩⟩
theorem writes_33 : (hostOps0_33 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩⟩
theorem writes_34 : (hostOps0_34 : List (HloOp τ sig (Elt F))).Forall fun op => ∃ y : Ref sig .tc, op.writes = {Proc.devRef .tc y} ∧ 13 ≤ y.idx.val :=
  ⟨
    ⟨_, StableHlo.unary_writes .., by decide⟩, ⟨_, StableHlo.nullary_writes .., by decide⟩, ⟨_, StableHlo.unary_writes .., by decide⟩, ⟨_, StableHlo.binary_writes .., by decide⟩,
    ⟨_, StableHlo.binary_writes .., by decide⟩, ⟨_, StableHlo.unary_writes .., by decide⟩⟩
theorem writes_35 : (hostOps0_35 : List (HloOp τ sig (Elt F))).Forall fun op => ∃ y : Ref sig .tc, op.writes = {Proc.devRef .tc y} ∧ 13 ≤ y.idx.val :=
  ⟨
    ⟨_, StableHlo.nullary_writes .., by decide⟩, ⟨_, StableHlo.unary_writes .., by decide⟩, ⟨_, StableHlo.binary_writes .., by decide⟩, ⟨_, StableHlo.nullary_writes .., by decide⟩,
    ⟨_, StableHlo.unary_writes .., by decide⟩, ⟨_, StableHlo.binary_writes .., by decide⟩, ⟨_, StableHlo.ternary_writes .., by decide⟩, ⟨_, StableHlo.reshape_writes .., by decide⟩,
    ⟨_, StableHlo.nullary_writes .., by decide⟩, ⟨_, StableHlo.nullary_writes .., by decide⟩, ⟨_, StableHlo.unary_writes .., by decide⟩, ⟨_, StableHlo.binary_writes .., by decide⟩,
    ⟨_, StableHlo.unary_writes .., by decide⟩, ⟨_, StableHlo.unary_writes .., by decide⟩, ⟨_, StableHlo.binary_writes .., by decide⟩, ⟨_, StableHlo.binary_writes .., by decide⟩,
    ⟨_, StableHlo.nullary_writes .., by decide⟩, ⟨_, StableHlo.binary_writes .., by decide⟩, ⟨_, StableHlo.binary_writes .., by decide⟩, ⟨_, StableHlo.unary_writes .., by decide⟩,
    ⟨_, StableHlo.nullary_writes .., by decide⟩, ⟨_, StableHlo.unary_writes .., by decide⟩, ⟨_, StableHlo.ternary_writes .., by decide⟩⟩
theorem writes_36 : (hostOps0_36 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.reshape_writes .., by decide⟩, ⟨_, StableHlo.nullary_writes .., by decide⟩,
    ⟨_, StableHlo.binary_writes .., by decide⟩, ⟨_, StableHlo.nullary_writes .., by decide⟩, ⟨_, StableHlo.binary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.unary_writes .., by decide⟩, ⟨_, StableHlo.reshape_writes .., by decide⟩, ⟨_, StableHlo.nullary_writes .., by decide⟩, ⟨_, StableHlo.binary_writes .., by decide⟩,
    ⟨_, StableHlo.nullary_writes .., by decide⟩, ⟨_, StableHlo.binary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩, ⟨_, StableHlo.nullary_writes .., by decide⟩, ⟨_, StableHlo.nullary_writes .., by decide⟩⟩
theorem writes_37 : (hostOps0_37 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩⟩
theorem writes_38 : (hostOps0_38 : List (HloOp τ sig (Elt F))).Forall fun op => ∃ y : Ref sig .tc, op.writes = {Proc.devRef .tc y} ∧ 13 ≤ y.idx.val :=
  ⟨
    ⟨_, StableHlo.unary_writes .., by decide⟩, ⟨_, StableHlo.reshape_writes .., by decide⟩, ⟨_, StableHlo.nullary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩, ⟨_, StableHlo.nullary_writes .., by decide⟩,
    ⟨_, StableHlo.unary_writes .., by decide⟩, ⟨_, StableHlo.binary_writes .., by decide⟩⟩
theorem writes_39 : (hostOps0_39 : List (HloOp τ sig (Elt F))).Forall fun op => ∃ y : Ref sig .tc, op.writes = {Proc.devRef .tc y} ∧ 13 ≤ y.idx.val :=
  ⟨_, StableHlo.unary_writes .., by decide⟩
theorem writes_40 : (hostOps0_40 : List (HloOp τ sig (Elt F))).Forall fun op => ∃ y : Ref sig .tc, op.writes = {Proc.devRef .tc y} ∧ 13 ≤ y.idx.val :=
  ⟨
    ⟨_, StableHlo.nullary_writes .., by decide⟩, ⟨_, StableHlo.nullary_writes .., by decide⟩⟩
theorem writes_41 : (hostOps0_41 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩⟩
theorem writes_42 : (hostOps0_42 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.reshape_writes .., by decide⟩, ⟨_, StableHlo.nullary_writes .., by decide⟩,
    ⟨_, StableHlo.unary_writes .., by decide⟩, ⟨_, StableHlo.binary_writes .., by decide⟩, ⟨_, StableHlo.nullary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩⟩
theorem writes_43 : (hostOps0_43 : List (HloOp τ sig (Elt F))).Forall fun op => ∃ y : Ref sig .tc, op.writes = {Proc.devRef .tc y} ∧ 13 ≤ y.idx.val :=
  ⟨_, StableHlo.unary_writes .., by decide⟩
theorem writes_44 : (hostOps0_44 : List (HloOp τ sig (Elt F))).Forall fun op => ∃ y : Ref sig .tc, op.writes = {Proc.devRef .tc y} ∧ 13 ≤ y.idx.val :=
  ⟨
    ⟨_, StableHlo.nullary_writes .., by decide⟩, ⟨_, StableHlo.nullary_writes .., by decide⟩⟩
theorem writes_45 : (hostOps0_45 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.binary_writes .., by decide⟩⟩
theorem writes_46 : (hostOps0_46 : List (HloOp τ sig (Elt F))).Forall fun op => ∃ y : Ref sig .tc, op.writes = {Proc.devRef .tc y} ∧ 13 ≤ y.idx.val :=
  ⟨
    ⟨_, StableHlo.unary_writes .., by decide⟩, ⟨_, StableHlo.nullary_writes .., by decide⟩, ⟨_, StableHlo.unary_writes .., by decide⟩, ⟨_, StableHlo.binary_writes .., by decide⟩,
    ⟨_, StableHlo.binary_writes .., by decide⟩, ⟨_, StableHlo.unary_writes .., by decide⟩⟩
theorem writes_47 : (hostOps0_47 : List (HloOp τ sig (Elt F))).Forall fun op => ∃ y : Ref sig .tc, op.writes = {Proc.devRef .tc y} ∧ 13 ≤ y.idx.val :=
  ⟨
    ⟨_, StableHlo.nullary_writes .., by decide⟩, ⟨_, StableHlo.unary_writes .., by decide⟩, ⟨_, StableHlo.binary_writes .., by decide⟩, ⟨_, StableHlo.nullary_writes .., by decide⟩,
    ⟨_, StableHlo.unary_writes .., by decide⟩, ⟨_, StableHlo.binary_writes .., by decide⟩, ⟨_, StableHlo.ternary_writes .., by decide⟩, ⟨_, StableHlo.reshape_writes .., by decide⟩,
    ⟨_, StableHlo.nullary_writes .., by decide⟩, ⟨_, StableHlo.nullary_writes .., by decide⟩, ⟨_, StableHlo.unary_writes .., by decide⟩, ⟨_, StableHlo.binary_writes .., by decide⟩,
    ⟨_, StableHlo.unary_writes .., by decide⟩, ⟨_, StableHlo.unary_writes .., by decide⟩, ⟨_, StableHlo.binary_writes .., by decide⟩, ⟨_, StableHlo.binary_writes .., by decide⟩,
    ⟨_, StableHlo.nullary_writes .., by decide⟩, ⟨_, StableHlo.binary_writes .., by decide⟩, ⟨_, StableHlo.binary_writes .., by decide⟩, ⟨_, StableHlo.unary_writes .., by decide⟩,
    ⟨_, StableHlo.nullary_writes .., by decide⟩, ⟨_, StableHlo.unary_writes .., by decide⟩, ⟨_, StableHlo.ternary_writes .., by decide⟩⟩
theorem writes_48 : (hostOps0_48 : List (HloOp τ sig (Elt F))).Forall fun op => ∃ y : Ref sig .tc, op.writes = {Proc.devRef .tc y} ∧ 13 ≤ y.idx.val :=
  ⟨
    ⟨_, StableHlo.unary_writes .., by decide⟩, ⟨_, StableHlo.nary_writes .., by decide⟩, ⟨_, StableHlo.nullary_writes .., by decide⟩⟩
theorem writes_49 : (hostOps0_49 : List (HloOp τ sig (Elt F))).Forall fun op => ∃ y : Ref sig .tc, op.writes = {Proc.devRef .tc y} ∧ 13 ≤ y.idx.val :=
  ⟨
    ⟨_, StableHlo.unary_writes .., by decide⟩, ⟨_, StableHlo.binary_writes .., by decide⟩⟩
theorem writes_50 : (hostOps0_50 : List (HloOp τ sig (Elt F))).Forall fun op => ∃ y : Ref sig .tc, op.writes = {Proc.devRef .tc y} ∧ 13 ≤ y.idx.val :=
  ⟨
    ⟨_, StableHlo.unary_writes .., by decide⟩, ⟨_, StableHlo.unary_writes .., by decide⟩, ⟨_, StableHlo.unary_writes .., by decide⟩, ⟨_, StableHlo.unary_writes .., by decide⟩,
    ⟨_, StableHlo.unary_writes .., by decide⟩, ⟨_, StableHlo.unary_writes .., by decide⟩, ⟨_, StableHlo.unary_writes .., by decide⟩, ⟨_, StableHlo.unary_writes .., by decide⟩,
    ⟨_, StableHlo.unary_writes .., by decide⟩, ⟨_, StableHlo.unary_writes .., by decide⟩, ⟨_, StableHlo.unary_writes .., by decide⟩, ⟨_, StableHlo.unary_writes .., by decide⟩,
    ⟨_, StableHlo.unary_writes .., by decide⟩, ⟨_, StableHlo.unary_writes .., by decide⟩, ⟨_, StableHlo.unary_writes .., by decide⟩, ⟨_, StableHlo.unary_writes .., by decide⟩,
    ⟨_, StableHlo.unary_writes .., by decide⟩, ⟨_, StableHlo.unary_writes .., by decide⟩, ⟨_, StableHlo.nary_writes .., by decide⟩, ⟨_, StableHlo.reshape_writes .., by decide⟩,
    ⟨_, StableHlo.unary_writes .., by decide⟩, ⟨_, StableHlo.nary_writes .., by decide⟩, ⟨_, StableHlo.reshape_writes .., by decide⟩, ⟨_, StableHlo.reshape_writes .., by decide⟩,
    ⟨_, StableHlo.reshape_writes .., by decide⟩, ⟨_, StableHlo.reshape_writes .., by decide⟩, ⟨_, StableHlo.reshape_writes .., by decide⟩, ⟨_, StableHlo.reshape_writes .., by decide⟩⟩

/-- Each operation before the region writes one buffer, its result, of index at least 13. -/
theorem pre_writes : (pre (F := F)).Forall fun ops => ops.Forall fun op => ∃ y : Ref sig .tc, op.writes = {Proc.devRef .tc y} ∧ 13 ≤ y.idx.val :=
  ⟨writes_0, writes_1, writes_2, writes_3, writes_4, writes_5, writes_6, writes_7, writes_8, writes_9, writes_10, writes_11, writes_12, writes_13, writes_14, writes_15, writes_16, writes_17, writes_18, writes_19, writes_20, writes_21, writes_22, writes_23, writes_24, writes_25, writes_26, writes_27, writes_28, writes_29, writes_30, writes_31, writes_32, writes_33, writes_34, writes_35, writes_36, writes_37, writes_38, writes_39, writes_40, writes_41, writes_42, writes_43, writes_44, writes_45, writes_46, writes_47, writes_48, writes_49, writes_50⟩

/-- So a reference of index below 13 is, when the region is entered, what it was at launch. -/
theorem V_of_idx_lt (c : Dev nD) (r : Ref sig .tc) (hr : r.idx.val < 13) : V m c r = m ((c : Thread nD τ).loc r) :=
  StableHlo.after_of_forall_not_mem (b := Proc.devRef .tc r) _ _ fun op hop hb => by
    obtain ⟨ops, hops, hop'⟩ := List.mem_flatten.mp hop
    obtain ⟨y, hy, hge⟩ := List.forall_iff_forall_mem.mp (List.forall_iff_forall_mem.mp (pre_writes (F := F)) ops hops) op hop'
    rw [hy, Finset.mem_singleton] at hb
    obtain rfl : r = y := Proc.devRef_injective _ hb
    omega

/-- No host operation before the region writes argument 0: the region finds it as launched. -/
theorem V_main_arg0 (c : Dev nD) : V m c main_arg0 = m ((c : Thread nD τ).loc main_arg0) :=
  V_of_idx_lt m c main_arg0 (by decide)

/-- No host operation before the region writes argument 1: the region finds it as launched. -/
theorem V_main_arg1 (c : Dev nD) : V m c main_arg1 = m ((c : Thread nD τ).loc main_arg1) :=
  V_of_idx_lt m c main_arg1 (by decide)

/-- No host operation before the region writes argument 2: the region finds it as launched. -/
theorem V_main_arg2 (c : Dev nD) : V m c main_arg2 = m ((c : Thread nD τ).loc main_arg2) :=
  V_of_idx_lt m c main_arg2 (by decide)

/-- No host operation before the region writes argument 3: the region finds it as launched. -/
theorem V_main_arg3 (c : Dev nD) : V m c main_arg3 = m ((c : Thread nD τ).loc main_arg3) :=
  V_of_idx_lt m c main_arg3 (by decide)

/-- No host operation before the region writes argument 4: the region finds it as launched. -/
theorem V_main_arg4 (c : Dev nD) : V m c main_arg4 = m ((c : Thread nD τ).loc main_arg4) :=
  V_of_idx_lt m c main_arg4 (by decide)

/-- No host operation before the region writes argument 5: the region finds it as launched. -/
theorem V_main_arg5 (c : Dev nD) : V m c main_arg5 = m ((c : Thread nD τ).loc main_arg5) :=
  V_of_idx_lt m c main_arg5 (by decide)

/-- No host operation before the region writes argument 6: the region finds it as launched. -/
theorem V_main_arg6 (c : Dev nD) : V m c main_arg6 = m ((c : Thread nD τ).loc main_arg6) :=
  V_of_idx_lt m c main_arg6 (by decide)

/-- No host operation before the region writes argument 7: the region finds it as launched. -/
theorem V_main_arg7 (c : Dev nD) : V m c main_arg7 = m ((c : Thread nD τ).loc main_arg7) :=
  V_of_idx_lt m c main_arg7 (by decide)

/-- No host operation before the region writes argument 8: the region finds it as launched. -/
theorem V_main_arg8 (c : Dev nD) : V m c main_arg8 = m ((c : Thread nD τ).loc main_arg8) :=
  V_of_idx_lt m c main_arg8 (by decide)

/-- No host operation before the region writes argument 9: the region finds it as launched. -/
theorem V_main_arg9 (c : Dev nD) : V m c main_arg9 = m ((c : Thread nD τ).loc main_arg9) :=
  V_of_idx_lt m c main_arg9 (by decide)

/-- No host operation before the region writes argument 10: the region finds it as launched. -/
theorem V_main_arg10 (c : Dev nD) : V m c main_arg10 = m ((c : Thread nD τ).loc main_arg10) :=
  V_of_idx_lt m c main_arg10 (by decide)

/-- No host operation before the region writes argument 11: the region finds it as launched. -/
theorem V_main_arg11 (c : Dev nD) : V m c main_arg11 = m ((c : Thread nD τ).loc main_arg11) :=
  V_of_idx_lt m c main_arg11 (by decide)

/-- No host operation before the region writes argument 12: the region finds it as launched. -/
theorem V_main_arg12 (c : Dev nD) : V m c main_arg12 = m ((c : Thread nD τ).loc main_arg12) :=
  V_of_idx_lt m c main_arg12 (by decide)

/-- Nor does the reshape after the region: argument 0 ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- Nor does the reshape after the region: argument 1 ends as launched. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- Nor does the reshape after the region: argument 2 ends as launched. -/
theorem W_main_arg2 (dats : (p : Fin 1) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- Nor does the reshape after the region: argument 4 ends as launched. -/
theorem W_main_arg4 (dats : (p : Fin 1) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- Nor does the reshape after the region: argument 6 ends as launched. -/
theorem W_main_arg6 (dats : (p : Fin 1) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-- Nor does the reshape after the region: argument 8 ends as launched. -/
theorem W_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c

/-- Nor does the reshape after the region: argument 10 ends as launched. -/
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg10 (by exact (by decide : ∀ w, Pipeline.arrRef spec0 w ≠ main_arg10))]
  exact V_main_arg10 m c

/-- Nor does the reshape after the region: argument 12 ends as launched. -/
theorem W_main_arg12 (dats : (p : Fin 1) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      exact StableHlo.devRef_ne_of_ne (by decide))),
    Pipeline.withArrays_of_ne _ c (V0 m c) _ main_arg12 (by exact (by decide : ∀ w, Pipeline.arrRef spec0 w ≠ main_arg12))]
  exact V_main_arg12 m c

end Cert.KernelIdeal.Mlp

end
-- ==== Proof.KBody.lean ====
/-
  The kernel body, run once on whole staging buffers.

  The body reads the block of 2048 input rows and the ten parameter arrays (four 256-wide weight matrices with the
  833 × 256 first one, a 256 × 3 last one, five bias rows) whole, computes the five layers, and writes the 2048 × 3
  result with ONE store that covers its output buffer.  So whatever the output buffer held before, afterwards it
  holds `outBlock`: the stored value, a function of the eleven arrays read and of nothing else (the body also loads
  the output buffer before storing, but the loaded value is not used).  The triple below says exactly that, for any
  float interpretation `F`: the eleven inputs are owned in and out unchanged, the output is owned at anything in and
  at `outBlock` of the inputs out.
-/
import proofs.«145896_j91079076479405_1_alg».proof.Proof.Gen.KernelIdeal.Launch
import proofs.«145896_j91079076479405_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body reads and writes through: each is its whole buffer -/

abbrev rX : Rect S2048x833 := Rect.unit (s := S2048x833) ![0, 0] S2048x833.size inb_S2048x833_S2048x833_0_0
abbrev rW0 : Rect S833x256 := Rect.unit (s := S833x256) ![0, 0] S833x256.size inb_S833x256_S833x256_0_0
abbrev rB : Rect S1x256 := Rect.unit (s := S1x256) ![0, 0] S1x256.size inb_S1x256_S1x256_0_0
abbrev rW : Rect S256x256 := Rect.unit (s := S256x256) ![0, 0] S256x256.size inb_S256x256_S256x256_0_0
abbrev rW4 : Rect S256x3 := Rect.unit (s := S256x3) ![0, 0] S256x3.size inb_S256x3_S256x3_0_0
abbrev rB4 : Rect S1x3 := Rect.unit (s := S1x3) ![0, 0] S1x3.size inb_S1x3_S1x3_0_0
abbrev rO : Rect S2048x3 := Rect.unit (s := S2048x3) ![0, 0] S2048x3.size inb_S2048x3_S2048x3_0_0

/-! ## What the body leaves in the output buffer -/

/-- The output buffer after the body, from the contents of the eleven input buffers: its one store, whose value is
    the last layer (`k0_pay1`) over the first four (`k0_pay2`) of the arrays read. -/
def outBlock (x0 : Vec F S2048x833 .f32) (x1 : Vec F S833x256 .f32) (x2 : Vec F S1x256 .f32) (x3 : Vec F S256x256 .f32) (x4 : Vec F S1x256 .f32) (x5 : Vec F S256x256 .f32) (x6 : Vec F S1x256 .f32) (x7 : Vec F S256x256 .f32) (x8 : Vec F S1x256 .f32) (x9 : Vec F S256x3 .f32) (x10 : Vec F S1x3 .f32) : Vec F S2048x3 .f32 :=
  View.canon [⟨rO, k0_pay1 (k0_pay2 (View.ld x0 rX) (View.ld x1 rW0) (View.ld x2 rB) (View.ld x3 rW) (View.ld x4 rB) (View.ld x5 rW) (View.ld x6 rB) (View.ld x7 rW)) (View.ld x8 rB) (View.ld x9 rW4) (View.ld x10 rB4)⟩]

/-- The one store's rectangle is the whole buffer, so it covers every index. -/
theorem cover_out (p0 : Vec F S2048x3 .f32) (y : S2048x3.Idx) :
    ∃ pc ∈ ([⟨rO, p0⟩] : List (View.Piece (Elt F) S2048x3 .f32)), y ∈ pc.1.set :=
  View.cover_of_tiled [⟨rO, p0⟩] S2048x3.size (by rfl) y

/-! ## The body's triple -/

set_option maxHeartbeats 4000000 in
/-- The body on whole buffers: inputs at `x0 … x10`, output at anything, to the continuation with the inputs as
    they were and the output at `outBlock` of them. -/
theorem sound_kernel (c : Dev nD) (E : Set ℕ) (i : grid0.Coords) (arg1 : Memref sig .tc .vmem S2048x833 .f32) (harg1 : arg1.IsWhole) (arg2 : Memref sig .tc .vmem S833x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S256x3 .f32) (harg10 : arg10.IsWhole) (arg11 : Memref sig .tc .vmem S1x3 .f32) (harg11 : arg11.IsWhole) (arg12 : Memref sig .tc .vmem S2048x3 .f32) (harg12 : arg12.IsWhole)
    (x0 : Vec F S2048x833 .f32) (x1 : Vec F S833x256 .f32) (x2 : Vec F S1x256 .f32) (x3 : Vec F S256x256 .f32) (x4 : Vec F S1x256 .f32) (x5 : Vec F S256x256 .f32) (x6 : Vec F S1x256 .f32) (x7 : Vec F S256x256 .f32) (x8 : Vec F S1x256 .f32) (x9 : Vec F S256x3 .f32) (x10 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (outBlock x0 x1 x2 x3 x4 x5 x6 x7 x8 x9 x10)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover_out _)

end Cert.KernelIdeal.Mlp

end
-- ==== Proof.KFrame.lean ====
/-
  The kernel program runs to the end, and what its arrays hold afterwards.

  The region is a pipeline over 64 grid points.  At point `t` it stages block `t` of the input rows (rows
  2048·t … 2048·t + 2047 of the [131072, 833] array) and, at the first point only, the ten parameter arrays whole;
  runs the body; and writes the 2048 × 3 output block back to rows 2048·t … of the [131072, 3] result array.  The
  proof data says what every staging buffer holds after the body at every point: an input's, its block (the body
  does not write it); the output's, `outBlock` of the eleven input blocks.  With the body's triple this discharges the
  pipeline's obligation at every point, and the library's launch theorem for "host operations, one region, host
  operations" gives the run: every weakly fair execution terminates, the twelve arrays of the region end at what
  the library computes from the proof data (`Dat.arrAt`), and every other buffer at what the reshape after the region
  leaves.  Read at the thirteen arguments this is the frame claim, for any float interpretation `F`.
-/
import proofs.«145896_j91079076479405_1_alg».proof.Proof.KArgs
import proofs.«145896_j91079076479405_1_alg».proof.Proof.KBody
import proofs.«145896_j91079076479405_1_alg».proof.Proof.Gen.KernelIdeal.Points

set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- On core `c`: the arrays as the region finds them; after the body at point `t` each input buffer at its block and
    the output buffer at `outBlock` of the input blocks; the invariant is the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outBlock (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
/-- What the body leaves in the output buffer at point `t`: `outBlock` of the eleven input blocks there. -/
theorem after_out (c : Dev nD) (t : Fin cfg0.N) : (dats m 0 c).after 11 t = outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-! ## Each input buffer holds its block at every point, fetched there or not -/

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl)
    (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl)
    (fun t => by rw [after_10]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 4000000 in
/-- The body at any point: the input buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The pipeline's obligation at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of the program terminates; at the end every array
    of the region holds what the library computes from the proof data, and every other unscoped buffer what the
    reshape after the region leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-! ## The frame -/

/-- The frame run read at the arguments: a staged parameter array is an input of the pipeline, so it ends at its
    entry contents, which are its launch contents; an argument no window stages is kept by the region and by the
    reshape after it. -/
theorem args_kept (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
    ⟨((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c),
      ((h c).1 3).trans (((dats m 0 c).arrAt_in 3 rfl _).trans ((A_eq m c 3).trans (V_main_arg5 m c))),
      ((h c).2 main_arg6 (Pipeline.mem_restRefs_of main_arg6 (by decide) (by decide))).trans (W_main_arg6 m (dats m) c),
      ((h c).1 5).trans (((dats m 0 c).arrAt_in 5 rfl _).trans ((A_eq m c 5).trans (V_main_arg7 m c))),
      ((h c).2 main_arg8 (Pipeline.mem_restRefs_of main_arg8 (by decide) (by decide))).trans (W_main_arg8 m (dats m) c),
      ((h c).1 7).trans (((dats m 0 c).arrAt_in 7 rfl _).trans ((A_eq m c 7).trans (V_main_arg9 m c))),
      ((h c).2 main_arg10 (Pipeline.mem_restRefs_of main_arg10 (by decide) (by decide))).trans (W_main_arg10 m (dats m) c),
      ((h c).1 9).trans (((dats m 0 c).arrAt_in 9 rfl _).trans ((A_eq m c 9).trans (V_main_arg11 m c))),
      ((h c).2 main_arg12 (Pipeline.mem_restRefs_of main_arg12 (by decide) (by decide))).trans (W_main_arg12 m (dats m) c)⟩

/-- The frame claim, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => args_kept m r h c) (run_main m ρ)

end Cert.KernelIdeal.Mlp

end
-- ==== Proof.MlpSpec.lean ====
/-
  The function both programs compute, stated once over plain index types.

  A dense layer sends a row `x` (length `K`) to the row `j ↦ (∑ k, x k · W k j) + b j` (length `N`); the rectifier
  sends a row to `j ↦ max (x j) 0`.  The network is five dense layers (833 → 256 → 256 → 256 → 256 → 3) with a
  rectifier after each of the first four, applied to every row of a [131072, 833] array independently: entry
  `(r, j)` of the result depends on row `r` of the input and on nothing else of it.  All arithmetic is on the
  extended reals; only `+`, `·`, `max` and finite sums occur, in one fixed order, so no finiteness is needed to
  compare two programs that both compute it.
-/
import Idealize.ShloMosaic.PureOps.Ideal
import Idealize.ShloMosaic.Lib.ValueIdx

noncomputable section

namespace Cert.MlpSpec

open Idealize.ShloMosaic Idealize.ShloMosaic.ValueIdx

/-- One dense layer on a row: `y j = (∑ k, x k · W k j) + b j`. -/
def dense {K N : ℕ} (W : Fin K → Fin N → EReal) (b : Fin N → EReal) (x : Fin K → EReal) : Fin N → EReal :=
  fun j => (∑ k : Fin K, x k * W k j) + b j

/-- The rectifier on a row: `max (x j) 0`. -/
def relu {N : ℕ} (x : Fin N → EReal) : Fin N → EReal := fun j => max (x j) 0

/-- The five-layer network on one row of 833 entries. -/
def mlpRow (W0 : Fin 833 → Fin 256 → EReal) (b0 : Fin 256 → EReal) (W1 : Fin 256 → Fin 256 → EReal) (b1 : Fin 256 → EReal)
    (W2 : Fin 256 → Fin 256 → EReal) (b2 : Fin 256 → EReal) (W3 : Fin 256 → Fin 256 → EReal) (b3 : Fin 256 → EReal)
    (W4 : Fin 256 → Fin 3 → EReal) (b4 : Fin 3 → EReal) (x : Fin 833 → EReal) : Fin 3 → EReal :=
  dense W4 b4 (relu (dense W3 b3 (relu (dense W2 b2 (relu (dense W1 b1 (relu (dense W0 b0 x))))))))

/-- The network on every row of a [131072, 833] array, the weights given as arrays ([K, N] matrices, length-N
    biases): entry `(r, j)` of the result is entry `j` of the network's value on row `r`. -/
def mlp2d (X : (⟨2, ![131072, 833]⟩ : Shape).Idx → EReal)
    (w0 : (⟨2, ![833, 256]⟩ : Shape).Idx → EReal) (b0 : (⟨1, ![256]⟩ : Shape).Idx → EReal)
    (w1 : (⟨2, ![256, 256]⟩ : Shape).Idx → EReal) (b1 : (⟨1, ![256]⟩ : Shape).Idx → EReal)
    (w2 : (⟨2, ![256, 256]⟩ : Shape).Idx → EReal) (b2 : (⟨1, ![256]⟩ : Shape).Idx → EReal)
    (w3 : (⟨2, ![256, 256]⟩ : Shape).Idx → EReal) (b3 : (⟨1, ![256]⟩ : Shape).Idx → EReal)
    (w4 : (⟨2, ![256, 3]⟩ : Shape).Idx → EReal) (b4 : (⟨1, ![3]⟩ : Shape).Idx → EReal) :
    (⟨2, ![131072, 3]⟩ : Shape).Idx → EReal :=
  fun i => mlpRow (fun k j => w0 (ix2 k j)) (fun j => b0 (ix1 j)) (fun k j => w1 (ix2 k j)) (fun j => b1 (ix1 j))
    (fun k j => w2 (ix2 k j)) (fun j => b2 (ix1 j)) (fun k j => w3 (ix2 k j)) (fun j => b3 (ix1 j))
    (fun k j => w4 (ix2 k j)) (fun j => b4 (ix1 j)) (fun k => X (ix2 (i 0) k)) (i 1)

end Cert.MlpSpec

end
-- ==== Proof.KPayload.lean ====
/-
  The kernel body's arithmetic, read at one entry.

  The body loads a [2048, 833] block `x` of the input, the five weight matrices and the five [1, N] bias rows, and
  stores a [2048, 3] block.  What it stores is computed layer by layer: the current activations and the layer's
  weights are narrowed to bf16 (on extended reals a change of format is the identity), multiplied into a zero
  accumulator, the bias row is broadcast down the rows and added, and, after each of the first four layers, the
  maximum against a splat of zero is taken.  Read at `(p, j)` each of these is the corresponding scalar operation
  on row `p`:

    product        (h · W)(p, n)       = ∑ k, h (p, k) · W (k, n)        (the contraction has one axis)
    bias           (bcast b)(p, n)     = b (0, n)
    rectifier      max(v, splat 0)(p, n) = max (v (p, n)) 0

  so entry `(p, j)` of the stored block is entry `j` of the five-layer network of the specification on row `p`
  of `x`, with the sums in the specification's own order.  No finiteness is used.
-/
import proofs.«145896_j91079076479405_1_alg».proof.Proof.Gen.KernelIdeal.Skeleton
import proofs.«145896_j91079076479405_1_alg».proof.Proof.MlpSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.MlpValue

open Cert.KernelIdeal Cert.KernelIdeal.Gen Idealize.ShloMosaic Idealize.ShloMosaic.ValueIdx

/-! ## The three products -/

/-- Index facts of the [2048, 833] × [833, 256] product's dimension numbers: at output index `j` and contraction
    position `q` the left operand is read at `(j 0, q)` and the right one at `(q, j 1)`. -/
theorem lhs_833_256_0 (j : S2048x256.Idx) (q : dot_S2048x833_S833x256_S2048x256_1_0_0_1_n_n.contr.Idx) :
    (dot_S2048x833_S833x256_S2048x256_1_0_0_1_n_n.lhsIdx j q 0).val = (j 0).val := by
  unfold DotDims.lhsIdx
  rw [dif_neg (show ¬(0 : Fin S2048x833.rank) ∈ dot_S2048x833_S833x256_S2048x256_1_0_0_1_n_n.lhsBatch by decide),
    dif_pos (show (0 : Fin S2048x833.rank) ∈ dot_S2048x833_S833x256_S2048x256_1_0_0_1_n_n.lhsNonContracting by decide)]
  rfl
theorem lhs_833_256_1 (j : S2048x256.Idx) (q : dot_S2048x833_S833x256_S2048x256_1_0_0_1_n_n.contr.Idx) :
    (dot_S2048x833_S833x256_S2048x256_1_0_0_1_n_n.lhsIdx j q 1).val = (q ⟨0, by decide⟩).val :=
  dot_S2048x833_S833x256_S2048x256_1_0_0_1_n_n.lhsIdx_val_of_single rfl j q
theorem rhs_833_256_0 (j : S2048x256.Idx) (q : dot_S2048x833_S833x256_S2048x256_1_0_0_1_n_n.contr.Idx) :
    (dot_S2048x833_S833x256_S2048x256_1_0_0_1_n_n.rhsIdx j q 0).val = (q ⟨0, by decide⟩).val :=
  dot_S2048x833_S833x256_S2048x256_1_0_0_1_n_n.rhsIdx_val_of_single rfl j q
theorem rhs_833_256_1 (j : S2048x256.Idx) (q : dot_S2048x833_S833x256_S2048x256_1_0_0_1_n_n.contr.Idx) :
    (dot_S2048x833_S833x256_S2048x256_1_0_0_1_n_n.rhsIdx j q 1).val = (j 1).val := by
  unfold DotDims.rhsIdx
  rw [dif_neg (show ¬(1 : Fin S833x256.rank) ∈ dot_S2048x833_S833x256_S2048x256_1_0_0_1_n_n.rhsBatch by decide),
    dif_pos (show (1 : Fin S833x256.rank) ∈ dot_S2048x833_S833x256_S2048x256_1_0_0_1_n_n.rhsNonContracting by decide)]
  rfl

/-- The [2048, 833] × [833, 256] product into the zero splat, its operands narrowed to bf16 (the identity on
    extended reals), read at `(p, n)`: the sum over `k` of `h (p, k) · W (k, n)`. -/
theorem matmul_833_256 (h : FVec Ideal S2048x833 .f32) (W : Vec Ideal S833x256 .f32)
    (hb : FTy.bits .bf16 < FTy.bits .f32) (p : Fin 2048) (n : Fin 256) :
    matmul (F := Ideal) dot_S2048x833_S833x256_S2048x256_1_0_0_1_n_n none (truncf .bf16 h hb) (truncf .bf16 W hb)
      (constant S2048x256 .f32 0x00000000#32) (ix2 p n)
    = ∑ k : Fin 833, h (ix2 p k) * W (ix2 k n) := by
  show FloatOps.matmul _ _ _ _ (constant S2048x256 .f32 0x00000000#32) _ = _
  rw [Ideal.matmul_constant_zero_apply,
    ← Equiv.sum_comp (contrEquiv1 dot_S2048x833_S833x256_S2048x256_1_0_0_1_n_n 833 rfl rfl).symm]
  refine Finset.sum_congr rfl fun k _ => ?_
  have hk := contrEquiv1_symm_val dot_S2048x833_S833x256_S2048x256_1_0_0_1_n_n 833 rfl rfl k
  have el : dot_S2048x833_S833x256_S2048x256_1_0_0_1_n_n.lhsIdx (ix2 p n) ((contrEquiv1 dot_S2048x833_S833x256_S2048x256_1_0_0_1_n_n 833 rfl rfl).symm k) = ix2 p k :=
    funext fun a => Fin.ext (by
      match a with
      | ⟨0, _⟩ => exact lhs_833_256_0 _ _
      | ⟨1, _⟩ => exact (lhs_833_256_1 _ _).trans hk)
  have er : dot_S2048x833_S833x256_S2048x256_1_0_0_1_n_n.rhsIdx (ix2 p n) ((contrEquiv1 dot_S2048x833_S833x256_S2048x256_1_0_0_1_n_n 833 rfl rfl).symm k) = ix2 k n :=
    funext fun a => Fin.ext (by
      match a with
      | ⟨0, _⟩ => exact (rhs_833_256_0 _ _).trans hk
      | ⟨1, _⟩ => exact rhs_833_256_1 _ _)
  rw [el, er]
  rfl

/-- Index facts of the [2048, 256] × [256, 256] product's dimension numbers: at output index `j` and contraction
    position `q` the left operand is read at `(j 0, q)` and the right one at `(q, j 1)`. -/
theorem lhs_256_256_0 (j : S2048x256.Idx) (q : dot_S2048x256_S256x256_S2048x256_1_0_0_1_n_n.contr.Idx) :
    (dot_S2048x256_S256x256_S2048x256_1_0_0_1_n_n.lhsIdx j q 0).val = (j 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl
theorem lhs_256_256_1 (j : S2048x256.Idx) (q : dot_S2048x256_S256x256_S2048x256_1_0_0_1_n_n.contr.Idx) :
    (dot_S2048x256_S256x256_S2048x256_1_0_0_1_n_n.lhsIdx j q 1).val = (q ⟨0, by decide⟩).val :=
  dot_S2048x256_S256x256_S2048x256_1_0_0_1_n_n.lhsIdx_val_of_single rfl j q
theorem rhs_256_256_0 (j : S2048x256.Idx) (q : dot_S2048x256_S256x256_S2048x256_1_0_0_1_n_n.contr.Idx) :
    (dot_S2048x256_S256x256_S2048x256_1_0_0_1_n_n.rhsIdx j q 0).val = (q ⟨0, by decide⟩).val :=
  dot_S2048x256_S256x256_S2048x256_1_0_0_1_n_n.rhsIdx_val_of_single rfl j q
theorem rhs_256_256_1 (j : S2048x256.Idx) (q : dot_S2048x256_S256x256_S2048x256_1_0_0_1_n_n.contr.Idx) :
    (dot_S2048x256_S256x256_S2048x256_1_0_0_1_n_n.rhsIdx j q 1).val = (j 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- The [2048, 256] × [256, 256] product into the zero splat, its operands narrowed to bf16 (the identity on
    extended reals), read at `(p, n)`: the sum over `k` of `h (p, k) · W (k, n)`. -/
theorem matmul_256_256 (h : FVec Ideal S2048x256 .f32) (W : Vec Ideal S256x256 .f32)
    (hb : FTy.bits .bf16 < FTy.bits .f32) (p : Fin 2048) (n : Fin 256) :
    matmul (F := Ideal) dot_S2048x256_S256x256_S2048x256_1_0_0_1_n_n none (truncf .bf16 h hb) (truncf .bf16 W hb)
      (constant S2048x256 .f32 0x00000000#32) (ix2 p n)
    = ∑ k : Fin 256, h (ix2 p k) * W (ix2 k n) := by
  show FloatOps.matmul _ _ _ _ (constant S2048x256 .f32 0x00000000#32) _ = _
  rw [Ideal.matmul_constant_zero_apply,
    ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p n) ((contrEquiv1 dot_S2048x256_S256x256_S2048x256_1_0_0_1_n_n 256 rfl rfl).symm k) = ix2 p k :=
    funext fun a => Fin.ext (by
      match a with
      | ⟨0, _⟩ => exact lhs_256_256_0 _ _
      | ⟨1, _⟩ => exact (lhs_256_256_1 _ _).trans hk)
  have er : dot_S2048x256_S256x256_S2048x256_1_0_0_1_n_n.rhsIdx (ix2 p n) ((contrEquiv1 dot_S2048x256_S256x256_S2048x256_1_0_0_1_n_n 256 rfl rfl).symm k) = ix2 k n :=
    funext fun a => Fin.ext (by
      match a with
      | ⟨0, _⟩ => exact (rhs_256_256_0 _ _).trans hk
      | ⟨1, _⟩ => exact rhs_256_256_1 _ _)
  rw [el, er]
  rfl

/-- Index facts of the [2048, 256] × [256, 3] product's dimension numbers: at output index `j` and contraction
    position `q` the left operand is read at `(j 0, q)` and the right one at `(q, j 1)`. -/
theorem lhs_256_3_0 (j : S2048x3.Idx) (q : dot_S2048x256_S256x3_S2048x3_1_0_0_1_n_n.contr.Idx) :
    (dot_S2048x256_S256x3_S2048x3_1_0_0_1_n_n.lhsIdx j q 0).val = (j 0).val := by
  unfold DotDims.lhsIdx
  rw [dif_neg (show ¬(0 : Fin S2048x256.rank) ∈ dot_S2048x256_S256x3_S2048x3_1_0_0_1_n_n.lhsBatch by decide),
    dif_pos (show (0 : Fin S2048x256.rank) ∈ dot_S2048x256_S256x3_S2048x3_1_0_0_1_n_n.lhsNonContracting by decide)]
  rfl
theorem lhs_256_3_1 (j : S2048x3.Idx) (q : dot_S2048x256_S256x3_S2048x3_1_0_0_1_n_n.contr.Idx) :
    (dot_S2048x256_S256x3_S2048x3_1_0_0_1_n_n.lhsIdx j q 1).val = (q ⟨0, by decide⟩).val :=
  dot_S2048x256_S256x3_S2048x3_1_0_0_1_n_n.lhsIdx_val_of_single rfl j q
theorem rhs_256_3_0 (j : S2048x3.Idx) (q : dot_S2048x256_S256x3_S2048x3_1_0_0_1_n_n.contr.Idx) :
    (dot_S2048x256_S256x3_S2048x3_1_0_0_1_n_n.rhsIdx j q 0).val = (q ⟨0, by decide⟩).val :=
  dot_S2048x256_S256x3_S2048x3_1_0_0_1_n_n.rhsIdx_val_of_single rfl j q
theorem rhs_256_3_1 (j : S2048x3.Idx) (q : dot_S2048x256_S256x3_S2048x3_1_0_0_1_n_n.contr.Idx) :
    (dot_S2048x256_S256x3_S2048x3_1_0_0_1_n_n.rhsIdx j q 1).val = (j 1).val := by
  unfold DotDims.rhsIdx
  rw [dif_neg (show ¬(1 : Fin S256x3.rank) ∈ dot_S2048x256_S256x3_S2048x3_1_0_0_1_n_n.rhsBatch by decide),
    dif_pos (show (1 : Fin S256x3.rank) ∈ dot_S2048x256_S256x3_S2048x3_1_0_0_1_n_n.rhsNonContracting by decide)]
  rfl

/-- The [2048, 256] × [256, 3] product into the zero splat, its operands narrowed to bf16 (the identity on
    extended reals), read at `(p, n)`: the sum over `k` of `h (p, k) · W (k, n)`. -/
theorem matmul_256_3 (h : FVec Ideal S2048x256 .f32) (W : Vec Ideal S256x3 .f32)
    (hb : FTy.bits .bf16 < FTy.bits .f32) (p : Fin 2048) (n : Fin 3) :
    matmul (F := Ideal) dot_S2048x256_S256x3_S2048x3_1_0_0_1_n_n none (truncf .bf16 h hb) (truncf .bf16 W hb)
      (constant S2048x3 .f32 0x00000000#32) (ix2 p n)
    = ∑ k : Fin 256, h (ix2 p k) * W (ix2 k n) := by
  show FloatOps.matmul _ _ _ _ (constant S2048x3 .f32 0x00000000#32) _ = _
  rw [Ideal.matmul_constant_zero_apply,
    ← Equiv.sum_comp (contrEquiv1 dot_S2048x256_S256x3_S2048x3_1_0_0_1_n_n 256 rfl rfl).symm]
  refine Finset.sum_congr rfl fun k _ => ?_
  have hk := contrEquiv1_symm_val dot_S2048x256_S256x3_S2048x3_1_0_0_1_n_n 256 rfl rfl k
  have el : dot_S2048x256_S256x3_S2048x3_1_0_0_1_n_n.lhsIdx (ix2 p n) ((contrEquiv1 dot_S2048x256_S256x3_S2048x3_1_0_0_1_n_n 256 rfl rfl).symm k) = ix2 p k :=
    funext fun a => Fin.ext (by
      match a with
      | ⟨0, _⟩ => exact lhs_256_3_0 _ _
      | ⟨1, _⟩ => exact (lhs_256_3_1 _ _).trans hk)
  have er : dot_S2048x256_S256x3_S2048x3_1_0_0_1_n_n.rhsIdx (ix2 p n) ((contrEquiv1 dot_S2048x256_S256x3_S2048x3_1_0_0_1_n_n 256 rfl rfl).symm k) = ix2 k n :=
    funext fun a => Fin.ext (by
      match a with
      | ⟨0, _⟩ => exact (rhs_256_3_0 _ _).trans hk
      | ⟨1, _⟩ => exact rhs_256_3_1 _ _)
  rw [el, er]
  rfl

/-! ## Bias rows and dense layers -/

/-- A [1, 256] bias, cast to its own shape and broadcast down the 2048 rows, read at `(p, n)` is the bias at
    `(0, n)`. -/
theorem bias_833_256 (b : Vec Ideal S1x256 .f32) (hsc : S1x256.ShapeCasts S1x256) (hbc : S1x256.Broadcasts S2048x256)
    (p : Fin 2048) (n : Fin 256) :
    broadcastTo S2048x256 (shapeCast S1x256 b hsc) hbc (ix2 p n) = b (ix2 (0 : Fin 1) n) := by
  rw [shapeCast_self b hsc]
  exact broadcastTo_apply b hbc (ix2 p n) (ix2 (0 : Fin 1) n) (fun a => match a with
    | ⟨0, _⟩ => rfl
    | ⟨1, _⟩ => rfl)

/-- One dense layer of the kernel body, 833 → 256, read at `(p, n)`: the layer of the specification on row `p` of
    the input. -/
theorem dense_833_256 (h : FVec Ideal S2048x833 .f32) (W : Vec Ideal S833x256 .f32) (b : Vec Ideal S1x256 .f32)
    (hb : FTy.bits .bf16 < FTy.bits .f32) (hsc : S1x256.ShapeCasts S1x256) (hbc : S1x256.Broadcasts S2048x256)
    (p : Fin 2048) (n : Fin 256) :
    addf (matmul (F := Ideal) dot_S2048x833_S833x256_S2048x256_1_0_0_1_n_n none (truncf .bf16 h hb) (truncf .bf16 W hb) (constant S2048x256 .f32 0x00000000#32))
      (broadcastTo S2048x256 (shapeCast S1x256 b hsc) hbc) (ix2 p n)
    = MlpSpec.dense (fun k n => W (ix2 k n)) (fun n => b (ix2 (0 : Fin 1) n)) (fun k => h (ix2 p k)) n := by
  rw [addf_apply, matmul_833_256 h W hb p n, bias_833_256 b hsc hbc p n]
  rfl

/-- A [1, 256] bias, cast to its own shape and broadcast down the 2048 rows, read at `(p, n)` is the bias at
    `(0, n)`. -/
theorem bias_256_256 (b : Vec Ideal S1x256 .f32) (hsc : S1x256.ShapeCasts S1x256) (hbc : S1x256.Broadcasts S2048x256)
    (p : Fin 2048) (n : Fin 256) :
    broadcastTo S2048x256 (shapeCast S1x256 b hsc) hbc (ix2 p n) = b (ix2 (0 : Fin 1) n) := by
  rw [shapeCast_self b hsc]
  exact broadcastTo_apply b hbc (ix2 p n) (ix2 (0 : Fin 1) n) (fun a => match a with
    | ⟨0, _⟩ => rfl
    | ⟨1, _⟩ => rfl)

/-- One dense layer of the kernel body, 256 → 256, read at `(p, n)`: the layer of the specification on row `p` of
    the input. -/
theorem dense_256_256 (h : FVec Ideal S2048x256 .f32) (W : Vec Ideal S256x256 .f32) (b : Vec Ideal S1x256 .f32)
    (hb : FTy.bits .bf16 < FTy.bits .f32) (hsc : S1x256.ShapeCasts S1x256) (hbc : S1x256.Broadcasts S2048x256)
    (p : Fin 2048) (n : Fin 256) :
    addf (matmul (F := Ideal) dot_S2048x256_S256x256_S2048x256_1_0_0_1_n_n none (truncf .bf16 h hb) (truncf .bf16 W hb) (constant S2048x256 .f32 0x00000000#32))
      (broadcastTo S2048x256 (shapeCast S1x256 b hsc) hbc) (ix2 p n)
    = MlpSpec.dense (fun k n => W (ix2 k n)) (fun n => b (ix2 (0 : Fin 1) n)) (fun k => h (ix2 p k)) n := by
  rw [addf_apply, matmul_256_256 h W hb p n, bias_256_256 b hsc hbc p n]
  rfl

/-- A [1, 3] bias, cast to its own shape and broadcast down the 2048 rows, read at `(p, n)` is the bias at
    `(0, n)`. -/
theorem bias_256_3 (b : Vec Ideal S1x3 .f32) (hsc : S1x3.ShapeCasts S1x3) (hbc : S1x3.Broadcasts S2048x3)
    (p : Fin 2048) (n : Fin 3) :
    broadcastTo S2048x3 (shapeCast S1x3 b hsc) hbc (ix2 p n) = b (ix2 (0 : Fin 1) n) := by
  rw [shapeCast_self b hsc]
  exact broadcastTo_apply b hbc (ix2 p n) (ix2 (0 : Fin 1) n) (fun a => match a with
    | ⟨0, _⟩ => rfl
    | ⟨1, _⟩ => rfl)

/-- One dense layer of the kernel body, 256 → 3, read at `(p, n)`: the layer of the specification on row `p` of
    the input. -/
theorem dense_256_3 (h : FVec Ideal S2048x256 .f32) (W : Vec Ideal S256x3 .f32) (b : Vec Ideal S1x3 .f32)
    (hb : FTy.bits .bf16 < FTy.bits .f32) (hsc : S1x3.ShapeCasts S1x3) (hbc : S1x3.Broadcasts S2048x3)
    (p : Fin 2048) (n : Fin 3) :
    addf (matmul (F := Ideal) dot_S2048x256_S256x3_S2048x3_1_0_0_1_n_n none (truncf .bf16 h hb) (truncf .bf16 W hb) (constant S2048x3 .f32 0x00000000#32))
      (broadcastTo S2048x3 (shapeCast S1x3 b hsc) hbc) (ix2 p n)
    = MlpSpec.dense (fun k n => W (ix2 k n)) (fun n => b (ix2 (0 : Fin 1) n)) (fun k => h (ix2 p k)) n := by
  rw [addf_apply, matmul_256_3 h W hb p n, bias_256_3 b hsc hbc p n]
  rfl

/-! ## The rectifier, and a layer over a known row -/

/-- The rectifier of the kernel body (a maximum against the splat of the f32 zero) read at an index. -/
theorem relu_apply {s : Shape} (v : FVec Ideal s .f32) (i : s.Idx) :
    maximumf v (broadcast s (Scalar.ofBits (F := Ideal) .f32 0x00000000#32)) i = max (v i) 0 := by
  rw [maximumf_apply, broadcast_apply]
  show max (v i) (Ideal.ofBits .f32 0x00000000#32) = _
  rw [Ideal.ofBits_zero_f32]

/-- The same over a row `r` that the input's row `p` is known to be. -/
theorem dense_833_256_of_row (h : FVec Ideal S2048x833 .f32) (W : Vec Ideal S833x256 .f32) (b : Vec Ideal S1x256 .f32)
    (hb : FTy.bits .bf16 < FTy.bits .f32) (hsc : S1x256.ShapeCasts S1x256) (hbc : S1x256.Broadcasts S2048x256)
    (p : Fin 2048) (n : Fin 256) (r : Fin 833 → EReal) (hr : ∀ k, h (ix2 p k) = r k) :
    addf (matmul (F := Ideal) dot_S2048x833_S833x256_S2048x256_1_0_0_1_n_n none (truncf .bf16 h hb) (truncf .bf16 W hb) (constant S2048x256 .f32 0x00000000#32))
      (broadcastTo S2048x256 (shapeCast S1x256 b hsc) hbc) (ix2 p n)
    = MlpSpec.dense (fun k n => W (ix2 k n)) (fun n => b (ix2 (0 : Fin 1) n)) r n := by
  rw [dense_833_256 h W b hb hsc hbc p n, show (fun k => h (ix2 p k)) = r from funext hr]

/-- A dense layer 833 → 256 followed by the rectifier, read at `(p, n)`. -/
theorem hidden_833_256 (h : FVec Ideal S2048x833 .f32) (W : Vec Ideal S833x256 .f32) (b : Vec Ideal S1x256 .f32)
    (hb : FTy.bits .bf16 < FTy.bits .f32) (hsc : S1x256.ShapeCasts S1x256) (hbc : S1x256.Broadcasts S2048x256)
    (p : Fin 2048) (n : Fin 256) (r : Fin 833 → EReal) (hr : ∀ k, h (ix2 p k) = r k) :
    maximumf (addf (matmul (F := Ideal) dot_S2048x833_S833x256_S2048x256_1_0_0_1_n_n none (truncf .bf16 h hb) (truncf .bf16 W hb) (constant S2048x256 .f32 0x00000000#32))
      (broadcastTo S2048x256 (shapeCast S1x256 b hsc) hbc)) (broadcast S2048x256 (Scalar.ofBits (F := Ideal) .f32 0x00000000#32)) (ix2 p n)
    = MlpSpec.relu (MlpSpec.dense (fun k n => W (ix2 k n)) (fun n => b (ix2 (0 : Fin 1) n)) r) n := by
  rw [relu_apply, dense_833_256_of_row h W b hb hsc hbc p n r hr]
  rfl

/-- The same over a row `r` that the input's row `p` is known to be. -/
theorem dense_256_256_of_row (h : FVec Ideal S2048x256 .f32) (W : Vec Ideal S256x256 .f32) (b : Vec Ideal S1x256 .f32)
    (hb : FTy.bits .bf16 < FTy.bits .f32) (hsc : S1x256.ShapeCasts S1x256) (hbc : S1x256.Broadcasts S2048x256)
    (p : Fin 2048) (n : Fin 256) (r : Fin 256 → EReal) (hr : ∀ k, h (ix2 p k) = r k) :
    addf (matmul (F := Ideal) dot_S2048x256_S256x256_S2048x256_1_0_0_1_n_n none (truncf .bf16 h hb) (truncf .bf16 W hb) (constant S2048x256 .f32 0x00000000#32))
      (broadcastTo S2048x256 (shapeCast S1x256 b hsc) hbc) (ix2 p n)
    = MlpSpec.dense (fun k n => W (ix2 k n)) (fun n => b (ix2 (0 : Fin 1) n)) r n := by
  rw [dense_256_256 h W b hb hsc hbc p n, show (fun k => h (ix2 p k)) = r from funext hr]

/-- A dense layer 256 → 256 followed by the rectifier, read at `(p, n)`. -/
theorem hidden_256_256 (h : FVec Ideal S2048x256 .f32) (W : Vec Ideal S256x256 .f32) (b : Vec Ideal S1x256 .f32)
    (hb : FTy.bits .bf16 < FTy.bits .f32) (hsc : S1x256.ShapeCasts S1x256) (hbc : S1x256.Broadcasts S2048x256)
    (p : Fin 2048) (n : Fin 256) (r : Fin 256 → EReal) (hr : ∀ k, h (ix2 p k) = r k) :
    maximumf (addf (matmul (F := Ideal) dot_S2048x256_S256x256_S2048x256_1_0_0_1_n_n none (truncf .bf16 h hb) (truncf .bf16 W hb) (constant S2048x256 .f32 0x00000000#32))
      (broadcastTo S2048x256 (shapeCast S1x256 b hsc) hbc)) (broadcast S2048x256 (Scalar.ofBits (F := Ideal) .f32 0x00000000#32)) (ix2 p n)
    = MlpSpec.relu (MlpSpec.dense (fun k n => W (ix2 k n)) (fun n => b (ix2 (0 : Fin 1) n)) r) n := by
  rw [relu_apply, dense_256_256_of_row h W b hb hsc hbc p n r hr]
  rfl

/-- The same over a row `r` that the input's row `p` is known to be. -/
theorem dense_256_3_of_row (h : FVec Ideal S2048x256 .f32) (W : Vec Ideal S256x3 .f32) (b : Vec Ideal S1x3 .f32)
    (hb : FTy.bits .bf16 < FTy.bits .f32) (hsc : S1x3.ShapeCasts S1x3) (hbc : S1x3.Broadcasts S2048x3)
    (p : Fin 2048) (n : Fin 3) (r : Fin 256 → EReal) (hr : ∀ k, h (ix2 p k) = r k) :
    addf (matmul (F := Ideal) dot_S2048x256_S256x3_S2048x3_1_0_0_1_n_n none (truncf .bf16 h hb) (truncf .bf16 W hb) (constant S2048x3 .f32 0x00000000#32))
      (broadcastTo S2048x3 (shapeCast S1x3 b hsc) hbc) (ix2 p n)
    = MlpSpec.dense (fun k n => W (ix2 k n)) (fun n => b (ix2 (0 : Fin 1) n)) r n := by
  rw [dense_256_3 h W b hb hsc hbc p n, show (fun k => h (ix2 p k)) = r from funext hr]

/-! ## The stored block -/

/-- THE BODY'S STORED VALUE AT AN INDEX: entry `(p, j)` of what the body stores is entry `j` of the five-layer
    network on row `p` of the loaded input block. The two payloads are the ten operations of each hidden layer in
    turn (narrow, multiply into zero, add the bias row, rectify), the last layer without the rectifier; each is read
    at the index by its layer lemma, innermost last. -/
theorem payload_apply (x : Vec Ideal S2048x833 .f32) (w0 : Vec Ideal S833x256 .f32) (b0 : Vec Ideal S1x256 .f32)
    (w1 : Vec Ideal S256x256 .f32) (b1 : Vec Ideal S1x256 .f32) (w2 : Vec Ideal S256x256 .f32) (b2 : Vec Ideal S1x256 .f32)
    (w3 : Vec Ideal S256x256 .f32) (b3 : Vec Ideal S1x256 .f32) (w4 : Vec Ideal S256x3 .f32) (b4 : Vec Ideal S1x3 .f32)
    (p : Fin 2048) (j : Fin 3) :
    Cert.KernelIdeal.Gen.k0_pay1 (F := Ideal) (Cert.KernelIdeal.Gen.k0_pay2 (F := Ideal) x w0 b0 w1 b1 w2 b2 w3) b3 w4 b4 (ix2 p j)
    = Cert.MlpSpec.mlpRow (fun k n => w0 (ix2 k n)) (fun n => b0 (ix2 0 n)) (fun k n => w1 (ix2 k n)) (fun n => b1 (ix2 0 n))
        (fun k n => w2 (ix2 k n)) (fun n => b2 (ix2 0 n)) (fun k n => w3 (ix2 k n)) (fun n => b3 (ix2 0 n))
        (fun k n => w4 (ix2 k n)) (fun n => b4 (ix2 0 n)) (fun k => x (ix2 p k)) j := by
  unfold Cert.KernelIdeal.Gen.k0_pay1 Cert.KernelIdeal.Gen.k0_pay2 Cert.MlpSpec.mlpRow
  dsimp only
  exact dense_256_3_of_row _ w4 b4 _ _ _ p j _ (fun k3 =>
    hidden_256_256 _ w3 b3 _ _ _ p k3 _ (fun k2 =>
    hidden_256_256 _ w2 b2 _ _ _ p k2 _ (fun k1 =>
    hidden_256_256 _ w1 b1 _ _ _ p k1 _ (fun k0 =>
    hidden_833_256 _ w0 b0 _ _ _ p k0 _ (fun k =>
      congrFun (shapeCast_self x shapeCasts_S2048x833_S2048x833) (ix2 p k))))))

end Cert.KernelIdeal.MlpValue

end
-- ==== Proof.KValue.lean ====
/-
  From the blocks the grid points write to the whole result array, in closed form.

  At grid point `t` the pipeline stages rows `2048 t … 2048 t + 2047` of the [131072, 833] input array and, whole, the
  ten parameter arrays; the body leaves in the output buffer the five-layer network applied to each staged row; and the
  2048 × 3 output block is written back to rows `2048 t …` of the [131072, 3] result array.  So what point `t` writes
  back is block `t` of one function `G` of the arrays as the region finds them: the network on every row of the input
  array, the weights read off their arrays and each bias off the one row of its [1, N] array.  The 64 blocks tile the
  result array (row `r` lies in block `r / 2048`), hence the array ends holding `G`; the reshape after the region
  regroups its rows as [2, 65536, 3].  The arrays the region finds are kept as opaque terms throughout: every step
  about a block is first stated over an arbitrary array.
-/
import proofs.«145896_j91079076479405_1_alg».proof.Proof.KFrame
import proofs.«145896_j91079076479405_1_alg».proof.Proof.KPayload
import proofs.«145896_j91079076479405_1_alg».proof.Proof.MlpSpec
import Idealize.ShloMosaic.Lib.Pipeline.Value
import Idealize.ShloMosaic.Lib.Pipeline.FrameSuffix
import Idealize.ShloMosaic.Lib.Tactic
import Idealize.ShloMosaic.Lib.ValueIdx

set_option maxRecDepth 16384

noncomputable section

namespace Cert.KernelIdeal.MlpValue

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Mlp

/-! ## Where each window's block sits in its array -/

theorem hz : (![0, 0] : Fin 2 → Nat) = fun _ => 0 := funext fun a => by fin_cases a <;> rfl

/-- The printed index maps, decided over the 64 grid points: the input rows' window and the result's window are at
    row block `t` (column block 0) at point `t`; each of the ten parameter windows is at block (0, 0) throughout. -/
theorem idx_facts : ∀ t : Fin cfg0.N, win0_0.index t (0 : Fin 2) = t.val
    ∧ win0_0.index t (1 : Fin 2) = 0
    ∧ win0_11.index t (0 : Fin 2) = t.val
    ∧ win0_11.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0 :=
  (by decide +kernel : ∀ t : Fin grid0.N, _)

theorem t_lt (t : Fin cfg0.N) : t.val < 64 := Nat.lt_of_lt_of_eq t.isLt N_0

/-- Window 1's one block is its whole array: read through the block, an array is itself. -/
theorem read_whole1 (t : Fin cfg0.N) (A : S833x256.Idx → EReal) (x : S833x256.Idx) :
    ((cfg0.win 1).blk t).view.read (Elt Ideal) A x = A x := by
  have e0 : win0_1.index t (0 : Fin 2) = 0 := (idx_facts t).2.2.2.2.1
  have e1 : win0_1.index t (1 : Fin 2) = 0 := (idx_facts t).2.2.2.2.2.1
  show A (((cfg0.win 1).blk t).view.emb x) = A x
  refine congrArg A ?_
  funext a; apply Fin.ext
  match a with
  | ⟨0, _⟩ => show win0_1.index t (0 : Fin 2) * 833 + 1 * (x 0).val = (x 0).val; rw [e0]; omega
  | ⟨1, _⟩ => show win0_1.index t (1 : Fin 2) * 256 + 1 * (x 1).val = (x 1).val; rw [e1]; omega

/-- Window 2's one block is its whole array: read through the block, an array is itself. -/
theorem read_whole2 (t : Fin cfg0.N) (A : S1x256.Idx → EReal) (x : S1x256.Idx) :
    ((cfg0.win 2).blk t).view.read (Elt Ideal) A x = A x := by
  have e0 : win0_2.index t (0 : Fin 2) = 0 := (idx_facts t).2.2.2.2.2.2.1
  have e1 : win0_2.index t (1 : Fin 2) = 0 := (idx_facts t).2.2.2.2.2.2.2.1
  show A (((cfg0.win 2).blk t).view.emb x) = A x
  refine congrArg A ?_
  funext a; apply Fin.ext
  match a with
  | ⟨0, _⟩ => show win0_2.index t (0 : Fin 2) * 1 + 1 * (x 0).val = (x 0).val; rw [e0]; omega
  | ⟨1, _⟩ => show win0_2.index t (1 : Fin 2) * 256 + 1 * (x 1).val = (x 1).val; rw [e1]; omega

/-- Window 3's one block is its whole array: read through the block, an array is itself. -/
theorem read_whole3 (t : Fin cfg0.N) (A : S256x256.Idx → EReal) (x : S256x256.Idx) :
    ((cfg0.win 3).blk t).view.read (Elt Ideal) A x = A x := by
  have e0 : win0_3.index t (0 : Fin 2) = 0 := (idx_facts t).2.2.2.2.2.2.2.2.1
  have e1 : win0_3.index t (1 : Fin 2) = 0 := (idx_facts t).2.2.2.2.2.2.2.2.2.1
  show A (((cfg0.win 3).blk t).view.emb x) = A x
  refine congrArg A ?_
  funext a; apply Fin.ext
  match a with
  | ⟨0, _⟩ => show win0_3.index t (0 : Fin 2) * 256 + 1 * (x 0).val = (x 0).val; rw [e0]; omega
  | ⟨1, _⟩ => show win0_3.index t (1 : Fin 2) * 256 + 1 * (x 1).val = (x 1).val; rw [e1]; omega

/-- Window 4's one block is its whole array: read through the block, an array is itself. -/
theorem read_whole4 (t : Fin cfg0.N) (A : S1x256.Idx → EReal) (x : S1x256.Idx) :
    ((cfg0.win 4).blk t).view.read (Elt Ideal) A x = A x := by
  have e0 : win0_4.index t (0 : Fin 2) = 0 := (idx_facts t).2.2.2.2.2.2.2.2.2.2.1
  have e1 : win0_4.index t (1 : Fin 2) = 0 := (idx_facts t).2.2.2.2.2.2.2.2.2.2.2.1
  show A (((cfg0.win 4).blk t).view.emb x) = A x
  refine congrArg A ?_
  funext a; apply Fin.ext
  match a with
  | ⟨0, _⟩ => show win0_4.index t (0 : Fin 2) * 1 + 1 * (x 0).val = (x 0).val; rw [e0]; omega
  | ⟨1, _⟩ => show win0_4.index t (1 : Fin 2) * 256 + 1 * (x 1).val = (x 1).val; rw [e1]; omega

/-- Window 5's one block is its whole array: read through the block, an array is itself. -/
theorem read_whole5 (t : Fin cfg0.N) (A : S256x256.Idx → EReal) (x : S256x256.Idx) :
    ((cfg0.win 5).blk t).view.read (Elt Ideal) A x = A x := by
  have e0 : win0_5.index t (0 : Fin 2) = 0 := (idx_facts t).2.2.2.2.2.2.2.2.2.2.2.2.1
  have e1 : win0_5.index t (1 : Fin 2) = 0 := (idx_facts t).2.2.2.2.2.2.2.2.2.2.2.2.2.1
  show A (((cfg0.win 5).blk t).view.emb x) = A x
  refine congrArg A ?_
  funext a; apply Fin.ext
  match a with
  | ⟨0, _⟩ => show win0_5.index t (0 : Fin 2) * 256 + 1 * (x 0).val = (x 0).val; rw [e0]; omega
  | ⟨1, _⟩ => show win0_5.index t (1 : Fin 2) * 256 + 1 * (x 1).val = (x 1).val; rw [e1]; omega

/-- Window 6's one block is its whole array: read through the block, an array is itself. -/
theorem read_whole6 (t : Fin cfg0.N) (A : S1x256.Idx → EReal) (x : S1x256.Idx) :
    ((cfg0.win 6).blk t).view.read (Elt Ideal) A x = A x := by
  have e0 : win0_6.index t (0 : Fin 2) = 0 := (idx_facts t).2.2.2.2.2.2.2.2.2.2.2.2.2.2.1
  have e1 : win0_6.index t (1 : Fin 2) = 0 := (idx_facts t).2.2.2.2.2.2.2.2.2.2.2.2.2.2.2.1
  show A (((cfg0.win 6).blk t).view.emb x) = A x
  refine congrArg A ?_
  funext a; apply Fin.ext
  match a with
  | ⟨0, _⟩ => show win0_6.index t (0 : Fin 2) * 1 + 1 * (x 0).val = (x 0).val; rw [e0]; omega
  | ⟨1, _⟩ => show win0_6.index t (1 : Fin 2) * 256 + 1 * (x 1).val = (x 1).val; rw [e1]; omega

/-- Window 7's one block is its whole array: read through the block, an array is itself. -/
theorem read_whole7 (t : Fin cfg0.N) (A : S256x256.Idx → EReal) (x : S256x256.Idx) :
    ((cfg0.win 7).blk t).view.read (Elt Ideal) A x = A x := by
  have e0 : win0_7.index t (0 : Fin 2) = 0 := (idx_facts t).2.2.2.2.2.2.2.2.2.2.2.2.2.2.2.2.1
  have e1 : win0_7.index t (1 : Fin 2) = 0 := (idx_facts t).2.2.2.2.2.2.2.2.2.2.2.2.2.2.2.2.2.1
  show A (((cfg0.win 7).blk t).view.emb x) = A x
  refine congrArg A ?_
  funext a; apply Fin.ext
  match a with
  | ⟨0, _⟩ => show win0_7.index t (0 : Fin 2) * 256 + 1 * (x 0).val = (x 0).val; rw [e0]; omega
  | ⟨1, _⟩ => show win0_7.index t (1 : Fin 2) * 256 + 1 * (x 1).val = (x 1).val; rw [e1]; omega

/-- Window 8's one block is its whole array: read through the block, an array is itself. -/
theorem read_whole8 (t : Fin cfg0.N) (A : S1x256.Idx → EReal) (x : S1x256.Idx) :
    ((cfg0.win 8).blk t).view.read (Elt Ideal) A x = A x := by
  have e0 : win0_8.index t (0 : Fin 2) = 0 := (idx_facts t).2.2.2.2.2.2.2.2.2.2.2.2.2.2.2.2.2.2.1
  have e1 : win0_8.index t (1 : Fin 2) = 0 := (idx_facts t).2.2.2.2.2.2.2.2.2.2.2.2.2.2.2.2.2.2.2.1
  show A (((cfg0.win 8).blk t).view.emb x) = A x
  refine congrArg A ?_
  funext a; apply Fin.ext
  match a with
  | ⟨0, _⟩ => show win0_8.index t (0 : Fin 2) * 1 + 1 * (x 0).val = (x 0).val; rw [e0]; omega
  | ⟨1, _⟩ => show win0_8.index t (1 : Fin 2) * 256 + 1 * (x 1).val = (x 1).val; rw [e1]; omega

/-- Window 9's one block is its whole array: read through the block, an array is itself. -/
theorem read_whole9 (t : Fin cfg0.N) (A : S256x3.Idx → EReal) (x : S256x3.Idx) :
    ((cfg0.win 9).blk t).view.read (Elt Ideal) A x = A x := by
  have e0 : win0_9.index t (0 : Fin 2) = 0 := (idx_facts t).2.2.2.2.2.2.2.2.2.2.2.2.2.2.2.2.2.2.2.2.1
  have e1 : win0_9.index t (1 : Fin 2) = 0 := (idx_facts t).2.2.2.2.2.2.2.2.2.2.2.2.2.2.2.2.2.2.2.2.2.1
  show A (((cfg0.win 9).blk t).view.emb x) = A x
  refine congrArg A ?_
  funext a; apply Fin.ext
  match a with
  | ⟨0, _⟩ => show win0_9.index t (0 : Fin 2) * 256 + 1 * (x 0).val = (x 0).val; rw [e0]; omega
  | ⟨1, _⟩ => show win0_9.index t (1 : Fin 2) * 3 + 1 * (x 1).val = (x 1).val; rw [e1]; omega

/-- Window 10's one block is its whole array: read through the block, an array is itself. -/
theorem read_whole10 (t : Fin cfg0.N) (A : S1x3.Idx → EReal) (x : S1x3.Idx) :
    ((cfg0.win 10).blk t).view.read (Elt Ideal) A x = A x := by
  have e0 : win0_10.index t (0 : Fin 2) = 0 := (idx_facts t).2.2.2.2.2.2.2.2.2.2.2.2.2.2.2.2.2.2.2.2.2.2.1
  have e1 : win0_10.index t (1 : Fin 2) = 0 := (idx_facts t).2.2.2.2.2.2.2.2.2.2.2.2.2.2.2.2.2.2.2.2.2.2.2
  show A (((cfg0.win 10).blk t).view.emb x) = A x
  refine congrArg A ?_
  funext a; apply Fin.ext
  match a with
  | ⟨0, _⟩ => show win0_10.index t (0 : Fin 2) * 1 + 1 * (x 0).val = (x 0).val; rw [e0]; omega
  | ⟨1, _⟩ => show win0_10.index t (1 : Fin 2) * 3 + 1 * (x 1).val = (x 1).val; rw [e1]; omega

/-- Window 0's block at point `t` is rows `2048 t … 2048 t + 2047` of its array. -/
theorem read_rows (t : Fin cfg0.N) (A : S131072x833.Idx → EReal) (p : Fin 2048) (k : Fin 833) :
    ((cfg0.win 0).blk t).view.read (Elt Ideal) A (ix2 p k)
      = A (ix2 (⟨2048 * t.val + p.val, by have := t_lt t; omega⟩ : Fin 131072) k) := by
  have e0 : win0_0.index t (0 : Fin 2) = t.val := (idx_facts t).1
  have e1 : win0_0.index t (1 : Fin 2) = 0 := (idx_facts t).2.1
  show A (((cfg0.win 0).blk t).view.emb (ix2 p k)) = _
  refine congrArg A ?_
  funext a; apply Fin.ext
  match a with
  | ⟨0, _⟩ => show win0_0.index t (0 : Fin 2) * 2048 + 1 * p.val = 2048 * t.val + p.val; rw [e0]; omega
  | ⟨1, _⟩ => show win0_0.index t (1 : Fin 2) * 833 + 1 * k.val = k.val; rw [e1]; omega

/-! ## What the body leaves, read at an entry -/

/-- The output buffer after the body at row `p`, column `j`: the network on row `p` of the staged input block, the
    parameters read off their staged arrays (each bias off its one row). -/
theorem outBlock_apply (x0 : Vec Ideal S2048x833 .f32) (x1 : Vec Ideal S833x256 .f32) (x2 : Vec Ideal S1x256 .f32)
    (x3 : Vec Ideal S256x256 .f32) (x4 : Vec Ideal S1x256 .f32) (x5 : Vec Ideal S256x256 .f32) (x6 : Vec Ideal S1x256 .f32)
    (x7 : Vec Ideal S256x256 .f32) (x8 : Vec Ideal S1x256 .f32) (x9 : Vec Ideal S256x3 .f32) (x10 : Vec Ideal S1x3 .f32)
    (p : Fin 2048) (j : Fin 3) :
    outBlock (F := Ideal) x0 x1 x2 x3 x4 x5 x6 x7 x8 x9 x10 (ix2 p j)
      = Cert.MlpSpec.mlpRow (fun k n => x1 (ix2 k n)) (fun n => x2 (ix2 0 n)) (fun k n => x3 (ix2 k n)) (fun n => x4 (ix2 0 n))
          (fun k n => x5 (ix2 k n)) (fun n => x6 (ix2 0 n)) (fun k n => x7 (ix2 k n)) (fun n => x8 (ix2 0 n))
          (fun k n => x9 (ix2 k n)) (fun n => x10 (ix2 0 n)) (fun k => x0 (ix2 p k)) j := by
  unfold outBlock
  rw [View.canon_unit_zero hz]
  simp only [View.ld_unit_zero (S := S2048x833) hz, View.ld_unit_zero (S := S833x256) hz, View.ld_unit_zero (S := S1x256) hz,
    View.ld_unit_zero (S := S256x256) hz, View.ld_unit_zero (S := S256x3) hz, View.ld_unit_zero (S := S1x3) hz]
  exact payload_apply x0 x1 x2 x3 x4 x5 x6 x7 x8 x9 x10 p j

/-- The network's value on a row depends on the parameters and the row only through their entries. -/
theorem mlpRow_congr {W0 W0' : Fin 833 → Fin 256 → EReal} {b0 b0' : Fin 256 → EReal} {W1 W1' : Fin 256 → Fin 256 → EReal}
    {b1 b1' : Fin 256 → EReal} {W2 W2' : Fin 256 → Fin 256 → EReal} {b2 b2' : Fin 256 → EReal}
    {W3 W3' : Fin 256 → Fin 256 → EReal} {b3 b3' : Fin 256 → EReal} {W4 W4' : Fin 256 → Fin 3 → EReal} {b4 b4' : Fin 3 → EReal}
    {x x' : Fin 833 → EReal} (j : Fin 3)
    (hW0 : ∀ k n, W0 k n = W0' k n) (hb0 : ∀ n, b0 n = b0' n) (hW1 : ∀ k n, W1 k n = W1' k n) (hb1 : ∀ n, b1 n = b1' n)
    (hW2 : ∀ k n, W2 k n = W2' k n) (hb2 : ∀ n, b2 n = b2' n) (hW3 : ∀ k n, W3 k n = W3' k n) (hb3 : ∀ n, b3 n = b3' n)
    (hW4 : ∀ k n, W4 k n = W4' k n) (hb4 : ∀ n, b4 n = b4' n) (hx : ∀ k, x k = x' k) :
    Cert.MlpSpec.mlpRow W0 b0 W1 b1 W2 b2 W3 b3 W4 b4 x j = Cert.MlpSpec.mlpRow W0' b0' W1' b1' W2' b2' W3' b3' W4' b4' x' j := by
  obtain rfl : W0 = W0' := funext fun k => funext fun n => hW0 k n
  obtain rfl : b0 = b0' := funext hb0
  obtain rfl : W1 = W1' := funext fun k => funext fun n => hW1 k n
  obtain rfl : b1 = b1' := funext hb1
  obtain rfl : W2 = W2' := funext fun k => funext fun n => hW2 k n
  obtain rfl : b2 = b2' := funext hb2
  obtain rfl : W3 = W3' := funext fun k => funext fun n => hW3 k n
  obtain rfl : b3 = b3' := funext hb3
  obtain rfl : W4 = W4' := funext fun k => funext fun n => hW4 k n
  obtain rfl : b4 = b4' := funext hb4
  obtain rfl : x = x' := funext hx
  rfl

/-- The row-wise network on whole arrays, read at row `r`, column `j`, the biases given as [1, N] arrays. -/
theorem mlp2d_apply (A0 : S131072x833.Idx → EReal) (A1 : S833x256.Idx → EReal) (A2 : S1x256.Idx → EReal)
    (A3 : S256x256.Idx → EReal) (A4 : S1x256.Idx → EReal) (A5 : S256x256.Idx → EReal) (A6 : S1x256.Idx → EReal)
    (A7 : S256x256.Idx → EReal) (A8 : S1x256.Idx → EReal) (A9 : S256x3.Idx → EReal) (A10 : S1x3.Idx → EReal)
    (r : Fin 131072) (j : Fin 3) :
    Cert.MlpSpec.mlp2d A0 A1 (fun i => A2 (ix2 (0 : Fin 1) (i 0))) A3 (fun i => A4 (ix2 (0 : Fin 1) (i 0))) A5
        (fun i => A6 (ix2 (0 : Fin 1) (i 0))) A7 (fun i => A8 (ix2 (0 : Fin 1) (i 0))) A9 (fun i => A10 (ix2 (0 : Fin 1) (i 0))) (ix2 r j)
      = Cert.MlpSpec.mlpRow (fun k n => A1 (ix2 k n)) (fun n => A2 (ix2 0 n)) (fun k n => A3 (ix2 k n)) (fun n => A4 (ix2 0 n))
          (fun k n => A5 (ix2 k n)) (fun n => A6 (ix2 0 n)) (fun k n => A7 (ix2 k n)) (fun n => A8 (ix2 0 n))
          (fun k n => A9 (ix2 k n)) (fun n => A10 (ix2 0 n)) (fun k => A0 (ix2 r k)) j := rfl

/-! ## The result's blocks tile its array -/

/-- An index of the result array is in point `t`'s block iff each coordinate is in the block's range on its axis. -/
theorem mem_blk (t : Fin cfg0.N) (i : S131072x3.Idx) :
    i ∈ ((cfg0.win 11).blk t).view.set ↔ ∀ a : Fin 2, win0_11.index t a * S2048x3.size a ≤ (i a).val ∧ (i a).val < win0_11.index t a * S2048x3.size a + S2048x3.size a := by
  show i ∈ ((View.whole main_v241).slice (win0_11.rect t)).set ↔ _
  rw [View.set_slice_whole, Rect.mem_set_unit]
  exact Iff.rfl

/-- Row `r` of the result is in the block of point `r / 2048`, which writes it back. -/
theorem cover (i : S131072x3.Idx) :
    ∃ t : Fin cfg0.N, (cfg0.win 11).flush t = true ∧ i ∈ ((cfg0.win 11).blk t).view.set := by
  have hi0 : (i 0).val < 131072 := (i 0).isLt
  have hi1 : (i 1).val < 3 := (i 1).isLt
  obtain ⟨t, ht⟩ : ∃ t : Fin cfg0.N, t.val = (i 0).val / 2048 :=
    ⟨⟨(i 0).val / 2048, Nat.lt_of_lt_of_eq (by omega : (i 0).val / 2048 < 64) N_0.symm⟩, rfl⟩
  have e0 : win0_11.index t (0 : Fin 2) = t.val := (idx_facts t).2.2.1
  have e1 : win0_11.index t (1 : Fin 2) = 0 := (idx_facts t).2.2.2.1
  refine ⟨t, flush0_11 t, ?_⟩
  rw [mem_blk]
  intro a
  match a with
  | ⟨0, _⟩ => show win0_11.index t (0 : Fin 2) * 2048 ≤ (i 0).val ∧ (i 0).val < win0_11.index t (0 : Fin 2) * 2048 + 2048; rw [e0, ht]; omega
  | ⟨1, _⟩ => show win0_11.index t (1 : Fin 2) * 3 ≤ (i 1).val ∧ (i 1).val < win0_11.index t (1 : Fin 2) * 3 + 3; rw [e1]; omega

/-! ## The closed form -/

variable (m : (ℓ : Loc nD τ sig) → Buf (Elt Ideal) ℓ)

/-- The network on every row of the input array as the region finds it, the weights and the [1, N] bias arrays as the
    region finds them: what the result array ends holding. -/
def G (c : Dev nD) : S131072x3.Idx → EReal :=
  Cert.MlpSpec.mlp2d (V m c main_v235) (V m c main_arg3) (fun i => V m c main_v236 (ix2 (0 : Fin 1) (i 0))) (V m c main_arg5)
    (fun i => V m c main_v237 (ix2 (0 : Fin 1) (i 0))) (V m c main_arg7) (fun i => V m c main_v238 (ix2 (0 : Fin 1) (i 0)))
    (V m c main_arg9) (fun i => V m c main_v239 (ix2 (0 : Fin 1) (i 0))) (V m c main_arg11) (fun i => V m c main_v240 (ix2 (0 : Fin 1) (i 0)))

/-- `G` read at row `r`, column `j`. -/
theorem G_apply (c : Dev nD) (r : Fin 131072) (j : Fin 3) :
    G m c (ix2 r j)
      = Cert.MlpSpec.mlpRow (fun k n => V m c main_arg3 (ix2 k n)) (fun n => V m c main_v236 (ix2 0 n))
          (fun k n => V m c main_arg5 (ix2 k n)) (fun n => V m c main_v237 (ix2 0 n))
          (fun k n => V m c main_arg7 (ix2 k n)) (fun n => V m c main_v238 (ix2 0 n))
          (fun k n => V m c main_arg9 (ix2 k n)) (fun n => V m c main_v239 (ix2 0 n))
          (fun k n => V m c main_arg11 (ix2 k n)) (fun n => V m c main_v240 (ix2 0 n))
          (fun k => V m c main_v235 (ix2 r k)) j :=
  mlp2d_apply (V m c main_v235) (V m c main_arg3) (V m c main_v236) (V m c main_arg5) (V m c main_v237) (V m c main_arg7) (V m c main_v238) (V m c main_arg9) (V m c main_v239) (V m c main_arg11) (V m c main_v240) r j

/-- What the body leaves at point `t`, read at row `p`, column `j` of the block: `G` at row `2048 t + p`. -/
theorem outBlock_at (c : Dev nD) (t : Fin cfg0.N) (p : Fin 2048) (j : Fin 3) :
    outBlock (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p j)
      = G m c (ix2 (⟨2048 * t.val + p.val, by have := t_lt t; omega⟩ : Fin 131072) j) := by
  refine (outBlock_apply (iblk m c 0 t) (iblk m c 1 t) (iblk m c 2 t) (iblk m c 3 t) (iblk m c 4 t) (iblk m c 5 t) (iblk m c 6 t) (iblk m c 7 t) (iblk m c 8 t) (iblk m c 9 t) (iblk m c 10 t) p j).trans ?_
  refine (mlpRow_congr j
    (fun k n => read_whole1 t (V m c main_arg3) (ix2 k n)) (fun n => read_whole2 t (V m c main_v236) (ix2 0 n))
    (fun k n => read_whole3 t (V m c main_arg5) (ix2 k n)) (fun n => read_whole4 t (V m c main_v237) (ix2 0 n))
    (fun k n => read_whole5 t (V m c main_arg7) (ix2 k n)) (fun n => read_whole6 t (V m c main_v238) (ix2 0 n))
    (fun k n => read_whole7 t (V m c main_arg9) (ix2 k n)) (fun n => read_whole8 t (V m c main_v239) (ix2 0 n))
    (fun k n => read_whole9 t (V m c main_arg11) (ix2 k n)) (fun n => read_whole10 t (V m c main_v240) (ix2 0 n))
    (fun k => read_rows t (V m c main_v235) p k)).trans ?_
  exact (G_apply m c _ j).symm

/-- What point `t` writes back is block `t` of `G`. -/
theorem cut_outBlock (c : Dev nD) (t : Fin cfg0.N) :
    (cfg0.win 11).cut (grid0.coords t) (outBlock (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t))
      = ((cfg0.win 11).blk t).view.read (Elt Ideal) (G m c) := by
  have e0 : win0_11.index t (0 : Fin 2) = t.val := (idx_facts t).2.2.1
  have e1 : win0_11.index t (1 : Fin 2) = 0 := (idx_facts t).2.2.2.1
  funext y
  obtain ⟨p, j, rfl⟩ : ∃ (p : Fin 2048) (j : Fin 3), y = ix2 p j := ⟨y 0, y 1, eq_ix2 y⟩
  show outBlock (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p j) = G m c (((cfg0.win 11).blk t).view.emb (ix2 p j))
  refine (outBlock_at m c t p j).trans (congrArg (G m c) ?_)
  funext a; apply Fin.ext
  match a with
  | ⟨0, _⟩ => show 2048 * t.val + p.val = win0_11.index t (0 : Fin 2) * 2048 + 1 * p.val; rw [e0]; omega
  | ⟨1, _⟩ => show j.val = win0_11.index t (1 : Fin 2) * 3 + 1 * j.val; rw [e1]; omega

/-! ## The result array after the region, and after the reshape that follows it -/

/-- What point `t` writes back to the result array is block `t` of `G`. -/
theorem flushed_eq (c : Dev nD) (t : Fin cfg0.N) :
    (dats (F := Ideal) m 0 c).flushed 11 t = ((cfg0.win 11).blk t).view.read (Elt Ideal) (G m c) := by
  show (cfg0.win 11).cut (grid0.coords t) ((dats (F := Ideal) m 0 c).after 11 t) = _
  rw [after_out]
  exact cut_outBlock m c t

/-- Every point writes its block back and the blocks cover the array: the result array ends holding `G`. -/
theorem final_out (c : Dev nD) : (dats (F := Ideal) m 0 c).arrAt 11 cfg0.N = G m c :=
  (dats (F := Ideal) m 0 c).arrAt_eq_of_cover 11 (G m c) (fun t _ => flushed_eq m c t) cover

/-- The one operation after the region regroups the rows of the result array as [2, 65536, 3]. -/
theorem tail_value (c : Dev nD) :
    Pipeline.afterTail₀ cfgs (dats (F := Ideal) m) 0 (V0 m) [hostOps1] c main_v242
      = shapeCast S2x65536x3 ((dats (F := Ideal) m 0 c).arrAt 11 cfg0.N) shapeCasts_S131072x3_S2x65536x3 := by
  unfold Pipeline.afterTail₀
  show StableHlo.after hostOps1 _ (Proc.devRef .tc main_v242) = _
  after_results
  rw [Pipeline.withArrays_arr spec0 launch0.win.arr_inj c _ _ 11]
  rfl

/-- The run of the kernel program: every weakly fair execution from zero counters terminates with the result buffer
    at `G` regrouped as [2, 65536, 3] and the thirteen arguments as launched. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v242) = shapeCast S2x65536x3 (G m c) shapeCasts_S131072x3_S2x65536x3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
      ⟨((h c).2 main_v242 (Pipeline.mem_restRefs_of main_v242 (by decide) (by decide))).trans
          ((tail_value m c).trans (by rw [final_out])),
        args_kept m r h c⟩)
    (run_main m ρ)

end Cert.KernelIdeal.MlpValue

end
-- ==== Proof.RefValue.lean ====
/-
  The reference program's value.

  After the stage that builds the [131072, 833] input array, the reference is twenty-four operations: five
  contractions (833 → 256 → 256 → 256 → 256 → 3), each followed by the addition of a bias row broadcast down the rows,
  and, after each of the first four, the maximum against a zero array; a final regrouping of the rows gives the
  [2, 65536, 3] result.  Read at a row `r` and a column `n`, a contraction is the sum over the previous stage's row `r`
  against column `n` of the weight matrix, the broadcast bias is the bias at `n`, and the maximum is taken entrywise:
  that is one dense layer (and rectifier) of the row-wise network applied to row `r` of the previous stage.  Chaining
  the five layers gives the network on row `r` of the input stage, which stays an opaque array throughout.
-/
import proofs.«145896_j91079076479405_1_alg».proof.Proof.RefRead
import proofs.«145896_j91079076479405_1_alg».proof.Proof.MlpSpec

noncomputable section

namespace Cert.ReferenceIdeal.RefValue

open Cert.ReferenceIdeal Cert.ReferenceIdeal.Gen Cert.ReferenceIdeal.ReadP Cert.MlpSpec
open Idealize.ShloMosaic Idealize.ShloMosaic.ValueIdx

/-- Layer 1 of the reference (a contraction over the 833 columns of the previous stage, the bias row added, the
    maximum against zero), read at row `r`, column `n`: the rectified dense layer applied to row `r` of the previous stage. -/
theorem layer0 (x0 : (⟨S2x64x256x256, .f32⟩ : BufTy).Contents (Elt Ideal)) (x1 : (⟨S2x65536x2, .f32⟩ : BufTy).Contents (Elt Ideal)) (x2 : (⟨S2x65536x1, .f32⟩ : BufTy).Contents (Elt Ideal)) (x3 : (⟨S833x256, .f32⟩ : BufTy).Contents (Elt Ideal)) (x4 : (⟨S256, .f32⟩ : BufTy).Contents (Elt Ideal)) (r : Fin 131072) (n : Fin 256) :
    val_main_v243 (F := Ideal) x0 x1 x2 x3 x4 (ix2 r n)
      = relu (dense (fun k j => x3 (ix2 k j)) (fun j => x4 (ix1 j)) (fun k => val_main_v238 (F := Ideal) x0 x1 x2 (ix2 r k))) n := by
  rw [val_main_v243_apply, val_main_v242_apply, val_main_v239_apply, val_main_v241_apply, val_main_v240_apply,
    val_main_call25_v0_apply, val_main_call25_cst_apply]
  have hl : ∀ k : Fin 833, lidx_main_v239 (ix2 r n) k = ix2 r k := fun k => funext fun a => Fin.ext (by
    match a with | ⟨0, _⟩ => rfl | ⟨1, _⟩ => rfl)
  have hr : ∀ k : Fin 833, ridx_main_v239 (ix2 r n) k = ix2 k n := fun k => funext fun a => Fin.ext (by
    match a with | ⟨0, _⟩ => rfl | ⟨1, _⟩ => rfl)
  have hb : idx_main_v240 (idx_main_v241 (ix2 r n)) = ix1 n := funext fun a => Fin.ext (by
    match a with | ⟨0, _⟩ => rfl)
  simp only [hl, hr, hb, Ideal.ofBits_def, Ideal.ofBits_zero_f32, Ideal.addf_def, Ideal.maximumf_def, relu, dense]

/-- Layer 2 of the reference (a contraction over the 256 columns of the previous stage, the bias row added, the
    maximum against zero), read at row `r`, column `n`: the rectified dense layer applied to row `r` of the previous stage. -/
theorem layer1 (x0 : (⟨S2x64x256x256, .f32⟩ : BufTy).Contents (Elt Ideal)) (x1 : (⟨S2x65536x2, .f32⟩ : BufTy).Contents (Elt Ideal)) (x2 : (⟨S2x65536x1, .f32⟩ : BufTy).Contents (Elt Ideal)) (x3 : (⟨S833x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (r : Fin 131072) (n : Fin 256) :
    val_main_v248 (F := Ideal) x0 x1 x2 x3 x4 x5 x6 (ix2 r n)
      = relu (dense (fun k j => x5 (ix2 k j)) (fun j => x6 (ix1 j)) (fun k => val_main_v243 (F := Ideal) x0 x1 x2 x3 x4 (ix2 r k))) n := by
  rw [val_main_v248_apply, val_main_v247_apply, val_main_v244_apply, val_main_v246_apply, val_main_v245_apply,
    val_main_call26_v0_apply, val_main_call26_cst_apply]
  have hl : ∀ k : Fin 256, lidx_main_v244 (ix2 r n) k = ix2 r k := fun k => funext fun a => Fin.ext (by
    match a with | ⟨0, _⟩ => rfl | ⟨1, _⟩ => rfl)
  have hr : ∀ k : Fin 256, ridx_main_v244 (ix2 r n) k = ix2 k n := fun k => funext fun a => Fin.ext (by
    match a with | ⟨0, _⟩ => rfl | ⟨1, _⟩ => rfl)
  have hb : idx_main_v245 (idx_main_v246 (ix2 r n)) = ix1 n := funext fun a => Fin.ext (by
    match a with | ⟨0, _⟩ => rfl)
  simp only [hl, hr, hb, Ideal.ofBits_def, Ideal.ofBits_zero_f32, Ideal.addf_def, Ideal.maximumf_def, relu, dense]

/-- Layer 3 of the reference (a contraction over the 256 columns of the previous stage, the bias row added, the
    maximum against zero), read at row `r`, column `n`: the rectified dense layer applied to row `r` of the previous stage. -/
theorem layer2 (x0 : (⟨S2x64x256x256, .f32⟩ : BufTy).Contents (Elt Ideal)) (x1 : (⟨S2x65536x2, .f32⟩ : BufTy).Contents (Elt Ideal)) (x2 : (⟨S2x65536x1, .f32⟩ : BufTy).Contents (Elt Ideal)) (x3 : (⟨S833x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (r : Fin 131072) (n : Fin 256) :
    val_main_v253 (F := Ideal) x0 x1 x2 x3 x4 x5 x6 x7 x8 (ix2 r n)
      = relu (dense (fun k j => x7 (ix2 k j)) (fun j => x8 (ix1 j)) (fun k => val_main_v248 (F := Ideal) x0 x1 x2 x3 x4 x5 x6 (ix2 r k))) n := by
  rw [val_main_v253_apply, val_main_v252_apply, val_main_v249_apply, val_main_v251_apply, val_main_v250_apply,
    val_main_call27_v0_apply, val_main_call27_cst_apply]
  have hl : ∀ k : Fin 256, lidx_main_v249 (ix2 r n) k = ix2 r k := fun k => funext fun a => Fin.ext (by
    match a with | ⟨0, _⟩ => rfl | ⟨1, _⟩ => rfl)
  have hr : ∀ k : Fin 256, ridx_main_v249 (ix2 r n) k = ix2 k n := fun k => funext fun a => Fin.ext (by
    match a with | ⟨0, _⟩ => rfl | ⟨1, _⟩ => rfl)
  have hb : idx_main_v250 (idx_main_v251 (ix2 r n)) = ix1 n := funext fun a => Fin.ext (by
    match a with | ⟨0, _⟩ => rfl)
  simp only [hl, hr, hb, Ideal.ofBits_def, Ideal.ofBits_zero_f32, Ideal.addf_def, Ideal.maximumf_def, relu, dense]

/-- Layer 4 of the reference (a contraction over the 256 columns of the previous stage, the bias row added, the
    maximum against zero), read at row `r`, column `n`: the rectified dense layer applied to row `r` of the previous stage. -/
theorem layer3 (x0 : (⟨S2x64x256x256, .f32⟩ : BufTy).Contents (Elt Ideal)) (x1 : (⟨S2x65536x2, .f32⟩ : BufTy).Contents (Elt Ideal)) (x2 : (⟨S2x65536x1, .f32⟩ : BufTy).Contents (Elt Ideal)) (x3 : (⟨S833x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (r : Fin 131072) (n : Fin 256) :
    val_main_v258 (F := Ideal) x0 x1 x2 x3 x4 x5 x6 x7 x8 x9 x10 (ix2 r n)
      = relu (dense (fun k j => x9 (ix2 k j)) (fun j => x10 (ix1 j)) (fun k => val_main_v253 (F := Ideal) x0 x1 x2 x3 x4 x5 x6 x7 x8 (ix2 r k))) n := by
  rw [val_main_v258_apply, val_main_v257_apply, val_main_v254_apply, val_main_v256_apply, val_main_v255_apply,
    val_main_call28_v0_apply, val_main_call28_cst_apply]
  have hl : ∀ k : Fin 256, lidx_main_v254 (ix2 r n) k = ix2 r k := fun k => funext fun a => Fin.ext (by
    match a with | ⟨0, _⟩ => rfl | ⟨1, _⟩ => rfl)
  have hr : ∀ k : Fin 256, ridx_main_v254 (ix2 r n) k = ix2 k n := fun k => funext fun a => Fin.ext (by
    match a with | ⟨0, _⟩ => rfl | ⟨1, _⟩ => rfl)
  have hb : idx_main_v255 (idx_main_v256 (ix2 r n)) = ix1 n := funext fun a => Fin.ext (by
    match a with | ⟨0, _⟩ => rfl)
  simp only [hl, hr, hb, Ideal.ofBits_def, Ideal.ofBits_zero_f32, Ideal.addf_def, Ideal.maximumf_def, relu, dense]

/-- The last layer of the reference (no rectifier), read at row `r`, column `j`. -/
theorem layer4 (x0 : (⟨S2x64x256x256, .f32⟩ : BufTy).Contents (Elt Ideal)) (x1 : (⟨S2x65536x2, .f32⟩ : BufTy).Contents (Elt Ideal)) (x2 : (⟨S2x65536x1, .f32⟩ : BufTy).Contents (Elt Ideal)) (x3 : (⟨S833x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x3, .f32⟩ : BufTy).Contents (Elt Ideal)) (x12 : (⟨S3, .f32⟩ : BufTy).Contents (Elt Ideal)) (r : Fin 131072) (j : Fin 3) :
    val_main_v262 (F := Ideal) x0 x1 x2 x3 x4 x5 x6 x7 x8 x9 x10 x11 x12 (ix2 r j)
      = dense (fun k j => x11 (ix2 k j)) (fun j => x12 (ix1 j)) (fun k => val_main_v258 (F := Ideal) x0 x1 x2 x3 x4 x5 x6 x7 x8 x9 x10 (ix2 r k)) j := by
  rw [val_main_v262_apply, val_main_v259_apply, val_main_v261_apply, val_main_v260_apply]
  have hl : ∀ k : Fin 256, lidx_main_v259 (ix2 r j) k = ix2 r k := fun k => funext fun a => Fin.ext (by
    match a with | ⟨0, _⟩ => rfl | ⟨1, _⟩ => rfl)
  have hr : ∀ k : Fin 256, ridx_main_v259 (ix2 r j) k = ix2 k j := fun k => funext fun a => Fin.ext (by
    match a with | ⟨0, _⟩ => rfl | ⟨1, _⟩ => rfl)
  have hb : idx_main_v260 (idx_main_v261 (ix2 r j)) = ix1 j := funext fun a => Fin.ext (by
    match a with | ⟨0, _⟩ => rfl)
  simp only [hl, hr, hb, Ideal.addf_def, dense]

/-- The reference's result: the row-wise network applied to the reference's [131072, 833] stage, regrouped as
    [2, 65536, 3]. -/
theorem ref_value (x0 : (⟨S2x64x256x256, .f32⟩ : BufTy).Contents (Elt Ideal)) (x1 : (⟨S2x65536x2, .f32⟩ : BufTy).Contents (Elt Ideal)) (x2 : (⟨S2x65536x1, .f32⟩ : BufTy).Contents (Elt Ideal)) (x3 : (⟨S833x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x3, .f32⟩ : BufTy).Contents (Elt Ideal)) (x12 : (⟨S3, .f32⟩ : BufTy).Contents (Elt Ideal)) :
    val_main_v263 (F := Ideal) x0 x1 x2 x3 x4 x5 x6 x7 x8 x9 x10 x11 x12
      = shapeCast S2x65536x3 (mlp2d (val_main_v238 (F := Ideal) x0 x1 x2) x3 x4 x5 x6 x7 x8 x9 x10 x11 x12) shapeCasts_S131072x3_S2x65536x3 := by
  unfold val_main_v263
  refine congrArg (fun z => shapeCast S2x65536x3 z shapeCasts_S131072x3_S2x65536x3) ?_
  funext i
  obtain ⟨r, j, rfl⟩ : ∃ (r : Fin 131072) (j : Fin 3), i = ix2 r j := ⟨i 0, i 1, eq_ix2 i⟩
  rw [layer4]
  simp only [layer3, layer2, layer1, layer0]
  generalize val_main_v238 (F := Ideal) x0 x1 x2 = X
  rfl

end Cert.ReferenceIdeal.RefValue

end
-- ==== Proof.RefArgs.lean ====
/-
  The reference program never writes its arguments.

  The reference's @main is a straight line of 506 host operations.  Each operation writes exactly one buffer, its own
  result, and determines it (none leaves a buffer's contents open).  The thirteen arguments are the references of
  index 0 … 12, and every result has a larger index; so no operation writes an argument, and after the whole line
  each argument's buffer holds what the launch put there.
-/
import proofs.«145896_j91079076479405_1_alg».proof.Proof.RefOps
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Every operation determines the buffer it writes. -/
theorem ops_fresh : (ops : List (HloOp τ sig (Elt F))).Forall fun op => op.fresh = ∅ :=
  ⟨
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- Each operation writes one buffer, its result, and every result's index is at least 13. -/
theorem ops_writes : (ops : List (HloOp τ sig (Elt F))).Forall fun op =>
    ∃ y : Ref sig .tc, op.writes = {Proc.devRef .tc y} ∧ 13 ≤ y.idx.val :=
  ⟨
    ⟨_, unary_writes .., by decide⟩, ⟨_, reshape_writes .., by decide⟩, ⟨_, unary_writes .., by decide⟩, ⟨_, reshape_writes .., by decide⟩,
    ⟨_, nullary_writes .., by decide⟩, ⟨_, binary_writes .., by decide⟩, ⟨_, nullary_writes .., by decide⟩, ⟨_, binary_writes .., by decide⟩,
    ⟨_, unary_writes .., by decide⟩, ⟨_, binary_writes .., by decide⟩, ⟨_, nullary_writes .., by decide⟩, ⟨_, unary_writes .., by decide⟩,
    ⟨_, binary_writes .., by decide⟩, ⟨_, unary_writes .., by decide⟩, ⟨_, reshape_writes .., by decide⟩, ⟨_, nullary_writes .., by decide⟩,
    ⟨_, binary_writes .., by decide⟩, ⟨_, nullary_writes .., by decide⟩, ⟨_, binary_writes .., by decide⟩, ⟨_, unary_writes .., by decide⟩,
    ⟨_, binary_writes .., by decide⟩, ⟨_, nullary_writes .., by decide⟩, ⟨_, unary_writes .., by decide⟩, ⟨_, binary_writes .., by decide⟩,
    ⟨_, unary_writes .., by decide⟩, ⟨_, unary_writes .., by decide⟩, ⟨_, binary_writes .., by decide⟩, ⟨_, nullary_writes .., by decide⟩,
    ⟨_, nullary_writes .., by decide⟩, ⟨_, unary_writes .., by decide⟩, ⟨_, unary_writes .., by decide⟩, ⟨_, binary_writes .., by decide⟩,
    ⟨_, unary_writes .., by decide⟩, ⟨_, unary_writes .., by decide⟩, ⟨_, binary_writes .., by decide⟩, ⟨_, unary_writes .., by decide⟩,
    ⟨_, reshape_writes .., by decide⟩, ⟨_, nullary_writes .., by decide⟩, ⟨_, unary_writes .., by decide⟩, ⟨_, binary_writes .., by decide⟩,
    ⟨_, nullary_writes .., by decide⟩, ⟨_, unary_writes .., by decide⟩, ⟨_, binary_writes .., by decide⟩, ⟨_, nullary_writes .., by decide⟩,
    ⟨_, unary_writes .., by decide⟩, ⟨_, binary_writes .., by decide⟩, ⟨_, nullary_writes .., by decide⟩, ⟨_, unary_writes .., by decide⟩,
    ⟨_, binary_writes .., by decide⟩, ⟨_, unary_writes .., by decide⟩, ⟨_, nullary_writes .., by decide⟩, ⟨_, nullary_writes .., by decide⟩,
    ⟨_, unary_writes .., by decide⟩, ⟨_, unary_writes .., by decide⟩, ⟨_, binary_writes .., by decide⟩, ⟨_, unary_writes .., by decide⟩,
    ⟨_, unary_writes .., by decide⟩, ⟨_, binary_writes .., by decide⟩, ⟨_, unary_writes .., by decide⟩, ⟨_, unary_writes .., by decide⟩,
    ⟨_, reshape_writes .., by decide⟩, ⟨_, nullary_writes .., by decide⟩, ⟨_, unary_writes .., by decide⟩, ⟨_, binary_writes .., by decide⟩,
    ⟨_, nullary_writes .., by decide⟩, ⟨_, unary_writes .., by decide⟩, ⟨_, binary_writes .., by decide⟩, ⟨_, nullary_writes .., by decide⟩,
    ⟨_, unary_writes .., by decide⟩, ⟨_, binary_writes .., by decide⟩, ⟨_, nullary_writes .., by decide⟩, ⟨_, unary_writes .., by decide⟩,
    ⟨_, binary_writes .., by decide⟩, ⟨_, unary_writes .., by decide⟩, ⟨_, nullary_writes .., by decide⟩, ⟨_, nullary_writes .., by decide⟩,
    ⟨_, unary_writes .., by decide⟩, ⟨_, unary_writes .., by decide⟩, ⟨_, binary_writes .., by decide⟩, ⟨_, unary_writes .., by decide⟩,
    ⟨_, unary_writes .., by decide⟩, ⟨_, binary_writes .., by decide⟩, ⟨_, unary_writes .., by decide⟩, ⟨_, nullary_writes .., by decide⟩,
    ⟨_, unary_writes .., by decide⟩, ⟨_, binary_writes .., by decide⟩, ⟨_, binary_writes .., by decide⟩, ⟨_, reshape_writes .., by decide⟩,
    ⟨_, unary_writes .., by decide⟩, ⟨_, nullary_writes .., by decide⟩, ⟨_, unary_writes .., by decide⟩, ⟨_, binary_writes .., by decide⟩,
    ⟨_, nullary_writes .., by decide⟩, ⟨_, unary_writes .., by decide⟩, ⟨_, binary_writes .., by decide⟩, ⟨_, ternary_writes .., by decide⟩,
    ⟨_, reshape_writes .., by decide⟩, ⟨_, nullary_writes .., by decide⟩, ⟨_, nullary_writes .., by decide⟩, ⟨_, unary_writes .., by decide⟩,
    ⟨_, binary_writes .., by decide⟩, ⟨_, unary_writes .., by decide⟩, ⟨_, unary_writes .., by decide⟩, ⟨_, binary_writes .., by decide⟩,
    ⟨_, binary_writes .., by decide⟩, ⟨_, nullary_writes .., by decide⟩, ⟨_, binary_writes .., by decide⟩, ⟨_, binary_writes .., by decide⟩,
    ⟨_, unary_writes .., by decide⟩, ⟨_, nullary_writes .., by decide⟩, ⟨_, unary_writes .., by decide⟩, ⟨_, ternary_writes .., by decide⟩,
    ⟨_, unary_writes .., by decide⟩, ⟨_, unary_writes .., by decide⟩, ⟨_, reshape_writes .., by decide⟩, ⟨_, nullary_writes .., by decide⟩,
    ⟨_, binary_writes .., by decide⟩, ⟨_, nullary_writes .., by decide⟩, ⟨_, binary_writes .., by decide⟩, ⟨_, unary_writes .., by decide⟩,
    ⟨_, binary_writes .., by decide⟩, ⟨_, nullary_writes .., by decide⟩, ⟨_, unary_writes .., by decide⟩, ⟨_, binary_writes .., by decide⟩,
    ⟨_, unary_writes .., by decide⟩, ⟨_, reshape_writes .., by decide⟩, ⟨_, nullary_writes .., by decide⟩, ⟨_, binary_writes .., by decide⟩,
    ⟨_, nullary_writes .., by decide⟩, ⟨_, binary_writes .., by decide⟩, ⟨_, unary_writes .., by decide⟩, ⟨_, binary_writes .., by decide⟩,
    ⟨_, nullary_writes .., by decide⟩, ⟨_, unary_writes .., by decide⟩, ⟨_, binary_writes .., by decide⟩, ⟨_, unary_writes .., by decide⟩,
    ⟨_, unary_writes .., by decide⟩, ⟨_, binary_writes .., by decide⟩, ⟨_, nullary_writes .., by decide⟩, ⟨_, nullary_writes .., by decide⟩,
    ⟨_, unary_writes .., by decide⟩, ⟨_, unary_writes .., by decide⟩, ⟨_, binary_writes .., by decide⟩, ⟨_, unary_writes .., by decide⟩,
    ⟨_, unary_writes .., by decide⟩, ⟨_, binary_writes .., by decide⟩, ⟨_, unary_writes .., by decide⟩, ⟨_, reshape_writes .., by decide⟩,
    ⟨_, nullary_writes .., by decide⟩, ⟨_, unary_writes .., by decide⟩, ⟨_, binary_writes .., by decide⟩, ⟨_, nullary_writes .., by decide⟩,
    ⟨_, unary_writes .., by decide⟩, ⟨_, binary_writes .., by decide⟩, ⟨_, nullary_writes .., by decide⟩, ⟨_, unary_writes .., by decide⟩,
    ⟨_, binary_writes .., by decide⟩, ⟨_, nullary_writes .., by decide⟩, ⟨_, unary_writes .., by decide⟩, ⟨_, binary_writes .., by decide⟩,
    ⟨_, unary_writes .., by decide⟩, ⟨_, nullary_writes .., by decide⟩, ⟨_, nullary_writes .., by decide⟩, ⟨_, unary_writes .., by decide⟩,
    ⟨_, unary_writes .., by decide⟩, ⟨_, binary_writes .., by decide⟩, ⟨_, unary_writes .., by decide⟩, ⟨_, unary_writes .., by decide⟩,
    ⟨_, binary_writes .., by decide⟩, ⟨_, unary_writes .., by decide⟩, ⟨_, unary_writes .., by decide⟩, ⟨_, reshape_writes .., by decide⟩,
    ⟨_, nullary_writes .., by decide⟩, ⟨_, unary_writes .., by decide⟩, ⟨_, binary_writes .., by decide⟩, ⟨_, nullary_writes .., by decide⟩,
    ⟨_, unary_writes .., by decide⟩, ⟨_, binary_writes .., by decide⟩, ⟨_, nullary_writes .., by decide⟩, ⟨_, unary_writes .., by decide⟩,
    ⟨_, binary_writes .., by decide⟩, ⟨_, nullary_writes .., by decide⟩, ⟨_, unary_writes .., by decide⟩, ⟨_, binary_writes .., by decide⟩,
    ⟨_, unary_writes .., by decide⟩, ⟨_, nullary_writes .., by decide⟩, ⟨_, nullary_writes .., by decide⟩, ⟨_, unary_writes .., by decide⟩,
    ⟨_, unary_writes .., by decide⟩, ⟨_, binary_writes .., by decide⟩, ⟨_, unary_writes .., by decide⟩, ⟨_, unary_writes .., by decide⟩,
    ⟨_, binary_writes .., by decide⟩, ⟨_, unary_writes .., by decide⟩, ⟨_, nullary_writes .., by decide⟩, ⟨_, unary_writes .., by decide⟩,
    ⟨_, binary_writes .., by decide⟩, ⟨_, binary_writes .., by decide⟩, ⟨_, reshape_writes .., by decide⟩, ⟨_, unary_writes .., by decide⟩,
    ⟨_, nullary_writes .., by decide⟩, ⟨_, unary_writes .., by decide⟩, ⟨_, binary_writes .., by decide⟩, ⟨_, nullary_writes .., by decide⟩,
    ⟨_, unary_writes .., by decide⟩, ⟨_, binary_writes .., by decide⟩, ⟨_, ternary_writes .., by decide⟩, ⟨_, reshape_writes .., by decide⟩,
    ⟨_, nullary_writes .., by decide⟩, ⟨_, nullary_writes .., by decide⟩, ⟨_, unary_writes .., by decide⟩, ⟨_, binary_writes .., by decide⟩,
    ⟨_, unary_writes .., by decide⟩, ⟨_, unary_writes .., by decide⟩, ⟨_, binary_writes .., by decide⟩, ⟨_, binary_writes .., by decide⟩,
    ⟨_, nullary_writes .., by decide⟩, ⟨_, binary_writes .., by decide⟩, ⟨_, binary_writes .., by decide⟩, ⟨_, unary_writes .., by decide⟩,
    ⟨_, nullary_writes .., by decide⟩, ⟨_, unary_writes .., by decide⟩, ⟨_, ternary_writes .., by decide⟩, ⟨_, unary_writes .., by decide⟩,
    ⟨_, unary_writes .., by decide⟩, ⟨_, reshape_writes .., by decide⟩, ⟨_, nullary_writes .., by decide⟩, ⟨_, binary_writes .., by decide⟩,
    ⟨_, nullary_writes .., by decide⟩, ⟨_, binary_writes .., by decide⟩, ⟨_, unary_writes .., by decide⟩, ⟨_, binary_writes .., by decide⟩,
    ⟨_, nullary_writes .., by decide⟩, ⟨_, unary_writes .., by decide⟩, ⟨_, binary_writes .., by decide⟩, ⟨_, unary_writes .., by decide⟩,
    ⟨_, reshape_writes .., by decide⟩, ⟨_, nullary_writes .., by decide⟩, ⟨_, binary_writes .., by decide⟩, ⟨_, nullary_writes .., by decide⟩,
    ⟨_, binary_writes .., by decide⟩, ⟨_, unary_writes .., by decide⟩, ⟨_, binary_writes .., by decide⟩, ⟨_, nullary_writes .., by decide⟩,
    ⟨_, unary_writes .., by decide⟩, ⟨_, binary_writes .., by decide⟩, ⟨_, unary_writes .., by decide⟩, ⟨_, unary_writes .., by decide⟩,
    ⟨_, binary_writes .., by decide⟩, ⟨_, nullary_writes .., by decide⟩, ⟨_, nullary_writes .., by decide⟩, ⟨_, unary_writes .., by decide⟩,
    ⟨_, unary_writes .., by decide⟩, ⟨_, binary_writes .., by decide⟩, ⟨_, unary_writes .., by decide⟩, ⟨_, unary_writes .., by decide⟩,
    ⟨_, binary_writes .., by decide⟩, ⟨_, unary_writes .., by decide⟩, ⟨_, reshape_writes .., by decide⟩, ⟨_, nullary_writes .., by decide⟩,
    ⟨_, unary_writes .., by decide⟩, ⟨_, binary_writes .., by decide⟩, ⟨_, nullary_writes .., by decide⟩, ⟨_, unary_writes .., by decide⟩,
    ⟨_, binary_writes .., by decide⟩, ⟨_, nullary_writes .., by decide⟩, ⟨_, unary_writes .., by decide⟩, ⟨_, binary_writes .., by decide⟩,
    ⟨_, nullary_writes .., by decide⟩, ⟨_, unary_writes .., by decide⟩, ⟨_, binary_writes .., by decide⟩, ⟨_, unary_writes .., by decide⟩,
    ⟨_, nullary_writes .., by decide⟩, ⟨_, nullary_writes .., by decide⟩, ⟨_, unary_writes .., by decide⟩, ⟨_, unary_writes .., by decide⟩,
    ⟨_, binary_writes .., by decide⟩, ⟨_, unary_writes .., by decide⟩, ⟨_, unary_writes .., by decide⟩, ⟨_, binary_writes .., by decide⟩,
    ⟨_, unary_writes .., by decide⟩, ⟨_, unary_writes .., by decide⟩, ⟨_, reshape_writes .., by decide⟩, ⟨_, nullary_writes .., by decide⟩,
    ⟨_, unary_writes .., by decide⟩, ⟨_, binary_writes .., by decide⟩, ⟨_, nullary_writes .., by decide⟩, ⟨_, unary_writes .., by decide⟩,
    ⟨_, binary_writes .., by decide⟩, ⟨_, nullary_writes .., by decide⟩, ⟨_, unary_writes .., by decide⟩, ⟨_, binary_writes .., by decide⟩,
    ⟨_, nullary_writes .., by decide⟩, ⟨_, unary_writes .., by decide⟩, ⟨_, binary_writes .., by decide⟩, ⟨_, unary_writes .., by decide⟩,
    ⟨_, nullary_writes .., by decide⟩, ⟨_, nullary_writes .., by decide⟩, ⟨_, unary_writes .., by decide⟩, ⟨_, unary_writes .., by decide⟩,
    ⟨_, binary_writes .., by decide⟩, ⟨_, unary_writes .., by decide⟩, ⟨_, unary_writes .., by decide⟩, ⟨_, binary_writes .., by decide⟩,
    ⟨_, unary_writes .., by decide⟩, ⟨_, nullary_writes .., by decide⟩, ⟨_, unary_writes .., by decide⟩, ⟨_, binary_writes .., by decide⟩,
    ⟨_, binary_writes .., by decide⟩, ⟨_, reshape_writes .., by decide⟩, ⟨_, unary_writes .., by decide⟩, ⟨_, nullary_writes .., by decide⟩,
    ⟨_, unary_writes .., by decide⟩, ⟨_, binary_writes .., by decide⟩, ⟨_, nullary_writes .., by decide⟩, ⟨_, unary_writes .., by decide⟩,
    ⟨_, binary_writes .., by decide⟩, ⟨_, ternary_writes .., by decide⟩, ⟨_, reshape_writes .., by decide⟩, ⟨_, nullary_writes .., by decide⟩,
    ⟨_, nullary_writes .., by decide⟩, ⟨_, unary_writes .., by decide⟩, ⟨_, binary_writes .., by decide⟩, ⟨_, unary_writes .., by decide⟩,
    ⟨_, unary_writes .., by decide⟩, ⟨_, binary_writes .., by decide⟩, ⟨_, binary_writes .., by decide⟩, ⟨_, nullary_writes .., by decide⟩,
    ⟨_, binary_writes .., by decide⟩, ⟨_, binary_writes .., by decide⟩, ⟨_, unary_writes .., by decide⟩, ⟨_, nullary_writes .., by decide⟩,
    ⟨_, unary_writes .., by decide⟩, ⟨_, ternary_writes .., by decide⟩, ⟨_, unary_writes .., by decide⟩, ⟨_, unary_writes .., by decide⟩,
    ⟨_, reshape_writes .., by decide⟩, ⟨_, nullary_writes .., by decide⟩, ⟨_, binary_writes .., by decide⟩, ⟨_, nullary_writes .., by decide⟩,
    ⟨_, binary_writes .., by decide⟩, ⟨_, unary_writes .., by decide⟩, ⟨_, binary_writes .., by decide⟩, ⟨_, nullary_writes .., by decide⟩,
    ⟨_, unary_writes .., by decide⟩, ⟨_, binary_writes .., by decide⟩, ⟨_, unary_writes .., by decide⟩, ⟨_, reshape_writes .., by decide⟩,
    ⟨_, nullary_writes .., by decide⟩, ⟨_, binary_writes .., by decide⟩, ⟨_, nullary_writes .., by decide⟩, ⟨_, binary_writes .., by decide⟩,
    ⟨_, unary_writes .., by decide⟩, ⟨_, binary_writes .., by decide⟩, ⟨_, nullary_writes .., by decide⟩, ⟨_, unary_writes .., by decide⟩,
    ⟨_, binary_writes .., by decide⟩, ⟨_, unary_writes .., by decide⟩, ⟨_, unary_writes .., by decide⟩, ⟨_, binary_writes .., by decide⟩,
    ⟨_, nullary_writes .., by decide⟩, ⟨_, nullary_writes .., by decide⟩, ⟨_, unary_writes .., by decide⟩, ⟨_, unary_writes .., by decide⟩,
    ⟨_, binary_writes .., by decide⟩, ⟨_, unary_writes .., by decide⟩, ⟨_, unary_writes .., by decide⟩, ⟨_, binary_writes .., by decide⟩,
    ⟨_, unary_writes .., by decide⟩, ⟨_, reshape_writes .., by decide⟩, ⟨_, nullary_writes .., by decide⟩, ⟨_, unary_writes .., by decide⟩,
    ⟨_, binary_writes .., by decide⟩, ⟨_, nullary_writes .., by decide⟩, ⟨_, unary_writes .., by decide⟩, ⟨_, binary_writes .., by decide⟩,
    ⟨_, nullary_writes .., by decide⟩, ⟨_, unary_writes .., by decide⟩, ⟨_, binary_writes .., by decide⟩, ⟨_, nullary_writes .., by decide⟩,
    ⟨_, unary_writes .., by decide⟩, ⟨_, binary_writes .., by decide⟩, ⟨_, unary_writes .., by decide⟩, ⟨_, nullary_writes .., by decide⟩,
    ⟨_, nullary_writes .., by decide⟩, ⟨_, unary_writes .., by decide⟩, ⟨_, unary_writes .., by decide⟩, ⟨_, binary_writes .., by decide⟩,
    ⟨_, unary_writes .., by decide⟩, ⟨_, unary_writes .., by decide⟩, ⟨_, binary_writes .., by decide⟩, ⟨_, unary_writes .., by decide⟩,
    ⟨_, unary_writes .., by decide⟩, ⟨_, reshape_writes .., by decide⟩, ⟨_, nullary_writes .., by decide⟩, ⟨_, unary_writes .., by decide⟩,
    ⟨_, binary_writes .., by decide⟩, ⟨_, nullary_writes .., by decide⟩, ⟨_, unary_writes .., by decide⟩, ⟨_, binary_writes .., by decide⟩,
    ⟨_, nullary_writes .., by decide⟩, ⟨_, unary_writes .., by decide⟩, ⟨_, binary_writes .., by decide⟩, ⟨_, nullary_writes .., by decide⟩,
    ⟨_, unary_writes .., by decide⟩, ⟨_, binary_writes .., by decide⟩, ⟨_, unary_writes .., by decide⟩, ⟨_, nullary_writes .., by decide⟩,
    ⟨_, nullary_writes .., by decide⟩, ⟨_, unary_writes .., by decide⟩, ⟨_, unary_writes .., by decide⟩, ⟨_, binary_writes .., by decide⟩,
    ⟨_, unary_writes .., by decide⟩, ⟨_, unary_writes .., by decide⟩, ⟨_, binary_writes .., by decide⟩, ⟨_, unary_writes .., by decide⟩,
    ⟨_, nullary_writes .., by decide⟩, ⟨_, unary_writes .., by decide⟩, ⟨_, binary_writes .., by decide⟩, ⟨_, binary_writes .., by decide⟩,
    ⟨_, reshape_writes .., by decide⟩, ⟨_, unary_writes .., by decide⟩, ⟨_, nullary_writes .., by decide⟩, ⟨_, unary_writes .., by decide⟩,
    ⟨_, binary_writes .., by decide⟩, ⟨_, nullary_writes .., by decide⟩, ⟨_, unary_writes .., by decide⟩, ⟨_, binary_writes .., by decide⟩,
    ⟨_, ternary_writes .., by decide⟩, ⟨_, reshape_writes .., by decide⟩, ⟨_, nullary_writes .., by decide⟩, ⟨_, nullary_writes .., by decide⟩,
    ⟨_, unary_writes .., by decide⟩, ⟨_, binary_writes .., by decide⟩, ⟨_, unary_writes .., by decide⟩, ⟨_, unary_writes .., by decide⟩,
    ⟨_, binary_writes .., by decide⟩, ⟨_, binary_writes .., by decide⟩, ⟨_, nullary_writes .., by decide⟩, ⟨_, binary_writes .., by decide⟩,
    ⟨_, binary_writes .., by decide⟩, ⟨_, unary_writes .., by decide⟩, ⟨_, nullary_writes .., by decide⟩, ⟨_, unary_writes .., by decide⟩,
    ⟨_, ternary_writes .., by decide⟩, ⟨_, unary_writes .., by decide⟩, ⟨_, nary_writes .., by decide⟩, ⟨_, nullary_writes .., by decide⟩,
    ⟨_, unary_writes .., by decide⟩, ⟨_, binary_writes .., by decide⟩, ⟨_, unary_writes .., by decide⟩, ⟨_, unary_writes .., by decide⟩,
    ⟨_, unary_writes .., by decide⟩, ⟨_, unary_writes .., by decide⟩, ⟨_, unary_writes .., by decide⟩, ⟨_, unary_writes .., by decide⟩,
    ⟨_, unary_writes .., by decide⟩, ⟨_, unary_writes .., by decide⟩, ⟨_, unary_writes .., by decide⟩, ⟨_, unary_writes .., by decide⟩,
    ⟨_, unary_writes .., by decide⟩, ⟨_, unary_writes .., by decide⟩, ⟨_, unary_writes .., by decide⟩, ⟨_, unary_writes .., by decide⟩,
    ⟨_, unary_writes .., by decide⟩, ⟨_, unary_writes .., by decide⟩, ⟨_, unary_writes .., by decide⟩, ⟨_, unary_writes .., by decide⟩,
    ⟨_, nary_writes .., by decide⟩, ⟨_, reshape_writes .., by decide⟩, ⟨_, unary_writes .., by decide⟩, ⟨_, nary_writes .., by decide⟩,
    ⟨_, reshape_writes .., by decide⟩, ⟨_, binary_writes .., by decide⟩, ⟨_, unary_writes .., by decide⟩, ⟨_, unary_writes .., by decide⟩,
    ⟨_, binary_writes .., by decide⟩, ⟨_, nullary_writes .., by decide⟩, ⟨_, unary_writes .., by decide⟩, ⟨_, binary_writes .., by decide⟩,
    ⟨_, binary_writes .., by decide⟩, ⟨_, unary_writes .., by decide⟩, ⟨_, unary_writes .., by decide⟩, ⟨_, binary_writes .., by decide⟩,
    ⟨_, nullary_writes .., by decide⟩, ⟨_, unary_writes .., by decide⟩, ⟨_, binary_writes .., by decide⟩, ⟨_, binary_writes .., by decide⟩,
    ⟨_, unary_writes .., by decide⟩, ⟨_, unary_writes .., by decide⟩, ⟨_, binary_writes .., by decide⟩, ⟨_, nullary_writes .., by decide⟩,
    ⟨_, unary_writes .., by decide⟩, ⟨_, binary_writes .., by decide⟩, ⟨_, binary_writes .., by decide⟩, ⟨_, unary_writes .., by decide⟩,
    ⟨_, unary_writes .., by decide⟩, ⟨_, binary_writes .., by decide⟩, ⟨_, nullary_writes .., by decide⟩, ⟨_, unary_writes .., by decide⟩,
    ⟨_, binary_writes .., by decide⟩, ⟨_, binary_writes .., by decide⟩, ⟨_, unary_writes .., by decide⟩, ⟨_, unary_writes .., by decide⟩,
    ⟨_, binary_writes .., by decide⟩, ⟨_, reshape_writes .., by decide⟩⟩

/-- So a reference of index below 13 holds its launch contents after the whole line. -/
theorem after_of_idx_lt (m : (ℓ : Loc nD τ sig) → Buf (Elt F) ℓ) (c : Dev nD) (r : Ref sig .tc) (hr : r.idx.val < 13) :
    after (ops (F := F)) (launchContents m c) (Proc.devRef .tc r) = m ((c.tc : Thread nD τ).loc r) :=
  after_of_forall_not_mem (b := Proc.devRef .tc r) _ _ fun op hop hb => by
    obtain ⟨y, hy, hge⟩ := List.forall_iff_forall_mem.mp (ops_writes (F := F)) op hop
    rw [hy, Finset.mem_singleton] at hb
    obtain rfl : r = y := Proc.devRef_injective _ hb
    omega

/-- No operation writes argument 0. -/
theorem arg0_kept (m : (ℓ : Loc nD τ sig) → Buf (Elt F) ℓ) (c : Dev nD) :
    after (ops (F := F)) (launchContents m c) (Proc.devRef .tc main_arg0) = m ((c.tc : Thread nD τ).loc main_arg0) :=
  after_of_idx_lt m c main_arg0 (by decide)
/-- No operation writes argument 1. -/
theorem arg1_kept (m : (ℓ : Loc nD τ sig) → Buf (Elt F) ℓ) (c : Dev nD) :
    after (ops (F := F)) (launchContents m c) (Proc.devRef .tc main_arg1) = m ((c.tc : Thread nD τ).loc main_arg1) :=
  after_of_idx_lt m c main_arg1 (by decide)
/-- No operation writes argument 2. -/
theorem arg2_kept (m : (ℓ : Loc nD τ sig) → Buf (Elt F) ℓ) (c : Dev nD) :
    after (ops (F := F)) (launchContents m c) (Proc.devRef .tc main_arg2) = m ((c.tc : Thread nD τ).loc main_arg2) :=
  after_of_idx_lt m c main_arg2 (by decide)
/-- No operation writes argument 3. -/
theorem arg3_kept (m : (ℓ : Loc nD τ sig) → Buf (Elt F) ℓ) (c : Dev nD) :
    after (ops (F := F)) (launchContents m c) (Proc.devRef .tc main_arg3) = m ((c.tc : Thread nD τ).loc main_arg3) :=
  after_of_idx_lt m c main_arg3 (by decide)
/-- No operation writes argument 4. -/
theorem arg4_kept (m : (ℓ : Loc nD τ sig) → Buf (Elt F) ℓ) (c : Dev nD) :
    after (ops (F := F)) (launchContents m c) (Proc.devRef .tc main_arg4) = m ((c.tc : Thread nD τ).loc main_arg4) :=
  after_of_idx_lt m c main_arg4 (by decide)
/-- No operation writes argument 5. -/
theorem arg5_kept (m : (ℓ : Loc nD τ sig) → Buf (Elt F) ℓ) (c : Dev nD) :
    after (ops (F := F)) (launchContents m c) (Proc.devRef .tc main_arg5) = m ((c.tc : Thread nD τ).loc main_arg5) :=
  after_of_idx_lt m c main_arg5 (by decide)
/-- No operation writes argument 6. -/
theorem arg6_kept (m : (ℓ : Loc nD τ sig) → Buf (Elt F) ℓ) (c : Dev nD) :
    after (ops (F := F)) (launchContents m c) (Proc.devRef .tc main_arg6) = m ((c.tc : Thread nD τ).loc main_arg6) :=
  after_of_idx_lt m c main_arg6 (by decide)
/-- No operation writes argument 7. -/
theorem arg7_kept (m : (ℓ : Loc nD τ sig) → Buf (Elt F) ℓ) (c : Dev nD) :
    after (ops (F := F)) (launchContents m c) (Proc.devRef .tc main_arg7) = m ((c.tc : Thread nD τ).loc main_arg7) :=
  after_of_idx_lt m c main_arg7 (by decide)
/-- No operation writes argument 8. -/
theorem arg8_kept (m : (ℓ : Loc nD τ sig) → Buf (Elt F) ℓ) (c : Dev nD) :
    after (ops (F := F)) (launchContents m c) (Proc.devRef .tc main_arg8) = m ((c.tc : Thread nD τ).loc main_arg8) :=
  after_of_idx_lt m c main_arg8 (by decide)
/-- No operation writes argument 9. -/
theorem arg9_kept (m : (ℓ : Loc nD τ sig) → Buf (Elt F) ℓ) (c : Dev nD) :
    after (ops (F := F)) (launchContents m c) (Proc.devRef .tc main_arg9) = m ((c.tc : Thread nD τ).loc main_arg9) :=
  after_of_idx_lt m c main_arg9 (by decide)
/-- No operation writes argument 10. -/
theorem arg10_kept (m : (ℓ : Loc nD τ sig) → Buf (Elt F) ℓ) (c : Dev nD) :
    after (ops (F := F)) (launchContents m c) (Proc.devRef .tc main_arg10) = m ((c.tc : Thread nD τ).loc main_arg10) :=
  after_of_idx_lt m c main_arg10 (by decide)
/-- No operation writes argument 11. -/
theorem arg11_kept (m : (ℓ : Loc nD τ sig) → Buf (Elt F) ℓ) (c : Dev nD) :
    after (ops (F := F)) (launchContents m c) (Proc.devRef .tc main_arg11) = m ((c.tc : Thread nD τ).loc main_arg11) :=
  after_of_idx_lt m c main_arg11 (by decide)
/-- No operation writes argument 12. -/
theorem arg12_kept (m : (ℓ : Loc nD τ sig) → Buf (Elt F) ℓ) (c : Dev nD) :
    after (ops (F := F)) (launchContents m c) (Proc.devRef .tc main_arg12) = m ((c.tc : Thread nD τ).loc main_arg12) :=
  after_of_idx_lt m c main_arg12 (by decide)

end Cert.ReferenceIdeal.ValueP

end
-- ==== Proof.RefSegs.lean ====
/-
  The reference program's line of 506 host operations, cut into fourteen segments.

  Each of the four nearest-neighbour gathers is cut in three (up to the flat index, the index's wrap-around, the
  gather itself with its mask and transposition); then the concatenation with the 3×3 unfolding up to the
  [131072, 833] input; then the five-layer network.  The segments are the program's operations verbatim, in order
  (`ops_eq`).  `set_self`: setting a buffer to what it already holds changes nothing — how a segment's lemma is
  given the contents of the buffers it reads without a hypothesis.
-/
import proofs.«145896_j91079076479405_1_alg».proof.Proof.RefOps
import proofs.«145896_j91079076479405_1_alg».proof.Proof.RefRead
import Idealize.ShloMosaic.Lib.Pipeline.Regions

noncomputable section

namespace Cert.ReferenceIdeal.RefFold

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- Setting a buffer to what it already holds changes nothing. -/
theorem set_self (y : Ref sig .tc) (v : y.ty.Contents (Elt F)) (hy) (w : Valuation τ sig (Elt F))
    (h : w (Proc.devRef .tc y) = v) : (StableHlo.nullary (τ := τ) y v hy).result w = w := by
  funext b
  by_cases hb : b ∈ (StableHlo.nullary (τ := τ) y v hy).writes
  · have e : b = Proc.devRef .tc y := Finset.mem_singleton.mp hb
    subst e
    exact (StableHlo.nullary_result y v hy w).trans h.symm
  · exact HloOp.result_of_not_mem _ w hb

/-! ## The segments -/

set_option maxHeartbeats 40000000 in
/-- Operations 0 … 88 of the program, in order. -/
abbrev seg0 : List (HloOp τ sig (Elt F)) :=
  [
    unary main_arg2 main_v0 ((extractStridedSlice S1x1x1 ![0, 0, 0] · slices_S2x65536x1_S1x1x1_0_0_0) : (⟨S2x65536x1, .f32⟩ : BufTy).Contents (Elt F) → (⟨S1x1x1, .f32⟩ : BufTy).Contents (Elt F)),
    reshape main_v0 main_v1 rfl shapeCasts_S1x1x1_S_,
    unary main_arg1 main_v2 ((extractStridedSlice S2x65536x1 ![0, 0, 0] · slices_S2x65536x2_S2x65536x1_0_0_0) : (⟨S2x65536x2, .f32⟩ : BufTy).Contents (Elt F) → (⟨S2x65536x1, .f32⟩ : BufTy).Contents (Elt F)),
    reshape main_v2 main_v3 rfl shapeCasts_S2x65536x1_S2x65536,
    nullary main_cst (constant S_ .f32 0xBF800000#32),
    binary main_cst main_v1 main_v4 (mulf : (⟨S_, .f32⟩ : BufTy).Contents (Elt F) → (⟨S_, .f32⟩ : BufTy).Contents (Elt F) → (⟨S_, .f32⟩ : BufTy).Contents (Elt F)),
    nullary main_cst_0 (constant S_ .f32 0x3B800000#32),
    binary main_v4 main_cst_0 main_v5 (mulf : (⟨S_, .f32⟩ : BufTy).Contents (Elt F) → (⟨S_, .f32⟩ : BufTy).Contents (Elt F) → (⟨S_, .f32⟩ : BufTy).Contents (Elt F)),
    unary main_v5 main_v6 (broadcastInDim S2x65536 ![] bcast_S_S2x65536 : (⟨S_, .f32⟩ : BufTy).Contents (Elt F) → (⟨S2x65536, .f32⟩ : BufTy).Contents (Elt F)),
    binary main_v3 main_v6 main_v7 (addf : (⟨S2x65536, .f32⟩ : BufTy).Contents (Elt F) → (⟨S2x65536, .f32⟩ : BufTy).Contents (Elt F) → (⟨S2x65536, .f32⟩ : BufTy).Contents (Elt F)),
    nullary main_cst_1 (constant S_ .f32 0x358637BD#32),
    unary main_cst_1 main_v8 (broadcastInDim S2x65536 ![] bcast_S_S2x65536 : (⟨S_, .f32⟩ : BufTy).Contents (Elt F) → (⟨S2x65536, .f32⟩ : BufTy).Contents (Elt F)),
    binary main_v7 main_v8 main_v9 (addf : (⟨S2x65536, .f32⟩ : BufTy).Contents (Elt F) → (⟨S2x65536, .f32⟩ : BufTy).Contents (Elt F) → (⟨S2x65536, .f32⟩ : BufTy).Contents (Elt F)),
    unary main_arg1 main_v10 ((extractStridedSlice S2x65536x1 ![0, 0, 1] · slices_S2x65536x2_S2x65536x1_0_0_1) : (⟨S2x65536x2, .f32⟩ : BufTy).Contents (Elt F) → (⟨S2x65536x1, .f32⟩ : BufTy).Contents (Elt F)),
    reshape main_v10 main_v11 rfl shapeCasts_S2x65536x1_S2x65536,
    nullary main_cst_2 (constant S_ .f32 0xBF800000#32),
    binary main_cst_2 main_v1 main_v12 (mulf : (⟨S_, .f32⟩ : BufTy).Contents (Elt F) → (⟨S_, .f32⟩ : BufTy).Contents (Elt F) → (⟨S_, .f32⟩ : BufTy).Contents (Elt F)),
    nullary main_cst_3 (constant S_ .f32 0x3B800000#32),
    binary main_v12 main_cst_3 main_v13 (mulf : (⟨S_, .f32⟩ : BufTy).Contents (Elt F) → (⟨S_, .f32⟩ : BufTy).Contents (Elt F) → (⟨S_, .f32⟩ : BufTy).Contents (Elt F)),
    unary main_v13 main_v14 (broadcastInDim S2x65536 ![] bcast_S_S2x65536 : (⟨S_, .f32⟩ : BufTy).Contents (Elt F) → (⟨S2x65536, .f32⟩ : BufTy).Contents (Elt F)),
    binary main_v11 main_v14 main_v15 (addf : (⟨S2x65536, .f32⟩ : BufTy).Contents (Elt F) → (⟨S2x65536, .f32⟩ : BufTy).Contents (Elt F) → (⟨S2x65536, .f32⟩ : BufTy).Contents (Elt F)),
    nullary main_cst_4 (constant S_ .f32 0x358637BD#32),
    unary main_cst_4 main_v16 (broadcastInDim S2x65536 ![] bcast_S_S2x65536 : (⟨S_, .f32⟩ : BufTy).Contents (Elt F) → (⟨S2x65536, .f32⟩ : BufTy).Contents (Elt F)),
    binary main_v15 main_v16 main_v17 (addf : (⟨S2x65536, .f32⟩ : BufTy).Contents (Elt F) → (⟨S2x65536, .f32⟩ : BufTy).Contents (Elt F) → (⟨S2x65536, .f32⟩ : BufTy).Contents (Elt F)),
    unary main_v9 main_v18 (broadcastInDim S2x65536x1 ![0, 1] bcast_S2x65536_S2x65536x1_0_1 : (⟨S2x65536, .f32⟩ : BufTy).Contents (Elt F) → (⟨S2x65536x1, .f32⟩ : BufTy).Contents (Elt F)),
    unary main_v17 main_v19 (broadcastInDim S2x65536x1 ![0, 1] bcast_S2x65536_S2x65536x1_0_1 : (⟨S2x65536, .f32⟩ : BufTy).Contents (Elt F) → (⟨S2x65536x1, .f32⟩ : BufTy).Contents (Elt F)),
    binary main_v18 main_v19 main_v20 ((fun a b => concatenate S2x65536x2 2 [⟨S2x65536x1, a⟩, ⟨S2x65536x1, b⟩] concatenates_S2x65536x1_S2x65536x1_S2x65536x2_d2) : (⟨S2x65536x1, .f32⟩ : BufTy).Contents (Elt F) → (⟨S2x65536x1, .f32⟩ : BufTy).Contents (Elt F) → (⟨S2x65536x2, .f32⟩ : BufTy).Contents (Elt F)),
    nullary main_cst_5 (constant S_ .f32 0xBF7FFFEF#32),
    nullary main_cst_6 (constant S_ .f32 0x3F7FFFEF#32),
    TRef.unary (TRef.of (T := ⟨S_, .f32⟩) main_cst_5) (TRef.of (T := ⟨S_, .f32⟩) main_call0_v0) id,
    TRef.unary (TRef.of (T := ⟨S_, .f32⟩) main_call0_v0) (TRef.of (T := ⟨S2x65536x2, .f32⟩) main_call0_v1) (broadcastInDim S2x65536x2 ![] bcast_S_S2x65536x2),
    TRef.binary (TRef.of (T := ⟨S2x65536x2, .f32⟩) main_call0_v1) (TRef.of (T := ⟨S2x65536x2, .f32⟩) main_v20) (TRef.of (T := ⟨S2x65536x2, .f32⟩) main_call0_v2) maximumf,
    TRef.unary (TRef.of (T := ⟨S_, .f32⟩) main_cst_6) (TRef.of (T := ⟨S_, .f32⟩) main_call0_v3) id,
    TRef.unary (TRef.of (T := ⟨S_, .f32⟩) main_call0_v3) (TRef.of (T := ⟨S2x65536x2, .f32⟩) main_call0_v4) (broadcastInDim S2x65536x2 ![] bcast_S_S2x65536x2),
    TRef.binary (TRef.of (T := ⟨S2x65536x2, .f32⟩) main_call0_v4) (TRef.of (T := ⟨S2x65536x2, .f32⟩) main_call0_v2) (TRef.of (T := ⟨S2x65536x2, .f32⟩) main_v21) minimumf,
    unary main_v21 main_v22 ((extractStridedSlice S2x65536x1 ![0, 0, 0] · slices_S2x65536x2_S2x65536x1_0_0_0) : (⟨S2x65536x2, .f32⟩ : BufTy).Contents (Elt F) → (⟨S2x65536x1, .f32⟩ : BufTy).Contents (Elt F)),
    reshape main_v22 main_v23 rfl shapeCasts_S2x65536x1_S2x65536,
    nullary main_cst_7 (constant S_ .f32 0x3F800000#32),
    unary main_cst_7 main_v24 (broadcastInDim S2x65536 ![] bcast_S_S2x65536 : (⟨S_, .f32⟩ : BufTy).Contents (Elt F) → (⟨S2x65536, .f32⟩ : BufTy).Contents (Elt F)),
    binary main_v23 main_v24 main_v25 (addf : (⟨S2x65536, .f32⟩ : BufTy).Contents (Elt F) → (⟨S2x65536, .f32⟩ : BufTy).Contents (Elt F) → (⟨S2x65536, .f32⟩ : BufTy).Contents (Elt F)),
    nullary main_cst_8 (constant S_ .f32 0x43800000#32),
    unary main_cst_8 main_v26 (broadcastInDim S2x65536 ![] bcast_S_S2x65536 : (⟨S_, .f32⟩ : BufTy).Contents (Elt F) → (⟨S2x65536, .f32⟩ : BufTy).Contents (Elt F)),
    binary main_v25 main_v26 main_v27 (mulf : (⟨S2x65536, .f32⟩ : BufTy).Contents (Elt F) → (⟨S2x65536, .f32⟩ : BufTy).Contents (Elt F) → (⟨S2x65536, .f32⟩ : BufTy).Contents (Elt F)),
    nullary main_cst_9 (constant S_ .f32 0x3F800000#32),
    unary main_cst_9 main_v28 (broadcastInDim S2x65536 ![] bcast_S_S2x65536 : (⟨S_, .f32⟩ : BufTy).Contents (Elt F) → (⟨S2x65536, .f32⟩ : BufTy).Contents (Elt F)),
    binary main_v27 main_v28 main_v29 (subf : (⟨S2x65536, .f32⟩ : BufTy).Contents (Elt F) → (⟨S2x65536, .f32⟩ : BufTy).Contents (Elt F) → (⟨S2x65536, .f32⟩ : BufTy).Contents (Elt F)),
    nullary main_cst_10 (constant S_ .f32 0x3F000000#32),
    unary main_cst_10 main_v30 (broadcastInDim S2x65536 ![] bcast_S_S2x65536 : (⟨S_, .f32⟩ : BufTy).Contents (Elt F) → (⟨S2x65536, .f32⟩ : BufTy).Contents (Elt F)),
    binary main_v29 main_v30 main_v31 (mulf : (⟨S2x65536, .f32⟩ : BufTy).Contents (Elt F) → (⟨S2x65536, .f32⟩ : BufTy).Contents (Elt F) → (⟨S2x65536, .f32⟩ : BufTy).Contents (Elt F)),
    TRef.unary (TRef.of (T := ⟨S2x65536, .f32⟩) main_v31) (TRef.of (T := ⟨S2x65536, .f32⟩) main_v32) Host.roundeven,
    nullary main_c (constantI S_ 32 0#32),
    nullary main_c_11 (constantI S_ 32 255#32),
    TRef.unary (TRef.of (T := ⟨S_, .i32⟩) main_c) (TRef.of (T := ⟨S_, .f32⟩) main_call2_v0) (sitofp .f32),
    TRef.unary (TRef.of (T := ⟨S_, .f32⟩) main_call2_v0) (TRef.of (T := ⟨S2x65536, .f32⟩) main_call2_v1) (broadcastInDim S2x65536 ![] bcast_S_S2x65536),
    TRef.binary (TRef.of (T := ⟨S2x65536, .f32⟩) main_call2_v1) (TRef.of (T := ⟨S2x65536, .f32⟩) main_v32) (TRef.of (T := ⟨S2x65536, .f32⟩) main_call2_v2) maximumf,
    TRef.unary (TRef.of (T := ⟨S_, .i32⟩) main_c_11) (TRef.of (T := ⟨S_, .f32⟩) main_call2_v3) (sitofp .f32),
    TRef.unary (TRef.of (T := ⟨S_, .f32⟩) main_call2_v3) (TRef.of (T := ⟨S2x65536, .f32⟩) main_call2_v4) (broadcastInDim S2x65536 ![] bcast_S_S2x65536),
    TRef.binary (TRef.of (T := ⟨S2x65536, .f32⟩) main_call2_v4) (TRef.of (T := ⟨S2x65536, .f32⟩) main_call2_v2) (TRef.of (T := ⟨S2x65536, .f32⟩) main_v33) minimumf,
    unary main_v33 main_v34 (fptosi 32 : (⟨S2x65536, .f32⟩ : BufTy).Contents (Elt F) → (⟨S2x65536, .i32⟩ : BufTy).Contents (Elt F)),
    unary main_v21 main_v35 ((extractStridedSlice S2x65536x1 ![0, 0, 1] · slices_S2x65536x2_S2x65536x1_0_0_1) : (⟨S2x65536x2, .f32⟩ : BufTy).Contents (Elt F) → (⟨S2x65536x1, .f32⟩ : BufTy).Contents (Elt F)),
    reshape main_v35 main_v36 rfl shapeCasts_S2x65536x1_S2x65536,
    nullary main_cst_12 (constant S_ .f32 0x3F800000#32),
    unary main_cst_12 main_v37 (broadcastInDim S2x65536 ![] bcast_S_S2x65536 : (⟨S_, .f32⟩ : BufTy).Contents (Elt F) → (⟨S2x65536, .f32⟩ : BufTy).Contents (Elt F)),
    binary main_v36 main_v37 main_v38 (addf : (⟨S2x65536, .f32⟩ : BufTy).Contents (Elt F) → (⟨S2x65536, .f32⟩ : BufTy).Contents (Elt F) → (⟨S2x65536, .f32⟩ : BufTy).Contents (Elt F)),
    nullary main_cst_13 (constant S_ .f32 0x43800000#32),
    unary main_cst_13 main_v39 (broadcastInDim S2x65536 ![] bcast_S_S2x65536 : (⟨S_, .f32⟩ : BufTy).Contents (Elt F) → (⟨S2x65536, .f32⟩ : BufTy).Contents (Elt F)),
    binary main_v38 main_v39 main_v40 (mulf : (⟨S2x65536, .f32⟩ : BufTy).Contents (Elt F) → (⟨S2x65536, .f32⟩ : BufTy).Contents (Elt F) → (⟨S2x65536, .f32⟩ : BufTy).Contents (Elt F)),
    nullary main_cst_14 (constant S_ .f32 0x3F800000#32),
    unary main_cst_14 main_v41 (broadcastInDim S2x65536 ![] bcast_S_S2x65536 : (⟨S_, .f32⟩ : BufTy).Contents (Elt F) → (⟨S2x65536, .f32⟩ : BufTy).Contents (Elt F)),
    binary main_v40 main_v41 main_v42 (subf : (⟨S2x65536, .f32⟩ : BufTy).Contents (Elt F) → (⟨S2x65536, .f32⟩ : BufTy).Contents (Elt F) → (⟨S2x65536, .f32⟩ : BufTy).Contents (Elt F)),
    nullary main_cst_15 (constant S_ .f32 0x3F000000#32),
    unary main_cst_15 main_v43 (broadcastInDim S2x65536 ![] bcast_S_S2x65536 : (⟨S_, .f32⟩ : BufTy).Contents (Elt F) → (⟨S2x65536, .f32⟩ : BufTy).Contents (Elt F)),
    binary main_v42 main_v43 main_v44 (mulf : (⟨S2x65536, .f32⟩ : BufTy).Contents (Elt F) → (⟨S2x65536, .f32⟩ : BufTy).Contents (Elt F) → (⟨S2x65536, .f32⟩ : BufTy).Contents (Elt F)),
    TRef.unary (TRef.of (T := ⟨S2x65536, .f32⟩) main_v44) (TRef.of (T := ⟨S2x65536, .f32⟩) main_v45) Host.roundeven,
    nullary main_c_16 (constantI S_ 32 0#32),
    nullary main_c_17 (constantI S_ 32 255#32),
    TRef.unary (TRef.of (T := ⟨S_, .i32⟩) main_c_16) (TRef.of (T := ⟨S_, .f32⟩) main_call4_v0) (sitofp .f32),
    TRef.unary (TRef.of (T := ⟨S_, .f32⟩) main_call4_v0) (TRef.of (T := ⟨S2x65536, .f32⟩) main_call4_v1) (broadcastInDim S2x65536 ![] bcast_S_S2x65536),
    TRef.binary (TRef.of (T := ⟨S2x65536, .f32⟩) main_call4_v1) (TRef.of (T := ⟨S2x65536, .f32⟩) main_v45) (TRef.of (T := ⟨S2x65536, .f32⟩) main_call4_v2) maximumf,
    TRef.unary (TRef.of (T := ⟨S_, .i32⟩) main_c_17) (TRef.of (T := ⟨S_, .f32⟩) main_call4_v3) (sitofp .f32),
    TRef.unary (TRef.of (T := ⟨S_, .f32⟩) main_call4_v3) (TRef.of (T := ⟨S2x65536, .f32⟩) main_call4_v4) (broadcastInDim S2x65536 ![] bcast_S_S2x65536),
    TRef.binary (TRef.of (T := ⟨S2x65536, .f32⟩) main_call4_v4) (TRef.of (T := ⟨S2x65536, .f32⟩) main_call4_v2) (TRef.of (T := ⟨S2x65536, .f32⟩) main_v46) minimumf,
    unary main_v46 main_v47 (fptosi 32 : (⟨S2x65536, .f32⟩ : BufTy).Contents (Elt F) → (⟨S2x65536, .i32⟩ : BufTy).Contents (Elt F)),
    nullary main_c_18 (constantI S_ 32 256#32),
    unary main_c_18 main_v48 (broadcastInDim S2x65536 ![] bcast_S_S2x65536 : (⟨S_, .i32⟩ : BufTy).Contents (Elt F) → (⟨S2x65536, .i32⟩ : BufTy).Contents (Elt F)),
    binary main_v34 main_v48 main_v49 (muli : (⟨S2x65536, .i32⟩ : BufTy).Contents (Elt F) → (⟨S2x65536, .i32⟩ : BufTy).Contents (Elt F) → (⟨S2x65536, .i32⟩ : BufTy).Contents (Elt F)),
    binary main_v49 main_v47 main_v50 (addi : (⟨S2x65536, .i32⟩ : BufTy).Contents (Elt F) → (⟨S2x65536, .i32⟩ : BufTy).Contents (Elt F) → (⟨S2x65536, .i32⟩ : BufTy).Contents (Elt F)),
    reshape main_arg0 main_v51 rfl shapeCasts_S2x64x256x256_S2x64x65536,
    unary main_v50 main_v52 (broadcastInDim S2x1x65536 ![0, 2] bcast_S2x65536_S2x1x65536_0_2 : (⟨S2x65536, .i32⟩ : BufTy).Contents (Elt F) → (⟨S2x1x65536, .i32⟩ : BufTy).Contents (Elt F)) ]

set_option maxHeartbeats 40000000 in
/-- Operations 89 … 96 of the program, in order. -/
abbrev seg1 : List (HloOp τ sig (Elt F)) :=
  [
    TRef.nullary (TRef.of (T := ⟨S_, .i32⟩) main_call5_c) (constantI S_ 32 0#32),
    TRef.unary (TRef.of (T := ⟨S_, .i32⟩) main_call5_c) (TRef.of (T := ⟨S2x1x65536, .i32⟩) main_call5_v0) (broadcastInDim S2x1x65536 ![] bcast_S_S2x1x65536),
    TRef.binary (TRef.of (T := ⟨S2x1x65536, .i32⟩) main_v52) (TRef.of (T := ⟨S2x1x65536, .i32⟩) main_call5_v0) (TRef.of (T := ⟨S2x1x65536, .i1⟩) main_call5_v1) (cmpi .slt),
    TRef.nullary (TRef.of (T := ⟨S_, .i32⟩) main_call5_c_0) (constantI S_ 32 65536#32),
    TRef.unary (TRef.of (T := ⟨S_, .i32⟩) main_call5_c_0) (TRef.of (T := ⟨S2x1x65536, .i32⟩) main_call5_v2) (broadcastInDim S2x1x65536 ![] bcast_S_S2x1x65536),
    TRef.binary (TRef.of (T := ⟨S2x1x65536, .i32⟩) main_v52) (TRef.of (T := ⟨S2x1x65536, .i32⟩) main_call5_v2) (TRef.of (T := ⟨S2x1x65536, .i32⟩) main_call5_v3) addi,
    TRef.ternary (TRef.of (T := ⟨S2x1x65536, .i1⟩) main_call5_v1) (TRef.of (T := ⟨S2x1x65536, .i32⟩) main_call5_v3) (TRef.of (T := ⟨S2x1x65536, .i32⟩) main_v52) (TRef.of (T := ⟨S2x1x65536, .i32⟩) main_call5_v4) select,
    TRef.reshape (TRef.of (T := ⟨S2x1x65536, .i32⟩) main_call5_v4) (TRef.of (T := ⟨S2x65536x1, .i32⟩) main_call5_v5) rfl shapeCasts_S2x1x65536_S2x65536x1 ]

set_option maxHeartbeats 40000000 in
/-- Operations 97 … 112 of the program, in order. -/
abbrev seg2 : List (HloOp τ sig (Elt F)) :=
  [
    TRef.nullary (TRef.of (T := ⟨S1, .i32⟩) main_call5_c_1) (constantI S1 32 65535#32),
    TRef.nullary (TRef.of (T := ⟨S_, .i32⟩) main_call5_c_2) (constantI S_ 32 0#32),
    TRef.unary (TRef.of (T := ⟨S_, .i32⟩) main_call5_c_2) (TRef.of (T := ⟨S2x65536x1, .i32⟩) main_call5_v6) (broadcastInDim S2x65536x1 ![] bcast_S_S2x65536x1),
    TRef.binary (TRef.of (T := ⟨S2x65536x1, .i32⟩) main_call5_v5) (TRef.of (T := ⟨S2x65536x1, .i32⟩) main_call5_v6) (TRef.of (T := ⟨S2x65536x1, .i1⟩) main_call5_v7) (cmpi .sge),
    TRef.unary (TRef.of (T := ⟨S1, .i32⟩) main_call5_c_1) (TRef.of (T := ⟨S1x1x1, .i32⟩) main_call5_v8) (broadcastInDim S1x1x1 ![2] bcast_S1_S1x1x1_2),
    TRef.unary (TRef.of (T := ⟨S1x1x1, .i32⟩) main_call5_v8) (TRef.of (T := ⟨S2x65536x1, .i32⟩) main_call5_v9) (broadcastInDim S2x65536x1 ![0, 1, 2] bcast_S1x1x1_S2x65536x1_0_1_2),
    TRef.binary (TRef.of (T := ⟨S2x65536x1, .i32⟩) main_call5_v5) (TRef.of (T := ⟨S2x65536x1, .i32⟩) main_call5_v9) (TRef.of (T := ⟨S2x65536x1, .i1⟩) main_call5_v10) (cmpi .sle),
    TRef.binary (TRef.of (T := ⟨S2x65536x1, .i1⟩) main_call5_v7) (TRef.of (T := ⟨S2x65536x1, .i1⟩) main_call5_v10) (TRef.of (T := ⟨S2x65536x1, .i1⟩) main_call5_v11) andi,
    TRef.nullary (TRef.of (T := ⟨S_, .i1⟩) main_call5_c_3) (constantI S_ 1 1#1),
    TRef.binary (TRef.of (T := ⟨S2x65536x1, .i1⟩) main_call5_v11) (TRef.of (T := ⟨S_, .i1⟩) main_call5_c_3) (TRef.of (T := ⟨S2x65536, .i1⟩) main_call5_v12) (fun x v => Host.reduce IntOp.andi x v reducesTo_S2x65536x1_S2x65536_d2 h_S_),
    TRef.binary (TRef.of (T := ⟨S2x64x65536, .f32⟩) main_v51) (TRef.of (T := ⟨S2x65536x1, .i32⟩) main_call5_v5) (TRef.of (T := ⟨S2x64x65536, .f32⟩) main_call5_v13) (fun x i => Host.gather gather_S2x64x65536_S2x65536x1_S2x64x65536_1_2_0_0_2_2_1641 x i),
    TRef.unary (TRef.of (T := ⟨S2x65536, .i1⟩) main_call5_v12) (TRef.of (T := ⟨S2x64x65536, .i1⟩) main_call5_v14) (broadcastInDim S2x64x65536 ![0, 2] bcast_S2x65536_S2x64x65536_0_2),
    TRef.nullary (TRef.of (T := ⟨S_, .f32⟩) main_call5_cst) (constant S_ .f32 0x7FC00000#32),
    TRef.unary (TRef.of (T := ⟨S_, .f32⟩) main_call5_cst) (TRef.of (T := ⟨S2x64x65536, .f32⟩) main_call5_v15) (broadcastInDim S2x64x65536 ![] bcast_S_S2x64x65536),
    TRef.ternary (TRef.of (T := ⟨S2x64x65536, .i1⟩) main_call5_v14) (TRef.of (T := ⟨S2x64x65536, .f32⟩) main_call5_v13) (TRef.of (T := ⟨S2x64x65536, .f32⟩) main_call5_v15) (TRef.of (T := ⟨S2x64x65536, .f32⟩) main_v53) select,
    unary main_v53 main_v54 ((transpose S2x65536x64 [0, 2, 1] · transposes_S2x64x65536_S2x65536x64_0_2_1) : (⟨S2x64x65536, .f32⟩ : BufTy).Contents (Elt F) → (⟨S2x65536x64, .f32⟩ : BufTy).Contents (Elt F)) ]

set_option maxHeartbeats 40000000 in
/-- Operations 113 … 199 of the program, in order. -/
abbrev seg3 : List (HloOp τ sig (Elt F)) :=
  [
    unary main_arg1 main_v55 ((extractStridedSlice S2x65536x1 ![0, 0, 0] · slices_S2x65536x2_S2x65536x1_0_0_0) : (⟨S2x65536x2, .f32⟩ : BufTy).Contents (Elt F) → (⟨S2x65536x1, .f32⟩ : BufTy).Contents (Elt F)),
    reshape main_v55 main_v56 rfl shapeCasts_S2x65536x1_S2x65536,
    nullary main_cst_19 (constant S_ .f32 0xBF800000#32),
    binary main_cst_19 main_v1 main_v57 (mulf : (⟨S_, .f32⟩ : BufTy).Contents (Elt F) → (⟨S_, .f32⟩ : BufTy).Contents (Elt F) → (⟨S_, .f32⟩ : BufTy).Contents (Elt F)),
    nullary main_cst_20 (constant S_ .f32 0x3B800000#32),
    binary main_v57 main_cst_20 main_v58 (mulf : (⟨S_, .f32⟩ : BufTy).Contents (Elt F) → (⟨S_, .f32⟩ : BufTy).Contents (Elt F) → (⟨S_, .f32⟩ : BufTy).Contents (Elt F)),
    unary main_v58 main_v59 (broadcastInDim S2x65536 ![] bcast_S_S2x65536 : (⟨S_, .f32⟩ : BufTy).Contents (Elt F) → (⟨S2x65536, .f32⟩ : BufTy).Contents (Elt F)),
    binary main_v56 main_v59 main_v60 (addf : (⟨S2x65536, .f32⟩ : BufTy).Contents (Elt F) → (⟨S2x65536, .f32⟩ : BufTy).Contents (Elt F) → (⟨S2x65536, .f32⟩ : BufTy).Contents (Elt F)),
    nullary main_cst_21 (constant S_ .f32 0x358637BD#32),
    unary main_cst_21 main_v61 (broadcastInDim S2x65536 ![] bcast_S_S2x65536 : (⟨S_, .f32⟩ : BufTy).Contents (Elt F) → (⟨S2x65536, .f32⟩ : BufTy).Contents (Elt F)),
    binary main_v60 main_v61 main_v62 (addf : (⟨S2x65536, .f32⟩ : BufTy).Contents (Elt F) → (⟨S2x65536, .f32⟩ : BufTy).Contents (Elt F) → (⟨S2x65536, .f32⟩ : BufTy).Contents (Elt F)),
    unary main_arg1 main_v63 ((extractStridedSlice S2x65536x1 ![0, 0, 1] · slices_S2x65536x2_S2x65536x1_0_0_1) : (⟨S2x65536x2, .f32⟩ : BufTy).Contents (Elt F) → (⟨S2x65536x1, .f32⟩ : BufTy).Contents (Elt F)),
    reshape main_v63 main_v64 rfl shapeCasts_S2x65536x1_S2x65536,
    nullary main_cst_22 (constant S_ .f32 0x3F800000#32),
    binary main_cst_22 main_v1 main_v65 (mulf : (⟨S_, .f32⟩ : BufTy).Contents (Elt F) → (⟨S_, .f32⟩ : BufTy).Contents (Elt F) → (⟨S_, .f32⟩ : BufTy).Contents (Elt F)),
    nullary main_cst_23 (constant S_ .f32 0x3B800000#32),
    binary main_v65 main_cst_23 main_v66 (mulf : (⟨S_, .f32⟩ : BufTy).Contents (Elt F) → (⟨S_, .f32⟩ : BufTy).Contents (Elt F) → (⟨S_, .f32⟩ : BufTy).Contents (Elt F)),
    unary main_v66 main_v67 (broadcastInDim S2x65536 ![] bcast_S_S2x65536 : (⟨S_, .f32⟩ : BufTy).Contents (Elt F) → (⟨S2x65536, .f32⟩ : BufTy).Contents (Elt F)),
    binary main_v64 main_v67 main_v68 (addf : (⟨S2x65536, .f32⟩ : BufTy).Contents (Elt F) → (⟨S2x65536, .f32⟩ : BufTy).Contents (Elt F) → (⟨S2x65536, .f32⟩ : BufTy).Contents (Elt F)),
    nullary main_cst_24 (constant S_ .f32 0x358637BD#32),
    unary main_cst_24 main_v69 (broadcastInDim S2x65536 ![] bcast_S_S2x65536 : (⟨S_, .f32⟩ : BufTy).Contents (Elt F) → (⟨S2x65536, .f32⟩ : BufTy).Contents (Elt F)),
    binary main_v68 main_v69 main_v70 (addf : (⟨S2x65536, .f32⟩ : BufTy).Contents (Elt F) → (⟨S2x65536, .f32⟩ : BufTy).Contents (Elt F) → (⟨S2x65536, .f32⟩ : BufTy).Contents (Elt F)),
    unary main_v62 main_v71 (broadcastInDim S2x65536x1 ![0, 1] bcast_S2x65536_S2x65536x1_0_1 : (⟨S2x65536, .f32⟩ : BufTy).Contents (Elt F) → (⟨S2x65536x1, .f32⟩ : BufTy).Contents (Elt F)),
    unary main_v70 main_v72 (broadcastInDim S2x65536x1 ![0, 1] bcast_S2x65536_S2x65536x1_0_1 : (⟨S2x65536, .f32⟩ : BufTy).Contents (Elt F) → (⟨S2x65536x1, .f32⟩ : BufTy).Contents (Elt F)),
    binary main_v71 main_v72 main_v73 ((fun a b => concatenate S2x65536x2 2 [⟨S2x65536x1, a⟩, ⟨S2x65536x1, b⟩] concatenates_S2x65536x1_S2x65536x1_S2x65536x2_d2) : (⟨S2x65536x1, .f32⟩ : BufTy).Contents (Elt F) → (⟨S2x65536x1, .f32⟩ : BufTy).Contents (Elt F) → (⟨S2x65536x2, .f32⟩ : BufTy).Contents (Elt F)),
    nullary main_cst_25 (constant S_ .f32 0xBF7FFFEF#32),
    nullary main_cst_26 (constant S_ .f32 0x3F7FFFEF#32),
    TRef.unary (TRef.of (T := ⟨S_, .f32⟩) main_cst_25) (TRef.of (T := ⟨S_, .f32⟩) main_call6_v0) id,
    TRef.unary (TRef.of (T := ⟨S_, .f32⟩) main_call6_v0) (TRef.of (T := ⟨S2x65536x2, .f32⟩) main_call6_v1) (broadcastInDim S2x65536x2 ![] bcast_S_S2x65536x2),
    TRef.binary (TRef.of (T := ⟨S2x65536x2, .f32⟩) main_call6_v1) (TRef.of (T := ⟨S2x65536x2, .f32⟩) main_v73) (TRef.of (T := ⟨S2x65536x2, .f32⟩) main_call6_v2) maximumf,
    TRef.unary (TRef.of (T := ⟨S_, .f32⟩) main_cst_26) (TRef.of (T := ⟨S_, .f32⟩) main_call6_v3) id,
    TRef.unary (TRef.of (T := ⟨S_, .f32⟩) main_call6_v3) (TRef.of (T := ⟨S2x65536x2, .f32⟩) main_call6_v4) (broadcastInDim S2x65536x2 ![] bcast_S_S2x65536x2),
    TRef.binary (TRef.of (T := ⟨S2x65536x2, .f32⟩) main_call6_v4) (TRef.of (T := ⟨S2x65536x2, .f32⟩) main_call6_v2) (TRef.of (T := ⟨S2x65536x2, .f32⟩) main_v74) minimumf,
    unary main_v74 main_v75 ((extractStridedSlice S2x65536x1 ![0, 0, 0] · slices_S2x65536x2_S2x65536x1_0_0_0) : (⟨S2x65536x2, .f32⟩ : BufTy).Contents (Elt F) → (⟨S2x65536x1, .f32⟩ : BufTy).Contents (Elt F)),
    reshape main_v75 main_v76 rfl shapeCasts_S2x65536x1_S2x65536,
    nullary main_cst_27 (constant S_ .f32 0x3F800000#32),
    unary main_cst_27 main_v77 (broadcastInDim S2x65536 ![] bcast_S_S2x65536 : (⟨S_, .f32⟩ : BufTy).Contents (Elt F) → (⟨S2x65536, .f32⟩ : BufTy).Contents (Elt F)),
    binary main_v76 main_v77 main_v78 (addf : (⟨S2x65536, .f32⟩ : BufTy).Contents (Elt F) → (⟨S2x65536, .f32⟩ : BufTy).Contents (Elt F) → (⟨S2x65536, .f32⟩ : BufTy).Contents (Elt F)),
    nullary main_cst_28 (constant S_ .f32 0x43800000#32),
    unary main_cst_28 main_v79 (broadcastInDim S2x65536 ![] bcast_S_S2x65536 : (⟨S_, .f32⟩ : BufTy).Contents (Elt F) → (⟨S2x65536, .f32⟩ : BufTy).Contents (Elt F)),
    binary main_v78 main_v79 main_v80 (mulf : (⟨S2x65536, .f32⟩ : BufTy).Contents (Elt F) → (⟨S2x65536, .f32⟩ : BufTy).Contents (Elt F) → (⟨S2x65536, .f32⟩ : BufTy).Contents (Elt F)),
    nullary main_cst_29 (constant S_ .f32 0x3F800000#32),
    unary main_cst_29 main_v81 (broadcastInDim S2x65536 ![] bcast_S_S2x65536 : (⟨S_, .f32⟩ : BufTy).Contents (Elt F) → (⟨S2x65536, .f32⟩ : BufTy).Contents (Elt F)),
    binary main_v80 main_v81 main_v82 (subf : (⟨S2x65536, .f32⟩ : BufTy).Contents (Elt F) → (⟨S2x65536, .f32⟩ : BufTy).Contents (Elt F) → (⟨S2x65536, .f32⟩ : BufTy).Contents (Elt F)),
    nullary main_cst_30 (constant S_ .f32 0x3F000000#32),
    unary main_cst_30 main_v83 (broadcastInDim S2x65536 ![] bcast_S_S2x65536 : (⟨S_, .f32⟩ : BufTy).Contents (Elt F) → (⟨S2x65536, .f32⟩ : BufTy).Contents (Elt F)),
    binary main_v82 main_v83 main_v84 (mulf : (⟨S2x65536, .f32⟩ : BufTy).Contents (Elt F) → (⟨S2x65536, .f32⟩ : BufTy).Contents (Elt F) → (⟨S2x65536, .f32⟩ : BufTy).Contents (Elt F)),
    TRef.unary (TRef.of (T := ⟨S2x65536, .f32⟩) main_v84) (TRef.of (T := ⟨S2x65536, .f32⟩) main_v85) Host.roundeven,
    nullary main_c_31 (constantI S_ 32 0#32),
    nullary main_c_32 (constantI S_ 32 255#32),
    TRef.unary (TRef.of (T := ⟨S_, .i32⟩) main_c_31) (TRef.of (T := ⟨S_, .f32⟩) main_call8_v0) (sitofp .f32),
    TRef.unary (TRef.of (T := ⟨S_, .f32⟩) main_call8_v0) (TRef.of (T := ⟨S2x65536, .f32⟩) main_call8_v1) (broadcastInDim S2x65536 ![] bcast_S_S2x65536),
    TRef.binary (TRef.of (T := ⟨S2x65536, .f32⟩) main_call8_v1) (TRef.of (T := ⟨S2x65536, .f32⟩) main_v85) (TRef.of (T := ⟨S2x65536, .f32⟩) main_call8_v2) maximumf,
    TRef.unary (TRef.of (T := ⟨S_, .i32⟩) main_c_32) (TRef.of (T := ⟨S_, .f32⟩) main_call8_v3) (sitofp .f32),
    TRef.unary (TRef.of (T := ⟨S_, .f32⟩) main_call8_v3) (TRef.of (T := ⟨S2x65536, .f32⟩) main_call8_v4) (broadcastInDim S2x65536 ![] bcast_S_S2x65536),
    TRef.binary (TRef.of (T := ⟨S2x65536, .f32⟩) main_call8_v4) (TRef.of (T := ⟨S2x65536, .f32⟩) main_call8_v2) (TRef.of (T := ⟨S2x65536, .f32⟩) main_v86) minimumf,
    unary main_v86 main_v87 (fptosi 32 : (⟨S2x65536, .f32⟩ : BufTy).Contents (Elt F) → (⟨S2x65536, .i32⟩ : BufTy).Contents (Elt F)),
    unary main_v74 main_v88 ((extractStridedSlice S2x65536x1 ![0, 0, 1] · slices_S2x65536x2_S2x65536x1_0_0_1) : (⟨S2x65536x2, .f32⟩ : BufTy).Contents (Elt F) → (⟨S2x65536x1, .f32⟩ : BufTy).Contents (Elt F)),
    reshape main_v88 main_v89 rfl shapeCasts_S2x65536x1_S2x65536,
    nullary main_cst_33 (constant S_ .f32 0x3F800000#32),
    unary main_cst_33 main_v90 (broadcastInDim S2x65536 ![] bcast_S_S2x65536 : (⟨S_, .f32⟩ : BufTy).Contents (Elt F) → (⟨S2x65536, .f32⟩ : BufTy).Contents (Elt F)),
    binary main_v89 main_v90 main_v91 (addf : (⟨S2x65536, .f32⟩ : BufTy).Contents (Elt F) → (⟨S2x65536, .f32⟩ : BufTy).Contents (Elt F) → (⟨S2x65536, .f32⟩ : BufTy).Contents (Elt F)),
    nullary main_cst_34 (constant S_ .f32 0x43800000#32),
    unary main_cst_34 main_v92 (broadcastInDim S2x65536 ![] bcast_S_S2x65536 : (⟨S_, .f32⟩ : BufTy).Contents (Elt F) → (⟨S2x65536, .f32⟩ : BufTy).Contents (Elt F)),
    binary main_v91 main_v92 main_v93 (mulf : (⟨S2x65536, .f32⟩ : BufTy).Contents (Elt F) → (⟨S2x65536, .f32⟩ : BufTy).Contents (Elt F) → (⟨S2x65536, .f32⟩ : BufTy).Contents (Elt F)),
    nullary main_cst_35 (constant S_ .f32 0x3F800000#32),
    unary main_cst_35 main_v94 (broadcastInDim S2x65536 ![] bcast_S_S2x65536 : (⟨S_, .f32⟩ : BufTy).Contents (Elt F) → (⟨S2x65536, .f32⟩ : BufTy).Contents (Elt F)),
    binary main_v93 main_v94 main_v95 (subf : (⟨S2x65536, .f32⟩ : BufTy).Contents (Elt F) → (⟨S2x65536, .f32⟩ : BufTy).Contents (Elt F) → (⟨S2x65536, .f32⟩ : BufTy).Contents (Elt F)),
    nullary main_cst_36 (constant S_ .f32 0x3F000000#32),
    unary main_cst_36 main_v96 (broadcastInDim S2x65536 ![] bcast_S_S2x65536 : (⟨S_, .f32⟩ : BufTy).Contents (Elt F) → (⟨S2x65536, .f32⟩ : BufTy).Contents (Elt F)),
    binary main_v95 main_v96 main_v97 (mulf : (⟨S2x65536, .f32⟩ : BufTy).Contents (Elt F) → (⟨S2x65536, .f32⟩ : BufTy).Contents (Elt F) → (⟨S2x65536, .f32⟩ : BufTy).Contents (Elt F)),
    TRef.unary (TRef.of (T := ⟨S2x65536, .f32⟩) main_v97) (TRef.of (T := ⟨S2x65536, .f32⟩) main_v98) Host.roundeven,
    nullary main_c_37 (constantI S_ 32 0#32),
    nullary main_c_38 (constantI S_ 32 255#32),
    TRef.unary (TRef.of (T := ⟨S_, .i32⟩) main_c_37) (TRef.of (T := ⟨S_, .f32⟩) main_call10_v0) (sitofp .f32),
    TRef.unary (TRef.of (T := ⟨S_, .f32⟩) main_call10_v0) (TRef.of (T := ⟨S2x65536, .f32⟩) main_call10_v1) (broadcastInDim S2x65536 ![] bcast_S_S2x65536),
    TRef.binary (TRef.of (T := ⟨S2x65536, .f32⟩) main_call10_v1) (TRef.of (T := ⟨S2x65536, .f32⟩) main_v98) (TRef.of (T := ⟨S2x65536, .f32⟩) main_call10_v2) maximumf,
    TRef.unary (TRef.of (T := ⟨S_, .i32⟩) main_c_38) (TRef.of (T := ⟨S_, .f32⟩) main_call10_v3) (sitofp .f32),
    TRef.unary (TRef.of (T := ⟨S_, .f32⟩) main_call10_v3) (TRef.of (T := ⟨S2x65536, .f32⟩) main_call10_v4) (broadcastInDim S2x65536 ![] bcast_S_S2x65536),
    TRef.binary (TRef.of (T := ⟨S2x65536, .f32⟩) main_call10_v4) (TRef.of (T := ⟨S2x65536, .f32⟩) main_call10_v2) (TRef.of (T := ⟨S2x65536, .f32⟩) main_v99) minimumf,
    unary main_v99 main_v100 (fptosi 32 : (⟨S2x65536, .f32⟩ : BufTy).Contents (Elt F) → (⟨S2x65536, .i32⟩ : BufTy).Contents (Elt F)),
    nullary main_c_39 (constantI S_ 32 256#32),
    unary main_c_39 main_v101 (broadcastInDim S2x65536 ![] bcast_S_S2x65536 : (⟨S_, .i32⟩ : BufTy).Contents (Elt F) → (⟨S2x65536, .i32⟩ : BufTy).Contents (Elt F)),
    binary main_v87 main_v101 main_v102 (muli : (⟨S2x65536, .i32⟩ : BufTy).Contents (Elt F) → (⟨S2x65536, .i32⟩ : BufTy).Contents (Elt F) → (⟨S2x65536, .i32⟩ : BufTy).Contents (Elt F)),
    binary main_v102 main_v100 main_v103 (addi : (⟨S2x65536, .i32⟩ : BufTy).Contents (Elt F) → (⟨S2x65536, .i32⟩ : BufTy).Contents (Elt F) → (⟨S2x65536, .i32⟩ : BufTy).Contents (Elt F)),
    reshape main_arg0 main_v104 rfl shapeCasts_S2x64x256x256_S2x64x65536,
    unary main_v103 main_v105 (broadcastInDim S2x1x65536 ![0, 2] bcast_S2x65536_S2x1x65536_0_2 : (⟨S2x65536, .i32⟩ : BufTy).Contents (Elt F) → (⟨S2x1x65536, .i32⟩ : BufTy).Contents (Elt F)) ]

set_option maxHeartbeats 40000000 in
/-- Operations 200 … 207 of the program, in order. -/
abbrev seg4 : List (HloOp τ sig (Elt F)) :=
  [
    TRef.nullary (TRef.of (T := ⟨S_, .i32⟩) main_call11_c) (constantI S_ 32 0#32),
    TRef.unary (TRef.of (T := ⟨S_, .i32⟩) main_call11_c) (TRef.of (T := ⟨S2x1x65536, .i32⟩) main_call11_v0) (broadcastInDim S2x1x65536 ![] bcast_S_S2x1x65536),
    TRef.binary (TRef.of (T := ⟨S2x1x65536, .i32⟩) main_v105) (TRef.of (T := ⟨S2x1x65536, .i32⟩) main_call11_v0) (TRef.of (T := ⟨S2x1x65536, .i1⟩) main_call11_v1) (cmpi .slt),
    TRef.nullary (TRef.of (T := ⟨S_, .i32⟩) main_call11_c_0) (constantI S_ 32 65536#32),
    TRef.unary (TRef.of (T := ⟨S_, .i32⟩) main_call11_c_0) (TRef.of (T := ⟨S2x1x65536, .i32⟩) main_call11_v2) (broadcastInDim S2x1x65536 ![] bcast_S_S2x1x65536),
    TRef.binary (TRef.of (T := ⟨S2x1x65536, .i32⟩) main_v105) (TRef.of (T := ⟨S2x1x65536, .i32⟩) main_call11_v2) (TRef.of (T := ⟨S2x1x65536, .i32⟩) main_call11_v3) addi,
    TRef.ternary (TRef.of (T := ⟨S2x1x65536, .i1⟩) main_call11_v1) (TRef.of (T := ⟨S2x1x65536, .i32⟩) main_call11_v3) (TRef.of (T := ⟨S2x1x65536, .i32⟩) main_v105) (TRef.of (T := ⟨S2x1x65536, .i32⟩) main_call11_v4) select,
    TRef.reshape (TRef.of (T := ⟨S2x1x65536, .i32⟩) main_call11_v4) (TRef.of (T := ⟨S2x65536x1, .i32⟩) main_call11_v5) rfl shapeCasts_S2x1x65536_S2x65536x1 ]

set_option maxHeartbeats 40000000 in
/-- Operations 208 … 223 of the program, in order. -/
abbrev seg5 : List (HloOp τ sig (Elt F)) :=
  [
    TRef.nullary (TRef.of (T := ⟨S1, .i32⟩) main_call11_c_1) (constantI S1 32 65535#32),
    TRef.nullary (TRef.of (T := ⟨S_, .i32⟩) main_call11_c_2) (constantI S_ 32 0#32),
    TRef.unary (TRef.of (T := ⟨S_, .i32⟩) main_call11_c_2) (TRef.of (T := ⟨S2x65536x1, .i32⟩) main_call11_v6) (broadcastInDim S2x65536x1 ![] bcast_S_S2x65536x1),
    TRef.binary (TRef.of (T := ⟨S2x65536x1, .i32⟩) main_call11_v5) (TRef.of (T := ⟨S2x65536x1, .i32⟩) main_call11_v6) (TRef.of (T := ⟨S2x65536x1, .i1⟩) main_call11_v7) (cmpi .sge),
    TRef.unary (TRef.of (T := ⟨S1, .i32⟩) main_call11_c_1) (TRef.of (T := ⟨S1x1x1, .i32⟩) main_call11_v8) (broadcastInDim S1x1x1 ![2] bcast_S1_S1x1x1_2),
    TRef.unary (TRef.of (T := ⟨S1x1x1, .i32⟩) main_call11_v8) (TRef.of (T := ⟨S2x65536x1, .i32⟩) main_call11_v9) (broadcastInDim S2x65536x1 ![0, 1, 2] bcast_S1x1x1_S2x65536x1_0_1_2),
    TRef.binary (TRef.of (T := ⟨S2x65536x1, .i32⟩) main_call11_v5) (TRef.of (T := ⟨S2x65536x1, .i32⟩) main_call11_v9) (TRef.of (T := ⟨S2x65536x1, .i1⟩) main_call11_v10) (cmpi .sle),
    TRef.binary (TRef.of (T := ⟨S2x65536x1, .i1⟩) main_call11_v7) (TRef.of (T := ⟨S2x65536x1, .i1⟩) main_call11_v10) (TRef.of (T := ⟨S2x65536x1, .i1⟩) main_call11_v11) andi,
    TRef.nullary (TRef.of (T := ⟨S_, .i1⟩) main_call11_c_3) (constantI S_ 1 1#1),
    TRef.binary (TRef.of (T := ⟨S2x65536x1, .i1⟩) main_call11_v11) (TRef.of (T := ⟨S_, .i1⟩) main_call11_c_3) (TRef.of (T := ⟨S2x65536, .i1⟩) main_call11_v12) (fun x v => Host.reduce IntOp.andi x v reducesTo_S2x65536x1_S2x65536_d2 h_S_),
    TRef.binary (TRef.of (T := ⟨S2x64x65536, .f32⟩) main_v104) (TRef.of (T := ⟨S2x65536x1, .i32⟩) main_call11_v5) (TRef.of (T := ⟨S2x64x65536, .f32⟩) main_call11_v13) (fun x i => Host.gather gather_S2x64x65536_S2x65536x1_S2x64x65536_1_2_0_0_2_2_1641 x i),
    TRef.unary (TRef.of (T := ⟨S2x65536, .i1⟩) main_call11_v12) (TRef.of (T := ⟨S2x64x65536, .i1⟩) main_call11_v14) (broadcastInDim S2x64x65536 ![0, 2] bcast_S2x65536_S2x64x65536_0_2),
    TRef.nullary (TRef.of (T := ⟨S_, .f32⟩) main_call11_cst) (constant S_ .f32 0x7FC00000#32),
    TRef.unary (TRef.of (T := ⟨S_, .f32⟩) main_call11_cst) (TRef.of (T := ⟨S2x64x65536, .f32⟩) main_call11_v15) (broadcastInDim S2x64x65536 ![] bcast_S_S2x64x65536),
    TRef.ternary (TRef.of (T := ⟨S2x64x65536, .i1⟩) main_call11_v14) (TRef.of (T := ⟨S2x64x65536, .f32⟩) main_call11_v13) (TRef.of (T := ⟨S2x64x65536, .f32⟩) main_call11_v15) (TRef.of (T := ⟨S2x64x65536, .f32⟩) main_v106) select,
    unary main_v106 main_v107 ((transpose S2x65536x64 [0, 2, 1] · transposes_S2x64x65536_S2x65536x64_0_2_1) : (⟨S2x64x65536, .f32⟩ : BufTy).Contents (Elt F) → (⟨S2x65536x64, .f32⟩ : BufTy).Contents (Elt F)) ]

set_option maxHeartbeats 40000000 in
/-- Operations 224 … 310 of the program, in order. -/
abbrev seg6 : List (HloOp τ sig (Elt F)) :=
  [
    unary main_arg1 main_v108 ((extractStridedSlice S2x65536x1 ![0, 0, 0] · slices_S2x65536x2_S2x65536x1_0_0_0) : (⟨S2x65536x2, .f32⟩ : BufTy).Contents (Elt F) → (⟨S2x65536x1, .f32⟩ : BufTy).Contents (Elt F)),
    reshape main_v108 main_v109 rfl shapeCasts_S2x65536x1_S2x65536,
    nullary main_cst_40 (constant S_ .f32 0x3F800000#32),
    binary main_cst_40 main_v1 main_v110 (mulf : (⟨S_, .f32⟩ : BufTy).Contents (Elt F) → (⟨S_, .f32⟩ : BufTy).Contents (Elt F) → (⟨S_, .f32⟩ : BufTy).Contents (Elt F)),
    nullary main_cst_41 (constant S_ .f32 0x3B800000#32),
    binary main_v110 main_cst_41 main_v111 (mulf : (⟨S_, .f32⟩ : BufTy).Contents (Elt F) → (⟨S_, .f32⟩ : BufTy).Contents (Elt F) → (⟨S_, .f32⟩ : BufTy).Contents (Elt F)),
    unary main_v111 main_v112 (broadcastInDim S2x65536 ![] bcast_S_S2x65536 : (⟨S_, .f32⟩ : BufTy).Contents (Elt F) → (⟨S2x65536, .f32⟩ : BufTy).Contents (Elt F)),
    binary main_v109 main_v112 main_v113 (addf : (⟨S2x65536, .f32⟩ : BufTy).Contents (Elt F) → (⟨S2x65536, .f32⟩ : BufTy).Contents (Elt F) → (⟨S2x65536, .f32⟩ : BufTy).Contents (Elt F)),
    nullary main_cst_42 (constant S_ .f32 0x358637BD#32),
    unary main_cst_42 main_v114 (broadcastInDim S2x65536 ![] bcast_S_S2x65536 : (⟨S_, .f32⟩ : BufTy).Contents (Elt F) → (⟨S2x65536, .f32⟩ : BufTy).Contents (Elt F)),
    binary main_v113 main_v114 main_v115 (addf : (⟨S2x65536, .f32⟩ : BufTy).Contents (Elt F) → (⟨S2x65536, .f32⟩ : BufTy).Contents (Elt F) → (⟨S2x65536, .f32⟩ : BufTy).Contents (Elt F)),
    unary main_arg1 main_v116 ((extractStridedSlice S2x65536x1 ![0, 0, 1] · slices_S2x65536x2_S2x65536x1_0_0_1) : (⟨S2x65536x2, .f32⟩ : BufTy).Contents (Elt F) → (⟨S2x65536x1, .f32⟩ : BufTy).Contents (Elt F)),
    reshape main_v116 main_v117 rfl shapeCasts_S2x65536x1_S2x65536,
    nullary main_cst_43 (constant S_ .f32 0xBF800000#32),
    binary main_cst_43 main_v1 main_v118 (mulf : (⟨S_, .f32⟩ : BufTy).Contents (Elt F) → (⟨S_, .f32⟩ : BufTy).Contents (Elt F) → (⟨S_, .f32⟩ : BufTy).Contents (Elt F)),
    nullary main_cst_44 (constant S_ .f32 0x3B800000#32),
    binary main_v118 main_cst_44 main_v119 (mulf : (⟨S_, .f32⟩ : BufTy).Contents (Elt F) → (⟨S_, .f32⟩ : BufTy).Contents (Elt F) → (⟨S_, .f32⟩ : BufTy).Contents (Elt F)),
    unary main_v119 main_v120 (broadcastInDim S2x65536 ![] bcast_S_S2x65536 : (⟨S_, .f32⟩ : BufTy).Contents (Elt F) → (⟨S2x65536, .f32⟩ : BufTy).Contents (Elt F)),
    binary main_v117 main_v120 main_v121 (addf : (⟨S2x65536, .f32⟩ : BufTy).Contents (Elt F) → (⟨S2x65536, .f32⟩ : BufTy).Contents (Elt F) → (⟨S2x65536, .f32⟩ : BufTy).Contents (Elt F)),
    nullary main_cst_45 (constant S_ .f32 0x358637BD#32),
    unary main_cst_45 main_v122 (broadcastInDim S2x65536 ![] bcast_S_S2x65536 : (⟨S_, .f32⟩ : BufTy).Contents (Elt F) → (⟨S2x65536, .f32⟩ : BufTy).Contents (Elt F)),
    binary main_v121 main_v122 main_v123 (addf : (⟨S2x65536, .f32⟩ : BufTy).Contents (Elt F) → (⟨S2x65536, .f32⟩ : BufTy).Contents (Elt F) → (⟨S2x65536, .f32⟩ : BufTy).Contents (Elt F)),
    unary main_v115 main_v124 (broadcastInDim S2x65536x1 ![0, 1] bcast_S2x65536_S2x65536x1_0_1 : (⟨S2x65536, .f32⟩ : BufTy).Contents (Elt F) → (⟨S2x65536x1, .f32⟩ : BufTy).Contents (Elt F)),
    unary main_v123 main_v125 (broadcastInDim S2x65536x1 ![0, 1] bcast_S2x65536_S2x65536x1_0_1 : (⟨S2x65536, .f32⟩ : BufTy).Contents (Elt F) → (⟨S2x65536x1, .f32⟩ : BufTy).Contents (Elt F)),
    binary main_v124 main_v125 main_v126 ((fun a b => concatenate S2x65536x2 2 [⟨S2x65536x1, a⟩, ⟨S2x65536x1, b⟩] concatenates_S2x65536x1_S2x65536x1_S2x65536x2_d2) : (⟨S2x65536x1, .f32⟩ : BufTy).Contents (Elt F) → (⟨S2x65536x1, .f32⟩ : BufTy).Contents (Elt F) → (⟨S2x65536x2, .f32⟩ : BufTy).Contents (Elt F)),
    nullary main_cst_46 (constant S_ .f32 0xBF7FFFEF#32),
    nullary main_cst_47 (constant S_ .f32 0x3F7FFFEF#32),
    TRef.unary (TRef.of (T := ⟨S_, .f32⟩) main_cst_46) (TRef.of (T := ⟨S_, .f32⟩) main_call12_v0) id,
    TRef.unary (TRef.of (T := ⟨S_, .f32⟩) main_call12_v0) (TRef.of (T := ⟨S2x65536x2, .f32⟩) main_call12_v1) (broadcastInDim S2x65536x2 ![] bcast_S_S2x65536x2),
    TRef.binary (TRef.of (T := ⟨S2x65536x2, .f32⟩) main_call12_v1) (TRef.of (T := ⟨S2x65536x2, .f32⟩) main_v126) (TRef.of (T := ⟨S2x65536x2, .f32⟩) main_call12_v2) maximumf,
    TRef.unary (TRef.of (T := ⟨S_, .f32⟩) main_cst_47) (TRef.of (T := ⟨S_, .f32⟩) main_call12_v3) id,
    TRef.unary (TRef.of (T := ⟨S_, .f32⟩) main_call12_v3) (TRef.of (T := ⟨S2x65536x2, .f32⟩) main_call12_v4) (broadcastInDim S2x65536x2 ![] bcast_S_S2x65536x2),
    TRef.binary (TRef.of (T := ⟨S2x65536x2, .f32⟩) main_call12_v4) (TRef.of (T := ⟨S2x65536x2, .f32⟩) main_call12_v2) (TRef.of (T := ⟨S2x65536x2, .f32⟩) main_v127) minimumf,
    unary main_v127 main_v128 ((extractStridedSlice S2x65536x1 ![0, 0, 0] · slices_S2x65536x2_S2x65536x1_0_0_0) : (⟨S2x65536x2, .f32⟩ : BufTy).Contents (Elt F) → (⟨S2x65536x1, .f32⟩ : BufTy).Contents (Elt F)),
    reshape main_v128 main_v129 rfl shapeCasts_S2x65536x1_S2x65536,
    nullary main_cst_48 (constant S_ .f32 0x3F800000#32),
    unary main_cst_48 main_v130 (broadcastInDim S2x65536 ![] bcast_S_S2x65536 : (⟨S_, .f32⟩ : BufTy).Contents (Elt F) → (⟨S2x65536, .f32⟩ : BufTy).Contents (Elt F)),
    binary main_v129 main_v130 main_v131 (addf : (⟨S2x65536, .f32⟩ : BufTy).Contents (Elt F) → (⟨S2x65536, .f32⟩ : BufTy).Contents (Elt F) → (⟨S2x65536, .f32⟩ : BufTy).Contents (Elt F)),
    nullary main_cst_49 (constant S_ .f32 0x43800000#32),
    unary main_cst_49 main_v132 (broadcastInDim S2x65536 ![] bcast_S_S2x65536 : (⟨S_, .f32⟩ : BufTy).Contents (Elt F) → (⟨S2x65536, .f32⟩ : BufTy).Contents (Elt F)),
    binary main_v131 main_v132 main_v133 (mulf : (⟨S2x65536, .f32⟩ : BufTy).Contents (Elt F) → (⟨S2x65536, .f32⟩ : BufTy).Contents (Elt F) → (⟨S2x65536, .f32⟩ : BufTy).Contents (Elt F)),
    nullary main_cst_50 (constant S_ .f32 0x3F800000#32),
    unary main_cst_50 main_v134 (broadcastInDim S2x65536 ![] bcast_S_S2x65536 : (⟨S_, .f32⟩ : BufTy).Contents (Elt F) → (⟨S2x65536, .f32⟩ : BufTy).Contents (Elt F)),
    binary main_v133 main_v134 main_v135 (subf : (⟨S2x65536, .f32⟩ : BufTy).Contents (Elt F) → (⟨S2x65536, .f32⟩ : BufTy).Contents (Elt F) → (⟨S2x65536, .f32⟩ : BufTy).Contents (Elt F)),
    nullary main_cst_51 (constant S_ .f32 0x3F000000#32),
    unary main_cst_51 main_v136 (broadcastInDim S2x65536 ![] bcast_S_S2x65536 : (⟨S_, .f32⟩ : BufTy).Contents (Elt F) → (⟨S2x65536, .f32⟩ : BufTy).Contents (Elt F)),
    binary main_v135 main_v136 main_v137 (mulf : (⟨S2x65536, .f32⟩ : BufTy).Contents (Elt F) → (⟨S2x65536, .f32⟩ : BufTy).Contents (Elt F) → (⟨S2x65536, .f32⟩ : BufTy).Contents (Elt F)),
    TRef.unary (TRef.of (T := ⟨S2x65536, .f32⟩) main_v137) (TRef.of (T := ⟨S2x65536, .f32⟩) main_v138) Host.roundeven,
    nullary main_c_52 (constantI S_ 32 0#32),
    nullary main_c_53 (constantI S_ 32 255#32),
    TRef.unary (TRef.of (T := ⟨S_, .i32⟩) main_c_52) (TRef.of (T := ⟨S_, .f32⟩) main_call14_v0) (sitofp .f32),
    TRef.unary (TRef.of (T := ⟨S_, .f32⟩) main_call14_v0) (TRef.of (T := ⟨S2x65536, .f32⟩) main_call14_v1) (broadcastInDim S2x65536 ![] bcast_S_S2x65536),
    TRef.binary (TRef.of (T := ⟨S2x65536, .f32⟩) main_call14_v1) (TRef.of (T := ⟨S2x65536, .f32⟩) main_v138) (TRef.of (T := ⟨S2x65536, .f32⟩) main_call14_v2) maximumf,
    TRef.unary (TRef.of (T := ⟨S_, .i32⟩) main_c_53) (TRef.of (T := ⟨S_, .f32⟩) main_call14_v3) (sitofp .f32),
    TRef.unary (TRef.of (T := ⟨S_, .f32⟩) main_call14_v3) (TRef.of (T := ⟨S2x65536, .f32⟩) main_call14_v4) (broadcastInDim S2x65536 ![] bcast_S_S2x65536),
    TRef.binary (TRef.of (T := ⟨S2x65536, .f32⟩) main_call14_v4) (TRef.of (T := ⟨S2x65536, .f32⟩) main_call14_v2) (TRef.of (T := ⟨S2x65536, .f32⟩) main_v139) minimumf,
    unary main_v139 main_v140 (fptosi 32 : (⟨S2x65536, .f32⟩ : BufTy).Contents (Elt F) → (⟨S2x65536, .i32⟩ : BufTy).Contents (Elt F)),
    unary main_v127 main_v141 ((extractStridedSlice S2x65536x1 ![0, 0, 1] · slices_S2x65536x2_S2x65536x1_0_0_1) : (⟨S2x65536x2, .f32⟩ : BufTy).Contents (Elt F) → (⟨S2x65536x1, .f32⟩ : BufTy).Contents (Elt F)),
    reshape main_v141 main_v142 rfl shapeCasts_S2x65536x1_S2x65536,
    nullary main_cst_54 (constant S_ .f32 0x3F800000#32),
    unary main_cst_54 main_v143 (broadcastInDim S2x65536 ![] bcast_S_S2x65536 : (⟨S_, .f32⟩ : BufTy).Contents (Elt F) → (⟨S2x65536, .f32⟩ : BufTy).Contents (Elt F)),
    binary main_v142 main_v143 main_v144 (addf : (⟨S2x65536, .f32⟩ : BufTy).Contents (Elt F) → (⟨S2x65536, .f32⟩ : BufTy).Contents (Elt F) → (⟨S2x65536, .f32⟩ : BufTy).Contents (Elt F)),
    nullary main_cst_55 (constant S_ .f32 0x43800000#32),
    unary main_cst_55 main_v145 (broadcastInDim S2x65536 ![] bcast_S_S2x65536 : (⟨S_, .f32⟩ : BufTy).Contents (Elt F) → (⟨S2x65536, .f32⟩ : BufTy).Contents (Elt F)),
    binary main_v144 main_v145 main_v146 (mulf : (⟨S2x65536, .f32⟩ : BufTy).Contents (Elt F) → (⟨S2x65536, .f32⟩ : BufTy).Contents (Elt F) → (⟨S2x65536, .f32⟩ : BufTy).Contents (Elt F)),
    nullary main_cst_56 (constant S_ .f32 0x3F800000#32),
    unary main_cst_56 main_v147 (broadcastInDim S2x65536 ![] bcast_S_S2x65536 : (⟨S_, .f32⟩ : BufTy).Contents (Elt F) → (⟨S2x65536, .f32⟩ : BufTy).Contents (Elt F)),
    binary main_v146 main_v147 main_v148 (subf : (⟨S2x65536, .f32⟩ : BufTy).Contents (Elt F) → (⟨S2x65536, .f32⟩ : BufTy).Contents (Elt F) → (⟨S2x65536, .f32⟩ : BufTy).Contents (Elt F)),
    nullary main_cst_57 (constant S_ .f32 0x3F000000#32),
    unary main_cst_57 main_v149 (broadcastInDim S2x65536 ![] bcast_S_S2x65536 : (⟨S_, .f32⟩ : BufTy).Contents (Elt F) → (⟨S2x65536, .f32⟩ : BufTy).Contents (Elt F)),
    binary main_v148 main_v149 main_v150 (mulf : (⟨S2x65536, .f32⟩ : BufTy).Contents (Elt F) → (⟨S2x65536, .f32⟩ : BufTy).Contents (Elt F) → (⟨S2x65536, .f32⟩ : BufTy).Contents (Elt F)),
    TRef.unary (TRef.of (T := ⟨S2x65536, .f32⟩) main_v150) (TRef.of (T := ⟨S2x65536, .f32⟩) main_v151) Host.roundeven,
    nullary main_c_58 (constantI S_ 32 0#32),
    nullary main_c_59 (constantI S_ 32 255#32),
    TRef.unary (TRef.of (T := ⟨S_, .i32⟩) main_c_58) (TRef.of (T := ⟨S_, .f32⟩) main_call16_v0) (sitofp .f32),
    TRef.unary (TRef.of (T := ⟨S_, .f32⟩) main_call16_v0) (TRef.of (T := ⟨S2x65536, .f32⟩) main_call16_v1) (broadcastInDim S2x65536 ![] bcast_S_S2x65536),
    TRef.binary (TRef.of (T := ⟨S2x65536, .f32⟩) main_call16_v1) (TRef.of (T := ⟨S2x65536, .f32⟩) main_v151) (TRef.of (T := ⟨S2x65536, .f32⟩) main_call16_v2) maximumf,
    TRef.unary (TRef.of (T := ⟨S_, .i32⟩) main_c_59) (TRef.of (T := ⟨S_, .f32⟩) main_call16_v3) (sitofp .f32),
    TRef.unary (TRef.of (T := ⟨S_, .f32⟩) main_call16_v3) (TRef.of (T := ⟨S2x65536, .f32⟩) main_call16_v4) (broadcastInDim S2x65536 ![] bcast_S_S2x65536),
    TRef.binary (TRef.of (T := ⟨S2x65536, .f32⟩) main_call16_v4) (TRef.of (T := ⟨S2x65536, .f32⟩) main_call16_v2) (TRef.of (T := ⟨S2x65536, .f32⟩) main_v152) minimumf,
    unary main_v152 main_v153 (fptosi 32 : (⟨S2x65536, .f32⟩ : BufTy).Contents (Elt F) → (⟨S2x65536, .i32⟩ : BufTy).Contents (Elt F)),
    nullary main_c_60 (constantI S_ 32 256#32),
    unary main_c_60 main_v154 (broadcastInDim S2x65536 ![] bcast_S_S2x65536 : (⟨S_, .i32⟩ : BufTy).Contents (Elt F) → (⟨S2x65536, .i32⟩ : BufTy).Contents (Elt F)),
    binary main_v140 main_v154 main_v155 (muli : (⟨S2x65536, .i32⟩ : BufTy).Contents (Elt F) → (⟨S2x65536, .i32⟩ : BufTy).Contents (Elt F) → (⟨S2x65536, .i32⟩ : BufTy).Contents (Elt F)),
    binary main_v155 main_v153 main_v156 (addi : (⟨S2x65536, .i32⟩ : BufTy).Contents (Elt F) → (⟨S2x65536, .i32⟩ : BufTy).Contents (Elt F) → (⟨S2x65536, .i32⟩ : BufTy).Contents (Elt F)),
    reshape main_arg0 main_v157 rfl shapeCasts_S2x64x256x256_S2x64x65536,
    unary main_v156 main_v158 (broadcastInDim S2x1x65536 ![0, 2] bcast_S2x65536_S2x1x65536_0_2 : (⟨S2x65536, .i32⟩ : BufTy).Contents (Elt F) → (⟨S2x1x65536, .i32⟩ : BufTy).Contents (Elt F)) ]

set_option maxHeartbeats 40000000 in
/-- Operations 311 … 318 of the program, in order. -/
abbrev seg7 : List (HloOp τ sig (Elt F)) :=
  [
    TRef.nullary (TRef.of (T := ⟨S_, .i32⟩) main_call17_c) (constantI S_ 32 0#32),
    TRef.unary (TRef.of (T := ⟨S_, .i32⟩) main_call17_c) (TRef.of (T := ⟨S2x1x65536, .i32⟩) main_call17_v0) (broadcastInDim S2x1x65536 ![] bcast_S_S2x1x65536),
    TRef.binary (TRef.of (T := ⟨S2x1x65536, .i32⟩) main_v158) (TRef.of (T := ⟨S2x1x65536, .i32⟩) main_call17_v0) (TRef.of (T := ⟨S2x1x65536, .i1⟩) main_call17_v1) (cmpi .slt),
    TRef.nullary (TRef.of (T := ⟨S_, .i32⟩) main_call17_c_0) (constantI S_ 32 65536#32),
    TRef.unary (TRef.of (T := ⟨S_, .i32⟩) main_call17_c_0) (TRef.of (T := ⟨S2x1x65536, .i32⟩) main_call17_v2) (broadcastInDim S2x1x65536 ![] bcast_S_S2x1x65536),
    TRef.binary (TRef.of (T := ⟨S2x1x65536, .i32⟩) main_v158) (TRef.of (T := ⟨S2x1x65536, .i32⟩) main_call17_v2) (TRef.of (T := ⟨S2x1x65536, .i32⟩) main_call17_v3) addi,
    TRef.ternary (TRef.of (T := ⟨S2x1x65536, .i1⟩) main_call17_v1) (TRef.of (T := ⟨S2x1x65536, .i32⟩) main_call17_v3) (TRef.of (T := ⟨S2x1x65536, .i32⟩) main_v158) (TRef.of (T := ⟨S2x1x65536, .i32⟩) main_call17_v4) select,
    TRef.reshape (TRef.of (T := ⟨S2x1x65536, .i32⟩) main_call17_v4) (TRef.of (T := ⟨S2x65536x1, .i32⟩) main_call17_v5) rfl shapeCasts_S2x1x65536_S2x65536x1 ]

set_option maxHeartbeats 40000000 in
/-- Operations 319 … 334 of the program, in order. -/
abbrev seg8 : List (HloOp τ sig (Elt F)) :=
  [
    TRef.nullary (TRef.of (T := ⟨S1, .i32⟩) main_call17_c_1) (constantI S1 32 65535#32),
    TRef.nullary (TRef.of (T := ⟨S_, .i32⟩) main_call17_c_2) (constantI S_ 32 0#32),
    TRef.unary (TRef.of (T := ⟨S_, .i32⟩) main_call17_c_2) (TRef.of (T := ⟨S2x65536x1, .i32⟩) main_call17_v6) (broadcastInDim S2x65536x1 ![] bcast_S_S2x65536x1),
    TRef.binary (TRef.of (T := ⟨S2x65536x1, .i32⟩) main_call17_v5) (TRef.of (T := ⟨S2x65536x1, .i32⟩) main_call17_v6) (TRef.of (T := ⟨S2x65536x1, .i1⟩) main_call17_v7) (cmpi .sge),
    TRef.unary (TRef.of (T := ⟨S1, .i32⟩) main_call17_c_1) (TRef.of (T := ⟨S1x1x1, .i32⟩) main_call17_v8) (broadcastInDim S1x1x1 ![2] bcast_S1_S1x1x1_2),
    TRef.unary (TRef.of (T := ⟨S1x1x1, .i32⟩) main_call17_v8) (TRef.of (T := ⟨S2x65536x1, .i32⟩) main_call17_v9) (broadcastInDim S2x65536x1 ![0, 1, 2] bcast_S1x1x1_S2x65536x1_0_1_2),
    TRef.binary (TRef.of (T := ⟨S2x65536x1, .i32⟩) main_call17_v5) (TRef.of (T := ⟨S2x65536x1, .i32⟩) main_call17_v9) (TRef.of (T := ⟨S2x65536x1, .i1⟩) main_call17_v10) (cmpi .sle),
    TRef.binary (TRef.of (T := ⟨S2x65536x1, .i1⟩) main_call17_v7) (TRef.of (T := ⟨S2x65536x1, .i1⟩) main_call17_v10) (TRef.of (T := ⟨S2x65536x1, .i1⟩) main_call17_v11) andi,
    TRef.nullary (TRef.of (T := ⟨S_, .i1⟩) main_call17_c_3) (constantI S_ 1 1#1),
    TRef.binary (TRef.of (T := ⟨S2x65536x1, .i1⟩) main_call17_v11) (TRef.of (T := ⟨S_, .i1⟩) main_call17_c_3) (TRef.of (T := ⟨S2x65536, .i1⟩) main_call17_v12) (fun x v => Host.reduce IntOp.andi x v reducesTo_S2x65536x1_S2x65536_d2 h_S_),
    TRef.binary (TRef.of (T := ⟨S2x64x65536, .f32⟩) main_v157) (TRef.of (T := ⟨S2x65536x1, .i32⟩) main_call17_v5) (TRef.of (T := ⟨S2x64x65536, .f32⟩) main_call17_v13) (fun x i => Host.gather gather_S2x64x65536_S2x65536x1_S2x64x65536_1_2_0_0_2_2_1641 x i),
    TRef.unary (TRef.of (T := ⟨S2x65536, .i1⟩) main_call17_v12) (TRef.of (T := ⟨S2x64x65536, .i1⟩) main_call17_v14) (broadcastInDim S2x64x65536 ![0, 2] bcast_S2x65536_S2x64x65536_0_2),
    TRef.nullary (TRef.of (T := ⟨S_, .f32⟩) main_call17_cst) (constant S_ .f32 0x7FC00000#32),
    TRef.unary (TRef.of (T := ⟨S_, .f32⟩) main_call17_cst) (TRef.of (T := ⟨S2x64x65536, .f32⟩) main_call17_v15) (broadcastInDim S2x64x65536 ![] bcast_S_S2x64x65536),
    TRef.ternary (TRef.of (T := ⟨S2x64x65536, .i1⟩) main_call17_v14) (TRef.of (T := ⟨S2x64x65536, .f32⟩) main_call17_v13) (TRef.of (T := ⟨S2x64x65536, .f32⟩) main_call17_v15) (TRef.of (T := ⟨S2x64x65536, .f32⟩) main_v159) select,
    unary main_v159 main_v160 ((transpose S2x65536x64 [0, 2, 1] · transposes_S2x64x65536_S2x65536x64_0_2_1) : (⟨S2x64x65536, .f32⟩ : BufTy).Contents (Elt F) → (⟨S2x65536x64, .f32⟩ : BufTy).Contents (Elt F)) ]

set_option maxHeartbeats 40000000 in
/-- Operations 335 … 421 of the program, in order. -/
abbrev seg9 : List (HloOp τ sig (Elt F)) :=
  [
    unary main_arg1 main_v161 ((extractStridedSlice S2x65536x1 ![0, 0, 0] · slices_S2x65536x2_S2x65536x1_0_0_0) : (⟨S2x65536x2, .f32⟩ : BufTy).Contents (Elt F) → (⟨S2x65536x1, .f32⟩ : BufTy).Contents (Elt F)),
    reshape main_v161 main_v162 rfl shapeCasts_S2x65536x1_S2x65536,
    nullary main_cst_61 (constant S_ .f32 0x3F800000#32),
    binary main_cst_61 main_v1 main_v163 (mulf : (⟨S_, .f32⟩ : BufTy).Contents (Elt F) → (⟨S_, .f32⟩ : BufTy).Contents (Elt F) → (⟨S_, .f32⟩ : BufTy).Contents (Elt F)),
    nullary main_cst_62 (constant S_ .f32 0x3B800000#32),
    binary main_v163 main_cst_62 main_v164 (mulf : (⟨S_, .f32⟩ : BufTy).Contents (Elt F) → (⟨S_, .f32⟩ : BufTy).Contents (Elt F) → (⟨S_, .f32⟩ : BufTy).Contents (Elt F)),
    unary main_v164 main_v165 (broadcastInDim S2x65536 ![] bcast_S_S2x65536 : (⟨S_, .f32⟩ : BufTy).Contents (Elt F) → (⟨S2x65536, .f32⟩ : BufTy).Contents (Elt F)),
    binary main_v162 main_v165 main_v166 (addf : (⟨S2x65536, .f32⟩ : BufTy).Contents (Elt F) → (⟨S2x65536, .f32⟩ : BufTy).Contents (Elt F) → (⟨S2x65536, .f32⟩ : BufTy).Contents (Elt F)),
    nullary main_cst_63 (constant S_ .f32 0x358637BD#32),
    unary main_cst_63 main_v167 (broadcastInDim S2x65536 ![] bcast_S_S2x65536 : (⟨S_, .f32⟩ : BufTy).Contents (Elt F) → (⟨S2x65536, .f32⟩ : BufTy).Contents (Elt F)),
    binary main_v166 main_v167 main_v168 (addf : (⟨S2x65536, .f32⟩ : BufTy).Contents (Elt F) → (⟨S2x65536, .f32⟩ : BufTy).Contents (Elt F) → (⟨S2x65536, .f32⟩ : BufTy).Contents (Elt F)),
    unary main_arg1 main_v169 ((extractStridedSlice S2x65536x1 ![0, 0, 1] · slices_S2x65536x2_S2x65536x1_0_0_1) : (⟨S2x65536x2, .f32⟩ : BufTy).Contents (Elt F) → (⟨S2x65536x1, .f32⟩ : BufTy).Contents (Elt F)),
    reshape main_v169 main_v170 rfl shapeCasts_S2x65536x1_S2x65536,
    nullary main_cst_64 (constant S_ .f32 0x3F800000#32),
    binary main_cst_64 main_v1 main_v171 (mulf : (⟨S_, .f32⟩ : BufTy).Contents (Elt F) → (⟨S_, .f32⟩ : BufTy).Contents (Elt F) → (⟨S_, .f32⟩ : BufTy).Contents (Elt F)),
    nullary main_cst_65 (constant S_ .f32 0x3B800000#32),
    binary main_v171 main_cst_65 main_v172 (mulf : (⟨S_, .f32⟩ : BufTy).Contents (Elt F) → (⟨S_, .f32⟩ : BufTy).Contents (Elt F) → (⟨S_, .f32⟩ : BufTy).Contents (Elt F)),
    unary main_v172 main_v173 (broadcastInDim S2x65536 ![] bcast_S_S2x65536 : (⟨S_, .f32⟩ : BufTy).Contents (Elt F) → (⟨S2x65536, .f32⟩ : BufTy).Contents (Elt F)),
    binary main_v170 main_v173 main_v174 (addf : (⟨S2x65536, .f32⟩ : BufTy).Contents (Elt F) → (⟨S2x65536, .f32⟩ : BufTy).Contents (Elt F) → (⟨S2x65536, .f32⟩ : BufTy).Contents (Elt F)),
    nullary main_cst_66 (constant S_ .f32 0x358637BD#32),
    unary main_cst_66 main_v175 (broadcastInDim S2x65536 ![] bcast_S_S2x65536 : (⟨S_, .f32⟩ : BufTy).Contents (Elt F) → (⟨S2x65536, .f32⟩ : BufTy).Contents (Elt F)),
    binary main_v174 main_v175 main_v176 (addf : (⟨S2x65536, .f32⟩ : BufTy).Contents (Elt F) → (⟨S2x65536, .f32⟩ : BufTy).Contents (Elt F) → (⟨S2x65536, .f32⟩ : BufTy).Contents (Elt F)),
    unary main_v168 main_v177 (broadcastInDim S2x65536x1 ![0, 1] bcast_S2x65536_S2x65536x1_0_1 : (⟨S2x65536, .f32⟩ : BufTy).Contents (Elt F) → (⟨S2x65536x1, .f32⟩ : BufTy).Contents (Elt F)),
    unary main_v176 main_v178 (broadcastInDim S2x65536x1 ![0, 1] bcast_S2x65536_S2x65536x1_0_1 : (⟨S2x65536, .f32⟩ : BufTy).Contents (Elt F) → (⟨S2x65536x1, .f32⟩ : BufTy).Contents (Elt F)),
    binary main_v177 main_v178 main_v179 ((fun a b => concatenate S2x65536x2 2 [⟨S2x65536x1, a⟩, ⟨S2x65536x1, b⟩] concatenates_S2x65536x1_S2x65536x1_S2x65536x2_d2) : (⟨S2x65536x1, .f32⟩ : BufTy).Contents (Elt F) → (⟨S2x65536x1, .f32⟩ : BufTy).Contents (Elt F) → (⟨S2x65536x2, .f32⟩ : BufTy).Contents (Elt F)),
    nullary main_cst_67 (constant S_ .f32 0xBF7FFFEF#32),
    nullary main_cst_68 (constant S_ .f32 0x3F7FFFEF#32),
    TRef.unary (TRef.of (T := ⟨S_, .f32⟩) main_cst_67) (TRef.of (T := ⟨S_, .f32⟩) main_call18_v0) id,
    TRef.unary (TRef.of (T := ⟨S_, .f32⟩) main_call18_v0) (TRef.of (T := ⟨S2x65536x2, .f32⟩) main_call18_v1) (broadcastInDim S2x65536x2 ![] bcast_S_S2x65536x2),
    TRef.binary (TRef.of (T := ⟨S2x65536x2, .f32⟩) main_call18_v1) (TRef.of (T := ⟨S2x65536x2, .f32⟩) main_v179) (TRef.of (T := ⟨S2x65536x2, .f32⟩) main_call18_v2) maximumf,
    TRef.unary (TRef.of (T := ⟨S_, .f32⟩) main_cst_68) (TRef.of (T := ⟨S_, .f32⟩) main_call18_v3) id,
    TRef.unary (TRef.of (T := ⟨S_, .f32⟩) main_call18_v3) (TRef.of (T := ⟨S2x65536x2, .f32⟩) main_call18_v4) (broadcastInDim S2x65536x2 ![] bcast_S_S2x65536x2),
    TRef.binary (TRef.of (T := ⟨S2x65536x2, .f32⟩) main_call18_v4) (TRef.of (T := ⟨S2x65536x2, .f32⟩) main_call18_v2) (TRef.of (T := ⟨S2x65536x2, .f32⟩) main_v180) minimumf,
    unary main_v180 main_v181 ((extractStridedSlice S2x65536x1 ![0, 0, 0] · slices_S2x65536x2_S2x65536x1_0_0_0) : (⟨S2x65536x2, .f32⟩ : BufTy).Contents (Elt F) → (⟨S2x65536x1, .f32⟩ : BufTy).Contents (Elt F)),
    reshape main_v181 main_v182 rfl shapeCasts_S2x65536x1_S2x65536,
    nullary main_cst_69 (constant S_ .f32 0x3F800000#32),
    unary main_cst_69 main_v183 (broadcastInDim S2x65536 ![] bcast_S_S2x65536 : (⟨S_, .f32⟩ : BufTy).Contents (Elt F) → (⟨S2x65536, .f32⟩ : BufTy).Contents (Elt F)),
    binary main_v182 main_v183 main_v184 (addf : (⟨S2x65536, .f32⟩ : BufTy).Contents (Elt F) → (⟨S2x65536, .f32⟩ : BufTy).Contents (Elt F) → (⟨S2x65536, .f32⟩ : BufTy).Contents (Elt F)),
    nullary main_cst_70 (constant S_ .f32 0x43800000#32),
    unary main_cst_70 main_v185 (broadcastInDim S2x65536 ![] bcast_S_S2x65536 : (⟨S_, .f32⟩ : BufTy).Contents (Elt F) → (⟨S2x65536, .f32⟩ : BufTy).Contents (Elt F)),
    binary main_v184 main_v185 main_v186 (mulf : (⟨S2x65536, .f32⟩ : BufTy).Contents (Elt F) → (⟨S2x65536, .f32⟩ : BufTy).Contents (Elt F) → (⟨S2x65536, .f32⟩ : BufTy).Contents (Elt F)),
    nullary main_cst_71 (constant S_ .f32 0x3F800000#32),
    unary main_cst_71 main_v187 (broadcastInDim S2x65536 ![] bcast_S_S2x65536 : (⟨S_, .f32⟩ : BufTy).Contents (Elt F) → (⟨S2x65536, .f32⟩ : BufTy).Contents (Elt F)),
    binary main_v186 main_v187 main_v188 (subf : (⟨S2x65536, .f32⟩ : BufTy).Contents (Elt F) → (⟨S2x65536, .f32⟩ : BufTy).Contents (Elt F) → (⟨S2x65536, .f32⟩ : BufTy).Contents (Elt F)),
    nullary main_cst_72 (constant S_ .f32 0x3F000000#32),
    unary main_cst_72 main_v189 (broadcastInDim S2x65536 ![] bcast_S_S2x65536 : (⟨S_, .f32⟩ : BufTy).Contents (Elt F) → (⟨S2x65536, .f32⟩ : BufTy).Contents (Elt F)),
    binary main_v188 main_v189 main_v190 (mulf : (⟨S2x65536, .f32⟩ : BufTy).Contents (Elt F) → (⟨S2x65536, .f32⟩ : BufTy).Contents (Elt F) → (⟨S2x65536, .f32⟩ : BufTy).Contents (Elt F)),
    TRef.unary (TRef.of (T := ⟨S2x65536, .f32⟩) main_v190) (TRef.of (T := ⟨S2x65536, .f32⟩) main_v191) Host.roundeven,
    nullary main_c_73 (constantI S_ 32 0#32),
    nullary main_c_74 (constantI S_ 32 255#32),
    TRef.unary (TRef.of (T := ⟨S_, .i32⟩) main_c_73) (TRef.of (T := ⟨S_, .f32⟩) main_call20_v0) (sitofp .f32),
    TRef.unary (TRef.of (T := ⟨S_, .f32⟩) main_call20_v0) (TRef.of (T := ⟨S2x65536, .f32⟩) main_call20_v1) (broadcastInDim S2x65536 ![] bcast_S_S2x65536),
    TRef.binary (TRef.of (T := ⟨S2x65536, .f32⟩) main_call20_v1) (TRef.of (T := ⟨S2x65536, .f32⟩) main_v191) (TRef.of (T := ⟨S2x65536, .f32⟩) main_call20_v2) maximumf,
    TRef.unary (TRef.of (T := ⟨S_, .i32⟩) main_c_74) (TRef.of (T := ⟨S_, .f32⟩) main_call20_v3) (sitofp .f32),
    TRef.unary (TRef.of (T := ⟨S_, .f32⟩) main_call20_v3) (TRef.of (T := ⟨S2x65536, .f32⟩) main_call20_v4) (broadcastInDim S2x65536 ![] bcast_S_S2x65536),
    TRef.binary (TRef.of (T := ⟨S2x65536, .f32⟩) main_call20_v4) (TRef.of (T := ⟨S2x65536, .f32⟩) main_call20_v2) (TRef.of (T := ⟨S2x65536, .f32⟩) main_v192) minimumf,
    unary main_v192 main_v193 (fptosi 32 : (⟨S2x65536, .f32⟩ : BufTy).Contents (Elt F) → (⟨S2x65536, .i32⟩ : BufTy).Contents (Elt F)),
    unary main_v180 main_v194 ((extractStridedSlice S2x65536x1 ![0, 0, 1] · slices_S2x65536x2_S2x65536x1_0_0_1) : (⟨S2x65536x2, .f32⟩ : BufTy).Contents (Elt F) → (⟨S2x65536x1, .f32⟩ : BufTy).Contents (Elt F)),
    reshape main_v194 main_v195 rfl shapeCasts_S2x65536x1_S2x65536,
    nullary main_cst_75 (constant S_ .f32 0x3F800000#32),
    unary main_cst_75 main_v196 (broadcastInDim S2x65536 ![] bcast_S_S2x65536 : (⟨S_, .f32⟩ : BufTy).Contents (Elt F) → (⟨S2x65536, .f32⟩ : BufTy).Contents (Elt F)),
    binary main_v195 main_v196 main_v197 (addf : (⟨S2x65536, .f32⟩ : BufTy).Contents (Elt F) → (⟨S2x65536, .f32⟩ : BufTy).Contents (Elt F) → (⟨S2x65536, .f32⟩ : BufTy).Contents (Elt F)),
    nullary main_cst_76 (constant S_ .f32 0x43800000#32),
    unary main_cst_76 main_v198 (broadcastInDim S2x65536 ![] bcast_S_S2x65536 : (⟨S_, .f32⟩ : BufTy).Contents (Elt F) → (⟨S2x65536, .f32⟩ : BufTy).Contents (Elt F)),
    binary main_v197 main_v198 main_v199 (mulf : (⟨S2x65536, .f32⟩ : BufTy).Contents (Elt F) → (⟨S2x65536, .f32⟩ : BufTy).Contents (Elt F) → (⟨S2x65536, .f32⟩ : BufTy).Contents (Elt F)),
    nullary main_cst_77 (constant S_ .f32 0x3F800000#32),
    unary main_cst_77 main_v200 (broadcastInDim S2x65536 ![] bcast_S_S2x65536 : (⟨S_, .f32⟩ : BufTy).Contents (Elt F) → (⟨S2x65536, .f32⟩ : BufTy).Contents (Elt F)),
    binary main_v199 main_v200 main_v201 (subf : (⟨S2x65536, .f32⟩ : BufTy).Contents (Elt F) → (⟨S2x65536, .f32⟩ : BufTy).Contents (Elt F) → (⟨S2x65536, .f32⟩ : BufTy).Contents (Elt F)),
    nullary main_cst_78 (constant S_ .f32 0x3F000000#32),
    unary main_cst_78 main_v202 (broadcastInDim S2x65536 ![] bcast_S_S2x65536 : (⟨S_, .f32⟩ : BufTy).Contents (Elt F) → (⟨S2x65536, .f32⟩ : BufTy).Contents (Elt F)),
    binary main_v201 main_v202 main_v203 (mulf : (⟨S2x65536, .f32⟩ : BufTy).Contents (Elt F) → (⟨S2x65536, .f32⟩ : BufTy).Contents (Elt F) → (⟨S2x65536, .f32⟩ : BufTy).Contents (Elt F)),
    TRef.unary (TRef.of (T := ⟨S2x65536, .f32⟩) main_v203) (TRef.of (T := ⟨S2x65536, .f32⟩) main_v204) Host.roundeven,
    nullary main_c_79 (constantI S_ 32 0#32),
    nullary main_c_80 (constantI S_ 32 255#32),
    TRef.unary (TRef.of (T := ⟨S_, .i32⟩) main_c_79) (TRef.of (T := ⟨S_, .f32⟩) main_call22_v0) (sitofp .f32),
    TRef.unary (TRef.of (T := ⟨S_, .f32⟩) main_call22_v0) (TRef.of (T := ⟨S2x65536, .f32⟩) main_call22_v1) (broadcastInDim S2x65536 ![] bcast_S_S2x65536),
    TRef.binary (TRef.of (T := ⟨S2x65536, .f32⟩) main_call22_v1) (TRef.of (T := ⟨S2x65536, .f32⟩) main_v204) (TRef.of (T := ⟨S2x65536, .f32⟩) main_call22_v2) maximumf,
    TRef.unary (TRef.of (T := ⟨S_, .i32⟩) main_c_80) (TRef.of (T := ⟨S_, .f32⟩) main_call22_v3) (sitofp .f32),
    TRef.unary (TRef.of (T := ⟨S_, .f32⟩) main_call22_v3) (TRef.of (T := ⟨S2x65536, .f32⟩) main_call22_v4) (broadcastInDim S2x65536 ![] bcast_S_S2x65536),
    TRef.binary (TRef.of (T := ⟨S2x65536, .f32⟩) main_call22_v4) (TRef.of (T := ⟨S2x65536, .f32⟩) main_call22_v2) (TRef.of (T := ⟨S2x65536, .f32⟩) main_v205) minimumf,
    unary main_v205 main_v206 (fptosi 32 : (⟨S2x65536, .f32⟩ : BufTy).Contents (Elt F) → (⟨S2x65536, .i32⟩ : BufTy).Contents (Elt F)),
    nullary main_c_81 (constantI S_ 32 256#32),
    unary main_c_81 main_v207 (broadcastInDim S2x65536 ![] bcast_S_S2x65536 : (⟨S_, .i32⟩ : BufTy).Contents (Elt F) → (⟨S2x65536, .i32⟩ : BufTy).Contents (Elt F)),
    binary main_v193 main_v207 main_v208 (muli : (⟨S2x65536, .i32⟩ : BufTy).Contents (Elt F) → (⟨S2x65536, .i32⟩ : BufTy).Contents (Elt F) → (⟨S2x65536, .i32⟩ : BufTy).Contents (Elt F)),
    binary main_v208 main_v206 main_v209 (addi : (⟨S2x65536, .i32⟩ : BufTy).Contents (Elt F) → (⟨S2x65536, .i32⟩ : BufTy).Contents (Elt F) → (⟨S2x65536, .i32⟩ : BufTy).Contents (Elt F)),
    reshape main_arg0 main_v210 rfl shapeCasts_S2x64x256x256_S2x64x65536,
    unary main_v209 main_v211 (broadcastInDim S2x1x65536 ![0, 2] bcast_S2x65536_S2x1x65536_0_2 : (⟨S2x65536, .i32⟩ : BufTy).Contents (Elt F) → (⟨S2x1x65536, .i32⟩ : BufTy).Contents (Elt F)) ]

set_option maxHeartbeats 40000000 in
/-- Operations 422 … 429 of the program, in order. -/
abbrev seg10 : List (HloOp τ sig (Elt F)) :=
  [
    TRef.nullary (TRef.of (T := ⟨S_, .i32⟩) main_call23_c) (constantI S_ 32 0#32),
    TRef.unary (TRef.of (T := ⟨S_, .i32⟩) main_call23_c) (TRef.of (T := ⟨S2x1x65536, .i32⟩) main_call23_v0) (broadcastInDim S2x1x65536 ![] bcast_S_S2x1x65536),
    TRef.binary (TRef.of (T := ⟨S2x1x65536, .i32⟩) main_v211) (TRef.of (T := ⟨S2x1x65536, .i32⟩) main_call23_v0) (TRef.of (T := ⟨S2x1x65536, .i1⟩) main_call23_v1) (cmpi .slt),
    TRef.nullary (TRef.of (T := ⟨S_, .i32⟩) main_call23_c_0) (constantI S_ 32 65536#32),
    TRef.unary (TRef.of (T := ⟨S_, .i32⟩) main_call23_c_0) (TRef.of (T := ⟨S2x1x65536, .i32⟩) main_call23_v2) (broadcastInDim S2x1x65536 ![] bcast_S_S2x1x65536),
    TRef.binary (TRef.of (T := ⟨S2x1x65536, .i32⟩) main_v211) (TRef.of (T := ⟨S2x1x65536, .i32⟩) main_call23_v2) (TRef.of (T := ⟨S2x1x65536, .i32⟩) main_call23_v3) addi,
    TRef.ternary (TRef.of (T := ⟨S2x1x65536, .i1⟩) main_call23_v1) (TRef.of (T := ⟨S2x1x65536, .i32⟩) main_call23_v3) (TRef.of (T := ⟨S2x1x65536, .i32⟩) main_v211) (TRef.of (T := ⟨S2x1x65536, .i32⟩) main_call23_v4) select,
    TRef.reshape (TRef.of (T := ⟨S2x1x65536, .i32⟩) main_call23_v4) (TRef.of (T := ⟨S2x65536x1, .i32⟩) main_call23_v5) rfl shapeCasts_S2x1x65536_S2x65536x1 ]

set_option maxHeartbeats 40000000 in
/-- Operations 430 … 446 of the program, in order. -/
abbrev seg11 : List (HloOp τ sig (Elt F)) :=
  [
    TRef.nullary (TRef.of (T := ⟨S1, .i32⟩) main_call23_c_1) (constantI S1 32 65535#32),
    TRef.nullary (TRef.of (T := ⟨S_, .i32⟩) main_call23_c_2) (constantI S_ 32 0#32),
    TRef.unary (TRef.of (T := ⟨S_, .i32⟩) main_call23_c_2) (TRef.of (T := ⟨S2x65536x1, .i32⟩) main_call23_v6) (broadcastInDim S2x65536x1 ![] bcast_S_S2x65536x1),
    TRef.binary (TRef.of (T := ⟨S2x65536x1, .i32⟩) main_call23_v5) (TRef.of (T := ⟨S2x65536x1, .i32⟩) main_call23_v6) (TRef.of (T := ⟨S2x65536x1, .i1⟩) main_call23_v7) (cmpi .sge),
    TRef.unary (TRef.of (T := ⟨S1, .i32⟩) main_call23_c_1) (TRef.of (T := ⟨S1x1x1, .i32⟩) main_call23_v8) (broadcastInDim S1x1x1 ![2] bcast_S1_S1x1x1_2),
    TRef.unary (TRef.of (T := ⟨S1x1x1, .i32⟩) main_call23_v8) (TRef.of (T := ⟨S2x65536x1, .i32⟩) main_call23_v9) (broadcastInDim S2x65536x1 ![0, 1, 2] bcast_S1x1x1_S2x65536x1_0_1_2),
    TRef.binary (TRef.of (T := ⟨S2x65536x1, .i32⟩) main_call23_v5) (TRef.of (T := ⟨S2x65536x1, .i32⟩) main_call23_v9) (TRef.of (T := ⟨S2x65536x1, .i1⟩) main_call23_v10) (cmpi .sle),
    TRef.binary (TRef.of (T := ⟨S2x65536x1, .i1⟩) main_call23_v7) (TRef.of (T := ⟨S2x65536x1, .i1⟩) main_call23_v10) (TRef.of (T := ⟨S2x65536x1, .i1⟩) main_call23_v11) andi,
    TRef.nullary (TRef.of (T := ⟨S_, .i1⟩) main_call23_c_3) (constantI S_ 1 1#1),
    TRef.binary (TRef.of (T := ⟨S2x65536x1, .i1⟩) main_call23_v11) (TRef.of (T := ⟨S_, .i1⟩) main_call23_c_3) (TRef.of (T := ⟨S2x65536, .i1⟩) main_call23_v12) (fun x v => Host.reduce IntOp.andi x v reducesTo_S2x65536x1_S2x65536_d2 h_S_),
    TRef.binary (TRef.of (T := ⟨S2x64x65536, .f32⟩) main_v210) (TRef.of (T := ⟨S2x65536x1, .i32⟩) main_call23_v5) (TRef.of (T := ⟨S2x64x65536, .f32⟩) main_call23_v13) (fun x i => Host.gather gather_S2x64x65536_S2x65536x1_S2x64x65536_1_2_0_0_2_2_1641 x i),
    TRef.unary (TRef.of (T := ⟨S2x65536, .i1⟩) main_call23_v12) (TRef.of (T := ⟨S2x64x65536, .i1⟩) main_call23_v14) (broadcastInDim S2x64x65536 ![0, 2] bcast_S2x65536_S2x64x65536_0_2),
    TRef.nullary (TRef.of (T := ⟨S_, .f32⟩) main_call23_cst) (constant S_ .f32 0x7FC00000#32),
    TRef.unary (TRef.of (T := ⟨S_, .f32⟩) main_call23_cst) (TRef.of (T := ⟨S2x64x65536, .f32⟩) main_call23_v15) (broadcastInDim S2x64x65536 ![] bcast_S_S2x64x65536),
    TRef.ternary (TRef.of (T := ⟨S2x64x65536, .i1⟩) main_call23_v14) (TRef.of (T := ⟨S2x64x65536, .f32⟩) main_call23_v13) (TRef.of (T := ⟨S2x64x65536, .f32⟩) main_call23_v15) (TRef.of (T := ⟨S2x64x65536, .f32⟩) main_v212) select,
    unary main_v212 main_v213 ((transpose S2x65536x64 [0, 2, 1] · transposes_S2x64x65536_S2x65536x64_0_2_1) : (⟨S2x64x65536, .f32⟩ : BufTy).Contents (Elt F) → (⟨S2x65536x64, .f32⟩ : BufTy).Contents (Elt F)),
    nary ![main_v54, main_v107, main_v160, main_v213] main_v214 (fun u => concatenate S2x65536x256 2 [⟨S2x65536x64, u 0⟩, ⟨S2x65536x64, u 1⟩, ⟨S2x65536x64, u 2⟩, ⟨S2x65536x64, u 3⟩] concatenates_S2x65536x64_S2x65536x64_S2x65536x64_S2x65536x64_S2x65536x256_d2) ]

set_option maxHeartbeats 40000000 in
/-- Operations 447 … 472 of the program, in order. -/
abbrev seg12 : List (HloOp τ sig (Elt F)) :=
  [
    nullary main_c_82 (constantI S_ 32 0#32),
    TRef.unary (TRef.of (T := ⟨S_, .i32⟩) main_c_82) (TRef.of (T := ⟨S_, .f32⟩) main_call24_v0) (sitofp .f32),
    TRef.binary (TRef.of (T := ⟨S2x64x256x256, .f32⟩) main_arg0) (TRef.of (T := ⟨S_, .f32⟩) main_call24_v0) (TRef.of (T := ⟨S2x64x258x258, .f32⟩) main_v215) (fun x v => pad S2x64x258x258 ![0, 0, 1, 1] ![0, 0, 1, 1] ![0, 0, 0, 0] x v pads_S2x64x256x256_S2x64x258x258_000_000_110_110 h_S_),
    unary main_v215 main_v216 ((extractStridedSlice S2x64x256x256 ![0, 0, 0, 0] · slices_S2x64x258x258_S2x64x256x256_0_0_0_0) : (⟨S2x64x258x258, .f32⟩ : BufTy).Contents (Elt F) → (⟨S2x64x256x256, .f32⟩ : BufTy).Contents (Elt F)),
    unary main_v215 main_v217 ((extractStridedSlice S2x64x256x256 ![0, 0, 0, 1] · slices_S2x64x258x258_S2x64x256x256_0_0_0_1) : (⟨S2x64x258x258, .f32⟩ : BufTy).Contents (Elt F) → (⟨S2x64x256x256, .f32⟩ : BufTy).Contents (Elt F)),
    unary main_v215 main_v218 ((extractStridedSlice S2x64x256x256 ![0, 0, 0, 2] · slices_S2x64x258x258_S2x64x256x256_0_0_0_2) : (⟨S2x64x258x258, .f32⟩ : BufTy).Contents (Elt F) → (⟨S2x64x256x256, .f32⟩ : BufTy).Contents (Elt F)),
    unary main_v215 main_v219 ((extractStridedSlice S2x64x256x256 ![0, 0, 1, 0] · slices_S2x64x258x258_S2x64x256x256_0_0_1_0) : (⟨S2x64x258x258, .f32⟩ : BufTy).Contents (Elt F) → (⟨S2x64x256x256, .f32⟩ : BufTy).Contents (Elt F)),
    unary main_v215 main_v220 ((extractStridedSlice S2x64x256x256 ![0, 0, 1, 1] · slices_S2x64x258x258_S2x64x256x256_0_0_1_1) : (⟨S2x64x258x258, .f32⟩ : BufTy).Contents (Elt F) → (⟨S2x64x256x256, .f32⟩ : BufTy).Contents (Elt F)),
    unary main_v215 main_v221 ((extractStridedSlice S2x64x256x256 ![0, 0, 1, 2] · slices_S2x64x258x258_S2x64x256x256_0_0_1_2) : (⟨S2x64x258x258, .f32⟩ : BufTy).Contents (Elt F) → (⟨S2x64x256x256, .f32⟩ : BufTy).Contents (Elt F)),
    unary main_v215 main_v222 ((extractStridedSlice S2x64x256x256 ![0, 0, 2, 0] · slices_S2x64x258x258_S2x64x256x256_0_0_2_0) : (⟨S2x64x258x258, .f32⟩ : BufTy).Contents (Elt F) → (⟨S2x64x256x256, .f32⟩ : BufTy).Contents (Elt F)),
    unary main_v215 main_v223 ((extractStridedSlice S2x64x256x256 ![0, 0, 2, 1] · slices_S2x64x258x258_S2x64x256x256_0_0_2_1) : (⟨S2x64x258x258, .f32⟩ : BufTy).Contents (Elt F) → (⟨S2x64x256x256, .f32⟩ : BufTy).Contents (Elt F)),
    unary main_v215 main_v224 ((extractStridedSlice S2x64x256x256 ![0, 0, 2, 2] · slices_S2x64x258x258_S2x64x256x256_0_0_2_2) : (⟨S2x64x258x258, .f32⟩ : BufTy).Contents (Elt F) → (⟨S2x64x256x256, .f32⟩ : BufTy).Contents (Elt F)),
    unary main_v216 main_v225 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    unary main_v217 main_v226 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    unary main_v218 main_v227 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    unary main_v219 main_v228 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    unary main_v220 main_v229 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    unary main_v221 main_v230 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    unary main_v222 main_v231 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    unary main_v223 main_v232 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    unary main_v224 main_v233 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    nary ![main_v225, main_v226, main_v227, main_v228, main_v229, main_v230, main_v231, main_v232, main_v233] main_v234 (fun u => concatenate S2x64x9x256x256 2 [⟨S2x64x1x256x256, u 0⟩, ⟨S2x64x1x256x256, u 1⟩, ⟨S2x64x1x256x256, u 2⟩, ⟨S2x64x1x256x256, u 3⟩, ⟨S2x64x1x256x256, u 4⟩, ⟨S2x64x1x256x256, u 5⟩, ⟨S2x64x1x256x256, u 6⟩, ⟨S2x64x1x256x256, u 7⟩, ⟨S2x64x1x256x256, u 8⟩] concatenates_S2x64x1x256x256_S2x64x1x256x256_S2x64x1x256x256_S2x64x1x256x256_S2x64x1x256x256_S2x64x1x256x256_S2x64x1x256x256_S2x64x1x256x256_S2x64x1x256x256_S2x64x9x256x256_d2),
    reshape main_v234 main_v235 rfl shapeCasts_S2x64x9x256x256_S2x576x65536,
    unary main_v235 main_v236 ((transpose S2x65536x576 [0, 2, 1] · transposes_S2x576x65536_S2x65536x576_0_2_1) : (⟨S2x576x65536, .f32⟩ : BufTy).Contents (Elt F) → (⟨S2x65536x576, .f32⟩ : BufTy).Contents (Elt F)),
    nary ![main_v214, main_v236, main_arg2] main_v237 (fun u => concatenate S2x65536x833 2 [⟨S2x65536x256, u 0⟩, ⟨S2x65536x576, u 1⟩, ⟨S2x65536x1, u 2⟩] concatenates_S2x65536x256_S2x65536x576_S2x65536x1_S2x65536x833_d2),
    reshape main_v237 main_v238 rfl shapeCasts_S2x65536x833_S131072x833 ]

set_option maxHeartbeats 40000000 in
/-- Operations 473 … 505 of the program, in order. -/
abbrev seg13 : List (HloOp τ sig (Elt F)) :=
  [
    binary main_v238 main_arg3 main_v239 ((fun l r => Host.dotGeneral dot_S131072x833_S833x256_S131072x256_1_0_0_1_n_n none l r) : (⟨S131072x833, .f32⟩ : BufTy).Contents (Elt F) → (⟨S833x256, .f32⟩ : BufTy).Contents (Elt F) → (⟨S131072x256, .f32⟩ : BufTy).Contents (Elt F)),
    unary main_arg4 main_v240 (broadcastInDim S1x256 ![1] bcast_S256_S1x256_1 : (⟨S256, .f32⟩ : BufTy).Contents (Elt F) → (⟨S1x256, .f32⟩ : BufTy).Contents (Elt F)),
    unary main_v240 main_v241 (broadcastInDim S131072x256 ![0, 1] bcast_S1x256_S131072x256_0_1 : (⟨S1x256, .f32⟩ : BufTy).Contents (Elt F) → (⟨S131072x256, .f32⟩ : BufTy).Contents (Elt F)),
    binary main_v239 main_v241 main_v242 (addf : (⟨S131072x256, .f32⟩ : BufTy).Contents (Elt F) → (⟨S131072x256, .f32⟩ : BufTy).Contents (Elt F) → (⟨S131072x256, .f32⟩ : BufTy).Contents (Elt F)),
    TRef.nullary (TRef.of (T := ⟨S_, .f32⟩) main_call25_cst) (constant S_ .f32 0x00000000#32),
    TRef.unary (TRef.of (T := ⟨S_, .f32⟩) main_call25_cst) (TRef.of (T := ⟨S131072x256, .f32⟩) main_call25_v0) (broadcastInDim S131072x256 ![] bcast_S_S131072x256),
    TRef.binary (TRef.of (T := ⟨S131072x256, .f32⟩) main_v242) (TRef.of (T := ⟨S131072x256, .f32⟩) main_call25_v0) (TRef.of (T := ⟨S131072x256, .f32⟩) main_v243) maximumf,
    binary main_v243 main_arg5 main_v244 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    unary main_arg6 main_v245 (broadcastInDim S1x256 ![1] bcast_S256_S1x256_1 : (⟨S256, .f32⟩ : BufTy).Contents (Elt F) → (⟨S1x256, .f32⟩ : BufTy).Contents (Elt F)),
    unary main_v245 main_v246 (broadcastInDim S131072x256 ![0, 1] bcast_S1x256_S131072x256_0_1 : (⟨S1x256, .f32⟩ : BufTy).Contents (Elt F) → (⟨S131072x256, .f32⟩ : BufTy).Contents (Elt F)),
    binary main_v244 main_v246 main_v247 (addf : (⟨S131072x256, .f32⟩ : BufTy).Contents (Elt F) → (⟨S131072x256, .f32⟩ : BufTy).Contents (Elt F) → (⟨S131072x256, .f32⟩ : BufTy).Contents (Elt F)),
    TRef.nullary (TRef.of (T := ⟨S_, .f32⟩) main_call26_cst) (constant S_ .f32 0x00000000#32),
    TRef.unary (TRef.of (T := ⟨S_, .f32⟩) main_call26_cst) (TRef.of (T := ⟨S131072x256, .f32⟩) main_call26_v0) (broadcastInDim S131072x256 ![] bcast_S_S131072x256),
    TRef.binary (TRef.of (T := ⟨S131072x256, .f32⟩) main_v247) (TRef.of (T := ⟨S131072x256, .f32⟩) main_call26_v0) (TRef.of (T := ⟨S131072x256, .f32⟩) main_v248) maximumf,
    binary main_v248 main_arg7 main_v249 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    unary main_arg8 main_v250 (broadcastInDim S1x256 ![1] bcast_S256_S1x256_1 : (⟨S256, .f32⟩ : BufTy).Contents (Elt F) → (⟨S1x256, .f32⟩ : BufTy).Contents (Elt F)),
    unary main_v250 main_v251 (broadcastInDim S131072x256 ![0, 1] bcast_S1x256_S131072x256_0_1 : (⟨S1x256, .f32⟩ : BufTy).Contents (Elt F) → (⟨S131072x256, .f32⟩ : BufTy).Contents (Elt F)),
    binary main_v249 main_v251 main_v252 (addf : (⟨S131072x256, .f32⟩ : BufTy).Contents (Elt F) → (⟨S131072x256, .f32⟩ : BufTy).Contents (Elt F) → (⟨S131072x256, .f32⟩ : BufTy).Contents (Elt F)),
    TRef.nullary (TRef.of (T := ⟨S_, .f32⟩) main_call27_cst) (constant S_ .f32 0x00000000#32),
    TRef.unary (TRef.of (T := ⟨S_, .f32⟩) main_call27_cst) (TRef.of (T := ⟨S131072x256, .f32⟩) main_call27_v0) (broadcastInDim S131072x256 ![] bcast_S_S131072x256),
    TRef.binary (TRef.of (T := ⟨S131072x256, .f32⟩) main_v252) (TRef.of (T := ⟨S131072x256, .f32⟩) main_call27_v0) (TRef.of (T := ⟨S131072x256, .f32⟩) main_v253) maximumf,
    binary main_v253 main_arg9 main_v254 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    unary main_arg10 main_v255 (broadcastInDim S1x256 ![1] bcast_S256_S1x256_1 : (⟨S256, .f32⟩ : BufTy).Contents (Elt F) → (⟨S1x256, .f32⟩ : BufTy).Contents (Elt F)),
    unary main_v255 main_v256 (broadcastInDim S131072x256 ![0, 1] bcast_S1x256_S131072x256_0_1 : (⟨S1x256, .f32⟩ : BufTy).Contents (Elt F) → (⟨S131072x256, .f32⟩ : BufTy).Contents (Elt F)),
    binary main_v254 main_v256 main_v257 (addf : (⟨S131072x256, .f32⟩ : BufTy).Contents (Elt F) → (⟨S131072x256, .f32⟩ : BufTy).Contents (Elt F) → (⟨S131072x256, .f32⟩ : BufTy).Contents (Elt F)),
    TRef.nullary (TRef.of (T := ⟨S_, .f32⟩) main_call28_cst) (constant S_ .f32 0x00000000#32),
    TRef.unary (TRef.of (T := ⟨S_, .f32⟩) main_call28_cst) (TRef.of (T := ⟨S131072x256, .f32⟩) main_call28_v0) (broadcastInDim S131072x256 ![] bcast_S_S131072x256),
    TRef.binary (TRef.of (T := ⟨S131072x256, .f32⟩) main_v257) (TRef.of (T := ⟨S131072x256, .f32⟩) main_call28_v0) (TRef.of (T := ⟨S131072x256, .f32⟩) main_v258) maximumf,
    binary main_v258 main_arg11 main_v259 ((fun l r => Host.dotGeneral dot_S131072x256_S256x3_S131072x3_1_0_0_1_n_n none l r) : (⟨S131072x256, .f32⟩ : BufTy).Contents (Elt F) → (⟨S256x3, .f32⟩ : BufTy).Contents (Elt F) → (⟨S131072x3, .f32⟩ : BufTy).Contents (Elt F)),
    unary main_arg12 main_v260 (broadcastInDim S1x3 ![1] bcast_S3_S1x3_1 : (⟨S3, .f32⟩ : BufTy).Contents (Elt F) → (⟨S1x3, .f32⟩ : BufTy).Contents (Elt F)),
    unary main_v260 main_v261 (broadcastInDim S131072x3 ![0, 1] bcast_S1x3_S131072x3_0_1 : (⟨S1x3, .f32⟩ : BufTy).Contents (Elt F) → (⟨S131072x3, .f32⟩ : BufTy).Contents (Elt F)),
    binary main_v259 main_v261 main_v262 (addf : (⟨S131072x3, .f32⟩ : BufTy).Contents (Elt F) → (⟨S131072x3, .f32⟩ : BufTy).Contents (Elt F) → (⟨S131072x3, .f32⟩ : BufTy).Contents (Elt F)),
    reshape main_v262 main_v263 rfl shapeCasts_S131072x3_S2x65536x3 ]

set_option maxRecDepth 100000 in
/-- The program is the segments in order. -/
theorem ops_eq : ops (F := F) = seg0 ++ (seg1 ++ (seg2 ++ (seg3 ++ (seg4 ++ (seg5 ++ (seg6 ++ (seg7 ++ (seg8 ++ (seg9 ++ (seg10 ++ (seg11 ++ (seg12 ++ (seg13))))))))))))) := by
  chain_rfl

end Cert.ReferenceIdeal.RefFold

end
-- ==== Proof.RefSegs2.lean ====
/-
  The segment that builds the 3×3 unfolding and the network's input, cut in three: the zero padding of the feature
  map; the nine shifted windows stacked on a new axis; the reshape, the transposition, the concatenation with the
  gathered features and the last input column, and the reshape to [131072, 833].
-/
import proofs.«145896_j91079076479405_1_alg».proof.Proof.RefSegs

noncomputable section

namespace Cert.ReferenceIdeal.RefFold

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]
set_option maxHeartbeats 40000000 in
/-- Operations 447 … 449 of the program, in order. -/
abbrev seg12a : List (HloOp τ sig (Elt F)) :=
  [
    nullary main_c_82 (constantI S_ 32 0#32),
    TRef.unary (TRef.of (T := ⟨S_, .i32⟩) main_c_82) (TRef.of (T := ⟨S_, .f32⟩) main_call24_v0) (sitofp .f32),
    TRef.binary (TRef.of (T := ⟨S2x64x256x256, .f32⟩) main_arg0) (TRef.of (T := ⟨S_, .f32⟩) main_call24_v0) (TRef.of (T := ⟨S2x64x258x258, .f32⟩) main_v215) (fun x v => pad S2x64x258x258 ![0, 0, 1, 1] ![0, 0, 1, 1] ![0, 0, 0, 0] x v pads_S2x64x256x256_S2x64x258x258_000_000_110_110 h_S_) ]

set_option maxHeartbeats 40000000 in
/-- Operations 450 … 468 of the program, in order. -/
abbrev seg12b : List (HloOp τ sig (Elt F)) :=
  [
    unary main_v215 main_v216 ((extractStridedSlice S2x64x256x256 ![0, 0, 0, 0] · slices_S2x64x258x258_S2x64x256x256_0_0_0_0) : (⟨S2x64x258x258, .f32⟩ : BufTy).Contents (Elt F) → (⟨S2x64x256x256, .f32⟩ : BufTy).Contents (Elt F)),
    unary main_v215 main_v217 ((extractStridedSlice S2x64x256x256 ![0, 0, 0, 1] · slices_S2x64x258x258_S2x64x256x256_0_0_0_1) : (⟨S2x64x258x258, .f32⟩ : BufTy).Contents (Elt F) → (⟨S2x64x256x256, .f32⟩ : BufTy).Contents (Elt F)),
    unary main_v215 main_v218 ((extractStridedSlice S2x64x256x256 ![0, 0, 0, 2] · slices_S2x64x258x258_S2x64x256x256_0_0_0_2) : (⟨S2x64x258x258, .f32⟩ : BufTy).Contents (Elt F) → (⟨S2x64x256x256, .f32⟩ : BufTy).Contents (Elt F)),
    unary main_v215 main_v219 ((extractStridedSlice S2x64x256x256 ![0, 0, 1, 0] · slices_S2x64x258x258_S2x64x256x256_0_0_1_0) : (⟨S2x64x258x258, .f32⟩ : BufTy).Contents (Elt F) → (⟨S2x64x256x256, .f32⟩ : BufTy).Contents (Elt F)),
    unary main_v215 main_v220 ((extractStridedSlice S2x64x256x256 ![0, 0, 1, 1] · slices_S2x64x258x258_S2x64x256x256_0_0_1_1) : (⟨S2x64x258x258, .f32⟩ : BufTy).Contents (Elt F) → (⟨S2x64x256x256, .f32⟩ : BufTy).Contents (Elt F)),
    unary main_v215 main_v221 ((extractStridedSlice S2x64x256x256 ![0, 0, 1, 2] · slices_S2x64x258x258_S2x64x256x256_0_0_1_2) : (⟨S2x64x258x258, .f32⟩ : BufTy).Contents (Elt F) → (⟨S2x64x256x256, .f32⟩ : BufTy).Contents (Elt F)),
    unary main_v215 main_v222 ((extractStridedSlice S2x64x256x256 ![0, 0, 2, 0] · slices_S2x64x258x258_S2x64x256x256_0_0_2_0) : (⟨S2x64x258x258, .f32⟩ : BufTy).Contents (Elt F) → (⟨S2x64x256x256, .f32⟩ : BufTy).Contents (Elt F)),
    unary main_v215 main_v223 ((extractStridedSlice S2x64x256x256 ![0, 0, 2, 1] · slices_S2x64x258x258_S2x64x256x256_0_0_2_1) : (⟨S2x64x258x258, .f32⟩ : BufTy).Contents (Elt F) → (⟨S2x64x256x256, .f32⟩ : BufTy).Contents (Elt F)),
    unary main_v215 main_v224 ((extractStridedSlice S2x64x256x256 ![0, 0, 2, 2] · slices_S2x64x258x258_S2x64x256x256_0_0_2_2) : (⟨S2x64x258x258, .f32⟩ : BufTy).Contents (Elt F) → (⟨S2x64x256x256, .f32⟩ : BufTy).Contents (Elt F)),
    unary main_v216 main_v225 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    unary main_v217 main_v226 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    unary main_v218 main_v227 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    unary main_v219 main_v228 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    unary main_v220 main_v229 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    unary main_v221 main_v230 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    unary main_v222 main_v231 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    unary main_v223 main_v232 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    unary main_v224 main_v233 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    nary ![main_v225, main_v226, main_v227, main_v228, main_v229, main_v230, main_v231, main_v232, main_v233] main_v234 (fun u => concatenate S2x64x9x256x256 2 [⟨S2x64x1x256x256, u 0⟩, ⟨S2x64x1x256x256, u 1⟩, ⟨S2x64x1x256x256, u 2⟩, ⟨S2x64x1x256x256, u 3⟩, ⟨S2x64x1x256x256, u 4⟩, ⟨S2x64x1x256x256, u 5⟩, ⟨S2x64x1x256x256, u 6⟩, ⟨S2x64x1x256x256, u 7⟩, ⟨S2x64x1x256x256, u 8⟩] concatenates_S2x64x1x256x256_S2x64x1x256x256_S2x64x1x256x256_S2x64x1x256x256_S2x64x1x256x256_S2x64x1x256x256_S2x64x1x256x256_S2x64x1x256x256_S2x64x1x256x256_S2x64x9x256x256_d2) ]

set_option maxHeartbeats 40000000 in
/-- Operations 469 … 472 of the program, in order. -/
abbrev seg12c : List (HloOp τ sig (Elt F)) :=
  [
    reshape main_v234 main_v235 rfl shapeCasts_S2x64x9x256x256_S2x576x65536,
    unary main_v235 main_v236 ((transpose S2x65536x576 [0, 2, 1] · transposes_S2x576x65536_S2x65536x576_0_2_1) : (⟨S2x576x65536, .f32⟩ : BufTy).Contents (Elt F) → (⟨S2x65536x576, .f32⟩ : BufTy).Contents (Elt F)),
    nary ![main_v214, main_v236, main_arg2] main_v237 (fun u => concatenate S2x65536x833 2 [⟨S2x65536x256, u 0⟩, ⟨S2x65536x576, u 1⟩, ⟨S2x65536x1, u 2⟩] concatenates_S2x65536x256_S2x65536x576_S2x65536x1_S2x65536x833_d2),
    reshape main_v237 main_v238 rfl shapeCasts_S2x65536x833_S131072x833 ]

set_option maxRecDepth 100000 in
/-- The segment is its three parts in order. -/
theorem seg12_eq : seg12 (F := F) = seg12a ++ (seg12b ++ seg12c) := by
  chain_rfl

end Cert.ReferenceIdeal.RefFold

end
-- ==== Proof.RefKeeps.lean ====
/-
  What the reference's segments do not write: no operation of a segment writes an argument, nor a buffer that was
  written before the segment and is still read after it (every operation writes its own result buffer).  So those
  buffers hold after the segment what they held before it.
-/
import proofs.«145896_j91079076479405_1_alg».proof.Proof.RefSegs2

noncomputable section

namespace Cert.ReferenceIdeal.RefFold

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

set_option maxRecDepth 100000 in
set_option maxHeartbeats 40000000 in
/-- No operation of the segment writes a buffer that is read after it and written before it. -/
theorem seg0_keeps : (seg0 (F := F)).Forall fun op =>
    (Proc.devRef .tc main_arg0 : DevRef τ sig) ∉ op.writes
    ∧ (Proc.devRef .tc main_arg1 : DevRef τ sig) ∉ op.writes
    ∧ (Proc.devRef .tc main_arg2 : DevRef τ sig) ∉ op.writes
    ∧ (Proc.devRef .tc main_arg3 : DevRef τ sig) ∉ op.writes
    ∧ (Proc.devRef .tc main_arg4 : DevRef τ sig) ∉ op.writes
    ∧ (Proc.devRef .tc main_arg5 : DevRef τ sig) ∉ op.writes
    ∧ (Proc.devRef .tc main_arg6 : DevRef τ sig) ∉ op.writes
    ∧ (Proc.devRef .tc main_arg7 : DevRef τ sig) ∉ op.writes
    ∧ (Proc.devRef .tc main_arg8 : DevRef τ sig) ∉ op.writes
    ∧ (Proc.devRef .tc main_arg9 : DevRef τ sig) ∉ op.writes
    ∧ (Proc.devRef .tc main_arg10 : DevRef τ sig) ∉ op.writes
    ∧ (Proc.devRef .tc main_arg11 : DevRef τ sig) ∉ op.writes
    ∧ (Proc.devRef .tc main_arg12 : DevRef τ sig) ∉ op.writes := by
  simp only [seg0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem seg0_keep_arg0 (w : Valuation τ sig (Elt F)) :
    StableHlo.after (seg0 (F := F)) w (Proc.devRef .tc main_arg0) = w (Proc.devRef .tc main_arg0) :=
  StableHlo.after_of_forall_not_mem (b := Proc.devRef .tc main_arg0) _ _
    (fun op hop => ((List.forall_iff_forall_mem.mp seg0_keeps) op hop).1)
theorem seg0_keep_arg1 (w : Valuation τ sig (Elt F)) :
    StableHlo.after (seg0 (F := F)) w (Proc.devRef .tc main_arg1) = w (Proc.devRef .tc main_arg1) :=
  StableHlo.after_of_forall_not_mem (b := Proc.devRef .tc main_arg1) _ _
    (fun op hop => ((List.forall_iff_forall_mem.mp seg0_keeps) op hop).2.1)
theorem seg0_keep_arg2 (w : Valuation τ sig (Elt F)) :
    StableHlo.after (seg0 (F := F)) w (Proc.devRef .tc main_arg2) = w (Proc.devRef .tc main_arg2) :=
  StableHlo.after_of_forall_not_mem (b := Proc.devRef .tc main_arg2) _ _
    (fun op hop => ((List.forall_iff_forall_mem.mp seg0_keeps) op hop).2.2.1)
theorem seg0_keep_arg3 (w : Valuation τ sig (Elt F)) :
    StableHlo.after (seg0 (F := F)) w (Proc.devRef .tc main_arg3) = w (Proc.devRef .tc main_arg3) :=
  StableHlo.after_of_forall_not_mem (b := Proc.devRef .tc main_arg3) _ _
    (fun op hop => ((List.forall_iff_forall_mem.mp seg0_keeps) op hop).2.2.2.1)
theorem seg0_keep_arg4 (w : Valuation τ sig (Elt F)) :
    StableHlo.after (seg0 (F := F)) w (Proc.devRef .tc main_arg4) = w (Proc.devRef .tc main_arg4) :=
  StableHlo.after_of_forall_not_mem (b := Proc.devRef .tc main_arg4) _ _
    (fun op hop => ((List.forall_iff_forall_mem.mp seg0_keeps) op hop).2.2.2.2.1)
theorem seg0_keep_arg5 (w : Valuation τ sig (Elt F)) :
    StableHlo.after (seg0 (F := F)) w (Proc.devRef .tc main_arg5) = w (Proc.devRef .tc main_arg5) :=
  StableHlo.after_of_forall_not_mem (b := Proc.devRef .tc main_arg5) _ _
    (fun op hop => ((List.forall_iff_forall_mem.mp seg0_keeps) op hop).2.2.2.2.2.1)
theorem seg0_keep_arg6 (w : Valuation τ sig (Elt F)) :
    StableHlo.after (seg0 (F := F)) w (Proc.devRef .tc main_arg6) = w (Proc.devRef .tc main_arg6) :=
  StableHlo.after_of_forall_not_mem (b := Proc.devRef .tc main_arg6) _ _
    (fun op hop => ((List.forall_iff_forall_mem.mp seg0_keeps) op hop).2.2.2.2.2.2.1)
theorem seg0_keep_arg7 (w : Valuation τ sig (Elt F)) :
    StableHlo.after (seg0 (F := F)) w (Proc.devRef .tc main_arg7) = w (Proc.devRef .tc main_arg7) :=
  StableHlo.after_of_forall_not_mem (b := Proc.devRef .tc main_arg7) _ _
    (fun op hop => ((List.forall_iff_forall_mem.mp seg0_keeps) op hop).2.2.2.2.2.2.2.1)
theorem seg0_keep_arg8 (w : Valuation τ sig (Elt F)) :
    StableHlo.after (seg0 (F := F)) w (Proc.devRef .tc main_arg8) = w (Proc.devRef .tc main_arg8) :=
  StableHlo.after_of_forall_not_mem (b := Proc.devRef .tc main_arg8) _ _
    (fun op hop => ((List.forall_iff_forall_mem.mp seg0_keeps) op hop).2.2.2.2.2.2.2.2.1)
theorem seg0_keep_arg9 (w : Valuation τ sig (Elt F)) :
    StableHlo.after (seg0 (F := F)) w (Proc.devRef .tc main_arg9) = w (Proc.devRef .tc main_arg9) :=
  StableHlo.after_of_forall_not_mem (b := Proc.devRef .tc main_arg9) _ _
    (fun op hop => ((List.forall_iff_forall_mem.mp seg0_keeps) op hop).2.2.2.2.2.2.2.2.2.1)
theorem seg0_keep_arg10 (w : Valuation τ sig (Elt F)) :
    StableHlo.after (seg0 (F := F)) w (Proc.devRef .tc main_arg10) = w (Proc.devRef .tc main_arg10) :=
  StableHlo.after_of_forall_not_mem (b := Proc.devRef .tc main_arg10) _ _
    (fun op hop => ((List.forall_iff_forall_mem.mp seg0_keeps) op hop).2.2.2.2.2.2.2.2.2.2.1)
theorem seg0_keep_arg11 (w : Valuation τ sig (Elt F)) :
    StableHlo.after (seg0 (F := F)) w (Proc.devRef .tc main_arg11) = w (Proc.devRef .tc main_arg11) :=
  StableHlo.after_of_forall_not_mem (b := Proc.devRef .tc main_arg11) _ _
    (fun op hop => ((List.forall_iff_forall_mem.mp seg0_keeps) op hop).2.2.2.2.2.2.2.2.2.2.2.1)
theorem seg0_keep_arg12 (w : Valuation τ sig (Elt F)) :
    StableHlo.after (seg0 (F := F)) w (Proc.devRef .tc main_arg12) = w (Proc.devRef .tc main_arg12) :=
  StableHlo.after_of_forall_not_mem (b := Proc.devRef .tc main_arg12) _ _
    (fun op hop => ((List.forall_iff_forall_mem.mp seg0_keeps) op hop).2.2.2.2.2.2.2.2.2.2.2.2)

set_option maxRecDepth 100000 in
set_option maxHeartbeats 40000000 in
/-- No operation of the segment writes a buffer that is read after it and written before it. -/
theorem seg1_keeps : (seg1 (F := F)).Forall fun op =>
    (Proc.devRef .tc main_v51 : DevRef τ sig) ∉ op.writes
    ∧ (Proc.devRef .tc main_v1 : DevRef τ sig) ∉ op.writes
    ∧ (Proc.devRef .tc main_arg0 : DevRef τ sig) ∉ op.writes
    ∧ (Proc.devRef .tc main_arg1 : DevRef τ sig) ∉ op.writes
    ∧ (Proc.devRef .tc main_arg2 : DevRef τ sig) ∉ op.writes
    ∧ (Proc.devRef .tc main_arg3 : DevRef τ sig) ∉ op.writes
    ∧ (Proc.devRef .tc main_arg4 : DevRef τ sig) ∉ op.writes
    ∧ (Proc.devRef .tc main_arg5 : DevRef τ sig) ∉ op.writes
    ∧ (Proc.devRef .tc main_arg6 : DevRef τ sig) ∉ op.writes
    ∧ (Proc.devRef .tc main_arg7 : DevRef τ sig) ∉ op.writes
    ∧ (Proc.devRef .tc main_arg8 : DevRef τ sig) ∉ op.writes
    ∧ (Proc.devRef .tc main_arg9 : DevRef τ sig) ∉ op.writes
    ∧ (Proc.devRef .tc main_arg10 : DevRef τ sig) ∉ op.writes
    ∧ (Proc.devRef .tc main_arg11 : DevRef τ sig) ∉ op.writes
    ∧ (Proc.devRef .tc main_arg12 : DevRef τ sig) ∉ op.writes := by
  simp only [seg1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem seg1_keep_v51 (w : Valuation τ sig (Elt F)) :
    StableHlo.after (seg1 (F := F)) w (Proc.devRef .tc main_v51) = w (Proc.devRef .tc main_v51) :=
  StableHlo.after_of_forall_not_mem (b := Proc.devRef .tc main_v51) _ _
    (fun op hop => ((List.forall_iff_forall_mem.mp seg1_keeps) op hop).1)
theorem seg1_keep_v1 (w : Valuation τ sig (Elt F)) :
    StableHlo.after (seg1 (F := F)) w (Proc.devRef .tc main_v1) = w (Proc.devRef .tc main_v1) :=
  StableHlo.after_of_forall_not_mem (b := Proc.devRef .tc main_v1) _ _
    (fun op hop => ((List.forall_iff_forall_mem.mp seg1_keeps) op hop).2.1)
theorem seg1_keep_arg0 (w : Valuation τ sig (Elt F)) :
    StableHlo.after (seg1 (F := F)) w (Proc.devRef .tc main_arg0) = w (Proc.devRef .tc main_arg0) :=
  StableHlo.after_of_forall_not_mem (b := Proc.devRef .tc main_arg0) _ _
    (fun op hop => ((List.forall_iff_forall_mem.mp seg1_keeps) op hop).2.2.1)
theorem seg1_keep_arg1 (w : Valuation τ sig (Elt F)) :
    StableHlo.after (seg1 (F := F)) w (Proc.devRef .tc main_arg1) = w (Proc.devRef .tc main_arg1) :=
  StableHlo.after_of_forall_not_mem (b := Proc.devRef .tc main_arg1) _ _
    (fun op hop => ((List.forall_iff_forall_mem.mp seg1_keeps) op hop).2.2.2.1)
theorem seg1_keep_arg2 (w : Valuation τ sig (Elt F)) :
    StableHlo.after (seg1 (F := F)) w (Proc.devRef .tc main_arg2) = w (Proc.devRef .tc main_arg2) :=
  StableHlo.after_of_forall_not_mem (b := Proc.devRef .tc main_arg2) _ _
    (fun op hop => ((List.forall_iff_forall_mem.mp seg1_keeps) op hop).2.2.2.2.1)
theorem seg1_keep_arg3 (w : Valuation τ sig (Elt F)) :
    StableHlo.after (seg1 (F := F)) w (Proc.devRef .tc main_arg3) = w (Proc.devRef .tc main_arg3) :=
  StableHlo.after_of_forall_not_mem (b := Proc.devRef .tc main_arg3) _ _
    (fun op hop => ((List.forall_iff_forall_mem.mp seg1_keeps) op hop).2.2.2.2.2.1)
theorem seg1_keep_arg4 (w : Valuation τ sig (Elt F)) :
    StableHlo.after (seg1 (F := F)) w (Proc.devRef .tc main_arg4) = w (Proc.devRef .tc main_arg4) :=
  StableHlo.after_of_forall_not_mem (b := Proc.devRef .tc main_arg4) _ _
    (fun op hop => ((List.forall_iff_forall_mem.mp seg1_keeps) op hop).2.2.2.2.2.2.1)
theorem seg1_keep_arg5 (w : Valuation τ sig (Elt F)) :
    StableHlo.after (seg1 (F := F)) w (Proc.devRef .tc main_arg5) = w (Proc.devRef .tc main_arg5) :=
  StableHlo.after_of_forall_not_mem (b := Proc.devRef .tc main_arg5) _ _
    (fun op hop => ((List.forall_iff_forall_mem.mp seg1_keeps) op hop).2.2.2.2.2.2.2.1)
theorem seg1_keep_arg6 (w : Valuation τ sig (Elt F)) :
    StableHlo.after (seg1 (F := F)) w (Proc.devRef .tc main_arg6) = w (Proc.devRef .tc main_arg6) :=
  StableHlo.after_of_forall_not_mem (b := Proc.devRef .tc main_arg6) _ _
    (fun op hop => ((List.forall_iff_forall_mem.mp seg1_keeps) op hop).2.2.2.2.2.2.2.2.1)
theorem seg1_keep_arg7 (w : Valuation τ sig (Elt F)) :
    StableHlo.after (seg1 (F := F)) w (Proc.devRef .tc main_arg7) = w (Proc.devRef .tc main_arg7) :=
  StableHlo.after_of_forall_not_mem (b := Proc.devRef .tc main_arg7) _ _
    (fun op hop => ((List.forall_iff_forall_mem.mp seg1_keeps) op hop).2.2.2.2.2.2.2.2.2.1)
theorem seg1_keep_arg8 (w : Valuation τ sig (Elt F)) :
    StableHlo.after (seg1 (F := F)) w (Proc.devRef .tc main_arg8) = w (Proc.devRef .tc main_arg8) :=
  StableHlo.after_of_forall_not_mem (b := Proc.devRef .tc main_arg8) _ _
    (fun op hop => ((List.forall_iff_forall_mem.mp seg1_keeps) op hop).2.2.2.2.2.2.2.2.2.2.1)
theorem seg1_keep_arg9 (w : Valuation τ sig (Elt F)) :
    StableHlo.after (seg1 (F := F)) w (Proc.devRef .tc main_arg9) = w (Proc.devRef .tc main_arg9) :=
  StableHlo.after_of_forall_not_mem (b := Proc.devRef .tc main_arg9) _ _
    (fun op hop => ((List.forall_iff_forall_mem.mp seg1_keeps) op hop).2.2.2.2.2.2.2.2.2.2.2.1)
theorem seg1_keep_arg10 (w : Valuation τ sig (Elt F)) :
    StableHlo.after (seg1 (F := F)) w (Proc.devRef .tc main_arg10) = w (Proc.devRef .tc main_arg10) :=
  StableHlo.after_of_forall_not_mem (b := Proc.devRef .tc main_arg10) _ _
    (fun op hop => ((List.forall_iff_forall_mem.mp seg1_keeps) op hop).2.2.2.2.2.2.2.2.2.2.2.2.1)
theorem seg1_keep_arg11 (w : Valuation τ sig (Elt F)) :
    StableHlo.after (seg1 (F := F)) w (Proc.devRef .tc main_arg11) = w (Proc.devRef .tc main_arg11) :=
  StableHlo.after_of_forall_not_mem (b := Proc.devRef .tc main_arg11) _ _
    (fun op hop => ((List.forall_iff_forall_mem.mp seg1_keeps) op hop).2.2.2.2.2.2.2.2.2.2.2.2.2.1)
theorem seg1_keep_arg12 (w : Valuation τ sig (Elt F)) :
    StableHlo.after (seg1 (F := F)) w (Proc.devRef .tc main_arg12) = w (Proc.devRef .tc main_arg12) :=
  StableHlo.after_of_forall_not_mem (b := Proc.devRef .tc main_arg12) _ _
    (fun op hop => ((List.forall_iff_forall_mem.mp seg1_keeps) op hop).2.2.2.2.2.2.2.2.2.2.2.2.2.2)

set_option maxRecDepth 100000 in
set_option maxHeartbeats 40000000 in
/-- No operation of the segment writes a buffer that is read after it and written before it. -/
theorem seg2_keeps : (seg2 (F := F)).Forall fun op =>
    (Proc.devRef .tc main_v1 : DevRef τ sig) ∉ op.writes
    ∧ (Proc.devRef .tc main_arg0 : DevRef τ sig) ∉ op.writes
    ∧ (Proc.devRef .tc main_arg1 : DevRef τ sig) ∉ op.writes
    ∧ (Proc.devRef .tc main_arg2 : DevRef τ sig) ∉ op.writes
    ∧ (Proc.devRef .tc main_arg3 : DevRef τ sig) ∉ op.writes
    ∧ (Proc.devRef .tc main_arg4 : DevRef τ sig) ∉ op.writes
    ∧ (Proc.devRef .tc main_arg5 : DevRef τ sig) ∉ op.writes
    ∧ (Proc.devRef .tc main_arg6 : DevRef τ sig) ∉ op.writes
    ∧ (Proc.devRef .tc main_arg7 : DevRef τ sig) ∉ op.writes
    ∧ (Proc.devRef .tc main_arg8 : DevRef τ sig) ∉ op.writes
    ∧ (Proc.devRef .tc main_arg9 : DevRef τ sig) ∉ op.writes
    ∧ (Proc.devRef .tc main_arg10 : DevRef τ sig) ∉ op.writes
    ∧ (Proc.devRef .tc main_arg11 : DevRef τ sig) ∉ op.writes
    ∧ (Proc.devRef .tc main_arg12 : DevRef τ sig) ∉ op.writes := by
  simp only [seg2, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem seg2_keep_v1 (w : Valuation τ sig (Elt F)) :
    StableHlo.after (seg2 (F := F)) w (Proc.devRef .tc main_v1) = w (Proc.devRef .tc main_v1) :=
  StableHlo.after_of_forall_not_mem (b := Proc.devRef .tc main_v1) _ _
    (fun op hop => ((List.forall_iff_forall_mem.mp seg2_keeps) op hop).1)
theorem seg2_keep_arg0 (w : Valuation τ sig (Elt F)) :
    StableHlo.after (seg2 (F := F)) w (Proc.devRef .tc main_arg0) = w (Proc.devRef .tc main_arg0) :=
  StableHlo.after_of_forall_not_mem (b := Proc.devRef .tc main_arg0) _ _
    (fun op hop => ((List.forall_iff_forall_mem.mp seg2_keeps) op hop).2.1)
theorem seg2_keep_arg1 (w : Valuation τ sig (Elt F)) :
    StableHlo.after (seg2 (F := F)) w (Proc.devRef .tc main_arg1) = w (Proc.devRef .tc main_arg1) :=
  StableHlo.after_of_forall_not_mem (b := Proc.devRef .tc main_arg1) _ _
    (fun op hop => ((List.forall_iff_forall_mem.mp seg2_keeps) op hop).2.2.1)
theorem seg2_keep_arg2 (w : Valuation τ sig (Elt F)) :
    StableHlo.after (seg2 (F := F)) w (Proc.devRef .tc main_arg2) = w (Proc.devRef .tc main_arg2) :=
  StableHlo.after_of_forall_not_mem (b := Proc.devRef .tc main_arg2) _ _
    (fun op hop => ((List.forall_iff_forall_mem.mp seg2_keeps) op hop).2.2.2.1)
theorem seg2_keep_arg3 (w : Valuation τ sig (Elt F)) :
    StableHlo.after (seg2 (F := F)) w (Proc.devRef .tc main_arg3) = w (Proc.devRef .tc main_arg3) :=
  StableHlo.after_of_forall_not_mem (b := Proc.devRef .tc main_arg3) _ _
    (fun op hop => ((List.forall_iff_forall_mem.mp seg2_keeps) op hop).2.2.2.2.1)
theorem seg2_keep_arg4 (w : Valuation τ sig (Elt F)) :
    StableHlo.after (seg2 (F := F)) w (Proc.devRef .tc main_arg4) = w (Proc.devRef .tc main_arg4) :=
  StableHlo.after_of_forall_not_mem (b := Proc.devRef .tc main_arg4) _ _
    (fun op hop => ((List.forall_iff_forall_mem.mp seg2_keeps) op hop).2.2.2.2.2.1)
theorem seg2_keep_arg5 (w : Valuation τ sig (Elt F)) :
    StableHlo.after (seg2 (F := F)) w (Proc.devRef .tc main_arg5) = w (Proc.devRef .tc main_arg5) :=
  StableHlo.after_of_forall_not_mem (b := Proc.devRef .tc main_arg5) _ _
    (fun op hop => ((List.forall_iff_forall_mem.mp seg2_keeps) op hop).2.2.2.2.2.2.1)
theorem seg2_keep_arg6 (w : Valuation τ sig (Elt F)) :
    StableHlo.after (seg2 (F := F)) w (Proc.devRef .tc main_arg6) = w (Proc.devRef .tc main_arg6) :=
  StableHlo.after_of_forall_not_mem (b := Proc.devRef .tc main_arg6) _ _
    (fun op hop => ((List.forall_iff_forall_mem.mp seg2_keeps) op hop).2.2.2.2.2.2.2.1)
theorem seg2_keep_arg7 (w : Valuation τ sig (Elt F)) :
    StableHlo.after (seg2 (F := F)) w (Proc.devRef .tc main_arg7) = w (Proc.devRef .tc main_arg7) :=
  StableHlo.after_of_forall_not_mem (b := Proc.devRef .tc main_arg7) _ _
    (fun op hop => ((List.forall_iff_forall_mem.mp seg2_keeps) op hop).2.2.2.2.2.2.2.2.1)
theorem seg2_keep_arg8 (w : Valuation τ sig (Elt F)) :
    StableHlo.after (seg2 (F := F)) w (Proc.devRef .tc main_arg8) = w (Proc.devRef .tc main_arg8) :=
  StableHlo.after_of_forall_not_mem (b := Proc.devRef .tc main_arg8) _ _
    (fun op hop => ((List.forall_iff_forall_mem.mp seg2_keeps) op hop).2.2.2.2.2.2.2.2.2.1)
theorem seg2_keep_arg9 (w : Valuation τ sig (Elt F)) :
    StableHlo.after (seg2 (F := F)) w (Proc.devRef .tc main_arg9) = w (Proc.devRef .tc main_arg9) :=
  StableHlo.after_of_forall_not_mem (b := Proc.devRef .tc main_arg9) _ _
    (fun op hop => ((List.forall_iff_forall_mem.mp seg2_keeps) op hop).2.2.2.2.2.2.2.2.2.2.1)
theorem seg2_keep_arg10 (w : Valuation τ sig (Elt F)) :
    StableHlo.after (seg2 (F := F)) w (Proc.devRef .tc main_arg10) = w (Proc.devRef .tc main_arg10) :=
  StableHlo.after_of_forall_not_mem (b := Proc.devRef .tc main_arg10) _ _
    (fun op hop => ((List.forall_iff_forall_mem.mp seg2_keeps) op hop).2.2.2.2.2.2.2.2.2.2.2.1)
theorem seg2_keep_arg11 (w : Valuation τ sig (Elt F)) :
    StableHlo.after (seg2 (F := F)) w (Proc.devRef .tc main_arg11) = w (Proc.devRef .tc main_arg11) :=
  StableHlo.after_of_forall_not_mem (b := Proc.devRef .tc main_arg11) _ _
    (fun op hop => ((List.forall_iff_forall_mem.mp seg2_keeps) op hop).2.2.2.2.2.2.2.2.2.2.2.2.1)
theorem seg2_keep_arg12 (w : Valuation τ sig (Elt F)) :
    StableHlo.after (seg2 (F := F)) w (Proc.devRef .tc main_arg12) = w (Proc.devRef .tc main_arg12) :=
  StableHlo.after_of_forall_not_mem (b := Proc.devRef .tc main_arg12) _ _
    (fun op hop => ((List.forall_iff_forall_mem.mp seg2_keeps) op hop).2.2.2.2.2.2.2.2.2.2.2.2.2)

set_option maxRecDepth 100000 in
set_option maxHeartbeats 40000000 in
/-- No operation of the segment writes a buffer that is read after it and written before it. -/
theorem seg3_keeps : (seg3 (F := F)).Forall fun op =>
    (Proc.devRef .tc main_v1 : DevRef τ sig) ∉ op.writes
    ∧ (Proc.devRef .tc main_v54 : DevRef τ sig) ∉ op.writes
    ∧ (Proc.devRef .tc main_arg0 : DevRef τ sig) ∉ op.writes
    ∧ (Proc.devRef .tc main_arg1 : DevRef τ sig) ∉ op.writes
    ∧ (Proc.devRef .tc main_arg2 : DevRef τ sig) ∉ op.writes
    ∧ (Proc.devRef .tc main_arg3 : DevRef τ sig) ∉ op.writes
    ∧ (Proc.devRef .tc main_arg4 : DevRef τ sig) ∉ op.writes
    ∧ (Proc.devRef .tc main_arg5 : DevRef τ sig) ∉ op.writes
    ∧ (Proc.devRef .tc main_arg6 : DevRef τ sig) ∉ op.writes
    ∧ (Proc.devRef .tc main_arg7 : DevRef τ sig) ∉ op.writes
    ∧ (Proc.devRef .tc main_arg8 : DevRef τ sig) ∉ op.writes
    ∧ (Proc.devRef .tc main_arg9 : DevRef τ sig) ∉ op.writes
    ∧ (Proc.devRef .tc main_arg10 : DevRef τ sig) ∉ op.writes
    ∧ (Proc.devRef .tc main_arg11 : DevRef τ sig) ∉ op.writes
    ∧ (Proc.devRef .tc main_arg12 : DevRef τ sig) ∉ op.writes := by
  simp only [seg3, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem seg3_keep_v1 (w : Valuation τ sig (Elt F)) :
    StableHlo.after (seg3 (F := F)) w (Proc.devRef .tc main_v1) = w (Proc.devRef .tc main_v1) :=
  StableHlo.after_of_forall_not_mem (b := Proc.devRef .tc main_v1) _ _
    (fun op hop => ((List.forall_iff_forall_mem.mp seg3_keeps) op hop).1)
theorem seg3_keep_v54 (w : Valuation τ sig (Elt F)) :
    StableHlo.after (seg3 (F := F)) w (Proc.devRef .tc main_v54) = w (Proc.devRef .tc main_v54) :=
  StableHlo.after_of_forall_not_mem (b := Proc.devRef .tc main_v54) _ _
    (fun op hop => ((List.forall_iff_forall_mem.mp seg3_keeps) op hop).2.1)
theorem seg3_keep_arg0 (w : Valuation τ sig (Elt F)) :
    StableHlo.after (seg3 (F := F)) w (Proc.devRef .tc main_arg0) = w (Proc.devRef .tc main_arg0) :=
  StableHlo.after_of_forall_not_mem (b := Proc.devRef .tc main_arg0) _ _
    (fun op hop => ((List.forall_iff_forall_mem.mp seg3_keeps) op hop).2.2.1)
theorem seg3_keep_arg1 (w : Valuation τ sig (Elt F)) :
    StableHlo.after (seg3 (F := F)) w (Proc.devRef .tc main_arg1) = w (Proc.devRef .tc main_arg1) :=
  StableHlo.after_of_forall_not_mem (b := Proc.devRef .tc main_arg1) _ _
    (fun op hop => ((List.forall_iff_forall_mem.mp seg3_keeps) op hop).2.2.2.1)
theorem seg3_keep_arg2 (w : Valuation τ sig (Elt F)) :
    StableHlo.after (seg3 (F := F)) w (Proc.devRef .tc main_arg2) = w (Proc.devRef .tc main_arg2) :=
  StableHlo.after_of_forall_not_mem (b := Proc.devRef .tc main_arg2) _ _
    (fun op hop => ((List.forall_iff_forall_mem.mp seg3_keeps) op hop).2.2.2.2.1)
theorem seg3_keep_arg3 (w : Valuation τ sig (Elt F)) :
    StableHlo.after (seg3 (F := F)) w (Proc.devRef .tc main_arg3) = w (Proc.devRef .tc main_arg3) :=
  StableHlo.after_of_forall_not_mem (b := Proc.devRef .tc main_arg3) _ _
    (fun op hop => ((List.forall_iff_forall_mem.mp seg3_keeps) op hop).2.2.2.2.2.1)
theorem seg3_keep_arg4 (w : Valuation τ sig (Elt F)) :
    StableHlo.after (seg3 (F := F)) w (Proc.devRef .tc main_arg4) = w (Proc.devRef .tc main_arg4) :=
  StableHlo.after_of_forall_not_mem (b := Proc.devRef .tc main_arg4) _ _
    (fun op hop => ((List.forall_iff_forall_mem.mp seg3_keeps) op hop).2.2.2.2.2.2.1)
theorem seg3_keep_arg5 (w : Valuation τ sig (Elt F)) :
    StableHlo.after (seg3 (F := F)) w (Proc.devRef .tc main_arg5) = w (Proc.devRef .tc main_arg5) :=
  StableHlo.after_of_forall_not_mem (b := Proc.devRef .tc main_arg5) _ _
    (fun op hop => ((List.forall_iff_forall_mem.mp seg3_keeps) op hop).2.2.2.2.2.2.2.1)
theorem seg3_keep_arg6 (w : Valuation τ sig (Elt F)) :
    StableHlo.after (seg3 (F := F)) w (Proc.devRef .tc main_arg6) = w (Proc.devRef .tc main_arg6) :=
  StableHlo.after_of_forall_not_mem (b := Proc.devRef .tc main_arg6) _ _
    (fun op hop => ((List.forall_iff_forall_mem.mp seg3_keeps) op hop).2.2.2.2.2.2.2.2.1)
theorem seg3_keep_arg7 (w : Valuation τ sig (Elt F)) :
    StableHlo.after (seg3 (F := F)) w (Proc.devRef .tc main_arg7) = w (Proc.devRef .tc main_arg7) :=
  StableHlo.after_of_forall_not_mem (b := Proc.devRef .tc main_arg7) _ _
    (fun op hop => ((List.forall_iff_forall_mem.mp seg3_keeps) op hop).2.2.2.2.2.2.2.2.2.1)
theorem seg3_keep_arg8 (w : Valuation τ sig (Elt F)) :
    StableHlo.after (seg3 (F := F)) w (Proc.devRef .tc main_arg8) = w (Proc.devRef .tc main_arg8) :=
  StableHlo.after_of_forall_not_mem (b := Proc.devRef .tc main_arg8) _ _
    (fun op hop => ((List.forall_iff_forall_mem.mp seg3_keeps) op hop).2.2.2.2.2.2.2.2.2.2.1)
theorem seg3_keep_arg9 (w : Valuation τ sig (Elt F)) :
    StableHlo.after (seg3 (F := F)) w (Proc.devRef .tc main_arg9) = w (Proc.devRef .tc main_arg9) :=
  StableHlo.after_of_forall_not_mem (b := Proc.devRef .tc main_arg9) _ _
    (fun op hop => ((List.forall_iff_forall_mem.mp seg3_keeps) op hop).2.2.2.2.2.2.2.2.2.2.2.1)
theorem seg3_keep_arg10 (w : Valuation τ sig (Elt F)) :
    StableHlo.after (seg3 (F := F)) w (Proc.devRef .tc main_arg10) = w (Proc.devRef .tc main_arg10) :=
  StableHlo.after_of_forall_not_mem (b := Proc.devRef .tc main_arg10) _ _
    (fun op hop => ((List.forall_iff_forall_mem.mp seg3_keeps) op hop).2.2.2.2.2.2.2.2.2.2.2.2.1)
theorem seg3_keep_arg11 (w : Valuation τ sig (Elt F)) :
    StableHlo.after (seg3 (F := F)) w (Proc.devRef .tc main_arg11) = w (Proc.devRef .tc main_arg11) :=
  StableHlo.after_of_forall_not_mem (b := Proc.devRef .tc main_arg11) _ _
    (fun op hop => ((List.forall_iff_forall_mem.mp seg3_keeps) op hop).2.2.2.2.2.2.2.2.2.2.2.2.2.1)
theorem seg3_keep_arg12 (w : Valuation τ sig (Elt F)) :
    StableHlo.after (seg3 (F := F)) w (Proc.devRef .tc main_arg12) = w (Proc.devRef .tc main_arg12) :=
  StableHlo.after_of_forall_not_mem (b := Proc.devRef .tc main_arg12) _ _
    (fun op hop => ((List.forall_iff_forall_mem.mp seg3_keeps) op hop).2.2.2.2.2.2.2.2.2.2.2.2.2.2)

set_option maxRecDepth 100000 in
set_option maxHeartbeats 40000000 in
/-- No operation of the segment writes a buffer that is read after it and written before it. -/
theorem seg4_keeps : (seg4 (F := F)).Forall fun op =>
    (Proc.devRef .tc main_v104 : DevRef τ sig) ∉ op.writes
    ∧ (Proc.devRef .tc main_v1 : DevRef τ sig) ∉ op.writes
    ∧ (Proc.devRef .tc main_v54 : DevRef τ sig) ∉ op.writes
    ∧ (Proc.devRef .tc main_arg0 : DevRef τ sig) ∉ op.writes
    ∧ (Proc.devRef .tc main_arg1 : DevRef τ sig) ∉ op.writes
    ∧ (Proc.devRef .tc main_arg2 : DevRef τ sig) ∉ op.writes
    ∧ (Proc.devRef .tc main_arg3 : DevRef τ sig) ∉ op.writes
    ∧ (Proc.devRef .tc main_arg4 : DevRef τ sig) ∉ op.writes
    ∧ (Proc.devRef .tc main_arg5 : DevRef τ sig) ∉ op.writes
    ∧ (Proc.devRef .tc main_arg6 : DevRef τ sig) ∉ op.writes
    ∧ (Proc.devRef .tc main_arg7 : DevRef τ sig) ∉ op.writes
    ∧ (Proc.devRef .tc main_arg8 : DevRef τ sig) ∉ op.writes
    ∧ (Proc.devRef .tc main_arg9 : DevRef τ sig) ∉ op.writes
    ∧ (Proc.devRef .tc main_arg10 : DevRef τ sig) ∉ op.writes
    ∧ (Proc.devRef .tc main_arg11 : DevRef τ sig) ∉ op.writes
    ∧ (Proc.devRef .tc main_arg12 : DevRef τ sig) ∉ op.writes := by
  simp only [seg4, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem seg4_keep_v104 (w : Valuation τ sig (Elt F)) :
    StableHlo.after (seg4 (F := F)) w (Proc.devRef .tc main_v104) = w (Proc.devRef .tc main_v104) :=
  StableHlo.after_of_forall_not_mem (b := Proc.devRef .tc main_v104) _ _
    (fun op hop => ((List.forall_iff_forall_mem.mp seg4_keeps) op hop).1)
theorem seg4_keep_v1 (w : Valuation τ sig (Elt F)) :
    StableHlo.after (seg4 (F := F)) w (Proc.devRef .tc main_v1) = w (Proc.devRef .tc main_v1) :=
  StableHlo.after_of_forall_not_mem (b := Proc.devRef .tc main_v1) _ _
    (fun op hop => ((List.forall_iff_forall_mem.mp seg4_keeps) op hop).2.1)
theorem seg4_keep_v54 (w : Valuation τ sig (Elt F)) :
    StableHlo.after (seg4 (F := F)) w (Proc.devRef .tc main_v54) = w (Proc.devRef .tc main_v54) :=
  StableHlo.after_of_forall_not_mem (b := Proc.devRef .tc main_v54) _ _
    (fun op hop => ((List.forall_iff_forall_mem.mp seg4_keeps) op hop).2.2.1)
theorem seg4_keep_arg0 (w : Valuation τ sig (Elt F)) :
    StableHlo.after (seg4 (F := F)) w (Proc.devRef .tc main_arg0) = w (Proc.devRef .tc main_arg0) :=
  StableHlo.after_of_forall_not_mem (b := Proc.devRef .tc main_arg0) _ _
    (fun op hop => ((List.forall_iff_forall_mem.mp seg4_keeps) op hop).2.2.2.1)
theorem seg4_keep_arg1 (w : Valuation τ sig (Elt F)) :
    StableHlo.after (seg4 (F := F)) w (Proc.devRef .tc main_arg1) = w (Proc.devRef .tc main_arg1) :=
  StableHlo.after_of_forall_not_mem (b := Proc.devRef .tc main_arg1) _ _
    (fun op hop => ((List.forall_iff_forall_mem.mp seg4_keeps) op hop).2.2.2.2.1)
theorem seg4_keep_arg2 (w : Valuation τ sig (Elt F)) :
    StableHlo.after (seg4 (F := F)) w (Proc.devRef .tc main_arg2) = w (Proc.devRef .tc main_arg2) :=
  StableHlo.after_of_forall_not_mem (b := Proc.devRef .tc main_arg2) _ _
    (fun op hop => ((List.forall_iff_forall_mem.mp seg4_keeps) op hop).2.2.2.2.2.1)
theorem seg4_keep_arg3 (w : Valuation τ sig (Elt F)) :
    StableHlo.after (seg4 (F := F)) w (Proc.devRef .tc main_arg3) = w (Proc.devRef .tc main_arg3) :=
  StableHlo.after_of_forall_not_mem (b := Proc.devRef .tc main_arg3) _ _
    (fun op hop => ((List.forall_iff_forall_mem.mp seg4_keeps) op hop).2.2.2.2.2.2.1)
theorem seg4_keep_arg4 (w : Valuation τ sig (Elt F)) :
    StableHlo.after (seg4 (F := F)) w (Proc.devRef .tc main_arg4) = w (Proc.devRef .tc main_arg4) :=
  StableHlo.after_of_forall_not_mem (b := Proc.devRef .tc main_arg4) _ _
    (fun op hop => ((List.forall_iff_forall_mem.mp seg4_keeps) op hop).2.2.2.2.2.2.2.1)
theorem seg4_keep_arg5 (w : Valuation τ sig (Elt F)) :
    StableHlo.after (seg4 (F := F)) w (Proc.devRef .tc main_arg5) = w (Proc.devRef .tc main_arg5) :=
  StableHlo.after_of_forall_not_mem (b := Proc.devRef .tc main_arg5) _ _
    (fun op hop => ((List.forall_iff_forall_mem.mp seg4_keeps) op hop).2.2.2.2.2.2.2.2.1)
theorem seg4_keep_arg6 (w : Valuation τ sig (Elt F)) :
    StableHlo.after (seg4 (F := F)) w (Proc.devRef .tc main_arg6) = w (Proc.devRef .tc main_arg6) :=
  StableHlo.after_of_forall_not_mem (b := Proc.devRef .tc main_arg6) _ _
    (fun op hop => ((List.forall_iff_forall_mem.mp seg4_keeps) op hop).2.2.2.2.2.2.2.2.2.1)
theorem seg4_keep_arg7 (w : Valuation τ sig (Elt F)) :
    StableHlo.after (seg4 (F := F)) w (Proc.devRef .tc main_arg7) = w (Proc.devRef .tc main_arg7) :=
  StableHlo.after_of_forall_not_mem (b := Proc.devRef .tc main_arg7) _ _
    (fun op hop => ((List.forall_iff_forall_mem.mp seg4_keeps) op hop).2.2.2.2.2.2.2.2.2.2.1)
theorem seg4_keep_arg8 (w : Valuation τ sig (Elt F)) :
    StableHlo.after (seg4 (F := F)) w (Proc.devRef .tc main_arg8) = w (Proc.devRef .tc main_arg8) :=
  StableHlo.after_of_forall_not_mem (b := Proc.devRef .tc main_arg8) _ _
    (fun op hop => ((List.forall_iff_forall_mem.mp seg4_keeps) op hop).2.2.2.2.2.2.2.2.2.2.2.1)
theorem seg4_keep_arg9 (w : Valuation τ sig (Elt F)) :
    StableHlo.after (seg4 (F := F)) w (Proc.devRef .tc main_arg9) = w (Proc.devRef .tc main_arg9) :=
  StableHlo.after_of_forall_not_mem (b := Proc.devRef .tc main_arg9) _ _
    (fun op hop => ((List.forall_iff_forall_mem.mp seg4_keeps) op hop).2.2.2.2.2.2.2.2.2.2.2.2.1)
theorem seg4_keep_arg10 (w : Valuation τ sig (Elt F)) :
    StableHlo.after (seg4 (F := F)) w (Proc.devRef .tc main_arg10) = w (Proc.devRef .tc main_arg10) :=
  StableHlo.after_of_forall_not_mem (b := Proc.devRef .tc main_arg10) _ _
    (fun op hop => ((List.forall_iff_forall_mem.mp seg4_keeps) op hop).2.2.2.2.2.2.2.2.2.2.2.2.2.1)
theorem seg4_keep_arg11 (w : Valuation τ sig (Elt F)) :
    StableHlo.after (seg4 (F := F)) w (Proc.devRef .tc main_arg11) = w (Proc.devRef .tc main_arg11) :=
  StableHlo.after_of_forall_not_mem (b := Proc.devRef .tc main_arg11) _ _
    (fun op hop => ((List.forall_iff_forall_mem.mp seg4_keeps) op hop).2.2.2.2.2.2.2.2.2.2.2.2.2.2.1)
theorem seg4_keep_arg12 (w : Valuation τ sig (Elt F)) :
    StableHlo.after (seg4 (F := F)) w (Proc.devRef .tc main_arg12) = w (Proc.devRef .tc main_arg12) :=
  StableHlo.after_of_forall_not_mem (b := Proc.devRef .tc main_arg12) _ _
    (fun op hop => ((List.forall_iff_forall_mem.mp seg4_keeps) op hop).2.2.2.2.2.2.2.2.2.2.2.2.2.2.2)

set_option maxRecDepth 100000 in
set_option maxHeartbeats 40000000 in
/-- No operation of the segment writes a buffer that is read after it and written before it. -/
theorem seg5_keeps : (seg5 (F := F)).Forall fun op =>
    (Proc.devRef .tc main_v1 : DevRef τ sig) ∉ op.writes
    ∧ (Proc.devRef .tc main_v54 : DevRef τ sig) ∉ op.writes
    ∧ (Proc.devRef .tc main_arg0 : DevRef τ sig) ∉ op.writes
    ∧ (Proc.devRef .tc main_arg1 : DevRef τ sig) ∉ op.writes
    ∧ (Proc.devRef .tc main_arg2 : DevRef τ sig) ∉ op.writes
    ∧ (Proc.devRef .tc main_arg3 : DevRef τ sig) ∉ op.writes
    ∧ (Proc.devRef .tc main_arg4 : DevRef τ sig) ∉ op.writes
    ∧ (Proc.devRef .tc main_arg5 : DevRef τ sig) ∉ op.writes
    ∧ (Proc.devRef .tc main_arg6 : DevRef τ sig) ∉ op.writes
    ∧ (Proc.devRef .tc main_arg7 : DevRef τ sig) ∉ op.writes
    ∧ (Proc.devRef .tc main_arg8 : DevRef τ sig) ∉ op.writes
    ∧ (Proc.devRef .tc main_arg9 : DevRef τ sig) ∉ op.writes
    ∧ (Proc.devRef .tc main_arg10 : DevRef τ sig) ∉ op.writes
    ∧ (Proc.devRef .tc main_arg11 : DevRef τ sig) ∉ op.writes
    ∧ (Proc.devRef .tc main_arg12 : DevRef τ sig) ∉ op.writes := by
  simp only [seg5, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem seg5_keep_v1 (w : Valuation τ sig (Elt F)) :
    StableHlo.after (seg5 (F := F)) w (Proc.devRef .tc main_v1) = w (Proc.devRef .tc main_v1) :=
  StableHlo.after_of_forall_not_mem (b := Proc.devRef .tc main_v1) _ _
    (fun op hop => ((List.forall_iff_forall_mem.mp seg5_keeps) op hop).1)
theorem seg5_keep_v54 (w : Valuation τ sig (Elt F)) :
    StableHlo.after (seg5 (F := F)) w (Proc.devRef .tc main_v54) = w (Proc.devRef .tc main_v54) :=
  StableHlo.after_of_forall_not_mem (b := Proc.devRef .tc main_v54) _ _
    (fun op hop => ((List.forall_iff_forall_mem.mp seg5_keeps) op hop).2.1)
theorem seg5_keep_arg0 (w : Valuation τ sig (Elt F)) :
    StableHlo.after (seg5 (F := F)) w (Proc.devRef .tc main_arg0) = w (Proc.devRef .tc main_arg0) :=
  StableHlo.after_of_forall_not_mem (b := Proc.devRef .tc main_arg0) _ _
    (fun op hop => ((List.forall_iff_forall_mem.mp seg5_keeps) op hop).2.2.1)
theorem seg5_keep_arg1 (w : Valuation τ sig (Elt F)) :
    StableHlo.after (seg5 (F := F)) w (Proc.devRef .tc main_arg1) = w (Proc.devRef .tc main_arg1) :=
  StableHlo.after_of_forall_not_mem (b := Proc.devRef .tc main_arg1) _ _
    (fun op hop => ((List.forall_iff_forall_mem.mp seg5_keeps) op hop).2.2.2.1)
theorem seg5_keep_arg2 (w : Valuation τ sig (Elt F)) :
    StableHlo.after (seg5 (F := F)) w (Proc.devRef .tc main_arg2) = w (Proc.devRef .tc main_arg2) :=
  StableHlo.after_of_forall_not_mem (b := Proc.devRef .tc main_arg2) _ _
    (fun op hop => ((List.forall_iff_forall_mem.mp seg5_keeps) op hop).2.2.2.2.1)
theorem seg5_keep_arg3 (w : Valuation τ sig (Elt F)) :
    StableHlo.after (seg5 (F := F)) w (Proc.devRef .tc main_arg3) = w (Proc.devRef .tc main_arg3) :=
  StableHlo.after_of_forall_not_mem (b := Proc.devRef .tc main_arg3) _ _
    (fun op hop => ((List.forall_iff_forall_mem.mp seg5_keeps) op hop).2.2.2.2.2.1)
theorem seg5_keep_arg4 (w : Valuation τ sig (Elt F)) :
    StableHlo.after (seg5 (F := F)) w (Proc.devRef .tc main_arg4) = w (Proc.devRef .tc main_arg4) :=
  StableHlo.after_of_forall_not_mem (b := Proc.devRef .tc main_arg4) _ _
    (fun op hop => ((List.forall_iff_forall_mem.mp seg5_keeps) op hop).2.2.2.2.2.2.1)
theorem seg5_keep_arg5 (w : Valuation τ sig (Elt F)) :
    StableHlo.after (seg5 (F := F)) w (Proc.devRef .tc main_arg5) = w (Proc.devRef .tc main_arg5) :=
  StableHlo.after_of_forall_not_mem (b := Proc.devRef .tc main_arg5) _ _
    (fun op hop => ((List.forall_iff_forall_mem.mp seg5_keeps) op hop).2.2.2.2.2.2.2.1)
theorem seg5_keep_arg6 (w : Valuation τ sig (Elt F)) :
    StableHlo.after (seg5 (F := F)) w (Proc.devRef .tc main_arg6) = w (Proc.devRef .tc main_arg6) :=
  StableHlo.after_of_forall_not_mem (b := Proc.devRef .tc main_arg6) _ _
    (fun op hop => ((List.forall_iff_forall_mem.mp seg5_keeps) op hop).2.2.2.2.2.2.2.2.1)
theorem seg5_keep_arg7 (w : Valuation τ sig (Elt F)) :
    StableHlo.after (seg5 (F := F)) w (Proc.devRef .tc main_arg7) = w (Proc.devRef .tc main_arg7) :=
  StableHlo.after_of_forall_not_mem (b := Proc.devRef .tc main_arg7) _ _
    (fun op hop => ((List.forall_iff_forall_mem.mp seg5_keeps) op hop).2.2.2.2.2.2.2.2.2.1)
theorem seg5_keep_arg8 (w : Valuation τ sig (Elt F)) :
    StableHlo.after (seg5 (F := F)) w (Proc.devRef .tc main_arg8) = w (Proc.devRef .tc main_arg8) :=
  StableHlo.after_of_forall_not_mem (b := Proc.devRef .tc main_arg8) _ _
    (fun op hop => ((List.forall_iff_forall_mem.mp seg5_keeps) op hop).2.2.2.2.2.2.2.2.2.2.1)
theorem seg5_keep_arg9 (w : Valuation τ sig (Elt F)) :
    StableHlo.after (seg5 (F := F)) w (Proc.devRef .tc main_arg9) = w (Proc.devRef .tc main_arg9) :=
  StableHlo.after_of_forall_not_mem (b := Proc.devRef .tc main_arg9) _ _
    (fun op hop => ((List.forall_iff_forall_mem.mp seg5_keeps) op hop).2.2.2.2.2.2.2.2.2.2.2.1)
theorem seg5_keep_arg10 (w : Valuation τ sig (Elt F)) :
    StableHlo.after (seg5 (F := F)) w (Proc.devRef .tc main_arg10) = w (Proc.devRef .tc main_arg10) :=
  StableHlo.after_of_forall_not_mem (b := Proc.devRef .tc main_arg10) _ _
    (fun op hop => ((List.forall_iff_forall_mem.mp seg5_keeps) op hop).2.2.2.2.2.2.2.2.2.2.2.2.1)
theorem seg5_keep_arg11 (w : Valuation τ sig (Elt F)) :
    StableHlo.after (seg5 (F := F)) w (Proc.devRef .tc main_arg11) = w (Proc.devRef .tc main_arg11) :=
  StableHlo.after_of_forall_not_mem (b := Proc.devRef .tc main_arg11) _ _
    (fun op hop => ((List.forall_iff_forall_mem.mp seg5_keeps) op hop).2.2.2.2.2.2.2.2.2.2.2.2.2.1)
theorem seg5_keep_arg12 (w : Valuation τ sig (Elt F)) :
    StableHlo.after (seg5 (F := F)) w (Proc.devRef .tc main_arg12) = w (Proc.devRef .tc main_arg12) :=
  StableHlo.after_of_forall_not_mem (b := Proc.devRef .tc main_arg12) _ _
    (fun op hop => ((List.forall_iff_forall_mem.mp seg5_keeps) op hop).2.2.2.2.2.2.2.2.2.2.2.2.2.2)

set_option maxRecDepth 100000 in
set_option maxHeartbeats 40000000 in
/-- No operation of the segment writes a buffer that is read after it and written before it. -/
theorem seg6_keeps : (seg6 (F := F)).Forall fun op =>
    (Proc.devRef .tc main_v1 : DevRef τ sig) ∉ op.writes
    ∧ (Proc.devRef .tc main_v54 : DevRef τ sig) ∉ op.writes
    ∧ (Proc.devRef .tc main_v107 : DevRef τ sig) ∉ op.writes
    ∧ (Proc.devRef .tc main_arg0 : DevRef τ sig) ∉ op.writes
    ∧ (Proc.devRef .tc main_arg1 : DevRef τ sig) ∉ op.writes
    ∧ (Proc.devRef .tc main_arg2 : DevRef τ sig) ∉ op.writes
    ∧ (Proc.devRef .tc main_arg3 : DevRef τ sig) ∉ op.writes
    ∧ (Proc.devRef .tc main_arg4 : DevRef τ sig) ∉ op.writes
    ∧ (Proc.devRef .tc main_arg5 : DevRef τ sig) ∉ op.writes
    ∧ (Proc.devRef .tc main_arg6 : DevRef τ sig) ∉ op.writes
    ∧ (Proc.devRef .tc main_arg7 : DevRef τ sig) ∉ op.writes
    ∧ (Proc.devRef .tc main_arg8 : DevRef τ sig) ∉ op.writes
    ∧ (Proc.devRef .tc main_arg9 : DevRef τ sig) ∉ op.writes
    ∧ (Proc.devRef .tc main_arg10 : DevRef τ sig) ∉ op.writes
    ∧ (Proc.devRef .tc main_arg11 : DevRef τ sig) ∉ op.writes
    ∧ (Proc.devRef .tc main_arg12 : DevRef τ sig) ∉ op.writes := by
  simp only [seg6, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem seg6_keep_v1 (w : Valuation τ sig (Elt F)) :
    StableHlo.after (seg6 (F := F)) w (Proc.devRef .tc main_v1) = w (Proc.devRef .tc main_v1) :=
  StableHlo.after_of_forall_not_mem (b := Proc.devRef .tc main_v1) _ _
    (fun op hop => ((List.forall_iff_forall_mem.mp seg6_keeps) op hop).1)
theorem seg6_keep_v54 (w : Valuation τ sig (Elt F)) :
    StableHlo.after (seg6 (F := F)) w (Proc.devRef .tc main_v54) = w (Proc.devRef .tc main_v54) :=
  StableHlo.after_of_forall_not_mem (b := Proc.devRef .tc main_v54) _ _
    (fun op hop => ((List.forall_iff_forall_mem.mp seg6_keeps) op hop).2.1)
theorem seg6_keep_v107 (w : Valuation τ sig (Elt F)) :
    StableHlo.after (seg6 (F := F)) w (Proc.devRef .tc main_v107) = w (Proc.devRef .tc main_v107) :=
  StableHlo.after_of_forall_not_mem (b := Proc.devRef .tc main_v107) _ _
    (fun op hop => ((List.forall_iff_forall_mem.mp seg6_keeps) op hop).2.2.1)
theorem seg6_keep_arg0 (w : Valuation τ sig (Elt F)) :
    StableHlo.after (seg6 (F := F)) w (Proc.devRef .tc main_arg0) = w (Proc.devRef .tc main_arg0) :=
  StableHlo.after_of_forall_not_mem (b := Proc.devRef .tc main_arg0) _ _
    (fun op hop => ((List.forall_iff_forall_mem.mp seg6_keeps) op hop).2.2.2.1)
theorem seg6_keep_arg1 (w : Valuation τ sig (Elt F)) :
    StableHlo.after (seg6 (F := F)) w (Proc.devRef .tc main_arg1) = w (Proc.devRef .tc main_arg1) :=
  StableHlo.after_of_forall_not_mem (b := Proc.devRef .tc main_arg1) _ _
    (fun op hop => ((List.forall_iff_forall_mem.mp seg6_keeps) op hop).2.2.2.2.1)
theorem seg6_keep_arg2 (w : Valuation τ sig (Elt F)) :
    StableHlo.after (seg6 (F := F)) w (Proc.devRef .tc main_arg2) = w (Proc.devRef .tc main_arg2) :=
  StableHlo.after_of_forall_not_mem (b := Proc.devRef .tc main_arg2) _ _
    (fun op hop => ((List.forall_iff_forall_mem.mp seg6_keeps) op hop).2.2.2.2.2.1)
theorem seg6_keep_arg3 (w : Valuation τ sig (Elt F)) :
    StableHlo.after (seg6 (F := F)) w (Proc.devRef .tc main_arg3) = w (Proc.devRef .tc main_arg3) :=
  StableHlo.after_of_forall_not_mem (b := Proc.devRef .tc main_arg3) _ _
    (fun op hop => ((List.forall_iff_forall_mem.mp seg6_keeps) op hop).2.2.2.2.2.2.1)
theorem seg6_keep_arg4 (w : Valuation τ sig (Elt F)) :
    StableHlo.after (seg6 (F := F)) w (Proc.devRef .tc main_arg4) = w (Proc.devRef .tc main_arg4) :=
  StableHlo.after_of_forall_not_mem (b := Proc.devRef .tc main_arg4) _ _
    (fun op hop => ((List.forall_iff_forall_mem.mp seg6_keeps) op hop).2.2.2.2.2.2.2.1)
theorem seg6_keep_arg5 (w : Valuation τ sig (Elt F)) :
    StableHlo.after (seg6 (F := F)) w (Proc.devRef .tc main_arg5) = w (Proc.devRef .tc main_arg5) :=
  StableHlo.after_of_forall_not_mem (b := Proc.devRef .tc main_arg5) _ _
    (fun op hop => ((List.forall_iff_forall_mem.mp seg6_keeps) op hop).2.2.2.2.2.2.2.2.1)
theorem seg6_keep_arg6 (w : Valuation τ sig (Elt F)) :
    StableHlo.after (seg6 (F := F)) w (Proc.devRef .tc main_arg6) = w (Proc.devRef .tc main_arg6) :=
  StableHlo.after_of_forall_not_mem (b := Proc.devRef .tc main_arg6) _ _
    (fun op hop => ((List.forall_iff_forall_mem.mp seg6_keeps) op hop).2.2.2.2.2.2.2.2.2.1)
theorem seg6_keep_arg7 (w : Valuation τ sig (Elt F)) :
    StableHlo.after (seg6 (F := F)) w (Proc.devRef .tc main_arg7) = w (Proc.devRef .tc main_arg7) :=
  StableHlo.after_of_forall_not_mem (b := Proc.devRef .tc main_arg7) _ _
    (fun op hop => ((List.forall_iff_forall_mem.mp seg6_keeps) op hop).2.2.2.2.2.2.2.2.2.2.1)
theorem seg6_keep_arg8 (w : Valuation τ sig (Elt F)) :
    StableHlo.after (seg6 (F := F)) w (Proc.devRef .tc main_arg8) = w (Proc.devRef .tc main_arg8) :=
  StableHlo.after_of_forall_not_mem (b := Proc.devRef .tc main_arg8) _ _
    (fun op hop => ((List.forall_iff_forall_mem.mp seg6_keeps) op hop).2.2.2.2.2.2.2.2.2.2.2.1)
theorem seg6_keep_arg9 (w : Valuation τ sig (Elt F)) :
    StableHlo.after (seg6 (F := F)) w (Proc.devRef .tc main_arg9) = w (Proc.devRef .tc main_arg9) :=
  StableHlo.after_of_forall_not_mem (b := Proc.devRef .tc main_arg9) _ _
    (fun op hop => ((List.forall_iff_forall_mem.mp seg6_keeps) op hop).2.2.2.2.2.2.2.2.2.2.2.2.1)
theorem seg6_keep_arg10 (w : Valuation τ sig (Elt F)) :
    StableHlo.after (seg6 (F := F)) w (Proc.devRef .tc main_arg10) = w (Proc.devRef .tc main_arg10) :=
  StableHlo.after_of_forall_not_mem (b := Proc.devRef .tc main_arg10) _ _
    (fun op hop => ((List.forall_iff_forall_mem.mp seg6_keeps) op hop).2.2.2.2.2.2.2.2.2.2.2.2.2.1)
theorem seg6_keep_arg11 (w : Valuation τ sig (Elt F)) :
    StableHlo.after (seg6 (F := F)) w (Proc.devRef .tc main_arg11) = w (Proc.devRef .tc main_arg11) :=
  StableHlo.after_of_forall_not_mem (b := Proc.devRef .tc main_arg11) _ _
    (fun op hop => ((List.forall_iff_forall_mem.mp seg6_keeps) op hop).2.2.2.2.2.2.2.2.2.2.2.2.2.2.1)
theorem seg6_keep_arg12 (w : Valuation τ sig (Elt F)) :
    StableHlo.after (seg6 (F := F)) w (Proc.devRef .tc main_arg12) = w (Proc.devRef .tc main_arg12) :=
  StableHlo.after_of_forall_not_mem (b := Proc.devRef .tc main_arg12) _ _
    (fun op hop => ((List.forall_iff_forall_mem.mp seg6_keeps) op hop).2.2.2.2.2.2.2.2.2.2.2.2.2.2.2)

set_option maxRecDepth 100000 in
set_option maxHeartbeats 40000000 in
/-- No operation of the segment writes a buffer that is read after it and written before it. -/
theorem seg7_keeps : (seg7 (F := F)).Forall fun op =>
    (Proc.devRef .tc main_v157 : DevRef τ sig) ∉ op.writes
    ∧ (Proc.devRef .tc main_v1 : DevRef τ sig) ∉ op.writes
    ∧ (Proc.devRef .tc main_v54 : DevRef τ sig) ∉ op.writes
    ∧ (Proc.devRef .tc main_v107 : DevRef τ sig) ∉ op.writes
    ∧ (Proc.devRef .tc main_arg0 : DevRef τ sig) ∉ op.writes
    ∧ (Proc.devRef .tc main_arg1 : DevRef τ sig) ∉ op.writes
    ∧ (Proc.devRef .tc main_arg2 : DevRef τ sig) ∉ op.writes
    ∧ (Proc.devRef .tc main_arg3 : DevRef τ sig) ∉ op.writes
    ∧ (Proc.devRef .tc main_arg4 : DevRef τ sig) ∉ op.writes
    ∧ (Proc.devRef .tc main_arg5 : DevRef τ sig) ∉ op.writes
    ∧ (Proc.devRef .tc main_arg6 : DevRef τ sig) ∉ op.writes
    ∧ (Proc.devRef .tc main_arg7 : DevRef τ sig) ∉ op.writes
    ∧ (Proc.devRef .tc main_arg8 : DevRef τ sig) ∉ op.writes
    ∧ (Proc.devRef .tc main_arg9 : DevRef τ sig) ∉ op.writes
    ∧ (Proc.devRef .tc main_arg10 : DevRef τ sig) ∉ op.writes
    ∧ (Proc.devRef .tc main_arg11 : DevRef τ sig) ∉ op.writes
    ∧ (Proc.devRef .tc main_arg12 : DevRef τ sig) ∉ op.writes := by
  simp only [seg7, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem seg7_keep_v157 (w : Valuation τ sig (Elt F)) :
    StableHlo.after (seg7 (F := F)) w (Proc.devRef .tc main_v157) = w (Proc.devRef .tc main_v157) :=
  StableHlo.after_of_forall_not_mem (b := Proc.devRef .tc main_v157) _ _
    (fun op hop => ((List.forall_iff_forall_mem.mp seg7_keeps) op hop).1)
theorem seg7_keep_v1 (w : Valuation τ sig (Elt F)) :
    StableHlo.after (seg7 (F := F)) w (Proc.devRef .tc main_v1) = w (Proc.devRef .tc main_v1) :=
  StableHlo.after_of_forall_not_mem (b := Proc.devRef .tc main_v1) _ _
    (fun op hop => ((List.forall_iff_forall_mem.mp seg7_keeps) op hop).2.1)
theorem seg7_keep_v54 (w : Valuation τ sig (Elt F)) :
    StableHlo.after (seg7 (F := F)) w (Proc.devRef .tc main_v54) = w (Proc.devRef .tc main_v54) :=
  StableHlo.after_of_forall_not_mem (b := Proc.devRef .tc main_v54) _ _
    (fun op hop => ((List.forall_iff_forall_mem.mp seg7_keeps) op hop).2.2.1)
theorem seg7_keep_v107 (w : Valuation τ sig (Elt F)) :
    StableHlo.after (seg7 (F := F)) w (Proc.devRef .tc main_v107) = w (Proc.devRef .tc main_v107) :=
  StableHlo.after_of_forall_not_mem (b := Proc.devRef .tc main_v107) _ _
    (fun op hop => ((List.forall_iff_forall_mem.mp seg7_keeps) op hop).2.2.2.1)
theorem seg7_keep_arg0 (w : Valuation τ sig (Elt F)) :
    StableHlo.after (seg7 (F := F)) w (Proc.devRef .tc main_arg0) = w (Proc.devRef .tc main_arg0) :=
  StableHlo.after_of_forall_not_mem (b := Proc.devRef .tc main_arg0) _ _
    (fun op hop => ((List.forall_iff_forall_mem.mp seg7_keeps) op hop).2.2.2.2.1)
theorem seg7_keep_arg1 (w : Valuation τ sig (Elt F)) :
    StableHlo.after (seg7 (F := F)) w (Proc.devRef .tc main_arg1) = w (Proc.devRef .tc main_arg1) :=
  StableHlo.after_of_forall_not_mem (b := Proc.devRef .tc main_arg1) _ _
    (fun op hop => ((List.forall_iff_forall_mem.mp seg7_keeps) op hop).2.2.2.2.2.1)
theorem seg7_keep_arg2 (w : Valuation τ sig (Elt F)) :
    StableHlo.after (seg7 (F := F)) w (Proc.devRef .tc main_arg2) = w (Proc.devRef .tc main_arg2) :=
  StableHlo.after_of_forall_not_mem (b := Proc.devRef .tc main_arg2) _ _
    (fun op hop => ((List.forall_iff_forall_mem.mp seg7_keeps) op hop).2.2.2.2.2.2.1)
theorem seg7_keep_arg3 (w : Valuation τ sig (Elt F)) :
    StableHlo.after (seg7 (F := F)) w (Proc.devRef .tc main_arg3) = w (Proc.devRef .tc main_arg3) :=
  StableHlo.after_of_forall_not_mem (b := Proc.devRef .tc main_arg3) _ _
    (fun op hop => ((List.forall_iff_forall_mem.mp seg7_keeps) op hop).2.2.2.2.2.2.2.1)
theorem seg7_keep_arg4 (w : Valuation τ sig (Elt F)) :
    StableHlo.after (seg7 (F := F)) w (Proc.devRef .tc main_arg4) = w (Proc.devRef .tc main_arg4) :=
  StableHlo.after_of_forall_not_mem (b := Proc.devRef .tc main_arg4) _ _
    (fun op hop => ((List.forall_iff_forall_mem.mp seg7_keeps) op hop).2.2.2.2.2.2.2.2.1)
theorem seg7_keep_arg5 (w : Valuation τ sig (Elt F)) :
    StableHlo.after (seg7 (F := F)) w (Proc.devRef .tc main_arg5) = w (Proc.devRef .tc main_arg5) :=
  StableHlo.after_of_forall_not_mem (b := Proc.devRef .tc main_arg5) _ _
    (fun op hop => ((List.forall_iff_forall_mem.mp seg7_keeps) op hop).2.2.2.2.2.2.2.2.2.1)
theorem seg7_keep_arg6 (w : Valuation τ sig (Elt F)) :
    StableHlo.after (seg7 (F := F)) w (Proc.devRef .tc main_arg6) = w (Proc.devRef .tc main_arg6) :=
  StableHlo.after_of_forall_not_mem (b := Proc.devRef .tc main_arg6) _ _
    (fun op hop => ((List.forall_iff_forall_mem.mp seg7_keeps) op hop).2.2.2.2.2.2.2.2.2.2.1)
theorem seg7_keep_arg7 (w : Valuation τ sig (Elt F)) :
    StableHlo.after (seg7 (F := F)) w (Proc.devRef .tc main_arg7) = w (Proc.devRef .tc main_arg7) :=
  StableHlo.after_of_forall_not_mem (b := Proc.devRef .tc main_arg7) _ _
    (fun op hop => ((List.forall_iff_forall_mem.mp seg7_keeps) op hop).2.2.2.2.2.2.2.2.2.2.2.1)
theorem seg7_keep_arg8 (w : Valuation τ sig (Elt F)) :
    StableHlo.after (seg7 (F := F)) w (Proc.devRef .tc main_arg8) = w (Proc.devRef .tc main_arg8) :=
  StableHlo.after_of_forall_not_mem (b := Proc.devRef .tc main_arg8) _ _
    (fun op hop => ((List.forall_iff_forall_mem.mp seg7_keeps) op hop).2.2.2.2.2.2.2.2.2.2.2.2.1)
theorem seg7_keep_arg9 (w : Valuation τ sig (Elt F)) :
    StableHlo.after (seg7 (F := F)) w (Proc.devRef .tc main_arg9) = w (Proc.devRef .tc main_arg9) :=
  StableHlo.after_of_forall_not_mem (b := Proc.devRef .tc main_arg9) _ _
    (fun op hop => ((List.forall_iff_forall_mem.mp seg7_keeps) op hop).2.2.2.2.2.2.2.2.2.2.2.2.2.1)
theorem seg7_keep_arg10 (w : Valuation τ sig (Elt F)) :
    StableHlo.after (seg7 (F := F)) w (Proc.devRef .tc main_arg10) = w (Proc.devRef .tc main_arg10) :=
  StableHlo.after_of_forall_not_mem (b := Proc.devRef .tc main_arg10) _ _
    (fun op hop => ((List.forall_iff_forall_mem.mp seg7_keeps) op hop).2.2.2.2.2.2.2.2.2.2.2.2.2.2.1)
theorem seg7_keep_arg11 (w : Valuation τ sig (Elt F)) :
    StableHlo.after (seg7 (F := F)) w (Proc.devRef .tc main_arg11) = w (Proc.devRef .tc main_arg11) :=
  StableHlo.after_of_forall_not_mem (b := Proc.devRef .tc main_arg11) _ _
    (fun op hop => ((List.forall_iff_forall_mem.mp seg7_keeps) op hop).2.2.2.2.2.2.2.2.2.2.2.2.2.2.2.1)
theorem seg7_keep_arg12 (w : Valuation τ sig (Elt F)) :
    StableHlo.after (seg7 (F := F)) w (Proc.devRef .tc main_arg12) = w (Proc.devRef .tc main_arg12) :=
  StableHlo.after_of_forall_not_mem (b := Proc.devRef .tc main_arg12) _ _
    (fun op hop => ((List.forall_iff_forall_mem.mp seg7_keeps) op hop).2.2.2.2.2.2.2.2.2.2.2.2.2.2.2.2)

set_option maxRecDepth 100000 in
set_option maxHeartbeats 40000000 in
/-- No operation of the segment writes a buffer that is read after it and written before it. -/
theorem seg8_keeps : (seg8 (F := F)).Forall fun op =>
    (Proc.devRef .tc main_v1 : DevRef τ sig) ∉ op.writes
    ∧ (Proc.devRef .tc main_v54 : DevRef τ sig) ∉ op.writes
    ∧ (Proc.devRef .tc main_v107 : DevRef τ sig) ∉ op.writes
    ∧ (Proc.devRef .tc main_arg0 : DevRef τ sig) ∉ op.writes
    ∧ (Proc.devRef .tc main_arg1 : DevRef τ sig) ∉ op.writes
    ∧ (Proc.devRef .tc main_arg2 : DevRef τ sig) ∉ op.writes
    ∧ (Proc.devRef .tc main_arg3 : DevRef τ sig) ∉ op.writes
    ∧ (Proc.devRef .tc main_arg4 : DevRef τ sig) ∉ op.writes
    ∧ (Proc.devRef .tc main_arg5 : DevRef τ sig) ∉ op.writes
    ∧ (Proc.devRef .tc main_arg6 : DevRef τ sig) ∉ op.writes
    ∧ (Proc.devRef .tc main_arg7 : DevRef τ sig) ∉ op.writes
    ∧ (Proc.devRef .tc main_arg8 : DevRef τ sig) ∉ op.writes
    ∧ (Proc.devRef .tc main_arg9 : DevRef τ sig) ∉ op.writes
    ∧ (Proc.devRef .tc main_arg10 : DevRef τ sig) ∉ op.writes
    ∧ (Proc.devRef .tc main_arg11 : DevRef τ sig) ∉ op.writes
    ∧ (Proc.devRef .tc main_arg12 : DevRef τ sig) ∉ op.writes := by
  simp only [seg8, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem seg8_keep_v1 (w : Valuation τ sig (Elt F)) :
    StableHlo.after (seg8 (F := F)) w (Proc.devRef .tc main_v1) = w (Proc.devRef .tc main_v1) :=
  StableHlo.after_of_forall_not_mem (b := Proc.devRef .tc main_v1) _ _
    (fun op hop => ((List.forall_iff_forall_mem.mp seg8_keeps) op hop).1)
theorem seg8_keep_v54 (w : Valuation τ sig (Elt F)) :
    StableHlo.after (seg8 (F := F)) w (Proc.devRef .tc main_v54) = w (Proc.devRef .tc main_v54) :=
  StableHlo.after_of_forall_not_mem (b := Proc.devRef .tc main_v54) _ _
    (fun op hop => ((List.forall_iff_forall_mem.mp seg8_keeps) op hop).2.1)
theorem seg8_keep_v107 (w : Valuation τ sig (Elt F)) :
    StableHlo.after (seg8 (F := F)) w (Proc.devRef .tc main_v107) = w (Proc.devRef .tc main_v107) :=
  StableHlo.after_of_forall_not_mem (b := Proc.devRef .tc main_v107) _ _
    (fun op hop => ((List.forall_iff_forall_mem.mp seg8_keeps) op hop).2.2.1)
theorem seg8_keep_arg0 (w : Valuation τ sig (Elt F)) :
    StableHlo.after (seg8 (F := F)) w (Proc.devRef .tc main_arg0) = w (Proc.devRef .tc main_arg0) :=
  StableHlo.after_of_forall_not_mem (b := Proc.devRef .tc main_arg0) _ _
    (fun op hop => ((List.forall_iff_forall_mem.mp seg8_keeps) op hop).2.2.2.1)
theorem seg8_keep_arg1 (w : Valuation τ sig (Elt F)) :
    StableHlo.after (seg8 (F := F)) w (Proc.devRef .tc main_arg1) = w (Proc.devRef .tc main_arg1) :=
  StableHlo.after_of_forall_not_mem (b := Proc.devRef .tc main_arg1) _ _
    (fun op hop => ((List.forall_iff_forall_mem.mp seg8_keeps) op hop).2.2.2.2.1)
theorem seg8_keep_arg2 (w : Valuation τ sig (Elt F)) :
    StableHlo.after (seg8 (F := F)) w (Proc.devRef .tc main_arg2) = w (Proc.devRef .tc main_arg2) :=
  StableHlo.after_of_forall_not_mem (b := Proc.devRef .tc main_arg2) _ _
    (fun op hop => ((List.forall_iff_forall_mem.mp seg8_keeps) op hop).2.2.2.2.2.1)
theorem seg8_keep_arg3 (w : Valuation τ sig (Elt F)) :
    StableHlo.after (seg8 (F := F)) w (Proc.devRef .tc main_arg3) = w (Proc.devRef .tc main_arg3) :=
  StableHlo.after_of_forall_not_mem (b := Proc.devRef .tc main_arg3) _ _
    (fun op hop => ((List.forall_iff_forall_mem.mp seg8_keeps) op hop).2.2.2.2.2.2.1)
theorem seg8_keep_arg4 (w : Valuation τ sig (Elt F)) :
    StableHlo.after (seg8 (F := F)) w (Proc.devRef .tc main_arg4) = w (Proc.devRef .tc main_arg4) :=
  StableHlo.after_of_forall_not_mem (b := Proc.devRef .tc main_arg4) _ _
    (fun op hop => ((List.forall_iff_forall_mem.mp seg8_keeps) op hop).2.2.2.2.2.2.2.1)
theorem seg8_keep_arg5 (w : Valuation τ sig (Elt F)) :
    StableHlo.after (seg8 (F := F)) w (Proc.devRef .tc main_arg5) = w (Proc.devRef .tc main_arg5) :=
  StableHlo.after_of_forall_not_mem (b := Proc.devRef .tc main_arg5) _ _
    (fun op hop => ((List.forall_iff_forall_mem.mp seg8_keeps) op hop).2.2.2.2.2.2.2.2.1)
theorem seg8_keep_arg6 (w : Valuation τ sig (Elt F)) :
    StableHlo.after (seg8 (F := F)) w (Proc.devRef .tc main_arg6) = w (Proc.devRef .tc main_arg6) :=
  StableHlo.after_of_forall_not_mem (b := Proc.devRef .tc main_arg6) _ _
    (fun op hop => ((List.forall_iff_forall_mem.mp seg8_keeps) op hop).2.2.2.2.2.2.2.2.2.1)
theorem seg8_keep_arg7 (w : Valuation τ sig (Elt F)) :
    StableHlo.after (seg8 (F := F)) w (Proc.devRef .tc main_arg7) = w (Proc.devRef .tc main_arg7) :=
  StableHlo.after_of_forall_not_mem (b := Proc.devRef .tc main_arg7) _ _
    (fun op hop => ((List.forall_iff_forall_mem.mp seg8_keeps) op hop).2.2.2.2.2.2.2.2.2.2.1)
theorem seg8_keep_arg8 (w : Valuation τ sig (Elt F)) :
    StableHlo.after (seg8 (F := F)) w (Proc.devRef .tc main_arg8) = w (Proc.devRef .tc main_arg8) :=
  StableHlo.after_of_forall_not_mem (b := Proc.devRef .tc main_arg8) _ _
    (fun op hop => ((List.forall_iff_forall_mem.mp seg8_keeps) op hop).2.2.2.2.2.2.2.2.2.2.2.1)
theorem seg8_keep_arg9 (w : Valuation τ sig (Elt F)) :
    StableHlo.after (seg8 (F := F)) w (Proc.devRef .tc main_arg9) = w (Proc.devRef .tc main_arg9) :=
  StableHlo.after_of_forall_not_mem (b := Proc.devRef .tc main_arg9) _ _
    (fun op hop => ((List.forall_iff_forall_mem.mp seg8_keeps) op hop).2.2.2.2.2.2.2.2.2.2.2.2.1)
theorem seg8_keep_arg10 (w : Valuation τ sig (Elt F)) :
    StableHlo.after (seg8 (F := F)) w (Proc.devRef .tc main_arg10) = w (Proc.devRef .tc main_arg10) :=
  StableHlo.after_of_forall_not_mem (b := Proc.devRef .tc main_arg10) _ _
    (fun op hop => ((List.forall_iff_forall_mem.mp seg8_keeps) op hop).2.2.2.2.2.2.2.2.2.2.2.2.2.1)
theorem seg8_keep_arg11 (w : Valuation τ sig (Elt F)) :
    StableHlo.after (seg8 (F := F)) w (Proc.devRef .tc main_arg11) = w (Proc.devRef .tc main_arg11) :=
  StableHlo.after_of_forall_not_mem (b := Proc.devRef .tc main_arg11) _ _
    (fun op hop => ((List.forall_iff_forall_mem.mp seg8_keeps) op hop).2.2.2.2.2.2.2.2.2.2.2.2.2.2.1)
theorem seg8_keep_arg12 (w : Valuation τ sig (Elt F)) :
    StableHlo.after (seg8 (F := F)) w (Proc.devRef .tc main_arg12) = w (Proc.devRef .tc main_arg12) :=
  StableHlo.after_of_forall_not_mem (b := Proc.devRef .tc main_arg12) _ _
    (fun op hop => ((List.forall_iff_forall_mem.mp seg8_keeps) op hop).2.2.2.2.2.2.2.2.2.2.2.2.2.2.2)

set_option maxRecDepth 100000 in
set_option maxHeartbeats 40000000 in
/-- No operation of the segment writes a buffer that is read after it and written before it. -/
theorem seg9_keeps : (seg9 (F := F)).Forall fun op =>
    (Proc.devRef .tc main_v54 : DevRef τ sig) ∉ op.writes
    ∧ (Proc.devRef .tc main_v107 : DevRef τ sig) ∉ op.writes
    ∧ (Proc.devRef .tc main_v160 : DevRef τ sig) ∉ op.writes
    ∧ (Proc.devRef .tc main_arg0 : DevRef τ sig) ∉ op.writes
    ∧ (Proc.devRef .tc main_arg1 : DevRef τ sig) ∉ op.writes
    ∧ (Proc.devRef .tc main_arg2 : DevRef τ sig) ∉ op.writes
    ∧ (Proc.devRef .tc main_arg3 : DevRef τ sig) ∉ op.writes
    ∧ (Proc.devRef .tc main_arg4 : DevRef τ sig) ∉ op.writes
    ∧ (Proc.devRef .tc main_arg5 : DevRef τ sig) ∉ op.writes
    ∧ (Proc.devRef .tc main_arg6 : DevRef τ sig) ∉ op.writes
    ∧ (Proc.devRef .tc main_arg7 : DevRef τ sig) ∉ op.writes
    ∧ (Proc.devRef .tc main_arg8 : DevRef τ sig) ∉ op.writes
    ∧ (Proc.devRef .tc main_arg9 : DevRef τ sig) ∉ op.writes
    ∧ (Proc.devRef .tc main_arg10 : DevRef τ sig) ∉ op.writes
    ∧ (Proc.devRef .tc main_arg11 : DevRef τ sig) ∉ op.writes
    ∧ (Proc.devRef .tc main_arg12 : DevRef τ sig) ∉ op.writes := by
  simp only [seg9, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem seg9_keep_v54 (w : Valuation τ sig (Elt F)) :
    StableHlo.after (seg9 (F := F)) w (Proc.devRef .tc main_v54) = w (Proc.devRef .tc main_v54) :=
  StableHlo.after_of_forall_not_mem (b := Proc.devRef .tc main_v54) _ _
    (fun op hop => ((List.forall_iff_forall_mem.mp seg9_keeps) op hop).1)
theorem seg9_keep_v107 (w : Valuation τ sig (Elt F)) :
    StableHlo.after (seg9 (F := F)) w (Proc.devRef .tc main_v107) = w (Proc.devRef .tc main_v107) :=
  StableHlo.after_of_forall_not_mem (b := Proc.devRef .tc main_v107) _ _
    (fun op hop => ((List.forall_iff_forall_mem.mp seg9_keeps) op hop).2.1)
theorem seg9_keep_v160 (w : Valuation τ sig (Elt F)) :
    StableHlo.after (seg9 (F := F)) w (Proc.devRef .tc main_v160) = w (Proc.devRef .tc main_v160) :=
  StableHlo.after_of_forall_not_mem (b := Proc.devRef .tc main_v160) _ _
    (fun op hop => ((List.forall_iff_forall_mem.mp seg9_keeps) op hop).2.2.1)
theorem seg9_keep_arg0 (w : Valuation τ sig (Elt F)) :
    StableHlo.after (seg9 (F := F)) w (Proc.devRef .tc main_arg0) = w (Proc.devRef .tc main_arg0) :=
  StableHlo.after_of_forall_not_mem (b := Proc.devRef .tc main_arg0) _ _
    (fun op hop => ((List.forall_iff_forall_mem.mp seg9_keeps) op hop).2.2.2.1)
theorem seg9_keep_arg1 (w : Valuation τ sig (Elt F)) :
    StableHlo.after (seg9 (F := F)) w (Proc.devRef .tc main_arg1) = w (Proc.devRef .tc main_arg1) :=
  StableHlo.after_of_forall_not_mem (b := Proc.devRef .tc main_arg1) _ _
    (fun op hop => ((List.forall_iff_forall_mem.mp seg9_keeps) op hop).2.2.2.2.1)
theorem seg9_keep_arg2 (w : Valuation τ sig (Elt F)) :
    StableHlo.after (seg9 (F := F)) w (Proc.devRef .tc main_arg2) = w (Proc.devRef .tc main_arg2) :=
  StableHlo.after_of_forall_not_mem (b := Proc.devRef .tc main_arg2) _ _
    (fun op hop => ((List.forall_iff_forall_mem.mp seg9_keeps) op hop).2.2.2.2.2.1)
theorem seg9_keep_arg3 (w : Valuation τ sig (Elt F)) :
    StableHlo.after (seg9 (F := F)) w (Proc.devRef .tc main_arg3) = w (Proc.devRef .tc main_arg3) :=
  StableHlo.after_of_forall_not_mem (b := Proc.devRef .tc main_arg3) _ _
    (fun op hop => ((List.forall_iff_forall_mem.mp seg9_keeps) op hop).2.2.2.2.2.2.1)
theorem seg9_keep_arg4 (w : Valuation τ sig (Elt F)) :
    StableHlo.after (seg9 (F := F)) w (Proc.devRef .tc main_arg4) = w (Proc.devRef .tc main_arg4) :=
  StableHlo.after_of_forall_not_mem (b := Proc.devRef .tc main_arg4) _ _
    (fun op hop => ((List.forall_iff_forall_mem.mp seg9_keeps) op hop).2.2.2.2.2.2.2.1)
theorem seg9_keep_arg5 (w : Valuation τ sig (Elt F)) :
    StableHlo.after (seg9 (F := F)) w (Proc.devRef .tc main_arg5) = w (Proc.devRef .tc main_arg5) :=
  StableHlo.after_of_forall_not_mem (b := Proc.devRef .tc main_arg5) _ _
    (fun op hop => ((List.forall_iff_forall_mem.mp seg9_keeps) op hop).2.2.2.2.2.2.2.2.1)
theorem seg9_keep_arg6 (w : Valuation τ sig (Elt F)) :
    StableHlo.after (seg9 (F := F)) w (Proc.devRef .tc main_arg6) = w (Proc.devRef .tc main_arg6) :=
  StableHlo.after_of_forall_not_mem (b := Proc.devRef .tc main_arg6) _ _
    (fun op hop => ((List.forall_iff_forall_mem.mp seg9_keeps) op hop).2.2.2.2.2.2.2.2.2.1)
theorem seg9_keep_arg7 (w : Valuation τ sig (Elt F)) :
    StableHlo.after (seg9 (F := F)) w (Proc.devRef .tc main_arg7) = w (Proc.devRef .tc main_arg7) :=
  StableHlo.after_of_forall_not_mem (b := Proc.devRef .tc main_arg7) _ _
    (fun op hop => ((List.forall_iff_forall_mem.mp seg9_keeps) op hop).2.2.2.2.2.2.2.2.2.2.1)
theorem seg9_keep_arg8 (w : Valuation τ sig (Elt F)) :
    StableHlo.after (seg9 (F := F)) w (Proc.devRef .tc main_arg8) = w (Proc.devRef .tc main_arg8) :=
  StableHlo.after_of_forall_not_mem (b := Proc.devRef .tc main_arg8) _ _
    (fun op hop => ((List.forall_iff_forall_mem.mp seg9_keeps) op hop).2.2.2.2.2.2.2.2.2.2.2.1)
theorem seg9_keep_arg9 (w : Valuation τ sig (Elt F)) :
    StableHlo.after (seg9 (F := F)) w (Proc.devRef .tc main_arg9) = w (Proc.devRef .tc main_arg9) :=
  StableHlo.after_of_forall_not_mem (b := Proc.devRef .tc main_arg9) _ _
    (fun op hop => ((List.forall_iff_forall_mem.mp seg9_keeps) op hop).2.2.2.2.2.2.2.2.2.2.2.2.1)
theorem seg9_keep_arg10 (w : Valuation τ sig (Elt F)) :
    StableHlo.after (seg9 (F := F)) w (Proc.devRef .tc main_arg10) = w (Proc.devRef .tc main_arg10) :=
  StableHlo.after_of_forall_not_mem (b := Proc.devRef .tc main_arg10) _ _
    (fun op hop => ((List.forall_iff_forall_mem.mp seg9_keeps) op hop).2.2.2.2.2.2.2.2.2.2.2.2.2.1)
theorem seg9_keep_arg11 (w : Valuation τ sig (Elt F)) :
    StableHlo.after (seg9 (F := F)) w (Proc.devRef .tc main_arg11) = w (Proc.devRef .tc main_arg11) :=
  StableHlo.after_of_forall_not_mem (b := Proc.devRef .tc main_arg11) _ _
    (fun op hop => ((List.forall_iff_forall_mem.mp seg9_keeps) op hop).2.2.2.2.2.2.2.2.2.2.2.2.2.2.1)
theorem seg9_keep_arg12 (w : Valuation τ sig (Elt F)) :
    StableHlo.after (seg9 (F := F)) w (Proc.devRef .tc main_arg12) = w (Proc.devRef .tc main_arg12) :=
  StableHlo.after_of_forall_not_mem (b := Proc.devRef .tc main_arg12) _ _
    (fun op hop => ((List.forall_iff_forall_mem.mp seg9_keeps) op hop).2.2.2.2.2.2.2.2.2.2.2.2.2.2.2)

set_option maxRecDepth 100000 in
set_option maxHeartbeats 40000000 in
/-- No operation of the segment writes a buffer that is read after it and written before it. -/
theorem seg10_keeps : (seg10 (F := F)).Forall fun op =>
    (Proc.devRef .tc main_v210 : DevRef τ sig) ∉ op.writes
    ∧ (Proc.devRef .tc main_v54 : DevRef τ sig) ∉ op.writes
    ∧ (Proc.devRef .tc main_v107 : DevRef τ sig) ∉ op.writes
    ∧ (Proc.devRef .tc main_v160 : DevRef τ sig) ∉ op.writes
    ∧ (Proc.devRef .tc main_arg0 : DevRef τ sig) ∉ op.writes
    ∧ (Proc.devRef .tc main_arg1 : DevRef τ sig) ∉ op.writes
    ∧ (Proc.devRef .tc main_arg2 : DevRef τ sig) ∉ op.writes
    ∧ (Proc.devRef .tc main_arg3 : DevRef τ sig) ∉ op.writes
    ∧ (Proc.devRef .tc main_arg4 : DevRef τ sig) ∉ op.writes
    ∧ (Proc.devRef .tc main_arg5 : DevRef τ sig) ∉ op.writes
    ∧ (Proc.devRef .tc main_arg6 : DevRef τ sig) ∉ op.writes
    ∧ (Proc.devRef .tc main_arg7 : DevRef τ sig) ∉ op.writes
    ∧ (Proc.devRef .tc main_arg8 : DevRef τ sig) ∉ op.writes
    ∧ (Proc.devRef .tc main_arg9 : DevRef τ sig) ∉ op.writes
    ∧ (Proc.devRef .tc main_arg10 : DevRef τ sig) ∉ op.writes
    ∧ (Proc.devRef .tc main_arg11 : DevRef τ sig) ∉ op.writes
    ∧ (Proc.devRef .tc main_arg12 : DevRef τ sig) ∉ op.writes := by
  simp only [seg10, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem seg10_keep_v210 (w : Valuation τ sig (Elt F)) :
    StableHlo.after (seg10 (F := F)) w (Proc.devRef .tc main_v210) = w (Proc.devRef .tc main_v210) :=
  StableHlo.after_of_forall_not_mem (b := Proc.devRef .tc main_v210) _ _
    (fun op hop => ((List.forall_iff_forall_mem.mp seg10_keeps) op hop).1)
theorem seg10_keep_v54 (w : Valuation τ sig (Elt F)) :
    StableHlo.after (seg10 (F := F)) w (Proc.devRef .tc main_v54) = w (Proc.devRef .tc main_v54) :=
  StableHlo.after_of_forall_not_mem (b := Proc.devRef .tc main_v54) _ _
    (fun op hop => ((List.forall_iff_forall_mem.mp seg10_keeps) op hop).2.1)
theorem seg10_keep_v107 (w : Valuation τ sig (Elt F)) :
    StableHlo.after (seg10 (F := F)) w (Proc.devRef .tc main_v107) = w (Proc.devRef .tc main_v107) :=
  StableHlo.after_of_forall_not_mem (b := Proc.devRef .tc main_v107) _ _
    (fun op hop => ((List.forall_iff_forall_mem.mp seg10_keeps) op hop).2.2.1)
theorem seg10_keep_v160 (w : Valuation τ sig (Elt F)) :
    StableHlo.after (seg10 (F := F)) w (Proc.devRef .tc main_v160) = w (Proc.devRef .tc main_v160) :=
  StableHlo.after_of_forall_not_mem (b := Proc.devRef .tc main_v160) _ _
    (fun op hop => ((List.forall_iff_forall_mem.mp seg10_keeps) op hop).2.2.2.1)
theorem seg10_keep_arg0 (w : Valuation τ sig (Elt F)) :
    StableHlo.after (seg10 (F := F)) w (Proc.devRef .tc main_arg0) = w (Proc.devRef .tc main_arg0) :=
  StableHlo.after_of_forall_not_mem (b := Proc.devRef .tc main_arg0) _ _
    (fun op hop => ((List.forall_iff_forall_mem.mp seg10_keeps) op hop).2.2.2.2.1)
theorem seg10_keep_arg1 (w : Valuation τ sig (Elt F)) :
    StableHlo.after (seg10 (F := F)) w (Proc.devRef .tc main_arg1) = w (Proc.devRef .tc main_arg1) :=
  StableHlo.after_of_forall_not_mem (b := Proc.devRef .tc main_arg1) _ _
    (fun op hop => ((List.forall_iff_forall_mem.mp seg10_keeps) op hop).2.2.2.2.2.1)
theorem seg10_keep_arg2 (w : Valuation τ sig (Elt F)) :
    StableHlo.after (seg10 (F := F)) w (Proc.devRef .tc main_arg2) = w (Proc.devRef .tc main_arg2) :=
  StableHlo.after_of_forall_not_mem (b := Proc.devRef .tc main_arg2) _ _
    (fun op hop => ((List.forall_iff_forall_mem.mp seg10_keeps) op hop).2.2.2.2.2.2.1)
theorem seg10_keep_arg3 (w : Valuation τ sig (Elt F)) :
    StableHlo.after (seg10 (F := F)) w (Proc.devRef .tc main_arg3) = w (Proc.devRef .tc main_arg3) :=
  StableHlo.after_of_forall_not_mem (b := Proc.devRef .tc main_arg3) _ _
    (fun op hop => ((List.forall_iff_forall_mem.mp seg10_keeps) op hop).2.2.2.2.2.2.2.1)
theorem seg10_keep_arg4 (w : Valuation τ sig (Elt F)) :
    StableHlo.after (seg10 (F := F)) w (Proc.devRef .tc main_arg4) = w (Proc.devRef .tc main_arg4) :=
  StableHlo.after_of_forall_not_mem (b := Proc.devRef .tc main_arg4) _ _
    (fun op hop => ((List.forall_iff_forall_mem.mp seg10_keeps) op hop).2.2.2.2.2.2.2.2.1)
theorem seg10_keep_arg5 (w : Valuation τ sig (Elt F)) :
    StableHlo.after (seg10 (F := F)) w (Proc.devRef .tc main_arg5) = w (Proc.devRef .tc main_arg5) :=
  StableHlo.after_of_forall_not_mem (b := Proc.devRef .tc main_arg5) _ _
    (fun op hop => ((List.forall_iff_forall_mem.mp seg10_keeps) op hop).2.2.2.2.2.2.2.2.2.1)
theorem seg10_keep_arg6 (w : Valuation τ sig (Elt F)) :
    StableHlo.after (seg10 (F := F)) w (Proc.devRef .tc main_arg6) = w (Proc.devRef .tc main_arg6) :=
  StableHlo.after_of_forall_not_mem (b := Proc.devRef .tc main_arg6) _ _
    (fun op hop => ((List.forall_iff_forall_mem.mp seg10_keeps) op hop).2.2.2.2.2.2.2.2.2.2.1)
theorem seg10_keep_arg7 (w : Valuation τ sig (Elt F)) :
    StableHlo.after (seg10 (F := F)) w (Proc.devRef .tc main_arg7) = w (Proc.devRef .tc main_arg7) :=
  StableHlo.after_of_forall_not_mem (b := Proc.devRef .tc main_arg7) _ _
    (fun op hop => ((List.forall_iff_forall_mem.mp seg10_keeps) op hop).2.2.2.2.2.2.2.2.2.2.2.1)
theorem seg10_keep_arg8 (w : Valuation τ sig (Elt F)) :
    StableHlo.after (seg10 (F := F)) w (Proc.devRef .tc main_arg8) = w (Proc.devRef .tc main_arg8) :=
  StableHlo.after_of_forall_not_mem (b := Proc.devRef .tc main_arg8) _ _
    (fun op hop => ((List.forall_iff_forall_mem.mp seg10_keeps) op hop).2.2.2.2.2.2.2.2.2.2.2.2.1)
theorem seg10_keep_arg9 (w : Valuation τ sig (Elt F)) :
    StableHlo.after (seg10 (F := F)) w (Proc.devRef .tc main_arg9) = w (Proc.devRef .tc main_arg9) :=
  StableHlo.after_of_forall_not_mem (b := Proc.devRef .tc main_arg9) _ _
    (fun op hop => ((List.forall_iff_forall_mem.mp seg10_keeps) op hop).2.2.2.2.2.2.2.2.2.2.2.2.2.1)
theorem seg10_keep_arg10 (w : Valuation τ sig (Elt F)) :
    StableHlo.after (seg10 (F := F)) w (Proc.devRef .tc main_arg10) = w (Proc.devRef .tc main_arg10) :=
  StableHlo.after_of_forall_not_mem (b := Proc.devRef .tc main_arg10) _ _
    (fun op hop => ((List.forall_iff_forall_mem.mp seg10_keeps) op hop).2.2.2.2.2.2.2.2.2.2.2.2.2.2.1)
theorem seg10_keep_arg11 (w : Valuation τ sig (Elt F)) :
    StableHlo.after (seg10 (F := F)) w (Proc.devRef .tc main_arg11) = w (Proc.devRef .tc main_arg11) :=
  StableHlo.after_of_forall_not_mem (b := Proc.devRef .tc main_arg11) _ _
    (fun op hop => ((List.forall_iff_forall_mem.mp seg10_keeps) op hop).2.2.2.2.2.2.2.2.2.2.2.2.2.2.2.1)
theorem seg10_keep_arg12 (w : Valuation τ sig (Elt F)) :
    StableHlo.after (seg10 (F := F)) w (Proc.devRef .tc main_arg12) = w (Proc.devRef .tc main_arg12) :=
  StableHlo.after_of_forall_not_mem (b := Proc.devRef .tc main_arg12) _ _
    (fun op hop => ((List.forall_iff_forall_mem.mp seg10_keeps) op hop).2.2.2.2.2.2.2.2.2.2.2.2.2.2.2.2)

set_option maxRecDepth 100000 in
set_option maxHeartbeats 40000000 in
/-- No operation of the segment writes a buffer that is read after it and written before it. -/
theorem seg11_keeps : (seg11 (F := F)).Forall fun op =>
    (Proc.devRef .tc main_arg0 : DevRef τ sig) ∉ op.writes
    ∧ (Proc.devRef .tc main_arg1 : DevRef τ sig) ∉ op.writes
    ∧ (Proc.devRef .tc main_arg2 : DevRef τ sig) ∉ op.writes
    ∧ (Proc.devRef .tc main_arg3 : DevRef τ sig) ∉ op.writes
    ∧ (Proc.devRef .tc main_arg4 : DevRef τ sig) ∉ op.writes
    ∧ (Proc.devRef .tc main_arg5 : DevRef τ sig) ∉ op.writes
    ∧ (Proc.devRef .tc main_arg6 : DevRef τ sig) ∉ op.writes
    ∧ (Proc.devRef .tc main_arg7 : DevRef τ sig) ∉ op.writes
    ∧ (Proc.devRef .tc main_arg8 : DevRef τ sig) ∉ op.writes
    ∧ (Proc.devRef .tc main_arg9 : DevRef τ sig) ∉ op.writes
    ∧ (Proc.devRef .tc main_arg10 : DevRef τ sig) ∉ op.writes
    ∧ (Proc.devRef .tc main_arg11 : DevRef τ sig) ∉ op.writes
    ∧ (Proc.devRef .tc main_arg12 : DevRef τ sig) ∉ op.writes := by
  simp only [seg11, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem seg11_keep_arg0 (w : Valuation τ sig (Elt F)) :
    StableHlo.after (seg11 (F := F)) w (Proc.devRef .tc main_arg0) = w (Proc.devRef .tc main_arg0) :=
  StableHlo.after_of_forall_not_mem (b := Proc.devRef .tc main_arg0) _ _
    (fun op hop => ((List.forall_iff_forall_mem.mp seg11_keeps) op hop).1)
theorem seg11_keep_arg1 (w : Valuation τ sig (Elt F)) :
    StableHlo.after (seg11 (F := F)) w (Proc.devRef .tc main_arg1) = w (Proc.devRef .tc main_arg1) :=
  StableHlo.after_of_forall_not_mem (b := Proc.devRef .tc main_arg1) _ _
    (fun op hop => ((List.forall_iff_forall_mem.mp seg11_keeps) op hop).2.1)
theorem seg11_keep_arg2 (w : Valuation τ sig (Elt F)) :
    StableHlo.after (seg11 (F := F)) w (Proc.devRef .tc main_arg2) = w (Proc.devRef .tc main_arg2) :=
  StableHlo.after_of_forall_not_mem (b := Proc.devRef .tc main_arg2) _ _
    (fun op hop => ((List.forall_iff_forall_mem.mp seg11_keeps) op hop).2.2.1)
theorem seg11_keep_arg3 (w : Valuation τ sig (Elt F)) :
    StableHlo.after (seg11 (F := F)) w (Proc.devRef .tc main_arg3) = w (Proc.devRef .tc main_arg3) :=
  StableHlo.after_of_forall_not_mem (b := Proc.devRef .tc main_arg3) _ _
    (fun op hop => ((List.forall_iff_forall_mem.mp seg11_keeps) op hop).2.2.2.1)
theorem seg11_keep_arg4 (w : Valuation τ sig (Elt F)) :
    StableHlo.after (seg11 (F := F)) w (Proc.devRef .tc main_arg4) = w (Proc.devRef .tc main_arg4) :=
  StableHlo.after_of_forall_not_mem (b := Proc.devRef .tc main_arg4) _ _
    (fun op hop => ((List.forall_iff_forall_mem.mp seg11_keeps) op hop).2.2.2.2.1)
theorem seg11_keep_arg5 (w : Valuation τ sig (Elt F)) :
    StableHlo.after (seg11 (F := F)) w (Proc.devRef .tc main_arg5) = w (Proc.devRef .tc main_arg5) :=
  StableHlo.after_of_forall_not_mem (b := Proc.devRef .tc main_arg5) _ _
    (fun op hop => ((List.forall_iff_forall_mem.mp seg11_keeps) op hop).2.2.2.2.2.1)
theorem seg11_keep_arg6 (w : Valuation τ sig (Elt F)) :
    StableHlo.after (seg11 (F := F)) w (Proc.devRef .tc main_arg6) = w (Proc.devRef .tc main_arg6) :=
  StableHlo.after_of_forall_not_mem (b := Proc.devRef .tc main_arg6) _ _
    (fun op hop => ((List.forall_iff_forall_mem.mp seg11_keeps) op hop).2.2.2.2.2.2.1)
theorem seg11_keep_arg7 (w : Valuation τ sig (Elt F)) :
    StableHlo.after (seg11 (F := F)) w (Proc.devRef .tc main_arg7) = w (Proc.devRef .tc main_arg7) :=
  StableHlo.after_of_forall_not_mem (b := Proc.devRef .tc main_arg7) _ _
    (fun op hop => ((List.forall_iff_forall_mem.mp seg11_keeps) op hop).2.2.2.2.2.2.2.1)
theorem seg11_keep_arg8 (w : Valuation τ sig (Elt F)) :
    StableHlo.after (seg11 (F := F)) w (Proc.devRef .tc main_arg8) = w (Proc.devRef .tc main_arg8) :=
  StableHlo.after_of_forall_not_mem (b := Proc.devRef .tc main_arg8) _ _
    (fun op hop => ((List.forall_iff_forall_mem.mp seg11_keeps) op hop).2.2.2.2.2.2.2.2.1)
theorem seg11_keep_arg9 (w : Valuation τ sig (Elt F)) :
    StableHlo.after (seg11 (F := F)) w (Proc.devRef .tc main_arg9) = w (Proc.devRef .tc main_arg9) :=
  StableHlo.after_of_forall_not_mem (b := Proc.devRef .tc main_arg9) _ _
    (fun op hop => ((List.forall_iff_forall_mem.mp seg11_keeps) op hop).2.2.2.2.2.2.2.2.2.1)
theorem seg11_keep_arg10 (w : Valuation τ sig (Elt F)) :
    StableHlo.after (seg11 (F := F)) w (Proc.devRef .tc main_arg10) = w (Proc.devRef .tc main_arg10) :=
  StableHlo.after_of_forall_not_mem (b := Proc.devRef .tc main_arg10) _ _
    (fun op hop => ((List.forall_iff_forall_mem.mp seg11_keeps) op hop).2.2.2.2.2.2.2.2.2.2.1)
theorem seg11_keep_arg11 (w : Valuation τ sig (Elt F)) :
    StableHlo.after (seg11 (F := F)) w (Proc.devRef .tc main_arg11) = w (Proc.devRef .tc main_arg11) :=
  StableHlo.after_of_forall_not_mem (b := Proc.devRef .tc main_arg11) _ _
    (fun op hop => ((List.forall_iff_forall_mem.mp seg11_keeps) op hop).2.2.2.2.2.2.2.2.2.2.2.1)
theorem seg11_keep_arg12 (w : Valuation τ sig (Elt F)) :
    StableHlo.after (seg11 (F := F)) w (Proc.devRef .tc main_arg12) = w (Proc.devRef .tc main_arg12) :=
  StableHlo.after_of_forall_not_mem (b := Proc.devRef .tc main_arg12) _ _
    (fun op hop => ((List.forall_iff_forall_mem.mp seg11_keeps) op hop).2.2.2.2.2.2.2.2.2.2.2.2)

set_option maxRecDepth 100000 in
set_option maxHeartbeats 40000000 in
/-- No operation of the segment writes a buffer that is read after it and written before it. -/
theorem seg12a_keeps : (seg12a (F := F)).Forall fun op =>
    (Proc.devRef .tc main_v214 : DevRef τ sig) ∉ op.writes
    ∧ (Proc.devRef .tc main_arg0 : DevRef τ sig) ∉ op.writes
    ∧ (Proc.devRef .tc main_arg1 : DevRef τ sig) ∉ op.writes
    ∧ (Proc.devRef .tc main_arg2 : DevRef τ sig) ∉ op.writes
    ∧ (Proc.devRef .tc main_arg3 : DevRef τ sig) ∉ op.writes
    ∧ (Proc.devRef .tc main_arg4 : DevRef τ sig) ∉ op.writes
    ∧ (Proc.devRef .tc main_arg5 : DevRef τ sig) ∉ op.writes
    ∧ (Proc.devRef .tc main_arg6 : DevRef τ sig) ∉ op.writes
    ∧ (Proc.devRef .tc main_arg7 : DevRef τ sig) ∉ op.writes
    ∧ (Proc.devRef .tc main_arg8 : DevRef τ sig) ∉ op.writes
    ∧ (Proc.devRef .tc main_arg9 : DevRef τ sig) ∉ op.writes
    ∧ (Proc.devRef .tc main_arg10 : DevRef τ sig) ∉ op.writes
    ∧ (Proc.devRef .tc main_arg11 : DevRef τ sig) ∉ op.writes
    ∧ (Proc.devRef .tc main_arg12 : DevRef τ sig) ∉ op.writes := by
  simp only [seg12a, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem seg12a_keep_v214 (w : Valuation τ sig (Elt F)) :
    StableHlo.after (seg12a (F := F)) w (Proc.devRef .tc main_v214) = w (Proc.devRef .tc main_v214) :=
  StableHlo.after_of_forall_not_mem (b := Proc.devRef .tc main_v214) _ _
    (fun op hop => ((List.forall_iff_forall_mem.mp seg12a_keeps) op hop).1)
theorem seg12a_keep_arg0 (w : Valuation τ sig (Elt F)) :
    StableHlo.after (seg12a (F := F)) w (Proc.devRef .tc main_arg0) = w (Proc.devRef .tc main_arg0) :=
  StableHlo.after_of_forall_not_mem (b := Proc.devRef .tc main_arg0) _ _
    (fun op hop => ((List.forall_iff_forall_mem.mp seg12a_keeps) op hop).2.1)
theorem seg12a_keep_arg1 (w : Valuation τ sig (Elt F)) :
    StableHlo.after (seg12a (F := F)) w (Proc.devRef .tc main_arg1) = w (Proc.devRef .tc main_arg1) :=
  StableHlo.after_of_forall_not_mem (b := Proc.devRef .tc main_arg1) _ _
    (fun op hop => ((List.forall_iff_forall_mem.mp seg12a_keeps) op hop).2.2.1)
theorem seg12a_keep_arg2 (w : Valuation τ sig (Elt F)) :
    StableHlo.after (seg12a (F := F)) w (Proc.devRef .tc main_arg2) = w (Proc.devRef .tc main_arg2) :=
  StableHlo.after_of_forall_not_mem (b := Proc.devRef .tc main_arg2) _ _
    (fun op hop => ((List.forall_iff_forall_mem.mp seg12a_keeps) op hop).2.2.2.1)
theorem seg12a_keep_arg3 (w : Valuation τ sig (Elt F)) :
    StableHlo.after (seg12a (F := F)) w (Proc.devRef .tc main_arg3) = w (Proc.devRef .tc main_arg3) :=
  StableHlo.after_of_forall_not_mem (b := Proc.devRef .tc main_arg3) _ _
    (fun op hop => ((List.forall_iff_forall_mem.mp seg12a_keeps) op hop).2.2.2.2.1)
theorem seg12a_keep_arg4 (w : Valuation τ sig (Elt F)) :
    StableHlo.after (seg12a (F := F)) w (Proc.devRef .tc main_arg4) = w (Proc.devRef .tc main_arg4) :=
  StableHlo.after_of_forall_not_mem (b := Proc.devRef .tc main_arg4) _ _
    (fun op hop => ((List.forall_iff_forall_mem.mp seg12a_keeps) op hop).2.2.2.2.2.1)
theorem seg12a_keep_arg5 (w : Valuation τ sig (Elt F)) :
    StableHlo.after (seg12a (F := F)) w (Proc.devRef .tc main_arg5) = w (Proc.devRef .tc main_arg5) :=
  StableHlo.after_of_forall_not_mem (b := Proc.devRef .tc main_arg5) _ _
    (fun op hop => ((List.forall_iff_forall_mem.mp seg12a_keeps) op hop).2.2.2.2.2.2.1)
theorem seg12a_keep_arg6 (w : Valuation τ sig (Elt F)) :
    StableHlo.after (seg12a (F := F)) w (Proc.devRef .tc main_arg6) = w (Proc.devRef .tc main_arg6) :=
  StableHlo.after_of_forall_not_mem (b := Proc.devRef .tc main_arg6) _ _
    (fun op hop => ((List.forall_iff_forall_mem.mp seg12a_keeps) op hop).2.2.2.2.2.2.2.1)
theorem seg12a_keep_arg7 (w : Valuation τ sig (Elt F)) :
    StableHlo.after (seg12a (F := F)) w (Proc.devRef .tc main_arg7) = w (Proc.devRef .tc main_arg7) :=
  StableHlo.after_of_forall_not_mem (b := Proc.devRef .tc main_arg7) _ _
    (fun op hop => ((List.forall_iff_forall_mem.mp seg12a_keeps) op hop).2.2.2.2.2.2.2.2.1)
theorem seg12a_keep_arg8 (w : Valuation τ sig (Elt F)) :
    StableHlo.after (seg12a (F := F)) w (Proc.devRef .tc main_arg8) = w (Proc.devRef .tc main_arg8) :=
  StableHlo.after_of_forall_not_mem (b := Proc.devRef .tc main_arg8) _ _
    (fun op hop => ((List.forall_iff_forall_mem.mp seg12a_keeps) op hop).2.2.2.2.2.2.2.2.2.1)
theorem seg12a_keep_arg9 (w : Valuation τ sig (Elt F)) :
    StableHlo.after (seg12a (F := F)) w (Proc.devRef .tc main_arg9) = w (Proc.devRef .tc main_arg9) :=
  StableHlo.after_of_forall_not_mem (b := Proc.devRef .tc main_arg9) _ _
    (fun op hop => ((List.forall_iff_forall_mem.mp seg12a_keeps) op hop).2.2.2.2.2.2.2.2.2.2.1)
theorem seg12a_keep_arg10 (w : Valuation τ sig (Elt F)) :
    StableHlo.after (seg12a (F := F)) w (Proc.devRef .tc main_arg10) = w (Proc.devRef .tc main_arg10) :=
  StableHlo.after_of_forall_not_mem (b := Proc.devRef .tc main_arg10) _ _
    (fun op hop => ((List.forall_iff_forall_mem.mp seg12a_keeps) op hop).2.2.2.2.2.2.2.2.2.2.2.1)
theorem seg12a_keep_arg11 (w : Valuation τ sig (Elt F)) :
    StableHlo.after (seg12a (F := F)) w (Proc.devRef .tc main_arg11) = w (Proc.devRef .tc main_arg11) :=
  StableHlo.after_of_forall_not_mem (b := Proc.devRef .tc main_arg11) _ _
    (fun op hop => ((List.forall_iff_forall_mem.mp seg12a_keeps) op hop).2.2.2.2.2.2.2.2.2.2.2.2.1)
theorem seg12a_keep_arg12 (w : Valuation τ sig (Elt F)) :
    StableHlo.after (seg12a (F := F)) w (Proc.devRef .tc main_arg12) = w (Proc.devRef .tc main_arg12) :=
  StableHlo.after_of_forall_not_mem (b := Proc.devRef .tc main_arg12) _ _
    (fun op hop => ((List.forall_iff_forall_mem.mp seg12a_keeps) op hop).2.2.2.2.2.2.2.2.2.2.2.2.2)

set_option maxRecDepth 100000 in
set_option maxHeartbeats 40000000 in
/-- No operation of the segment writes a buffer that is read after it and written before it. -/
theorem seg12b_keeps : (seg12b (F := F)).Forall fun op =>
    (Proc.devRef .tc main_v214 : DevRef τ sig) ∉ op.writes
    ∧ (Proc.devRef .tc main_arg0 : DevRef τ sig) ∉ op.writes
    ∧ (Proc.devRef .tc main_arg1 : DevRef τ sig) ∉ op.writes
    ∧ (Proc.devRef .tc main_arg2 : DevRef τ sig) ∉ op.writes
    ∧ (Proc.devRef .tc main_arg3 : DevRef τ sig) ∉ op.writes
    ∧ (Proc.devRef .tc main_arg4 : DevRef τ sig) ∉ op.writes
    ∧ (Proc.devRef .tc main_arg5 : DevRef τ sig) ∉ op.writes
    ∧ (Proc.devRef .tc main_arg6 : DevRef τ sig) ∉ op.writes
    ∧ (Proc.devRef .tc main_arg7 : DevRef τ sig) ∉ op.writes
    ∧ (Proc.devRef .tc main_arg8 : DevRef τ sig) ∉ op.writes
    ∧ (Proc.devRef .tc main_arg9 : DevRef τ sig) ∉ op.writes
    ∧ (Proc.devRef .tc main_arg10 : DevRef τ sig) ∉ op.writes
    ∧ (Proc.devRef .tc main_arg11 : DevRef τ sig) ∉ op.writes
    ∧ (Proc.devRef .tc main_arg12 : DevRef τ sig) ∉ op.writes := by
  simp only [seg12b, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem seg12b_keep_v214 (w : Valuation τ sig (Elt F)) :
    StableHlo.after (seg12b (F := F)) w (Proc.devRef .tc main_v214) = w (Proc.devRef .tc main_v214) :=
  StableHlo.after_of_forall_not_mem (b := Proc.devRef .tc main_v214) _ _
    (fun op hop => ((List.forall_iff_forall_mem.mp seg12b_keeps) op hop).1)
theorem seg12b_keep_arg0 (w : Valuation τ sig (Elt F)) :
    StableHlo.after (seg12b (F := F)) w (Proc.devRef .tc main_arg0) = w (Proc.devRef .tc main_arg0) :=
  StableHlo.after_of_forall_not_mem (b := Proc.devRef .tc main_arg0) _ _
    (fun op hop => ((List.forall_iff_forall_mem.mp seg12b_keeps) op hop).2.1)
theorem seg12b_keep_arg1 (w : Valuation τ sig (Elt F)) :
    StableHlo.after (seg12b (F := F)) w (Proc.devRef .tc main_arg1) = w (Proc.devRef .tc main_arg1) :=
  StableHlo.after_of_forall_not_mem (b := Proc.devRef .tc main_arg1) _ _
    (fun op hop => ((List.forall_iff_forall_mem.mp seg12b_keeps) op hop).2.2.1)
theorem seg12b_keep_arg2 (w : Valuation τ sig (Elt F)) :
    StableHlo.after (seg12b (F := F)) w (Proc.devRef .tc main_arg2) = w (Proc.devRef .tc main_arg2) :=
  StableHlo.after_of_forall_not_mem (b := Proc.devRef .tc main_arg2) _ _
    (fun op hop => ((List.forall_iff_forall_mem.mp seg12b_keeps) op hop).2.2.2.1)
theorem seg12b_keep_arg3 (w : Valuation τ sig (Elt F)) :
    StableHlo.after (seg12b (F := F)) w (Proc.devRef .tc main_arg3) = w (Proc.devRef .tc main_arg3) :=
  StableHlo.after_of_forall_not_mem (b := Proc.devRef .tc main_arg3) _ _
    (fun op hop => ((List.forall_iff_forall_mem.mp seg12b_keeps) op hop).2.2.2.2.1)
theorem seg12b_keep_arg4 (w : Valuation τ sig (Elt F)) :
    StableHlo.after (seg12b (F := F)) w (Proc.devRef .tc main_arg4) = w (Proc.devRef .tc main_arg4) :=
  StableHlo.after_of_forall_not_mem (b := Proc.devRef .tc main_arg4) _ _
    (fun op hop => ((List.forall_iff_forall_mem.mp seg12b_keeps) op hop).2.2.2.2.2.1)
theorem seg12b_keep_arg5 (w : Valuation τ sig (Elt F)) :
    StableHlo.after (seg12b (F := F)) w (Proc.devRef .tc main_arg5) = w (Proc.devRef .tc main_arg5) :=
  StableHlo.after_of_forall_not_mem (b := Proc.devRef .tc main_arg5) _ _
    (fun op hop => ((List.forall_iff_forall_mem.mp seg12b_keeps) op hop).2.2.2.2.2.2.1)
theorem seg12b_keep_arg6 (w : Valuation τ sig (Elt F)) :
    StableHlo.after (seg12b (F := F)) w (Proc.devRef .tc main_arg6) = w (Proc.devRef .tc main_arg6) :=
  StableHlo.after_of_forall_not_mem (b := Proc.devRef .tc main_arg6) _ _
    (fun op hop => ((List.forall_iff_forall_mem.mp seg12b_keeps) op hop).2.2.2.2.2.2.2.1)
theorem seg12b_keep_arg7 (w : Valuation τ sig (Elt F)) :
    StableHlo.after (seg12b (F := F)) w (Proc.devRef .tc main_arg7) = w (Proc.devRef .tc main_arg7) :=
  StableHlo.after_of_forall_not_mem (b := Proc.devRef .tc main_arg7) _ _
    (fun op hop => ((List.forall_iff_forall_mem.mp seg12b_keeps) op hop).2.2.2.2.2.2.2.2.1)
theorem seg12b_keep_arg8 (w : Valuation τ sig (Elt F)) :
    StableHlo.after (seg12b (F := F)) w (Proc.devRef .tc main_arg8) = w (Proc.devRef .tc main_arg8) :=
  StableHlo.after_of_forall_not_mem (b := Proc.devRef .tc main_arg8) _ _
    (fun op hop => ((List.forall_iff_forall_mem.mp seg12b_keeps) op hop).2.2.2.2.2.2.2.2.2.1)
theorem seg12b_keep_arg9 (w : Valuation τ sig (Elt F)) :
    StableHlo.after (seg12b (F := F)) w (Proc.devRef .tc main_arg9) = w (Proc.devRef .tc main_arg9) :=
  StableHlo.after_of_forall_not_mem (b := Proc.devRef .tc main_arg9) _ _
    (fun op hop => ((List.forall_iff_forall_mem.mp seg12b_keeps) op hop).2.2.2.2.2.2.2.2.2.2.1)
theorem seg12b_keep_arg10 (w : Valuation τ sig (Elt F)) :
    StableHlo.after (seg12b (F := F)) w (Proc.devRef .tc main_arg10) = w (Proc.devRef .tc main_arg10) :=
  StableHlo.after_of_forall_not_mem (b := Proc.devRef .tc main_arg10) _ _
    (fun op hop => ((List.forall_iff_forall_mem.mp seg12b_keeps) op hop).2.2.2.2.2.2.2.2.2.2.2.1)
theorem seg12b_keep_arg11 (w : Valuation τ sig (Elt F)) :
    StableHlo.after (seg12b (F := F)) w (Proc.devRef .tc main_arg11) = w (Proc.devRef .tc main_arg11) :=
  StableHlo.after_of_forall_not_mem (b := Proc.devRef .tc main_arg11) _ _
    (fun op hop => ((List.forall_iff_forall_mem.mp seg12b_keeps) op hop).2.2.2.2.2.2.2.2.2.2.2.2.1)
theorem seg12b_keep_arg12 (w : Valuation τ sig (Elt F)) :
    StableHlo.after (seg12b (F := F)) w (Proc.devRef .tc main_arg12) = w (Proc.devRef .tc main_arg12) :=
  StableHlo.after_of_forall_not_mem (b := Proc.devRef .tc main_arg12) _ _
    (fun op hop => ((List.forall_iff_forall_mem.mp seg12b_keeps) op hop).2.2.2.2.2.2.2.2.2.2.2.2.2)

set_option maxRecDepth 100000 in
set_option maxHeartbeats 40000000 in
/-- No operation of the segment writes a buffer that is read after it and written before it. -/
theorem seg12c_keeps : (seg12c (F := F)).Forall fun op =>
    (Proc.devRef .tc main_arg0 : DevRef τ sig) ∉ op.writes
    ∧ (Proc.devRef .tc main_arg1 : DevRef τ sig) ∉ op.writes
    ∧ (Proc.devRef .tc main_arg2 : DevRef τ sig) ∉ op.writes
    ∧ (Proc.devRef .tc main_arg3 : DevRef τ sig) ∉ op.writes
    ∧ (Proc.devRef .tc main_arg4 : DevRef τ sig) ∉ op.writes
    ∧ (Proc.devRef .tc main_arg5 : DevRef τ sig) ∉ op.writes
    ∧ (Proc.devRef .tc main_arg6 : DevRef τ sig) ∉ op.writes
    ∧ (Proc.devRef .tc main_arg7 : DevRef τ sig) ∉ op.writes
    ∧ (Proc.devRef .tc main_arg8 : DevRef τ sig) ∉ op.writes
    ∧ (Proc.devRef .tc main_arg9 : DevRef τ sig) ∉ op.writes
    ∧ (Proc.devRef .tc main_arg10 : DevRef τ sig) ∉ op.writes
    ∧ (Proc.devRef .tc main_arg11 : DevRef τ sig) ∉ op.writes
    ∧ (Proc.devRef .tc main_arg12 : DevRef τ sig) ∉ op.writes := by
  simp only [seg12c, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
theorem seg12c_keep_arg0 (w : Valuation τ sig (Elt F)) :
    StableHlo.after (seg12c (F := F)) w (Proc.devRef .tc main_arg0) = w (Proc.devRef .tc main_arg0) :=
  StableHlo.after_of_forall_not_mem (b := Proc.devRef .tc main_arg0) _ _
    (fun op hop => ((List.forall_iff_forall_mem.mp seg12c_keeps) op hop).1)
theorem seg12c_keep_arg1 (w : Valuation τ sig (Elt F)) :
    StableHlo.after (seg12c (F := F)) w (Proc.devRef .tc main_arg1) = w (Proc.devRef .tc main_arg1) :=
  StableHlo.after_of_forall_not_mem (b := Proc.devRef .tc main_arg1) _ _
    (fun op hop => ((List.forall_iff_forall_mem.mp seg12c_keeps) op hop).2.1)
theorem seg12c_keep_arg2 (w : Valuation τ sig (Elt F)) :
    StableHlo.after (seg12c (F := F)) w (Proc.devRef .tc main_arg2) = w (Proc.devRef .tc main_arg2) :=
  StableHlo.after_of_forall_not_mem (b := Proc.devRef .tc main_arg2) _ _
    (fun op hop => ((List.forall_iff_forall_mem.mp seg12c_keeps) op hop).2.2.1)
theorem seg12c_keep_arg3 (w : Valuation τ sig (Elt F)) :
    StableHlo.after (seg12c (F := F)) w (Proc.devRef .tc main_arg3) = w (Proc.devRef .tc main_arg3) :=
  StableHlo.after_of_forall_not_mem (b := Proc.devRef .tc main_arg3) _ _
    (fun op hop => ((List.forall_iff_forall_mem.mp seg12c_keeps) op hop).2.2.2.1)
theorem seg12c_keep_arg4 (w : Valuation τ sig (Elt F)) :
    StableHlo.after (seg12c (F := F)) w (Proc.devRef .tc main_arg4) = w (Proc.devRef .tc main_arg4) :=
  StableHlo.after_of_forall_not_mem (b := Proc.devRef .tc main_arg4) _ _
    (fun op hop => ((List.forall_iff_forall_mem.mp seg12c_keeps) op hop).2.2.2.2.1)
theorem seg12c_keep_arg5 (w : Valuation τ sig (Elt F)) :
    StableHlo.after (seg12c (F := F)) w (Proc.devRef .tc main_arg5) = w (Proc.devRef .tc main_arg5) :=
  StableHlo.after_of_forall_not_mem (b := Proc.devRef .tc main_arg5) _ _
    (fun op hop => ((List.forall_iff_forall_mem.mp seg12c_keeps) op hop).2.2.2.2.2.1)
theorem seg12c_keep_arg6 (w : Valuation τ sig (Elt F)) :
    StableHlo.after (seg12c (F := F)) w (Proc.devRef .tc main_arg6) = w (Proc.devRef .tc main_arg6) :=
  StableHlo.after_of_forall_not_mem (b := Proc.devRef .tc main_arg6) _ _
    (fun op hop => ((List.forall_iff_forall_mem.mp seg12c_keeps) op hop).2.2.2.2.2.2.1)
theorem seg12c_keep_arg7 (w : Valuation τ sig (Elt F)) :
    StableHlo.after (seg12c (F := F)) w (Proc.devRef .tc main_arg7) = w (Proc.devRef .tc main_arg7) :=
  StableHlo.after_of_forall_not_mem (b := Proc.devRef .tc main_arg7) _ _
    (fun op hop => ((List.forall_iff_forall_mem.mp seg12c_keeps) op hop).2.2.2.2.2.2.2.1)
theorem seg12c_keep_arg8 (w : Valuation τ sig (Elt F)) :
    StableHlo.after (seg12c (F := F)) w (Proc.devRef .tc main_arg8) = w (Proc.devRef .tc main_arg8) :=
  StableHlo.after_of_forall_not_mem (b := Proc.devRef .tc main_arg8) _ _
    (fun op hop => ((List.forall_iff_forall_mem.mp seg12c_keeps) op hop).2.2.2.2.2.2.2.2.1)
theorem seg12c_keep_arg9 (w : Valuation τ sig (Elt F)) :
    StableHlo.after (seg12c (F := F)) w (Proc.devRef .tc main_arg9) = w (Proc.devRef .tc main_arg9) :=
  StableHlo.after_of_forall_not_mem (b := Proc.devRef .tc main_arg9) _ _
    (fun op hop => ((List.forall_iff_forall_mem.mp seg12c_keeps) op hop).2.2.2.2.2.2.2.2.2.1)
theorem seg12c_keep_arg10 (w : Valuation τ sig (Elt F)) :
    StableHlo.after (seg12c (F := F)) w (Proc.devRef .tc main_arg10) = w (Proc.devRef .tc main_arg10) :=
  StableHlo.after_of_forall_not_mem (b := Proc.devRef .tc main_arg10) _ _
    (fun op hop => ((List.forall_iff_forall_mem.mp seg12c_keeps) op hop).2.2.2.2.2.2.2.2.2.2.1)
theorem seg12c_keep_arg11 (w : Valuation τ sig (Elt F)) :
    StableHlo.after (seg12c (F := F)) w (Proc.devRef .tc main_arg11) = w (Proc.devRef .tc main_arg11) :=
  StableHlo.after_of_forall_not_mem (b := Proc.devRef .tc main_arg11) _ _
    (fun op hop => ((List.forall_iff_forall_mem.mp seg12c_keeps) op hop).2.2.2.2.2.2.2.2.2.2.2.1)
theorem seg12c_keep_arg12 (w : Valuation τ sig (Elt F)) :
    StableHlo.after (seg12c (F := F)) w (Proc.devRef .tc main_arg12) = w (Proc.devRef .tc main_arg12) :=
  StableHlo.after_of_forall_not_mem (b := Proc.devRef .tc main_arg12) _ _
    (fun op hop => ((List.forall_iff_forall_mem.mp seg12c_keeps) op hop).2.2.2.2.2.2.2.2.2.2.2.2)

end Cert.ReferenceIdeal.RefFold

end
-- ==== Proof.RefSegA.lean ====
/-
  Segments 0 … 4 of the reference's operations, each read from an arbitrary memory: the buffer a
  segment leaves for the later ones holds the program's stage of that name, read from the arguments' contents in
  that memory, once the buffers the segment reads from before it are set to their stages.  Each is the segment's
  fold opened operation by operation and compared with the stage's definition.
-/
import proofs.«145896_j91079076479405_1_alg».proof.Proof.RefSegs

noncomputable section

namespace Cert.ReferenceIdeal.RefFold

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

set_option maxRecDepth 100000 in
set_option maxHeartbeats 40000000 in
theorem seg0_v1 (w : Valuation τ sig (Elt F)) :
    (StableHlo.after (seg0 (F := F)) w (Proc.devRef .tc main_v1) : S_.Idx → Elt F .f32)
      = val_main_v1 (F := F) (w (Proc.devRef .tc main_arg2)) := by
  after_results_simp <;> chain_rfl

set_option maxRecDepth 100000 in
set_option maxHeartbeats 40000000 in
theorem seg0_v51 (w : Valuation τ sig (Elt F)) :
    (StableHlo.after (seg0 (F := F)) w (Proc.devRef .tc main_v51) : S2x64x65536.Idx → Elt F .f32)
      = val_main_v51 (F := F) (w (Proc.devRef .tc main_arg0)) := by
  after_results_simp <;> chain_rfl

set_option maxRecDepth 100000 in
set_option maxHeartbeats 40000000 in
theorem seg0_v52 (w : Valuation τ sig (Elt F)) :
    (StableHlo.after (seg0 (F := F)) w (Proc.devRef .tc main_v52) : S2x1x65536.Idx → Elt F .i32)
      = val_main_v52 (F := F) (w (Proc.devRef .tc main_arg1)) (w (Proc.devRef .tc main_arg2)) := by
  after_results_simp <;> chain_rfl

set_option maxRecDepth 100000 in
set_option maxHeartbeats 40000000 in
theorem seg1_call5_v5 (w : Valuation τ sig (Elt F)) :
    (StableHlo.after (seg1 (F := F)) ((StableHlo.nullary (τ := τ) main_v52 (val_main_v52 (F := F) (w (Proc.devRef .tc main_arg1)) (w (Proc.devRef .tc main_arg2)))).result w) (Proc.devRef .tc main_call5_v5) : S2x65536x1.Idx → Elt F .i32)
      = val_main_call5_v5 (F := F) (w (Proc.devRef .tc main_arg1)) (w (Proc.devRef .tc main_arg2)) := by
  after_results_simp <;> chain_rfl

set_option maxRecDepth 100000 in
set_option maxHeartbeats 40000000 in
theorem seg2_v54 (w : Valuation τ sig (Elt F)) :
    (StableHlo.after (seg2 (F := F)) ((StableHlo.nullary (τ := τ) main_v51 (val_main_v51 (F := F) (w (Proc.devRef .tc main_arg0)))).result ((StableHlo.nullary (τ := τ) main_call5_v5 (val_main_call5_v5 (F := F) (w (Proc.devRef .tc main_arg1)) (w (Proc.devRef .tc main_arg2)))).result w)) (Proc.devRef .tc main_v54) : S2x65536x64.Idx → Elt F .f32)
      = val_main_v54 (F := F) (w (Proc.devRef .tc main_arg0)) (w (Proc.devRef .tc main_arg1)) (w (Proc.devRef .tc main_arg2)) := by
  after_results_simp <;> chain_rfl

set_option maxRecDepth 100000 in
set_option maxHeartbeats 40000000 in
theorem seg3_v104 (w : Valuation τ sig (Elt F)) :
    (StableHlo.after (seg3 (F := F)) ((StableHlo.nullary (τ := τ) main_v1 (val_main_v1 (F := F) (w (Proc.devRef .tc main_arg2)))).result w) (Proc.devRef .tc main_v104) : S2x64x65536.Idx → Elt F .f32)
      = val_main_v104 (F := F) (w (Proc.devRef .tc main_arg0)) := by
  after_results_simp <;> chain_rfl

set_option maxRecDepth 100000 in
set_option maxHeartbeats 40000000 in
theorem seg3_v105 (w : Valuation τ sig (Elt F)) :
    (StableHlo.after (seg3 (F := F)) ((StableHlo.nullary (τ := τ) main_v1 (val_main_v1 (F := F) (w (Proc.devRef .tc main_arg2)))).result w) (Proc.devRef .tc main_v105) : S2x1x65536.Idx → Elt F .i32)
      = val_main_v105 (F := F) (w (Proc.devRef .tc main_arg1)) (w (Proc.devRef .tc main_arg2)) := by
  after_results_simp <;> chain_rfl

set_option maxRecDepth 100000 in
set_option maxHeartbeats 40000000 in
theorem seg4_call11_v5 (w : Valuation τ sig (Elt F)) :
    (StableHlo.after (seg4 (F := F)) ((StableHlo.nullary (τ := τ) main_v105 (val_main_v105 (F := F) (w (Proc.devRef .tc main_arg1)) (w (Proc.devRef .tc main_arg2)))).result w) (Proc.devRef .tc main_call11_v5) : S2x65536x1.Idx → Elt F .i32)
      = val_main_call11_v5 (F := F) (w (Proc.devRef .tc main_arg1)) (w (Proc.devRef .tc main_arg2)) := by
  after_results_simp <;> chain_rfl

end Cert.ReferenceIdeal.RefFold

end
-- ==== Proof.RefSegB.lean ====
/-
  Segments 5 … 9 of the reference's operations, each read from an arbitrary memory: the buffer a
  segment leaves for the later ones holds the program's stage of that name, read from the arguments' contents in
  that memory, once the buffers the segment reads from before it are set to their stages.  Each is the segment's
  fold opened operation by operation and compared with the stage's definition.
-/
import proofs.«145896_j91079076479405_1_alg».proof.Proof.RefSegs

noncomputable section

namespace Cert.ReferenceIdeal.RefFold

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

set_option maxRecDepth 100000 in
set_option maxHeartbeats 40000000 in
theorem seg5_v107 (w : Valuation τ sig (Elt F)) :
    (StableHlo.after (seg5 (F := F)) ((StableHlo.nullary (τ := τ) main_v104 (val_main_v104 (F := F) (w (Proc.devRef .tc main_arg0)))).result ((StableHlo.nullary (τ := τ) main_call11_v5 (val_main_call11_v5 (F := F) (w (Proc.devRef .tc main_arg1)) (w (Proc.devRef .tc main_arg2)))).result w)) (Proc.devRef .tc main_v107) : S2x65536x64.Idx → Elt F .f32)
      = val_main_v107 (F := F) (w (Proc.devRef .tc main_arg0)) (w (Proc.devRef .tc main_arg1)) (w (Proc.devRef .tc main_arg2)) := by
  after_results_simp <;> chain_rfl

set_option maxRecDepth 100000 in
set_option maxHeartbeats 40000000 in
theorem seg6_v157 (w : Valuation τ sig (Elt F)) :
    (StableHlo.after (seg6 (F := F)) ((StableHlo.nullary (τ := τ) main_v1 (val_main_v1 (F := F) (w (Proc.devRef .tc main_arg2)))).result w) (Proc.devRef .tc main_v157) : S2x64x65536.Idx → Elt F .f32)
      = val_main_v157 (F := F) (w (Proc.devRef .tc main_arg0)) := by
  after_results_simp <;> chain_rfl

set_option maxRecDepth 100000 in
set_option maxHeartbeats 40000000 in
theorem seg6_v158 (w : Valuation τ sig (Elt F)) :
    (StableHlo.after (seg6 (F := F)) ((StableHlo.nullary (τ := τ) main_v1 (val_main_v1 (F := F) (w (Proc.devRef .tc main_arg2)))).result w) (Proc.devRef .tc main_v158) : S2x1x65536.Idx → Elt F .i32)
      = val_main_v158 (F := F) (w (Proc.devRef .tc main_arg1)) (w (Proc.devRef .tc main_arg2)) := by
  after_results_simp <;> chain_rfl

set_option maxRecDepth 100000 in
set_option maxHeartbeats 40000000 in
theorem seg7_call17_v5 (w : Valuation τ sig (Elt F)) :
    (StableHlo.after (seg7 (F := F)) ((StableHlo.nullary (τ := τ) main_v158 (val_main_v158 (F := F) (w (Proc.devRef .tc main_arg1)) (w (Proc.devRef .tc main_arg2)))).result w) (Proc.devRef .tc main_call17_v5) : S2x65536x1.Idx → Elt F .i32)
      = val_main_call17_v5 (F := F) (w (Proc.devRef .tc main_arg1)) (w (Proc.devRef .tc main_arg2)) := by
  after_results_simp <;> chain_rfl

set_option maxRecDepth 100000 in
set_option maxHeartbeats 40000000 in
theorem seg8_v160 (w : Valuation τ sig (Elt F)) :
    (StableHlo.after (seg8 (F := F)) ((StableHlo.nullary (τ := τ) main_v157 (val_main_v157 (F := F) (w (Proc.devRef .tc main_arg0)))).result ((StableHlo.nullary (τ := τ) main_call17_v5 (val_main_call17_v5 (F := F) (w (Proc.devRef .tc main_arg1)) (w (Proc.devRef .tc main_arg2)))).result w)) (Proc.devRef .tc main_v160) : S2x65536x64.Idx → Elt F .f32)
      = val_main_v160 (F := F) (w (Proc.devRef .tc main_arg0)) (w (Proc.devRef .tc main_arg1)) (w (Proc.devRef .tc main_arg2)) := by
  after_results_simp <;> chain_rfl

set_option maxRecDepth 100000 in
set_option maxHeartbeats 40000000 in
theorem seg9_v210 (w : Valuation τ sig (Elt F)) :
    (StableHlo.after (seg9 (F := F)) ((StableHlo.nullary (τ := τ) main_v1 (val_main_v1 (F := F) (w (Proc.devRef .tc main_arg2)))).result w) (Proc.devRef .tc main_v210) : S2x64x65536.Idx → Elt F .f32)
      = val_main_v210 (F := F) (w (Proc.devRef .tc main_arg0)) := by
  after_results_simp <;> chain_rfl

set_option maxRecDepth 100000 in
set_option maxHeartbeats 40000000 in
theorem seg9_v211 (w : Valuation τ sig (Elt F)) :
    (StableHlo.after (seg9 (F := F)) ((StableHlo.nullary (τ := τ) main_v1 (val_main_v1 (F := F) (w (Proc.devRef .tc main_arg2)))).result w) (Proc.devRef .tc main_v211) : S2x1x65536.Idx → Elt F .i32)
      = val_main_v211 (F := F) (w (Proc.devRef .tc main_arg1)) (w (Proc.devRef .tc main_arg2)) := by
  after_results_simp <;> chain_rfl

end Cert.ReferenceIdeal.RefFold

end
-- ==== Proof.RefSegC1.lean ====
/-
  The last segments of the reference's operations (the fourth gather's wrap-around and gather with the four-way
  concatenation, the unfolding in its three parts, the five-layer network), each read from an arbitrary memory: the
  buffer a segment leaves for the later ones holds the program's stage of that name, read from the arguments'
  contents in that memory, once the buffers the segment reads from before it are set to their stages.
-/
import proofs.«145896_j91079076479405_1_alg».proof.Proof.RefSegs2

noncomputable section

namespace Cert.ReferenceIdeal.RefFold

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

set_option maxRecDepth 100000 in
set_option maxHeartbeats 40000000 in
theorem seg10_call23_v5 (w : Valuation τ sig (Elt F)) :
    (StableHlo.after (seg10 (F := F)) ((StableHlo.nullary (τ := τ) main_v211 (val_main_v211 (F := F) (w (Proc.devRef .tc main_arg1)) (w (Proc.devRef .tc main_arg2)))).result w) (Proc.devRef .tc main_call23_v5) : S2x65536x1.Idx → Elt F .i32)
      = val_main_call23_v5 (F := F) (w (Proc.devRef .tc main_arg1)) (w (Proc.devRef .tc main_arg2)) := by
  after_results_simp <;> chain_rfl

end Cert.ReferenceIdeal.RefFold

end
-- ==== Proof.RefSegC2.lean ====
/-
  The last segments of the reference's operations (the fourth gather's wrap-around and gather with the four-way
  concatenation, the unfolding in its three parts, the five-layer network), each read from an arbitrary memory: the
  buffer a segment leaves for the later ones holds the program's stage of that name, read from the arguments'
  contents in that memory, once the buffers the segment reads from before it are set to their stages.
-/
import proofs.«145896_j91079076479405_1_alg».proof.Proof.RefSegs2

noncomputable section

namespace Cert.ReferenceIdeal.RefFold

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

set_option maxRecDepth 100000 in
set_option maxHeartbeats 40000000 in
theorem seg11_v214 (w : Valuation τ sig (Elt F)) :
    (StableHlo.after (seg11 (F := F)) ((StableHlo.nullary (τ := τ) main_v160 (val_main_v160 (F := F) (w (Proc.devRef .tc main_arg0)) (w (Proc.devRef .tc main_arg1)) (w (Proc.devRef .tc main_arg2)))).result ((StableHlo.nullary (τ := τ) main_v107 (val_main_v107 (F := F) (w (Proc.devRef .tc main_arg0)) (w (Proc.devRef .tc main_arg1)) (w (Proc.devRef .tc main_arg2)))).result ((StableHlo.nullary (τ := τ) main_v54 (val_main_v54 (F := F) (w (Proc.devRef .tc main_arg0)) (w (Proc.devRef .tc main_arg1)) (w (Proc.devRef .tc main_arg2)))).result ((StableHlo.nullary (τ := τ) main_v210 (val_main_v210 (F := F) (w (Proc.devRef .tc main_arg0)))).result ((StableHlo.nullary (τ := τ) main_call23_v5 (val_main_call23_v5 (F := F) (w (Proc.devRef .tc main_arg1)) (w (Proc.devRef .tc main_arg2)))).result w))))) (Proc.devRef .tc main_v214) : S2x65536x256.Idx → Elt F .f32)
      = val_main_v214 (F := F) (w (Proc.devRef .tc main_arg0)) (w (Proc.devRef .tc main_arg1)) (w (Proc.devRef .tc main_arg2)) := by
  after_results_simp <;> chain_rfl

end Cert.ReferenceIdeal.RefFold

end
-- ==== Proof.RefSegC3.lean ====
/-
  The last segments of the reference's operations (the fourth gather's wrap-around and gather with the four-way
  concatenation, the unfolding in its three parts, the five-layer network), each read from an arbitrary memory: the
  buffer a segment leaves for the later ones holds the program's stage of that name, read from the arguments'
  contents in that memory, once the buffers the segment reads from before it are set to their stages.
-/
import proofs.«145896_j91079076479405_1_alg».proof.Proof.RefSegs2

noncomputable section

namespace Cert.ReferenceIdeal.RefFold

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

set_option maxRecDepth 100000 in
set_option maxHeartbeats 40000000 in
theorem seg12a_v215 (w : Valuation τ sig (Elt F)) :
    (StableHlo.after (seg12a (F := F)) w (Proc.devRef .tc main_v215) : S2x64x258x258.Idx → Elt F .f32)
      = val_main_v215 (F := F) (w (Proc.devRef .tc main_arg0)) := by
  after_results_simp <;> rfl

end Cert.ReferenceIdeal.RefFold

end
-- ==== Proof.RefSegC4.lean ====
/-
  The last segments of the reference's operations (the fourth gather's wrap-around and gather with the four-way
  concatenation, the unfolding in its three parts, the five-layer network), each read from an arbitrary memory: the
  buffer a segment leaves for the later ones holds the program's stage of that name, read from the arguments'
  contents in that memory, once the buffers the segment reads from before it are set to their stages.
-/
import proofs.«145896_j91079076479405_1_alg».proof.Proof.RefSegs2

noncomputable section

namespace Cert.ReferenceIdeal.RefFold

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

set_option maxRecDepth 100000 in
set_option maxHeartbeats 40000000 in
theorem seg12b_v234 (w : Valuation τ sig (Elt F)) :
    (StableHlo.after (seg12b (F := F)) ((StableHlo.nullary (τ := τ) main_v215 (val_main_v215 (F := F) (w (Proc.devRef .tc main_arg0)))).result w) (Proc.devRef .tc main_v234) : S2x64x9x256x256.Idx → Elt F .f32)
      = val_main_v234 (F := F) (w (Proc.devRef .tc main_arg0)) := by
  after_results_simp <;> rfl

end Cert.ReferenceIdeal.RefFold

end
-- ==== Proof.RefSegC5.lean ====
/-
  The last segments of the reference's operations (the fourth gather's wrap-around and gather with the four-way
  concatenation, the unfolding in its three parts, the five-layer network), each read from an arbitrary memory: the
  buffer a segment leaves for the later ones holds the program's stage of that name, read from the arguments'
  contents in that memory, once the buffers the segment reads from before it are set to their stages.
-/
import proofs.«145896_j91079076479405_1_alg».proof.Proof.RefSegs2

noncomputable section

namespace Cert.ReferenceIdeal.RefFold

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

section NaryLits
variable {τ' : Topo} {sig' : RefSig} {Val : EltTy → Type} {x a b y : Ref sig' .tc}

/-- `nary` over a literal family of three references: the result with each operand's contents at its own reference. -/
theorem nary3_result'
    (f : ((k : Fin 3) → ((![x, a, b] : Fin 3 → Ref sig' .tc) k).ty.Contents Val) → y.ty.Contents Val) (hxs hy)
    (G : Valuation τ' sig' Val) :
    (nary (τ := τ') ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl
end NaryLits

variable {F : FTy → Type} [FloatOps F]

set_option maxRecDepth 100000 in
set_option maxHeartbeats 40000000 in
theorem seg12c_v238 (w : Valuation τ sig (Elt F)) :
    (StableHlo.after (seg12c (F := F)) ((StableHlo.nullary (τ := τ) main_v214 (val_main_v214 (F := F) (w (Proc.devRef .tc main_arg0)) (w (Proc.devRef .tc main_arg1)) (w (Proc.devRef .tc main_arg2)))).result ((StableHlo.nullary (τ := τ) main_v234 (val_main_v234 (F := F) (w (Proc.devRef .tc main_arg0)))).result w)) (Proc.devRef .tc main_v238) : S131072x833.Idx → Elt F .f32)
      = val_main_v238 (F := F) (w (Proc.devRef .tc main_arg0)) (w (Proc.devRef .tc main_arg1)) (w (Proc.devRef .tc main_arg2)) := by
  simp only [after_cons, after_nil]
  rw [reshape_result, nary3_result']
  repeat (first
    | rw [nullary_result] | rw [unary_result] | rw [reshape_result]
    | (rw [nullary_result_ne]; rotate_left; decide)
    | (rw [unary_result_ne]; rotate_left; decide)
    | (rw [reshape_result_ne]; rotate_left; decide))
  rfl

end Cert.ReferenceIdeal.RefFold

end
-- ==== Proof.RefSegC6.lean ====
/-
  The last segments of the reference's operations (the fourth gather's wrap-around and gather with the four-way
  concatenation, the unfolding in its three parts, the five-layer network), each read from an arbitrary memory: the
  buffer a segment leaves for the later ones holds the program's stage of that name, read from the arguments'
  contents in that memory, once the buffers the segment reads from before it are set to their stages.
-/
import proofs.«145896_j91079076479405_1_alg».proof.Proof.RefSegs2

noncomputable section

namespace Cert.ReferenceIdeal.RefFold

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

set_option maxRecDepth 100000 in
set_option maxHeartbeats 40000000 in
theorem seg13_v263 (w : Valuation τ sig (Elt F)) :
    (StableHlo.after (seg13 (F := F)) ((StableHlo.nullary (τ := τ) main_v238 (val_main_v238 (F := F) (w (Proc.devRef .tc main_arg0)) (w (Proc.devRef .tc main_arg1)) (w (Proc.devRef .tc main_arg2)))).result w) (Proc.devRef .tc main_v263) : S2x65536x3.Idx → Elt F .f32)
      = val_main_v263 (F := F) (w (Proc.devRef .tc main_arg0)) (w (Proc.devRef .tc main_arg1)) (w (Proc.devRef .tc main_arg2)) (w (Proc.devRef .tc main_arg3)) (w (Proc.devRef .tc main_arg4)) (w (Proc.devRef .tc main_arg5)) (w (Proc.devRef .tc main_arg6)) (w (Proc.devRef .tc main_arg7)) (w (Proc.devRef .tc main_arg8)) (w (Proc.devRef .tc main_arg9)) (w (Proc.devRef .tc main_arg10)) (w (Proc.devRef .tc main_arg11)) (w (Proc.devRef .tc main_arg12)) := by
  after_results_simp <;> chain_rfl

end Cert.ReferenceIdeal.RefFold

end
-- ==== Proof.RefSegC.lean ====
/-
  The last segments of the reference's operations (the fourth gather's wrap-around and gather with the four-way
  concatenation, the unfolding in its three parts, the five-layer network), each read from an arbitrary memory: the
  buffer a segment leaves for the later ones holds the program's stage of that name, read from the arguments'
  contents in that memory, once the buffers the segment reads from before it are set to their stages.
-/
import proofs.«145896_j91079076479405_1_alg».proof.Proof.RefSegC1
import proofs.«145896_j91079076479405_1_alg».proof.Proof.RefSegC2
import proofs.«145896_j91079076479405_1_alg».proof.Proof.RefSegC3
import proofs.«145896_j91079076479405_1_alg».proof.Proof.RefSegC4
import proofs.«145896_j91079076479405_1_alg».proof.Proof.RefSegC5
import proofs.«145896_j91079076479405_1_alg».proof.Proof.RefSegC6
-- ==== Proof.RefFold.lean ====
/-
  The reference program's result buffer, read off its fold.

  `StableHlo.after ops w` is the memory the reference's 506 operations leave from `w`; the result buffer then holds
  the program's last stage read from the arguments' contents in `w`.  The line is cut into sixteen segments; each
  segment's lemma is applied at the memory the segments before it leave, where the arguments hold what they hold in
  `w` (no operation writes an argument) and the other buffers the segment reads hold the stages the facts before
  give.
-/
import proofs.«145896_j91079076479405_1_alg».proof.Proof.RefKeeps
import proofs.«145896_j91079076479405_1_alg».proof.Proof.RefSegA
import proofs.«145896_j91079076479405_1_alg».proof.Proof.RefSegB
import proofs.«145896_j91079076479405_1_alg».proof.Proof.RefSegC

noncomputable section

namespace Cert.ReferenceIdeal.RefFold

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-! ## The contents at the cuts

`W k w` is the memory after the first `k` segments, from `w`.  Each fact below says what one buffer holds there, as a
stage of the program read from the ARGUMENTS' contents in `w`: a segment's lemma at the memory before it, the
arguments there being `w`'s (no operation writes an argument), its other inputs being the facts before. -/

abbrev W1 (w : Valuation τ sig (Elt F)) : Valuation τ sig (Elt F) := StableHlo.after (seg0 (F := F)) w
abbrev W2 (w : Valuation τ sig (Elt F)) : Valuation τ sig (Elt F) := StableHlo.after (seg1 (F := F)) (W1 w)
abbrev W3 (w : Valuation τ sig (Elt F)) : Valuation τ sig (Elt F) := StableHlo.after (seg2 (F := F)) (W2 w)
abbrev W4 (w : Valuation τ sig (Elt F)) : Valuation τ sig (Elt F) := StableHlo.after (seg3 (F := F)) (W3 w)
abbrev W5 (w : Valuation τ sig (Elt F)) : Valuation τ sig (Elt F) := StableHlo.after (seg4 (F := F)) (W4 w)
abbrev W6 (w : Valuation τ sig (Elt F)) : Valuation τ sig (Elt F) := StableHlo.after (seg5 (F := F)) (W5 w)
abbrev W7 (w : Valuation τ sig (Elt F)) : Valuation τ sig (Elt F) := StableHlo.after (seg6 (F := F)) (W6 w)
abbrev W8 (w : Valuation τ sig (Elt F)) : Valuation τ sig (Elt F) := StableHlo.after (seg7 (F := F)) (W7 w)
abbrev W9 (w : Valuation τ sig (Elt F)) : Valuation τ sig (Elt F) := StableHlo.after (seg8 (F := F)) (W8 w)
abbrev W10 (w : Valuation τ sig (Elt F)) : Valuation τ sig (Elt F) := StableHlo.after (seg9 (F := F)) (W9 w)
abbrev W11 (w : Valuation τ sig (Elt F)) : Valuation τ sig (Elt F) := StableHlo.after (seg10 (F := F)) (W10 w)
abbrev W12 (w : Valuation τ sig (Elt F)) : Valuation τ sig (Elt F) := StableHlo.after (seg11 (F := F)) (W11 w)
abbrev W13 (w : Valuation τ sig (Elt F)) : Valuation τ sig (Elt F) := StableHlo.after (seg12a (F := F)) (W12 w)
abbrev W14 (w : Valuation τ sig (Elt F)) : Valuation τ sig (Elt F) := StableHlo.after (seg12b (F := F)) (W13 w)
abbrev W15 (w : Valuation τ sig (Elt F)) : Valuation τ sig (Elt F) := StableHlo.after (seg12c (F := F)) (W14 w)
theorem W1_v1 (w : Valuation τ sig (Elt F)) : (W1 w (Proc.devRef .tc main_v1) : S_.Idx → Elt F .f32) = val_main_v1 (F := F) (w (Proc.devRef .tc main_arg2)) := seg0_v1 w
theorem W1_v51 (w : Valuation τ sig (Elt F)) : (W1 w (Proc.devRef .tc main_v51) : S2x64x65536.Idx → Elt F .f32) = val_main_v51 (F := F) (w (Proc.devRef .tc main_arg0)) := seg0_v51 w
theorem W1_v52 (w : Valuation τ sig (Elt F)) : (W1 w (Proc.devRef .tc main_v52) : S2x1x65536.Idx → Elt F .i32) = val_main_v52 (F := F) (w (Proc.devRef .tc main_arg1)) (w (Proc.devRef .tc main_arg2)) := seg0_v52 w
theorem W1_arg0 (w : Valuation τ sig (Elt F)) : W1 w (Proc.devRef .tc main_arg0) = w (Proc.devRef .tc main_arg0) := seg0_keep_arg0 w
theorem W1_arg1 (w : Valuation τ sig (Elt F)) : W1 w (Proc.devRef .tc main_arg1) = w (Proc.devRef .tc main_arg1) := seg0_keep_arg1 w
theorem W1_arg2 (w : Valuation τ sig (Elt F)) : W1 w (Proc.devRef .tc main_arg2) = w (Proc.devRef .tc main_arg2) := seg0_keep_arg2 w
theorem W1_arg3 (w : Valuation τ sig (Elt F)) : W1 w (Proc.devRef .tc main_arg3) = w (Proc.devRef .tc main_arg3) := seg0_keep_arg3 w
theorem W1_arg4 (w : Valuation τ sig (Elt F)) : W1 w (Proc.devRef .tc main_arg4) = w (Proc.devRef .tc main_arg4) := seg0_keep_arg4 w
theorem W1_arg5 (w : Valuation τ sig (Elt F)) : W1 w (Proc.devRef .tc main_arg5) = w (Proc.devRef .tc main_arg5) := seg0_keep_arg5 w
theorem W1_arg6 (w : Valuation τ sig (Elt F)) : W1 w (Proc.devRef .tc main_arg6) = w (Proc.devRef .tc main_arg6) := seg0_keep_arg6 w
theorem W1_arg7 (w : Valuation τ sig (Elt F)) : W1 w (Proc.devRef .tc main_arg7) = w (Proc.devRef .tc main_arg7) := seg0_keep_arg7 w
theorem W1_arg8 (w : Valuation τ sig (Elt F)) : W1 w (Proc.devRef .tc main_arg8) = w (Proc.devRef .tc main_arg8) := seg0_keep_arg8 w
theorem W1_arg9 (w : Valuation τ sig (Elt F)) : W1 w (Proc.devRef .tc main_arg9) = w (Proc.devRef .tc main_arg9) := seg0_keep_arg9 w
theorem W1_arg10 (w : Valuation τ sig (Elt F)) : W1 w (Proc.devRef .tc main_arg10) = w (Proc.devRef .tc main_arg10) := seg0_keep_arg10 w
theorem W1_arg11 (w : Valuation τ sig (Elt F)) : W1 w (Proc.devRef .tc main_arg11) = w (Proc.devRef .tc main_arg11) := seg0_keep_arg11 w
theorem W1_arg12 (w : Valuation τ sig (Elt F)) : W1 w (Proc.devRef .tc main_arg12) = w (Proc.devRef .tc main_arg12) := seg0_keep_arg12 w

theorem W2_call5_v5 (w : Valuation τ sig (Elt F)) : (W2 w (Proc.devRef .tc main_call5_v5) : S2x65536x1.Idx → Elt F .i32) = val_main_call5_v5 (F := F) (w (Proc.devRef .tc main_arg1)) (w (Proc.devRef .tc main_arg2)) := by
  have h := seg1_call5_v5 (W1 w)
  rw [W1_arg1 w, W1_arg2 w, set_self main_v52 _ _ (W1 w) (W1_v52 w)] at h
  exact h
theorem W2_v51 (w : Valuation τ sig (Elt F)) : (W2 w (Proc.devRef .tc main_v51) : S2x64x65536.Idx → Elt F .f32) = val_main_v51 (F := F) (w (Proc.devRef .tc main_arg0)) := (seg1_keep_v51 (W1 w)).trans (W1_v51 w)
theorem W2_v1 (w : Valuation τ sig (Elt F)) : (W2 w (Proc.devRef .tc main_v1) : S_.Idx → Elt F .f32) = val_main_v1 (F := F) (w (Proc.devRef .tc main_arg2)) := (seg1_keep_v1 (W1 w)).trans (W1_v1 w)
theorem W2_arg0 (w : Valuation τ sig (Elt F)) : W2 w (Proc.devRef .tc main_arg0) = w (Proc.devRef .tc main_arg0) := (seg1_keep_arg0 (W1 w)).trans (W1_arg0 w)
theorem W2_arg1 (w : Valuation τ sig (Elt F)) : W2 w (Proc.devRef .tc main_arg1) = w (Proc.devRef .tc main_arg1) := (seg1_keep_arg1 (W1 w)).trans (W1_arg1 w)
theorem W2_arg2 (w : Valuation τ sig (Elt F)) : W2 w (Proc.devRef .tc main_arg2) = w (Proc.devRef .tc main_arg2) := (seg1_keep_arg2 (W1 w)).trans (W1_arg2 w)
theorem W2_arg3 (w : Valuation τ sig (Elt F)) : W2 w (Proc.devRef .tc main_arg3) = w (Proc.devRef .tc main_arg3) := (seg1_keep_arg3 (W1 w)).trans (W1_arg3 w)
theorem W2_arg4 (w : Valuation τ sig (Elt F)) : W2 w (Proc.devRef .tc main_arg4) = w (Proc.devRef .tc main_arg4) := (seg1_keep_arg4 (W1 w)).trans (W1_arg4 w)
theorem W2_arg5 (w : Valuation τ sig (Elt F)) : W2 w (Proc.devRef .tc main_arg5) = w (Proc.devRef .tc main_arg5) := (seg1_keep_arg5 (W1 w)).trans (W1_arg5 w)
theorem W2_arg6 (w : Valuation τ sig (Elt F)) : W2 w (Proc.devRef .tc main_arg6) = w (Proc.devRef .tc main_arg6) := (seg1_keep_arg6 (W1 w)).trans (W1_arg6 w)
theorem W2_arg7 (w : Valuation τ sig (Elt F)) : W2 w (Proc.devRef .tc main_arg7) = w (Proc.devRef .tc main_arg7) := (seg1_keep_arg7 (W1 w)).trans (W1_arg7 w)
theorem W2_arg8 (w : Valuation τ sig (Elt F)) : W2 w (Proc.devRef .tc main_arg8) = w (Proc.devRef .tc main_arg8) := (seg1_keep_arg8 (W1 w)).trans (W1_arg8 w)
theorem W2_arg9 (w : Valuation τ sig (Elt F)) : W2 w (Proc.devRef .tc main_arg9) = w (Proc.devRef .tc main_arg9) := (seg1_keep_arg9 (W1 w)).trans (W1_arg9 w)
theorem W2_arg10 (w : Valuation τ sig (Elt F)) : W2 w (Proc.devRef .tc main_arg10) = w (Proc.devRef .tc main_arg10) := (seg1_keep_arg10 (W1 w)).trans (W1_arg10 w)
theorem W2_arg11 (w : Valuation τ sig (Elt F)) : W2 w (Proc.devRef .tc main_arg11) = w (Proc.devRef .tc main_arg11) := (seg1_keep_arg11 (W1 w)).trans (W1_arg11 w)
theorem W2_arg12 (w : Valuation τ sig (Elt F)) : W2 w (Proc.devRef .tc main_arg12) = w (Proc.devRef .tc main_arg12) := (seg1_keep_arg12 (W1 w)).trans (W1_arg12 w)

theorem W3_v54 (w : Valuation τ sig (Elt F)) : (W3 w (Proc.devRef .tc main_v54) : S2x65536x64.Idx → Elt F .f32) = val_main_v54 (F := F) (w (Proc.devRef .tc main_arg0)) (w (Proc.devRef .tc main_arg1)) (w (Proc.devRef .tc main_arg2)) := by
  have h := seg2_v54 (W2 w)
  rw [W2_arg0 w, W2_arg1 w, W2_arg2 w, set_self main_call5_v5 _ _ (W2 w) (W2_call5_v5 w), set_self main_v51 _ _ (W2 w) (W2_v51 w)] at h
  exact h
theorem W3_v1 (w : Valuation τ sig (Elt F)) : (W3 w (Proc.devRef .tc main_v1) : S_.Idx → Elt F .f32) = val_main_v1 (F := F) (w (Proc.devRef .tc main_arg2)) := (seg2_keep_v1 (W2 w)).trans (W2_v1 w)
theorem W3_arg0 (w : Valuation τ sig (Elt F)) : W3 w (Proc.devRef .tc main_arg0) = w (Proc.devRef .tc main_arg0) := (seg2_keep_arg0 (W2 w)).trans (W2_arg0 w)
theorem W3_arg1 (w : Valuation τ sig (Elt F)) : W3 w (Proc.devRef .tc main_arg1) = w (Proc.devRef .tc main_arg1) := (seg2_keep_arg1 (W2 w)).trans (W2_arg1 w)
theorem W3_arg2 (w : Valuation τ sig (Elt F)) : W3 w (Proc.devRef .tc main_arg2) = w (Proc.devRef .tc main_arg2) := (seg2_keep_arg2 (W2 w)).trans (W2_arg2 w)
theorem W3_arg3 (w : Valuation τ sig (Elt F)) : W3 w (Proc.devRef .tc main_arg3) = w (Proc.devRef .tc main_arg3) := (seg2_keep_arg3 (W2 w)).trans (W2_arg3 w)
theorem W3_arg4 (w : Valuation τ sig (Elt F)) : W3 w (Proc.devRef .tc main_arg4) = w (Proc.devRef .tc main_arg4) := (seg2_keep_arg4 (W2 w)).trans (W2_arg4 w)
theorem W3_arg5 (w : Valuation τ sig (Elt F)) : W3 w (Proc.devRef .tc main_arg5) = w (Proc.devRef .tc main_arg5) := (seg2_keep_arg5 (W2 w)).trans (W2_arg5 w)
theorem W3_arg6 (w : Valuation τ sig (Elt F)) : W3 w (Proc.devRef .tc main_arg6) = w (Proc.devRef .tc main_arg6) := (seg2_keep_arg6 (W2 w)).trans (W2_arg6 w)
theorem W3_arg7 (w : Valuation τ sig (Elt F)) : W3 w (Proc.devRef .tc main_arg7) = w (Proc.devRef .tc main_arg7) := (seg2_keep_arg7 (W2 w)).trans (W2_arg7 w)
theorem W3_arg8 (w : Valuation τ sig (Elt F)) : W3 w (Proc.devRef .tc main_arg8) = w (Proc.devRef .tc main_arg8) := (seg2_keep_arg8 (W2 w)).trans (W2_arg8 w)
theorem W3_arg9 (w : Valuation τ sig (Elt F)) : W3 w (Proc.devRef .tc main_arg9) = w (Proc.devRef .tc main_arg9) := (seg2_keep_arg9 (W2 w)).trans (W2_arg9 w)
theorem W3_arg10 (w : Valuation τ sig (Elt F)) : W3 w (Proc.devRef .tc main_arg10) = w (Proc.devRef .tc main_arg10) := (seg2_keep_arg10 (W2 w)).trans (W2_arg10 w)
theorem W3_arg11 (w : Valuation τ sig (Elt F)) : W3 w (Proc.devRef .tc main_arg11) = w (Proc.devRef .tc main_arg11) := (seg2_keep_arg11 (W2 w)).trans (W2_arg11 w)
theorem W3_arg12 (w : Valuation τ sig (Elt F)) : W3 w (Proc.devRef .tc main_arg12) = w (Proc.devRef .tc main_arg12) := (seg2_keep_arg12 (W2 w)).trans (W2_arg12 w)

theorem W4_v104 (w : Valuation τ sig (Elt F)) : (W4 w (Proc.devRef .tc main_v104) : S2x64x65536.Idx → Elt F .f32) = val_main_v104 (F := F) (w (Proc.devRef .tc main_arg0)) := by
  have h := seg3_v104 (W3 w)
  rw [W3_arg0 w, W3_arg2 w, set_self main_v1 _ _ (W3 w) (W3_v1 w)] at h
  exact h
theorem W4_v105 (w : Valuation τ sig (Elt F)) : (W4 w (Proc.devRef .tc main_v105) : S2x1x65536.Idx → Elt F .i32) = val_main_v105 (F := F) (w (Proc.devRef .tc main_arg1)) (w (Proc.devRef .tc main_arg2)) := by
  have h := seg3_v105 (W3 w)
  rw [W3_arg1 w, W3_arg2 w, set_self main_v1 _ _ (W3 w) (W3_v1 w)] at h
  exact h
theorem W4_v1 (w : Valuation τ sig (Elt F)) : (W4 w (Proc.devRef .tc main_v1) : S_.Idx → Elt F .f32) = val_main_v1 (F := F) (w (Proc.devRef .tc main_arg2)) := (seg3_keep_v1 (W3 w)).trans (W3_v1 w)
theorem W4_v54 (w : Valuation τ sig (Elt F)) : (W4 w (Proc.devRef .tc main_v54) : S2x65536x64.Idx → Elt F .f32) = val_main_v54 (F := F) (w (Proc.devRef .tc main_arg0)) (w (Proc.devRef .tc main_arg1)) (w (Proc.devRef .tc main_arg2)) := (seg3_keep_v54 (W3 w)).trans (W3_v54 w)
theorem W4_arg0 (w : Valuation τ sig (Elt F)) : W4 w (Proc.devRef .tc main_arg0) = w (Proc.devRef .tc main_arg0) := (seg3_keep_arg0 (W3 w)).trans (W3_arg0 w)
theorem W4_arg1 (w : Valuation τ sig (Elt F)) : W4 w (Proc.devRef .tc main_arg1) = w (Proc.devRef .tc main_arg1) := (seg3_keep_arg1 (W3 w)).trans (W3_arg1 w)
theorem W4_arg2 (w : Valuation τ sig (Elt F)) : W4 w (Proc.devRef .tc main_arg2) = w (Proc.devRef .tc main_arg2) := (seg3_keep_arg2 (W3 w)).trans (W3_arg2 w)
theorem W4_arg3 (w : Valuation τ sig (Elt F)) : W4 w (Proc.devRef .tc main_arg3) = w (Proc.devRef .tc main_arg3) := (seg3_keep_arg3 (W3 w)).trans (W3_arg3 w)
theorem W4_arg4 (w : Valuation τ sig (Elt F)) : W4 w (Proc.devRef .tc main_arg4) = w (Proc.devRef .tc main_arg4) := (seg3_keep_arg4 (W3 w)).trans (W3_arg4 w)
theorem W4_arg5 (w : Valuation τ sig (Elt F)) : W4 w (Proc.devRef .tc main_arg5) = w (Proc.devRef .tc main_arg5) := (seg3_keep_arg5 (W3 w)).trans (W3_arg5 w)
theorem W4_arg6 (w : Valuation τ sig (Elt F)) : W4 w (Proc.devRef .tc main_arg6) = w (Proc.devRef .tc main_arg6) := (seg3_keep_arg6 (W3 w)).trans (W3_arg6 w)
theorem W4_arg7 (w : Valuation τ sig (Elt F)) : W4 w (Proc.devRef .tc main_arg7) = w (Proc.devRef .tc main_arg7) := (seg3_keep_arg7 (W3 w)).trans (W3_arg7 w)
theorem W4_arg8 (w : Valuation τ sig (Elt F)) : W4 w (Proc.devRef .tc main_arg8) = w (Proc.devRef .tc main_arg8) := (seg3_keep_arg8 (W3 w)).trans (W3_arg8 w)
theorem W4_arg9 (w : Valuation τ sig (Elt F)) : W4 w (Proc.devRef .tc main_arg9) = w (Proc.devRef .tc main_arg9) := (seg3_keep_arg9 (W3 w)).trans (W3_arg9 w)
theorem W4_arg10 (w : Valuation τ sig (Elt F)) : W4 w (Proc.devRef .tc main_arg10) = w (Proc.devRef .tc main_arg10) := (seg3_keep_arg10 (W3 w)).trans (W3_arg10 w)
theorem W4_arg11 (w : Valuation τ sig (Elt F)) : W4 w (Proc.devRef .tc main_arg11) = w (Proc.devRef .tc main_arg11) := (seg3_keep_arg11 (W3 w)).trans (W3_arg11 w)
theorem W4_arg12 (w : Valuation τ sig (Elt F)) : W4 w (Proc.devRef .tc main_arg12) = w (Proc.devRef .tc main_arg12) := (seg3_keep_arg12 (W3 w)).trans (W3_arg12 w)

theorem W5_call11_v5 (w : Valuation τ sig (Elt F)) : (W5 w (Proc.devRef .tc main_call11_v5) : S2x65536x1.Idx → Elt F .i32) = val_main_call11_v5 (F := F) (w (Proc.devRef .tc main_arg1)) (w (Proc.devRef .tc main_arg2)) := by
  have h := seg4_call11_v5 (W4 w)
  rw [W4_arg1 w, W4_arg2 w, set_self main_v105 _ _ (W4 w) (W4_v105 w)] at h
  exact h
theorem W5_v104 (w : Valuation τ sig (Elt F)) : (W5 w (Proc.devRef .tc main_v104) : S2x64x65536.Idx → Elt F .f32) = val_main_v104 (F := F) (w (Proc.devRef .tc main_arg0)) := (seg4_keep_v104 (W4 w)).trans (W4_v104 w)
theorem W5_v1 (w : Valuation τ sig (Elt F)) : (W5 w (Proc.devRef .tc main_v1) : S_.Idx → Elt F .f32) = val_main_v1 (F := F) (w (Proc.devRef .tc main_arg2)) := (seg4_keep_v1 (W4 w)).trans (W4_v1 w)
theorem W5_v54 (w : Valuation τ sig (Elt F)) : (W5 w (Proc.devRef .tc main_v54) : S2x65536x64.Idx → Elt F .f32) = val_main_v54 (F := F) (w (Proc.devRef .tc main_arg0)) (w (Proc.devRef .tc main_arg1)) (w (Proc.devRef .tc main_arg2)) := (seg4_keep_v54 (W4 w)).trans (W4_v54 w)
theorem W5_arg0 (w : Valuation τ sig (Elt F)) : W5 w (Proc.devRef .tc main_arg0) = w (Proc.devRef .tc main_arg0) := (seg4_keep_arg0 (W4 w)).trans (W4_arg0 w)
theorem W5_arg1 (w : Valuation τ sig (Elt F)) : W5 w (Proc.devRef .tc main_arg1) = w (Proc.devRef .tc main_arg1) := (seg4_keep_arg1 (W4 w)).trans (W4_arg1 w)
theorem W5_arg2 (w : Valuation τ sig (Elt F)) : W5 w (Proc.devRef .tc main_arg2) = w (Proc.devRef .tc main_arg2) := (seg4_keep_arg2 (W4 w)).trans (W4_arg2 w)
theorem W5_arg3 (w : Valuation τ sig (Elt F)) : W5 w (Proc.devRef .tc main_arg3) = w (Proc.devRef .tc main_arg3) := (seg4_keep_arg3 (W4 w)).trans (W4_arg3 w)
theorem W5_arg4 (w : Valuation τ sig (Elt F)) : W5 w (Proc.devRef .tc main_arg4) = w (Proc.devRef .tc main_arg4) := (seg4_keep_arg4 (W4 w)).trans (W4_arg4 w)
theorem W5_arg5 (w : Valuation τ sig (Elt F)) : W5 w (Proc.devRef .tc main_arg5) = w (Proc.devRef .tc main_arg5) := (seg4_keep_arg5 (W4 w)).trans (W4_arg5 w)
theorem W5_arg6 (w : Valuation τ sig (Elt F)) : W5 w (Proc.devRef .tc main_arg6) = w (Proc.devRef .tc main_arg6) := (seg4_keep_arg6 (W4 w)).trans (W4_arg6 w)
theorem W5_arg7 (w : Valuation τ sig (Elt F)) : W5 w (Proc.devRef .tc main_arg7) = w (Proc.devRef .tc main_arg7) := (seg4_keep_arg7 (W4 w)).trans (W4_arg7 w)
theorem W5_arg8 (w : Valuation τ sig (Elt F)) : W5 w (Proc.devRef .tc main_arg8) = w (Proc.devRef .tc main_arg8) := (seg4_keep_arg8 (W4 w)).trans (W4_arg8 w)
theorem W5_arg9 (w : Valuation τ sig (Elt F)) : W5 w (Proc.devRef .tc main_arg9) = w (Proc.devRef .tc main_arg9) := (seg4_keep_arg9 (W4 w)).trans (W4_arg9 w)
theorem W5_arg10 (w : Valuation τ sig (Elt F)) : W5 w (Proc.devRef .tc main_arg10) = w (Proc.devRef .tc main_arg10) := (seg4_keep_arg10 (W4 w)).trans (W4_arg10 w)
theorem W5_arg11 (w : Valuation τ sig (Elt F)) : W5 w (Proc.devRef .tc main_arg11) = w (Proc.devRef .tc main_arg11) := (seg4_keep_arg11 (W4 w)).trans (W4_arg11 w)
theorem W5_arg12 (w : Valuation τ sig (Elt F)) : W5 w (Proc.devRef .tc main_arg12) = w (Proc.devRef .tc main_arg12) := (seg4_keep_arg12 (W4 w)).trans (W4_arg12 w)

theorem W6_v107 (w : Valuation τ sig (Elt F)) : (W6 w (Proc.devRef .tc main_v107) : S2x65536x64.Idx → Elt F .f32) = val_main_v107 (F := F) (w (Proc.devRef .tc main_arg0)) (w (Proc.devRef .tc main_arg1)) (w (Proc.devRef .tc main_arg2)) := by
  have h := seg5_v107 (W5 w)
  rw [W5_arg0 w, W5_arg1 w, W5_arg2 w, set_self main_call11_v5 _ _ (W5 w) (W5_call11_v5 w), set_self main_v104 _ _ (W5 w) (W5_v104 w)] at h
  exact h
theorem W6_v1 (w : Valuation τ sig (Elt F)) : (W6 w (Proc.devRef .tc main_v1) : S_.Idx → Elt F .f32) = val_main_v1 (F := F) (w (Proc.devRef .tc main_arg2)) := (seg5_keep_v1 (W5 w)).trans (W5_v1 w)
theorem W6_v54 (w : Valuation τ sig (Elt F)) : (W6 w (Proc.devRef .tc main_v54) : S2x65536x64.Idx → Elt F .f32) = val_main_v54 (F := F) (w (Proc.devRef .tc main_arg0)) (w (Proc.devRef .tc main_arg1)) (w (Proc.devRef .tc main_arg2)) := (seg5_keep_v54 (W5 w)).trans (W5_v54 w)
theorem W6_arg0 (w : Valuation τ sig (Elt F)) : W6 w (Proc.devRef .tc main_arg0) = w (Proc.devRef .tc main_arg0) := (seg5_keep_arg0 (W5 w)).trans (W5_arg0 w)
theorem W6_arg1 (w : Valuation τ sig (Elt F)) : W6 w (Proc.devRef .tc main_arg1) = w (Proc.devRef .tc main_arg1) := (seg5_keep_arg1 (W5 w)).trans (W5_arg1 w)
theorem W6_arg2 (w : Valuation τ sig (Elt F)) : W6 w (Proc.devRef .tc main_arg2) = w (Proc.devRef .tc main_arg2) := (seg5_keep_arg2 (W5 w)).trans (W5_arg2 w)
theorem W6_arg3 (w : Valuation τ sig (Elt F)) : W6 w (Proc.devRef .tc main_arg3) = w (Proc.devRef .tc main_arg3) := (seg5_keep_arg3 (W5 w)).trans (W5_arg3 w)
theorem W6_arg4 (w : Valuation τ sig (Elt F)) : W6 w (Proc.devRef .tc main_arg4) = w (Proc.devRef .tc main_arg4) := (seg5_keep_arg4 (W5 w)).trans (W5_arg4 w)
theorem W6_arg5 (w : Valuation τ sig (Elt F)) : W6 w (Proc.devRef .tc main_arg5) = w (Proc.devRef .tc main_arg5) := (seg5_keep_arg5 (W5 w)).trans (W5_arg5 w)
theorem W6_arg6 (w : Valuation τ sig (Elt F)) : W6 w (Proc.devRef .tc main_arg6) = w (Proc.devRef .tc main_arg6) := (seg5_keep_arg6 (W5 w)).trans (W5_arg6 w)
theorem W6_arg7 (w : Valuation τ sig (Elt F)) : W6 w (Proc.devRef .tc main_arg7) = w (Proc.devRef .tc main_arg7) := (seg5_keep_arg7 (W5 w)).trans (W5_arg7 w)
theorem W6_arg8 (w : Valuation τ sig (Elt F)) : W6 w (Proc.devRef .tc main_arg8) = w (Proc.devRef .tc main_arg8) := (seg5_keep_arg8 (W5 w)).trans (W5_arg8 w)
theorem W6_arg9 (w : Valuation τ sig (Elt F)) : W6 w (Proc.devRef .tc main_arg9) = w (Proc.devRef .tc main_arg9) := (seg5_keep_arg9 (W5 w)).trans (W5_arg9 w)
theorem W6_arg10 (w : Valuation τ sig (Elt F)) : W6 w (Proc.devRef .tc main_arg10) = w (Proc.devRef .tc main_arg10) := (seg5_keep_arg10 (W5 w)).trans (W5_arg10 w)
theorem W6_arg11 (w : Valuation τ sig (Elt F)) : W6 w (Proc.devRef .tc main_arg11) = w (Proc.devRef .tc main_arg11) := (seg5_keep_arg11 (W5 w)).trans (W5_arg11 w)
theorem W6_arg12 (w : Valuation τ sig (Elt F)) : W6 w (Proc.devRef .tc main_arg12) = w (Proc.devRef .tc main_arg12) := (seg5_keep_arg12 (W5 w)).trans (W5_arg12 w)

theorem W7_v157 (w : Valuation τ sig (Elt F)) : (W7 w (Proc.devRef .tc main_v157) : S2x64x65536.Idx → Elt F .f32) = val_main_v157 (F := F) (w (Proc.devRef .tc main_arg0)) := by
  have h := seg6_v157 (W6 w)
  rw [W6_arg0 w, W6_arg2 w, set_self main_v1 _ _ (W6 w) (W6_v1 w)] at h
  exact h
theorem W7_v158 (w : Valuation τ sig (Elt F)) : (W7 w (Proc.devRef .tc main_v158) : S2x1x65536.Idx → Elt F .i32) = val_main_v158 (F := F) (w (Proc.devRef .tc main_arg1)) (w (Proc.devRef .tc main_arg2)) := by
  have h := seg6_v158 (W6 w)
  rw [W6_arg1 w, W6_arg2 w, set_self main_v1 _ _ (W6 w) (W6_v1 w)] at h
  exact h
theorem W7_v1 (w : Valuation τ sig (Elt F)) : (W7 w (Proc.devRef .tc main_v1) : S_.Idx → Elt F .f32) = val_main_v1 (F := F) (w (Proc.devRef .tc main_arg2)) := (seg6_keep_v1 (W6 w)).trans (W6_v1 w)
theorem W7_v54 (w : Valuation τ sig (Elt F)) : (W7 w (Proc.devRef .tc main_v54) : S2x65536x64.Idx → Elt F .f32) = val_main_v54 (F := F) (w (Proc.devRef .tc main_arg0)) (w (Proc.devRef .tc main_arg1)) (w (Proc.devRef .tc main_arg2)) := (seg6_keep_v54 (W6 w)).trans (W6_v54 w)
theorem W7_v107 (w : Valuation τ sig (Elt F)) : (W7 w (Proc.devRef .tc main_v107) : S2x65536x64.Idx → Elt F .f32) = val_main_v107 (F := F) (w (Proc.devRef .tc main_arg0)) (w (Proc.devRef .tc main_arg1)) (w (Proc.devRef .tc main_arg2)) := (seg6_keep_v107 (W6 w)).trans (W6_v107 w)
theorem W7_arg0 (w : Valuation τ sig (Elt F)) : W7 w (Proc.devRef .tc main_arg0) = w (Proc.devRef .tc main_arg0) := (seg6_keep_arg0 (W6 w)).trans (W6_arg0 w)
theorem W7_arg1 (w : Valuation τ sig (Elt F)) : W7 w (Proc.devRef .tc main_arg1) = w (Proc.devRef .tc main_arg1) := (seg6_keep_arg1 (W6 w)).trans (W6_arg1 w)
theorem W7_arg2 (w : Valuation τ sig (Elt F)) : W7 w (Proc.devRef .tc main_arg2) = w (Proc.devRef .tc main_arg2) := (seg6_keep_arg2 (W6 w)).trans (W6_arg2 w)
theorem W7_arg3 (w : Valuation τ sig (Elt F)) : W7 w (Proc.devRef .tc main_arg3) = w (Proc.devRef .tc main_arg3) := (seg6_keep_arg3 (W6 w)).trans (W6_arg3 w)
theorem W7_arg4 (w : Valuation τ sig (Elt F)) : W7 w (Proc.devRef .tc main_arg4) = w (Proc.devRef .tc main_arg4) := (seg6_keep_arg4 (W6 w)).trans (W6_arg4 w)
theorem W7_arg5 (w : Valuation τ sig (Elt F)) : W7 w (Proc.devRef .tc main_arg5) = w (Proc.devRef .tc main_arg5) := (seg6_keep_arg5 (W6 w)).trans (W6_arg5 w)
theorem W7_arg6 (w : Valuation τ sig (Elt F)) : W7 w (Proc.devRef .tc main_arg6) = w (Proc.devRef .tc main_arg6) := (seg6_keep_arg6 (W6 w)).trans (W6_arg6 w)
theorem W7_arg7 (w : Valuation τ sig (Elt F)) : W7 w (Proc.devRef .tc main_arg7) = w (Proc.devRef .tc main_arg7) := (seg6_keep_arg7 (W6 w)).trans (W6_arg7 w)
theorem W7_arg8 (w : Valuation τ sig (Elt F)) : W7 w (Proc.devRef .tc main_arg8) = w (Proc.devRef .tc main_arg8) := (seg6_keep_arg8 (W6 w)).trans (W6_arg8 w)
theorem W7_arg9 (w : Valuation τ sig (Elt F)) : W7 w (Proc.devRef .tc main_arg9) = w (Proc.devRef .tc main_arg9) := (seg6_keep_arg9 (W6 w)).trans (W6_arg9 w)
theorem W7_arg10 (w : Valuation τ sig (Elt F)) : W7 w (Proc.devRef .tc main_arg10) = w (Proc.devRef .tc main_arg10) := (seg6_keep_arg10 (W6 w)).trans (W6_arg10 w)
theorem W7_arg11 (w : Valuation τ sig (Elt F)) : W7 w (Proc.devRef .tc main_arg11) = w (Proc.devRef .tc main_arg11) := (seg6_keep_arg11 (W6 w)).trans (W6_arg11 w)
theorem W7_arg12 (w : Valuation τ sig (Elt F)) : W7 w (Proc.devRef .tc main_arg12) = w (Proc.devRef .tc main_arg12) := (seg6_keep_arg12 (W6 w)).trans (W6_arg12 w)

theorem W8_call17_v5 (w : Valuation τ sig (Elt F)) : (W8 w (Proc.devRef .tc main_call17_v5) : S2x65536x1.Idx → Elt F .i32) = val_main_call17_v5 (F := F) (w (Proc.devRef .tc main_arg1)) (w (Proc.devRef .tc main_arg2)) := by
  have h := seg7_call17_v5 (W7 w)
  rw [W7_arg1 w, W7_arg2 w, set_self main_v158 _ _ (W7 w) (W7_v158 w)] at h
  exact h
theorem W8_v157 (w : Valuation τ sig (Elt F)) : (W8 w (Proc.devRef .tc main_v157) : S2x64x65536.Idx → Elt F .f32) = val_main_v157 (F := F) (w (Proc.devRef .tc main_arg0)) := (seg7_keep_v157 (W7 w)).trans (W7_v157 w)
theorem W8_v1 (w : Valuation τ sig (Elt F)) : (W8 w (Proc.devRef .tc main_v1) : S_.Idx → Elt F .f32) = val_main_v1 (F := F) (w (Proc.devRef .tc main_arg2)) := (seg7_keep_v1 (W7 w)).trans (W7_v1 w)
theorem W8_v54 (w : Valuation τ sig (Elt F)) : (W8 w (Proc.devRef .tc main_v54) : S2x65536x64.Idx → Elt F .f32) = val_main_v54 (F := F) (w (Proc.devRef .tc main_arg0)) (w (Proc.devRef .tc main_arg1)) (w (Proc.devRef .tc main_arg2)) := (seg7_keep_v54 (W7 w)).trans (W7_v54 w)
theorem W8_v107 (w : Valuation τ sig (Elt F)) : (W8 w (Proc.devRef .tc main_v107) : S2x65536x64.Idx → Elt F .f32) = val_main_v107 (F := F) (w (Proc.devRef .tc main_arg0)) (w (Proc.devRef .tc main_arg1)) (w (Proc.devRef .tc main_arg2)) := (seg7_keep_v107 (W7 w)).trans (W7_v107 w)
theorem W8_arg0 (w : Valuation τ sig (Elt F)) : W8 w (Proc.devRef .tc main_arg0) = w (Proc.devRef .tc main_arg0) := (seg7_keep_arg0 (W7 w)).trans (W7_arg0 w)
theorem W8_arg1 (w : Valuation τ sig (Elt F)) : W8 w (Proc.devRef .tc main_arg1) = w (Proc.devRef .tc main_arg1) := (seg7_keep_arg1 (W7 w)).trans (W7_arg1 w)
theorem W8_arg2 (w : Valuation τ sig (Elt F)) : W8 w (Proc.devRef .tc main_arg2) = w (Proc.devRef .tc main_arg2) := (seg7_keep_arg2 (W7 w)).trans (W7_arg2 w)
theorem W8_arg3 (w : Valuation τ sig (Elt F)) : W8 w (Proc.devRef .tc main_arg3) = w (Proc.devRef .tc main_arg3) := (seg7_keep_arg3 (W7 w)).trans (W7_arg3 w)
theorem W8_arg4 (w : Valuation τ sig (Elt F)) : W8 w (Proc.devRef .tc main_arg4) = w (Proc.devRef .tc main_arg4) := (seg7_keep_arg4 (W7 w)).trans (W7_arg4 w)
theorem W8_arg5 (w : Valuation τ sig (Elt F)) : W8 w (Proc.devRef .tc main_arg5) = w (Proc.devRef .tc main_arg5) := (seg7_keep_arg5 (W7 w)).trans (W7_arg5 w)
theorem W8_arg6 (w : Valuation τ sig (Elt F)) : W8 w (Proc.devRef .tc main_arg6) = w (Proc.devRef .tc main_arg6) := (seg7_keep_arg6 (W7 w)).trans (W7_arg6 w)
theorem W8_arg7 (w : Valuation τ sig (Elt F)) : W8 w (Proc.devRef .tc main_arg7) = w (Proc.devRef .tc main_arg7) := (seg7_keep_arg7 (W7 w)).trans (W7_arg7 w)
theorem W8_arg8 (w : Valuation τ sig (Elt F)) : W8 w (Proc.devRef .tc main_arg8) = w (Proc.devRef .tc main_arg8) := (seg7_keep_arg8 (W7 w)).trans (W7_arg8 w)
theorem W8_arg9 (w : Valuation τ sig (Elt F)) : W8 w (Proc.devRef .tc main_arg9) = w (Proc.devRef .tc main_arg9) := (seg7_keep_arg9 (W7 w)).trans (W7_arg9 w)
theorem W8_arg10 (w : Valuation τ sig (Elt F)) : W8 w (Proc.devRef .tc main_arg10) = w (Proc.devRef .tc main_arg10) := (seg7_keep_arg10 (W7 w)).trans (W7_arg10 w)
theorem W8_arg11 (w : Valuation τ sig (Elt F)) : W8 w (Proc.devRef .tc main_arg11) = w (Proc.devRef .tc main_arg11) := (seg7_keep_arg11 (W7 w)).trans (W7_arg11 w)
theorem W8_arg12 (w : Valuation τ sig (Elt F)) : W8 w (Proc.devRef .tc main_arg12) = w (Proc.devRef .tc main_arg12) := (seg7_keep_arg12 (W7 w)).trans (W7_arg12 w)

theorem W9_v160 (w : Valuation τ sig (Elt F)) : (W9 w (Proc.devRef .tc main_v160) : S2x65536x64.Idx → Elt F .f32) = val_main_v160 (F := F) (w (Proc.devRef .tc main_arg0)) (w (Proc.devRef .tc main_arg1)) (w (Proc.devRef .tc main_arg2)) := by
  have h := seg8_v160 (W8 w)
  rw [W8_arg0 w, W8_arg1 w, W8_arg2 w, set_self main_call17_v5 _ _ (W8 w) (W8_call17_v5 w), set_self main_v157 _ _ (W8 w) (W8_v157 w)] at h
  exact h
theorem W9_v1 (w : Valuation τ sig (Elt F)) : (W9 w (Proc.devRef .tc main_v1) : S_.Idx → Elt F .f32) = val_main_v1 (F := F) (w (Proc.devRef .tc main_arg2)) := (seg8_keep_v1 (W8 w)).trans (W8_v1 w)
theorem W9_v54 (w : Valuation τ sig (Elt F)) : (W9 w (Proc.devRef .tc main_v54) : S2x65536x64.Idx → Elt F .f32) = val_main_v54 (F := F) (w (Proc.devRef .tc main_arg0)) (w (Proc.devRef .tc main_arg1)) (w (Proc.devRef .tc main_arg2)) := (seg8_keep_v54 (W8 w)).trans (W8_v54 w)
theorem W9_v107 (w : Valuation τ sig (Elt F)) : (W9 w (Proc.devRef .tc main_v107) : S2x65536x64.Idx → Elt F .f32) = val_main_v107 (F := F) (w (Proc.devRef .tc main_arg0)) (w (Proc.devRef .tc main_arg1)) (w (Proc.devRef .tc main_arg2)) := (seg8_keep_v107 (W8 w)).trans (W8_v107 w)
theorem W9_arg0 (w : Valuation τ sig (Elt F)) : W9 w (Proc.devRef .tc main_arg0) = w (Proc.devRef .tc main_arg0) := (seg8_keep_arg0 (W8 w)).trans (W8_arg0 w)
theorem W9_arg1 (w : Valuation τ sig (Elt F)) : W9 w (Proc.devRef .tc main_arg1) = w (Proc.devRef .tc main_arg1) := (seg8_keep_arg1 (W8 w)).trans (W8_arg1 w)
theorem W9_arg2 (w : Valuation τ sig (Elt F)) : W9 w (Proc.devRef .tc main_arg2) = w (Proc.devRef .tc main_arg2) := (seg8_keep_arg2 (W8 w)).trans (W8_arg2 w)
theorem W9_arg3 (w : Valuation τ sig (Elt F)) : W9 w (Proc.devRef .tc main_arg3) = w (Proc.devRef .tc main_arg3) := (seg8_keep_arg3 (W8 w)).trans (W8_arg3 w)
theorem W9_arg4 (w : Valuation τ sig (Elt F)) : W9 w (Proc.devRef .tc main_arg4) = w (Proc.devRef .tc main_arg4) := (seg8_keep_arg4 (W8 w)).trans (W8_arg4 w)
theorem W9_arg5 (w : Valuation τ sig (Elt F)) : W9 w (Proc.devRef .tc main_arg5) = w (Proc.devRef .tc main_arg5) := (seg8_keep_arg5 (W8 w)).trans (W8_arg5 w)
theorem W9_arg6 (w : Valuation τ sig (Elt F)) : W9 w (Proc.devRef .tc main_arg6) = w (Proc.devRef .tc main_arg6) := (seg8_keep_arg6 (W8 w)).trans (W8_arg6 w)
theorem W9_arg7 (w : Valuation τ sig (Elt F)) : W9 w (Proc.devRef .tc main_arg7) = w (Proc.devRef .tc main_arg7) := (seg8_keep_arg7 (W8 w)).trans (W8_arg7 w)
theorem W9_arg8 (w : Valuation τ sig (Elt F)) : W9 w (Proc.devRef .tc main_arg8) = w (Proc.devRef .tc main_arg8) := (seg8_keep_arg8 (W8 w)).trans (W8_arg8 w)
theorem W9_arg9 (w : Valuation τ sig (Elt F)) : W9 w (Proc.devRef .tc main_arg9) = w (Proc.devRef .tc main_arg9) := (seg8_keep_arg9 (W8 w)).trans (W8_arg9 w)
theorem W9_arg10 (w : Valuation τ sig (Elt F)) : W9 w (Proc.devRef .tc main_arg10) = w (Proc.devRef .tc main_arg10) := (seg8_keep_arg10 (W8 w)).trans (W8_arg10 w)
theorem W9_arg11 (w : Valuation τ sig (Elt F)) : W9 w (Proc.devRef .tc main_arg11) = w (Proc.devRef .tc main_arg11) := (seg8_keep_arg11 (W8 w)).trans (W8_arg11 w)
theorem W9_arg12 (w : Valuation τ sig (Elt F)) : W9 w (Proc.devRef .tc main_arg12) = w (Proc.devRef .tc main_arg12) := (seg8_keep_arg12 (W8 w)).trans (W8_arg12 w)

theorem W10_v210 (w : Valuation τ sig (Elt F)) : (W10 w (Proc.devRef .tc main_v210) : S2x64x65536.Idx → Elt F .f32) = val_main_v210 (F := F) (w (Proc.devRef .tc main_arg0)) := by
  have h := seg9_v210 (W9 w)
  rw [W9_arg0 w, W9_arg2 w, set_self main_v1 _ _ (W9 w) (W9_v1 w)] at h
  exact h
theorem W10_v211 (w : Valuation τ sig (Elt F)) : (W10 w (Proc.devRef .tc main_v211) : S2x1x65536.Idx → Elt F .i32) = val_main_v211 (F := F) (w (Proc.devRef .tc main_arg1)) (w (Proc.devRef .tc main_arg2)) := by
  have h := seg9_v211 (W9 w)
  rw [W9_arg1 w, W9_arg2 w, set_self main_v1 _ _ (W9 w) (W9_v1 w)] at h
  exact h
theorem W10_v54 (w : Valuation τ sig (Elt F)) : (W10 w (Proc.devRef .tc main_v54) : S2x65536x64.Idx → Elt F .f32) = val_main_v54 (F := F) (w (Proc.devRef .tc main_arg0)) (w (Proc.devRef .tc main_arg1)) (w (Proc.devRef .tc main_arg2)) := (seg9_keep_v54 (W9 w)).trans (W9_v54 w)
theorem W10_v107 (w : Valuation τ sig (Elt F)) : (W10 w (Proc.devRef .tc main_v107) : S2x65536x64.Idx → Elt F .f32) = val_main_v107 (F := F) (w (Proc.devRef .tc main_arg0)) (w (Proc.devRef .tc main_arg1)) (w (Proc.devRef .tc main_arg2)) := (seg9_keep_v107 (W9 w)).trans (W9_v107 w)
theorem W10_v160 (w : Valuation τ sig (Elt F)) : (W10 w (Proc.devRef .tc main_v160) : S2x65536x64.Idx → Elt F .f32) = val_main_v160 (F := F) (w (Proc.devRef .tc main_arg0)) (w (Proc.devRef .tc main_arg1)) (w (Proc.devRef .tc main_arg2)) := (seg9_keep_v160 (W9 w)).trans (W9_v160 w)
theorem W10_arg0 (w : Valuation τ sig (Elt F)) : W10 w (Proc.devRef .tc main_arg0) = w (Proc.devRef .tc main_arg0) := (seg9_keep_arg0 (W9 w)).trans (W9_arg0 w)
theorem W10_arg1 (w : Valuation τ sig (Elt F)) : W10 w (Proc.devRef .tc main_arg1) = w (Proc.devRef .tc main_arg1) := (seg9_keep_arg1 (W9 w)).trans (W9_arg1 w)
theorem W10_arg2 (w : Valuation τ sig (Elt F)) : W10 w (Proc.devRef .tc main_arg2) = w (Proc.devRef .tc main_arg2) := (seg9_keep_arg2 (W9 w)).trans (W9_arg2 w)
theorem W10_arg3 (w : Valuation τ sig (Elt F)) : W10 w (Proc.devRef .tc main_arg3) = w (Proc.devRef .tc main_arg3) := (seg9_keep_arg3 (W9 w)).trans (W9_arg3 w)
theorem W10_arg4 (w : Valuation τ sig (Elt F)) : W10 w (Proc.devRef .tc main_arg4) = w (Proc.devRef .tc main_arg4) := (seg9_keep_arg4 (W9 w)).trans (W9_arg4 w)
theorem W10_arg5 (w : Valuation τ sig (Elt F)) : W10 w (Proc.devRef .tc main_arg5) = w (Proc.devRef .tc main_arg5) := (seg9_keep_arg5 (W9 w)).trans (W9_arg5 w)
theorem W10_arg6 (w : Valuation τ sig (Elt F)) : W10 w (Proc.devRef .tc main_arg6) = w (Proc.devRef .tc main_arg6) := (seg9_keep_arg6 (W9 w)).trans (W9_arg6 w)
theorem W10_arg7 (w : Valuation τ sig (Elt F)) : W10 w (Proc.devRef .tc main_arg7) = w (Proc.devRef .tc main_arg7) := (seg9_keep_arg7 (W9 w)).trans (W9_arg7 w)
theorem W10_arg8 (w : Valuation τ sig (Elt F)) : W10 w (Proc.devRef .tc main_arg8) = w (Proc.devRef .tc main_arg8) := (seg9_keep_arg8 (W9 w)).trans (W9_arg8 w)
theorem W10_arg9 (w : Valuation τ sig (Elt F)) : W10 w (Proc.devRef .tc main_arg9) = w (Proc.devRef .tc main_arg9) := (seg9_keep_arg9 (W9 w)).trans (W9_arg9 w)
theorem W10_arg10 (w : Valuation τ sig (Elt F)) : W10 w (Proc.devRef .tc main_arg10) = w (Proc.devRef .tc main_arg10) := (seg9_keep_arg10 (W9 w)).trans (W9_arg10 w)
theorem W10_arg11 (w : Valuation τ sig (Elt F)) : W10 w (Proc.devRef .tc main_arg11) = w (Proc.devRef .tc main_arg11) := (seg9_keep_arg11 (W9 w)).trans (W9_arg11 w)
theorem W10_arg12 (w : Valuation τ sig (Elt F)) : W10 w (Proc.devRef .tc main_arg12) = w (Proc.devRef .tc main_arg12) := (seg9_keep_arg12 (W9 w)).trans (W9_arg12 w)

theorem W11_call23_v5 (w : Valuation τ sig (Elt F)) : (W11 w (Proc.devRef .tc main_call23_v5) : S2x65536x1.Idx → Elt F .i32) = val_main_call23_v5 (F := F) (w (Proc.devRef .tc main_arg1)) (w (Proc.devRef .tc main_arg2)) := by
  have h := seg10_call23_v5 (W10 w)
  rw [W10_arg1 w, W10_arg2 w, set_self main_v211 _ _ (W10 w) (W10_v211 w)] at h
  exact h
theorem W11_v210 (w : Valuation τ sig (Elt F)) : (W11 w (Proc.devRef .tc main_v210) : S2x64x65536.Idx → Elt F .f32) = val_main_v210 (F := F) (w (Proc.devRef .tc main_arg0)) := (seg10_keep_v210 (W10 w)).trans (W10_v210 w)
theorem W11_v54 (w : Valuation τ sig (Elt F)) : (W11 w (Proc.devRef .tc main_v54) : S2x65536x64.Idx → Elt F .f32) = val_main_v54 (F := F) (w (Proc.devRef .tc main_arg0)) (w (Proc.devRef .tc main_arg1)) (w (Proc.devRef .tc main_arg2)) := (seg10_keep_v54 (W10 w)).trans (W10_v54 w)
theorem W11_v107 (w : Valuation τ sig (Elt F)) : (W11 w (Proc.devRef .tc main_v107) : S2x65536x64.Idx → Elt F .f32) = val_main_v107 (F := F) (w (Proc.devRef .tc main_arg0)) (w (Proc.devRef .tc main_arg1)) (w (Proc.devRef .tc main_arg2)) := (seg10_keep_v107 (W10 w)).trans (W10_v107 w)
theorem W11_v160 (w : Valuation τ sig (Elt F)) : (W11 w (Proc.devRef .tc main_v160) : S2x65536x64.Idx → Elt F .f32) = val_main_v160 (F := F) (w (Proc.devRef .tc main_arg0)) (w (Proc.devRef .tc main_arg1)) (w (Proc.devRef .tc main_arg2)) := (seg10_keep_v160 (W10 w)).trans (W10_v160 w)
theorem W11_arg0 (w : Valuation τ sig (Elt F)) : W11 w (Proc.devRef .tc main_arg0) = w (Proc.devRef .tc main_arg0) := (seg10_keep_arg0 (W10 w)).trans (W10_arg0 w)
theorem W11_arg1 (w : Valuation τ sig (Elt F)) : W11 w (Proc.devRef .tc main_arg1) = w (Proc.devRef .tc main_arg1) := (seg10_keep_arg1 (W10 w)).trans (W10_arg1 w)
theorem W11_arg2 (w : Valuation τ sig (Elt F)) : W11 w (Proc.devRef .tc main_arg2) = w (Proc.devRef .tc main_arg2) := (seg10_keep_arg2 (W10 w)).trans (W10_arg2 w)
theorem W11_arg3 (w : Valuation τ sig (Elt F)) : W11 w (Proc.devRef .tc main_arg3) = w (Proc.devRef .tc main_arg3) := (seg10_keep_arg3 (W10 w)).trans (W10_arg3 w)
theorem W11_arg4 (w : Valuation τ sig (Elt F)) : W11 w (Proc.devRef .tc main_arg4) = w (Proc.devRef .tc main_arg4) := (seg10_keep_arg4 (W10 w)).trans (W10_arg4 w)
theorem W11_arg5 (w : Valuation τ sig (Elt F)) : W11 w (Proc.devRef .tc main_arg5) = w (Proc.devRef .tc main_arg5) := (seg10_keep_arg5 (W10 w)).trans (W10_arg5 w)
theorem W11_arg6 (w : Valuation τ sig (Elt F)) : W11 w (Proc.devRef .tc main_arg6) = w (Proc.devRef .tc main_arg6) := (seg10_keep_arg6 (W10 w)).trans (W10_arg6 w)
theorem W11_arg7 (w : Valuation τ sig (Elt F)) : W11 w (Proc.devRef .tc main_arg7) = w (Proc.devRef .tc main_arg7) := (seg10_keep_arg7 (W10 w)).trans (W10_arg7 w)
theorem W11_arg8 (w : Valuation τ sig (Elt F)) : W11 w (Proc.devRef .tc main_arg8) = w (Proc.devRef .tc main_arg8) := (seg10_keep_arg8 (W10 w)).trans (W10_arg8 w)
theorem W11_arg9 (w : Valuation τ sig (Elt F)) : W11 w (Proc.devRef .tc main_arg9) = w (Proc.devRef .tc main_arg9) := (seg10_keep_arg9 (W10 w)).trans (W10_arg9 w)
theorem W11_arg10 (w : Valuation τ sig (Elt F)) : W11 w (Proc.devRef .tc main_arg10) = w (Proc.devRef .tc main_arg10) := (seg10_keep_arg10 (W10 w)).trans (W10_arg10 w)
theorem W11_arg11 (w : Valuation τ sig (Elt F)) : W11 w (Proc.devRef .tc main_arg11) = w (Proc.devRef .tc main_arg11) := (seg10_keep_arg11 (W10 w)).trans (W10_arg11 w)
theorem W11_arg12 (w : Valuation τ sig (Elt F)) : W11 w (Proc.devRef .tc main_arg12) = w (Proc.devRef .tc main_arg12) := (seg10_keep_arg12 (W10 w)).trans (W10_arg12 w)

theorem W12_v214 (w : Valuation τ sig (Elt F)) : (W12 w (Proc.devRef .tc main_v214) : S2x65536x256.Idx → Elt F .f32) = val_main_v214 (F := F) (w (Proc.devRef .tc main_arg0)) (w (Proc.devRef .tc main_arg1)) (w (Proc.devRef .tc main_arg2)) := by
  have h := seg11_v214 (W11 w)
  rw [W11_arg0 w, W11_arg1 w, W11_arg2 w, set_self main_call23_v5 _ _ (W11 w) (W11_call23_v5 w), set_self main_v210 _ _ (W11 w) (W11_v210 w), set_self main_v54 _ _ (W11 w) (W11_v54 w), set_self main_v107 _ _ (W11 w) (W11_v107 w), set_self main_v160 _ _ (W11 w) (W11_v160 w)] at h
  exact h
theorem W12_arg0 (w : Valuation τ sig (Elt F)) : W12 w (Proc.devRef .tc main_arg0) = w (Proc.devRef .tc main_arg0) := (seg11_keep_arg0 (W11 w)).trans (W11_arg0 w)
theorem W12_arg1 (w : Valuation τ sig (Elt F)) : W12 w (Proc.devRef .tc main_arg1) = w (Proc.devRef .tc main_arg1) := (seg11_keep_arg1 (W11 w)).trans (W11_arg1 w)
theorem W12_arg2 (w : Valuation τ sig (Elt F)) : W12 w (Proc.devRef .tc main_arg2) = w (Proc.devRef .tc main_arg2) := (seg11_keep_arg2 (W11 w)).trans (W11_arg2 w)
theorem W12_arg3 (w : Valuation τ sig (Elt F)) : W12 w (Proc.devRef .tc main_arg3) = w (Proc.devRef .tc main_arg3) := (seg11_keep_arg3 (W11 w)).trans (W11_arg3 w)
theorem W12_arg4 (w : Valuation τ sig (Elt F)) : W12 w (Proc.devRef .tc main_arg4) = w (Proc.devRef .tc main_arg4) := (seg11_keep_arg4 (W11 w)).trans (W11_arg4 w)
theorem W12_arg5 (w : Valuation τ sig (Elt F)) : W12 w (Proc.devRef .tc main_arg5) = w (Proc.devRef .tc main_arg5) := (seg11_keep_arg5 (W11 w)).trans (W11_arg5 w)
theorem W12_arg6 (w : Valuation τ sig (Elt F)) : W12 w (Proc.devRef .tc main_arg6) = w (Proc.devRef .tc main_arg6) := (seg11_keep_arg6 (W11 w)).trans (W11_arg6 w)
theorem W12_arg7 (w : Valuation τ sig (Elt F)) : W12 w (Proc.devRef .tc main_arg7) = w (Proc.devRef .tc main_arg7) := (seg11_keep_arg7 (W11 w)).trans (W11_arg7 w)
theorem W12_arg8 (w : Valuation τ sig (Elt F)) : W12 w (Proc.devRef .tc main_arg8) = w (Proc.devRef .tc main_arg8) := (seg11_keep_arg8 (W11 w)).trans (W11_arg8 w)
theorem W12_arg9 (w : Valuation τ sig (Elt F)) : W12 w (Proc.devRef .tc main_arg9) = w (Proc.devRef .tc main_arg9) := (seg11_keep_arg9 (W11 w)).trans (W11_arg9 w)
theorem W12_arg10 (w : Valuation τ sig (Elt F)) : W12 w (Proc.devRef .tc main_arg10) = w (Proc.devRef .tc main_arg10) := (seg11_keep_arg10 (W11 w)).trans (W11_arg10 w)
theorem W12_arg11 (w : Valuation τ sig (Elt F)) : W12 w (Proc.devRef .tc main_arg11) = w (Proc.devRef .tc main_arg11) := (seg11_keep_arg11 (W11 w)).trans (W11_arg11 w)
theorem W12_arg12 (w : Valuation τ sig (Elt F)) : W12 w (Proc.devRef .tc main_arg12) = w (Proc.devRef .tc main_arg12) := (seg11_keep_arg12 (W11 w)).trans (W11_arg12 w)

theorem W13_v215 (w : Valuation τ sig (Elt F)) : (W13 w (Proc.devRef .tc main_v215) : S2x64x258x258.Idx → Elt F .f32) = val_main_v215 (F := F) (w (Proc.devRef .tc main_arg0)) := by
  have h := seg12a_v215 (W12 w)
  rw [W12_arg0 w] at h
  exact h
theorem W13_v214 (w : Valuation τ sig (Elt F)) : (W13 w (Proc.devRef .tc main_v214) : S2x65536x256.Idx → Elt F .f32) = val_main_v214 (F := F) (w (Proc.devRef .tc main_arg0)) (w (Proc.devRef .tc main_arg1)) (w (Proc.devRef .tc main_arg2)) := (seg12a_keep_v214 (W12 w)).trans (W12_v214 w)
theorem W13_arg0 (w : Valuation τ sig (Elt F)) : W13 w (Proc.devRef .tc main_arg0) = w (Proc.devRef .tc main_arg0) := (seg12a_keep_arg0 (W12 w)).trans (W12_arg0 w)
theorem W13_arg1 (w : Valuation τ sig (Elt F)) : W13 w (Proc.devRef .tc main_arg1) = w (Proc.devRef .tc main_arg1) := (seg12a_keep_arg1 (W12 w)).trans (W12_arg1 w)
theorem W13_arg2 (w : Valuation τ sig (Elt F)) : W13 w (Proc.devRef .tc main_arg2) = w (Proc.devRef .tc main_arg2) := (seg12a_keep_arg2 (W12 w)).trans (W12_arg2 w)
theorem W13_arg3 (w : Valuation τ sig (Elt F)) : W13 w (Proc.devRef .tc main_arg3) = w (Proc.devRef .tc main_arg3) := (seg12a_keep_arg3 (W12 w)).trans (W12_arg3 w)
theorem W13_arg4 (w : Valuation τ sig (Elt F)) : W13 w (Proc.devRef .tc main_arg4) = w (Proc.devRef .tc main_arg4) := (seg12a_keep_arg4 (W12 w)).trans (W12_arg4 w)
theorem W13_arg5 (w : Valuation τ sig (Elt F)) : W13 w (Proc.devRef .tc main_arg5) = w (Proc.devRef .tc main_arg5) := (seg12a_keep_arg5 (W12 w)).trans (W12_arg5 w)
theorem W13_arg6 (w : Valuation τ sig (Elt F)) : W13 w (Proc.devRef .tc main_arg6) = w (Proc.devRef .tc main_arg6) := (seg12a_keep_arg6 (W12 w)).trans (W12_arg6 w)
theorem W13_arg7 (w : Valuation τ sig (Elt F)) : W13 w (Proc.devRef .tc main_arg7) = w (Proc.devRef .tc main_arg7) := (seg12a_keep_arg7 (W12 w)).trans (W12_arg7 w)
theorem W13_arg8 (w : Valuation τ sig (Elt F)) : W13 w (Proc.devRef .tc main_arg8) = w (Proc.devRef .tc main_arg8) := (seg12a_keep_arg8 (W12 w)).trans (W12_arg8 w)
theorem W13_arg9 (w : Valuation τ sig (Elt F)) : W13 w (Proc.devRef .tc main_arg9) = w (Proc.devRef .tc main_arg9) := (seg12a_keep_arg9 (W12 w)).trans (W12_arg9 w)
theorem W13_arg10 (w : Valuation τ sig (Elt F)) : W13 w (Proc.devRef .tc main_arg10) = w (Proc.devRef .tc main_arg10) := (seg12a_keep_arg10 (W12 w)).trans (W12_arg10 w)
theorem W13_arg11 (w : Valuation τ sig (Elt F)) : W13 w (Proc.devRef .tc main_arg11) = w (Proc.devRef .tc main_arg11) := (seg12a_keep_arg11 (W12 w)).trans (W12_arg11 w)
theorem W13_arg12 (w : Valuation τ sig (Elt F)) : W13 w (Proc.devRef .tc main_arg12) = w (Proc.devRef .tc main_arg12) := (seg12a_keep_arg12 (W12 w)).trans (W12_arg12 w)

theorem W14_v234 (w : Valuation τ sig (Elt F)) : (W14 w (Proc.devRef .tc main_v234) : S2x64x9x256x256.Idx → Elt F .f32) = val_main_v234 (F := F) (w (Proc.devRef .tc main_arg0)) := by
  have h := seg12b_v234 (W13 w)
  rw [W13_arg0 w, set_self main_v215 _ _ (W13 w) (W13_v215 w)] at h
  exact h
theorem W14_v214 (w : Valuation τ sig (Elt F)) : (W14 w (Proc.devRef .tc main_v214) : S2x65536x256.Idx → Elt F .f32) = val_main_v214 (F := F) (w (Proc.devRef .tc main_arg0)) (w (Proc.devRef .tc main_arg1)) (w (Proc.devRef .tc main_arg2)) := (seg12b_keep_v214 (W13 w)).trans (W13_v214 w)
theorem W14_arg0 (w : Valuation τ sig (Elt F)) : W14 w (Proc.devRef .tc main_arg0) = w (Proc.devRef .tc main_arg0) := (seg12b_keep_arg0 (W13 w)).trans (W13_arg0 w)
theorem W14_arg1 (w : Valuation τ sig (Elt F)) : W14 w (Proc.devRef .tc main_arg1) = w (Proc.devRef .tc main_arg1) := (seg12b_keep_arg1 (W13 w)).trans (W13_arg1 w)
theorem W14_arg2 (w : Valuation τ sig (Elt F)) : W14 w (Proc.devRef .tc main_arg2) = w (Proc.devRef .tc main_arg2) := (seg12b_keep_arg2 (W13 w)).trans (W13_arg2 w)
theorem W14_arg3 (w : Valuation τ sig (Elt F)) : W14 w (Proc.devRef .tc main_arg3) = w (Proc.devRef .tc main_arg3) := (seg12b_keep_arg3 (W13 w)).trans (W13_arg3 w)
theorem W14_arg4 (w : Valuation τ sig (Elt F)) : W14 w (Proc.devRef .tc main_arg4) = w (Proc.devRef .tc main_arg4) := (seg12b_keep_arg4 (W13 w)).trans (W13_arg4 w)
theorem W14_arg5 (w : Valuation τ sig (Elt F)) : W14 w (Proc.devRef .tc main_arg5) = w (Proc.devRef .tc main_arg5) := (seg12b_keep_arg5 (W13 w)).trans (W13_arg5 w)
theorem W14_arg6 (w : Valuation τ sig (Elt F)) : W14 w (Proc.devRef .tc main_arg6) = w (Proc.devRef .tc main_arg6) := (seg12b_keep_arg6 (W13 w)).trans (W13_arg6 w)
theorem W14_arg7 (w : Valuation τ sig (Elt F)) : W14 w (Proc.devRef .tc main_arg7) = w (Proc.devRef .tc main_arg7) := (seg12b_keep_arg7 (W13 w)).trans (W13_arg7 w)
theorem W14_arg8 (w : Valuation τ sig (Elt F)) : W14 w (Proc.devRef .tc main_arg8) = w (Proc.devRef .tc main_arg8) := (seg12b_keep_arg8 (W13 w)).trans (W13_arg8 w)
theorem W14_arg9 (w : Valuation τ sig (Elt F)) : W14 w (Proc.devRef .tc main_arg9) = w (Proc.devRef .tc main_arg9) := (seg12b_keep_arg9 (W13 w)).trans (W13_arg9 w)
theorem W14_arg10 (w : Valuation τ sig (Elt F)) : W14 w (Proc.devRef .tc main_arg10) = w (Proc.devRef .tc main_arg10) := (seg12b_keep_arg10 (W13 w)).trans (W13_arg10 w)
theorem W14_arg11 (w : Valuation τ sig (Elt F)) : W14 w (Proc.devRef .tc main_arg11) = w (Proc.devRef .tc main_arg11) := (seg12b_keep_arg11 (W13 w)).trans (W13_arg11 w)
theorem W14_arg12 (w : Valuation τ sig (Elt F)) : W14 w (Proc.devRef .tc main_arg12) = w (Proc.devRef .tc main_arg12) := (seg12b_keep_arg12 (W13 w)).trans (W13_arg12 w)

theorem W15_v238 (w : Valuation τ sig (Elt F)) : (W15 w (Proc.devRef .tc main_v238) : S131072x833.Idx → Elt F .f32) = val_main_v238 (F := F) (w (Proc.devRef .tc main_arg0)) (w (Proc.devRef .tc main_arg1)) (w (Proc.devRef .tc main_arg2)) := by
  have h := seg12c_v238 (W14 w)
  rw [W14_arg0 w, W14_arg1 w, W14_arg2 w, set_self main_v234 _ _ (W14 w) (W14_v234 w), set_self main_v214 _ _ (W14 w) (W14_v214 w)] at h
  exact h
theorem W15_arg0 (w : Valuation τ sig (Elt F)) : W15 w (Proc.devRef .tc main_arg0) = w (Proc.devRef .tc main_arg0) := (seg12c_keep_arg0 (W14 w)).trans (W14_arg0 w)
theorem W15_arg1 (w : Valuation τ sig (Elt F)) : W15 w (Proc.devRef .tc main_arg1) = w (Proc.devRef .tc main_arg1) := (seg12c_keep_arg1 (W14 w)).trans (W14_arg1 w)
theorem W15_arg2 (w : Valuation τ sig (Elt F)) : W15 w (Proc.devRef .tc main_arg2) = w (Proc.devRef .tc main_arg2) := (seg12c_keep_arg2 (W14 w)).trans (W14_arg2 w)
theorem W15_arg3 (w : Valuation τ sig (Elt F)) : W15 w (Proc.devRef .tc main_arg3) = w (Proc.devRef .tc main_arg3) := (seg12c_keep_arg3 (W14 w)).trans (W14_arg3 w)
theorem W15_arg4 (w : Valuation τ sig (Elt F)) : W15 w (Proc.devRef .tc main_arg4) = w (Proc.devRef .tc main_arg4) := (seg12c_keep_arg4 (W14 w)).trans (W14_arg4 w)
theorem W15_arg5 (w : Valuation τ sig (Elt F)) : W15 w (Proc.devRef .tc main_arg5) = w (Proc.devRef .tc main_arg5) := (seg12c_keep_arg5 (W14 w)).trans (W14_arg5 w)
theorem W15_arg6 (w : Valuation τ sig (Elt F)) : W15 w (Proc.devRef .tc main_arg6) = w (Proc.devRef .tc main_arg6) := (seg12c_keep_arg6 (W14 w)).trans (W14_arg6 w)
theorem W15_arg7 (w : Valuation τ sig (Elt F)) : W15 w (Proc.devRef .tc main_arg7) = w (Proc.devRef .tc main_arg7) := (seg12c_keep_arg7 (W14 w)).trans (W14_arg7 w)
theorem W15_arg8 (w : Valuation τ sig (Elt F)) : W15 w (Proc.devRef .tc main_arg8) = w (Proc.devRef .tc main_arg8) := (seg12c_keep_arg8 (W14 w)).trans (W14_arg8 w)
theorem W15_arg9 (w : Valuation τ sig (Elt F)) : W15 w (Proc.devRef .tc main_arg9) = w (Proc.devRef .tc main_arg9) := (seg12c_keep_arg9 (W14 w)).trans (W14_arg9 w)
theorem W15_arg10 (w : Valuation τ sig (Elt F)) : W15 w (Proc.devRef .tc main_arg10) = w (Proc.devRef .tc main_arg10) := (seg12c_keep_arg10 (W14 w)).trans (W14_arg10 w)
theorem W15_arg11 (w : Valuation τ sig (Elt F)) : W15 w (Proc.devRef .tc main_arg11) = w (Proc.devRef .tc main_arg11) := (seg12c_keep_arg11 (W14 w)).trans (W14_arg11 w)
theorem W15_arg12 (w : Valuation τ sig (Elt F)) : W15 w (Proc.devRef .tc main_arg12) = w (Proc.devRef .tc main_arg12) := (seg12c_keep_arg12 (W14 w)).trans (W14_arg12 w)

theorem fold_w (w : Valuation τ sig (Elt F)) : (StableHlo.after (ops (F := F)) w (Proc.devRef .tc main_v263) : S2x65536x3.Idx → Elt F .f32) = val_main_v263 (F := F) (w (Proc.devRef .tc main_arg0)) (w (Proc.devRef .tc main_arg1)) (w (Proc.devRef .tc main_arg2)) (w (Proc.devRef .tc main_arg3)) (w (Proc.devRef .tc main_arg4)) (w (Proc.devRef .tc main_arg5)) (w (Proc.devRef .tc main_arg6)) (w (Proc.devRef .tc main_arg7)) (w (Proc.devRef .tc main_arg8)) (w (Proc.devRef .tc main_arg9)) (w (Proc.devRef .tc main_arg10)) (w (Proc.devRef .tc main_arg11)) (w (Proc.devRef .tc main_arg12)) := by
  have h := seg13_v263 (W15 w)
  rw [W15_arg0 w, W15_arg1 w, W15_arg2 w, W15_arg3 w, W15_arg4 w, W15_arg5 w, W15_arg6 w, W15_arg7 w, W15_arg8 w, W15_arg9 w, W15_arg10 w, W15_arg11 w, W15_arg12 w, set_self main_v238 _ _ (W15 w) (W15_v238 w)] at h
  rw [ops_eq, seg12_eq]
  simp only [StableHlo.after_append]
  exact h

/-- THE RESULT BUFFER after the reference's operations, from the launch memory: the last stage of the arguments. -/
theorem ref_fold (m : (ℓ : Loc nD τ sig) → Buf (Elt F) ℓ) (c : Dev nD) :
    StableHlo.after (ops (F := F)) (StableHlo.launchContents m c) (Proc.devRef .tc main_v263)
      = val_main_v263 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  fold_w (StableHlo.launchContents m c)

end Cert.ReferenceIdeal.RefFold

end
-- ==== Proof.RefRun.lean ====
/-
  The reference program's run.

  The reference's @main is a straight line of host operations on a signature that scopes nothing, so every weakly fair
  execution from zero counters terminates, and at the end each buffer holds the fold of the operations' results over
  its launch contents.  Read at the result buffer that fold is the program's last stage applied to the launch's
  arguments; read at an argument it is the argument's launch contents, since no operation writes an argument.
-/
import proofs.«145896_j91079076479405_1_alg».proof.Proof.RefArgs
import proofs.«145896_j91079076479405_1_alg».proof.Proof.RefRead
import proofs.«145896_j91079076479405_1_alg».proof.Proof.RefFold
import proofs.«145896_j91079076479405_1_alg».proof.Proof.RefMainEq
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

/-- The run of the reference program: every weakly fair execution from zero counters terminates with the result buffer at
    the last stage of the program read off the launch's arguments, and the thirteen arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v263)
        = ReadP.val_main_v263 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
      ⟨(h c main_v263).trans (RefFold.ref_fold m c),
        (h c main_arg0).trans (arg0_kept m c),
        (h c main_arg1).trans (arg1_kept m c),
        (h c main_arg2).trans (arg2_kept m c),
        (h c main_arg3).trans (arg3_kept m c),
        (h c main_arg4).trans (arg4_kept m c),
        (h c main_arg5).trans (arg5_kept m c),
        (h c main_arg6).trans (arg6_kept m c),
        (h c main_arg7).trans (arg7_kept m c),
        (h c main_arg8).trans (arg8_kept m c),
        (h c main_arg9).trans (arg9_kept m c),
        (h c main_arg10).trans (arg10_kept m c),
        (h c main_arg11).trans (arg11_kept m c),
        (h c main_arg12).trans (arg12_kept m c)⟩)
    (run_seq scopedRefs_eq scopedSems_eq defs main (fun _ => ops) main_eq (fun _ => ops_sub) m ρ
      (hfresh := fun _ => List.forall_iff_forall_mem.mp ops_fresh))

end Cert.ReferenceIdeal.ValueP

end
-- ==== Proof.KHeadSegs.lean ====
/-
  The host operations before the kernel region, cut into fourteen segments.

  The 475 operations build the [131072, 833] network input.  Each of the four nearest-neighbour gathers is cut in
  three (up to the flat index; the index's wrap-around; the gather itself with its mask and transposition), then come
  the concatenation with the 3×3 unfolding up to the input array, and last the reshapes of the biases.  The segments
  are the program's operations verbatim, in order (`pre_eq`).  `set_self`: setting a buffer to what it already holds
  changes nothing — how a segment's lemma is given the contents of the buffers it reads without a hypothesis.  The
  three- and nine-operand forms of an n-ary operation's result put each operand's contents at its own reference, so
  that a fold opened at a concatenation goes on into its operands.
-/
import proofs.«145896_j91079076479405_1_alg».proof.Proof.KEntry
import Idealize.ShloMosaic.Lib.StableHlo.Run
import Idealize.ShloMosaic.Lib.Pipeline.Regions

noncomputable section

namespace Cert.KHead

open Idealize.ShloMosaic Idealize.ShloMosaic.TcCoe Idealize.SL.Sem Idealize.ShloMosaic.StableHlo

section NaryLits
variable {τ' : Topo} {sig' : RefSig} {Val : EltTy → Type} {x a b y : Ref sig' .tc}

/-- `nary` over a literal family of three references: the result with each operand's contents at its own reference. -/
theorem nary3_result'
    (f : ((k : Fin 3) → ((![x, a, b] : Fin 3 → Ref sig' .tc) k).ty.Contents Val) → y.ty.Contents Val) (hxs hy)
    (G : Valuation τ' sig' Val) :
    (nary (τ := τ') ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

variable {r1 r2 r3 r4 r5 r6 r7 r8 r9 : Ref sig' .tc}
/-- `nary` over a literal family of nine references. -/
theorem nary9_result'
    (f : ((k : Fin 9) → ((![r1, r2, r3, r4, r5, r6, r7, r8, r9] : Fin 9 → Ref sig' .tc) k).ty.Contents Val) → y.ty.Contents Val) (hxs hy)
    (G : Valuation τ' sig' Val) :
    (nary (τ := τ') ![r1, r2, r3, r4, r5, r6, r7, r8, r9] y f hxs hy).result G (no_index (Proc.devRef .tc y))
      = f (Fin.cons (G (Proc.devRef .tc r1)) (Fin.cons (G (Proc.devRef .tc r2)) (Fin.cons (G (Proc.devRef .tc r3)) (Fin.cons (G (Proc.devRef .tc r4)) (Fin.cons (G (Proc.devRef .tc r5)) (Fin.cons (G (Proc.devRef .tc r6)) (Fin.cons (G (Proc.devRef .tc r7)) (Fin.cons (G (Proc.devRef .tc r8)) (Fin.cons (G (Proc.devRef .tc r9)) (fun i => i.elim0)))))))))) := by
  rw [nary_result]; congr 1; funext k; fin_cases k <;> rfl
end NaryLits

/-- A fold's results by one simp pass, with the literal three-, four- and nine-operand forms of `nary`. -/
macro "khead_results" : tactic =>
  `(tactic| (simp (disch := decide) only [after_cons, after_nil,
      nullary_result', unary_result', binary_result', ternary_result', quaternary_result', reshape_result', nary4_result', nary3_result', nary9_result',
      nullary_result_ne', unary_result_ne', binary_result_ne', ternary_result_ne', quaternary_result_ne', reshape_result_ne',
      nary_result_ne']))

open Cert.KernelIdeal Cert.KernelIdeal.Gen Cert.KernelIdeal.Mlp

variable {F : FTy → Type} [FloatOps F]

/-- Setting a buffer to what it already holds changes nothing. -/
theorem set_self (y : Ref sig .tc) (v : y.ty.Contents (Elt F)) (hy) (w : Valuation τ sig (Elt F))
    (h : w (Proc.devRef .tc y) = v) : (StableHlo.nullary (τ := τ) y v hy).result w = w := by
  funext b
  by_cases hb : b ∈ (StableHlo.nullary (τ := τ) y v hy).writes
  · have e : b = Proc.devRef .tc y := Finset.mem_singleton.mp hb
    subst e
    exact (StableHlo.nullary_result y v hy w).trans h.symm
  · exact HloOp.result_of_not_mem _ w hb

/-! ## The segments -/

set_option maxHeartbeats 40000000 in
/-- Segment 0: the first gather branch up to its flat index (89 operations). -/
abbrev K0 : List (HloOp τ sig (Elt F)) :=
  [ StableHlo.unary main_arg2 main_v0 ((extractStridedSlice S1x1x1 ![0, 0, 0] · slices_S2x65536x1_S1x1x1_0_0_0) : (⟨S2x65536x1, .f32⟩ : BufTy).Contents (Elt F) → (⟨S1x1x1, .f32⟩ : BufTy).Contents (Elt F)),
    StableHlo.reshape main_v0 main_v1 rfl shapeCasts_S1x1x1_S_,
    StableHlo.reshape main_arg0 main_v2 rfl shapeCasts_S2x64x256x256_S2x64x65536,
    StableHlo.unary main_arg1 main_v3 ((extractStridedSlice S2x65536x1 ![0, 0, 0] · slices_S2x65536x2_S2x65536x1_0_0_0) : (⟨S2x65536x2, .f32⟩ : BufTy).Contents (Elt F) → (⟨S2x65536x1, .f32⟩ : BufTy).Contents (Elt F)),
    StableHlo.reshape main_v3 main_v4 rfl shapeCasts_S2x65536x1_S2x65536,
    StableHlo.nullary main_cst (constant S_ .f32 0xBF800000#32),
    StableHlo.binary main_cst main_v1 main_v5 (mulf : (⟨S_, .f32⟩ : BufTy).Contents (Elt F) → (⟨S_, .f32⟩ : BufTy).Contents (Elt F) → (⟨S_, .f32⟩ : BufTy).Contents (Elt F)),
    StableHlo.nullary main_cst_0 (constant S_ .f32 0x3B800000#32),
    StableHlo.binary main_v5 main_cst_0 main_v6 (mulf : (⟨S_, .f32⟩ : BufTy).Contents (Elt F) → (⟨S_, .f32⟩ : BufTy).Contents (Elt F) → (⟨S_, .f32⟩ : BufTy).Contents (Elt F)),
    StableHlo.unary main_v6 main_v7 (broadcastInDim S2x65536 ![] bcast_S_S2x65536 : (⟨S_, .f32⟩ : BufTy).Contents (Elt F) → (⟨S2x65536, .f32⟩ : BufTy).Contents (Elt F)),
    StableHlo.binary main_v4 main_v7 main_v8 (addf : (⟨S2x65536, .f32⟩ : BufTy).Contents (Elt F) → (⟨S2x65536, .f32⟩ : BufTy).Contents (Elt F) → (⟨S2x65536, .f32⟩ : BufTy).Contents (Elt F)),
    StableHlo.nullary main_cst_1 (constant S_ .f32 0x358637BD#32),
    StableHlo.unary main_cst_1 main_v9 (broadcastInDim S2x65536 ![] bcast_S_S2x65536 : (⟨S_, .f32⟩ : BufTy).Contents (Elt F) → (⟨S2x65536, .f32⟩ : BufTy).Contents (Elt F)),
    StableHlo.binary main_v8 main_v9 main_v10 (addf : (⟨S2x65536, .f32⟩ : BufTy).Contents (Elt F) → (⟨S2x65536, .f32⟩ : BufTy).Contents (Elt F) → (⟨S2x65536, .f32⟩ : BufTy).Contents (Elt F)),
    StableHlo.unary main_arg1 main_v11 ((extractStridedSlice S2x65536x1 ![0, 0, 1] · slices_S2x65536x2_S2x65536x1_0_0_1) : (⟨S2x65536x2, .f32⟩ : BufTy).Contents (Elt F) → (⟨S2x65536x1, .f32⟩ : BufTy).Contents (Elt F)),
    StableHlo.reshape main_v11 main_v12 rfl shapeCasts_S2x65536x1_S2x65536,
    StableHlo.nullary main_cst_2 (constant S_ .f32 0xBF800000#32),
    StableHlo.binary main_cst_2 main_v1 main_v13 (mulf : (⟨S_, .f32⟩ : BufTy).Contents (Elt F) → (⟨S_, .f32⟩ : BufTy).Contents (Elt F) → (⟨S_, .f32⟩ : BufTy).Contents (Elt F)),
    StableHlo.nullary main_cst_3 (constant S_ .f32 0x3B800000#32),
    StableHlo.binary main_v13 main_cst_3 main_v14 (mulf : (⟨S_, .f32⟩ : BufTy).Contents (Elt F) → (⟨S_, .f32⟩ : BufTy).Contents (Elt F) → (⟨S_, .f32⟩ : BufTy).Contents (Elt F)),
    StableHlo.unary main_v14 main_v15 (broadcastInDim S2x65536 ![] bcast_S_S2x65536 : (⟨S_, .f32⟩ : BufTy).Contents (Elt F) → (⟨S2x65536, .f32⟩ : BufTy).Contents (Elt F)),
    StableHlo.binary main_v12 main_v15 main_v16 (addf : (⟨S2x65536, .f32⟩ : BufTy).Contents (Elt F) → (⟨S2x65536, .f32⟩ : BufTy).Contents (Elt F) → (⟨S2x65536, .f32⟩ : BufTy).Contents (Elt F)),
    StableHlo.nullary main_cst_4 (constant S_ .f32 0x358637BD#32),
    StableHlo.unary main_cst_4 main_v17 (broadcastInDim S2x65536 ![] bcast_S_S2x65536 : (⟨S_, .f32⟩ : BufTy).Contents (Elt F) → (⟨S2x65536, .f32⟩ : BufTy).Contents (Elt F)),
    StableHlo.binary main_v16 main_v17 main_v18 (addf : (⟨S2x65536, .f32⟩ : BufTy).Contents (Elt F) → (⟨S2x65536, .f32⟩ : BufTy).Contents (Elt F) → (⟨S2x65536, .f32⟩ : BufTy).Contents (Elt F)),
    StableHlo.unary main_v10 main_v19 (broadcastInDim S2x65536x1 ![0, 1] bcast_S2x65536_S2x65536x1_0_1 : (⟨S2x65536, .f32⟩ : BufTy).Contents (Elt F) → (⟨S2x65536x1, .f32⟩ : BufTy).Contents (Elt F)),
    StableHlo.unary main_v18 main_v20 (broadcastInDim S2x65536x1 ![0, 1] bcast_S2x65536_S2x65536x1_0_1 : (⟨S2x65536, .f32⟩ : BufTy).Contents (Elt F) → (⟨S2x65536x1, .f32⟩ : BufTy).Contents (Elt F)),
    StableHlo.binary main_v19 main_v20 main_v21 ((fun a b => concatenate S2x65536x2 2 [⟨S2x65536x1, a⟩, ⟨S2x65536x1, b⟩] concatenates_S2x65536x1_S2x65536x1_S2x65536x2_d2) : (⟨S2x65536x1, .f32⟩ : BufTy).Contents (Elt F) → (⟨S2x65536x1, .f32⟩ : BufTy).Contents (Elt F) → (⟨S2x65536x2, .f32⟩ : BufTy).Contents (Elt F)),
    StableHlo.nullary main_cst_5 (constant S_ .f32 0xBF7FFFEF#32),
    StableHlo.nullary main_cst_6 (constant S_ .f32 0x3F7FFFEF#32),
    StableHlo.TRef.unary (.of main_cst_5 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S2x65536x2, .f32⟩) (broadcastInDim S2x65536x2 ![] bcast_S_S2x65536x2),
    StableHlo.TRef.binary (.of main_call0_v1 : StableHlo.TRef sig ⟨S2x65536x2, .f32⟩) (.of main_v21 : StableHlo.TRef sig ⟨S2x65536x2, .f32⟩) (.of main_call0_v2 : StableHlo.TRef sig ⟨S2x65536x2, .f32⟩) maximumf,
    StableHlo.TRef.unary (.of main_cst_6 : StableHlo.TRef sig ⟨S_, .f32⟩) (.of main_call0_v3 : StableHlo.TRef sig ⟨S_, .f32⟩) id,
    StableHlo.TRef.unary (.of main_call0_v3 : StableHlo.TRef sig ⟨S_, .f32⟩) (.of main_call0_v4 : StableHlo.TRef sig ⟨S2x65536x2, .f32⟩) (broadcastInDim S2x65536x2 ![] bcast_S_S2x65536x2),
    StableHlo.TRef.binary (.of main_call0_v4 : StableHlo.TRef sig ⟨S2x65536x2, .f32⟩) (.of main_call0_v2 : StableHlo.TRef sig ⟨S2x65536x2, .f32⟩) (.of main_v22 : StableHlo.TRef sig ⟨S2x65536x2, .f32⟩) minimumf,
    StableHlo.unary main_v22 main_v23 ((extractStridedSlice S2x65536x1 ![0, 0, 0] · slices_S2x65536x2_S2x65536x1_0_0_0) : (⟨S2x65536x2, .f32⟩ : BufTy).Contents (Elt F) → (⟨S2x65536x1, .f32⟩ : BufTy).Contents (Elt F)),
    StableHlo.reshape main_v23 main_v24 rfl shapeCasts_S2x65536x1_S2x65536,
    StableHlo.nullary main_cst_7 (constant S_ .f32 0x3F800000#32),
    StableHlo.unary main_cst_7 main_v25 (broadcastInDim S2x65536 ![] bcast_S_S2x65536 : (⟨S_, .f32⟩ : BufTy).Contents (Elt F) → (⟨S2x65536, .f32⟩ : BufTy).Contents (Elt F)),
    StableHlo.binary main_v24 main_v25 main_v26 (addf : (⟨S2x65536, .f32⟩ : BufTy).Contents (Elt F) → (⟨S2x65536, .f32⟩ : BufTy).Contents (Elt F) → (⟨S2x65536, .f32⟩ : BufTy).Contents (Elt F)),
    StableHlo.nullary main_cst_8 (constant S_ .f32 0x43800000#32),
    StableHlo.unary main_cst_8 main_v27 (broadcastInDim S2x65536 ![] bcast_S_S2x65536 : (⟨S_, .f32⟩ : BufTy).Contents (Elt F) → (⟨S2x65536, .f32⟩ : BufTy).Contents (Elt F)),
    StableHlo.binary main_v26 main_v27 main_v28 (mulf : (⟨S2x65536, .f32⟩ : BufTy).Contents (Elt F) → (⟨S2x65536, .f32⟩ : BufTy).Contents (Elt F) → (⟨S2x65536, .f32⟩ : BufTy).Contents (Elt F)),
    StableHlo.nullary main_cst_9 (constant S_ .f32 0x3F800000#32),
    StableHlo.unary main_cst_9 main_v29 (broadcastInDim S2x65536 ![] bcast_S_S2x65536 : (⟨S_, .f32⟩ : BufTy).Contents (Elt F) → (⟨S2x65536, .f32⟩ : BufTy).Contents (Elt F)),
    StableHlo.binary main_v28 main_v29 main_v30 (subf : (⟨S2x65536, .f32⟩ : BufTy).Contents (Elt F) → (⟨S2x65536, .f32⟩ : BufTy).Contents (Elt F) → (⟨S2x65536, .f32⟩ : BufTy).Contents (Elt F)),
    StableHlo.nullary main_cst_10 (constant S_ .f32 0x3F000000#32),
    StableHlo.unary main_cst_10 main_v31 (broadcastInDim S2x65536 ![] bcast_S_S2x65536 : (⟨S_, .f32⟩ : BufTy).Contents (Elt F) → (⟨S2x65536, .f32⟩ : BufTy).Contents (Elt F)),
    StableHlo.binary main_v30 main_v31 main_v32 (mulf : (⟨S2x65536, .f32⟩ : BufTy).Contents (Elt F) → (⟨S2x65536, .f32⟩ : BufTy).Contents (Elt F) → (⟨S2x65536, .f32⟩ : BufTy).Contents (Elt F)),
    StableHlo.TRef.unary (.of main_v32 : StableHlo.TRef sig ⟨S2x65536, .f32⟩) (.of main_v33 : StableHlo.TRef sig ⟨S2x65536, .f32⟩) Host.roundeven,
    StableHlo.nullary main_c (constantI S_ 32 0#32),
    StableHlo.nullary main_c_11 (constantI S_ 32 255#32),
    StableHlo.TRef.unary (.of main_c : StableHlo.TRef sig ⟨S_, .i32⟩) (.of main_call2_v0 : StableHlo.TRef sig ⟨S_, .f32⟩) (sitofp .f32),
    StableHlo.TRef.unary (.of main_call2_v0 : StableHlo.TRef sig ⟨S_, .f32⟩) (.of main_call2_v1 : StableHlo.TRef sig ⟨S2x65536, .f32⟩) (broadcastInDim S2x65536 ![] bcast_S_S2x65536),
    StableHlo.TRef.binary (.of main_call2_v1 : StableHlo.TRef sig ⟨S2x65536, .f32⟩) (.of main_v33 : StableHlo.TRef sig ⟨S2x65536, .f32⟩) (.of main_call2_v2 : StableHlo.TRef sig ⟨S2x65536, .f32⟩) maximumf,
    StableHlo.TRef.unary (.of main_c_11 : StableHlo.TRef sig ⟨S_, .i32⟩) (.of main_call2_v3 : StableHlo.TRef sig ⟨S_, .f32⟩) (sitofp .f32),
    StableHlo.TRef.unary (.of main_call2_v3 : StableHlo.TRef sig ⟨S_, .f32⟩) (.of main_call2_v4 : StableHlo.TRef sig ⟨S2x65536, .f32⟩) (broadcastInDim S2x65536 ![] bcast_S_S2x65536),
    StableHlo.TRef.binary (.of main_call2_v4 : StableHlo.TRef sig ⟨S2x65536, .f32⟩) (.of main_call2_v2 : StableHlo.TRef sig ⟨S2x65536, .f32⟩) (.of main_v34 : StableHlo.TRef sig ⟨S2x65536, .f32⟩) minimumf,
    StableHlo.unary main_v34 main_v35 (fptosi 32 : (⟨S2x65536, .f32⟩ : BufTy).Contents (Elt F) → (⟨S2x65536, .i32⟩ : BufTy).Contents (Elt F)),
    StableHlo.unary main_v22 main_v36 ((extractStridedSlice S2x65536x1 ![0, 0, 1] · slices_S2x65536x2_S2x65536x1_0_0_1) : (⟨S2x65536x2, .f32⟩ : BufTy).Contents (Elt F) → (⟨S2x65536x1, .f32⟩ : BufTy).Contents (Elt F)),
    StableHlo.reshape main_v36 main_v37 rfl shapeCasts_S2x65536x1_S2x65536,
    StableHlo.nullary main_cst_12 (constant S_ .f32 0x3F800000#32),
    StableHlo.unary main_cst_12 main_v38 (broadcastInDim S2x65536 ![] bcast_S_S2x65536 : (⟨S_, .f32⟩ : BufTy).Contents (Elt F) → (⟨S2x65536, .f32⟩ : BufTy).Contents (Elt F)),
    StableHlo.binary main_v37 main_v38 main_v39 (addf : (⟨S2x65536, .f32⟩ : BufTy).Contents (Elt F) → (⟨S2x65536, .f32⟩ : BufTy).Contents (Elt F) → (⟨S2x65536, .f32⟩ : BufTy).Contents (Elt F)),
    StableHlo.nullary main_cst_13 (constant S_ .f32 0x43800000#32),
    StableHlo.unary main_cst_13 main_v40 (broadcastInDim S2x65536 ![] bcast_S_S2x65536 : (⟨S_, .f32⟩ : BufTy).Contents (Elt F) → (⟨S2x65536, .f32⟩ : BufTy).Contents (Elt F)),
    StableHlo.binary main_v39 main_v40 main_v41 (mulf : (⟨S2x65536, .f32⟩ : BufTy).Contents (Elt F) → (⟨S2x65536, .f32⟩ : BufTy).Contents (Elt F) → (⟨S2x65536, .f32⟩ : BufTy).Contents (Elt F)),
    StableHlo.nullary main_cst_14 (constant S_ .f32 0x3F800000#32),
    StableHlo.unary main_cst_14 main_v42 (broadcastInDim S2x65536 ![] bcast_S_S2x65536 : (⟨S_, .f32⟩ : BufTy).Contents (Elt F) → (⟨S2x65536, .f32⟩ : BufTy).Contents (Elt F)),
    StableHlo.binary main_v41 main_v42 main_v43 (subf : (⟨S2x65536, .f32⟩ : BufTy).Contents (Elt F) → (⟨S2x65536, .f32⟩ : BufTy).Contents (Elt F) → (⟨S2x65536, .f32⟩ : BufTy).Contents (Elt F)),
    StableHlo.nullary main_cst_15 (constant S_ .f32 0x3F000000#32),
    StableHlo.unary main_cst_15 main_v44 (broadcastInDim S2x65536 ![] bcast_S_S2x65536 : (⟨S_, .f32⟩ : BufTy).Contents (Elt F) → (⟨S2x65536, .f32⟩ : BufTy).Contents (Elt F)),
    StableHlo.binary main_v43 main_v44 main_v45 (mulf : (⟨S2x65536, .f32⟩ : BufTy).Contents (Elt F) → (⟨S2x65536, .f32⟩ : BufTy).Contents (Elt F) → (⟨S2x65536, .f32⟩ : BufTy).Contents (Elt F)),
    StableHlo.TRef.unary (.of main_v45 : StableHlo.TRef sig ⟨S2x65536, .f32⟩) (.of main_v46 : StableHlo.TRef sig ⟨S2x65536, .f32⟩) Host.roundeven,
    StableHlo.nullary main_c_16 (constantI S_ 32 0#32),
    StableHlo.nullary main_c_17 (constantI S_ 32 255#32),
    StableHlo.TRef.unary (.of main_c_16 : StableHlo.TRef sig ⟨S_, .i32⟩) (.of main_call4_v0 : StableHlo.TRef sig ⟨S_, .f32⟩) (sitofp .f32),
    StableHlo.TRef.unary (.of main_call4_v0 : StableHlo.TRef sig ⟨S_, .f32⟩) (.of main_call4_v1 : StableHlo.TRef sig ⟨S2x65536, .f32⟩) (broadcastInDim S2x65536 ![] bcast_S_S2x65536),
    StableHlo.TRef.binary (.of main_call4_v1 : StableHlo.TRef sig ⟨S2x65536, .f32⟩) (.of main_v46 : StableHlo.TRef sig ⟨S2x65536, .f32⟩) (.of main_call4_v2 : StableHlo.TRef sig ⟨S2x65536, .f32⟩) maximumf,
    StableHlo.TRef.unary (.of main_c_17 : StableHlo.TRef sig ⟨S_, .i32⟩) (.of main_call4_v3 : StableHlo.TRef sig ⟨S_, .f32⟩) (sitofp .f32),
    StableHlo.TRef.unary (.of main_call4_v3 : StableHlo.TRef sig ⟨S_, .f32⟩) (.of main_call4_v4 : StableHlo.TRef sig ⟨S2x65536, .f32⟩) (broadcastInDim S2x65536 ![] bcast_S_S2x65536),
    StableHlo.TRef.binary (.of main_call4_v4 : StableHlo.TRef sig ⟨S2x65536, .f32⟩) (.of main_call4_v2 : StableHlo.TRef sig ⟨S2x65536, .f32⟩) (.of main_v47 : StableHlo.TRef sig ⟨S2x65536, .f32⟩) minimumf,
    StableHlo.unary main_v47 main_v48 (fptosi 32 : (⟨S2x65536, .f32⟩ : BufTy).Contents (Elt F) → (⟨S2x65536, .i32⟩ : BufTy).Contents (Elt F)),
    StableHlo.nullary main_c_18 (constantI S_ 32 256#32),
    StableHlo.unary main_c_18 main_v49 (broadcastInDim S2x65536 ![] bcast_S_S2x65536 : (⟨S_, .i32⟩ : BufTy).Contents (Elt F) → (⟨S2x65536, .i32⟩ : BufTy).Contents (Elt F)),
    StableHlo.binary main_v35 main_v49 main_v50 (muli : (⟨S2x65536, .i32⟩ : BufTy).Contents (Elt F) → (⟨S2x65536, .i32⟩ : BufTy).Contents (Elt F) → (⟨S2x65536, .i32⟩ : BufTy).Contents (Elt F)),
    StableHlo.binary main_v50 main_v48 main_v51 (addi : (⟨S2x65536, .i32⟩ : BufTy).Contents (Elt F) → (⟨S2x65536, .i32⟩ : BufTy).Contents (Elt F) → (⟨S2x65536, .i32⟩ : BufTy).Contents (Elt F)),
    StableHlo.unary main_v51 main_v52 (broadcastInDim S2x1x65536 ![0, 2] bcast_S2x65536_S2x1x65536_0_2 : (⟨S2x65536, .i32⟩ : BufTy).Contents (Elt F) → (⟨S2x1x65536, .i32⟩ : BufTy).Contents (Elt F)) ]

set_option maxHeartbeats 40000000 in
/-- Segment 1: the first gather's index wrap-around (8 operations). -/
abbrev K1 : List (HloOp τ sig (Elt F)) :=
  [ StableHlo.TRef.nullary (.of main_call5_c : StableHlo.TRef sig ⟨S_, .i32⟩) (constantI S_ 32 0#32),
    StableHlo.TRef.unary (.of main_call5_c : StableHlo.TRef sig ⟨S_, .i32⟩) (.of main_call5_v0 : StableHlo.TRef sig ⟨S2x1x65536, .i32⟩) (broadcastInDim S2x1x65536 ![] bcast_S_S2x1x65536),
    StableHlo.TRef.binary (.of main_v52 : StableHlo.TRef sig ⟨S2x1x65536, .i32⟩) (.of main_call5_v0 : StableHlo.TRef sig ⟨S2x1x65536, .i32⟩) (.of main_call5_v1 : StableHlo.TRef sig ⟨S2x1x65536, .i1⟩) (cmpi .slt),
    StableHlo.TRef.nullary (.of main_call5_c_0 : StableHlo.TRef sig ⟨S_, .i32⟩) (constantI S_ 32 65536#32),
    StableHlo.TRef.unary (.of main_call5_c_0 : StableHlo.TRef sig ⟨S_, .i32⟩) (.of main_call5_v2 : StableHlo.TRef sig ⟨S2x1x65536, .i32⟩) (broadcastInDim S2x1x65536 ![] bcast_S_S2x1x65536),
    StableHlo.TRef.binary (.of main_v52 : StableHlo.TRef sig ⟨S2x1x65536, .i32⟩) (.of main_call5_v2 : StableHlo.TRef sig ⟨S2x1x65536, .i32⟩) (.of main_call5_v3 : StableHlo.TRef sig ⟨S2x1x65536, .i32⟩) addi,
    StableHlo.TRef.ternary (.of main_call5_v1 : StableHlo.TRef sig ⟨S2x1x65536, .i1⟩) (.of main_call5_v3 : StableHlo.TRef sig ⟨S2x1x65536, .i32⟩) (.of main_v52 : StableHlo.TRef sig ⟨S2x1x65536, .i32⟩) (.of main_call5_v4 : StableHlo.TRef sig ⟨S2x1x65536, .i32⟩) select,
    StableHlo.TRef.reshape (.of main_call5_v4 : StableHlo.TRef sig ⟨S2x1x65536, .i32⟩) (.of main_call5_v5 : StableHlo.TRef sig ⟨S2x65536x1, .i32⟩) rfl shapeCasts_S2x1x65536_S2x65536x1 ]

set_option maxHeartbeats 40000000 in
/-- Segment 2: the first gather itself, its mask and transposition (16 operations). -/
abbrev K2 : List (HloOp τ sig (Elt F)) :=
  [ StableHlo.TRef.nullary (.of main_call5_c_1 : StableHlo.TRef sig ⟨S1, .i32⟩) (constantI S1 32 65535#32),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v6 : StableHlo.TRef sig ⟨S2x65536x1, .i32⟩) (broadcastInDim S2x65536x1 ![] bcast_S_S2x65536x1),
    StableHlo.TRef.binary (.of main_call5_v5 : StableHlo.TRef sig ⟨S2x65536x1, .i32⟩) (.of main_call5_v6 : StableHlo.TRef sig ⟨S2x65536x1, .i32⟩) (.of main_call5_v7 : StableHlo.TRef sig ⟨S2x65536x1, .i1⟩) (cmpi .sge),
    StableHlo.TRef.unary (.of main_call5_c_1 : StableHlo.TRef sig ⟨S1, .i32⟩) (.of main_call5_v8 : StableHlo.TRef sig ⟨S1x1x1, .i32⟩) (broadcastInDim S1x1x1 ![2] bcast_S1_S1x1x1_2),
    StableHlo.TRef.unary (.of main_call5_v8 : StableHlo.TRef sig ⟨S1x1x1, .i32⟩) (.of main_call5_v9 : StableHlo.TRef sig ⟨S2x65536x1, .i32⟩) (broadcastInDim S2x65536x1 ![0, 1, 2] bcast_S1x1x1_S2x65536x1_0_1_2),
    StableHlo.TRef.binary (.of main_call5_v5 : StableHlo.TRef sig ⟨S2x65536x1, .i32⟩) (.of main_call5_v9 : StableHlo.TRef sig ⟨S2x65536x1, .i32⟩) (.of main_call5_v10 : StableHlo.TRef sig ⟨S2x65536x1, .i1⟩) (cmpi .sle),
    StableHlo.TRef.binary (.of main_call5_v7 : StableHlo.TRef sig ⟨S2x65536x1, .i1⟩) (.of main_call5_v10 : StableHlo.TRef sig ⟨S2x65536x1, .i1⟩) (.of main_call5_v11 : StableHlo.TRef sig ⟨S2x65536x1, .i1⟩) andi,
    StableHlo.TRef.nullary (.of main_call5_c_3 : StableHlo.TRef sig ⟨S_, .i1⟩) (constantI S_ 1 1#1),
    StableHlo.TRef.binary (.of main_call5_v11 : StableHlo.TRef sig ⟨S2x65536x1, .i1⟩) (.of main_call5_c_3 : StableHlo.TRef sig ⟨S_, .i1⟩) (.of main_call5_v12 : StableHlo.TRef sig ⟨S2x65536, .i1⟩) (fun x v => Host.reduce IntOp.andi x v reducesTo_S2x65536x1_S2x65536_d2 h_S_),
    StableHlo.TRef.binary (.of main_v2 : StableHlo.TRef sig ⟨S2x64x65536, .f32⟩) (.of main_call5_v5 : StableHlo.TRef sig ⟨S2x65536x1, .i32⟩) (.of main_call5_v13 : StableHlo.TRef sig ⟨S2x64x65536, .f32⟩) (fun x i => Host.gather gather_S2x64x65536_S2x65536x1_S2x64x65536_1_2_0_0_2_2_1641 x i),
    StableHlo.TRef.unary (.of main_call5_v12 : StableHlo.TRef sig ⟨S2x65536, .i1⟩) (.of main_call5_v14 : StableHlo.TRef sig ⟨S2x64x65536, .i1⟩) (broadcastInDim S2x64x65536 ![0, 2] bcast_S2x65536_S2x64x65536_0_2),
    StableHlo.TRef.nullary (.of main_call5_cst : StableHlo.TRef sig ⟨S_, .f32⟩) (constant S_ .f32 0x7FC00000#32),
    StableHlo.TRef.unary (.of main_call5_cst : StableHlo.TRef sig ⟨S_, .f32⟩) (.of main_call5_v15 : StableHlo.TRef sig ⟨S2x64x65536, .f32⟩) (broadcastInDim S2x64x65536 ![] bcast_S_S2x64x65536),
    StableHlo.TRef.ternary (.of main_call5_v14 : StableHlo.TRef sig ⟨S2x64x65536, .i1⟩) (.of main_call5_v13 : StableHlo.TRef sig ⟨S2x64x65536, .f32⟩) (.of main_call5_v15 : StableHlo.TRef sig ⟨S2x64x65536, .f32⟩) (.of main_v53 : StableHlo.TRef sig ⟨S2x64x65536, .f32⟩) select,
    StableHlo.unary main_v53 main_v54 ((transpose S2x65536x64 [0, 2, 1] · transposes_S2x64x65536_S2x65536x64_0_2_1) : (⟨S2x64x65536, .f32⟩ : BufTy).Contents (Elt F) → (⟨S2x65536x64, .f32⟩ : BufTy).Contents (Elt F)) ]

set_option maxHeartbeats 40000000 in
/-- Segment 3: the second gather branch up to its flat index (86 operations). -/
abbrev K3 : List (HloOp τ sig (Elt F)) :=
  [ StableHlo.unary main_arg1 main_v55 ((extractStridedSlice S2x65536x1 ![0, 0, 0] · slices_S2x65536x2_S2x65536x1_0_0_0) : (⟨S2x65536x2, .f32⟩ : BufTy).Contents (Elt F) → (⟨S2x65536x1, .f32⟩ : BufTy).Contents (Elt F)),
    StableHlo.reshape main_v55 main_v56 rfl shapeCasts_S2x65536x1_S2x65536,
    StableHlo.nullary main_cst_19 (constant S_ .f32 0xBF800000#32),
    StableHlo.binary main_cst_19 main_v1 main_v57 (mulf : (⟨S_, .f32⟩ : BufTy).Contents (Elt F) → (⟨S_, .f32⟩ : BufTy).Contents (Elt F) → (⟨S_, .f32⟩ : BufTy).Contents (Elt F)),
    StableHlo.nullary main_cst_20 (constant S_ .f32 0x3B800000#32),
    StableHlo.binary main_v57 main_cst_20 main_v58 (mulf : (⟨S_, .f32⟩ : BufTy).Contents (Elt F) → (⟨S_, .f32⟩ : BufTy).Contents (Elt F) → (⟨S_, .f32⟩ : BufTy).Contents (Elt F)),
    StableHlo.unary main_v58 main_v59 (broadcastInDim S2x65536 ![] bcast_S_S2x65536 : (⟨S_, .f32⟩ : BufTy).Contents (Elt F) → (⟨S2x65536, .f32⟩ : BufTy).Contents (Elt F)),
    StableHlo.binary main_v56 main_v59 main_v60 (addf : (⟨S2x65536, .f32⟩ : BufTy).Contents (Elt F) → (⟨S2x65536, .f32⟩ : BufTy).Contents (Elt F) → (⟨S2x65536, .f32⟩ : BufTy).Contents (Elt F)),
    StableHlo.nullary main_cst_21 (constant S_ .f32 0x358637BD#32),
    StableHlo.unary main_cst_21 main_v61 (broadcastInDim S2x65536 ![] bcast_S_S2x65536 : (⟨S_, .f32⟩ : BufTy).Contents (Elt F) → (⟨S2x65536, .f32⟩ : BufTy).Contents (Elt F)),
    StableHlo.binary main_v60 main_v61 main_v62 (addf : (⟨S2x65536, .f32⟩ : BufTy).Contents (Elt F) → (⟨S2x65536, .f32⟩ : BufTy).Contents (Elt F) → (⟨S2x65536, .f32⟩ : BufTy).Contents (Elt F)),
    StableHlo.unary main_arg1 main_v63 ((extractStridedSlice S2x65536x1 ![0, 0, 1] · slices_S2x65536x2_S2x65536x1_0_0_1) : (⟨S2x65536x2, .f32⟩ : BufTy).Contents (Elt F) → (⟨S2x65536x1, .f32⟩ : BufTy).Contents (Elt F)),
    StableHlo.reshape main_v63 main_v64 rfl shapeCasts_S2x65536x1_S2x65536,
    StableHlo.nullary main_cst_22 (constant S_ .f32 0x3F800000#32),
    StableHlo.binary main_cst_22 main_v1 main_v65 (mulf : (⟨S_, .f32⟩ : BufTy).Contents (Elt F) → (⟨S_, .f32⟩ : BufTy).Contents (Elt F) → (⟨S_, .f32⟩ : BufTy).Contents (Elt F)),
    StableHlo.nullary main_cst_23 (constant S_ .f32 0x3B800000#32),
    StableHlo.binary main_v65 main_cst_23 main_v66 (mulf : (⟨S_, .f32⟩ : BufTy).Contents (Elt F) → (⟨S_, .f32⟩ : BufTy).Contents (Elt F) → (⟨S_, .f32⟩ : BufTy).Contents (Elt F)),
    StableHlo.unary main_v66 main_v67 (broadcastInDim S2x65536 ![] bcast_S_S2x65536 : (⟨S_, .f32⟩ : BufTy).Contents (Elt F) → (⟨S2x65536, .f32⟩ : BufTy).Contents (Elt F)),
    StableHlo.binary main_v64 main_v67 main_v68 (addf : (⟨S2x65536, .f32⟩ : BufTy).Contents (Elt F) → (⟨S2x65536, .f32⟩ : BufTy).Contents (Elt F) → (⟨S2x65536, .f32⟩ : BufTy).Contents (Elt F)),
    StableHlo.nullary main_cst_24 (constant S_ .f32 0x358637BD#32),
    StableHlo.unary main_cst_24 main_v69 (broadcastInDim S2x65536 ![] bcast_S_S2x65536 : (⟨S_, .f32⟩ : BufTy).Contents (Elt F) → (⟨S2x65536, .f32⟩ : BufTy).Contents (Elt F)),
    StableHlo.binary main_v68 main_v69 main_v70 (addf : (⟨S2x65536, .f32⟩ : BufTy).Contents (Elt F) → (⟨S2x65536, .f32⟩ : BufTy).Contents (Elt F) → (⟨S2x65536, .f32⟩ : BufTy).Contents (Elt F)),
    StableHlo.unary main_v62 main_v71 (broadcastInDim S2x65536x1 ![0, 1] bcast_S2x65536_S2x65536x1_0_1 : (⟨S2x65536, .f32⟩ : BufTy).Contents (Elt F) → (⟨S2x65536x1, .f32⟩ : BufTy).Contents (Elt F)),
    StableHlo.unary main_v70 main_v72 (broadcastInDim S2x65536x1 ![0, 1] bcast_S2x65536_S2x65536x1_0_1 : (⟨S2x65536, .f32⟩ : BufTy).Contents (Elt F) → (⟨S2x65536x1, .f32⟩ : BufTy).Contents (Elt F)),
    StableHlo.binary main_v71 main_v72 main_v73 ((fun a b => concatenate S2x65536x2 2 [⟨S2x65536x1, a⟩, ⟨S2x65536x1, b⟩] concatenates_S2x65536x1_S2x65536x1_S2x65536x2_d2) : (⟨S2x65536x1, .f32⟩ : BufTy).Contents (Elt F) → (⟨S2x65536x1, .f32⟩ : BufTy).Contents (Elt F) → (⟨S2x65536x2, .f32⟩ : BufTy).Contents (Elt F)),
    StableHlo.nullary main_cst_25 (constant S_ .f32 0xBF7FFFEF#32),
    StableHlo.nullary main_cst_26 (constant S_ .f32 0x3F7FFFEF#32),
    StableHlo.TRef.unary (.of main_cst_25 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S2x65536x2, .f32⟩) (broadcastInDim S2x65536x2 ![] bcast_S_S2x65536x2),
    StableHlo.TRef.binary (.of main_call6_v1 : StableHlo.TRef sig ⟨S2x65536x2, .f32⟩) (.of main_v73 : StableHlo.TRef sig ⟨S2x65536x2, .f32⟩) (.of main_call6_v2 : StableHlo.TRef sig ⟨S2x65536x2, .f32⟩) maximumf,
    StableHlo.TRef.unary (.of main_cst_26 : StableHlo.TRef sig ⟨S_, .f32⟩) (.of main_call6_v3 : StableHlo.TRef sig ⟨S_, .f32⟩) id,
    StableHlo.TRef.unary (.of main_call6_v3 : StableHlo.TRef sig ⟨S_, .f32⟩) (.of main_call6_v4 : StableHlo.TRef sig ⟨S2x65536x2, .f32⟩) (broadcastInDim S2x65536x2 ![] bcast_S_S2x65536x2),
    StableHlo.TRef.binary (.of main_call6_v4 : StableHlo.TRef sig ⟨S2x65536x2, .f32⟩) (.of main_call6_v2 : StableHlo.TRef sig ⟨S2x65536x2, .f32⟩) (.of main_v74 : StableHlo.TRef sig ⟨S2x65536x2, .f32⟩) minimumf,
    StableHlo.unary main_v74 main_v75 ((extractStridedSlice S2x65536x1 ![0, 0, 0] · slices_S2x65536x2_S2x65536x1_0_0_0) : (⟨S2x65536x2, .f32⟩ : BufTy).Contents (Elt F) → (⟨S2x65536x1, .f32⟩ : BufTy).Contents (Elt F)),
    StableHlo.reshape main_v75 main_v76 rfl shapeCasts_S2x65536x1_S2x65536,
    StableHlo.nullary main_cst_27 (constant S_ .f32 0x3F800000#32),
    StableHlo.unary main_cst_27 main_v77 (broadcastInDim S2x65536 ![] bcast_S_S2x65536 : (⟨S_, .f32⟩ : BufTy).Contents (Elt F) → (⟨S2x65536, .f32⟩ : BufTy).Contents (Elt F)),
    StableHlo.binary main_v76 main_v77 main_v78 (addf : (⟨S2x65536, .f32⟩ : BufTy).Contents (Elt F) → (⟨S2x65536, .f32⟩ : BufTy).Contents (Elt F) → (⟨S2x65536, .f32⟩ : BufTy).Contents (Elt F)),
    StableHlo.nullary main_cst_28 (constant S_ .f32 0x43800000#32),
    StableHlo.unary main_cst_28 main_v79 (broadcastInDim S2x65536 ![] bcast_S_S2x65536 : (⟨S_, .f32⟩ : BufTy).Contents (Elt F) → (⟨S2x65536, .f32⟩ : BufTy).Contents (Elt F)),
    StableHlo.binary main_v78 main_v79 main_v80 (mulf : (⟨S2x65536, .f32⟩ : BufTy).Contents (Elt F) → (⟨S2x65536, .f32⟩ : BufTy).Contents (Elt F) → (⟨S2x65536, .f32⟩ : BufTy).Contents (Elt F)),
    StableHlo.nullary main_cst_29 (constant S_ .f32 0x3F800000#32),
    StableHlo.unary main_cst_29 main_v81 (broadcastInDim S2x65536 ![] bcast_S_S2x65536 : (⟨S_, .f32⟩ : BufTy).Contents (Elt F) → (⟨S2x65536, .f32⟩ : BufTy).Contents (Elt F)),
    StableHlo.binary main_v80 main_v81 main_v82 (subf : (⟨S2x65536, .f32⟩ : BufTy).Contents (Elt F) → (⟨S2x65536, .f32⟩ : BufTy).Contents (Elt F) → (⟨S2x65536, .f32⟩ : BufTy).Contents (Elt F)),
    StableHlo.nullary main_cst_30 (constant S_ .f32 0x3F000000#32),
    StableHlo.unary main_cst_30 main_v83 (broadcastInDim S2x65536 ![] bcast_S_S2x65536 : (⟨S_, .f32⟩ : BufTy).Contents (Elt F) → (⟨S2x65536, .f32⟩ : BufTy).Contents (Elt F)),
    StableHlo.binary main_v82 main_v83 main_v84 (mulf : (⟨S2x65536, .f32⟩ : BufTy).Contents (Elt F) → (⟨S2x65536, .f32⟩ : BufTy).Contents (Elt F) → (⟨S2x65536, .f32⟩ : BufTy).Contents (Elt F)),
    StableHlo.TRef.unary (.of main_v84 : StableHlo.TRef sig ⟨S2x65536, .f32⟩) (.of main_v85 : StableHlo.TRef sig ⟨S2x65536, .f32⟩) Host.roundeven,
    StableHlo.nullary main_c_31 (constantI S_ 32 0#32),
    StableHlo.nullary main_c_32 (constantI S_ 32 255#32),
    StableHlo.TRef.unary (.of main_c_31 : StableHlo.TRef sig ⟨S_, .i32⟩) (.of main_call8_v0 : StableHlo.TRef sig ⟨S_, .f32⟩) (sitofp .f32),
    StableHlo.TRef.unary (.of main_call8_v0 : StableHlo.TRef sig ⟨S_, .f32⟩) (.of main_call8_v1 : StableHlo.TRef sig ⟨S2x65536, .f32⟩) (broadcastInDim S2x65536 ![] bcast_S_S2x65536),
    StableHlo.TRef.binary (.of main_call8_v1 : StableHlo.TRef sig ⟨S2x65536, .f32⟩) (.of main_v85 : StableHlo.TRef sig ⟨S2x65536, .f32⟩) (.of main_call8_v2 : StableHlo.TRef sig ⟨S2x65536, .f32⟩) maximumf,
    StableHlo.TRef.unary (.of main_c_32 : StableHlo.TRef sig ⟨S_, .i32⟩) (.of main_call8_v3 : StableHlo.TRef sig ⟨S_, .f32⟩) (sitofp .f32),
    StableHlo.TRef.unary (.of main_call8_v3 : StableHlo.TRef sig ⟨S_, .f32⟩) (.of main_call8_v4 : StableHlo.TRef sig ⟨S2x65536, .f32⟩) (broadcastInDim S2x65536 ![] bcast_S_S2x65536),
    StableHlo.TRef.binary (.of main_call8_v4 : StableHlo.TRef sig ⟨S2x65536, .f32⟩) (.of main_call8_v2 : StableHlo.TRef sig ⟨S2x65536, .f32⟩) (.of main_v86 : StableHlo.TRef sig ⟨S2x65536, .f32⟩) minimumf,
    StableHlo.unary main_v86 main_v87 (fptosi 32 : (⟨S2x65536, .f32⟩ : BufTy).Contents (Elt F) → (⟨S2x65536, .i32⟩ : BufTy).Contents (Elt F)),
    StableHlo.unary main_v74 main_v88 ((extractStridedSlice S2x65536x1 ![0, 0, 1] · slices_S2x65536x2_S2x65536x1_0_0_1) : (⟨S2x65536x2, .f32⟩ : BufTy).Contents (Elt F) → (⟨S2x65536x1, .f32⟩ : BufTy).Contents (Elt F)),
    StableHlo.reshape main_v88 main_v89 rfl shapeCasts_S2x65536x1_S2x65536,
    StableHlo.nullary main_cst_33 (constant S_ .f32 0x3F800000#32),
    StableHlo.unary main_cst_33 main_v90 (broadcastInDim S2x65536 ![] bcast_S_S2x65536 : (⟨S_, .f32⟩ : BufTy).Contents (Elt F) → (⟨S2x65536, .f32⟩ : BufTy).Contents (Elt F)),
    StableHlo.binary main_v89 main_v90 main_v91 (addf : (⟨S2x65536, .f32⟩ : BufTy).Contents (Elt F) → (⟨S2x65536, .f32⟩ : BufTy).Contents (Elt F) → (⟨S2x65536, .f32⟩ : BufTy).Contents (Elt F)),
    StableHlo.nullary main_cst_34 (constant S_ .f32 0x43800000#32),
    StableHlo.unary main_cst_34 main_v92 (broadcastInDim S2x65536 ![] bcast_S_S2x65536 : (⟨S_, .f32⟩ : BufTy).Contents (Elt F) → (⟨S2x65536, .f32⟩ : BufTy).Contents (Elt F)),
    StableHlo.binary main_v91 main_v92 main_v93 (mulf : (⟨S2x65536, .f32⟩ : BufTy).Contents (Elt F) → (⟨S2x65536, .f32⟩ : BufTy).Contents (Elt F) → (⟨S2x65536, .f32⟩ : BufTy).Contents (Elt F)),
    StableHlo.nullary main_cst_35 (constant S_ .f32 0x3F800000#32),
    StableHlo.unary main_cst_35 main_v94 (broadcastInDim S2x65536 ![] bcast_S_S2x65536 : (⟨S_, .f32⟩ : BufTy).Contents (Elt F) → (⟨S2x65536, .f32⟩ : BufTy).Contents (Elt F)),
    StableHlo.binary main_v93 main_v94 main_v95 (subf : (⟨S2x65536, .f32⟩ : BufTy).Contents (Elt F) → (⟨S2x65536, .f32⟩ : BufTy).Contents (Elt F) → (⟨S2x65536, .f32⟩ : BufTy).Contents (Elt F)),
    StableHlo.nullary main_cst_36 (constant S_ .f32 0x3F000000#32),
    StableHlo.unary main_cst_36 main_v96 (broadcastInDim S2x65536 ![] bcast_S_S2x65536 : (⟨S_, .f32⟩ : BufTy).Contents (Elt F) → (⟨S2x65536, .f32⟩ : BufTy).Contents (Elt F)),
    StableHlo.binary main_v95 main_v96 main_v97 (mulf : (⟨S2x65536, .f32⟩ : BufTy).Contents (Elt F) → (⟨S2x65536, .f32⟩ : BufTy).Contents (Elt F) → (⟨S2x65536, .f32⟩ : BufTy).Contents (Elt F)),
    StableHlo.TRef.unary (.of main_v97 : StableHlo.TRef sig ⟨S2x65536, .f32⟩) (.of main_v98 : StableHlo.TRef sig ⟨S2x65536, .f32⟩) Host.roundeven,
    StableHlo.nullary main_c_37 (constantI S_ 32 0#32),
    StableHlo.nullary main_c_38 (constantI S_ 32 255#32),
    StableHlo.TRef.unary (.of main_c_37 : StableHlo.TRef sig ⟨S_, .i32⟩) (.of main_call10_v0 : StableHlo.TRef sig ⟨S_, .f32⟩) (sitofp .f32),
    StableHlo.TRef.unary (.of main_call10_v0 : StableHlo.TRef sig ⟨S_, .f32⟩) (.of main_call10_v1 : StableHlo.TRef sig ⟨S2x65536, .f32⟩) (broadcastInDim S2x65536 ![] bcast_S_S2x65536),
    StableHlo.TRef.binary (.of main_call10_v1 : StableHlo.TRef sig ⟨S2x65536, .f32⟩) (.of main_v98 : StableHlo.TRef sig ⟨S2x65536, .f32⟩) (.of main_call10_v2 : StableHlo.TRef sig ⟨S2x65536, .f32⟩) maximumf,
    StableHlo.TRef.unary (.of main_c_38 : StableHlo.TRef sig ⟨S_, .i32⟩) (.of main_call10_v3 : StableHlo.TRef sig ⟨S_, .f32⟩) (sitofp .f32),
    StableHlo.TRef.unary (.of main_call10_v3 : StableHlo.TRef sig ⟨S_, .f32⟩) (.of main_call10_v4 : StableHlo.TRef sig ⟨S2x65536, .f32⟩) (broadcastInDim S2x65536 ![] bcast_S_S2x65536),
    StableHlo.TRef.binary (.of main_call10_v4 : StableHlo.TRef sig ⟨S2x65536, .f32⟩) (.of main_call10_v2 : StableHlo.TRef sig ⟨S2x65536, .f32⟩) (.of main_v99 : StableHlo.TRef sig ⟨S2x65536, .f32⟩) minimumf,
    StableHlo.unary main_v99 main_v100 (fptosi 32 : (⟨S2x65536, .f32⟩ : BufTy).Contents (Elt F) → (⟨S2x65536, .i32⟩ : BufTy).Contents (Elt F)),
    StableHlo.nullary main_c_39 (constantI S_ 32 256#32),
    StableHlo.unary main_c_39 main_v101 (broadcastInDim S2x65536 ![] bcast_S_S2x65536 : (⟨S_, .i32⟩ : BufTy).Contents (Elt F) → (⟨S2x65536, .i32⟩ : BufTy).Contents (Elt F)),
    StableHlo.binary main_v87 main_v101 main_v102 (muli : (⟨S2x65536, .i32⟩ : BufTy).Contents (Elt F) → (⟨S2x65536, .i32⟩ : BufTy).Contents (Elt F) → (⟨S2x65536, .i32⟩ : BufTy).Contents (Elt F)),
    StableHlo.binary main_v102 main_v100 main_v103 (addi : (⟨S2x65536, .i32⟩ : BufTy).Contents (Elt F) → (⟨S2x65536, .i32⟩ : BufTy).Contents (Elt F) → (⟨S2x65536, .i32⟩ : BufTy).Contents (Elt F)),
    StableHlo.unary main_v103 main_v104 (broadcastInDim S2x1x65536 ![0, 2] bcast_S2x65536_S2x1x65536_0_2 : (⟨S2x65536, .i32⟩ : BufTy).Contents (Elt F) → (⟨S2x1x65536, .i32⟩ : BufTy).Contents (Elt F)) ]

set_option maxHeartbeats 40000000 in
/-- Segment 4: the second gather's index wrap-around (8 operations). -/
abbrev K4 : List (HloOp τ sig (Elt F)) :=
  [ StableHlo.TRef.nullary (.of main_call11_c : StableHlo.TRef sig ⟨S_, .i32⟩) (constantI S_ 32 0#32),
    StableHlo.TRef.unary (.of main_call11_c : StableHlo.TRef sig ⟨S_, .i32⟩) (.of main_call11_v0 : StableHlo.TRef sig ⟨S2x1x65536, .i32⟩) (broadcastInDim S2x1x65536 ![] bcast_S_S2x1x65536),
    StableHlo.TRef.binary (.of main_v104 : StableHlo.TRef sig ⟨S2x1x65536, .i32⟩) (.of main_call11_v0 : StableHlo.TRef sig ⟨S2x1x65536, .i32⟩) (.of main_call11_v1 : StableHlo.TRef sig ⟨S2x1x65536, .i1⟩) (cmpi .slt),
    StableHlo.TRef.nullary (.of main_call11_c_0 : StableHlo.TRef sig ⟨S_, .i32⟩) (constantI S_ 32 65536#32),
    StableHlo.TRef.unary (.of main_call11_c_0 : StableHlo.TRef sig ⟨S_, .i32⟩) (.of main_call11_v2 : StableHlo.TRef sig ⟨S2x1x65536, .i32⟩) (broadcastInDim S2x1x65536 ![] bcast_S_S2x1x65536),
    StableHlo.TRef.binary (.of main_v104 : StableHlo.TRef sig ⟨S2x1x65536, .i32⟩) (.of main_call11_v2 : StableHlo.TRef sig ⟨S2x1x65536, .i32⟩) (.of main_call11_v3 : StableHlo.TRef sig ⟨S2x1x65536, .i32⟩) addi,
    StableHlo.TRef.ternary (.of main_call11_v1 : StableHlo.TRef sig ⟨S2x1x65536, .i1⟩) (.of main_call11_v3 : StableHlo.TRef sig ⟨S2x1x65536, .i32⟩) (.of main_v104 : StableHlo.TRef sig ⟨S2x1x65536, .i32⟩) (.of main_call11_v4 : StableHlo.TRef sig ⟨S2x1x65536, .i32⟩) select,
    StableHlo.TRef.reshape (.of main_call11_v4 : StableHlo.TRef sig ⟨S2x1x65536, .i32⟩) (.of main_call11_v5 : StableHlo.TRef sig ⟨S2x65536x1, .i32⟩) rfl shapeCasts_S2x1x65536_S2x65536x1 ]

set_option maxHeartbeats 40000000 in
/-- Segment 5: the second gather itself, its mask and transposition (16 operations). -/
abbrev K5 : List (HloOp τ sig (Elt F)) :=
  [ StableHlo.TRef.nullary (.of main_call11_c_1 : StableHlo.TRef sig ⟨S1, .i32⟩) (constantI S1 32 65535#32),
    StableHlo.TRef.nullary (.of main_call11_c_2 : StableHlo.TRef sig ⟨S_, .i32⟩) (constantI S_ 32 0#32),
    StableHlo.TRef.unary (.of main_call11_c_2 : StableHlo.TRef sig ⟨S_, .i32⟩) (.of main_call11_v6 : StableHlo.TRef sig ⟨S2x65536x1, .i32⟩) (broadcastInDim S2x65536x1 ![] bcast_S_S2x65536x1),
    StableHlo.TRef.binary (.of main_call11_v5 : StableHlo.TRef sig ⟨S2x65536x1, .i32⟩) (.of main_call11_v6 : StableHlo.TRef sig ⟨S2x65536x1, .i32⟩) (.of main_call11_v7 : StableHlo.TRef sig ⟨S2x65536x1, .i1⟩) (cmpi .sge),
    StableHlo.TRef.unary (.of main_call11_c_1 : StableHlo.TRef sig ⟨S1, .i32⟩) (.of main_call11_v8 : StableHlo.TRef sig ⟨S1x1x1, .i32⟩) (broadcastInDim S1x1x1 ![2] bcast_S1_S1x1x1_2),
    StableHlo.TRef.unary (.of main_call11_v8 : StableHlo.TRef sig ⟨S1x1x1, .i32⟩) (.of main_call11_v9 : StableHlo.TRef sig ⟨S2x65536x1, .i32⟩) (broadcastInDim S2x65536x1 ![0, 1, 2] bcast_S1x1x1_S2x65536x1_0_1_2),
    StableHlo.TRef.binary (.of main_call11_v5 : StableHlo.TRef sig ⟨S2x65536x1, .i32⟩) (.of main_call11_v9 : StableHlo.TRef sig ⟨S2x65536x1, .i32⟩) (.of main_call11_v10 : StableHlo.TRef sig ⟨S2x65536x1, .i1⟩) (cmpi .sle),
    StableHlo.TRef.binary (.of main_call11_v7 : StableHlo.TRef sig ⟨S2x65536x1, .i1⟩) (.of main_call11_v10 : StableHlo.TRef sig ⟨S2x65536x1, .i1⟩) (.of main_call11_v11 : StableHlo.TRef sig ⟨S2x65536x1, .i1⟩) andi,
    StableHlo.TRef.nullary (.of main_call11_c_3 : StableHlo.TRef sig ⟨S_, .i1⟩) (constantI S_ 1 1#1),
    StableHlo.TRef.binary (.of main_call11_v11 : StableHlo.TRef sig ⟨S2x65536x1, .i1⟩) (.of main_call11_c_3 : StableHlo.TRef sig ⟨S_, .i1⟩) (.of main_call11_v12 : StableHlo.TRef sig ⟨S2x65536, .i1⟩) (fun x v => Host.reduce IntOp.andi x v reducesTo_S2x65536x1_S2x65536_d2 h_S_),
    StableHlo.TRef.binary (.of main_v2 : StableHlo.TRef sig ⟨S2x64x65536, .f32⟩) (.of main_call11_v5 : StableHlo.TRef sig ⟨S2x65536x1, .i32⟩) (.of main_call11_v13 : StableHlo.TRef sig ⟨S2x64x65536, .f32⟩) (fun x i => Host.gather gather_S2x64x65536_S2x65536x1_S2x64x65536_1_2_0_0_2_2_1641 x i),
    StableHlo.TRef.unary (.of main_call11_v12 : StableHlo.TRef sig ⟨S2x65536, .i1⟩) (.of main_call11_v14 : StableHlo.TRef sig ⟨S2x64x65536, .i1⟩) (broadcastInDim S2x64x65536 ![0, 2] bcast_S2x65536_S2x64x65536_0_2),
    StableHlo.TRef.nullary (.of main_call11_cst : StableHlo.TRef sig ⟨S_, .f32⟩) (constant S_ .f32 0x7FC00000#32),
    StableHlo.TRef.unary (.of main_call11_cst : StableHlo.TRef sig ⟨S_, .f32⟩) (.of main_call11_v15 : StableHlo.TRef sig ⟨S2x64x65536, .f32⟩) (broadcastInDim S2x64x65536 ![] bcast_S_S2x64x65536),
    StableHlo.TRef.ternary (.of main_call11_v14 : StableHlo.TRef sig ⟨S2x64x65536, .i1⟩) (.of main_call11_v13 : StableHlo.TRef sig ⟨S2x64x65536, .f32⟩) (.of main_call11_v15 : StableHlo.TRef sig ⟨S2x64x65536, .f32⟩) (.of main_v105 : StableHlo.TRef sig ⟨S2x64x65536, .f32⟩) select,
    StableHlo.unary main_v105 main_v106 ((transpose S2x65536x64 [0, 2, 1] · transposes_S2x64x65536_S2x65536x64_0_2_1) : (⟨S2x64x65536, .f32⟩ : BufTy).Contents (Elt F) → (⟨S2x65536x64, .f32⟩ : BufTy).Contents (Elt F)) ]

set_option maxHeartbeats 40000000 in
/-- Segment 6: the third gather branch up to its flat index (86 operations). -/
abbrev K6 : List (HloOp τ sig (Elt F)) :=
  [ StableHlo.unary main_arg1 main_v107 ((extractStridedSlice S2x65536x1 ![0, 0, 0] · slices_S2x65536x2_S2x65536x1_0_0_0) : (⟨S2x65536x2, .f32⟩ : BufTy).Contents (Elt F) → (⟨S2x65536x1, .f32⟩ : BufTy).Contents (Elt F)),
    StableHlo.reshape main_v107 main_v108 rfl shapeCasts_S2x65536x1_S2x65536,
    StableHlo.nullary main_cst_40 (constant S_ .f32 0x3F800000#32),
    StableHlo.binary main_cst_40 main_v1 main_v109 (mulf : (⟨S_, .f32⟩ : BufTy).Contents (Elt F) → (⟨S_, .f32⟩ : BufTy).Contents (Elt F) → (⟨S_, .f32⟩ : BufTy).Contents (Elt F)),
    StableHlo.nullary main_cst_41 (constant S_ .f32 0x3B800000#32),
    StableHlo.binary main_v109 main_cst_41 main_v110 (mulf : (⟨S_, .f32⟩ : BufTy).Contents (Elt F) → (⟨S_, .f32⟩ : BufTy).Contents (Elt F) → (⟨S_, .f32⟩ : BufTy).Contents (Elt F)),
    StableHlo.unary main_v110 main_v111 (broadcastInDim S2x65536 ![] bcast_S_S2x65536 : (⟨S_, .f32⟩ : BufTy).Contents (Elt F) → (⟨S2x65536, .f32⟩ : BufTy).Contents (Elt F)),
    StableHlo.binary main_v108 main_v111 main_v112 (addf : (⟨S2x65536, .f32⟩ : BufTy).Contents (Elt F) → (⟨S2x65536, .f32⟩ : BufTy).Contents (Elt F) → (⟨S2x65536, .f32⟩ : BufTy).Contents (Elt F)),
    StableHlo.nullary main_cst_42 (constant S_ .f32 0x358637BD#32),
    StableHlo.unary main_cst_42 main_v113 (broadcastInDim S2x65536 ![] bcast_S_S2x65536 : (⟨S_, .f32⟩ : BufTy).Contents (Elt F) → (⟨S2x65536, .f32⟩ : BufTy).Contents (Elt F)),
    StableHlo.binary main_v112 main_v113 main_v114 (addf : (⟨S2x65536, .f32⟩ : BufTy).Contents (Elt F) → (⟨S2x65536, .f32⟩ : BufTy).Contents (Elt F) → (⟨S2x65536, .f32⟩ : BufTy).Contents (Elt F)),
    StableHlo.unary main_arg1 main_v115 ((extractStridedSlice S2x65536x1 ![0, 0, 1] · slices_S2x65536x2_S2x65536x1_0_0_1) : (⟨S2x65536x2, .f32⟩ : BufTy).Contents (Elt F) → (⟨S2x65536x1, .f32⟩ : BufTy).Contents (Elt F)),
    StableHlo.reshape main_v115 main_v116 rfl shapeCasts_S2x65536x1_S2x65536,
    StableHlo.nullary main_cst_43 (constant S_ .f32 0xBF800000#32),
    StableHlo.binary main_cst_43 main_v1 main_v117 (mulf : (⟨S_, .f32⟩ : BufTy).Contents (Elt F) → (⟨S_, .f32⟩ : BufTy).Contents (Elt F) → (⟨S_, .f32⟩ : BufTy).Contents (Elt F)),
    StableHlo.nullary main_cst_44 (constant S_ .f32 0x3B800000#32),
    StableHlo.binary main_v117 main_cst_44 main_v118 (mulf : (⟨S_, .f32⟩ : BufTy).Contents (Elt F) → (⟨S_, .f32⟩ : BufTy).Contents (Elt F) → (⟨S_, .f32⟩ : BufTy).Contents (Elt F)),
    StableHlo.unary main_v118 main_v119 (broadcastInDim S2x65536 ![] bcast_S_S2x65536 : (⟨S_, .f32⟩ : BufTy).Contents (Elt F) → (⟨S2x65536, .f32⟩ : BufTy).Contents (Elt F)),
    StableHlo.binary main_v116 main_v119 main_v120 (addf : (⟨S2x65536, .f32⟩ : BufTy).Contents (Elt F) → (⟨S2x65536, .f32⟩ : BufTy).Contents (Elt F) → (⟨S2x65536, .f32⟩ : BufTy).Contents (Elt F)),
    StableHlo.nullary main_cst_45 (constant S_ .f32 0x358637BD#32),
    StableHlo.unary main_cst_45 main_v121 (broadcastInDim S2x65536 ![] bcast_S_S2x65536 : (⟨S_, .f32⟩ : BufTy).Contents (Elt F) → (⟨S2x65536, .f32⟩ : BufTy).Contents (Elt F)),
    StableHlo.binary main_v120 main_v121 main_v122 (addf : (⟨S2x65536, .f32⟩ : BufTy).Contents (Elt F) → (⟨S2x65536, .f32⟩ : BufTy).Contents (Elt F) → (⟨S2x65536, .f32⟩ : BufTy).Contents (Elt F)),
    StableHlo.unary main_v114 main_v123 (broadcastInDim S2x65536x1 ![0, 1] bcast_S2x65536_S2x65536x1_0_1 : (⟨S2x65536, .f32⟩ : BufTy).Contents (Elt F) → (⟨S2x65536x1, .f32⟩ : BufTy).Contents (Elt F)),
    StableHlo.unary main_v122 main_v124 (broadcastInDim S2x65536x1 ![0, 1] bcast_S2x65536_S2x65536x1_0_1 : (⟨S2x65536, .f32⟩ : BufTy).Contents (Elt F) → (⟨S2x65536x1, .f32⟩ : BufTy).Contents (Elt F)),
    StableHlo.binary main_v123 main_v124 main_v125 ((fun a b => concatenate S2x65536x2 2 [⟨S2x65536x1, a⟩, ⟨S2x65536x1, b⟩] concatenates_S2x65536x1_S2x65536x1_S2x65536x2_d2) : (⟨S2x65536x1, .f32⟩ : BufTy).Contents (Elt F) → (⟨S2x65536x1, .f32⟩ : BufTy).Contents (Elt F) → (⟨S2x65536x2, .f32⟩ : BufTy).Contents (Elt F)),
    StableHlo.nullary main_cst_46 (constant S_ .f32 0xBF7FFFEF#32),
    StableHlo.nullary main_cst_47 (constant S_ .f32 0x3F7FFFEF#32),
    StableHlo.TRef.unary (.of main_cst_46 : StableHlo.TRef sig ⟨S_, .f32⟩) (.of main_call12_v0 : StableHlo.TRef sig ⟨S_, .f32⟩) id,
    StableHlo.TRef.unary (.of main_call12_v0 : StableHlo.TRef sig ⟨S_, .f32⟩) (.of main_call12_v1 : StableHlo.TRef sig ⟨S2x65536x2, .f32⟩) (broadcastInDim S2x65536x2 ![] bcast_S_S2x65536x2),
    StableHlo.TRef.binary (.of main_call12_v1 : StableHlo.TRef sig ⟨S2x65536x2, .f32⟩) (.of main_v125 : StableHlo.TRef sig ⟨S2x65536x2, .f32⟩) (.of main_call12_v2 : StableHlo.TRef sig ⟨S2x65536x2, .f32⟩) maximumf,
    StableHlo.TRef.unary (.of main_cst_47 : StableHlo.TRef sig ⟨S_, .f32⟩) (.of main_call12_v3 : StableHlo.TRef sig ⟨S_, .f32⟩) id,
    StableHlo.TRef.unary (.of main_call12_v3 : StableHlo.TRef sig ⟨S_, .f32⟩) (.of main_call12_v4 : StableHlo.TRef sig ⟨S2x65536x2, .f32⟩) (broadcastInDim S2x65536x2 ![] bcast_S_S2x65536x2),
    StableHlo.TRef.binary (.of main_call12_v4 : StableHlo.TRef sig ⟨S2x65536x2, .f32⟩) (.of main_call12_v2 : StableHlo.TRef sig ⟨S2x65536x2, .f32⟩) (.of main_v126 : StableHlo.TRef sig ⟨S2x65536x2, .f32⟩) minimumf,
    StableHlo.unary main_v126 main_v127 ((extractStridedSlice S2x65536x1 ![0, 0, 0] · slices_S2x65536x2_S2x65536x1_0_0_0) : (⟨S2x65536x2, .f32⟩ : BufTy).Contents (Elt F) → (⟨S2x65536x1, .f32⟩ : BufTy).Contents (Elt F)),
    StableHlo.reshape main_v127 main_v128 rfl shapeCasts_S2x65536x1_S2x65536,
    StableHlo.nullary main_cst_48 (constant S_ .f32 0x3F800000#32),
    StableHlo.unary main_cst_48 main_v129 (broadcastInDim S2x65536 ![] bcast_S_S2x65536 : (⟨S_, .f32⟩ : BufTy).Contents (Elt F) → (⟨S2x65536, .f32⟩ : BufTy).Contents (Elt F)),
    StableHlo.binary main_v128 main_v129 main_v130 (addf : (⟨S2x65536, .f32⟩ : BufTy).Contents (Elt F) → (⟨S2x65536, .f32⟩ : BufTy).Contents (Elt F) → (⟨S2x65536, .f32⟩ : BufTy).Contents (Elt F)),
    StableHlo.nullary main_cst_49 (constant S_ .f32 0x43800000#32),
    StableHlo.unary main_cst_49 main_v131 (broadcastInDim S2x65536 ![] bcast_S_S2x65536 : (⟨S_, .f32⟩ : BufTy).Contents (Elt F) → (⟨S2x65536, .f32⟩ : BufTy).Contents (Elt F)),
    StableHlo.binary main_v130 main_v131 main_v132 (mulf : (⟨S2x65536, .f32⟩ : BufTy).Contents (Elt F) → (⟨S2x65536, .f32⟩ : BufTy).Contents (Elt F) → (⟨S2x65536, .f32⟩ : BufTy).Contents (Elt F)),
    StableHlo.nullary main_cst_50 (constant S_ .f32 0x3F800000#32),
    StableHlo.unary main_cst_50 main_v133 (broadcastInDim S2x65536 ![] bcast_S_S2x65536 : (⟨S_, .f32⟩ : BufTy).Contents (Elt F) → (⟨S2x65536, .f32⟩ : BufTy).Contents (Elt F)),
    StableHlo.binary main_v132 main_v133 main_v134 (subf : (⟨S2x65536, .f32⟩ : BufTy).Contents (Elt F) → (⟨S2x65536, .f32⟩ : BufTy).Contents (Elt F) → (⟨S2x65536, .f32⟩ : BufTy).Contents (Elt F)),
    StableHlo.nullary main_cst_51 (constant S_ .f32 0x3F000000#32),
    StableHlo.unary main_cst_51 main_v135 (broadcastInDim S2x65536 ![] bcast_S_S2x65536 : (⟨S_, .f32⟩ : BufTy).Contents (Elt F) → (⟨S2x65536, .f32⟩ : BufTy).Contents (Elt F)),
    StableHlo.binary main_v134 main_v135 main_v136 (mulf : (⟨S2x65536, .f32⟩ : BufTy).Contents (Elt F) → (⟨S2x65536, .f32⟩ : BufTy).Contents (Elt F) → (⟨S2x65536, .f32⟩ : BufTy).Contents (Elt F)),
    StableHlo.TRef.unary (.of main_v136 : StableHlo.TRef sig ⟨S2x65536, .f32⟩) (.of main_v137 : StableHlo.TRef sig ⟨S2x65536, .f32⟩) Host.roundeven,
    StableHlo.nullary main_c_52 (constantI S_ 32 0#32),
    StableHlo.nullary main_c_53 (constantI S_ 32 255#32),
    StableHlo.TRef.unary (.of main_c_52 : StableHlo.TRef sig ⟨S_, .i32⟩) (.of main_call14_v0 : StableHlo.TRef sig ⟨S_, .f32⟩) (sitofp .f32),
    StableHlo.TRef.unary (.of main_call14_v0 : StableHlo.TRef sig ⟨S_, .f32⟩) (.of main_call14_v1 : StableHlo.TRef sig ⟨S2x65536, .f32⟩) (broadcastInDim S2x65536 ![] bcast_S_S2x65536),
    StableHlo.TRef.binary (.of main_call14_v1 : StableHlo.TRef sig ⟨S2x65536, .f32⟩) (.of main_v137 : StableHlo.TRef sig ⟨S2x65536, .f32⟩) (.of main_call14_v2 : StableHlo.TRef sig ⟨S2x65536, .f32⟩) maximumf,
    StableHlo.TRef.unary (.of main_c_53 : StableHlo.TRef sig ⟨S_, .i32⟩) (.of main_call14_v3 : StableHlo.TRef sig ⟨S_, .f32⟩) (sitofp .f32),
    StableHlo.TRef.unary (.of main_call14_v3 : StableHlo.TRef sig ⟨S_, .f32⟩) (.of main_call14_v4 : StableHlo.TRef sig ⟨S2x65536, .f32⟩) (broadcastInDim S2x65536 ![] bcast_S_S2x65536),
    StableHlo.TRef.binary (.of main_call14_v4 : StableHlo.TRef sig ⟨S2x65536, .f32⟩) (.of main_call14_v2 : StableHlo.TRef sig ⟨S2x65536, .f32⟩) (.of main_v138 : StableHlo.TRef sig ⟨S2x65536, .f32⟩) minimumf,
    StableHlo.unary main_v138 main_v139 (fptosi 32 : (⟨S2x65536, .f32⟩ : BufTy).Contents (Elt F) → (⟨S2x65536, .i32⟩ : BufTy).Contents (Elt F)),
    StableHlo.unary main_v126 main_v140 ((extractStridedSlice S2x65536x1 ![0, 0, 1] · slices_S2x65536x2_S2x65536x1_0_0_1) : (⟨S2x65536x2, .f32⟩ : BufTy).Contents (Elt F) → (⟨S2x65536x1, .f32⟩ : BufTy).Contents (Elt F)),
    StableHlo.reshape main_v140 main_v141 rfl shapeCasts_S2x65536x1_S2x65536,
    StableHlo.nullary main_cst_54 (constant S_ .f32 0x3F800000#32),
    StableHlo.unary main_cst_54 main_v142 (broadcastInDim S2x65536 ![] bcast_S_S2x65536 : (⟨S_, .f32⟩ : BufTy).Contents (Elt F) → (⟨S2x65536, .f32⟩ : BufTy).Contents (Elt F)),
    StableHlo.binary main_v141 main_v142 main_v143 (addf : (⟨S2x65536, .f32⟩ : BufTy).Contents (Elt F) → (⟨S2x65536, .f32⟩ : BufTy).Contents (Elt F) → (⟨S2x65536, .f32⟩ : BufTy).Contents (Elt F)),
    StableHlo.nullary main_cst_55 (constant S_ .f32 0x43800000#32),
    StableHlo.unary main_cst_55 main_v144 (broadcastInDim S2x65536 ![] bcast_S_S2x65536 : (⟨S_, .f32⟩ : BufTy).Contents (Elt F) → (⟨S2x65536, .f32⟩ : BufTy).Contents (Elt F)),
    StableHlo.binary main_v143 main_v144 main_v145 (mulf : (⟨S2x65536, .f32⟩ : BufTy).Contents (Elt F) → (⟨S2x65536, .f32⟩ : BufTy).Contents (Elt F) → (⟨S2x65536, .f32⟩ : BufTy).Contents (Elt F)),
    StableHlo.nullary main_cst_56 (constant S_ .f32 0x3F800000#32),
    StableHlo.unary main_cst_56 main_v146 (broadcastInDim S2x65536 ![] bcast_S_S2x65536 : (⟨S_, .f32⟩ : BufTy).Contents (Elt F) → (⟨S2x65536, .f32⟩ : BufTy).Contents (Elt F)),
    StableHlo.binary main_v145 main_v146 main_v147 (subf : (⟨S2x65536, .f32⟩ : BufTy).Contents (Elt F) → (⟨S2x65536, .f32⟩ : BufTy).Contents (Elt F) → (⟨S2x65536, .f32⟩ : BufTy).Contents (Elt F)),
    StableHlo.nullary main_cst_57 (constant S_ .f32 0x3F000000#32),
    StableHlo.unary main_cst_57 main_v148 (broadcastInDim S2x65536 ![] bcast_S_S2x65536 : (⟨S_, .f32⟩ : BufTy).Contents (Elt F) → (⟨S2x65536, .f32⟩ : BufTy).Contents (Elt F)),
    StableHlo.binary main_v147 main_v148 main_v149 (mulf : (⟨S2x65536, .f32⟩ : BufTy).Contents (Elt F) → (⟨S2x65536, .f32⟩ : BufTy).Contents (Elt F) → (⟨S2x65536, .f32⟩ : BufTy).Contents (Elt F)),
    StableHlo.TRef.unary (.of main_v149 : StableHlo.TRef sig ⟨S2x65536, .f32⟩) (.of main_v150 : StableHlo.TRef sig ⟨S2x65536, .f32⟩) Host.roundeven,
    StableHlo.nullary main_c_58 (constantI S_ 32 0#32),
    StableHlo.nullary main_c_59 (constantI S_ 32 255#32),
    StableHlo.TRef.unary (.of main_c_58 : StableHlo.TRef sig ⟨S_, .i32⟩) (.of main_call16_v0 : StableHlo.TRef sig ⟨S_, .f32⟩) (sitofp .f32),
    StableHlo.TRef.unary (.of main_call16_v0 : StableHlo.TRef sig ⟨S_, .f32⟩) (.of main_call16_v1 : StableHlo.TRef sig ⟨S2x65536, .f32⟩) (broadcastInDim S2x65536 ![] bcast_S_S2x65536),
    StableHlo.TRef.binary (.of main_call16_v1 : StableHlo.TRef sig ⟨S2x65536, .f32⟩) (.of main_v150 : StableHlo.TRef sig ⟨S2x65536, .f32⟩) (.of main_call16_v2 : StableHlo.TRef sig ⟨S2x65536, .f32⟩) maximumf,
    StableHlo.TRef.unary (.of main_c_59 : StableHlo.TRef sig ⟨S_, .i32⟩) (.of main_call16_v3 : StableHlo.TRef sig ⟨S_, .f32⟩) (sitofp .f32),
    StableHlo.TRef.unary (.of main_call16_v3 : StableHlo.TRef sig ⟨S_, .f32⟩) (.of main_call16_v4 : StableHlo.TRef sig ⟨S2x65536, .f32⟩) (broadcastInDim S2x65536 ![] bcast_S_S2x65536),
    StableHlo.TRef.binary (.of main_call16_v4 : StableHlo.TRef sig ⟨S2x65536, .f32⟩) (.of main_call16_v2 : StableHlo.TRef sig ⟨S2x65536, .f32⟩) (.of main_v151 : StableHlo.TRef sig ⟨S2x65536, .f32⟩) minimumf,
    StableHlo.unary main_v151 main_v152 (fptosi 32 : (⟨S2x65536, .f32⟩ : BufTy).Contents (Elt F) → (⟨S2x65536, .i32⟩ : BufTy).Contents (Elt F)),
    StableHlo.nullary main_c_60 (constantI S_ 32 256#32),
    StableHlo.unary main_c_60 main_v153 (broadcastInDim S2x65536 ![] bcast_S_S2x65536 : (⟨S_, .i32⟩ : BufTy).Contents (Elt F) → (⟨S2x65536, .i32⟩ : BufTy).Contents (Elt F)),
    StableHlo.binary main_v139 main_v153 main_v154 (muli : (⟨S2x65536, .i32⟩ : BufTy).Contents (Elt F) → (⟨S2x65536, .i32⟩ : BufTy).Contents (Elt F) → (⟨S2x65536, .i32⟩ : BufTy).Contents (Elt F)),
    StableHlo.binary main_v154 main_v152 main_v155 (addi : (⟨S2x65536, .i32⟩ : BufTy).Contents (Elt F) → (⟨S2x65536, .i32⟩ : BufTy).Contents (Elt F) → (⟨S2x65536, .i32⟩ : BufTy).Contents (Elt F)),
    StableHlo.unary main_v155 main_v156 (broadcastInDim S2x1x65536 ![0, 2] bcast_S2x65536_S2x1x65536_0_2 : (⟨S2x65536, .i32⟩ : BufTy).Contents (Elt F) → (⟨S2x1x65536, .i32⟩ : BufTy).Contents (Elt F)) ]

set_option maxHeartbeats 40000000 in
/-- Segment 7: the third gather's index wrap-around (8 operations). -/
abbrev K7 : List (HloOp τ sig (Elt F)) :=
  [ StableHlo.TRef.nullary (.of main_call17_c : StableHlo.TRef sig ⟨S_, .i32⟩) (constantI S_ 32 0#32),
    StableHlo.TRef.unary (.of main_call17_c : StableHlo.TRef sig ⟨S_, .i32⟩) (.of main_call17_v0 : StableHlo.TRef sig ⟨S2x1x65536, .i32⟩) (broadcastInDim S2x1x65536 ![] bcast_S_S2x1x65536),
    StableHlo.TRef.binary (.of main_v156 : StableHlo.TRef sig ⟨S2x1x65536, .i32⟩) (.of main_call17_v0 : StableHlo.TRef sig ⟨S2x1x65536, .i32⟩) (.of main_call17_v1 : StableHlo.TRef sig ⟨S2x1x65536, .i1⟩) (cmpi .slt),
    StableHlo.TRef.nullary (.of main_call17_c_0 : StableHlo.TRef sig ⟨S_, .i32⟩) (constantI S_ 32 65536#32),
    StableHlo.TRef.unary (.of main_call17_c_0 : StableHlo.TRef sig ⟨S_, .i32⟩) (.of main_call17_v2 : StableHlo.TRef sig ⟨S2x1x65536, .i32⟩) (broadcastInDim S2x1x65536 ![] bcast_S_S2x1x65536),
    StableHlo.TRef.binary (.of main_v156 : StableHlo.TRef sig ⟨S2x1x65536, .i32⟩) (.of main_call17_v2 : StableHlo.TRef sig ⟨S2x1x65536, .i32⟩) (.of main_call17_v3 : StableHlo.TRef sig ⟨S2x1x65536, .i32⟩) addi,
    StableHlo.TRef.ternary (.of main_call17_v1 : StableHlo.TRef sig ⟨S2x1x65536, .i1⟩) (.of main_call17_v3 : StableHlo.TRef sig ⟨S2x1x65536, .i32⟩) (.of main_v156 : StableHlo.TRef sig ⟨S2x1x65536, .i32⟩) (.of main_call17_v4 : StableHlo.TRef sig ⟨S2x1x65536, .i32⟩) select,
    StableHlo.TRef.reshape (.of main_call17_v4 : StableHlo.TRef sig ⟨S2x1x65536, .i32⟩) (.of main_call17_v5 : StableHlo.TRef sig ⟨S2x65536x1, .i32⟩) rfl shapeCasts_S2x1x65536_S2x65536x1 ]

set_option maxHeartbeats 40000000 in
/-- Segment 8: the third gather itself, its mask and transposition (16 operations). -/
abbrev K8 : List (HloOp τ sig (Elt F)) :=
  [ StableHlo.TRef.nullary (.of main_call17_c_1 : StableHlo.TRef sig ⟨S1, .i32⟩) (constantI S1 32 65535#32),
    StableHlo.TRef.nullary (.of main_call17_c_2 : StableHlo.TRef sig ⟨S_, .i32⟩) (constantI S_ 32 0#32),
    StableHlo.TRef.unary (.of main_call17_c_2 : StableHlo.TRef sig ⟨S_, .i32⟩) (.of main_call17_v6 : StableHlo.TRef sig ⟨S2x65536x1, .i32⟩) (broadcastInDim S2x65536x1 ![] bcast_S_S2x65536x1),
    StableHlo.TRef.binary (.of main_call17_v5 : StableHlo.TRef sig ⟨S2x65536x1, .i32⟩) (.of main_call17_v6 : StableHlo.TRef sig ⟨S2x65536x1, .i32⟩) (.of main_call17_v7 : StableHlo.TRef sig ⟨S2x65536x1, .i1⟩) (cmpi .sge),
    StableHlo.TRef.unary (.of main_call17_c_1 : StableHlo.TRef sig ⟨S1, .i32⟩) (.of main_call17_v8 : StableHlo.TRef sig ⟨S1x1x1, .i32⟩) (broadcastInDim S1x1x1 ![2] bcast_S1_S1x1x1_2),
    StableHlo.TRef.unary (.of main_call17_v8 : StableHlo.TRef sig ⟨S1x1x1, .i32⟩) (.of main_call17_v9 : StableHlo.TRef sig ⟨S2x65536x1, .i32⟩) (broadcastInDim S2x65536x1 ![0, 1, 2] bcast_S1x1x1_S2x65536x1_0_1_2),
    StableHlo.TRef.binary (.of main_call17_v5 : StableHlo.TRef sig ⟨S2x65536x1, .i32⟩) (.of main_call17_v9 : StableHlo.TRef sig ⟨S2x65536x1, .i32⟩) (.of main_call17_v10 : StableHlo.TRef sig ⟨S2x65536x1, .i1⟩) (cmpi .sle),
    StableHlo.TRef.binary (.of main_call17_v7 : StableHlo.TRef sig ⟨S2x65536x1, .i1⟩) (.of main_call17_v10 : StableHlo.TRef sig ⟨S2x65536x1, .i1⟩) (.of main_call17_v11 : StableHlo.TRef sig ⟨S2x65536x1, .i1⟩) andi,
    StableHlo.TRef.nullary (.of main_call17_c_3 : StableHlo.TRef sig ⟨S_, .i1⟩) (constantI S_ 1 1#1),
    StableHlo.TRef.binary (.of main_call17_v11 : StableHlo.TRef sig ⟨S2x65536x1, .i1⟩) (.of main_call17_c_3 : StableHlo.TRef sig ⟨S_, .i1⟩) (.of main_call17_v12 : StableHlo.TRef sig ⟨S2x65536, .i1⟩) (fun x v => Host.reduce IntOp.andi x v reducesTo_S2x65536x1_S2x65536_d2 h_S_),
    StableHlo.TRef.binary (.of main_v2 : StableHlo.TRef sig ⟨S2x64x65536, .f32⟩) (.of main_call17_v5 : StableHlo.TRef sig ⟨S2x65536x1, .i32⟩) (.of main_call17_v13 : StableHlo.TRef sig ⟨S2x64x65536, .f32⟩) (fun x i => Host.gather gather_S2x64x65536_S2x65536x1_S2x64x65536_1_2_0_0_2_2_1641 x i),
    StableHlo.TRef.unary (.of main_call17_v12 : StableHlo.TRef sig ⟨S2x65536, .i1⟩) (.of main_call17_v14 : StableHlo.TRef sig ⟨S2x64x65536, .i1⟩) (broadcastInDim S2x64x65536 ![0, 2] bcast_S2x65536_S2x64x65536_0_2),
    StableHlo.TRef.nullary (.of main_call17_cst : StableHlo.TRef sig ⟨S_, .f32⟩) (constant S_ .f32 0x7FC00000#32),
    StableHlo.TRef.unary (.of main_call17_cst : StableHlo.TRef sig ⟨S_, .f32⟩) (.of main_call17_v15 : StableHlo.TRef sig ⟨S2x64x65536, .f32⟩) (broadcastInDim S2x64x65536 ![] bcast_S_S2x64x65536),
    StableHlo.TRef.ternary (.of main_call17_v14 : StableHlo.TRef sig ⟨S2x64x65536, .i1⟩) (.of main_call17_v13 : StableHlo.TRef sig ⟨S2x64x65536, .f32⟩) (.of main_call17_v15 : StableHlo.TRef sig ⟨S2x64x65536, .f32⟩) (.of main_v157 : StableHlo.TRef sig ⟨S2x64x65536, .f32⟩) select,
    StableHlo.unary main_v157 main_v158 ((transpose S2x65536x64 [0, 2, 1] · transposes_S2x64x65536_S2x65536x64_0_2_1) : (⟨S2x64x65536, .f32⟩ : BufTy).Contents (Elt F) → (⟨S2x65536x64, .f32⟩ : BufTy).Contents (Elt F)) ]

set_option maxHeartbeats 40000000 in
/-- Segment 9: the fourth gather branch up to its flat index (86 operations). -/
abbrev K9 : List (HloOp τ sig (Elt F)) :=
  [ StableHlo.unary main_arg1 main_v159 ((extractStridedSlice S2x65536x1 ![0, 0, 0] · slices_S2x65536x2_S2x65536x1_0_0_0) : (⟨S2x65536x2, .f32⟩ : BufTy).Contents (Elt F) → (⟨S2x65536x1, .f32⟩ : BufTy).Contents (Elt F)),
    StableHlo.reshape main_v159 main_v160 rfl shapeCasts_S2x65536x1_S2x65536,
    StableHlo.nullary main_cst_61 (constant S_ .f32 0x3F800000#32),
    StableHlo.binary main_cst_61 main_v1 main_v161 (mulf : (⟨S_, .f32⟩ : BufTy).Contents (Elt F) → (⟨S_, .f32⟩ : BufTy).Contents (Elt F) → (⟨S_, .f32⟩ : BufTy).Contents (Elt F)),
    StableHlo.nullary main_cst_62 (constant S_ .f32 0x3B800000#32),
    StableHlo.binary main_v161 main_cst_62 main_v162 (mulf : (⟨S_, .f32⟩ : BufTy).Contents (Elt F) → (⟨S_, .f32⟩ : BufTy).Contents (Elt F) → (⟨S_, .f32⟩ : BufTy).Contents (Elt F)),
    StableHlo.unary main_v162 main_v163 (broadcastInDim S2x65536 ![] bcast_S_S2x65536 : (⟨S_, .f32⟩ : BufTy).Contents (Elt F) → (⟨S2x65536, .f32⟩ : BufTy).Contents (Elt F)),
    StableHlo.binary main_v160 main_v163 main_v164 (addf : (⟨S2x65536, .f32⟩ : BufTy).Contents (Elt F) → (⟨S2x65536, .f32⟩ : BufTy).Contents (Elt F) → (⟨S2x65536, .f32⟩ : BufTy).Contents (Elt F)),
    StableHlo.nullary main_cst_63 (constant S_ .f32 0x358637BD#32),
    StableHlo.unary main_cst_63 main_v165 (broadcastInDim S2x65536 ![] bcast_S_S2x65536 : (⟨S_, .f32⟩ : BufTy).Contents (Elt F) → (⟨S2x65536, .f32⟩ : BufTy).Contents (Elt F)),
    StableHlo.binary main_v164 main_v165 main_v166 (addf : (⟨S2x65536, .f32⟩ : BufTy).Contents (Elt F) → (⟨S2x65536, .f32⟩ : BufTy).Contents (Elt F) → (⟨S2x65536, .f32⟩ : BufTy).Contents (Elt F)),
    StableHlo.unary main_arg1 main_v167 ((extractStridedSlice S2x65536x1 ![0, 0, 1] · slices_S2x65536x2_S2x65536x1_0_0_1) : (⟨S2x65536x2, .f32⟩ : BufTy).Contents (Elt F) → (⟨S2x65536x1, .f32⟩ : BufTy).Contents (Elt F)),
    StableHlo.reshape main_v167 main_v168 rfl shapeCasts_S2x65536x1_S2x65536,
    StableHlo.nullary main_cst_64 (constant S_ .f32 0x3F800000#32),
    StableHlo.binary main_cst_64 main_v1 main_v169 (mulf : (⟨S_, .f32⟩ : BufTy).Contents (Elt F) → (⟨S_, .f32⟩ : BufTy).Contents (Elt F) → (⟨S_, .f32⟩ : BufTy).Contents (Elt F)),
    StableHlo.nullary main_cst_65 (constant S_ .f32 0x3B800000#32),
    StableHlo.binary main_v169 main_cst_65 main_v170 (mulf : (⟨S_, .f32⟩ : BufTy).Contents (Elt F) → (⟨S_, .f32⟩ : BufTy).Contents (Elt F) → (⟨S_, .f32⟩ : BufTy).Contents (Elt F)),
    StableHlo.unary main_v170 main_v171 (broadcastInDim S2x65536 ![] bcast_S_S2x65536 : (⟨S_, .f32⟩ : BufTy).Contents (Elt F) → (⟨S2x65536, .f32⟩ : BufTy).Contents (Elt F)),
    StableHlo.binary main_v168 main_v171 main_v172 (addf : (⟨S2x65536, .f32⟩ : BufTy).Contents (Elt F) → (⟨S2x65536, .f32⟩ : BufTy).Contents (Elt F) → (⟨S2x65536, .f32⟩ : BufTy).Contents (Elt F)),
    StableHlo.nullary main_cst_66 (constant S_ .f32 0x358637BD#32),
    StableHlo.unary main_cst_66 main_v173 (broadcastInDim S2x65536 ![] bcast_S_S2x65536 : (⟨S_, .f32⟩ : BufTy).Contents (Elt F) → (⟨S2x65536, .f32⟩ : BufTy).Contents (Elt F)),
    StableHlo.binary main_v172 main_v173 main_v174 (addf : (⟨S2x65536, .f32⟩ : BufTy).Contents (Elt F) → (⟨S2x65536, .f32⟩ : BufTy).Contents (Elt F) → (⟨S2x65536, .f32⟩ : BufTy).Contents (Elt F)),
    StableHlo.unary main_v166 main_v175 (broadcastInDim S2x65536x1 ![0, 1] bcast_S2x65536_S2x65536x1_0_1 : (⟨S2x65536, .f32⟩ : BufTy).Contents (Elt F) → (⟨S2x65536x1, .f32⟩ : BufTy).Contents (Elt F)),
    StableHlo.unary main_v174 main_v176 (broadcastInDim S2x65536x1 ![0, 1] bcast_S2x65536_S2x65536x1_0_1 : (⟨S2x65536, .f32⟩ : BufTy).Contents (Elt F) → (⟨S2x65536x1, .f32⟩ : BufTy).Contents (Elt F)),
    StableHlo.binary main_v175 main_v176 main_v177 ((fun a b => concatenate S2x65536x2 2 [⟨S2x65536x1, a⟩, ⟨S2x65536x1, b⟩] concatenates_S2x65536x1_S2x65536x1_S2x65536x2_d2) : (⟨S2x65536x1, .f32⟩ : BufTy).Contents (Elt F) → (⟨S2x65536x1, .f32⟩ : BufTy).Contents (Elt F) → (⟨S2x65536x2, .f32⟩ : BufTy).Contents (Elt F)),
    StableHlo.nullary main_cst_67 (constant S_ .f32 0xBF7FFFEF#32),
    StableHlo.nullary main_cst_68 (constant S_ .f32 0x3F7FFFEF#32),
    StableHlo.TRef.unary (.of main_cst_67 : StableHlo.TRef sig ⟨S_, .f32⟩) (.of main_call18_v0 : StableHlo.TRef sig ⟨S_, .f32⟩) id,
    StableHlo.TRef.unary (.of main_call18_v0 : StableHlo.TRef sig ⟨S_, .f32⟩) (.of main_call18_v1 : StableHlo.TRef sig ⟨S2x65536x2, .f32⟩) (broadcastInDim S2x65536x2 ![] bcast_S_S2x65536x2),
    StableHlo.TRef.binary (.of main_call18_v1 : StableHlo.TRef sig ⟨S2x65536x2, .f32⟩) (.of main_v177 : StableHlo.TRef sig ⟨S2x65536x2, .f32⟩) (.of main_call18_v2 : StableHlo.TRef sig ⟨S2x65536x2, .f32⟩) maximumf,
    StableHlo.TRef.unary (.of main_cst_68 : StableHlo.TRef sig ⟨S_, .f32⟩) (.of main_call18_v3 : StableHlo.TRef sig ⟨S_, .f32⟩) id,
    StableHlo.TRef.unary (.of main_call18_v3 : StableHlo.TRef sig ⟨S_, .f32⟩) (.of main_call18_v4 : StableHlo.TRef sig ⟨S2x65536x2, .f32⟩) (broadcastInDim S2x65536x2 ![] bcast_S_S2x65536x2),
    StableHlo.TRef.binary (.of main_call18_v4 : StableHlo.TRef sig ⟨S2x65536x2, .f32⟩) (.of main_call18_v2 : StableHlo.TRef sig ⟨S2x65536x2, .f32⟩) (.of main_v178 : StableHlo.TRef sig ⟨S2x65536x2, .f32⟩) minimumf,
    StableHlo.unary main_v178 main_v179 ((extractStridedSlice S2x65536x1 ![0, 0, 0] · slices_S2x65536x2_S2x65536x1_0_0_0) : (⟨S2x65536x2, .f32⟩ : BufTy).Contents (Elt F) → (⟨S2x65536x1, .f32⟩ : BufTy).Contents (Elt F)),
    StableHlo.reshape main_v179 main_v180 rfl shapeCasts_S2x65536x1_S2x65536,
    StableHlo.nullary main_cst_69 (constant S_ .f32 0x3F800000#32),
    StableHlo.unary main_cst_69 main_v181 (broadcastInDim S2x65536 ![] bcast_S_S2x65536 : (⟨S_, .f32⟩ : BufTy).Contents (Elt F) → (⟨S2x65536, .f32⟩ : BufTy).Contents (Elt F)),
    StableHlo.binary main_v180 main_v181 main_v182 (addf : (⟨S2x65536, .f32⟩ : BufTy).Contents (Elt F) → (⟨S2x65536, .f32⟩ : BufTy).Contents (Elt F) → (⟨S2x65536, .f32⟩ : BufTy).Contents (Elt F)),
    StableHlo.nullary main_cst_70 (constant S_ .f32 0x43800000#32),
    StableHlo.unary main_cst_70 main_v183 (broadcastInDim S2x65536 ![] bcast_S_S2x65536 : (⟨S_, .f32⟩ : BufTy).Contents (Elt F) → (⟨S2x65536, .f32⟩ : BufTy).Contents (Elt F)),
    StableHlo.binary main_v182 main_v183 main_v184 (mulf : (⟨S2x65536, .f32⟩ : BufTy).Contents (Elt F) → (⟨S2x65536, .f32⟩ : BufTy).Contents (Elt F) → (⟨S2x65536, .f32⟩ : BufTy).Contents (Elt F)),
    StableHlo.nullary main_cst_71 (constant S_ .f32 0x3F800000#32),
    StableHlo.unary main_cst_71 main_v185 (broadcastInDim S2x65536 ![] bcast_S_S2x65536 : (⟨S_, .f32⟩ : BufTy).Contents (Elt F) → (⟨S2x65536, .f32⟩ : BufTy).Contents (Elt F)),
    StableHlo.binary main_v184 main_v185 main_v186 (subf : (⟨S2x65536, .f32⟩ : BufTy).Contents (Elt F) → (⟨S2x65536, .f32⟩ : BufTy).Contents (Elt F) → (⟨S2x65536, .f32⟩ : BufTy).Contents (Elt F)),
    StableHlo.nullary main_cst_72 (constant S_ .f32 0x3F000000#32),
    StableHlo.unary main_cst_72 main_v187 (broadcastInDim S2x65536 ![] bcast_S_S2x65536 : (⟨S_, .f32⟩ : BufTy).Contents (Elt F) → (⟨S2x65536, .f32⟩ : BufTy).Contents (Elt F)),
    StableHlo.binary main_v186 main_v187 main_v188 (mulf : (⟨S2x65536, .f32⟩ : BufTy).Contents (Elt F) → (⟨S2x65536, .f32⟩ : BufTy).Contents (Elt F) → (⟨S2x65536, .f32⟩ : BufTy).Contents (Elt F)),
    StableHlo.TRef.unary (.of main_v188 : StableHlo.TRef sig ⟨S2x65536, .f32⟩) (.of main_v189 : StableHlo.TRef sig ⟨S2x65536, .f32⟩) Host.roundeven,
    StableHlo.nullary main_c_73 (constantI S_ 32 0#32),
    StableHlo.nullary main_c_74 (constantI S_ 32 255#32),
    StableHlo.TRef.unary (.of main_c_73 : StableHlo.TRef sig ⟨S_, .i32⟩) (.of main_call20_v0 : StableHlo.TRef sig ⟨S_, .f32⟩) (sitofp .f32),
    StableHlo.TRef.unary (.of main_call20_v0 : StableHlo.TRef sig ⟨S_, .f32⟩) (.of main_call20_v1 : StableHlo.TRef sig ⟨S2x65536, .f32⟩) (broadcastInDim S2x65536 ![] bcast_S_S2x65536),
    StableHlo.TRef.binary (.of main_call20_v1 : StableHlo.TRef sig ⟨S2x65536, .f32⟩) (.of main_v189 : StableHlo.TRef sig ⟨S2x65536, .f32⟩) (.of main_call20_v2 : StableHlo.TRef sig ⟨S2x65536, .f32⟩) maximumf,
    StableHlo.TRef.unary (.of main_c_74 : StableHlo.TRef sig ⟨S_, .i32⟩) (.of main_call20_v3 : StableHlo.TRef sig ⟨S_, .f32⟩) (sitofp .f32),
    StableHlo.TRef.unary (.of main_call20_v3 : StableHlo.TRef sig ⟨S_, .f32⟩) (.of main_call20_v4 : StableHlo.TRef sig ⟨S2x65536, .f32⟩) (broadcastInDim S2x65536 ![] bcast_S_S2x65536),
    StableHlo.TRef.binary (.of main_call20_v4 : StableHlo.TRef sig ⟨S2x65536, .f32⟩) (.of main_call20_v2 : StableHlo.TRef sig ⟨S2x65536, .f32⟩) (.of main_v190 : StableHlo.TRef sig ⟨S2x65536, .f32⟩) minimumf,
    StableHlo.unary main_v190 main_v191 (fptosi 32 : (⟨S2x65536, .f32⟩ : BufTy).Contents (Elt F) → (⟨S2x65536, .i32⟩ : BufTy).Contents (Elt F)),
    StableHlo.unary main_v178 main_v192 ((extractStridedSlice S2x65536x1 ![0, 0, 1] · slices_S2x65536x2_S2x65536x1_0_0_1) : (⟨S2x65536x2, .f32⟩ : BufTy).Contents (Elt F) → (⟨S2x65536x1, .f32⟩ : BufTy).Contents (Elt F)),
    StableHlo.reshape main_v192 main_v193 rfl shapeCasts_S2x65536x1_S2x65536,
    StableHlo.nullary main_cst_75 (constant S_ .f32 0x3F800000#32),
    StableHlo.unary main_cst_75 main_v194 (broadcastInDim S2x65536 ![] bcast_S_S2x65536 : (⟨S_, .f32⟩ : BufTy).Contents (Elt F) → (⟨S2x65536, .f32⟩ : BufTy).Contents (Elt F)),
    StableHlo.binary main_v193 main_v194 main_v195 (addf : (⟨S2x65536, .f32⟩ : BufTy).Contents (Elt F) → (⟨S2x65536, .f32⟩ : BufTy).Contents (Elt F) → (⟨S2x65536, .f32⟩ : BufTy).Contents (Elt F)),
    StableHlo.nullary main_cst_76 (constant S_ .f32 0x43800000#32),
    StableHlo.unary main_cst_76 main_v196 (broadcastInDim S2x65536 ![] bcast_S_S2x65536 : (⟨S_, .f32⟩ : BufTy).Contents (Elt F) → (⟨S2x65536, .f32⟩ : BufTy).Contents (Elt F)),
    StableHlo.binary main_v195 main_v196 main_v197 (mulf : (⟨S2x65536, .f32⟩ : BufTy).Contents (Elt F) → (⟨S2x65536, .f32⟩ : BufTy).Contents (Elt F) → (⟨S2x65536, .f32⟩ : BufTy).Contents (Elt F)),
    StableHlo.nullary main_cst_77 (constant S_ .f32 0x3F800000#32),
    StableHlo.unary main_cst_77 main_v198 (broadcastInDim S2x65536 ![] bcast_S_S2x65536 : (⟨S_, .f32⟩ : BufTy).Contents (Elt F) → (⟨S2x65536, .f32⟩ : BufTy).Contents (Elt F)),
    StableHlo.binary main_v197 main_v198 main_v199 (subf : (⟨S2x65536, .f32⟩ : BufTy).Contents (Elt F) → (⟨S2x65536, .f32⟩ : BufTy).Contents (Elt F) → (⟨S2x65536, .f32⟩ : BufTy).Contents (Elt F)),
    StableHlo.nullary main_cst_78 (constant S_ .f32 0x3F000000#32),
    StableHlo.unary main_cst_78 main_v200 (broadcastInDim S2x65536 ![] bcast_S_S2x65536 : (⟨S_, .f32⟩ : BufTy).Contents (Elt F) → (⟨S2x65536, .f32⟩ : BufTy).Contents (Elt F)),
    StableHlo.binary main_v199 main_v200 main_v201 (mulf : (⟨S2x65536, .f32⟩ : BufTy).Contents (Elt F) → (⟨S2x65536, .f32⟩ : BufTy).Contents (Elt F) → (⟨S2x65536, .f32⟩ : BufTy).Contents (Elt F)),
    StableHlo.TRef.unary (.of main_v201 : StableHlo.TRef sig ⟨S2x65536, .f32⟩) (.of main_v202 : StableHlo.TRef sig ⟨S2x65536, .f32⟩) Host.roundeven,
    StableHlo.nullary main_c_79 (constantI S_ 32 0#32),
    StableHlo.nullary main_c_80 (constantI S_ 32 255#32),
    StableHlo.TRef.unary (.of main_c_79 : StableHlo.TRef sig ⟨S_, .i32⟩) (.of main_call22_v0 : StableHlo.TRef sig ⟨S_, .f32⟩) (sitofp .f32),
    StableHlo.TRef.unary (.of main_call22_v0 : StableHlo.TRef sig ⟨S_, .f32⟩) (.of main_call22_v1 : StableHlo.TRef sig ⟨S2x65536, .f32⟩) (broadcastInDim S2x65536 ![] bcast_S_S2x65536),
    StableHlo.TRef.binary (.of main_call22_v1 : StableHlo.TRef sig ⟨S2x65536, .f32⟩) (.of main_v202 : StableHlo.TRef sig ⟨S2x65536, .f32⟩) (.of main_call22_v2 : StableHlo.TRef sig ⟨S2x65536, .f32⟩) maximumf,
    StableHlo.TRef.unary (.of main_c_80 : StableHlo.TRef sig ⟨S_, .i32⟩) (.of main_call22_v3 : StableHlo.TRef sig ⟨S_, .f32⟩) (sitofp .f32),
    StableHlo.TRef.unary (.of main_call22_v3 : StableHlo.TRef sig ⟨S_, .f32⟩) (.of main_call22_v4 : StableHlo.TRef sig ⟨S2x65536, .f32⟩) (broadcastInDim S2x65536 ![] bcast_S_S2x65536),
    StableHlo.TRef.binary (.of main_call22_v4 : StableHlo.TRef sig ⟨S2x65536, .f32⟩) (.of main_call22_v2 : StableHlo.TRef sig ⟨S2x65536, .f32⟩) (.of main_v203 : StableHlo.TRef sig ⟨S2x65536, .f32⟩) minimumf,
    StableHlo.unary main_v203 main_v204 (fptosi 32 : (⟨S2x65536, .f32⟩ : BufTy).Contents (Elt F) → (⟨S2x65536, .i32⟩ : BufTy).Contents (Elt F)),
    StableHlo.nullary main_c_81 (constantI S_ 32 256#32),
    StableHlo.unary main_c_81 main_v205 (broadcastInDim S2x65536 ![] bcast_S_S2x65536 : (⟨S_, .i32⟩ : BufTy).Contents (Elt F) → (⟨S2x65536, .i32⟩ : BufTy).Contents (Elt F)),
    StableHlo.binary main_v191 main_v205 main_v206 (muli : (⟨S2x65536, .i32⟩ : BufTy).Contents (Elt F) → (⟨S2x65536, .i32⟩ : BufTy).Contents (Elt F) → (⟨S2x65536, .i32⟩ : BufTy).Contents (Elt F)),
    StableHlo.binary main_v206 main_v204 main_v207 (addi : (⟨S2x65536, .i32⟩ : BufTy).Contents (Elt F) → (⟨S2x65536, .i32⟩ : BufTy).Contents (Elt F) → (⟨S2x65536, .i32⟩ : BufTy).Contents (Elt F)),
    StableHlo.unary main_v207 main_v208 (broadcastInDim S2x1x65536 ![0, 2] bcast_S2x65536_S2x1x65536_0_2 : (⟨S2x65536, .i32⟩ : BufTy).Contents (Elt F) → (⟨S2x1x65536, .i32⟩ : BufTy).Contents (Elt F)) ]

set_option maxHeartbeats 40000000 in
/-- Segment 10: the fourth gather's index wrap-around (8 operations). -/
abbrev K10 : List (HloOp τ sig (Elt F)) :=
  [ StableHlo.TRef.nullary (.of main_call23_c : StableHlo.TRef sig ⟨S_, .i32⟩) (constantI S_ 32 0#32),
    StableHlo.TRef.unary (.of main_call23_c : StableHlo.TRef sig ⟨S_, .i32⟩) (.of main_call23_v0 : StableHlo.TRef sig ⟨S2x1x65536, .i32⟩) (broadcastInDim S2x1x65536 ![] bcast_S_S2x1x65536),
    StableHlo.TRef.binary (.of main_v208 : StableHlo.TRef sig ⟨S2x1x65536, .i32⟩) (.of main_call23_v0 : StableHlo.TRef sig ⟨S2x1x65536, .i32⟩) (.of main_call23_v1 : StableHlo.TRef sig ⟨S2x1x65536, .i1⟩) (cmpi .slt),
    StableHlo.TRef.nullary (.of main_call23_c_0 : StableHlo.TRef sig ⟨S_, .i32⟩) (constantI S_ 32 65536#32),
    StableHlo.TRef.unary (.of main_call23_c_0 : StableHlo.TRef sig ⟨S_, .i32⟩) (.of main_call23_v2 : StableHlo.TRef sig ⟨S2x1x65536, .i32⟩) (broadcastInDim S2x1x65536 ![] bcast_S_S2x1x65536),
    StableHlo.TRef.binary (.of main_v208 : StableHlo.TRef sig ⟨S2x1x65536, .i32⟩) (.of main_call23_v2 : StableHlo.TRef sig ⟨S2x1x65536, .i32⟩) (.of main_call23_v3 : StableHlo.TRef sig ⟨S2x1x65536, .i32⟩) addi,
    StableHlo.TRef.ternary (.of main_call23_v1 : StableHlo.TRef sig ⟨S2x1x65536, .i1⟩) (.of main_call23_v3 : StableHlo.TRef sig ⟨S2x1x65536, .i32⟩) (.of main_v208 : StableHlo.TRef sig ⟨S2x1x65536, .i32⟩) (.of main_call23_v4 : StableHlo.TRef sig ⟨S2x1x65536, .i32⟩) select,
    StableHlo.TRef.reshape (.of main_call23_v4 : StableHlo.TRef sig ⟨S2x1x65536, .i32⟩) (.of main_call23_v5 : StableHlo.TRef sig ⟨S2x65536x1, .i32⟩) rfl shapeCasts_S2x1x65536_S2x65536x1 ]

set_option maxHeartbeats 40000000 in
/-- Segment 11: the fourth gather itself, then the concatenation of the four gathered blocks (17 operations). -/
abbrev K11 : List (HloOp τ sig (Elt F)) :=
  [ StableHlo.TRef.nullary (.of main_call23_c_1 : StableHlo.TRef sig ⟨S1, .i32⟩) (constantI S1 32 65535#32),
    StableHlo.TRef.nullary (.of main_call23_c_2 : StableHlo.TRef sig ⟨S_, .i32⟩) (constantI S_ 32 0#32),
    StableHlo.TRef.unary (.of main_call23_c_2 : StableHlo.TRef sig ⟨S_, .i32⟩) (.of main_call23_v6 : StableHlo.TRef sig ⟨S2x65536x1, .i32⟩) (broadcastInDim S2x65536x1 ![] bcast_S_S2x65536x1),
    StableHlo.TRef.binary (.of main_call23_v5 : StableHlo.TRef sig ⟨S2x65536x1, .i32⟩) (.of main_call23_v6 : StableHlo.TRef sig ⟨S2x65536x1, .i32⟩) (.of main_call23_v7 : StableHlo.TRef sig ⟨S2x65536x1, .i1⟩) (cmpi .sge),
    StableHlo.TRef.unary (.of main_call23_c_1 : StableHlo.TRef sig ⟨S1, .i32⟩) (.of main_call23_v8 : StableHlo.TRef sig ⟨S1x1x1, .i32⟩) (broadcastInDim S1x1x1 ![2] bcast_S1_S1x1x1_2),
    StableHlo.TRef.unary (.of main_call23_v8 : StableHlo.TRef sig ⟨S1x1x1, .i32⟩) (.of main_call23_v9 : StableHlo.TRef sig ⟨S2x65536x1, .i32⟩) (broadcastInDim S2x65536x1 ![0, 1, 2] bcast_S1x1x1_S2x65536x1_0_1_2),
    StableHlo.TRef.binary (.of main_call23_v5 : StableHlo.TRef sig ⟨S2x65536x1, .i32⟩) (.of main_call23_v9 : StableHlo.TRef sig ⟨S2x65536x1, .i32⟩) (.of main_call23_v10 : StableHlo.TRef sig ⟨S2x65536x1, .i1⟩) (cmpi .sle),
    StableHlo.TRef.binary (.of main_call23_v7 : StableHlo.TRef sig ⟨S2x65536x1, .i1⟩) (.of main_call23_v10 : StableHlo.TRef sig ⟨S2x65536x1, .i1⟩) (.of main_call23_v11 : StableHlo.TRef sig ⟨S2x65536x1, .i1⟩) andi,
    StableHlo.TRef.nullary (.of main_call23_c_3 : StableHlo.TRef sig ⟨S_, .i1⟩) (constantI S_ 1 1#1),
    StableHlo.TRef.binary (.of main_call23_v11 : StableHlo.TRef sig ⟨S2x65536x1, .i1⟩) (.of main_call23_c_3 : StableHlo.TRef sig ⟨S_, .i1⟩) (.of main_call23_v12 : StableHlo.TRef sig ⟨S2x65536, .i1⟩) (fun x v => Host.reduce IntOp.andi x v reducesTo_S2x65536x1_S2x65536_d2 h_S_),
    StableHlo.TRef.binary (.of main_v2 : StableHlo.TRef sig ⟨S2x64x65536, .f32⟩) (.of main_call23_v5 : StableHlo.TRef sig ⟨S2x65536x1, .i32⟩) (.of main_call23_v13 : StableHlo.TRef sig ⟨S2x64x65536, .f32⟩) (fun x i => Host.gather gather_S2x64x65536_S2x65536x1_S2x64x65536_1_2_0_0_2_2_1641 x i),
    StableHlo.TRef.unary (.of main_call23_v12 : StableHlo.TRef sig ⟨S2x65536, .i1⟩) (.of main_call23_v14 : StableHlo.TRef sig ⟨S2x64x65536, .i1⟩) (broadcastInDim S2x64x65536 ![0, 2] bcast_S2x65536_S2x64x65536_0_2),
    StableHlo.TRef.nullary (.of main_call23_cst : StableHlo.TRef sig ⟨S_, .f32⟩) (constant S_ .f32 0x7FC00000#32),
    StableHlo.TRef.unary (.of main_call23_cst : StableHlo.TRef sig ⟨S_, .f32⟩) (.of main_call23_v15 : StableHlo.TRef sig ⟨S2x64x65536, .f32⟩) (broadcastInDim S2x64x65536 ![] bcast_S_S2x64x65536),
    StableHlo.TRef.ternary (.of main_call23_v14 : StableHlo.TRef sig ⟨S2x64x65536, .i1⟩) (.of main_call23_v13 : StableHlo.TRef sig ⟨S2x64x65536, .f32⟩) (.of main_call23_v15 : StableHlo.TRef sig ⟨S2x64x65536, .f32⟩) (.of main_v209 : StableHlo.TRef sig ⟨S2x64x65536, .f32⟩) select,
    StableHlo.unary main_v209 main_v210 ((transpose S2x65536x64 [0, 2, 1] · transposes_S2x64x65536_S2x65536x64_0_2_1) : (⟨S2x64x65536, .f32⟩ : BufTy).Contents (Elt F) → (⟨S2x65536x64, .f32⟩ : BufTy).Contents (Elt F)),
    StableHlo.nary ![main_v54, main_v106, main_v158, main_v210] main_v211 (fun u => concatenate S2x65536x256 2 [⟨S2x65536x64, u 0⟩, ⟨S2x65536x64, u 1⟩, ⟨S2x65536x64, u 2⟩, ⟨S2x65536x64, u 3⟩] concatenates_S2x65536x64_S2x65536x64_S2x65536x64_S2x65536x64_S2x65536x256_d2) ]

set_option maxHeartbeats 40000000 in
/-- Segment 12: the 3×3 unfolding, the concatenations and the reshape to the [131072, 833] input (26 operations). -/
abbrev K12 : List (HloOp τ sig (Elt F)) :=
  [ StableHlo.nullary main_c_82 (constantI S_ 32 0#32),
    StableHlo.TRef.unary (.of main_c_82 : StableHlo.TRef sig ⟨S_, .i32⟩) (.of main_call24_v0 : StableHlo.TRef sig ⟨S_, .f32⟩) (sitofp .f32),
    StableHlo.TRef.binary (.of main_arg0 : StableHlo.TRef sig ⟨S2x64x256x256, .f32⟩) (.of main_call24_v0 : StableHlo.TRef sig ⟨S_, .f32⟩) (.of main_v212 : StableHlo.TRef sig ⟨S2x64x258x258, .f32⟩) (fun x v => pad S2x64x258x258 ![0, 0, 1, 1] ![0, 0, 1, 1] ![0, 0, 0, 0] x v pads_S2x64x256x256_S2x64x258x258_000_000_110_110 h_S_),
    StableHlo.unary main_v212 main_v213 ((extractStridedSlice S2x64x256x256 ![0, 0, 0, 0] · slices_S2x64x258x258_S2x64x256x256_0_0_0_0) : (⟨S2x64x258x258, .f32⟩ : BufTy).Contents (Elt F) → (⟨S2x64x256x256, .f32⟩ : BufTy).Contents (Elt F)),
    StableHlo.unary main_v212 main_v214 ((extractStridedSlice S2x64x256x256 ![0, 0, 0, 1] · slices_S2x64x258x258_S2x64x256x256_0_0_0_1) : (⟨S2x64x258x258, .f32⟩ : BufTy).Contents (Elt F) → (⟨S2x64x256x256, .f32⟩ : BufTy).Contents (Elt F)),
    StableHlo.unary main_v212 main_v215 ((extractStridedSlice S2x64x256x256 ![0, 0, 0, 2] · slices_S2x64x258x258_S2x64x256x256_0_0_0_2) : (⟨S2x64x258x258, .f32⟩ : BufTy).Contents (Elt F) → (⟨S2x64x256x256, .f32⟩ : BufTy).Contents (Elt F)),
    StableHlo.unary main_v212 main_v216 ((extractStridedSlice S2x64x256x256 ![0, 0, 1, 0] · slices_S2x64x258x258_S2x64x256x256_0_0_1_0) : (⟨S2x64x258x258, .f32⟩ : BufTy).Contents (Elt F) → (⟨S2x64x256x256, .f32⟩ : BufTy).Contents (Elt F)),
    StableHlo.unary main_v212 main_v217 ((extractStridedSlice S2x64x256x256 ![0, 0, 1, 1] · slices_S2x64x258x258_S2x64x256x256_0_0_1_1) : (⟨S2x64x258x258, .f32⟩ : BufTy).Contents (Elt F) → (⟨S2x64x256x256, .f32⟩ : BufTy).Contents (Elt F)),
    StableHlo.unary main_v212 main_v218 ((extractStridedSlice S2x64x256x256 ![0, 0, 1, 2] · slices_S2x64x258x258_S2x64x256x256_0_0_1_2) : (⟨S2x64x258x258, .f32⟩ : BufTy).Contents (Elt F) → (⟨S2x64x256x256, .f32⟩ : BufTy).Contents (Elt F)),
    StableHlo.unary main_v212 main_v219 ((extractStridedSlice S2x64x256x256 ![0, 0, 2, 0] · slices_S2x64x258x258_S2x64x256x256_0_0_2_0) : (⟨S2x64x258x258, .f32⟩ : BufTy).Contents (Elt F) → (⟨S2x64x256x256, .f32⟩ : BufTy).Contents (Elt F)),
    StableHlo.unary main_v212 main_v220 ((extractStridedSlice S2x64x256x256 ![0, 0, 2, 1] · slices_S2x64x258x258_S2x64x256x256_0_0_2_1) : (⟨S2x64x258x258, .f32⟩ : BufTy).Contents (Elt F) → (⟨S2x64x256x256, .f32⟩ : BufTy).Contents (Elt F)),
    StableHlo.unary main_v212 main_v221 ((extractStridedSlice S2x64x256x256 ![0, 0, 2, 2] · slices_S2x64x258x258_S2x64x256x256_0_0_2_2) : (⟨S2x64x258x258, .f32⟩ : BufTy).Contents (Elt F) → (⟨S2x64x256x256, .f32⟩ : BufTy).Contents (Elt F)),
    StableHlo.unary main_v213 main_v222 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    StableHlo.unary main_v214 main_v223 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    StableHlo.unary main_v215 main_v224 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    StableHlo.unary main_v216 main_v225 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    StableHlo.unary main_v217 main_v226 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    StableHlo.unary main_v218 main_v227 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    StableHlo.unary main_v219 main_v228 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    StableHlo.unary main_v220 main_v229 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    StableHlo.unary main_v221 main_v230 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    StableHlo.nary ![main_v222, main_v223, main_v224, main_v225, main_v226, main_v227, main_v228, main_v229, main_v230] main_v231 (fun u => concatenate S2x64x9x256x256 2 [⟨S2x64x1x256x256, u 0⟩, ⟨S2x64x1x256x256, u 1⟩, ⟨S2x64x1x256x256, u 2⟩, ⟨S2x64x1x256x256, u 3⟩, ⟨S2x64x1x256x256, u 4⟩, ⟨S2x64x1x256x256, u 5⟩, ⟨S2x64x1x256x256, u 6⟩, ⟨S2x64x1x256x256, u 7⟩, ⟨S2x64x1x256x256, u 8⟩] concatenates_S2x64x1x256x256_S2x64x1x256x256_S2x64x1x256x256_S2x64x1x256x256_S2x64x1x256x256_S2x64x1x256x256_S2x64x1x256x256_S2x64x1x256x256_S2x64x1x256x256_S2x64x9x256x256_d2),
    StableHlo.reshape main_v231 main_v232 rfl shapeCasts_S2x64x9x256x256_S2x576x65536,
    StableHlo.unary main_v232 main_v233 ((transpose S2x65536x576 [0, 2, 1] · transposes_S2x576x65536_S2x65536x576_0_2_1) : (⟨S2x576x65536, .f32⟩ : BufTy).Contents (Elt F) → (⟨S2x65536x576, .f32⟩ : BufTy).Contents (Elt F)),
    StableHlo.nary ![main_v211, main_v233, main_arg2] main_v234 (fun u => concatenate S2x65536x833 2 [⟨S2x65536x256, u 0⟩, ⟨S2x65536x576, u 1⟩, ⟨S2x65536x1, u 2⟩] concatenates_S2x65536x256_S2x65536x576_S2x65536x1_S2x65536x833_d2),
    StableHlo.reshape main_v234 main_v235 rfl shapeCasts_S2x65536x833_S131072x833 ]

set_option maxHeartbeats 40000000 in
/-- Segment 13: the reshapes of the five biases to [1, N] (5 operations). -/
abbrev K13 : List (HloOp τ sig (Elt F)) :=
  [ StableHlo.reshape main_arg4 main_v236 rfl shapeCasts_S256_S1x256,
    StableHlo.reshape main_arg6 main_v237 rfl shapeCasts_S256_S1x256,
    StableHlo.reshape main_arg8 main_v238 rfl shapeCasts_S256_S1x256,
    StableHlo.reshape main_arg10 main_v239 rfl shapeCasts_S256_S1x256,
    StableHlo.reshape main_arg12 main_v240 rfl shapeCasts_S3_S1x3 ]

set_option maxRecDepth 100000 in
/-- The operations before the region are the segments in order. -/
theorem pre_eq : List.flatten (pre (F := F)) = K0 ++ (K1 ++ (K2 ++ (K3 ++ (K4 ++ (K5 ++ (K6 ++ (K7 ++ (K8 ++ (K9 ++ (K10 ++ (K11 ++ (K12 ++ (K13))))))))))))) := by
  chain_rfl

end Cert.KHead

end
-- ==== Proof.KHeadKeeps.lean ====
/-
  What each segment of the host operations before the kernel region leaves alone.

  The program numbers its buffers in the order its operations produce them (the thirteen arguments first), and each
  operation writes exactly one buffer, its own result.  So a segment writes only buffers whose index is at least that
  of its first operation's result, and every buffer of smaller index — an argument, or a result of an earlier
  segment — holds after the segment what it held before.
-/
import proofs.«145896_j91079076479405_1_alg».proof.Proof.KHeadSegs

noncomputable section

namespace Cert.KHead

open Idealize.ShloMosaic Idealize.ShloMosaic.TcCoe Idealize.SL.Sem Idealize.ShloMosaic.StableHlo
open Cert.KernelIdeal Cert.KernelIdeal.Gen Cert.KernelIdeal.Mlp

variable {F : FTy → Type} [FloatOps F]

set_option maxRecDepth 100000 in
/-- Each operation of segment 0 writes one buffer, its result, of index at least 13. -/
theorem K0_writes : (K0 (F := F)).Forall fun op => ∃ y : Ref sig .tc, op.writes = {Proc.devRef .tc y} ∧ 13 ≤ y.idx.val :=
  ⟨
    ⟨_, StableHlo.unary_writes .., by decide⟩, ⟨_, StableHlo.reshape_writes .., by decide⟩, ⟨_, StableHlo.reshape_writes .., by decide⟩, ⟨_, StableHlo.unary_writes .., by decide⟩,
    ⟨_, StableHlo.reshape_writes .., by decide⟩, ⟨_, StableHlo.nullary_writes .., by decide⟩, ⟨_, StableHlo.binary_writes .., by decide⟩, ⟨_, StableHlo.nullary_writes .., by decide⟩,
    ⟨_, StableHlo.binary_writes .., by decide⟩, ⟨_, StableHlo.unary_writes .., by decide⟩, ⟨_, StableHlo.binary_writes .., by decide⟩, ⟨_, StableHlo.nullary_writes .., by decide⟩,
    ⟨_, StableHlo.unary_writes .., by decide⟩, ⟨_, StableHlo.binary_writes .., by decide⟩, ⟨_, StableHlo.unary_writes .., by decide⟩, ⟨_, StableHlo.reshape_writes .., by decide⟩,
    ⟨_, StableHlo.nullary_writes .., by decide⟩, ⟨_, StableHlo.binary_writes .., by decide⟩, ⟨_, StableHlo.nullary_writes .., by decide⟩, ⟨_, StableHlo.binary_writes .., by decide⟩,
    ⟨_, StableHlo.unary_writes .., by decide⟩, ⟨_, StableHlo.binary_writes .., by decide⟩, ⟨_, StableHlo.nullary_writes .., by decide⟩, ⟨_, StableHlo.unary_writes .., by decide⟩,
    ⟨_, StableHlo.binary_writes .., by decide⟩, ⟨_, StableHlo.unary_writes .., by decide⟩, ⟨_, StableHlo.unary_writes .., by decide⟩, ⟨_, StableHlo.binary_writes .., by decide⟩,
    ⟨_, StableHlo.nullary_writes .., by decide⟩, ⟨_, StableHlo.nullary_writes .., by decide⟩, ⟨_, StableHlo.unary_writes .., by decide⟩, ⟨_, StableHlo.unary_writes .., by decide⟩,
    ⟨_, StableHlo.binary_writes .., by decide⟩, ⟨_, StableHlo.unary_writes .., by decide⟩, ⟨_, StableHlo.unary_writes .., by decide⟩, ⟨_, StableHlo.binary_writes .., by decide⟩,
    ⟨_, StableHlo.unary_writes .., by decide⟩, ⟨_, StableHlo.reshape_writes .., by decide⟩, ⟨_, StableHlo.nullary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩, ⟨_, StableHlo.nullary_writes .., by decide⟩,
    ⟨_, StableHlo.unary_writes .., by decide⟩, ⟨_, StableHlo.binary_writes .., by decide⟩, ⟨_, StableHlo.unary_writes .., by decide⟩, ⟨_, StableHlo.nullary_writes .., by decide⟩,
    ⟨_, StableHlo.nullary_writes .., by decide⟩, ⟨_, StableHlo.unary_writes .., by decide⟩, ⟨_, StableHlo.unary_writes .., by decide⟩, ⟨_, StableHlo.binary_writes .., by decide⟩,
    ⟨_, StableHlo.unary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.reshape_writes .., by decide⟩, ⟨_, StableHlo.nullary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩, ⟨_, StableHlo.nullary_writes .., by decide⟩,
    ⟨_, StableHlo.unary_writes .., by decide⟩, ⟨_, StableHlo.binary_writes .., by decide⟩, ⟨_, StableHlo.unary_writes .., by decide⟩, ⟨_, StableHlo.nullary_writes .., by decide⟩,
    ⟨_, StableHlo.nullary_writes .., by decide⟩, ⟨_, StableHlo.unary_writes .., by decide⟩, ⟨_, StableHlo.unary_writes .., by decide⟩, ⟨_, StableHlo.binary_writes .., by decide⟩,
    ⟨_, StableHlo.unary_writes .., by decide⟩, ⟨_, StableHlo.unary_writes .., by decide⟩, ⟨_, StableHlo.binary_writes .., by decide⟩, ⟨_, StableHlo.unary_writes .., by decide⟩,
    ⟨_, StableHlo.nullary_writes .., by decide⟩, ⟨_, StableHlo.unary_writes .., by decide⟩, ⟨_, StableHlo.binary_writes .., by decide⟩, ⟨_, StableHlo.binary_writes .., by decide⟩,
    ⟨_, StableHlo.unary_writes .., by decide⟩⟩

/-- So segment 0 leaves every buffer of index below 13 as it was. -/
theorem K0_keep (w : Valuation τ sig (Elt F)) (r : Ref sig .tc) (hr : r.idx.val < 13) :
    StableHlo.after (K0 (F := F)) w (Proc.devRef .tc r) = w (Proc.devRef .tc r) :=
  StableHlo.after_of_forall_not_mem (b := Proc.devRef .tc r) _ _ fun op hop hb => by
    obtain ⟨y, hy, hge⟩ := List.forall_iff_forall_mem.mp (K0_writes (F := F)) op hop
    rw [hy, Finset.mem_singleton] at hb
    obtain rfl : r = y := Proc.devRef_injective _ hb
    omega

set_option maxRecDepth 100000 in
/-- Each operation of segment 1 writes one buffer, its result, of index at least 102. -/
theorem K1_writes : (K1 (F := F)).Forall fun op => ∃ y : Ref sig .tc, op.writes = {Proc.devRef .tc y} ∧ 102 ≤ y.idx.val :=
  ⟨
    ⟨_, StableHlo.nullary_writes .., by decide⟩, ⟨_, StableHlo.unary_writes .., by decide⟩, ⟨_, StableHlo.binary_writes .., by decide⟩, ⟨_, StableHlo.nullary_writes .., by decide⟩,
    ⟨_, StableHlo.unary_writes .., by decide⟩, ⟨_, StableHlo.binary_writes .., by decide⟩, ⟨_, StableHlo.ternary_writes .., by decide⟩, ⟨_, StableHlo.reshape_writes .., by decide⟩⟩

/-- So segment 1 leaves every buffer of index below 102 as it was. -/
theorem K1_keep (w : Valuation τ sig (Elt F)) (r : Ref sig .tc) (hr : r.idx.val < 102) :
    StableHlo.after (K1 (F := F)) w (Proc.devRef .tc r) = w (Proc.devRef .tc r) :=
  StableHlo.after_of_forall_not_mem (b := Proc.devRef .tc r) _ _ fun op hop hb => by
    obtain ⟨y, hy, hge⟩ := List.forall_iff_forall_mem.mp (K1_writes (F := F)) op hop
    rw [hy, Finset.mem_singleton] at hb
    obtain rfl : r = y := Proc.devRef_injective _ hb
    omega

set_option maxRecDepth 100000 in
/-- Each operation of segment 2 writes one buffer, its result, of index at least 110. -/
theorem K2_writes : (K2 (F := F)).Forall fun op => ∃ y : Ref sig .tc, op.writes = {Proc.devRef .tc y} ∧ 110 ≤ y.idx.val :=
  ⟨
    ⟨_, StableHlo.nullary_writes .., by decide⟩, ⟨_, StableHlo.nullary_writes .., by decide⟩, ⟨_, StableHlo.unary_writes .., by decide⟩, ⟨_, StableHlo.binary_writes .., by decide⟩,
    ⟨_, StableHlo.unary_writes .., by decide⟩, ⟨_, StableHlo.unary_writes .., by decide⟩, ⟨_, StableHlo.binary_writes .., by decide⟩, ⟨_, StableHlo.binary_writes .., by decide⟩,
    ⟨_, StableHlo.nullary_writes .., by decide⟩, ⟨_, StableHlo.binary_writes .., by decide⟩, ⟨_, StableHlo.binary_writes .., by decide⟩, ⟨_, StableHlo.unary_writes .., by decide⟩,
    ⟨_, StableHlo.nullary_writes .., by decide⟩, ⟨_, StableHlo.unary_writes .., by decide⟩, ⟨_, StableHlo.ternary_writes .., by decide⟩, ⟨_, StableHlo.unary_writes .., by decide⟩⟩

/-- So segment 2 leaves every buffer of index below 110 as it was. -/
theorem K2_keep (w : Valuation τ sig (Elt F)) (r : Ref sig .tc) (hr : r.idx.val < 110) :
    StableHlo.after (K2 (F := F)) w (Proc.devRef .tc r) = w (Proc.devRef .tc r) :=
  StableHlo.after_of_forall_not_mem (b := Proc.devRef .tc r) _ _ fun op hop hb => by
    obtain ⟨y, hy, hge⟩ := List.forall_iff_forall_mem.mp (K2_writes (F := F)) op hop
    rw [hy, Finset.mem_singleton] at hb
    obtain rfl : r = y := Proc.devRef_injective _ hb
    omega

set_option maxRecDepth 100000 in
/-- Each operation of segment 3 writes one buffer, its result, of index at least 126. -/
theorem K3_writes : (K3 (F := F)).Forall fun op => ∃ y : Ref sig .tc, op.writes = {Proc.devRef .tc y} ∧ 126 ≤ y.idx.val :=
  ⟨
    ⟨_, StableHlo.unary_writes .., by decide⟩, ⟨_, StableHlo.reshape_writes .., by decide⟩, ⟨_, StableHlo.nullary_writes .., by decide⟩, ⟨_, StableHlo.binary_writes .., by decide⟩,
    ⟨_, StableHlo.nullary_writes .., by decide⟩, ⟨_, StableHlo.binary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩, ⟨_, StableHlo.unary_writes .., by decide⟩,
    ⟨_, StableHlo.reshape_writes .., by decide⟩, ⟨_, StableHlo.nullary_writes .., by decide⟩, ⟨_, StableHlo.binary_writes .., by decide⟩, ⟨_, StableHlo.nullary_writes .., by decide⟩,
    ⟨_, StableHlo.binary_writes .., by decide⟩, ⟨_, StableHlo.unary_writes .., by decide⟩, ⟨_, StableHlo.binary_writes .., by decide⟩, ⟨_, StableHlo.nullary_writes .., by decide⟩,
    ⟨_, StableHlo.unary_writes .., by decide⟩, ⟨_, StableHlo.binary_writes .., by decide⟩, ⟨_, StableHlo.unary_writes .., by decide⟩, ⟨_, StableHlo.unary_writes .., by decide⟩,
    ⟨_, StableHlo.binary_writes .., by decide⟩, ⟨_, StableHlo.nullary_writes .., by decide⟩, ⟨_, StableHlo.nullary_writes .., by decide⟩, ⟨_, StableHlo.unary_writes .., by decide⟩,
    ⟨_, StableHlo.unary_writes .., by decide⟩, ⟨_, StableHlo.binary_writes .., by decide⟩, ⟨_, StableHlo.unary_writes .., by decide⟩, ⟨_, StableHlo.unary_writes .., by decide⟩,
    ⟨_, StableHlo.binary_writes .., by decide⟩, ⟨_, StableHlo.unary_writes .., by decide⟩, ⟨_, StableHlo.reshape_writes .., by decide⟩, ⟨_, StableHlo.nullary_writes .., by decide⟩,
    ⟨_, StableHlo.unary_writes .., by decide⟩, ⟨_, StableHlo.binary_writes .., by decide⟩, ⟨_, StableHlo.nullary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩, ⟨_, StableHlo.unary_writes .., by decide⟩,
    ⟨_, StableHlo.nullary_writes .., by decide⟩, ⟨_, StableHlo.nullary_writes .., by decide⟩, ⟨_, StableHlo.unary_writes .., by decide⟩, ⟨_, StableHlo.unary_writes .., by decide⟩,
    ⟨_, StableHlo.binary_writes .., by decide⟩, ⟨_, StableHlo.unary_writes .., by decide⟩, ⟨_, StableHlo.unary_writes .., by decide⟩, ⟨_, StableHlo.binary_writes .., by decide⟩,
    ⟨_, StableHlo.unary_writes .., by decide⟩, ⟨_, StableHlo.unary_writes .., by decide⟩, ⟨_, StableHlo.reshape_writes .., by decide⟩, ⟨_, StableHlo.nullary_writes .., by decide⟩,
    ⟨_, StableHlo.unary_writes .., by decide⟩, ⟨_, StableHlo.binary_writes .., by decide⟩, ⟨_, StableHlo.nullary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩, ⟨_, StableHlo.unary_writes .., by decide⟩,
    ⟨_, StableHlo.nullary_writes .., by decide⟩, ⟨_, StableHlo.nullary_writes .., by decide⟩, ⟨_, StableHlo.unary_writes .., by decide⟩, ⟨_, StableHlo.unary_writes .., by decide⟩,
    ⟨_, StableHlo.binary_writes .., by decide⟩, ⟨_, StableHlo.unary_writes .., by decide⟩, ⟨_, StableHlo.unary_writes .., by decide⟩, ⟨_, StableHlo.binary_writes .., by decide⟩,
    ⟨_, StableHlo.unary_writes .., by decide⟩, ⟨_, StableHlo.nullary_writes .., by decide⟩, ⟨_, StableHlo.unary_writes .., by decide⟩, ⟨_, StableHlo.binary_writes .., by decide⟩,
    ⟨_, StableHlo.binary_writes .., by decide⟩, ⟨_, StableHlo.unary_writes .., by decide⟩⟩

/-- So segment 3 leaves every buffer of index below 126 as it was. -/
theorem K3_keep (w : Valuation τ sig (Elt F)) (r : Ref sig .tc) (hr : r.idx.val < 126) :
    StableHlo.after (K3 (F := F)) w (Proc.devRef .tc r) = w (Proc.devRef .tc r) :=
  StableHlo.after_of_forall_not_mem (b := Proc.devRef .tc r) _ _ fun op hop hb => by
    obtain ⟨y, hy, hge⟩ := List.forall_iff_forall_mem.mp (K3_writes (F := F)) op hop
    rw [hy, Finset.mem_singleton] at hb
    obtain rfl : r = y := Proc.devRef_injective _ hb
    omega

set_option maxRecDepth 100000 in
/-- Each operation of segment 4 writes one buffer, its result, of index at least 212. -/
theorem K4_writes : (K4 (F := F)).Forall fun op => ∃ y : Ref sig .tc, op.writes = {Proc.devRef .tc y} ∧ 212 ≤ y.idx.val :=
  ⟨
    ⟨_, StableHlo.nullary_writes .., by decide⟩, ⟨_, StableHlo.unary_writes .., by decide⟩, ⟨_, StableHlo.binary_writes .., by decide⟩, ⟨_, StableHlo.nullary_writes .., by decide⟩,
    ⟨_, StableHlo.unary_writes .., by decide⟩, ⟨_, StableHlo.binary_writes .., by decide⟩, ⟨_, StableHlo.ternary_writes .., by decide⟩, ⟨_, StableHlo.reshape_writes .., by decide⟩⟩

/-- So segment 4 leaves every buffer of index below 212 as it was. -/
theorem K4_keep (w : Valuation τ sig (Elt F)) (r : Ref sig .tc) (hr : r.idx.val < 212) :
    StableHlo.after (K4 (F := F)) w (Proc.devRef .tc r) = w (Proc.devRef .tc r) :=
  StableHlo.after_of_forall_not_mem (b := Proc.devRef .tc r) _ _ fun op hop hb => by
    obtain ⟨y, hy, hge⟩ := List.forall_iff_forall_mem.mp (K4_writes (F := F)) op hop
    rw [hy, Finset.mem_singleton] at hb
    obtain rfl : r = y := Proc.devRef_injective _ hb
    omega

set_option maxRecDepth 100000 in
/-- Each operation of segment 5 writes one buffer, its result, of index at least 220. -/
theorem K5_writes : (K5 (F := F)).Forall fun op => ∃ y : Ref sig .tc, op.writes = {Proc.devRef .tc y} ∧ 220 ≤ y.idx.val :=
  ⟨
    ⟨_, StableHlo.nullary_writes .., by decide⟩, ⟨_, StableHlo.nullary_writes .., by decide⟩, ⟨_, StableHlo.unary_writes .., by decide⟩, ⟨_, StableHlo.binary_writes .., by decide⟩,
    ⟨_, StableHlo.unary_writes .., by decide⟩, ⟨_, StableHlo.unary_writes .., by decide⟩, ⟨_, StableHlo.binary_writes .., by decide⟩, ⟨_, StableHlo.binary_writes .., by decide⟩,
    ⟨_, StableHlo.nullary_writes .., by decide⟩, ⟨_, StableHlo.binary_writes .., by decide⟩, ⟨_, StableHlo.binary_writes .., by decide⟩, ⟨_, StableHlo.unary_writes .., by decide⟩,
    ⟨_, StableHlo.nullary_writes .., by decide⟩, ⟨_, StableHlo.unary_writes .., by decide⟩, ⟨_, StableHlo.ternary_writes .., by decide⟩, ⟨_, StableHlo.unary_writes .., by decide⟩⟩

/-- So segment 5 leaves every buffer of index below 220 as it was. -/
theorem K5_keep (w : Valuation τ sig (Elt F)) (r : Ref sig .tc) (hr : r.idx.val < 220) :
    StableHlo.after (K5 (F := F)) w (Proc.devRef .tc r) = w (Proc.devRef .tc r) :=
  StableHlo.after_of_forall_not_mem (b := Proc.devRef .tc r) _ _ fun op hop hb => by
    obtain ⟨y, hy, hge⟩ := List.forall_iff_forall_mem.mp (K5_writes (F := F)) op hop
    rw [hy, Finset.mem_singleton] at hb
    obtain rfl : r = y := Proc.devRef_injective _ hb
    omega

set_option maxRecDepth 100000 in
/-- Each operation of segment 6 writes one buffer, its result, of index at least 236. -/
theorem K6_writes : (K6 (F := F)).Forall fun op => ∃ y : Ref sig .tc, op.writes = {Proc.devRef .tc y} ∧ 236 ≤ y.idx.val :=
  ⟨
    ⟨_, StableHlo.unary_writes .., by decide⟩, ⟨_, StableHlo.reshape_writes .., by decide⟩, ⟨_, StableHlo.nullary_writes .., by decide⟩, ⟨_, StableHlo.binary_writes .., by decide⟩,
    ⟨_, StableHlo.nullary_writes .., by decide⟩, ⟨_, StableHlo.binary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩, ⟨_, StableHlo.unary_writes .., by decide⟩,
    ⟨_, StableHlo.reshape_writes .., by decide⟩, ⟨_, StableHlo.nullary_writes .., by decide⟩, ⟨_, StableHlo.binary_writes .., by decide⟩, ⟨_, StableHlo.nullary_writes .., by decide⟩,
    ⟨_, StableHlo.binary_writes .., by decide⟩, ⟨_, StableHlo.unary_writes .., by decide⟩, ⟨_, StableHlo.binary_writes .., by decide⟩, ⟨_, StableHlo.nullary_writes .., by decide⟩,
    ⟨_, StableHlo.unary_writes .., by decide⟩, ⟨_, StableHlo.binary_writes .., by decide⟩, ⟨_, StableHlo.unary_writes .., by decide⟩, ⟨_, StableHlo.unary_writes .., by decide⟩,
    ⟨_, StableHlo.binary_writes .., by decide⟩, ⟨_, StableHlo.nullary_writes .., by decide⟩, ⟨_, StableHlo.nullary_writes .., by decide⟩, ⟨_, StableHlo.unary_writes .., by decide⟩,
    ⟨_, StableHlo.unary_writes .., by decide⟩, ⟨_, StableHlo.binary_writes .., by decide⟩, ⟨_, StableHlo.unary_writes .., by decide⟩, ⟨_, StableHlo.unary_writes .., by decide⟩,
    ⟨_, StableHlo.binary_writes .., by decide⟩, ⟨_, StableHlo.unary_writes .., by decide⟩, ⟨_, StableHlo.reshape_writes .., by decide⟩, ⟨_, StableHlo.nullary_writes .., by decide⟩,
    ⟨_, StableHlo.unary_writes .., by decide⟩, ⟨_, StableHlo.binary_writes .., by decide⟩, ⟨_, StableHlo.nullary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩, ⟨_, StableHlo.unary_writes .., by decide⟩,
    ⟨_, StableHlo.nullary_writes .., by decide⟩, ⟨_, StableHlo.nullary_writes .., by decide⟩, ⟨_, StableHlo.unary_writes .., by decide⟩, ⟨_, StableHlo.unary_writes .., by decide⟩,
    ⟨_, StableHlo.binary_writes .., by decide⟩, ⟨_, StableHlo.unary_writes .., by decide⟩, ⟨_, StableHlo.unary_writes .., by decide⟩, ⟨_, StableHlo.binary_writes .., by decide⟩,
    ⟨_, StableHlo.unary_writes .., by decide⟩, ⟨_, StableHlo.unary_writes .., by decide⟩, ⟨_, StableHlo.reshape_writes .., by decide⟩, ⟨_, StableHlo.nullary_writes .., by decide⟩,
    ⟨_, StableHlo.unary_writes .., by decide⟩, ⟨_, StableHlo.binary_writes .., by decide⟩, ⟨_, StableHlo.nullary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩, ⟨_, StableHlo.unary_writes .., by decide⟩,
    ⟨_, StableHlo.nullary_writes .., by decide⟩, ⟨_, StableHlo.nullary_writes .., by decide⟩, ⟨_, StableHlo.unary_writes .., by decide⟩, ⟨_, StableHlo.unary_writes .., by decide⟩,
    ⟨_, StableHlo.binary_writes .., by decide⟩, ⟨_, StableHlo.unary_writes .., by decide⟩, ⟨_, StableHlo.unary_writes .., by decide⟩, ⟨_, StableHlo.binary_writes .., by decide⟩,
    ⟨_, StableHlo.unary_writes .., by decide⟩, ⟨_, StableHlo.nullary_writes .., by decide⟩, ⟨_, StableHlo.unary_writes .., by decide⟩, ⟨_, StableHlo.binary_writes .., by decide⟩,
    ⟨_, StableHlo.binary_writes .., by decide⟩, ⟨_, StableHlo.unary_writes .., by decide⟩⟩

/-- So segment 6 leaves every buffer of index below 236 as it was. -/
theorem K6_keep (w : Valuation τ sig (Elt F)) (r : Ref sig .tc) (hr : r.idx.val < 236) :
    StableHlo.after (K6 (F := F)) w (Proc.devRef .tc r) = w (Proc.devRef .tc r) :=
  StableHlo.after_of_forall_not_mem (b := Proc.devRef .tc r) _ _ fun op hop hb => by
    obtain ⟨y, hy, hge⟩ := List.forall_iff_forall_mem.mp (K6_writes (F := F)) op hop
    rw [hy, Finset.mem_singleton] at hb
    obtain rfl : r = y := Proc.devRef_injective _ hb
    omega

set_option maxRecDepth 100000 in
/-- Each operation of segment 7 writes one buffer, its result, of index at least 322. -/
theorem K7_writes : (K7 (F := F)).Forall fun op => ∃ y : Ref sig .tc, op.writes = {Proc.devRef .tc y} ∧ 322 ≤ y.idx.val :=
  ⟨
    ⟨_, StableHlo.nullary_writes .., by decide⟩, ⟨_, StableHlo.unary_writes .., by decide⟩, ⟨_, StableHlo.binary_writes .., by decide⟩, ⟨_, StableHlo.nullary_writes .., by decide⟩,
    ⟨_, StableHlo.unary_writes .., by decide⟩, ⟨_, StableHlo.binary_writes .., by decide⟩, ⟨_, StableHlo.ternary_writes .., by decide⟩, ⟨_, StableHlo.reshape_writes .., by decide⟩⟩

/-- So segment 7 leaves every buffer of index below 322 as it was. -/
theorem K7_keep (w : Valuation τ sig (Elt F)) (r : Ref sig .tc) (hr : r.idx.val < 322) :
    StableHlo.after (K7 (F := F)) w (Proc.devRef .tc r) = w (Proc.devRef .tc r) :=
  StableHlo.after_of_forall_not_mem (b := Proc.devRef .tc r) _ _ fun op hop hb => by
    obtain ⟨y, hy, hge⟩ := List.forall_iff_forall_mem.mp (K7_writes (F := F)) op hop
    rw [hy, Finset.mem_singleton] at hb
    obtain rfl : r = y := Proc.devRef_injective _ hb
    omega

set_option maxRecDepth 100000 in
/-- Each operation of segment 8 writes one buffer, its result, of index at least 330. -/
theorem K8_writes : (K8 (F := F)).Forall fun op => ∃ y : Ref sig .tc, op.writes = {Proc.devRef .tc y} ∧ 330 ≤ y.idx.val :=
  ⟨
    ⟨_, StableHlo.nullary_writes .., by decide⟩, ⟨_, StableHlo.nullary_writes .., by decide⟩, ⟨_, StableHlo.unary_writes .., by decide⟩, ⟨_, StableHlo.binary_writes .., by decide⟩,
    ⟨_, StableHlo.unary_writes .., by decide⟩, ⟨_, StableHlo.unary_writes .., by decide⟩, ⟨_, StableHlo.binary_writes .., by decide⟩, ⟨_, StableHlo.binary_writes .., by decide⟩,
    ⟨_, StableHlo.nullary_writes .., by decide⟩, ⟨_, StableHlo.binary_writes .., by decide⟩, ⟨_, StableHlo.binary_writes .., by decide⟩, ⟨_, StableHlo.unary_writes .., by decide⟩,
    ⟨_, StableHlo.nullary_writes .., by decide⟩, ⟨_, StableHlo.unary_writes .., by decide⟩, ⟨_, StableHlo.ternary_writes .., by decide⟩, ⟨_, StableHlo.unary_writes .., by decide⟩⟩

/-- So segment 8 leaves every buffer of index below 330 as it was. -/
theorem K8_keep (w : Valuation τ sig (Elt F)) (r : Ref sig .tc) (hr : r.idx.val < 330) :
    StableHlo.after (K8 (F := F)) w (Proc.devRef .tc r) = w (Proc.devRef .tc r) :=
  StableHlo.after_of_forall_not_mem (b := Proc.devRef .tc r) _ _ fun op hop hb => by
    obtain ⟨y, hy, hge⟩ := List.forall_iff_forall_mem.mp (K8_writes (F := F)) op hop
    rw [hy, Finset.mem_singleton] at hb
    obtain rfl : r = y := Proc.devRef_injective _ hb
    omega

set_option maxRecDepth 100000 in
/-- Each operation of segment 9 writes one buffer, its result, of index at least 346. -/
theorem K9_writes : (K9 (F := F)).Forall fun op => ∃ y : Ref sig .tc, op.writes = {Proc.devRef .tc y} ∧ 346 ≤ y.idx.val :=
  ⟨
    ⟨_, StableHlo.unary_writes .., by decide⟩, ⟨_, StableHlo.reshape_writes .., by decide⟩, ⟨_, StableHlo.nullary_writes .., by decide⟩, ⟨_, StableHlo.binary_writes .., by decide⟩,
    ⟨_, StableHlo.nullary_writes .., by decide⟩, ⟨_, StableHlo.binary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩, ⟨_, StableHlo.unary_writes .., by decide⟩,
    ⟨_, StableHlo.reshape_writes .., by decide⟩, ⟨_, StableHlo.nullary_writes .., by decide⟩, ⟨_, StableHlo.binary_writes .., by decide⟩, ⟨_, StableHlo.nullary_writes .., by decide⟩,
    ⟨_, StableHlo.binary_writes .., by decide⟩, ⟨_, StableHlo.unary_writes .., by decide⟩, ⟨_, StableHlo.binary_writes .., by decide⟩, ⟨_, StableHlo.nullary_writes .., by decide⟩,
    ⟨_, StableHlo.unary_writes .., by decide⟩, ⟨_, StableHlo.binary_writes .., by decide⟩, ⟨_, StableHlo.unary_writes .., by decide⟩, ⟨_, StableHlo.unary_writes .., by decide⟩,
    ⟨_, StableHlo.binary_writes .., by decide⟩, ⟨_, StableHlo.nullary_writes .., by decide⟩, ⟨_, StableHlo.nullary_writes .., by decide⟩, ⟨_, StableHlo.unary_writes .., by decide⟩,
    ⟨_, StableHlo.unary_writes .., by decide⟩, ⟨_, StableHlo.binary_writes .., by decide⟩, ⟨_, StableHlo.unary_writes .., by decide⟩, ⟨_, StableHlo.unary_writes .., by decide⟩,
    ⟨_, StableHlo.binary_writes .., by decide⟩, ⟨_, StableHlo.unary_writes .., by decide⟩, ⟨_, StableHlo.reshape_writes .., by decide⟩, ⟨_, StableHlo.nullary_writes .., by decide⟩,
    ⟨_, StableHlo.unary_writes .., by decide⟩, ⟨_, StableHlo.binary_writes .., by decide⟩, ⟨_, StableHlo.nullary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩, ⟨_, StableHlo.unary_writes .., by decide⟩,
    ⟨_, StableHlo.nullary_writes .., by decide⟩, ⟨_, StableHlo.nullary_writes .., by decide⟩, ⟨_, StableHlo.unary_writes .., by decide⟩, ⟨_, StableHlo.unary_writes .., by decide⟩,
    ⟨_, StableHlo.binary_writes .., by decide⟩, ⟨_, StableHlo.unary_writes .., by decide⟩, ⟨_, StableHlo.unary_writes .., by decide⟩, ⟨_, StableHlo.binary_writes .., by decide⟩,
    ⟨_, StableHlo.unary_writes .., by decide⟩, ⟨_, StableHlo.unary_writes .., by decide⟩, ⟨_, StableHlo.reshape_writes .., by decide⟩, ⟨_, StableHlo.nullary_writes .., by decide⟩,
    ⟨_, StableHlo.unary_writes .., by decide⟩, ⟨_, StableHlo.binary_writes .., by decide⟩, ⟨_, StableHlo.nullary_writes .., by decide⟩, ⟨_, StableHlo.unary_writes .., by decide⟩,
    ⟨_, StableHlo.binary_writes .., by decide⟩, ⟨_, StableHlo.nullary_writes .., by decide⟩, ⟨_, StableHlo.unary_writes .., by decide⟩, ⟨_, StableHlo.binary_writes .., by decide⟩,
    ⟨_, StableHlo.nullary_writes .., by decide⟩, ⟨_, StableHlo.unary_writes .., by decide⟩, ⟨_, StableHlo.binary_writes .., by decide⟩, ⟨_, StableHlo.unary_writes .., by decide⟩,
    ⟨_, StableHlo.nullary_writes .., by decide⟩, ⟨_, StableHlo.nullary_writes .., by decide⟩, ⟨_, StableHlo.unary_writes .., by decide⟩, ⟨_, StableHlo.unary_writes .., by decide⟩,
    ⟨_, StableHlo.binary_writes .., by decide⟩, ⟨_, StableHlo.unary_writes .., by decide⟩, ⟨_, StableHlo.unary_writes .., by decide⟩, ⟨_, StableHlo.binary_writes .., by decide⟩,
    ⟨_, StableHlo.unary_writes .., by decide⟩, ⟨_, StableHlo.nullary_writes .., by decide⟩, ⟨_, StableHlo.unary_writes .., by decide⟩, ⟨_, StableHlo.binary_writes .., by decide⟩,
    ⟨_, StableHlo.binary_writes .., by decide⟩, ⟨_, StableHlo.unary_writes .., by decide⟩⟩

/-- So segment 9 leaves every buffer of index below 346 as it was. -/
theorem K9_keep (w : Valuation τ sig (Elt F)) (r : Ref sig .tc) (hr : r.idx.val < 346) :
    StableHlo.after (K9 (F := F)) w (Proc.devRef .tc r) = w (Proc.devRef .tc r) :=
  StableHlo.after_of_forall_not_mem (b := Proc.devRef .tc r) _ _ fun op hop hb => by
    obtain ⟨y, hy, hge⟩ := List.forall_iff_forall_mem.mp (K9_writes (F := F)) op hop
    rw [hy, Finset.mem_singleton] at hb
    obtain rfl : r = y := Proc.devRef_injective _ hb
    omega

set_option maxRecDepth 100000 in
/-- Each operation of segment 10 writes one buffer, its result, of index at least 432. -/
theorem K10_writes : (K10 (F := F)).Forall fun op => ∃ y : Ref sig .tc, op.writes = {Proc.devRef .tc y} ∧ 432 ≤ y.idx.val :=
  ⟨
    ⟨_, StableHlo.nullary_writes .., by decide⟩, ⟨_, StableHlo.unary_writes .., by decide⟩, ⟨_, StableHlo.binary_writes .., by decide⟩, ⟨_, StableHlo.nullary_writes .., by decide⟩,
    ⟨_, StableHlo.unary_writes .., by decide⟩, ⟨_, StableHlo.binary_writes .., by decide⟩, ⟨_, StableHlo.ternary_writes .., by decide⟩, ⟨_, StableHlo.reshape_writes .., by decide⟩⟩

/-- So segment 10 leaves every buffer of index below 432 as it was. -/
theorem K10_keep (w : Valuation τ sig (Elt F)) (r : Ref sig .tc) (hr : r.idx.val < 432) :
    StableHlo.after (K10 (F := F)) w (Proc.devRef .tc r) = w (Proc.devRef .tc r) :=
  StableHlo.after_of_forall_not_mem (b := Proc.devRef .tc r) _ _ fun op hop hb => by
    obtain ⟨y, hy, hge⟩ := List.forall_iff_forall_mem.mp (K10_writes (F := F)) op hop
    rw [hy, Finset.mem_singleton] at hb
    obtain rfl : r = y := Proc.devRef_injective _ hb
    omega

set_option maxRecDepth 100000 in
/-- Each operation of segment 11 writes one buffer, its result, of index at least 440. -/
theorem K11_writes : (K11 (F := F)).Forall fun op => ∃ y : Ref sig .tc, op.writes = {Proc.devRef .tc y} ∧ 440 ≤ y.idx.val :=
  ⟨
    ⟨_, StableHlo.nullary_writes .., by decide⟩, ⟨_, StableHlo.nullary_writes .., by decide⟩, ⟨_, StableHlo.unary_writes .., by decide⟩, ⟨_, StableHlo.binary_writes .., by decide⟩,
    ⟨_, StableHlo.unary_writes .., by decide⟩, ⟨_, StableHlo.unary_writes .., by decide⟩, ⟨_, StableHlo.binary_writes .., by decide⟩, ⟨_, StableHlo.binary_writes .., by decide⟩,
    ⟨_, StableHlo.nullary_writes .., by decide⟩, ⟨_, StableHlo.binary_writes .., by decide⟩, ⟨_, StableHlo.binary_writes .., by decide⟩, ⟨_, StableHlo.unary_writes .., by decide⟩,
    ⟨_, StableHlo.nullary_writes .., by decide⟩, ⟨_, StableHlo.unary_writes .., by decide⟩, ⟨_, StableHlo.ternary_writes .., by decide⟩, ⟨_, StableHlo.unary_writes .., by decide⟩,
    ⟨_, StableHlo.nary_writes .., by decide⟩⟩

/-- So segment 11 leaves every buffer of index below 440 as it was. -/
theorem K11_keep (w : Valuation τ sig (Elt F)) (r : Ref sig .tc) (hr : r.idx.val < 440) :
    StableHlo.after (K11 (F := F)) w (Proc.devRef .tc r) = w (Proc.devRef .tc r) :=
  StableHlo.after_of_forall_not_mem (b := Proc.devRef .tc r) _ _ fun op hop hb => by
    obtain ⟨y, hy, hge⟩ := List.forall_iff_forall_mem.mp (K11_writes (F := F)) op hop
    rw [hy, Finset.mem_singleton] at hb
    obtain rfl : r = y := Proc.devRef_injective _ hb
    omega

set_option maxRecDepth 100000 in
/-- Each operation of segment 12 writes one buffer, its result, of index at least 457. -/
theorem K12_writes : (K12 (F := F)).Forall fun op => ∃ y : Ref sig .tc, op.writes = {Proc.devRef .tc y} ∧ 457 ≤ y.idx.val :=
  ⟨
    ⟨_, StableHlo.nullary_writes .., by decide⟩, ⟨_, StableHlo.unary_writes .., by decide⟩, ⟨_, StableHlo.binary_writes .., by decide⟩, ⟨_, StableHlo.unary_writes .., by decide⟩,
    ⟨_, StableHlo.unary_writes .., by decide⟩, ⟨_, StableHlo.unary_writes .., by decide⟩, ⟨_, StableHlo.unary_writes .., by decide⟩, ⟨_, StableHlo.unary_writes .., by decide⟩,
    ⟨_, StableHlo.unary_writes .., by decide⟩, ⟨_, StableHlo.unary_writes .., by decide⟩, ⟨_, StableHlo.unary_writes .., by decide⟩, ⟨_, StableHlo.unary_writes .., by decide⟩,
    ⟨_, StableHlo.unary_writes .., by decide⟩, ⟨_, StableHlo.unary_writes .., by decide⟩, ⟨_, StableHlo.unary_writes .., by decide⟩, ⟨_, StableHlo.unary_writes .., by decide⟩,
    ⟨_, StableHlo.unary_writes .., by decide⟩, ⟨_, StableHlo.unary_writes .., by decide⟩, ⟨_, StableHlo.unary_writes .., by decide⟩, ⟨_, StableHlo.unary_writes .., by decide⟩,
    ⟨_, StableHlo.unary_writes .., by decide⟩, ⟨_, StableHlo.nary_writes .., by decide⟩, ⟨_, StableHlo.reshape_writes .., by decide⟩, ⟨_, StableHlo.unary_writes .., by decide⟩,
    ⟨_, StableHlo.nary_writes .., by decide⟩, ⟨_, StableHlo.reshape_writes .., by decide⟩⟩

/-- So segment 12 leaves every buffer of index below 457 as it was. -/
theorem K12_keep (w : Valuation τ sig (Elt F)) (r : Ref sig .tc) (hr : r.idx.val < 457) :
    StableHlo.after (K12 (F := F)) w (Proc.devRef .tc r) = w (Proc.devRef .tc r) :=
  StableHlo.after_of_forall_not_mem (b := Proc.devRef .tc r) _ _ fun op hop hb => by
    obtain ⟨y, hy, hge⟩ := List.forall_iff_forall_mem.mp (K12_writes (F := F)) op hop
    rw [hy, Finset.mem_singleton] at hb
    obtain rfl : r = y := Proc.devRef_injective _ hb
    omega

set_option maxRecDepth 100000 in
/-- Each operation of segment 13 writes one buffer, its result, of index at least 483. -/
theorem K13_writes : (K13 (F := F)).Forall fun op => ∃ y : Ref sig .tc, op.writes = {Proc.devRef .tc y} ∧ 483 ≤ y.idx.val :=
  ⟨
    ⟨_, StableHlo.reshape_writes .., by decide⟩, ⟨_, StableHlo.reshape_writes .., by decide⟩, ⟨_, StableHlo.reshape_writes .., by decide⟩, ⟨_, StableHlo.reshape_writes .., by decide⟩,
    ⟨_, StableHlo.reshape_writes .., by decide⟩⟩

/-- So segment 13 leaves every buffer of index below 483 as it was. -/
theorem K13_keep (w : Valuation τ sig (Elt F)) (r : Ref sig .tc) (hr : r.idx.val < 483) :
    StableHlo.after (K13 (F := F)) w (Proc.devRef .tc r) = w (Proc.devRef .tc r) :=
  StableHlo.after_of_forall_not_mem (b := Proc.devRef .tc r) _ _ fun op hop hb => by
    obtain ⟨y, hy, hge⟩ := List.forall_iff_forall_mem.mp (K13_writes (F := F)) op hop
    rw [hy, Finset.mem_singleton] at hb
    obtain rfl : r = y := Proc.devRef_injective _ hb
    omega

end Cert.KHead

end
-- ==== Proof.KHeadA.lean ====
/-
  Segments 0 … 2 of the host operations before the kernel region, each read from an arbitrary memory: the buffer a
  segment leaves for the later ones holds the reference program's stage of the matching name, read from the arguments'
  contents in that memory, once the buffers the segment reads from before it are set to their stages.  Each is the
  segment's fold opened operation by operation and compared with the stage's definition: the two programs build the
  network input by the same operations in the same order.
-/
import proofs.«145896_j91079076479405_1_alg».proof.Proof.KHeadSegs
import proofs.«145896_j91079076479405_1_alg».proof.Proof.RefRead

noncomputable section

namespace Cert.KHead

open Idealize.ShloMosaic Idealize.ShloMosaic.TcCoe Idealize.SL.Sem Idealize.ShloMosaic.StableHlo
open Cert.KernelIdeal Cert.KernelIdeal.Gen Cert.KernelIdeal.Mlp

variable {F : FTy → Type} [FloatOps F]

set_option maxRecDepth 100000 in
set_option maxHeartbeats 40000000 in
theorem K0_v1 (w : Valuation τ sig (Elt F)) :
    StableHlo.after (K0 (F := F)) w (Proc.devRef .tc main_v1)
      = Cert.ReferenceIdeal.ReadP.val_main_v1 (F := F) (w (Proc.devRef .tc main_arg2)) := by
  khead_results <;> chain_rfl

set_option maxRecDepth 100000 in
set_option maxHeartbeats 40000000 in
theorem K0_v2 (w : Valuation τ sig (Elt F)) :
    StableHlo.after (K0 (F := F)) w (Proc.devRef .tc main_v2)
      = Cert.ReferenceIdeal.ReadP.val_main_v51 (F := F) (w (Proc.devRef .tc main_arg0)) := by
  khead_results <;> chain_rfl

set_option maxRecDepth 100000 in
set_option maxHeartbeats 40000000 in
theorem K0_v52 (w : Valuation τ sig (Elt F)) :
    StableHlo.after (K0 (F := F)) w (Proc.devRef .tc main_v52)
      = Cert.ReferenceIdeal.ReadP.val_main_v52 (F := F) (w (Proc.devRef .tc main_arg1)) (w (Proc.devRef .tc main_arg2)) := by
  khead_results <;> chain_rfl

set_option maxRecDepth 100000 in
set_option maxHeartbeats 40000000 in
theorem K1_call5_v5 (w : Valuation τ sig (Elt F)) :
    StableHlo.after (K1 (F := F)) ((StableHlo.nullary (τ := τ) main_v52 (Cert.ReferenceIdeal.ReadP.val_main_v52 (F := F) (w (Proc.devRef .tc main_arg1)) (w (Proc.devRef .tc main_arg2)))).result w) (Proc.devRef .tc main_call5_v5)
      = Cert.ReferenceIdeal.ReadP.val_main_call5_v5 (F := F) (w (Proc.devRef .tc main_arg1)) (w (Proc.devRef .tc main_arg2)) := by
  khead_results <;> chain_rfl

set_option maxRecDepth 100000 in
set_option maxHeartbeats 40000000 in
theorem K2_v54 (w : Valuation τ sig (Elt F)) :
    StableHlo.after (K2 (F := F)) ((StableHlo.nullary (τ := τ) main_v2 (Cert.ReferenceIdeal.ReadP.val_main_v51 (F := F) (w (Proc.devRef .tc main_arg0)))).result ((StableHlo.nullary (τ := τ) main_call5_v5 (Cert.ReferenceIdeal.ReadP.val_main_call5_v5 (F := F) (w (Proc.devRef .tc main_arg1)) (w (Proc.devRef .tc main_arg2)))).result w)) (Proc.devRef .tc main_v54)
      = Cert.ReferenceIdeal.ReadP.val_main_v54 (F := F) (w (Proc.devRef .tc main_arg0)) (w (Proc.devRef .tc main_arg1)) (w (Proc.devRef .tc main_arg2)) := by
  khead_results <;> chain_rfl

end Cert.KHead

end
-- ==== Proof.KHeadB.lean ====
/-
  Segments 3 … 7 of the host operations before the kernel region, each read from an arbitrary memory: the buffer a
  segment leaves for the later ones holds the reference program's stage of the matching name, read from the arguments'
  contents in that memory, once the buffers the segment reads from before it are set to their stages.  Each is the
  segment's fold opened operation by operation and compared with the stage's definition: the two programs build the
  network input by the same operations in the same order.
-/
import proofs.«145896_j91079076479405_1_alg».proof.Proof.KHeadSegs
import proofs.«145896_j91079076479405_1_alg».proof.Proof.RefRead

noncomputable section

namespace Cert.KHead

open Idealize.ShloMosaic Idealize.ShloMosaic.TcCoe Idealize.SL.Sem Idealize.ShloMosaic.StableHlo
open Cert.KernelIdeal Cert.KernelIdeal.Gen Cert.KernelIdeal.Mlp

variable {F : FTy → Type} [FloatOps F]

set_option maxRecDepth 100000 in
set_option maxHeartbeats 40000000 in
theorem K3_v104 (w : Valuation τ sig (Elt F)) :
    StableHlo.after (K3 (F := F)) ((StableHlo.nullary (τ := τ) main_v1 (Cert.ReferenceIdeal.ReadP.val_main_v1 (F := F) (w (Proc.devRef .tc main_arg2)))).result w) (Proc.devRef .tc main_v104)
      = Cert.ReferenceIdeal.ReadP.val_main_v105 (F := F) (w (Proc.devRef .tc main_arg1)) (w (Proc.devRef .tc main_arg2)) := by
  khead_results <;> chain_rfl

set_option maxRecDepth 100000 in
set_option maxHeartbeats 40000000 in
theorem K4_call11_v5 (w : Valuation τ sig (Elt F)) :
    StableHlo.after (K4 (F := F)) ((StableHlo.nullary (τ := τ) main_v104 (Cert.ReferenceIdeal.ReadP.val_main_v105 (F := F) (w (Proc.devRef .tc main_arg1)) (w (Proc.devRef .tc main_arg2)))).result w) (Proc.devRef .tc main_call11_v5)
      = Cert.ReferenceIdeal.ReadP.val_main_call11_v5 (F := F) (w (Proc.devRef .tc main_arg1)) (w (Proc.devRef .tc main_arg2)) := by
  khead_results <;> chain_rfl

set_option maxRecDepth 100000 in
set_option maxHeartbeats 40000000 in
theorem K5_v106 (w : Valuation τ sig (Elt F)) :
    StableHlo.after (K5 (F := F)) ((StableHlo.nullary (τ := τ) main_v2 (Cert.ReferenceIdeal.ReadP.val_main_v104 (F := F) (w (Proc.devRef .tc main_arg0)))).result ((StableHlo.nullary (τ := τ) main_call11_v5 (Cert.ReferenceIdeal.ReadP.val_main_call11_v5 (F := F) (w (Proc.devRef .tc main_arg1)) (w (Proc.devRef .tc main_arg2)))).result w)) (Proc.devRef .tc main_v106)
      = Cert.ReferenceIdeal.ReadP.val_main_v107 (F := F) (w (Proc.devRef .tc main_arg0)) (w (Proc.devRef .tc main_arg1)) (w (Proc.devRef .tc main_arg2)) := by
  khead_results <;> chain_rfl

set_option maxRecDepth 100000 in
set_option maxHeartbeats 40000000 in
theorem K6_v156 (w : Valuation τ sig (Elt F)) :
    StableHlo.after (K6 (F := F)) ((StableHlo.nullary (τ := τ) main_v1 (Cert.ReferenceIdeal.ReadP.val_main_v1 (F := F) (w (Proc.devRef .tc main_arg2)))).result w) (Proc.devRef .tc main_v156)
      = Cert.ReferenceIdeal.ReadP.val_main_v158 (F := F) (w (Proc.devRef .tc main_arg1)) (w (Proc.devRef .tc main_arg2)) := by
  khead_results <;> chain_rfl

set_option maxRecDepth 100000 in
set_option maxHeartbeats 40000000 in
theorem K7_call17_v5 (w : Valuation τ sig (Elt F)) :
    StableHlo.after (K7 (F := F)) ((StableHlo.nullary (τ := τ) main_v156 (Cert.ReferenceIdeal.ReadP.val_main_v158 (F := F) (w (Proc.devRef .tc main_arg1)) (w (Proc.devRef .tc main_arg2)))).result w) (Proc.devRef .tc main_call17_v5)
      = Cert.ReferenceIdeal.ReadP.val_main_call17_v5 (F := F) (w (Proc.devRef .tc main_arg1)) (w (Proc.devRef .tc main_arg2)) := by
  khead_results <;> chain_rfl

end Cert.KHead

end
-- ==== Proof.KHeadC.lean ====
/-
  Segments 8 … 11 of the host operations before the kernel region, each read from an arbitrary memory: the buffer a
  segment leaves for the later ones holds the reference program's stage of the matching name, read from the arguments'
  contents in that memory, once the buffers the segment reads from before it are set to their stages.  Each is the
  segment's fold opened operation by operation and compared with the stage's definition: the two programs build the
  network input by the same operations in the same order.
-/
import proofs.«145896_j91079076479405_1_alg».proof.Proof.KHeadSegs
import proofs.«145896_j91079076479405_1_alg».proof.Proof.RefRead

noncomputable section

namespace Cert.KHead

open Idealize.ShloMosaic Idealize.ShloMosaic.TcCoe Idealize.SL.Sem Idealize.ShloMosaic.StableHlo
open Cert.KernelIdeal Cert.KernelIdeal.Gen Cert.KernelIdeal.Mlp

variable {F : FTy → Type} [FloatOps F]

set_option maxRecDepth 100000 in
set_option maxHeartbeats 40000000 in
theorem K8_v158 (w : Valuation τ sig (Elt F)) :
    StableHlo.after (K8 (F := F)) ((StableHlo.nullary (τ := τ) main_v2 (Cert.ReferenceIdeal.ReadP.val_main_v157 (F := F) (w (Proc.devRef .tc main_arg0)))).result ((StableHlo.nullary (τ := τ) main_call17_v5 (Cert.ReferenceIdeal.ReadP.val_main_call17_v5 (F := F) (w (Proc.devRef .tc main_arg1)) (w (Proc.devRef .tc main_arg2)))).result w)) (Proc.devRef .tc main_v158)
      = Cert.ReferenceIdeal.ReadP.val_main_v160 (F := F) (w (Proc.devRef .tc main_arg0)) (w (Proc.devRef .tc main_arg1)) (w (Proc.devRef .tc main_arg2)) := by
  khead_results <;> chain_rfl

set_option maxRecDepth 100000 in
set_option maxHeartbeats 40000000 in
theorem K9_v208 (w : Valuation τ sig (Elt F)) :
    StableHlo.after (K9 (F := F)) ((StableHlo.nullary (τ := τ) main_v1 (Cert.ReferenceIdeal.ReadP.val_main_v1 (F := F) (w (Proc.devRef .tc main_arg2)))).result w) (Proc.devRef .tc main_v208)
      = Cert.ReferenceIdeal.ReadP.val_main_v211 (F := F) (w (Proc.devRef .tc main_arg1)) (w (Proc.devRef .tc main_arg2)) := by
  khead_results <;> chain_rfl

set_option maxRecDepth 100000 in
set_option maxHeartbeats 40000000 in
theorem K10_call23_v5 (w : Valuation τ sig (Elt F)) :
    StableHlo.after (K10 (F := F)) ((StableHlo.nullary (τ := τ) main_v208 (Cert.ReferenceIdeal.ReadP.val_main_v211 (F := F) (w (Proc.devRef .tc main_arg1)) (w (Proc.devRef .tc main_arg2)))).result w) (Proc.devRef .tc main_call23_v5)
      = Cert.ReferenceIdeal.ReadP.val_main_call23_v5 (F := F) (w (Proc.devRef .tc main_arg1)) (w (Proc.devRef .tc main_arg2)) := by
  khead_results <;> chain_rfl

set_option maxRecDepth 100000 in
set_option maxHeartbeats 40000000 in
theorem K11_v211 (w : Valuation τ sig (Elt F)) :
    StableHlo.after (K11 (F := F)) ((StableHlo.nullary (τ := τ) main_v158 (Cert.ReferenceIdeal.ReadP.val_main_v160 (F := F) (w (Proc.devRef .tc main_arg0)) (w (Proc.devRef .tc main_arg1)) (w (Proc.devRef .tc main_arg2)))).result ((StableHlo.nullary (τ := τ) main_v106 (Cert.ReferenceIdeal.ReadP.val_main_v107 (F := F) (w (Proc.devRef .tc main_arg0)) (w (Proc.devRef .tc main_arg1)) (w (Proc.devRef .tc main_arg2)))).result ((StableHlo.nullary (τ := τ) main_v54 (Cert.ReferenceIdeal.ReadP.val_main_v54 (F := F) (w (Proc.devRef .tc main_arg0)) (w (Proc.devRef .tc main_arg1)) (w (Proc.devRef .tc main_arg2)))).result ((StableHlo.nullary (τ := τ) main_v2 (Cert.ReferenceIdeal.ReadP.val_main_v210 (F := F) (w (Proc.devRef .tc main_arg0)))).result ((StableHlo.nullary (τ := τ) main_call23_v5 (Cert.ReferenceIdeal.ReadP.val_main_call23_v5 (F := F) (w (Proc.devRef .tc main_arg1)) (w (Proc.devRef .tc main_arg2)))).result w))))) (Proc.devRef .tc main_v211)
      = Cert.ReferenceIdeal.ReadP.val_main_v214 (F := F) (w (Proc.devRef .tc main_arg0)) (w (Proc.devRef .tc main_arg1)) (w (Proc.devRef .tc main_arg2)) := by
  khead_results <;> chain_rfl

end Cert.KHead

end
-- ==== Proof.KHeadD1.lean ====
/-
  The unfolding segment of the host operations before the kernel region, cut in three, and what each part leaves
  alone.

  The segment pads the first argument, takes the nine shifted slices of the padded array and concatenates them, then
  reshapes and transposes the result, concatenates it with the gathered blocks and the third argument, and reshapes
  to the [131072, 833] input.  The three parts are the segment's operations verbatim, in order (`K12_eq`).  As for
  the whole segments, each part writes only buffers whose index is at least that of its first operation's result.
-/
import proofs.«145896_j91079076479405_1_alg».proof.Proof.KHeadSegs

noncomputable section

namespace Cert.KHead

open Idealize.ShloMosaic Idealize.ShloMosaic.TcCoe Idealize.SL.Sem Idealize.ShloMosaic.StableHlo
open Cert.KernelIdeal Cert.KernelIdeal.Gen Cert.KernelIdeal.Mlp

variable {F : FTy → Type} [FloatOps F]

set_option maxHeartbeats 40000000 in
/-- The padding of the first argument (3 operations). -/
abbrev K12a : List (HloOp τ sig (Elt F)) :=
  [ StableHlo.nullary main_c_82 (constantI S_ 32 0#32),
    StableHlo.TRef.unary (.of main_c_82 : StableHlo.TRef sig ⟨S_, .i32⟩) (.of main_call24_v0 : StableHlo.TRef sig ⟨S_, .f32⟩) (sitofp .f32),
    StableHlo.TRef.binary (.of main_arg0 : StableHlo.TRef sig ⟨S2x64x256x256, .f32⟩) (.of main_call24_v0 : StableHlo.TRef sig ⟨S_, .f32⟩) (.of main_v212 : StableHlo.TRef sig ⟨S2x64x258x258, .f32⟩) (fun x v => pad S2x64x258x258 ![0, 0, 1, 1] ![0, 0, 1, 1] ![0, 0, 0, 0] x v pads_S2x64x256x256_S2x64x258x258_000_000_110_110 h_S_) ]

set_option maxHeartbeats 40000000 in
/-- The nine shifted slices of the padded array, broadcast and concatenated (19 operations). -/
abbrev K12b : List (HloOp τ sig (Elt F)) :=
  [ StableHlo.unary main_v212 main_v213 ((extractStridedSlice S2x64x256x256 ![0, 0, 0, 0] · slices_S2x64x258x258_S2x64x256x256_0_0_0_0) : (⟨S2x64x258x258, .f32⟩ : BufTy).Contents (Elt F) → (⟨S2x64x256x256, .f32⟩ : BufTy).Contents (Elt F)),
    StableHlo.unary main_v212 main_v214 ((extractStridedSlice S2x64x256x256 ![0, 0, 0, 1] · slices_S2x64x258x258_S2x64x256x256_0_0_0_1) : (⟨S2x64x258x258, .f32⟩ : BufTy).Contents (Elt F) → (⟨S2x64x256x256, .f32⟩ : BufTy).Contents (Elt F)),
    StableHlo.unary main_v212 main_v215 ((extractStridedSlice S2x64x256x256 ![0, 0, 0, 2] · slices_S2x64x258x258_S2x64x256x256_0_0_0_2) : (⟨S2x64x258x258, .f32⟩ : BufTy).Contents (Elt F) → (⟨S2x64x256x256, .f32⟩ : BufTy).Contents (Elt F)),
    StableHlo.unary main_v212 main_v216 ((extractStridedSlice S2x64x256x256 ![0, 0, 1, 0] · slices_S2x64x258x258_S2x64x256x256_0_0_1_0) : (⟨S2x64x258x258, .f32⟩ : BufTy).Contents (Elt F) → (⟨S2x64x256x256, .f32⟩ : BufTy).Contents (Elt F)),
    StableHlo.unary main_v212 main_v217 ((extractStridedSlice S2x64x256x256 ![0, 0, 1, 1] · slices_S2x64x258x258_S2x64x256x256_0_0_1_1) : (⟨S2x64x258x258, .f32⟩ : BufTy).Contents (Elt F) → (⟨S2x64x256x256, .f32⟩ : BufTy).Contents (Elt F)),
    StableHlo.unary main_v212 main_v218 ((extractStridedSlice S2x64x256x256 ![0, 0, 1, 2] · slices_S2x64x258x258_S2x64x256x256_0_0_1_2) : (⟨S2x64x258x258, .f32⟩ : BufTy).Contents (Elt F) → (⟨S2x64x256x256, .f32⟩ : BufTy).Contents (Elt F)),
    StableHlo.unary main_v212 main_v219 ((extractStridedSlice S2x64x256x256 ![0, 0, 2, 0] · slices_S2x64x258x258_S2x64x256x256_0_0_2_0) : (⟨S2x64x258x258, .f32⟩ : BufTy).Contents (Elt F) → (⟨S2x64x256x256, .f32⟩ : BufTy).Contents (Elt F)),
    StableHlo.unary main_v212 main_v220 ((extractStridedSlice S2x64x256x256 ![0, 0, 2, 1] · slices_S2x64x258x258_S2x64x256x256_0_0_2_1) : (⟨S2x64x258x258, .f32⟩ : BufTy).Contents (Elt F) → (⟨S2x64x256x256, .f32⟩ : BufTy).Contents (Elt F)),
    StableHlo.unary main_v212 main_v221 ((extractStridedSlice S2x64x256x256 ![0, 0, 2, 2] · slices_S2x64x258x258_S2x64x256x256_0_0_2_2) : (⟨S2x64x258x258, .f32⟩ : BufTy).Contents (Elt F) → (⟨S2x64x256x256, .f32⟩ : BufTy).Contents (Elt F)),
    StableHlo.unary main_v213 main_v222 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    StableHlo.unary main_v214 main_v223 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    StableHlo.unary main_v215 main_v224 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    StableHlo.unary main_v216 main_v225 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    StableHlo.unary main_v217 main_v226 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    StableHlo.unary main_v218 main_v227 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    StableHlo.unary main_v219 main_v228 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    StableHlo.unary main_v220 main_v229 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    StableHlo.unary main_v221 main_v230 (broadcastInDim S2x64x1x256x256 ![0, 1, 3, 4] bcast_S2x64x256x256_S2x64x1x256x256_0_1_3_4 : (⟨S2x64x256x256, .f32⟩ : BufTy).Contents (Elt F) → (⟨S2x64x1x256x256, .f32⟩ : BufTy).Contents (Elt F)),
    StableHlo.nary ![main_v222, main_v223, main_v224, main_v225, main_v226, main_v227, main_v228, main_v229, main_v230] main_v231 (fun u => concatenate S2x64x9x256x256 2 [⟨S2x64x1x256x256, u 0⟩, ⟨S2x64x1x256x256, u 1⟩, ⟨S2x64x1x256x256, u 2⟩, ⟨S2x64x1x256x256, u 3⟩, ⟨S2x64x1x256x256, u 4⟩, ⟨S2x64x1x256x256, u 5⟩, ⟨S2x64x1x256x256, u 6⟩, ⟨S2x64x1x256x256, u 7⟩, ⟨S2x64x1x256x256, u 8⟩] concatenates_S2x64x1x256x256_S2x64x1x256x256_S2x64x1x256x256_S2x64x1x256x256_S2x64x1x256x256_S2x64x1x256x256_S2x64x1x256x256_S2x64x1x256x256_S2x64x1x256x256_S2x64x9x256x256_d2) ]

set_option maxHeartbeats 40000000 in
/-- The reshape and transposition of the unfolded array, its concatenation with the gathered blocks and the third argument, and the reshape to [131072, 833] (4 operations). -/
abbrev K12c : List (HloOp τ sig (Elt F)) :=
  [ StableHlo.reshape main_v231 main_v232 rfl shapeCasts_S2x64x9x256x256_S2x576x65536,
    StableHlo.unary main_v232 main_v233 ((transpose S2x65536x576 [0, 2, 1] · transposes_S2x576x65536_S2x65536x576_0_2_1) : (⟨S2x576x65536, .f32⟩ : BufTy).Contents (Elt F) → (⟨S2x65536x576, .f32⟩ : BufTy).Contents (Elt F)),
    StableHlo.nary ![main_v211, main_v233, main_arg2] main_v234 (fun u => concatenate S2x65536x833 2 [⟨S2x65536x256, u 0⟩, ⟨S2x65536x576, u 1⟩, ⟨S2x65536x1, u 2⟩] concatenates_S2x65536x256_S2x65536x576_S2x65536x1_S2x65536x833_d2),
    StableHlo.reshape main_v234 main_v235 rfl shapeCasts_S2x65536x833_S131072x833 ]

set_option maxRecDepth 100000 in
/-- The unfolding segment is its three parts in order. -/
theorem K12_eq : K12 (F := F) = K12a ++ (K12b ++ K12c) := by
  chain_rfl

set_option maxRecDepth 100000 in
/-- Each operation of this part writes one buffer, its result, of index at least 457. -/
theorem K12a_writes : (K12a (F := F)).Forall fun op => ∃ y : Ref sig .tc, op.writes = {Proc.devRef .tc y} ∧ 457 ≤ y.idx.val :=
  ⟨
    ⟨_, StableHlo.nullary_writes .., by decide⟩, ⟨_, StableHlo.unary_writes .., by decide⟩, ⟨_, StableHlo.binary_writes .., by decide⟩⟩

/-- So this part leaves every buffer of index below 457 as it was. -/
theorem K12a_keep (w : Valuation τ sig (Elt F)) (r : Ref sig .tc) (hr : r.idx.val < 457) :
    StableHlo.after (K12a (F := F)) w (Proc.devRef .tc r) = w (Proc.devRef .tc r) :=
  StableHlo.after_of_forall_not_mem (b := Proc.devRef .tc r) _ _ fun op hop hb => by
    obtain ⟨y, hy, hge⟩ := List.forall_iff_forall_mem.mp (K12a_writes (F := F)) op hop
    rw [hy, Finset.mem_singleton] at hb
    obtain rfl : r = y := Proc.devRef_injective _ hb
    omega

set_option maxRecDepth 100000 in
/-- Each operation of this part writes one buffer, its result, of index at least 460. -/
theorem K12b_writes : (K12b (F := F)).Forall fun op => ∃ y : Ref sig .tc, op.writes = {Proc.devRef .tc y} ∧ 460 ≤ y.idx.val :=
  ⟨
    ⟨_, StableHlo.unary_writes .., by decide⟩, ⟨_, StableHlo.unary_writes .., by decide⟩, ⟨_, StableHlo.unary_writes .., by decide⟩, ⟨_, StableHlo.unary_writes .., by decide⟩,
    ⟨_, StableHlo.unary_writes .., by decide⟩, ⟨_, StableHlo.unary_writes .., by decide⟩, ⟨_, StableHlo.unary_writes .., by decide⟩, ⟨_, StableHlo.unary_writes .., by decide⟩,
    ⟨_, StableHlo.unary_writes .., by decide⟩, ⟨_, StableHlo.unary_writes .., by decide⟩, ⟨_, StableHlo.unary_writes .., by decide⟩, ⟨_, StableHlo.unary_writes .., by decide⟩,
    ⟨_, StableHlo.unary_writes .., by decide⟩, ⟨_, StableHlo.unary_writes .., by decide⟩, ⟨_, StableHlo.unary_writes .., by decide⟩, ⟨_, StableHlo.unary_writes .., by decide⟩,
    ⟨_, StableHlo.unary_writes .., by decide⟩, ⟨_, StableHlo.unary_writes .., by decide⟩, ⟨_, StableHlo.nary_writes .., by decide⟩⟩

/-- So this part leaves every buffer of index below 460 as it was. -/
theorem K12b_keep (w : Valuation τ sig (Elt F)) (r : Ref sig .tc) (hr : r.idx.val < 460) :
    StableHlo.after (K12b (F := F)) w (Proc.devRef .tc r) = w (Proc.devRef .tc r) :=
  StableHlo.after_of_forall_not_mem (b := Proc.devRef .tc r) _ _ fun op hop hb => by
    obtain ⟨y, hy, hge⟩ := List.forall_iff_forall_mem.mp (K12b_writes (F := F)) op hop
    rw [hy, Finset.mem_singleton] at hb
    obtain rfl : r = y := Proc.devRef_injective _ hb
    omega

set_option maxRecDepth 100000 in
/-- Each operation of this part writes one buffer, its result, of index at least 479. -/
theorem K12c_writes : (K12c (F := F)).Forall fun op => ∃ y : Ref sig .tc, op.writes = {Proc.devRef .tc y} ∧ 479 ≤ y.idx.val :=
  ⟨
    ⟨_, StableHlo.reshape_writes .., by decide⟩, ⟨_, StableHlo.unary_writes .., by decide⟩, ⟨_, StableHlo.nary_writes .., by decide⟩, ⟨_, StableHlo.reshape_writes .., by decide⟩⟩

/-- So this part leaves every buffer of index below 479 as it was. -/
theorem K12c_keep (w : Valuation τ sig (Elt F)) (r : Ref sig .tc) (hr : r.idx.val < 479) :
    StableHlo.after (K12c (F := F)) w (Proc.devRef .tc r) = w (Proc.devRef .tc r) :=
  StableHlo.after_of_forall_not_mem (b := Proc.devRef .tc r) _ _ fun op hop hb => by
    obtain ⟨y, hy, hge⟩ := List.forall_iff_forall_mem.mp (K12c_writes (F := F)) op hop
    rw [hy, Finset.mem_singleton] at hb
    obtain rfl : r = y := Proc.devRef_injective _ hb
    omega

end Cert.KHead

end
-- ==== Proof.KHeadD2a.lean ====
/-
  The three parts of the unfolding segment of the host operations before the kernel region, each read from an arbitrary memory: the buffer a
  segment leaves for the later ones holds the reference program's stage of the matching name, read from the arguments'
  contents in that memory, once the buffers the segment reads from before it are set to their stages.  Each is the
  segment's fold opened operation by operation and compared with the stage's definition: the two programs build the
  network input by the same operations in the same order.
-/
import proofs.«145896_j91079076479405_1_alg».proof.Proof.KHeadD1
import proofs.«145896_j91079076479405_1_alg».proof.Proof.RefRead

noncomputable section

namespace Cert.KHead

open Idealize.ShloMosaic Idealize.ShloMosaic.TcCoe Idealize.SL.Sem Idealize.ShloMosaic.StableHlo
open Cert.KernelIdeal Cert.KernelIdeal.Gen Cert.KernelIdeal.Mlp

variable {F : FTy → Type} [FloatOps F]

set_option maxRecDepth 100000 in
set_option maxHeartbeats 40000000 in
theorem K12a_v212 (w : Valuation τ sig (Elt F)) :
    StableHlo.after (K12a (F := F)) w (Proc.devRef .tc main_v212)
      = Cert.ReferenceIdeal.ReadP.val_main_v215 (F := F) (w (Proc.devRef .tc main_arg0)) := by
  khead_results <;> chain_rfl

end Cert.KHead

end
-- ==== Proof.KHeadD2b.lean ====
/-
  The three parts of the unfolding segment of the host operations before the kernel region, each read from an arbitrary memory: the buffer a
  segment leaves for the later ones holds the reference program's stage of the matching name, read from the arguments'
  contents in that memory, once the buffers the segment reads from before it are set to their stages.  Each is the
  segment's fold opened operation by operation and compared with the stage's definition: the two programs build the
  network input by the same operations in the same order.
-/
import proofs.«145896_j91079076479405_1_alg».proof.Proof.KHeadD1
import proofs.«145896_j91079076479405_1_alg».proof.Proof.RefRead

noncomputable section

namespace Cert.KHead

open Idealize.ShloMosaic Idealize.ShloMosaic.TcCoe Idealize.SL.Sem Idealize.ShloMosaic.StableHlo
open Cert.KernelIdeal Cert.KernelIdeal.Gen Cert.KernelIdeal.Mlp

variable {F : FTy → Type} [FloatOps F]

set_option maxRecDepth 100000 in
set_option maxHeartbeats 40000000 in
theorem K12b_v231 (w : Valuation τ sig (Elt F)) :
    StableHlo.after (K12b (F := F)) ((StableHlo.nullary (τ := τ) main_v212 (Cert.ReferenceIdeal.ReadP.val_main_v215 (F := F) (w (Proc.devRef .tc main_arg0)))).result w) (Proc.devRef .tc main_v231)
      = Cert.ReferenceIdeal.ReadP.val_main_v234 (F := F) (w (Proc.devRef .tc main_arg0)) := by
  khead_results <;> chain_rfl

end Cert.KHead

end
-- ==== Proof.KHeadD2c.lean ====
/-
  The three parts of the unfolding segment of the host operations before the kernel region, each read from an arbitrary memory: the buffer a
  segment leaves for the later ones holds the reference program's stage of the matching name, read from the arguments'
  contents in that memory, once the buffers the segment reads from before it are set to their stages.  Each is the
  segment's fold opened operation by operation and compared with the stage's definition: the two programs build the
  network input by the same operations in the same order.
-/
import proofs.«145896_j91079076479405_1_alg».proof.Proof.KHeadD1
import proofs.«145896_j91079076479405_1_alg».proof.Proof.RefRead

noncomputable section

namespace Cert.KHead

open Idealize.ShloMosaic Idealize.ShloMosaic.TcCoe Idealize.SL.Sem Idealize.ShloMosaic.StableHlo
open Cert.KernelIdeal Cert.KernelIdeal.Gen Cert.KernelIdeal.Mlp

variable {F : FTy → Type} [FloatOps F]

set_option maxRecDepth 100000 in
set_option maxHeartbeats 40000000 in
theorem K12c_v235 (w : Valuation τ sig (Elt F)) :
    StableHlo.after (K12c (F := F)) ((StableHlo.nullary (τ := τ) main_v231 (Cert.ReferenceIdeal.ReadP.val_main_v234 (F := F) (w (Proc.devRef .tc main_arg0)))).result ((StableHlo.nullary (τ := τ) main_v211 (Cert.ReferenceIdeal.ReadP.val_main_v214 (F := F) (w (Proc.devRef .tc main_arg0)) (w (Proc.devRef .tc main_arg1)) (w (Proc.devRef .tc main_arg2)))).result w)) (Proc.devRef .tc main_v235)
      = Cert.ReferenceIdeal.ReadP.val_main_v238 (F := F) (w (Proc.devRef .tc main_arg0)) (w (Proc.devRef .tc main_arg1)) (w (Proc.devRef .tc main_arg2)) := by
  simp only [after_cons, after_nil]
  rw [reshape_result, nary3_result']
  repeat (first
    | rw [nullary_result] | rw [unary_result] | rw [reshape_result]
    | (rw [nullary_result_ne]; rotate_left; decide)
    | (rw [unary_result_ne]; rotate_left; decide)
    | (rw [reshape_result_ne]; rotate_left; decide))
  rfl

end Cert.KHead

end
-- ==== Proof.KHeadD2.lean ====
/-
  The three parts of the unfolding segment of the host operations before the kernel region, each read from an arbitrary memory: the buffer a
  segment leaves for the later ones holds the reference program's stage of the matching name, read from the arguments'
  contents in that memory, once the buffers the segment reads from before it are set to their stages.  Each is the
  segment's fold opened operation by operation and compared with the stage's definition: the two programs build the
  network input by the same operations in the same order.
-/
import proofs.«145896_j91079076479405_1_alg».proof.Proof.KHeadD2a
import proofs.«145896_j91079076479405_1_alg».proof.Proof.KHeadD2b
import proofs.«145896_j91079076479405_1_alg».proof.Proof.KHeadD2c
-- ==== Proof.KHead.lean ====
/-
  The kernel program's network input is the reference program's.

  The memory the kernel region enters is the launch memory with the 475 host operations before the region run over
  it.  Cut into sixteen segments, each segment's lemma is applied at the memory the segments before it leave, where
  the arguments hold what they held at launch (no operation writes an argument) and the other buffers the segment
  reads hold the reference's stages the facts before give.  The buffer the region stages its input rows from then
  holds the reference's [131072, 833] stage, read from the launch's first three arguments.
-/
import proofs.«145896_j91079076479405_1_alg».proof.Proof.KHeadKeeps
import proofs.«145896_j91079076479405_1_alg».proof.Proof.KHeadA
import proofs.«145896_j91079076479405_1_alg».proof.Proof.KHeadB
import proofs.«145896_j91079076479405_1_alg».proof.Proof.KHeadC
import proofs.«145896_j91079076479405_1_alg».proof.Proof.KHeadD2

noncomputable section

namespace Cert.KHead

open Idealize.ShloMosaic Idealize.ShloMosaic.TcCoe Idealize.SL.Sem Idealize.ShloMosaic.StableHlo
open Cert.KernelIdeal Cert.KernelIdeal.Gen Cert.KernelIdeal.Mlp

variable {F : FTy → Type} [FloatOps F]

/-- The reference reshapes its first argument anew for each gather; the kernel program does it once: one stage. -/
theorem v2_as_v104 (x0 : (⟨Cert.ReferenceIdeal.S2x64x256x256, .f32⟩ : BufTy).Contents (Elt F)) :
    Cert.ReferenceIdeal.ReadP.val_main_v51 (F := F) x0 = Cert.ReferenceIdeal.ReadP.val_main_v104 (F := F) x0 := rfl
theorem v2_as_v157 (x0 : (⟨Cert.ReferenceIdeal.S2x64x256x256, .f32⟩ : BufTy).Contents (Elt F)) :
    Cert.ReferenceIdeal.ReadP.val_main_v51 (F := F) x0 = Cert.ReferenceIdeal.ReadP.val_main_v157 (F := F) x0 := rfl
theorem v2_as_v210 (x0 : (⟨Cert.ReferenceIdeal.S2x64x256x256, .f32⟩ : BufTy).Contents (Elt F)) :
    Cert.ReferenceIdeal.ReadP.val_main_v51 (F := F) x0 = Cert.ReferenceIdeal.ReadP.val_main_v210 (F := F) x0 := rfl

/-! ## The contents at the cuts

`W k w` is the memory after the first `k` segments, from `w`.  Each fact says what one buffer holds there, as a stage
of the reference program read from the arguments' contents in `w`. -/

abbrev W1 (w : Valuation τ sig (Elt F)) : Valuation τ sig (Elt F) := StableHlo.after (K0 (F := F)) w
abbrev W2 (w : Valuation τ sig (Elt F)) : Valuation τ sig (Elt F) := StableHlo.after (K1 (F := F)) (W1 w)
abbrev W3 (w : Valuation τ sig (Elt F)) : Valuation τ sig (Elt F) := StableHlo.after (K2 (F := F)) (W2 w)
abbrev W4 (w : Valuation τ sig (Elt F)) : Valuation τ sig (Elt F) := StableHlo.after (K3 (F := F)) (W3 w)
abbrev W5 (w : Valuation τ sig (Elt F)) : Valuation τ sig (Elt F) := StableHlo.after (K4 (F := F)) (W4 w)
abbrev W6 (w : Valuation τ sig (Elt F)) : Valuation τ sig (Elt F) := StableHlo.after (K5 (F := F)) (W5 w)
abbrev W7 (w : Valuation τ sig (Elt F)) : Valuation τ sig (Elt F) := StableHlo.after (K6 (F := F)) (W6 w)
abbrev W8 (w : Valuation τ sig (Elt F)) : Valuation τ sig (Elt F) := StableHlo.after (K7 (F := F)) (W7 w)
abbrev W9 (w : Valuation τ sig (Elt F)) : Valuation τ sig (Elt F) := StableHlo.after (K8 (F := F)) (W8 w)
abbrev W10 (w : Valuation τ sig (Elt F)) : Valuation τ sig (Elt F) := StableHlo.after (K9 (F := F)) (W9 w)
abbrev W11 (w : Valuation τ sig (Elt F)) : Valuation τ sig (Elt F) := StableHlo.after (K10 (F := F)) (W10 w)
abbrev W12 (w : Valuation τ sig (Elt F)) : Valuation τ sig (Elt F) := StableHlo.after (K11 (F := F)) (W11 w)
abbrev W13 (w : Valuation τ sig (Elt F)) : Valuation τ sig (Elt F) := StableHlo.after (K12a (F := F)) (W12 w)
abbrev W14 (w : Valuation τ sig (Elt F)) : Valuation τ sig (Elt F) := StableHlo.after (K12b (F := F)) (W13 w)
abbrev W15 (w : Valuation τ sig (Elt F)) : Valuation τ sig (Elt F) := StableHlo.after (K12c (F := F)) (W14 w)
abbrev W16 (w : Valuation τ sig (Elt F)) : Valuation τ sig (Elt F) := StableHlo.after (K13 (F := F)) (W15 w)

theorem W1_arg0 (w : Valuation τ sig (Elt F)) : W1 w (Proc.devRef .tc main_arg0) = w (Proc.devRef .tc main_arg0) := K0_keep w main_arg0 (by decide)
theorem W1_arg1 (w : Valuation τ sig (Elt F)) : W1 w (Proc.devRef .tc main_arg1) = w (Proc.devRef .tc main_arg1) := K0_keep w main_arg1 (by decide)
theorem W1_arg2 (w : Valuation τ sig (Elt F)) : W1 w (Proc.devRef .tc main_arg2) = w (Proc.devRef .tc main_arg2) := K0_keep w main_arg2 (by decide)
theorem W1_v1 (w : Valuation τ sig (Elt F)) : W1 w (Proc.devRef .tc main_v1) = Cert.ReferenceIdeal.ReadP.val_main_v1 (F := F) (w (Proc.devRef .tc main_arg2)) := K0_v1 w
theorem W1_v2 (w : Valuation τ sig (Elt F)) : W1 w (Proc.devRef .tc main_v2) = Cert.ReferenceIdeal.ReadP.val_main_v51 (F := F) (w (Proc.devRef .tc main_arg0)) := K0_v2 w
theorem W1_v52 (w : Valuation τ sig (Elt F)) : W1 w (Proc.devRef .tc main_v52) = Cert.ReferenceIdeal.ReadP.val_main_v52 (F := F) (w (Proc.devRef .tc main_arg1)) (w (Proc.devRef .tc main_arg2)) := K0_v52 w

theorem W2_arg0 (w : Valuation τ sig (Elt F)) : W2 w (Proc.devRef .tc main_arg0) = w (Proc.devRef .tc main_arg0) := (K1_keep (W1 w) main_arg0 (by decide)).trans (W1_arg0 w)
theorem W2_arg1 (w : Valuation τ sig (Elt F)) : W2 w (Proc.devRef .tc main_arg1) = w (Proc.devRef .tc main_arg1) := (K1_keep (W1 w) main_arg1 (by decide)).trans (W1_arg1 w)
theorem W2_arg2 (w : Valuation τ sig (Elt F)) : W2 w (Proc.devRef .tc main_arg2) = w (Proc.devRef .tc main_arg2) := (K1_keep (W1 w) main_arg2 (by decide)).trans (W1_arg2 w)
theorem W2_v1 (w : Valuation τ sig (Elt F)) : W2 w (Proc.devRef .tc main_v1) = Cert.ReferenceIdeal.ReadP.val_main_v1 (F := F) (w (Proc.devRef .tc main_arg2)) := (K1_keep (W1 w) main_v1 (by decide)).trans (W1_v1 w)
theorem W2_v2 (w : Valuation τ sig (Elt F)) : W2 w (Proc.devRef .tc main_v2) = Cert.ReferenceIdeal.ReadP.val_main_v51 (F := F) (w (Proc.devRef .tc main_arg0)) := (K1_keep (W1 w) main_v2 (by decide)).trans (W1_v2 w)
theorem W2_call5_v5 (w : Valuation τ sig (Elt F)) : W2 w (Proc.devRef .tc main_call5_v5) = Cert.ReferenceIdeal.ReadP.val_main_call5_v5 (F := F) (w (Proc.devRef .tc main_arg1)) (w (Proc.devRef .tc main_arg2)) := by
  have h := K1_call5_v5 (W1 w)
  rw [W1_arg1 w, W1_arg2 w, set_self main_v52 _ _ (W1 w) (W1_v52 w)] at h
  exact h

theorem W3_arg0 (w : Valuation τ sig (Elt F)) : W3 w (Proc.devRef .tc main_arg0) = w (Proc.devRef .tc main_arg0) := (K2_keep (W2 w) main_arg0 (by decide)).trans (W2_arg0 w)
theorem W3_arg1 (w : Valuation τ sig (Elt F)) : W3 w (Proc.devRef .tc main_arg1) = w (Proc.devRef .tc main_arg1) := (K2_keep (W2 w) main_arg1 (by decide)).trans (W2_arg1 w)
theorem W3_arg2 (w : Valuation τ sig (Elt F)) : W3 w (Proc.devRef .tc main_arg2) = w (Proc.devRef .tc main_arg2) := (K2_keep (W2 w) main_arg2 (by decide)).trans (W2_arg2 w)
theorem W3_v1 (w : Valuation τ sig (Elt F)) : W3 w (Proc.devRef .tc main_v1) = Cert.ReferenceIdeal.ReadP.val_main_v1 (F := F) (w (Proc.devRef .tc main_arg2)) := (K2_keep (W2 w) main_v1 (by decide)).trans (W2_v1 w)
theorem W3_v2 (w : Valuation τ sig (Elt F)) : W3 w (Proc.devRef .tc main_v2) = Cert.ReferenceIdeal.ReadP.val_main_v51 (F := F) (w (Proc.devRef .tc main_arg0)) := (K2_keep (W2 w) main_v2 (by decide)).trans (W2_v2 w)
theorem W3_v54 (w : Valuation τ sig (Elt F)) : W3 w (Proc.devRef .tc main_v54) = Cert.ReferenceIdeal.ReadP.val_main_v54 (F := F) (w (Proc.devRef .tc main_arg0)) (w (Proc.devRef .tc main_arg1)) (w (Proc.devRef .tc main_arg2)) := by
  have h := K2_v54 (W2 w)
  rw [W2_arg0 w, W2_arg1 w, W2_arg2 w, set_self main_call5_v5 _ _ (W2 w) (W2_call5_v5 w), set_self main_v2 _ _ (W2 w) (W2_v2 w)] at h
  exact h

theorem W4_arg0 (w : Valuation τ sig (Elt F)) : W4 w (Proc.devRef .tc main_arg0) = w (Proc.devRef .tc main_arg0) := (K3_keep (W3 w) main_arg0 (by decide)).trans (W3_arg0 w)
theorem W4_arg1 (w : Valuation τ sig (Elt F)) : W4 w (Proc.devRef .tc main_arg1) = w (Proc.devRef .tc main_arg1) := (K3_keep (W3 w) main_arg1 (by decide)).trans (W3_arg1 w)
theorem W4_arg2 (w : Valuation τ sig (Elt F)) : W4 w (Proc.devRef .tc main_arg2) = w (Proc.devRef .tc main_arg2) := (K3_keep (W3 w) main_arg2 (by decide)).trans (W3_arg2 w)
theorem W4_v1 (w : Valuation τ sig (Elt F)) : W4 w (Proc.devRef .tc main_v1) = Cert.ReferenceIdeal.ReadP.val_main_v1 (F := F) (w (Proc.devRef .tc main_arg2)) := (K3_keep (W3 w) main_v1 (by decide)).trans (W3_v1 w)
theorem W4_v2 (w : Valuation τ sig (Elt F)) : W4 w (Proc.devRef .tc main_v2) = Cert.ReferenceIdeal.ReadP.val_main_v51 (F := F) (w (Proc.devRef .tc main_arg0)) := (K3_keep (W3 w) main_v2 (by decide)).trans (W3_v2 w)
theorem W4_v54 (w : Valuation τ sig (Elt F)) : W4 w (Proc.devRef .tc main_v54) = Cert.ReferenceIdeal.ReadP.val_main_v54 (F := F) (w (Proc.devRef .tc main_arg0)) (w (Proc.devRef .tc main_arg1)) (w (Proc.devRef .tc main_arg2)) := (K3_keep (W3 w) main_v54 (by decide)).trans (W3_v54 w)
theorem W4_v104 (w : Valuation τ sig (Elt F)) : W4 w (Proc.devRef .tc main_v104) = Cert.ReferenceIdeal.ReadP.val_main_v105 (F := F) (w (Proc.devRef .tc main_arg1)) (w (Proc.devRef .tc main_arg2)) := by
  have h := K3_v104 (W3 w)
  rw [W3_arg1 w, W3_arg2 w, set_self main_v1 _ _ (W3 w) (W3_v1 w)] at h
  exact h

theorem W5_arg0 (w : Valuation τ sig (Elt F)) : W5 w (Proc.devRef .tc main_arg0) = w (Proc.devRef .tc main_arg0) := (K4_keep (W4 w) main_arg0 (by decide)).trans (W4_arg0 w)
theorem W5_arg1 (w : Valuation τ sig (Elt F)) : W5 w (Proc.devRef .tc main_arg1) = w (Proc.devRef .tc main_arg1) := (K4_keep (W4 w) main_arg1 (by decide)).trans (W4_arg1 w)
theorem W5_arg2 (w : Valuation τ sig (Elt F)) : W5 w (Proc.devRef .tc main_arg2) = w (Proc.devRef .tc main_arg2) := (K4_keep (W4 w) main_arg2 (by decide)).trans (W4_arg2 w)
theorem W5_v1 (w : Valuation τ sig (Elt F)) : W5 w (Proc.devRef .tc main_v1) = Cert.ReferenceIdeal.ReadP.val_main_v1 (F := F) (w (Proc.devRef .tc main_arg2)) := (K4_keep (W4 w) main_v1 (by decide)).trans (W4_v1 w)
theorem W5_v2 (w : Valuation τ sig (Elt F)) : W5 w (Proc.devRef .tc main_v2) = Cert.ReferenceIdeal.ReadP.val_main_v51 (F := F) (w (Proc.devRef .tc main_arg0)) := (K4_keep (W4 w) main_v2 (by decide)).trans (W4_v2 w)
theorem W5_v54 (w : Valuation τ sig (Elt F)) : W5 w (Proc.devRef .tc main_v54) = Cert.ReferenceIdeal.ReadP.val_main_v54 (F := F) (w (Proc.devRef .tc main_arg0)) (w (Proc.devRef .tc main_arg1)) (w (Proc.devRef .tc main_arg2)) := (K4_keep (W4 w) main_v54 (by decide)).trans (W4_v54 w)
theorem W5_call11_v5 (w : Valuation τ sig (Elt F)) : W5 w (Proc.devRef .tc main_call11_v5) = Cert.ReferenceIdeal.ReadP.val_main_call11_v5 (F := F) (w (Proc.devRef .tc main_arg1)) (w (Proc.devRef .tc main_arg2)) := by
  have h := K4_call11_v5 (W4 w)
  rw [W4_arg1 w, W4_arg2 w, set_self main_v104 _ _ (W4 w) (W4_v104 w)] at h
  exact h

theorem W6_arg0 (w : Valuation τ sig (Elt F)) : W6 w (Proc.devRef .tc main_arg0) = w (Proc.devRef .tc main_arg0) := (K5_keep (W5 w) main_arg0 (by decide)).trans (W5_arg0 w)
theorem W6_arg1 (w : Valuation τ sig (Elt F)) : W6 w (Proc.devRef .tc main_arg1) = w (Proc.devRef .tc main_arg1) := (K5_keep (W5 w) main_arg1 (by decide)).trans (W5_arg1 w)
theorem W6_arg2 (w : Valuation τ sig (Elt F)) : W6 w (Proc.devRef .tc main_arg2) = w (Proc.devRef .tc main_arg2) := (K5_keep (W5 w) main_arg2 (by decide)).trans (W5_arg2 w)
theorem W6_v1 (w : Valuation τ sig (Elt F)) : W6 w (Proc.devRef .tc main_v1) = Cert.ReferenceIdeal.ReadP.val_main_v1 (F := F) (w (Proc.devRef .tc main_arg2)) := (K5_keep (W5 w) main_v1 (by decide)).trans (W5_v1 w)
theorem W6_v2 (w : Valuation τ sig (Elt F)) : W6 w (Proc.devRef .tc main_v2) = Cert.ReferenceIdeal.ReadP.val_main_v51 (F := F) (w (Proc.devRef .tc main_arg0)) := (K5_keep (W5 w) main_v2 (by decide)).trans (W5_v2 w)
theorem W6_v54 (w : Valuation τ sig (Elt F)) : W6 w (Proc.devRef .tc main_v54) = Cert.ReferenceIdeal.ReadP.val_main_v54 (F := F) (w (Proc.devRef .tc main_arg0)) (w (Proc.devRef .tc main_arg1)) (w (Proc.devRef .tc main_arg2)) := (K5_keep (W5 w) main_v54 (by decide)).trans (W5_v54 w)
theorem W6_v106 (w : Valuation τ sig (Elt F)) : W6 w (Proc.devRef .tc main_v106) = Cert.ReferenceIdeal.ReadP.val_main_v107 (F := F) (w (Proc.devRef .tc main_arg0)) (w (Proc.devRef .tc main_arg1)) (w (Proc.devRef .tc main_arg2)) := by
  have h := K5_v106 (W5 w)
  rw [W5_arg0 w, W5_arg1 w, W5_arg2 w, set_self main_call11_v5 _ _ (W5 w) (W5_call11_v5 w), set_self main_v2 _ _ (W5 w) ((W5_v2 w).trans (v2_as_v104 _))] at h
  exact h

theorem W7_arg0 (w : Valuation τ sig (Elt F)) : W7 w (Proc.devRef .tc main_arg0) = w (Proc.devRef .tc main_arg0) := (K6_keep (W6 w) main_arg0 (by decide)).trans (W6_arg0 w)
theorem W7_arg1 (w : Valuation τ sig (Elt F)) : W7 w (Proc.devRef .tc main_arg1) = w (Proc.devRef .tc main_arg1) := (K6_keep (W6 w) main_arg1 (by decide)).trans (W6_arg1 w)
theorem W7_arg2 (w : Valuation τ sig (Elt F)) : W7 w (Proc.devRef .tc main_arg2) = w (Proc.devRef .tc main_arg2) := (K6_keep (W6 w) main_arg2 (by decide)).trans (W6_arg2 w)
theorem W7_v1 (w : Valuation τ sig (Elt F)) : W7 w (Proc.devRef .tc main_v1) = Cert.ReferenceIdeal.ReadP.val_main_v1 (F := F) (w (Proc.devRef .tc main_arg2)) := (K6_keep (W6 w) main_v1 (by decide)).trans (W6_v1 w)
theorem W7_v2 (w : Valuation τ sig (Elt F)) : W7 w (Proc.devRef .tc main_v2) = Cert.ReferenceIdeal.ReadP.val_main_v51 (F := F) (w (Proc.devRef .tc main_arg0)) := (K6_keep (W6 w) main_v2 (by decide)).trans (W6_v2 w)
theorem W7_v54 (w : Valuation τ sig (Elt F)) : W7 w (Proc.devRef .tc main_v54) = Cert.ReferenceIdeal.ReadP.val_main_v54 (F := F) (w (Proc.devRef .tc main_arg0)) (w (Proc.devRef .tc main_arg1)) (w (Proc.devRef .tc main_arg2)) := (K6_keep (W6 w) main_v54 (by decide)).trans (W6_v54 w)
theorem W7_v106 (w : Valuation τ sig (Elt F)) : W7 w (Proc.devRef .tc main_v106) = Cert.ReferenceIdeal.ReadP.val_main_v107 (F := F) (w (Proc.devRef .tc main_arg0)) (w (Proc.devRef .tc main_arg1)) (w (Proc.devRef .tc main_arg2)) := (K6_keep (W6 w) main_v106 (by decide)).trans (W6_v106 w)
theorem W7_v156 (w : Valuation τ sig (Elt F)) : W7 w (Proc.devRef .tc main_v156) = Cert.ReferenceIdeal.ReadP.val_main_v158 (F := F) (w (Proc.devRef .tc main_arg1)) (w (Proc.devRef .tc main_arg2)) := by
  have h := K6_v156 (W6 w)
  rw [W6_arg1 w, W6_arg2 w, set_self main_v1 _ _ (W6 w) (W6_v1 w)] at h
  exact h

theorem W8_arg0 (w : Valuation τ sig (Elt F)) : W8 w (Proc.devRef .tc main_arg0) = w (Proc.devRef .tc main_arg0) := (K7_keep (W7 w) main_arg0 (by decide)).trans (W7_arg0 w)
theorem W8_arg1 (w : Valuation τ sig (Elt F)) : W8 w (Proc.devRef .tc main_arg1) = w (Proc.devRef .tc main_arg1) := (K7_keep (W7 w) main_arg1 (by decide)).trans (W7_arg1 w)
theorem W8_arg2 (w : Valuation τ sig (Elt F)) : W8 w (Proc.devRef .tc main_arg2) = w (Proc.devRef .tc main_arg2) := (K7_keep (W7 w) main_arg2 (by decide)).trans (W7_arg2 w)
theorem W8_v1 (w : Valuation τ sig (Elt F)) : W8 w (Proc.devRef .tc main_v1) = Cert.ReferenceIdeal.ReadP.val_main_v1 (F := F) (w (Proc.devRef .tc main_arg2)) := (K7_keep (W7 w) main_v1 (by decide)).trans (W7_v1 w)
theorem W8_v2 (w : Valuation τ sig (Elt F)) : W8 w (Proc.devRef .tc main_v2) = Cert.ReferenceIdeal.ReadP.val_main_v51 (F := F) (w (Proc.devRef .tc main_arg0)) := (K7_keep (W7 w) main_v2 (by decide)).trans (W7_v2 w)
theorem W8_v54 (w : Valuation τ sig (Elt F)) : W8 w (Proc.devRef .tc main_v54) = Cert.ReferenceIdeal.ReadP.val_main_v54 (F := F) (w (Proc.devRef .tc main_arg0)) (w (Proc.devRef .tc main_arg1)) (w (Proc.devRef .tc main_arg2)) := (K7_keep (W7 w) main_v54 (by decide)).trans (W7_v54 w)
theorem W8_v106 (w : Valuation τ sig (Elt F)) : W8 w (Proc.devRef .tc main_v106) = Cert.ReferenceIdeal.ReadP.val_main_v107 (F := F) (w (Proc.devRef .tc main_arg0)) (w (Proc.devRef .tc main_arg1)) (w (Proc.devRef .tc main_arg2)) := (K7_keep (W7 w) main_v106 (by decide)).trans (W7_v106 w)
theorem W8_call17_v5 (w : Valuation τ sig (Elt F)) : W8 w (Proc.devRef .tc main_call17_v5) = Cert.ReferenceIdeal.ReadP.val_main_call17_v5 (F := F) (w (Proc.devRef .tc main_arg1)) (w (Proc.devRef .tc main_arg2)) := by
  have h := K7_call17_v5 (W7 w)
  rw [W7_arg1 w, W7_arg2 w, set_self main_v156 _ _ (W7 w) (W7_v156 w)] at h
  exact h

theorem W9_arg0 (w : Valuation τ sig (Elt F)) : W9 w (Proc.devRef .tc main_arg0) = w (Proc.devRef .tc main_arg0) := (K8_keep (W8 w) main_arg0 (by decide)).trans (W8_arg0 w)
theorem W9_arg1 (w : Valuation τ sig (Elt F)) : W9 w (Proc.devRef .tc main_arg1) = w (Proc.devRef .tc main_arg1) := (K8_keep (W8 w) main_arg1 (by decide)).trans (W8_arg1 w)
theorem W9_arg2 (w : Valuation τ sig (Elt F)) : W9 w (Proc.devRef .tc main_arg2) = w (Proc.devRef .tc main_arg2) := (K8_keep (W8 w) main_arg2 (by decide)).trans (W8_arg2 w)
theorem W9_v1 (w : Valuation τ sig (Elt F)) : W9 w (Proc.devRef .tc main_v1) = Cert.ReferenceIdeal.ReadP.val_main_v1 (F := F) (w (Proc.devRef .tc main_arg2)) := (K8_keep (W8 w) main_v1 (by decide)).trans (W8_v1 w)
theorem W9_v2 (w : Valuation τ sig (Elt F)) : W9 w (Proc.devRef .tc main_v2) = Cert.ReferenceIdeal.ReadP.val_main_v51 (F := F) (w (Proc.devRef .tc main_arg0)) := (K8_keep (W8 w) main_v2 (by decide)).trans (W8_v2 w)
theorem W9_v54 (w : Valuation τ sig (Elt F)) : W9 w (Proc.devRef .tc main_v54) = Cert.ReferenceIdeal.ReadP.val_main_v54 (F := F) (w (Proc.devRef .tc main_arg0)) (w (Proc.devRef .tc main_arg1)) (w (Proc.devRef .tc main_arg2)) := (K8_keep (W8 w) main_v54 (by decide)).trans (W8_v54 w)
theorem W9_v106 (w : Valuation τ sig (Elt F)) : W9 w (Proc.devRef .tc main_v106) = Cert.ReferenceIdeal.ReadP.val_main_v107 (F := F) (w (Proc.devRef .tc main_arg0)) (w (Proc.devRef .tc main_arg1)) (w (Proc.devRef .tc main_arg2)) := (K8_keep (W8 w) main_v106 (by decide)).trans (W8_v106 w)
theorem W9_v158 (w : Valuation τ sig (Elt F)) : W9 w (Proc.devRef .tc main_v158) = Cert.ReferenceIdeal.ReadP.val_main_v160 (F := F) (w (Proc.devRef .tc main_arg0)) (w (Proc.devRef .tc main_arg1)) (w (Proc.devRef .tc main_arg2)) := by
  have h := K8_v158 (W8 w)
  rw [W8_arg0 w, W8_arg1 w, W8_arg2 w, set_self main_call17_v5 _ _ (W8 w) (W8_call17_v5 w), set_self main_v2 _ _ (W8 w) ((W8_v2 w).trans (v2_as_v157 _))] at h
  exact h

theorem W10_arg0 (w : Valuation τ sig (Elt F)) : W10 w (Proc.devRef .tc main_arg0) = w (Proc.devRef .tc main_arg0) := (K9_keep (W9 w) main_arg0 (by decide)).trans (W9_arg0 w)
theorem W10_arg1 (w : Valuation τ sig (Elt F)) : W10 w (Proc.devRef .tc main_arg1) = w (Proc.devRef .tc main_arg1) := (K9_keep (W9 w) main_arg1 (by decide)).trans (W9_arg1 w)
theorem W10_arg2 (w : Valuation τ sig (Elt F)) : W10 w (Proc.devRef .tc main_arg2) = w (Proc.devRef .tc main_arg2) := (K9_keep (W9 w) main_arg2 (by decide)).trans (W9_arg2 w)
theorem W10_v2 (w : Valuation τ sig (Elt F)) : W10 w (Proc.devRef .tc main_v2) = Cert.ReferenceIdeal.ReadP.val_main_v51 (F := F) (w (Proc.devRef .tc main_arg0)) := (K9_keep (W9 w) main_v2 (by decide)).trans (W9_v2 w)
theorem W10_v54 (w : Valuation τ sig (Elt F)) : W10 w (Proc.devRef .tc main_v54) = Cert.ReferenceIdeal.ReadP.val_main_v54 (F := F) (w (Proc.devRef .tc main_arg0)) (w (Proc.devRef .tc main_arg1)) (w (Proc.devRef .tc main_arg2)) := (K9_keep (W9 w) main_v54 (by decide)).trans (W9_v54 w)
theorem W10_v106 (w : Valuation τ sig (Elt F)) : W10 w (Proc.devRef .tc main_v106) = Cert.ReferenceIdeal.ReadP.val_main_v107 (F := F) (w (Proc.devRef .tc main_arg0)) (w (Proc.devRef .tc main_arg1)) (w (Proc.devRef .tc main_arg2)) := (K9_keep (W9 w) main_v106 (by decide)).trans (W9_v106 w)
theorem W10_v158 (w : Valuation τ sig (Elt F)) : W10 w (Proc.devRef .tc main_v158) = Cert.ReferenceIdeal.ReadP.val_main_v160 (F := F) (w (Proc.devRef .tc main_arg0)) (w (Proc.devRef .tc main_arg1)) (w (Proc.devRef .tc main_arg2)) := (K9_keep (W9 w) main_v158 (by decide)).trans (W9_v158 w)
theorem W10_v208 (w : Valuation τ sig (Elt F)) : W10 w (Proc.devRef .tc main_v208) = Cert.ReferenceIdeal.ReadP.val_main_v211 (F := F) (w (Proc.devRef .tc main_arg1)) (w (Proc.devRef .tc main_arg2)) := by
  have h := K9_v208 (W9 w)
  rw [W9_arg1 w, W9_arg2 w, set_self main_v1 _ _ (W9 w) (W9_v1 w)] at h
  exact h

theorem W11_arg0 (w : Valuation τ sig (Elt F)) : W11 w (Proc.devRef .tc main_arg0) = w (Proc.devRef .tc main_arg0) := (K10_keep (W10 w) main_arg0 (by decide)).trans (W10_arg0 w)
theorem W11_arg1 (w : Valuation τ sig (Elt F)) : W11 w (Proc.devRef .tc main_arg1) = w (Proc.devRef .tc main_arg1) := (K10_keep (W10 w) main_arg1 (by decide)).trans (W10_arg1 w)
theorem W11_arg2 (w : Valuation τ sig (Elt F)) : W11 w (Proc.devRef .tc main_arg2) = w (Proc.devRef .tc main_arg2) := (K10_keep (W10 w) main_arg2 (by decide)).trans (W10_arg2 w)
theorem W11_v2 (w : Valuation τ sig (Elt F)) : W11 w (Proc.devRef .tc main_v2) = Cert.ReferenceIdeal.ReadP.val_main_v51 (F := F) (w (Proc.devRef .tc main_arg0)) := (K10_keep (W10 w) main_v2 (by decide)).trans (W10_v2 w)
theorem W11_v54 (w : Valuation τ sig (Elt F)) : W11 w (Proc.devRef .tc main_v54) = Cert.ReferenceIdeal.ReadP.val_main_v54 (F := F) (w (Proc.devRef .tc main_arg0)) (w (Proc.devRef .tc main_arg1)) (w (Proc.devRef .tc main_arg2)) := (K10_keep (W10 w) main_v54 (by decide)).trans (W10_v54 w)
theorem W11_v106 (w : Valuation τ sig (Elt F)) : W11 w (Proc.devRef .tc main_v106) = Cert.ReferenceIdeal.ReadP.val_main_v107 (F := F) (w (Proc.devRef .tc main_arg0)) (w (Proc.devRef .tc main_arg1)) (w (Proc.devRef .tc main_arg2)) := (K10_keep (W10 w) main_v106 (by decide)).trans (W10_v106 w)
theorem W11_v158 (w : Valuation τ sig (Elt F)) : W11 w (Proc.devRef .tc main_v158) = Cert.ReferenceIdeal.ReadP.val_main_v160 (F := F) (w (Proc.devRef .tc main_arg0)) (w (Proc.devRef .tc main_arg1)) (w (Proc.devRef .tc main_arg2)) := (K10_keep (W10 w) main_v158 (by decide)).trans (W10_v158 w)
theorem W11_call23_v5 (w : Valuation τ sig (Elt F)) : W11 w (Proc.devRef .tc main_call23_v5) = Cert.ReferenceIdeal.ReadP.val_main_call23_v5 (F := F) (w (Proc.devRef .tc main_arg1)) (w (Proc.devRef .tc main_arg2)) := by
  have h := K10_call23_v5 (W10 w)
  rw [W10_arg1 w, W10_arg2 w, set_self main_v208 _ _ (W10 w) (W10_v208 w)] at h
  exact h

theorem W12_arg0 (w : Valuation τ sig (Elt F)) : W12 w (Proc.devRef .tc main_arg0) = w (Proc.devRef .tc main_arg0) := (K11_keep (W11 w) main_arg0 (by decide)).trans (W11_arg0 w)
theorem W12_arg1 (w : Valuation τ sig (Elt F)) : W12 w (Proc.devRef .tc main_arg1) = w (Proc.devRef .tc main_arg1) := (K11_keep (W11 w) main_arg1 (by decide)).trans (W11_arg1 w)
theorem W12_arg2 (w : Valuation τ sig (Elt F)) : W12 w (Proc.devRef .tc main_arg2) = w (Proc.devRef .tc main_arg2) := (K11_keep (W11 w) main_arg2 (by decide)).trans (W11_arg2 w)
theorem W12_v211 (w : Valuation τ sig (Elt F)) : W12 w (Proc.devRef .tc main_v211) = Cert.ReferenceIdeal.ReadP.val_main_v214 (F := F) (w (Proc.devRef .tc main_arg0)) (w (Proc.devRef .tc main_arg1)) (w (Proc.devRef .tc main_arg2)) := by
  have h := K11_v211 (W11 w)
  rw [W11_arg0 w, W11_arg1 w, W11_arg2 w, set_self main_call23_v5 _ _ (W11 w) (W11_call23_v5 w), set_self main_v2 _ _ (W11 w) ((W11_v2 w).trans (v2_as_v210 _)), set_self main_v54 _ _ (W11 w) (W11_v54 w), set_self main_v106 _ _ (W11 w) (W11_v106 w), set_self main_v158 _ _ (W11 w) (W11_v158 w)] at h
  exact h

theorem W13_arg0 (w : Valuation τ sig (Elt F)) : W13 w (Proc.devRef .tc main_arg0) = w (Proc.devRef .tc main_arg0) := (K12a_keep (W12 w) main_arg0 (by decide)).trans (W12_arg0 w)
theorem W13_arg1 (w : Valuation τ sig (Elt F)) : W13 w (Proc.devRef .tc main_arg1) = w (Proc.devRef .tc main_arg1) := (K12a_keep (W12 w) main_arg1 (by decide)).trans (W12_arg1 w)
theorem W13_arg2 (w : Valuation τ sig (Elt F)) : W13 w (Proc.devRef .tc main_arg2) = w (Proc.devRef .tc main_arg2) := (K12a_keep (W12 w) main_arg2 (by decide)).trans (W12_arg2 w)
theorem W13_v211 (w : Valuation τ sig (Elt F)) : W13 w (Proc.devRef .tc main_v211) = Cert.ReferenceIdeal.ReadP.val_main_v214 (F := F) (w (Proc.devRef .tc main_arg0)) (w (Proc.devRef .tc main_arg1)) (w (Proc.devRef .tc main_arg2)) := (K12a_keep (W12 w) main_v211 (by decide)).trans (W12_v211 w)
theorem W13_v212 (w : Valuation τ sig (Elt F)) : W13 w (Proc.devRef .tc main_v212) = Cert.ReferenceIdeal.ReadP.val_main_v215 (F := F) (w (Proc.devRef .tc main_arg0)) := by
  have h := K12a_v212 (W12 w)
  rw [W12_arg0 w] at h
  exact h

theorem W14_arg0 (w : Valuation τ sig (Elt F)) : W14 w (Proc.devRef .tc main_arg0) = w (Proc.devRef .tc main_arg0) := (K12b_keep (W13 w) main_arg0 (by decide)).trans (W13_arg0 w)
theorem W14_arg1 (w : Valuation τ sig (Elt F)) : W14 w (Proc.devRef .tc main_arg1) = w (Proc.devRef .tc main_arg1) := (K12b_keep (W13 w) main_arg1 (by decide)).trans (W13_arg1 w)
theorem W14_arg2 (w : Valuation τ sig (Elt F)) : W14 w (Proc.devRef .tc main_arg2) = w (Proc.devRef .tc main_arg2) := (K12b_keep (W13 w) main_arg2 (by decide)).trans (W13_arg2 w)
theorem W14_v211 (w : Valuation τ sig (Elt F)) : W14 w (Proc.devRef .tc main_v211) = Cert.ReferenceIdeal.ReadP.val_main_v214 (F := F) (w (Proc.devRef .tc main_arg0)) (w (Proc.devRef .tc main_arg1)) (w (Proc.devRef .tc main_arg2)) := (K12b_keep (W13 w) main_v211 (by decide)).trans (W13_v211 w)
theorem W14_v231 (w : Valuation τ sig (Elt F)) : W14 w (Proc.devRef .tc main_v231) = Cert.ReferenceIdeal.ReadP.val_main_v234 (F := F) (w (Proc.devRef .tc main_arg0)) := by
  have h := K12b_v231 (W13 w)
  rw [W13_arg0 w, set_self main_v212 _ _ (W13 w) (W13_v212 w)] at h
  exact h

theorem W15_arg0 (w : Valuation τ sig (Elt F)) : W15 w (Proc.devRef .tc main_arg0) = w (Proc.devRef .tc main_arg0) := (K12c_keep (W14 w) main_arg0 (by decide)).trans (W14_arg0 w)
theorem W15_arg1 (w : Valuation τ sig (Elt F)) : W15 w (Proc.devRef .tc main_arg1) = w (Proc.devRef .tc main_arg1) := (K12c_keep (W14 w) main_arg1 (by decide)).trans (W14_arg1 w)
theorem W15_arg2 (w : Valuation τ sig (Elt F)) : W15 w (Proc.devRef .tc main_arg2) = w (Proc.devRef .tc main_arg2) := (K12c_keep (W14 w) main_arg2 (by decide)).trans (W14_arg2 w)
theorem W15_v235 (w : Valuation τ sig (Elt F)) : W15 w (Proc.devRef .tc main_v235) = Cert.ReferenceIdeal.ReadP.val_main_v238 (F := F) (w (Proc.devRef .tc main_arg0)) (w (Proc.devRef .tc main_arg1)) (w (Proc.devRef .tc main_arg2)) := by
  have h := K12c_v235 (W14 w)
  rw [W14_arg0 w, W14_arg1 w, W14_arg2 w, set_self main_v211 _ _ (W14 w) (W14_v211 w), set_self main_v231 _ _ (W14 w) (W14_v231 w)] at h
  exact h

theorem W16_arg0 (w : Valuation τ sig (Elt F)) : W16 w (Proc.devRef .tc main_arg0) = w (Proc.devRef .tc main_arg0) := (K13_keep (W15 w) main_arg0 (by decide)).trans (W15_arg0 w)
theorem W16_arg1 (w : Valuation τ sig (Elt F)) : W16 w (Proc.devRef .tc main_arg1) = w (Proc.devRef .tc main_arg1) := (K13_keep (W15 w) main_arg1 (by decide)).trans (W15_arg1 w)
theorem W16_arg2 (w : Valuation τ sig (Elt F)) : W16 w (Proc.devRef .tc main_arg2) = w (Proc.devRef .tc main_arg2) := (K13_keep (W15 w) main_arg2 (by decide)).trans (W15_arg2 w)
theorem W16_v235 (w : Valuation τ sig (Elt F)) : W16 w (Proc.devRef .tc main_v235) = Cert.ReferenceIdeal.ReadP.val_main_v238 (F := F) (w (Proc.devRef .tc main_arg0)) (w (Proc.devRef .tc main_arg1)) (w (Proc.devRef .tc main_arg2)) := (K13_keep (W15 w) main_v235 (by decide)).trans (W15_v235 w)

/-- From any memory: after the operations before the region, the buffer the region stages its input rows from holds the
    reference's [131072, 833] stage of the first three arguments' contents. -/
theorem head_gen (w : Valuation τ sig (Elt F)) :
    StableHlo.after (List.flatten (pre (F := F))) w (Proc.devRef .tc main_v235)
      = Cert.ReferenceIdeal.ReadP.val_main_v238 (F := F) (w (Proc.devRef .tc main_arg0)) (w (Proc.devRef .tc main_arg1)) (w (Proc.devRef .tc main_arg2)) := by
  rw [pre_eq, K12_eq]
  simp only [StableHlo.after_append]
  exact W16_v235 w

end Cert.KHead

namespace Cert.Head

open Idealize.ShloMosaic Idealize.ShloMosaic.TcCoe Idealize.SL.Sem

/-- The array the kernel region reads its input rows from is the reference program's [131072, 833] stage of the launch's
    first three arguments. -/
theorem head_eq (m : (ℓ : Loc Cert.KernelIdeal.nD Cert.KernelIdeal.τ Cert.KernelIdeal.sig) → Buf (Elt Ideal) ℓ) (c : Dev Cert.KernelIdeal.nD) :
    Cert.KernelIdeal.Mlp.V (F := Ideal) m c Cert.KernelIdeal.main_v235
      = Cert.ReferenceIdeal.ReadP.val_main_v238 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) :=
  Cert.KHead.head_gen (F := Ideal) (fun b => m (c, b))

end Cert.Head

end
-- ==== Proof.Bias.lean ====
/-
  The biases as the kernel region finds them.

  The host operations before the region are cut into 51 stretches.  The last stretch ends with five reshapes, of
  the bias arguments ([256], [256], [256], [256], [3]) to one-row matrices ([1, 256] …, [1, 3]); no operation of
  the first 50 stretches writes a bias argument.  So the memory the region enters holds, in each reshaped buffer at
  `(0, n)`, the bias argument's launch contents at `n`: the fold over the operations is split after the 50th
  stretch, the first part leaves the five arguments as launched, and the last part is stepped through.
-/
import proofs.«145896_j91079076479405_1_alg».proof.Proof.KEntry
import Idealize.ShloMosaic.Lib.StableHlo.Run
import Idealize.ShloMosaic.Lib.ValueIdx
import Idealize.ShloMosaic.Lib.Pipeline.Value

noncomputable section

namespace Cert.Head

open Idealize.ShloMosaic Idealize.ShloMosaic.TcCoe Idealize.SL.Sem Idealize.ShloMosaic.StableHlo Idealize.ShloMosaic.ValueIdx
open Cert.KernelIdeal Cert.KernelIdeal.Gen Cert.KernelIdeal.Mlp

variable {F : FTy → Type} [FloatOps F]

set_option maxRecDepth 16384

/-! ## The fold split after the 50th stretch -/

/-- The stretches of host operations before the last one. -/
def init : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49]

/-- Core `c`'s buffer contents before the last stretch of host operations. -/
abbrev W (m : (ℓ : Loc nD τ sig) → Buf (Elt F) ℓ) (c : Dev nD) : Valuation τ sig (Elt F) :=
  StableHlo.after (List.flatten (init (F := F))) (fun b => m (c, b))

/-- The contents at region entry are the last stretch run from there. -/
theorem V0_split (m : (ℓ : Loc nD τ sig) → Buf (Elt F) ℓ) (c : Dev nD) :
    V0 m c = StableHlo.after hostOps0_50 (W m c) := by
  show StableHlo.after (List.flatten (init (F := F) ++ [hostOps0_50])) _ = _
  rw [List.flatten_append, StableHlo.after_append, List.flatten_cons, List.flatten_nil, List.append_nil]

/-- No operation of the first 50 stretches writes a bias argument: each writes its own result buffer. -/
theorem init_keeps : (List.flatten (init (F := F))).Forall fun op =>
    (Proc.devRef .tc main_arg4 : DevRef τ sig) ∉ op.writes ∧ (Proc.devRef .tc main_arg6 : DevRef τ sig) ∉ op.writes
    ∧ (Proc.devRef .tc main_arg8 : DevRef τ sig) ∉ op.writes ∧ (Proc.devRef .tc main_arg10 : DevRef τ sig) ∉ op.writes
    ∧ (Proc.devRef .tc main_arg12 : DevRef τ sig) ∉ op.writes := by
  simp only [init, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)

theorem W_main_arg4 (m : (ℓ : Loc nD τ sig) → Buf (Elt F) ℓ) (c : Dev nD) :
    W m c (Proc.devRef .tc main_arg4) = m ((c : Thread nD τ).loc main_arg4) :=
  StableHlo.after_of_forall_not_mem (b := Proc.devRef .tc main_arg4) _ _
    (fun op hop => ((List.forall_iff_forall_mem.mp init_keeps) op hop).1)

theorem W_main_arg6 (m : (ℓ : Loc nD τ sig) → Buf (Elt F) ℓ) (c : Dev nD) :
    W m c (Proc.devRef .tc main_arg6) = m ((c : Thread nD τ).loc main_arg6) :=
  StableHlo.after_of_forall_not_mem (b := Proc.devRef .tc main_arg6) _ _
    (fun op hop => ((List.forall_iff_forall_mem.mp init_keeps) op hop).2.1)

theorem W_main_arg8 (m : (ℓ : Loc nD τ sig) → Buf (Elt F) ℓ) (c : Dev nD) :
    W m c (Proc.devRef .tc main_arg8) = m ((c : Thread nD τ).loc main_arg8) :=
  StableHlo.after_of_forall_not_mem (b := Proc.devRef .tc main_arg8) _ _
    (fun op hop => ((List.forall_iff_forall_mem.mp init_keeps) op hop).2.2.1)

theorem W_main_arg10 (m : (ℓ : Loc nD τ sig) → Buf (Elt F) ℓ) (c : Dev nD) :
    W m c (Proc.devRef .tc main_arg10) = m ((c : Thread nD τ).loc main_arg10) :=
  StableHlo.after_of_forall_not_mem (b := Proc.devRef .tc main_arg10) _ _
    (fun op hop => ((List.forall_iff_forall_mem.mp init_keeps) op hop).2.2.2.1)

theorem W_main_arg12 (m : (ℓ : Loc nD τ sig) → Buf (Elt F) ℓ) (c : Dev nD) :
    W m c (Proc.devRef .tc main_arg12) = m ((c : Thread nD τ).loc main_arg12) :=
  StableHlo.after_of_forall_not_mem (b := Proc.devRef .tc main_arg12) _ _
    (fun op hop => ((List.forall_iff_forall_mem.mp init_keeps) op hop).2.2.2.2)

/-! ## The five reshapes of the last stretch, read at `(0, n)` -/

/-- Bias 0 as the region finds it: the last stretch reshapes argument `main_arg4` ([256]) to `main_v236` ([1, 256]). -/
theorem last_main_v236 (w : Valuation τ sig (Elt F)) :
    (StableHlo.after hostOps0_50 w (Proc.devRef .tc main_v236) : S1x256.Idx → Elt F .f32)
      = shapeCast S1x256 (w (Proc.devRef .tc main_arg4) : S256.Idx → Elt F .f32) shapeCasts_S256_S1x256 := by
  after_results
  rfl

theorem bias0 (m : (ℓ : Loc nD τ sig) → Buf (Elt F) ℓ) (c : Dev nD) (n : Fin 256) :
    V (F := F) m c main_v236 (ix2 (0 : Fin 1) n) = m ((c : Thread nD τ).loc main_arg4) (ix1 n) := by
  show V0 m c (Proc.devRef .tc main_v236) (ix2 (0 : Fin 1) n) = _
  rw [V0_split, last_main_v236, W_main_arg4]
  exact shapeCast_apply _ shapeCasts_S256_S1x256 (ix2 (0 : Fin 1) n) (ix1 n)
    (by rw [Shape.rowMajor_val_one, Shape.rowMajor_val_two]; show n.val = 0 * 256 + n.val; omega)

/-- Bias 1 as the region finds it: the last stretch reshapes argument `main_arg6` ([256]) to `main_v237` ([1, 256]). -/
theorem last_main_v237 (w : Valuation τ sig (Elt F)) :
    (StableHlo.after hostOps0_50 w (Proc.devRef .tc main_v237) : S1x256.Idx → Elt F .f32)
      = shapeCast S1x256 (w (Proc.devRef .tc main_arg6) : S256.Idx → Elt F .f32) shapeCasts_S256_S1x256 := by
  after_results
  rfl

theorem bias1 (m : (ℓ : Loc nD τ sig) → Buf (Elt F) ℓ) (c : Dev nD) (n : Fin 256) :
    V (F := F) m c main_v237 (ix2 (0 : Fin 1) n) = m ((c : Thread nD τ).loc main_arg6) (ix1 n) := by
  show V0 m c (Proc.devRef .tc main_v237) (ix2 (0 : Fin 1) n) = _
  rw [V0_split, last_main_v237, W_main_arg6]
  exact shapeCast_apply _ shapeCasts_S256_S1x256 (ix2 (0 : Fin 1) n) (ix1 n)
    (by rw [Shape.rowMajor_val_one, Shape.rowMajor_val_two]; show n.val = 0 * 256 + n.val; omega)

/-- Bias 2 as the region finds it: the last stretch reshapes argument `main_arg8` ([256]) to `main_v238` ([1, 256]). -/
theorem last_main_v238 (w : Valuation τ sig (Elt F)) :
    (StableHlo.after hostOps0_50 w (Proc.devRef .tc main_v238) : S1x256.Idx → Elt F .f32)
      = shapeCast S1x256 (w (Proc.devRef .tc main_arg8) : S256.Idx → Elt F .f32) shapeCasts_S256_S1x256 := by
  after_results
  rfl

theorem bias2 (m : (ℓ : Loc nD τ sig) → Buf (Elt F) ℓ) (c : Dev nD) (n : Fin 256) :
    V (F := F) m c main_v238 (ix2 (0 : Fin 1) n) = m ((c : Thread nD τ).loc main_arg8) (ix1 n) := by
  show V0 m c (Proc.devRef .tc main_v238) (ix2 (0 : Fin 1) n) = _
  rw [V0_split, last_main_v238, W_main_arg8]
  exact shapeCast_apply _ shapeCasts_S256_S1x256 (ix2 (0 : Fin 1) n) (ix1 n)
    (by rw [Shape.rowMajor_val_one, Shape.rowMajor_val_two]; show n.val = 0 * 256 + n.val; omega)

/-- Bias 3 as the region finds it: the last stretch reshapes argument `main_arg10` ([256]) to `main_v239` ([1, 256]). -/
theorem last_main_v239 (w : Valuation τ sig (Elt F)) :
    (StableHlo.after hostOps0_50 w (Proc.devRef .tc main_v239) : S1x256.Idx → Elt F .f32)
      = shapeCast S1x256 (w (Proc.devRef .tc main_arg10) : S256.Idx → Elt F .f32) shapeCasts_S256_S1x256 := by
  after_results
  rfl

theorem bias3 (m : (ℓ : Loc nD τ sig) → Buf (Elt F) ℓ) (c : Dev nD) (n : Fin 256) :
    V (F := F) m c main_v239 (ix2 (0 : Fin 1) n) = m ((c : Thread nD τ).loc main_arg10) (ix1 n) := by
  show V0 m c (Proc.devRef .tc main_v239) (ix2 (0 : Fin 1) n) = _
  rw [V0_split, last_main_v239, W_main_arg10]
  exact shapeCast_apply _ shapeCasts_S256_S1x256 (ix2 (0 : Fin 1) n) (ix1 n)
    (by rw [Shape.rowMajor_val_one, Shape.rowMajor_val_two]; show n.val = 0 * 256 + n.val; omega)

/-- Bias 4 as the region finds it: the last stretch reshapes argument `main_arg12` ([3]) to `main_v240` ([1, 3]). -/
theorem last_main_v240 (w : Valuation τ sig (Elt F)) :
    (StableHlo.after hostOps0_50 w (Proc.devRef .tc main_v240) : S1x3.Idx → Elt F .f32)
      = shapeCast S1x3 (w (Proc.devRef .tc main_arg12) : S3.Idx → Elt F .f32) shapeCasts_S3_S1x3 := by
  after_results
  rfl

theorem bias4 (m : (ℓ : Loc nD τ sig) → Buf (Elt F) ℓ) (c : Dev nD) (n : Fin 3) :
    V (F := F) m c main_v240 (ix2 (0 : Fin 1) n) = m ((c : Thread nD τ).loc main_arg12) (ix1 n) := by
  show V0 m c (Proc.devRef .tc main_v240) (ix2 (0 : Fin 1) n) = _
  rw [V0_split, last_main_v240, W_main_arg12]
  exact shapeCast_apply _ shapeCasts_S3_S1x3 (ix2 (0 : Fin 1) n) (ix1 n)
    (by rw [Shape.rowMajor_val_one, Shape.rowMajor_val_two]; show n.val = 0 * 3 + n.val; omega)

end Cert.Head

end
-- ==== Proof.Bridge.lean ====
/-
  The two programs compute one function.

  The kernel program's result array is the network applied to every row of the array x that its host operations
  build, with the weight matrices as launched and the biases read off their [1, N] reshapes; the reference's result
  is the network applied to every row of ITS x, with the weights and biases as launched.  The two x arrays are the
  same function of the first three arguments (the same host operations in both programs), a bias reshaped to [1, N]
  and read at (0, n) is the bias at n, and no host operation writes an argument.  So, on memories that agree on the
  arguments, the two results are equal index by index.  No law of the extended reals is used: both sides are the
  same sums, products and maxima in the same order.
-/
import proofs.«145896_j91079076479405_1_alg».proof.Proof.KValue
import proofs.«145896_j91079076479405_1_alg».proof.Proof.KHead
import proofs.«145896_j91079076479405_1_alg».proof.Proof.Bias
import proofs.«145896_j91079076479405_1_alg».proof.Proof.RefValue

noncomputable section

namespace Cert.Bridge

open Idealize.ShloMosaic Idealize.ShloMosaic.ValueIdx Idealize.ShloMosaic.TcCoe Idealize.SL.Sem

/-- The network on every row is a function of its eleven arrays. -/
theorem mlp2d_congr {X X' : (⟨2, ![131072, 833]⟩ : Shape).Idx → EReal} {w0 w0' : (⟨2, ![833, 256]⟩ : Shape).Idx → EReal} {b0 b0' : (⟨1, ![256]⟩ : Shape).Idx → EReal} {w1 w1' : (⟨2, ![256, 256]⟩ : Shape).Idx → EReal} {b1 b1' : (⟨1, ![256]⟩ : Shape).Idx → EReal} {w2 w2' : (⟨2, ![256, 256]⟩ : Shape).Idx → EReal} {b2 b2' : (⟨1, ![256]⟩ : Shape).Idx → EReal} {w3 w3' : (⟨2, ![256, 256]⟩ : Shape).Idx → EReal} {b3 b3' : (⟨1, ![256]⟩ : Shape).Idx → EReal} {w4 w4' : (⟨2, ![256, 3]⟩ : Shape).Idx → EReal} {b4 b4' : (⟨1, ![3]⟩ : Shape).Idx → EReal}
    (hX : X = X') (hw0 : w0 = w0') (hb0 : b0 = b0') (hw1 : w1 = w1') (hb1 : b1 = b1') (hw2 : w2 = w2') (hb2 : b2 = b2') (hw3 : w3 = w3') (hb3 : b3 = b3') (hw4 : w4 = w4') (hb4 : b4 = b4') :
    Cert.MlpSpec.mlp2d X w0 b0 w1 b1 w2 b2 w3 b3 w4 b4 = Cert.MlpSpec.mlp2d X' w0' b0' w1' b1' w2' b2' w3' b3' w4' b4' := by
  subst hX hw0 hb0 hw1 hb1 hw2 hb2 hw3 hb3 hw4 hb4; rfl

/-- The reference's last stage is a function of its thirteen argument arrays. -/
theorem stage_congr {x0 y0 : (⟨Cert.ReferenceIdeal.S2x64x256x256, .f32⟩ : BufTy).Contents (Elt Ideal)} {x1 y1 : (⟨Cert.ReferenceIdeal.S2x65536x2, .f32⟩ : BufTy).Contents (Elt Ideal)} {x2 y2 : (⟨Cert.ReferenceIdeal.S2x65536x1, .f32⟩ : BufTy).Contents (Elt Ideal)} {x3 y3 : (⟨Cert.ReferenceIdeal.S833x256, .f32⟩ : BufTy).Contents (Elt Ideal)} {x4 y4 : (⟨Cert.ReferenceIdeal.S256, .f32⟩ : BufTy).Contents (Elt Ideal)} {x5 y5 : (⟨Cert.ReferenceIdeal.S256x256, .f32⟩ : BufTy).Contents (Elt Ideal)} {x6 y6 : (⟨Cert.ReferenceIdeal.S256, .f32⟩ : BufTy).Contents (Elt Ideal)} {x7 y7 : (⟨Cert.ReferenceIdeal.S256x256, .f32⟩ : BufTy).Contents (Elt Ideal)} {x8 y8 : (⟨Cert.ReferenceIdeal.S256, .f32⟩ : BufTy).Contents (Elt Ideal)} {x9 y9 : (⟨Cert.ReferenceIdeal.S256x256, .f32⟩ : BufTy).Contents (Elt Ideal)} {x10 y10 : (⟨Cert.ReferenceIdeal.S256, .f32⟩ : BufTy).Contents (Elt Ideal)} {x11 y11 : (⟨Cert.ReferenceIdeal.S256x3, .f32⟩ : BufTy).Contents (Elt Ideal)} {x12 y12 : (⟨Cert.ReferenceIdeal.S3, .f32⟩ : BufTy).Contents (Elt Ideal)}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) :
    Cert.ReferenceIdeal.ReadP.val_main_v263 (F := Ideal) x0 x1 x2 x3 x4 x5 x6 x7 x8 x9 x10 x11 x12
      = Cert.ReferenceIdeal.ReadP.val_main_v263 (F := Ideal) y0 y1 y2 y3 y4 y5 y6 y7 y8 y9 y10 y11 y12 := by
  subst h0 h1 h2 h3 h4 h5 h6 h7 h8 h9 h10 h11 h12; rfl

/-- The kernel program's result before the last reshape, as the network on the reference's x stage of the launch
    arguments, with the weights and biases as launched. -/
theorem G_eq (m : (ℓ : Loc Cert.KernelIdeal.nD Cert.KernelIdeal.τ Cert.KernelIdeal.sig) → Buf (Elt Ideal) ℓ) (c : Dev Cert.KernelIdeal.nD) :
    Cert.KernelIdeal.MlpValue.G m c
      = Cert.MlpSpec.mlp2d (Cert.ReferenceIdeal.ReadP.val_main_v238 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
          (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  unfold Cert.KernelIdeal.MlpValue.G
  exact mlp2d_congr (Cert.Head.head_eq m c)
    (Cert.KernelIdeal.Mlp.V_main_arg3 (F := Ideal) m c)
    (funext fun i => (Cert.Head.bias0 m c (i 0)).trans (congrArg _ (eq_ix1 i).symm))
    (Cert.KernelIdeal.Mlp.V_main_arg5 (F := Ideal) m c)
    (funext fun i => (Cert.Head.bias1 m c (i 0)).trans (congrArg _ (eq_ix1 i).symm))
    (Cert.KernelIdeal.Mlp.V_main_arg7 (F := Ideal) m c)
    (funext fun i => (Cert.Head.bias2 m c (i 0)).trans (congrArg _ (eq_ix1 i).symm))
    (Cert.KernelIdeal.Mlp.V_main_arg9 (F := Ideal) m c)
    (funext fun i => (Cert.Head.bias3 m c (i 0)).trans (congrArg _ (eq_ix1 i).symm))
    (Cert.KernelIdeal.Mlp.V_main_arg11 (F := Ideal) m c)
    (funext fun i => (Cert.Head.bias4 m c (i 0)).trans (congrArg _ (eq_ix1 i).symm))

end Cert.Bridge

end
-- ==== Proof.lean ====
/- The proof of `Cert.Claim`: frame_Kernel ∧ frame_KernelIdeal ∧ frame_ReferenceIdeal ∧ preserves_Kernel_KernelIdeal ∧ algebraic_KernelIdeal_ReferenceIdeal.

   Each of the two kernel programs runs to its end and leaves its thirteen arguments as launched (the host operations
   write no argument, and the region's output windows lie in its own result buffer).  The reference is a straight line of
   host operations: it runs to its end with its arguments as launched and its result buffer at the last stage of the
   program read from the arguments.  The idealization rewrote no operation, so `preserves` is `True`.  For the value
   claim: the kernel program's result is the five-layer network applied to every row of the array its host operations
   build, and that array, the weights and the biases are what the reference applies the same network to; on memories
   agreeing on the arguments the two results are equal index by index. -/
import proofs.«145896_j91079076479405_1_alg».proof.Defs
import proofs.«145896_j91079076479405_1_alg».proof.Proof.Gen.Kernel
import proofs.«145896_j91079076479405_1_alg».proof.Proof.Gen.Kernel.Skeleton
import proofs.«145896_j91079076479405_1_alg».proof.Proof.Gen.Kernel.Launch
import proofs.«145896_j91079076479405_1_alg».proof.Proof.Gen.Kernel.Points
import proofs.«145896_j91079076479405_1_alg».proof.Proof.Gen.KernelIdeal
import proofs.«145896_j91079076479405_1_alg».proof.Proof.Gen.KernelIdeal.Skeleton
import proofs.«145896_j91079076479405_1_alg».proof.Proof.Gen.KernelIdeal.Launch
import proofs.«145896_j91079076479405_1_alg».proof.Proof.Gen.KernelIdeal.Points
import proofs.«145896_j91079076479405_1_alg».proof.Proof.Gen.ReferenceIdeal
import proofs.«145896_j91079076479405_1_alg».proof.Proof.Gen.Pre_finite_inputs
import proofs.«145896_j91079076479405_1_alg».proof.Proof.KFrameBits
import proofs.«145896_j91079076479405_1_alg».proof.Proof.KFrame
import proofs.«145896_j91079076479405_1_alg».proof.Proof.KValue
import proofs.«145896_j91079076479405_1_alg».proof.Proof.RefValue
import proofs.«145896_j91079076479405_1_alg».proof.Proof.RefRun
import proofs.«145896_j91079076479405_1_alg».proof.Proof.Bridge
import Idealize.ShloMosaic.Adequacy
import Idealize.ShloMosaic.Init

noncomputable section

namespace Cert.Proof

open Idealize.ShloMosaic Idealize.ShloMosaic.TcCoe Idealize.SL.Sem

/-- The reference program runs to its end and leaves its thirteen arguments as launched. -/
theorem frame_ref : Cert.frame_ReferenceIdeal := fun m ρ _ =>
  (θ_run Cert.ReferenceIdeal.defs _ _).mono (fun _ h c => (h c).2) (Cert.ReferenceIdeal.ValueP.run m ρ)

/-- The value claim, from the reference's run and the kernel program's result as the network on the reference's
    input stage. -/
theorem algebraic
    (href : ∀ (m' : (ℓ : Loc Cert.ReferenceIdeal.nD Cert.ReferenceIdeal.τ Cert.ReferenceIdeal.sig) → Buf (Elt Ideal) ℓ) (ρ' : Dev Cert.ReferenceIdeal.nD → PrngReg),
      θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
          r.2.mem ((c.tc : Thread Cert.ReferenceIdeal.nD Cert.ReferenceIdeal.τ).loc Cert.ReferenceIdeal.main_v263) = Cert.ReferenceIdeal.ReadP.val_main_v263 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)))
    (hG : ∀ (m : (ℓ : Loc Cert.KernelIdeal.nD Cert.KernelIdeal.τ Cert.KernelIdeal.sig) → Buf (Elt Ideal) ℓ) (c : Dev Cert.KernelIdeal.nD),
      Cert.KernelIdeal.MlpValue.G m c = Cert.MlpSpec.mlp2d (Cert.ReferenceIdeal.ReadP.val_main_v238 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) :
    Cert.algebraic_KernelIdeal_ReferenceIdeal := by
  intro m ρ m' ρ' _ hagree
  refine ⟨fun c => shapeCast Cert.KernelIdeal.S2x65536x3 (Cert.KernelIdeal.MlpValue.G m c) Cert.KernelIdeal.Gen.shapeCasts_S131072x3_S2x65536x3,
    Cert.KernelIdeal.MlpValue.kernel_run m ρ, ?_⟩
  refine (θ_run Cert.ReferenceIdeal.defs _ _).mono (fun r h c => ⟨(h c).1.trans ?_, (h c).2⟩) (href m' ρ')
  exact (Cert.Bridge.stage_congr (hagree c).1
      (hagree c).2.1
      (hagree c).2.2.1
      (hagree c).2.2.2.1
      (hagree c).2.2.2.2.1
      (hagree c).2.2.2.2.2.1
      (hagree c).2.2.2.2.2.2.1
      (hagree c).2.2.2.2.2.2.2.1
      (hagree c).2.2.2.2.2.2.2.2.1
      (hagree c).2.2.2.2.2.2.2.2.2.1
      (hagree c).2.2.2.2.2.2.2.2.2.2.1
      (hagree c).2.2.2.2.2.2.2.2.2.2.2.1
      (hagree c).2.2.2.2.2.2.2.2.2.2.2.2).trans
    ((Cert.ReferenceIdeal.RefValue.ref_value _ _ _ _ _ _ _ _ _ _ _ _ _).trans
      (congrArg (fun g => shapeCast Cert.KernelIdeal.S2x65536x3 g Cert.KernelIdeal.Gen.shapeCasts_S131072x3_S2x65536x3) (hG m c).symm))

theorem claim : Cert.Claim := ⟨Cert.Kernel.Gen.facts, Cert.KernelIdeal.Gen.facts, Cert.ReferenceIdeal.Gen.facts, Cert.Pre_finite_inputs.Gen.facts,
  fun m ρ _ => Cert.Kernel.Mlp.frame m ρ,
  fun m ρ _ => Cert.KernelIdeal.Mlp.frame m ρ,
  frame_ref,
  trivial,
  algebraic Cert.ReferenceIdeal.ValueP.run Cert.Bridge.G_eq⟩

end Cert.Proof

end
